-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))

def preserves_Kernel_KernelIdeal : Prop :=
  IdealRules.named_const.Statement Cert.KernelIdeal.κ "inv_r0" .f32 0x41200000#32 ((134217728 / 13421773 : ℝ) : EReal)
  ∧ IdealRules.named_const.Statement Cert.KernelIdeal.κ "inv_r1" .f32 0x40A00000#32 ((67108864 / 13421773 : ℝ) : EReal)
  ∧ IdealRules.named_const.Statement Cert.KernelIdeal.κ "inv_r2" .f32 0x3EC8D312#32 ((4194304 / 10693335 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1 : Shape := ⟨2, ![262144, 1]⟩
abbrev S262144x3 : Shape := ⟨2, ![262144, 3]⟩
abbrev S8000x3 : Shape := ⟨2, ![8000, 3]⟩
abbrev S1000x3 : Shape := ⟨2, ![1000, 3]⟩
abbrev S8x3 : Shape := ⟨2, ![8, 3]⟩
abbrev S980628 : Shape := ⟨1, ![980628]⟩
abbrev S26578 : Shape := ⟨1, ![26578]⟩
abbrev S1000 : Shape := ⟨1, ![1000]⟩
abbrev S3x16 : Shape := ⟨2, ![3, 16]⟩
abbrev S16 : Shape := ⟨1, ![16]⟩
abbrev S16x128 : Shape := ⟨2, ![16, 128]⟩
abbrev S128 : Shape := ⟨1, ![128]⟩
abbrev S2048x256 : Shape := ⟨2, ![2048, 256]⟩
abbrev S256 : Shape := ⟨1, ![256]⟩
abbrev S4096x512 : Shape := ⟨2, ![4096, 512]⟩
abbrev S512 : Shape := ⟨1, ![512]⟩
abbrev S512x128 : Shape := ⟨2, ![512, 128]⟩
abbrev S_ : Shape := ⟨0, ![]⟩

class Facts : Prop where
  bcast_S_S262144x1 : S_.BroadcastsInDim S262144x1 (![] : Fin 0 → Fin S262144x1.rank)
  reducesTo_S262144x1_S_d0_1 : S262144x1.ReducesTo [0, 1] S_
  h_S_ : 0 < S_.numel
  bcast_S_S262144x3 : S_.BroadcastsInDim S262144x3 (![] : Fin 0 → Fin S262144x3.rank)
  reducesTo_S262144x3_S_d0_1 : S262144x3.ReducesTo [0, 1] S_
  bcast_S_S8000x3 : S_.BroadcastsInDim S8000x3 (![] : Fin 0 → Fin S8000x3.rank)
  reducesTo_S8000x3_S_d0_1 : S8000x3.ReducesTo [0, 1] S_
  bcast_S_S1000x3 : S_.BroadcastsInDim S1000x3 (![] : Fin 0 → Fin S1000x3.rank)
  reducesTo_S1000x3_S_d0_1 : S1000x3.ReducesTo [0, 1] S_
  bcast_S_S8x3 : S_.BroadcastsInDim S8x3 (![] : Fin 0 → Fin S8x3.rank)
  reducesTo_S8x3_S_d0_1 : S8x3.ReducesTo [0, 1] S_
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_
  bcast_S_S128 : S_.BroadcastsInDim S128 (![] : Fin 0 → Fin S128.rank)
  reducesTo_S128_S_d0 : S128.ReducesTo [0] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_

variable [Facts]

def fn_part6 {F : FTy → Type} [FloatOps F] (main_arg27 : FVec F S128 .f32) (main_arg28 : FVec F S128 .f32) (main_arg29 : FVec F S128 .f32) (main_v98 : IVec S_ 1) (main_v101 : IVec S512x128 1) (main_c_39 : IVec S_ 1) : IVec S_ 1 :=
  let main_v102 : IVec S_ 1 := (fun x v => Host.reduce IntOp.andi x v reducesTo_S512x128_S_d0_1 h_S_) main_v101 main_c_39
  let main_v103 : IVec S_ 1 := andi main_v98 main_v102
  let main_v104 : FVec F S128 .f32 := Host.absf main_arg27
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg28
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg29
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  main_v118

def fn_part5 {F : FTy → Type} [FloatOps F] (main_arg24 : FVec F S512 .f32) (main_arg25 : FVec F S512 .f32) (main_arg26 : FVec F S512x128 .f32) (main_arg27 : FVec F S128 .f32) (main_arg28 : FVec F S128 .f32) (main_arg29 : FVec F S128 .f32) (main_v83 : IVec S_ 1) (main_v84 : FVec F S4096x512 .f32) (main_cst_32 : FVec F S_ .f32) : IVec S_ 1 :=
  let main_v85 : FVec F S4096x512 .f32 := broadcastInDim S4096x512 ![] bcast_S_S4096x512 main_cst_32
  let main_v86 : IVec S4096x512 1 := cmpf .olt main_v84 main_v85
  let main_c_33 : IVec S_ 1 := constantI S_ 1 1#1
  let main_v87 : IVec S_ 1 := (fun x v => Host.reduce IntOp.andi x v reducesTo_S4096x512_S_d0_1 h_S_) main_v86 main_c_33
  let main_v88 : IVec S_ 1 := andi main_v83 main_v87
  let main_v89 : FVec F S512 .f32 := Host.absf main_arg24
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512 .f32 := Host.absf main_arg25
  let main_cst_36 : FVec F S_ .f32 := constant S_ .f32 0x7F800000#32
  let main_v95 : FVec F S512 .f32 := broadcastInDim S512 ![] bcast_S_S512 main_cst_36
  let main_v96 : IVec S512 1 := cmpf .olt main_v94 main_v95
  let main_c_37 : IVec S_ 1 := constantI S_ 1 1#1
  let main_v97 : IVec S_ 1 := (fun x v => Host.reduce IntOp.andi x v reducesTo_S512_S_d0 h_S_) main_v96 main_c_37
  let main_v98 : IVec S_ 1 := andi main_v93 main_v97
  let main_v99 : FVec F S512x128 .f32 := Host.absf main_arg26
  let main_cst_38 : FVec F S_ .f32 := constant S_ .f32 0x7F800000#32
  let main_v100 : FVec F S512x128 .f32 := broadcastInDim S512x128 ![] bcast_S_S512x128 main_cst_38
  let main_v101 : IVec S512x128 1 := cmpf .olt main_v99 main_v100
  let main_c_39 : IVec S_ 1 := constantI S_ 1 1#1
  fn_part6 (F := F) main_arg27 main_arg28 main_arg29 main_v98 main_v101 main_c_39

def fn_part4 {F : FTy → Type} [FloatOps F] (main_arg20 : FVec F S256 .f32) (main_arg21 : FVec F S3x16 .f32) (main_arg22 : FVec F S16 .f32) (main_arg23 : FVec F S4096x512 .f32) (main_arg24 : FVec F S512 .f32) (main_arg25 : FVec F S512 .f32) (main_arg26 : FVec F S512x128 .f32) (main_arg27 : FVec F S128 .f32) (main_arg28 : FVec F S128 .f32) (main_arg29 : FVec F S128 .f32) (main_v63 : IVec S_ 1) (main_v67 : IVec S_ 1) : IVec S_ 1 :=
  let main_v68 : IVec S_ 1 := andi main_v63 main_v67
  let main_v69 : FVec F S256 .f32 := Host.absf main_arg20
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S3x16 .f32 := Host.absf main_arg21
  let main_cst_28 : FVec F S_ .f32 := constant S_ .f32 0x7F800000#32
  let main_v75 : FVec F S3x16 .f32 := broadcastInDim S3x16 ![] bcast_S_S3x16 main_cst_28
  let main_v76 : IVec S3x16 1 := cmpf .olt main_v74 main_v75
  let main_c_29 : IVec S_ 1 := constantI S_ 1 1#1
  let main_v77 : IVec S_ 1 := (fun x v => Host.reduce IntOp.andi x v reducesTo_S3x16_S_d0_1 h_S_) main_v76 main_c_29
  let main_v78 : IVec S_ 1 := andi main_v73 main_v77
  let main_v79 : FVec F S16 .f32 := Host.absf main_arg22
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S4096x512 .f32 := Host.absf main_arg23
  let main_cst_32 : FVec F S_ .f32 := constant S_ .f32 0x7F800000#32
  fn_part5 (F := F) main_arg24 main_arg25 main_arg26 main_arg27 main_arg28 main_arg29 main_v83 main_v84 main_cst_32

def fn_part3 {F : FTy → Type} [FloatOps F] (main_arg17 : FVec F S16 .f32) (main_arg18 : FVec F S2048x256 .f32) (main_arg19 : FVec F S256 .f32) (main_arg20 : FVec F S256 .f32) (main_arg21 : FVec F S3x16 .f32) (main_arg22 : FVec F S16 .f32) (main_arg23 : FVec F S4096x512 .f32) (main_arg24 : FVec F S512 .f32) (main_arg25 : FVec F S512 .f32) (main_arg26 : FVec F S512x128 .f32) (main_arg27 : FVec F S128 .f32) (main_arg28 : FVec F S128 .f32) (main_arg29 : FVec F S128 .f32) (main_v48 : IVec S_ 1) (main_v49 : FVec F S3x16 .f32) (main_v50 : FVec F S3x16 .f32) : IVec S_ 1 :=
  let main_v51 : IVec S3x16 1 := cmpf .olt main_v49 main_v50
  let main_c_19 : IVec S_ 1 := constantI S_ 1 1#1
  let main_v52 : IVec S_ 1 := (fun x v => Host.reduce IntOp.andi x v reducesTo_S3x16_S_d0_1 h_S_) main_v51 main_c_19
  let main_v53 : IVec S_ 1 := andi main_v48 main_v52
  let main_v54 : FVec F S16 .f32 := Host.absf main_arg17
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S2048x256 .f32 := Host.absf main_arg18
  let main_cst_22 : FVec F S_ .f32 := constant S_ .f32 0x7F800000#32
  let main_v60 : FVec F S2048x256 .f32 := broadcastInDim S2048x256 ![] bcast_S_S2048x256 main_cst_22
  let main_v61 : IVec S2048x256 1 := cmpf .olt main_v59 main_v60
  let main_c_23 : IVec S_ 1 := constantI S_ 1 1#1
  let main_v62 : IVec S_ 1 := (fun x v => Host.reduce IntOp.andi x v reducesTo_S2048x256_S_d0_1 h_S_) main_v61 main_c_23
  let main_v63 : IVec S_ 1 := andi main_v58 main_v62
  let main_v64 : FVec F S256 .f32 := Host.absf main_arg19
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg20 main_arg21 main_arg22 main_arg23 main_arg24 main_arg25 main_arg26 main_arg27 main_arg28 main_arg29 main_v63 main_v67

def fn_part2 {F : FTy → Type} [FloatOps F] (main_arg13 : FVec F S16x128 .f32) (main_arg14 : FVec F S128 .f32) (main_arg15 : FVec F S128 .f32) (main_arg16 : FVec F S3x16 .f32) (main_arg17 : FVec F S16 .f32) (main_arg18 : FVec F S2048x256 .f32) (main_arg19 : FVec F S256 .f32) (main_arg20 : FVec F S256 .f32) (main_arg21 : FVec F S3x16 .f32) (main_arg22 : FVec F S16 .f32) (main_arg23 : FVec F S4096x512 .f32) (main_arg24 : FVec F S512 .f32) (main_arg25 : FVec F S512 .f32) (main_arg26 : FVec F S512x128 .f32) (main_arg27 : FVec F S128 .f32) (main_arg28 : FVec F S128 .f32) (main_arg29 : FVec F S128 .f32) (main_v33 : IVec S_ 1) : IVec S_ 1 :=
  let main_v34 : FVec F S16x128 .f32 := Host.absf main_arg13
  let main_cst_12 : FVec F S_ .f32 := constant S_ .f32 0x7F800000#32
  let main_v35 : FVec F S16x128 .f32 := broadcastInDim S16x128 ![] bcast_S_S16x128 main_cst_12
  let main_v36 : IVec S16x128 1 := cmpf .olt main_v34 main_v35
  let main_c_13 : IVec S_ 1 := constantI S_ 1 1#1
  let main_v37 : IVec S_ 1 := (fun x v => Host.reduce IntOp.andi x v reducesTo_S16x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg15
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S3x16 .f32 := Host.absf main_arg16
  let main_cst_18 : FVec F S_ .f32 := constant S_ .f32 0x7F800000#32
  let main_v50 : FVec F S3x16 .f32 := broadcastInDim S3x16 ![] bcast_S_S3x16 main_cst_18
  fn_part3 (F := F) main_arg17 main_arg18 main_arg19 main_arg20 main_arg21 main_arg22 main_arg23 main_arg24 main_arg25 main_arg26 main_arg27 main_arg28 main_arg29 main_v48 main_v49 main_v50

def fn_part1 {F : FTy → Type} [FloatOps F] (main_arg4 : FVec F S8x3 .f32) (main_arg11 : FVec F S3x16 .f32) (main_arg12 : FVec F S16 .f32) (main_arg13 : FVec F S16x128 .f32) (main_arg14 : FVec F S128 .f32) (main_arg15 : FVec F S128 .f32) (main_arg16 : FVec F S3x16 .f32) (main_arg17 : FVec F S16 .f32) (main_arg18 : FVec F S2048x256 .f32) (main_arg19 : FVec F S256 .f32) (main_arg20 : FVec F S256 .f32) (main_arg21 : FVec F S3x16 .f32) (main_arg22 : FVec F S16 .f32) (main_arg23 : FVec F S4096x512 .f32) (main_arg24 : FVec F S512 .f32) (main_arg25 : FVec F S512 .f32) (main_arg26 : FVec F S512x128 .f32) (main_arg27 : FVec F S128 .f32) (main_arg28 : FVec F S128 .f32) (main_arg29 : FVec F S128 .f32) (main_v13 : IVec S_ 1) (main_v16 : IVec S1000x3 1) : IVec S_ 1 :=
  let main_c_5 : IVec S_ 1 := constantI S_ 1 1#1
  let main_v17 : IVec S_ 1 := (fun x v => Host.reduce IntOp.andi x v reducesTo_S1000x3_S_d0_1 h_S_) main_v16 main_c_5
  let main_v18 : IVec S_ 1 := andi main_v13 main_v17
  let main_v19 : FVec F S8x3 .f32 := Host.absf main_arg4
  let main_cst_6 : FVec F S_ .f32 := constant S_ .f32 0x7F800000#32
  let main_v20 : FVec F S8x3 .f32 := broadcastInDim S8x3 ![] bcast_S_S8x3 main_cst_6
  let main_v21 : IVec S8x3 1 := cmpf .olt main_v19 main_v20
  let main_c_7 : IVec S_ 1 := constantI S_ 1 1#1
  let main_v22 : IVec S_ 1 := (fun x v => Host.reduce IntOp.andi x v reducesTo_S8x3_S_d0_1 h_S_) main_v21 main_c_7
  let main_v23 : IVec S_ 1 := andi main_v18 main_v22
  let main_v24 : FVec F S3x16 .f32 := Host.absf main_arg11
  let main_cst_8 : FVec F S_ .f32 := constant S_ .f32 0x7F800000#32
  let main_v25 : FVec F S3x16 .f32 := broadcastInDim S3x16 ![] bcast_S_S3x16 main_cst_8
  let main_v26 : IVec S3x16 1 := cmpf .olt main_v24 main_v25
  let main_c_9 : IVec S_ 1 := constantI S_ 1 1#1
  let main_v27 : IVec S_ 1 := (fun x v => Host.reduce IntOp.andi x v reducesTo_S3x16_S_d0_1 h_S_) main_v26 main_c_9
  let main_v28 : IVec S_ 1 := andi main_v23 main_v27
  let main_v29 : FVec F S16 .f32 := Host.absf main_arg12
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_arg28 main_arg29 main_v33

def fn {F : FTy → Type} [FloatOps F] (main_arg0 : FVec F S262144x1 .f32) (main_arg1 : FVec F S262144x3 .f32) (main_arg2 : FVec F S8000x3 .f32) (main_arg3 : FVec F S1000x3 .f32) (main_arg4 : FVec F S8x3 .f32) (main_arg5 : IVec S980628 32) (main_arg6 : IVec S980628 32) (main_arg7 : IVec S26578 32) (main_arg8 : IVec S26578 32) (main_arg9 : IVec S1000 32) (main_arg10 : IVec S1000 32) (main_arg11 : FVec F S3x16 .f32) (main_arg12 : FVec F S16 .f32) (main_arg13 : FVec F S16x128 .f32) (main_arg14 : FVec F S128 .f32) (main_arg15 : FVec F S128 .f32) (main_arg16 : FVec F S3x16 .f32) (main_arg17 : FVec F S16 .f32) (main_arg18 : FVec F S2048x256 .f32) (main_arg19 : FVec F S256 .f32) (main_arg20 : FVec F S256 .f32) (main_arg21 : FVec F S3x16 .f32) (main_arg22 : FVec F S16 .f32) (main_arg23 : FVec F S4096x512 .f32) (main_arg24 : FVec F S512 .f32) (main_arg25 : FVec F S512 .f32) (main_arg26 : FVec F S512x128 .f32) (main_arg27 : FVec F S128 .f32) (main_arg28 : FVec F S128 .f32) (main_arg29 : FVec F S128 .f32) : IVec S_ 1 :=
  let main_v0 : FVec F S262144x1 .f32 := Host.absf main_arg0
  let main_cst : FVec F S_ .f32 := constant S_ .f32 0x7F800000#32
  let main_v1 : FVec F S262144x1 .f32 := broadcastInDim S262144x1 ![] bcast_S_S262144x1 main_cst
  let main_v2 : IVec S262144x1 1 := cmpf .olt main_v0 main_v1
  let main_c : IVec S_ 1 := constantI S_ 1 1#1
  let main_v3 : IVec S_ 1 := (fun x v => Host.reduce IntOp.andi x v reducesTo_S262144x1_S_d0_1 h_S_) main_v2 main_c
  let main_v4 : FVec F S262144x3 .f32 := Host.absf main_arg1
  let main_cst_0 : FVec F S_ .f32 := constant S_ .f32 0x7F800000#32
  let main_v5 : FVec F S262144x3 .f32 := broadcastInDim S262144x3 ![] bcast_S_S262144x3 main_cst_0
  let main_v6 : IVec S262144x3 1 := cmpf .olt main_v4 main_v5
  let main_c_1 : IVec S_ 1 := constantI S_ 1 1#1
  let main_v7 : IVec S_ 1 := (fun x v => Host.reduce IntOp.andi x v reducesTo_S262144x3_S_d0_1 h_S_) main_v6 main_c_1
  let main_v8 : IVec S_ 1 := andi main_v3 main_v7
  let main_v9 : FVec F S8000x3 .f32 := Host.absf main_arg2
  let main_cst_2 : FVec F S_ .f32 := constant S_ .f32 0x7F800000#32
  let main_v10 : FVec F S8000x3 .f32 := broadcastInDim S8000x3 ![] bcast_S_S8000x3 main_cst_2
  let main_v11 : IVec S8000x3 1 := cmpf .olt main_v9 main_v10
  let main_c_3 : IVec S_ 1 := constantI S_ 1 1#1
  let main_v12 : IVec S_ 1 := (fun x v => Host.reduce IntOp.andi x v reducesTo_S8000x3_S_d0_1 h_S_) main_v11 main_c_3
  let main_v13 : IVec S_ 1 := andi main_v8 main_v12
  let main_v14 : FVec F S1000x3 .f32 := Host.absf main_arg3
  let main_cst_4 : FVec F S_ .f32 := constant S_ .f32 0x7F800000#32
  let main_v15 : FVec F S1000x3 .f32 := broadcastInDim S1000x3 ![] bcast_S_S1000x3 main_cst_4
  let main_v16 : IVec S1000x3 1 := cmpf .olt main_v14 main_v15
  fn_part1 (F := F) main_arg4 main_arg11 main_arg12 main_arg13 main_arg14 main_arg15 main_arg16 main_arg17 main_arg18 main_arg19 main_arg20 main_arg21 main_arg22 main_arg23 main_arg24 main_arg25 main_arg26 main_arg27 main_arg28 main_arg29 main_v13 main_v16
-- ==== Kernel.lean ====
abbrev S262144x1 : Shape := ⟨2, ![262144, 1]⟩
abbrev S262144x3 : Shape := ⟨2, ![262144, 3]⟩
abbrev S8000x3 : Shape := ⟨2, ![8000, 3]⟩
abbrev S1000x3 : Shape := ⟨2, ![1000, 3]⟩
abbrev S8x3 : Shape := ⟨2, ![8, 3]⟩
abbrev S980628 : Shape := ⟨1, ![980628]⟩
abbrev S26578 : Shape := ⟨1, ![26578]⟩
abbrev S1000 : Shape := ⟨1, ![1000]⟩
abbrev S3x16 : Shape := ⟨2, ![3, 16]⟩
abbrev S16 : Shape := ⟨1, ![16]⟩
abbrev S16x128 : Shape := ⟨2, ![16, 128]⟩
abbrev S128 : Shape := ⟨1, ![128]⟩
abbrev S2048x256 : Shape := ⟨2, ![2048, 256]⟩
abbrev S256 : Shape := ⟨1, ![256]⟩
abbrev S4096x512 : Shape := ⟨2, ![4096, 512]⟩
abbrev S512 : Shape := ⟨1, ![512]⟩
abbrev S512x128 : Shape := ⟨2, ![512, 128]⟩
abbrev S_ : Shape := ⟨0, ![]⟩
abbrev S980628x1 : Shape := ⟨2, ![980628, 1]⟩
abbrev S980628x3 : Shape := ⟨2, ![980628, 3]⟩
abbrev S1x16 : Shape := ⟨2, ![1, 16]⟩
abbrev S980992x3 : Shape := ⟨2, ![980992, 3]⟩
abbrev S980992x1 : Shape := ⟨2, ![980992, 1]⟩
abbrev S980992x16 : Shape := ⟨2, ![980992, 16]⟩
abbrev S2048x3 : Shape := ⟨2, ![2048, 3]⟩
abbrev S2048x1 : Shape := ⟨2, ![2048, 1]⟩
abbrev S2048x16 : Shape := ⟨2, ![2048, 16]⟩
abbrev S980628x16 : Shape := ⟨2, ![980628, 16]⟩
abbrev S8000x16 : Shape := ⟨2, ![8000, 16]⟩
abbrev S8000 : Shape := ⟨1, ![8000]⟩
abbrev S8000x1 : Shape := ⟨2, ![8000, 1]⟩
abbrev S1x128 : Shape := ⟨2, ![1, 128]⟩
abbrev S8000x128 : Shape := ⟨2, ![8000, 128]⟩
abbrev S26578x1 : Shape := ⟨2, ![26578, 1]⟩
abbrev S26578x3 : Shape := ⟨2, ![26578, 3]⟩
abbrev S26578x128 : Shape := ⟨2, ![26578, 128]⟩
abbrev S26712x3 : Shape := ⟨2, ![26712, 3]⟩
abbrev S26712x128 : Shape := ⟨2, ![26712, 128]⟩
abbrev S26712x2048 : Shape := ⟨2, ![26712, 2048]⟩
abbrev S424x3 : Shape := ⟨2, ![424, 3]⟩
abbrev S424x128 : Shape := ⟨2, ![424, 128]⟩
abbrev S424x2048 : Shape := ⟨2, ![424, 2048]⟩
abbrev S424x16 : Shape := ⟨2, ![424, 16]⟩
abbrev S424x1 : Shape := ⟨2, ![424, 1]⟩
abbrev S26578x2048 : Shape := ⟨2, ![26578, 2048]⟩
abbrev S1000x2048 : Shape := ⟨2, ![1000, 2048]⟩
abbrev S1000x1 : Shape := ⟨2, ![1000, 1]⟩
abbrev S1x256 : Shape := ⟨2, ![1, 256]⟩
abbrev S1000x256 : Shape := ⟨2, ![1000, 256]⟩
abbrev S1120x3 : Shape := ⟨2, ![1120, 3]⟩
abbrev S1120x256 : Shape := ⟨2, ![1120, 256]⟩
abbrev S1120x4096 : Shape := ⟨2, ![1120, 4096]⟩
abbrev S224x3 : Shape := ⟨2, ![224, 3]⟩
abbrev S224x256 : Shape := ⟨2, ![224, 256]⟩
abbrev S224x4096 : Shape := ⟨2, ![224, 4096]⟩
abbrev S224x16 : Shape := ⟨2, ![224, 16]⟩
abbrev S224x1 : Shape := ⟨2, ![224, 1]⟩
abbrev S1000x4096 : Shape := ⟨2, ![1000, 4096]⟩
abbrev S8x4096 : Shape := ⟨2, ![8, 4096]⟩
abbrev S8 : Shape := ⟨1, ![8]⟩
abbrev S8x1 : Shape := ⟨2, ![8, 1]⟩
abbrev S1x512 : Shape := ⟨2, ![1, 512]⟩
abbrev S8x512 : Shape := ⟨2, ![8, 512]⟩
abbrev S8x128 : Shape := ⟨2, ![8, 128]⟩

abbrev nBuf : Space → Nat
  | .hbm => 214
  | .vmem => 54
  | .smem => 0
  | _ => 0

abbrev hbmTy0_0 (i : Nat) : BufTy := match i % 128 with
  | 0 => ⟨S262144x1, .f32⟩
  | 1 => ⟨S262144x3, .f32⟩
  | 2 => ⟨S8000x3, .f32⟩
  | 3 => ⟨S1000x3, .f32⟩
  | 4 => ⟨S8x3, .f32⟩
  | 5 => ⟨S980628, .i32⟩
  | 6 => ⟨S980628, .i32⟩
  | 7 => ⟨S26578, .i32⟩
  | 8 => ⟨S26578, .i32⟩
  | 9 => ⟨S1000, .i32⟩
  | 10 => ⟨S1000, .i32⟩
  | 11 => ⟨S3x16, .f32⟩
  | 12 => ⟨S16, .f32⟩
  | 13 => ⟨S16x128, .f32⟩
  | 14 => ⟨S128, .f32⟩
  | 15 => ⟨S128, .f32⟩
  | 16 => ⟨S3x16, .f32⟩
  | 17 => ⟨S16, .f32⟩
  | 18 => ⟨S2048x256, .f32⟩
  | 19 => ⟨S256, .f32⟩
  | 20 => ⟨S256, .f32⟩
  | 21 => ⟨S3x16, .f32⟩
  | 22 => ⟨S16, .f32⟩
  | 23 => ⟨S4096x512, .f32⟩
  | 24 => ⟨S512, .f32⟩
  | 25 => ⟨S512, .f32⟩
  | 26 => ⟨S512x128, .f32⟩
  | 27 => ⟨S128, .f32⟩
  | 28 => ⟨S128, .f32⟩
  | 29 => ⟨S128, .f32⟩
  | 30 => ⟨S_, .i32⟩
  | 31 => ⟨S980628, .i32⟩
  | 32 => ⟨S980628, .i1⟩
  | 33 => ⟨S_, .i32⟩
  | 34 => ⟨S980628, .i32⟩
  | 35 => ⟨S980628, .i32⟩
  | 36 => ⟨S980628, .i32⟩
  | 37 => ⟨S980628x1, .i32⟩
  | 38 => ⟨S980628x3, .f32⟩
  | 39 => ⟨S_, .i32⟩
  | 40 => ⟨S980628, .i32⟩
  | 41 => ⟨S980628, .i1⟩
  | 42 => ⟨S_, .i32⟩
  | 43 => ⟨S980628, .i32⟩
  | 44 => ⟨S980628, .i32⟩
  | 45 => ⟨S980628, .i32⟩
  | 46 => ⟨S980628x1, .i32⟩
  | 47 => ⟨S980628x3, .f32⟩
  | 48 => ⟨S_, .i32⟩
  | 49 => ⟨S980628, .i32⟩
  | 50 => ⟨S980628, .i1⟩
  | 51 => ⟨S_, .i32⟩
  | 52 => ⟨S980628, .i32⟩
  | 53 => ⟨S980628, .i32⟩
  | 54 => ⟨S980628, .i32⟩
  | 55 => ⟨S980628x1, .i32⟩
  | 56 => ⟨S980628x1, .f32⟩
  | 57 => ⟨S1x16, .f32⟩
  | 58 => ⟨S_, .i32⟩
  | 59 => ⟨S_, .f32⟩
  | 60 => ⟨S980992x3, .f32⟩
  | 61 => ⟨S_, .i32⟩
  | 62 => ⟨S_, .f32⟩
  | 63 => ⟨S980992x3, .f32⟩
  | 64 => ⟨S_, .i32⟩
  | 65 => ⟨S_, .f32⟩
  | 66 => ⟨S980992x1, .f32⟩
  | 67 => ⟨S980992x16, .f32⟩
  | 68 => ⟨S980628x16, .f32⟩
  | 69 => ⟨S_, .f32⟩
  | 70 => ⟨S8000x16, .f32⟩
  | 71 => ⟨S980628x1, .i32⟩
  | 72 => ⟨S8000x16, .f32⟩
  | 73 => ⟨S_, .f32⟩
  | 74 => ⟨S980628, .f32⟩
  | 75 => ⟨S_, .f32⟩
  | 76 => ⟨S8000, .f32⟩
  | 77 => ⟨S980628x1, .i32⟩
  | 78 => ⟨S8000, .f32⟩
  | 79 => ⟨S_, .f32⟩
  | 80 => ⟨S8000, .f32⟩
  | 81 => ⟨S8000, .f32⟩
  | 82 => ⟨S8000x1, .f32⟩
  | 83 => ⟨S8000x16, .f32⟩
  | 84 => ⟨S8000x16, .f32⟩
  | 85 => ⟨S_, .f32⟩
  | 86 => ⟨S1x128, .f32⟩
  | 87 => ⟨S1x128, .f32⟩
  | 88 => ⟨S1x128, .f32⟩
  | 89 => ⟨S8000x128, .f32⟩
  | 90 => ⟨S_, .i32⟩
  | 91 => ⟨S26578, .i32⟩
  | 92 => ⟨S26578, .i1⟩
  | 93 => ⟨S_, .i32⟩
  | 94 => ⟨S26578, .i32⟩
  | 95 => ⟨S26578, .i32⟩
  | 96 => ⟨S26578, .i32⟩
  | 97 => ⟨S26578x1, .i32⟩
  | 98 => ⟨S26578x3, .f32⟩
  | 99 => ⟨S_, .i32⟩
  | 100 => ⟨S26578, .i32⟩
  | 101 => ⟨S26578, .i1⟩
  | 102 => ⟨S_, .i32⟩
  | 103 => ⟨S26578, .i32⟩
  | 104 => ⟨S26578, .i32⟩
  | 105 => ⟨S26578, .i32⟩
  | 106 => ⟨S26578x1, .i32⟩
  | 107 => ⟨S26578x3, .f32⟩
  | 108 => ⟨S_, .i32⟩
  | 109 => ⟨S26578, .i32⟩
  | 110 => ⟨S26578, .i1⟩
  | 111 => ⟨S_, .i32⟩
  | 112 => ⟨S26578, .i32⟩
  | 113 => ⟨S26578, .i32⟩
  | 114 => ⟨S26578, .i32⟩
  | 115 => ⟨S26578x1, .i32⟩
  | 116 => ⟨S26578x128, .f32⟩
  | 117 => ⟨S1x16, .f32⟩
  | 118 => ⟨S_, .i32⟩
  | 119 => ⟨S_, .f32⟩
  | 120 => ⟨S26712x3, .f32⟩
  | 121 => ⟨S_, .i32⟩
  | 122 => ⟨S_, .f32⟩
  | 123 => ⟨S26712x3, .f32⟩
  | 124 => ⟨S_, .i32⟩
  | 125 => ⟨S_, .f32⟩
  | 126 => ⟨S26712x128, .f32⟩
  | 127 => ⟨S26712x2048, .f32⟩
  | _ => ⟨S262144x1, .f32⟩

abbrev hbmTy0_1 (i : Nat) : BufTy := match i % 128 with
  | 0 => ⟨S26578x2048, .f32⟩
  | 1 => ⟨S_, .f32⟩
  | 2 => ⟨S1000x2048, .f32⟩
  | 3 => ⟨S26578x1, .i32⟩
  | 4 => ⟨S1000x2048, .f32⟩
  | 5 => ⟨S_, .f32⟩
  | 6 => ⟨S26578, .f32⟩
  | 7 => ⟨S_, .f32⟩
  | 8 => ⟨S1000, .f32⟩
  | 9 => ⟨S26578x1, .i32⟩
  | 10 => ⟨S1000, .f32⟩
  | 11 => ⟨S_, .f32⟩
  | 12 => ⟨S1000, .f32⟩
  | 13 => ⟨S1000, .f32⟩
  | 14 => ⟨S1000x1, .f32⟩
  | 15 => ⟨S1000x2048, .f32⟩
  | 16 => ⟨S1000x2048, .f32⟩
  | 17 => ⟨S_, .f32⟩
  | 18 => ⟨S1x256, .f32⟩
  | 19 => ⟨S1x256, .f32⟩
  | 20 => ⟨S1x256, .f32⟩
  | 21 => ⟨S1000x256, .f32⟩
  | 22 => ⟨S_, .i32⟩
  | 23 => ⟨S1000, .i32⟩
  | 24 => ⟨S1000, .i1⟩
  | 25 => ⟨S_, .i32⟩
  | 26 => ⟨S1000, .i32⟩
  | 27 => ⟨S1000, .i32⟩
  | 28 => ⟨S1000, .i32⟩
  | 29 => ⟨S1000x1, .i32⟩
  | 30 => ⟨S1000x3, .f32⟩
  | 31 => ⟨S_, .i32⟩
  | 32 => ⟨S1000, .i32⟩
  | 33 => ⟨S1000, .i1⟩
  | 34 => ⟨S_, .i32⟩
  | 35 => ⟨S1000, .i32⟩
  | 36 => ⟨S1000, .i32⟩
  | 37 => ⟨S1000, .i32⟩
  | 38 => ⟨S1000x1, .i32⟩
  | 39 => ⟨S1000x3, .f32⟩
  | 40 => ⟨S_, .i32⟩
  | 41 => ⟨S1000, .i32⟩
  | 42 => ⟨S1000, .i1⟩
  | 43 => ⟨S_, .i32⟩
  | 44 => ⟨S1000, .i32⟩
  | 45 => ⟨S1000, .i32⟩
  | 46 => ⟨S1000, .i32⟩
  | 47 => ⟨S1000x1, .i32⟩
  | 48 => ⟨S1000x256, .f32⟩
  | 49 => ⟨S1x16, .f32⟩
  | 50 => ⟨S_, .i32⟩
  | 51 => ⟨S_, .f32⟩
  | 52 => ⟨S1120x3, .f32⟩
  | 53 => ⟨S_, .i32⟩
  | 54 => ⟨S_, .f32⟩
  | 55 => ⟨S1120x3, .f32⟩
  | 56 => ⟨S_, .i32⟩
  | 57 => ⟨S_, .f32⟩
  | 58 => ⟨S1120x256, .f32⟩
  | 59 => ⟨S1120x4096, .f32⟩
  | 60 => ⟨S1000x4096, .f32⟩
  | 61 => ⟨S_, .f32⟩
  | 62 => ⟨S8x4096, .f32⟩
  | 63 => ⟨S1000x1, .i32⟩
  | 64 => ⟨S8x4096, .f32⟩
  | 65 => ⟨S_, .f32⟩
  | 66 => ⟨S1000, .f32⟩
  | 67 => ⟨S_, .f32⟩
  | 68 => ⟨S8, .f32⟩
  | 69 => ⟨S1000x1, .i32⟩
  | 70 => ⟨S8, .f32⟩
  | 71 => ⟨S_, .f32⟩
  | 72 => ⟨S8, .f32⟩
  | 73 => ⟨S8, .f32⟩
  | 74 => ⟨S8x1, .f32⟩
  | 75 => ⟨S8x4096, .f32⟩
  | 76 => ⟨S8x4096, .f32⟩
  | 77 => ⟨S_, .f32⟩
  | 78 => ⟨S1x512, .f32⟩
  | 79 => ⟨S1x512, .f32⟩
  | 80 => ⟨S1x512, .f32⟩
  | 81 => ⟨S8x512, .f32⟩
  | 82 => ⟨S1x128, .f32⟩
  | 83 => ⟨S1x128, .f32⟩
  | 84 => ⟨S1x128, .f32⟩
  | 85 => ⟨S8x128, .f32⟩
  | _ => ⟨S262144x1, .f32⟩

abbrev hbmTy (i : Nat) : BufTy := match i / 128 with
  | 0 => hbmTy0_0 i
  | 1 => hbmTy0_1 i
  | _ => ⟨S262144x1, .f32⟩

abbrev bufTy : (tb : Table) → Fin (tcTables nBuf tb) → BufTy
  | .hbm, ⟨i, _⟩ => hbmTy i
  | .local _ .vmem, ⟨0, _⟩ => ⟨S2048x3, .f32⟩
  | .local _ .vmem, ⟨1, _⟩ => ⟨S2048x3, .f32⟩
  | .local _ .vmem, ⟨2, _⟩ => ⟨S2048x3, .f32⟩
  | .local _ .vmem, ⟨3, _⟩ => ⟨S2048x3, .f32⟩
  | .local _ .vmem, ⟨4, _⟩ => ⟨S2048x1, .f32⟩
  | .local _ .vmem, ⟨5, _⟩ => ⟨S2048x1, .f32⟩
  | .local _ .vmem, ⟨6, _⟩ => ⟨S3x16, .f32⟩
  | .local _ .vmem, ⟨7, _⟩ => ⟨S1x16, .f32⟩
  | .local _ .vmem, ⟨8, _⟩ => ⟨S2048x16, .f32⟩
  | .local _ .vmem, ⟨9, _⟩ => ⟨S2048x16, .f32⟩
  | .local _ .vmem, ⟨10, _⟩ => ⟨S8000x16, .f32⟩
  | .local _ .vmem, ⟨11, _⟩ => ⟨S16x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S8000x128, .f32⟩
  | .local _ .vmem, ⟨16, _⟩ => ⟨S424x3, .f32⟩
  | .local _ .vmem, ⟨17, _⟩ => ⟨S424x3, .f32⟩
  | .local _ .vmem, ⟨18, _⟩ => ⟨S424x3, .f32⟩
  | .local _ .vmem, ⟨19, _⟩ => ⟨S424x3, .f32⟩
  | .local _ .vmem, ⟨20, _⟩ => ⟨S424x128, .f32⟩
  | .local _ .vmem, ⟨21, _⟩ => ⟨S424x128, .f32⟩
  | .local _ .vmem, ⟨22, _⟩ => ⟨S3x16, .f32⟩
  | .local _ .vmem, ⟨23, _⟩ => ⟨S1x16, .f32⟩
  | .local _ .vmem, ⟨24, _⟩ => ⟨S424x2048, .f32⟩
  | .local _ .vmem, ⟨25, _⟩ => ⟨S424x2048, .f32⟩
  | .local _ .vmem, ⟨26, _⟩ => ⟨S1000x2048, .f32⟩
  | .local _ .vmem, ⟨27, _⟩ => ⟨S2048x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1000x256, .f32⟩
  | .local _ .vmem, ⟨32, _⟩ => ⟨S224x3, .f32⟩
  | .local _ .vmem, ⟨33, _⟩ => ⟨S224x3, .f32⟩
  | .local _ .vmem, ⟨34, _⟩ => ⟨S224x3, .f32⟩
  | .local _ .vmem, ⟨35, _⟩ => ⟨S224x3, .f32⟩
  | .local _ .vmem, ⟨36, _⟩ => ⟨S224x256, .f32⟩
  | .local _ .vmem, ⟨37, _⟩ => ⟨S224x256, .f32⟩
  | .local _ .vmem, ⟨38, _⟩ => ⟨S3x16, .f32⟩
  | .local _ .vmem, ⟨39, _⟩ => ⟨S1x16, .f32⟩
  | .local _ .vmem, ⟨40, _⟩ => ⟨S224x4096, .f32⟩
  | .local _ .vmem, ⟨41, _⟩ => ⟨S224x4096, .f32⟩
  | .local _ .vmem, ⟨42, _⟩ => ⟨S8x4096, .f32⟩
  | .local _ .vmem, ⟨43, _⟩ => ⟨S4096x512, .f32⟩
  | .local _ .vmem, ⟨44, _⟩ => ⟨S1x512, .f32⟩
  | .local _ .vmem, ⟨45, _⟩ => ⟨S1x512, .f32⟩
  | .local _ .vmem, ⟨46, _⟩ => ⟨S1x512, .f32⟩
  | .local _ .vmem, ⟨47, _⟩ => ⟨S8x512, .f32⟩
  | .local _ .vmem, ⟨48, _⟩ => ⟨S8x512, .f32⟩
  | .local _ .vmem, ⟨49, _⟩ => ⟨S512x128, .f32⟩
  | .local _ .vmem, ⟨50, _⟩ => ⟨S1x128, .f32⟩
  | .local _ .vmem, ⟨51, _⟩ => ⟨S1x128, .f32⟩
  | .local _ .vmem, ⟨52, _⟩ => ⟨S1x128, .f32⟩
  | .local _ .vmem, ⟨53, _⟩ => ⟨S8x128, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_3 : Ref sig .tc := ⟨.hbm, 48, rfl⟩
abbrev main_v14 : Ref sig .tc := ⟨.hbm, 49, rfl⟩
abbrev main_v15 : Ref sig .tc := ⟨.hbm, 50, rfl⟩
abbrev main_c_4 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_5 : Ref sig .tc := ⟨.hbm, 58, rfl⟩
abbrev main_call0_v0 : Ref sig .tc := ⟨.hbm, 59, rfl⟩
abbrev main_v22 : Ref sig .tc := ⟨.hbm, 60, rfl⟩
abbrev main_c_6 : Ref sig .tc := ⟨.hbm, 61, rfl⟩
abbrev main_call1_v0 : Ref sig .tc := ⟨.hbm, 62, rfl⟩
abbrev main_v23 : Ref sig .tc := ⟨.hbm, 63, rfl⟩
abbrev main_c_7 : Ref sig .tc := ⟨.hbm, 64, rfl⟩
abbrev main_call2_v0 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_cst : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_cst_8 : Ref sig .tc := ⟨.hbm, 73, rfl⟩
abbrev main_v30 : Ref sig .tc := ⟨.hbm, 74, rfl⟩
abbrev main_cst_9 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_10 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_11 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_c_12 : Ref sig .tc := ⟨.hbm, 90, rfl⟩
abbrev main_v43 : Ref sig .tc := ⟨.hbm, 91, rfl⟩
abbrev main_v44 : Ref sig .tc := ⟨.hbm, 92, rfl⟩
abbrev main_c_13 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_c_14 : Ref sig .tc := ⟨.hbm, 99, rfl⟩
abbrev main_v50 : Ref sig .tc := ⟨.hbm, 100, rfl⟩
abbrev main_v51 : Ref sig .tc := ⟨.hbm, 101, rfl⟩
abbrev main_c_15 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_c_16 : Ref sig .tc := ⟨.hbm, 108, rfl⟩
abbrev main_v57 : Ref sig .tc := ⟨.hbm, 109, rfl⟩
abbrev main_v58 : Ref sig .tc := ⟨.hbm, 110, rfl⟩
abbrev main_c_17 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_c_18 : Ref sig .tc := ⟨.hbm, 118, rfl⟩
abbrev main_call3_v0 : Ref sig .tc := ⟨.hbm, 119, rfl⟩
abbrev main_v65 : Ref sig .tc := ⟨.hbm, 120, rfl⟩
abbrev main_c_19 : Ref sig .tc := ⟨.hbm, 121, rfl⟩
abbrev main_call4_v0 : Ref sig .tc := ⟨.hbm, 122, rfl⟩
abbrev main_v66 : Ref sig .tc := ⟨.hbm, 123, rfl⟩
abbrev main_c_20 : Ref sig .tc := ⟨.hbm, 124, rfl⟩
abbrev main_call5_v0 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_21 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_cst_22 : Ref sig .tc := ⟨.hbm, 133, rfl⟩
abbrev main_v73 : Ref sig .tc := ⟨.hbm, 134, rfl⟩
abbrev main_cst_23 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_24 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_cst_25 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_v85 : Ref sig .tc := ⟨.hbm, 149, rfl⟩
abbrev main_c_26 : Ref sig .tc := ⟨.hbm, 150, rfl⟩
abbrev main_v86 : Ref sig .tc := ⟨.hbm, 151, rfl⟩
abbrev main_v87 : Ref sig .tc := ⟨.hbm, 152, rfl⟩
abbrev main_c_27 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_c_28 : Ref sig .tc := ⟨.hbm, 159, rfl⟩
abbrev main_v93 : Ref sig .tc := ⟨.hbm, 160, rfl⟩
abbrev main_v94 : Ref sig .tc := ⟨.hbm, 161, rfl⟩
abbrev main_c_29 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_c_30 : Ref sig .tc := ⟨.hbm, 168, rfl⟩
abbrev main_v100 : Ref sig .tc := ⟨.hbm, 169, rfl⟩
abbrev main_v101 : Ref sig .tc := ⟨.hbm, 170, rfl⟩
abbrev main_c_31 : Ref sig .tc := ⟨.hbm, 171, rfl⟩
abbrev main_v102 : Ref sig .tc := ⟨.hbm, 172, rfl⟩
abbrev main_v103 : Ref sig .tc := ⟨.hbm, 173, rfl⟩
abbrev main_v104 : Ref sig .tc := ⟨.hbm, 174, rfl⟩
abbrev main_v105 : Ref sig .tc := ⟨.hbm, 175, rfl⟩
abbrev main_v106 : Ref sig .tc := ⟨.hbm, 176, rfl⟩
abbrev main_v107 : Ref sig .tc := ⟨.hbm, 177, rfl⟩
abbrev main_c_32 : Ref sig .tc := ⟨.hbm, 178, rfl⟩
abbrev main_call6_v0 : Ref sig .tc := ⟨.hbm, 179, rfl⟩
abbrev main_v108 : Ref sig .tc := ⟨.hbm, 180, rfl⟩
abbrev main_c_33 : Ref sig .tc := ⟨.hbm, 181, rfl⟩
abbrev main_call7_v0 : Ref sig .tc := ⟨.hbm, 182, rfl⟩
abbrev main_v109 : Ref sig .tc := ⟨.hbm, 183, rfl⟩
abbrev main_c_34 : Ref sig .tc := ⟨.hbm, 184, rfl⟩
abbrev main_call8_v0 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_cst_35 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_cst_36 : Ref sig .tc := ⟨.hbm, 193, rfl⟩
abbrev main_v116 : Ref sig .tc := ⟨.hbm, 194, rfl⟩
abbrev main_cst_37 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_cst_38 : Ref sig .tc := ⟨.hbm, 199, rfl⟩
abbrev main_v120 : Ref sig .tc := ⟨.hbm, 200, rfl⟩
abbrev main_v121 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_cst_39 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc5_stg0_0 : Ref sig .tc := ⟨.vmem, 42, rfl⟩
abbrev cc5_stg1_0 : Ref sig .tc := ⟨.vmem, 43, rfl⟩
abbrev cc5_stg2_0 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg5_0 : Ref sig .tc := ⟨.vmem, 47, rfl⟩
abbrev cc6_stg0_0 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc6_stg4_0 : Ref sig .tc := ⟨.vmem, 52, rfl⟩
abbrev cc6_stg5_0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem1_0 : DmaSem sig := 27
abbrev cc3_sem2_0 : DmaSem sig := 28
abbrev cc3_sem3_0 : DmaSem sig := 29
abbrev cc3_sem4_0 : DmaSem sig := 30
abbrev cc3_sem5_0 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem1_0 : DmaSem sig := 43
abbrev cc5_sem2_0 : DmaSem sig := 44
abbrev cc5_sem3_0 : DmaSem sig := 45
abbrev cc5_sem4_0 : DmaSem sig := 46
abbrev cc5_sem5_0 : DmaSem sig := 47
abbrev cc6_sem0_0 : DmaSem sig := 48
abbrev cc6_sem1_0 : DmaSem sig := 49
abbrev cc6_sem2_0 : DmaSem sig := 50
abbrev cc6_sem3_0 : DmaSem sig := 51
abbrev cc6_sem4_0 : DmaSem sig := 52
abbrev cc6_sem5_0 : DmaSem sig := 53

abbrev nD : Nat := 1
abbrev τ : Topo := Topo.v7x

variable {F : FTy → Type} [FloatOps F]

abbrev grid0 : Pipeline.Grid := ⟨1, ![479], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8000x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![63], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S424x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S424x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S424x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S424x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S1000x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S2048x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1000x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S224x3 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S224x3 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S224x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S3x16 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x16 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S224x4096 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S8x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S4096x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S8x512 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S8x512 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S512x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S8x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  bcast_S_S980628 : S_.BroadcastsInDim S980628 (![] : Fin 0 → Fin S980628.rank)
  bcast_S980628_S980628x1_0 : S980628.BroadcastsInDim S980628x1 (![0] : Fin 1 → Fin S980628x1.rank)
  shapeCasts_S16_S1x16 : S16.ShapeCasts S1x16
  pads_S980628x3_S980992x3_03640_000 : S980628x3.Pads (![0, 0] : Fin 2 → Nat) ![364, 0] ![0, 0] S980992x3
  h_S_ : 0 < S_.numel
  pads_S980628x1_S980992x1_03640_000 : S980628x1.Pads (![0, 0] : Fin 2 → Nat) ![364, 0] ![0, 0] S980992x1
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  slices_S2048x16_o0_0_S2048x1 : S2048x16.Slices ![0, 0] S2048x1
  slices_S2048x16_o0_1_S2048x1 : S2048x16.Slices ![0, 1] S2048x1
  slices_S2048x16_o0_2_S2048x1 : S2048x16.Slices ![0, 2] S2048x1
  slices_S2048x16_o0_3_S2048x1 : S2048x16.Slices ![0, 3] S2048x1
  slices_S2048x16_o0_4_S2048x1 : S2048x16.Slices ![0, 4] S2048x1
  slices_S2048x16_o0_5_S2048x1 : S2048x16.Slices ![0, 5] S2048x1
  slices_S2048x16_o0_6_S2048x1 : S2048x16.Slices ![0, 6] S2048x1
  slices_S2048x16_o0_7_S2048x1 : S2048x16.Slices ![0, 7] S2048x1
  slices_S2048x16_o0_8_S2048x1 : S2048x16.Slices ![0, 8] S2048x1
  slices_S2048x16_o0_9_S2048x1 : S2048x16.Slices ![0, 9] S2048x1
  slices_S2048x16_o0_10_S2048x1 : S2048x16.Slices ![0, 10] S2048x1
  slices_S2048x16_o0_11_S2048x1 : S2048x16.Slices ![0, 11] S2048x1
  slices_S2048x16_o0_12_S2048x1 : S2048x16.Slices ![0, 12] S2048x1
  slices_S2048x16_o0_13_S2048x1 : S2048x16.Slices ![0, 13] S2048x1
  slices_S2048x16_o0_14_S2048x1 : S2048x16.Slices ![0, 14] S2048x1
  slices_S2048x16_o0_15_S2048x1 : S2048x16.Slices ![0, 15] S2048x1
  concatenates_S2048x1_S2048x1_S2048x1_S2048x1_S2048x1_S2048x1_S2048x1_S2048x1_S2048x1_S2048x1_S2048x1_S2048x1_S2048x1_S2048x1_S2048x1_S2048x1_S2048x16_d1 : Shape.Concatenates [S2048x1, S2048x1, S2048x1, S2048x1, S2048x1, S2048x1, S2048x1, S2048x1, S2048x1, S2048x1, S2048x1, S2048x1, S2048x1, S2048x1, S2048x1, S2048x1] S2048x16 1
  inb_S2048x16_S2048x16_0_0 : ∀ a, (![0, 0] : Fin 2 → Nat) a + S2048x16.size a ≤ S2048x16.size a
  h_S2048x16 : 0 < S2048x16.numel
  slices_S980992x16_S980628x16_0_0 : S980992x16.Slices ![0, 0] S980628x16
  bcast_S_S8000x16 : S_.BroadcastsInDim S8000x16 (![] : Fin 0 → Fin S8000x16.rank)
  bcast_S_S8000 : S_.BroadcastsInDim S8000 (![] : Fin 0 → Fin S8000.rank)
  bcast_S8000_S8000x1_0 : S8000.BroadcastsInDim S8000x1 (![0] : Fin 1 → Fin S8000x1.rank)
  bcast_S8000x1_S8000x16_0_1 : S8000x1.BroadcastsInDim S8000x16 (![0, 1] : Fin 2 → Fin S8000x16.rank)
  bcast_S_S1x128 : S_.BroadcastsInDim S1x128 (![] : Fin 0 → Fin S1x128.rank)
  shapeCasts_S128_S1x128 : S128.ShapeCasts S1x128
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  inb_S16x128_S16x128_0_0 : ∀ a, (![0, 0] : Fin 2 → Nat) a + S16x128.size a ≤ S16x128.size a
  h_S16x128 : 0 < S16x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  reduces_S8000x128_S128 : S8000x128.Reduces [0] S128
  inb_S8000x128_S8000x128_0_0 : ∀ a, (![0, 0] : Fin 2 → Nat) a + S8000x128.size a ≤ S8000x128.size a
  h_S8000x128 : 0 < S8000x128.numel
  bcast_S_S26578 : S_.BroadcastsInDim S26578 (![] : Fin 0 → Fin S26578.rank)
  bcast_S26578_S26578x1_0 : S26578.BroadcastsInDim S26578x1 (![0] : Fin 1 → Fin S26578x1.rank)
  pads_S26578x3_S26712x3_01340_000 : S26578x3.Pads (![0, 0] : Fin 2 → Nat) ![134, 0] ![0, 0] S26712x3
  pads_S26578x128_S26712x128_01340_000 : S26578x128.Pads (![0, 0] : Fin 2 → Nat) ![134, 0] ![0, 0] S26712x128
  inb_S424x3_S424x3_0_0 : ∀ a, (![0, 0] : Fin 2 → Nat) a + S424x3.size a ≤ S424x3.size a
  h_S424x3 : 0 < S424x3.numel
  shapeCasts_S424x3_S424x3 : S424x3.ShapeCasts S424x3
  broadcasts_S1x16_S424x16 : S1x16.Broadcasts S424x16
  inb_S424x128_S424x128_0_0 : ∀ a, (![0, 0] : Fin 2 → Nat) a + S424x128.size a ≤ S424x128.size a
  h_S424x128 : 0 < S424x128.numel
  shapeCasts_S424x128_S424x128 : S424x128.ShapeCasts S424x128
  slices_S424x16_o0_0_S424x1 : S424x16.Slices ![0, 0] S424x1
  broadcasts_S424x1_S424x128 : S424x1.Broadcasts S424x128
  slices_S424x16_o0_1_S424x1 : S424x16.Slices ![0, 1] S424x1
  slices_S424x16_o0_2_S424x1 : S424x16.Slices ![0, 2] S424x1
  slices_S424x16_o0_3_S424x1 : S424x16.Slices ![0, 3] S424x1
  slices_S424x16_o0_4_S424x1 : S424x16.Slices ![0, 4] S424x1
  slices_S424x16_o0_5_S424x1 : S424x16.Slices ![0, 5] S424x1
  slices_S424x16_o0_6_S424x1 : S424x16.Slices ![0, 6] S424x1
  slices_S424x16_o0_7_S424x1 : S424x16.Slices ![0, 7] S424x1
  slices_S424x16_o0_8_S424x1 : S424x16.Slices ![0, 8] S424x1
  slices_S424x16_o0_9_S424x1 : S424x16.Slices ![0, 9] S424x1
  slices_S424x16_o0_10_S424x1 : S424x16.Slices ![0, 10] S424x1
  slices_S424x16_o0_11_S424x1 : S424x16.Slices ![0, 11] S424x1
  slices_S424x16_o0_12_S424x1 : S424x16.Slices ![0, 12] S424x1
  slices_S424x16_o0_13_S424x1 : S424x16.Slices ![0, 13] S424x1
  slices_S424x16_o0_14_S424x1 : S424x16.Slices ![0, 14] S424x1
  slices_S424x16_o0_15_S424x1 : S424x16.Slices ![0, 15] S424x1
  concatenates_S424x128_S424x128_S424x128_S424x128_S424x128_S424x128_S424x128_S424x128_S424x128_S424x128_S424x128_S424x128_S424x128_S424x128_S424x128_S424x128_S424x2048_d1 : Shape.Concatenates [S424x128, S424x128, S424x128, S424x128, S424x128, S424x128, S424x128, S424x128, S424x128, S424x128, S424x128, S424x128, S424x128, S424x128, S424x128, S424x128] S424x2048 1
  inb_S424x2048_S424x2048_0_0 : ∀ a, (![0, 0] : Fin 2 → Nat) a + S424x2048.size a ≤ S424x2048.size a
  h_S424x2048 : 0 < S424x2048.numel
  slices_S26712x2048_S26578x2048_0_0 : S26712x2048.Slices ![0, 0] S26578x2048
  bcast_S_S1000x2048 : S_.BroadcastsInDim S1000x2048 (![] : Fin 0 → Fin S1000x2048.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x2048_0_1 : S1000x1.BroadcastsInDim S1000x2048 (![0, 1] : Fin 2 → Fin S1000x2048.rank)
  bcast_S_S1x256 : S_.BroadcastsInDim S1x256 (![] : Fin 0 → Fin S1x256.rank)
  shapeCasts_S256_S1x256 : S256.ShapeCasts S1x256
  inb_S1000x2048_S1000x2048_0_0 : ∀ a, (![0, 0] : Fin 2 → Nat) a + S1000x2048.size a ≤ S1000x2048.size a
  h_S1000x2048 : 0 < S1000x2048.numel
  shapeCasts_S1000x2048_S1000x2048 : S1000x2048.ShapeCasts S1000x2048
  inb_S2048x256_S2048x256_0_0 : ∀ a, (![0, 0] : Fin 2 → Nat) a + S2048x256.size a ≤ S2048x256.size a
  h_S2048x256 : 0 < S2048x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  reduces_S1000x256_S256 : S1000x256.Reduces [0] S256
  inb_S1000x256_S1000x256_0_0 : ∀ a, (![0, 0] : Fin 2 → Nat) a + S1000x256.size a ≤ S1000x256.size a
  h_S1000x256 : 0 < S1000x256.numel
  pads_S1000x3_S1120x3_01200_000 : S1000x3.Pads (![0, 0] : Fin 2 → Nat) ![120, 0] ![0, 0] S1120x3
  pads_S1000x256_S1120x256_01200_000 : S1000x256.Pads (![0, 0] : Fin 2 → Nat) ![120, 0] ![0, 0] S1120x256
  inb_S224x3_S224x3_0_0 : ∀ a, (![0, 0] : Fin 2 → Nat) a + S224x3.size a ≤ S224x3.size a
  h_S224x3 : 0 < S224x3.numel
  shapeCasts_S224x3_S224x3 : S224x3.ShapeCasts S224x3
  broadcasts_S1x16_S224x16 : S1x16.Broadcasts S224x16
  inb_S224x256_S224x256_0_0 : ∀ a, (![0, 0] : Fin 2 → Nat) a + S224x256.size a ≤ S224x256.size a
  h_S224x256 : 0 < S224x256.numel
  shapeCasts_S224x256_S224x256 : S224x256.ShapeCasts S224x256
  slices_S224x16_o0_0_S224x1 : S224x16.Slices ![0, 0] S224x1
  broadcasts_S224x1_S224x256 : S224x1.Broadcasts S224x256
  slices_S224x16_o0_1_S224x1 : S224x16.Slices ![0, 1] S224x1
  slices_S224x16_o0_2_S224x1 : S224x16.Slices ![0, 2] S224x1
  slices_S224x16_o0_3_S224x1 : S224x16.Slices ![0, 3] S224x1
  slices_S224x16_o0_4_S224x1 : S224x16.Slices ![0, 4] S224x1
  slices_S224x16_o0_5_S224x1 : S224x16.Slices ![0, 5] S224x1
  slices_S224x16_o0_6_S224x1 : S224x16.Slices ![0, 6] S224x1
  slices_S224x16_o0_7_S224x1 : S224x16.Slices ![0, 7] S224x1
  slices_S224x16_o0_8_S224x1 : S224x16.Slices ![0, 8] S224x1
  slices_S224x16_o0_9_S224x1 : S224x16.Slices ![0, 9] S224x1
  slices_S224x16_o0_10_S224x1 : S224x16.Slices ![0, 10] S224x1
  slices_S224x16_o0_11_S224x1 : S224x16.Slices ![0, 11] S224x1
  slices_S224x16_o0_12_S224x1 : S224x16.Slices ![0, 12] S224x1
  slices_S224x16_o0_13_S224x1 : S224x16.Slices ![0, 13] S224x1
  slices_S224x16_o0_14_S224x1 : S224x16.Slices ![0, 14] S224x1
  slices_S224x16_o0_15_S224x1 : S224x16.Slices ![0, 15] S224x1
  concatenates_S224x256_S224x256_S224x256_S224x256_S224x256_S224x256_S224x256_S224x256_S224x256_S224x256_S224x256_S224x256_S224x256_S224x256_S224x256_S224x256_S224x4096_d1 : Shape.Concatenates [S224x256, S224x256, S224x256, S224x256, S224x256, S224x256, S224x256, S224x256, S224x256, S224x256, S224x256, S224x256, S224x256, S224x256, S224x256, S224x256] S224x4096 1
  inb_S224x4096_S224x4096_0_0 : ∀ a, (![0, 0] : Fin 2 → Nat) a + S224x4096.size a ≤ S224x4096.size a
  h_S224x4096 : 0 < S224x4096.numel
  slices_S1120x4096_S1000x4096_0_0 : S1120x4096.Slices ![0, 0] S1000x4096
  bcast_S_S8x4096 : S_.BroadcastsInDim S8x4096 (![] : Fin 0 → Fin S8x4096.rank)
  bcast_S_S8 : S_.BroadcastsInDim S8 (![] : Fin 0 → Fin S8.rank)
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  bcast_S_S1x512 : S_.BroadcastsInDim S1x512 (![] : Fin 0 → Fin S1x512.rank)
  shapeCasts_S512_S1x512 : S512.ShapeCasts S1x512
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S4096x512_S4096x512_0_0 : ∀ a, (![0, 0] : Fin 2 → Nat) a + S4096x512.size a ≤ S4096x512.size a
  h_S4096x512 : 0 < S4096x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8x512 : S1x512.Broadcasts S8x512
  reduces_S8x512_S512 : S8x512.Reduces [0] S512
  inb_S8x512_S8x512_0_0 : ∀ a, (![0, 0] : Fin 2 → Nat) a + S8x512.size a ≤ S8x512.size a
  h_S8x512 : 0 < S8x512.numel
  shapeCasts_S8x512_S8x512 : S8x512.ShapeCasts S8x512
  inb_S512x128_S512x128_0_0 : ∀ a, (![0, 0] : Fin 2 → Nat) a + S512x128.size a ≤ S512x128.size a
  h_S512x128 : 0 < S512x128.numel
  broadcasts_S1x128_S8x128 : S1x128.Broadcasts S8x128
  reduces_S8x128_S128 : S8x128.Reduces [0] S128
  inb_S8x128_S8x128_0_0 : ∀ a, (![0, 0] : Fin 2 → Nat) a + S8x128.size a ≤ S8x128.size a
  h_S8x128 : 0 < S8x128.numel
  gather_S262144x3_S980628x1_S980628x3_1_0_n_n_0_1_13_wf : GatherDims.WF S262144x3 S980628x1 S980628x3 [1] [0] [] [0] [] 1 ![1, 3]
  gather_S8000x3_S980628x1_S980628x3_1_0_n_n_0_1_13_wf : GatherDims.WF S8000x3 S980628x1 S980628x3 [1] [0] [] [0] [] 1 ![1, 3]
  gather_S262144x1_S980628x1_S980628x1_1_0_n_n_0_1_11_wf : GatherDims.WF S262144x1 S980628x1 S980628x1 [1] [0] [] [0] [] 1 ![1, 1]
  dot_S2048x3_S3x16_S2048x16_1_0_0_1_n_n_wf : DotDims.WF S2048x3 S3x16 S2048x16 [1] [0] [0] [1] [] []
  scatter_S8000x16_S980628x1_S980628x16_1_0_0_1_wf : ScatterDims.WF S8000x16 S980628x1 S980628x16 [1] [0] [0] 1
  scatter_S8000_S980628x1_S980628_n_0_0_1_wf : ScatterDims.WF S8000 S980628x1 S980628 [] [0] [0] 1
  dot_S8000x16_S16x128_S8000x128_1_0_0_1_n_n_wf : DotDims.WF S8000x16 S16x128 S8000x128 [1] [0] [0] [1] [] []
  gather_S8000x3_S26578x1_S26578x3_1_0_n_n_0_1_13_wf : GatherDims.WF S8000x3 S26578x1 S26578x3 [1] [0] [] [0] [] 1 ![1, 3]
  gather_S1000x3_S26578x1_S26578x3_1_0_n_n_0_1_13_wf : GatherDims.WF S1000x3 S26578x1 S26578x3 [1] [0] [] [0] [] 1 ![1, 3]
  gather_S8000x128_S26578x1_S26578x128_1_0_n_n_0_1_1128_wf : GatherDims.WF S8000x128 S26578x1 S26578x128 [1] [0] [] [0] [] 1 ![1, 128]
  dot_S424x3_S3x16_S424x16_1_0_0_1_n_n_wf : DotDims.WF S424x3 S3x16 S424x16 [1] [0] [0] [1] [] []
  scatter_S1000x2048_S26578x1_S26578x2048_1_0_0_1_wf : ScatterDims.WF S1000x2048 S26578x1 S26578x2048 [1] [0] [0] 1
  scatter_S1000_S26578x1_S26578_n_0_0_1_wf : ScatterDims.WF S1000 S26578x1 S26578 [] [0] [0] 1
  dot_S1000x2048_S2048x256_S1000x256_1_0_0_1_n_n_wf : DotDims.WF S1000x2048 S2048x256 S1000x256 [1] [0] [0] [1] [] []
  gather_S1000x3_S1000x1_S1000x3_1_0_n_n_0_1_13_wf : GatherDims.WF S1000x3 S1000x1 S1000x3 [1] [0] [] [0] [] 1 ![1, 3]
  gather_S8x3_S1000x1_S1000x3_1_0_n_n_0_1_13_wf : GatherDims.WF S8x3 S1000x1 S1000x3 [1] [0] [] [0] [] 1 ![1, 3]
  gather_S1000x256_S1000x1_S1000x256_1_0_n_n_0_1_1256_wf : GatherDims.WF S1000x256 S1000x1 S1000x256 [1] [0] [] [0] [] 1 ![1, 256]
  dot_S224x3_S3x16_S224x16_1_0_0_1_n_n_wf : DotDims.WF S224x3 S3x16 S224x16 [1] [0] [0] [1] [] []
  scatter_S8x4096_S1000x1_S1000x4096_1_0_0_1_wf : ScatterDims.WF S8x4096 S1000x1 S1000x4096 [1] [0] [0] 1
  scatter_S8_S1000x1_S1000_n_0_0_1_wf : ScatterDims.WF S8 S1000x1 S1000 [] [0] [0] 1
  dot_S8x4096_S4096x512_S8x512_1_0_0_1_n_n_wf : DotDims.WF S8x4096 S4096x512 S8x512 [1] [0] [0] [1] [] []
  dot_S8x512_S512x128_S8x128_1_0_0_1_n_n_wf : DotDims.WF S8x512 S512x128 S8x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x3.size a ≤ S980992x3.size a
  hwx0_0 : ∀ i : grid0.Coords, EltTy.bits .f32 = 32 ∨ (Rect.block (s := S980992x3) S2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x3.size a ≤ S980992x3.size a
  hwx0_1 : ∀ i : grid0.Coords, EltTy.bits .f32 = 32 ∨ (Rect.block (s := S980992x3) S2048x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S980992x1.size a
  hwx0_2 : ∀ i : grid0.Coords, EltTy.bits .f32 = 32 ∨ (Rect.block (s := S980992x1) S2048x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x16.size a ≤ S3x16.size a
  hwx0_3 : ∀ i : grid0.Coords, EltTy.bits .f32 = 32 ∨ (Rect.block (s := S3x16) S3x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x16.size a ≤ S980992x16.size a
  hwx0_5 : ∀ i : grid0.Coords, EltTy.bits .f32 = 32 ∨ (Rect.block (s := S980992x16) S2048x16.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S8000x16.size a
  hwx1_0 : ∀ i : grid1.Coords, EltTy.bits .f32 = 32 ∨ (Rect.block (s := S8000x16) S8000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S8000x128.size a
  hwx1_5 : ∀ i : grid1.Coords, EltTy.bits .f32 = 32 ∨ (Rect.block (s := S8000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S424x3.size a ≤ S26712x3.size a
  hwx2_0 : ∀ i : grid2.Coords, EltTy.bits .f32 = 32 ∨ (Rect.block (s := S26712x3) S424x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S424x3.size a ≤ S26712x3.size a
  hwx2_1 : ∀ i : grid2.Coords, EltTy.bits .f32 = 32 ∨ (Rect.block (s := S26712x3) S424x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S424x128.size a ≤ S26712x128.size a
  hwx2_2 : ∀ i : grid2.Coords, EltTy.bits .f32 = 32 ∨ (Rect.block (s := S26712x128) S424x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x16.size a ≤ S3x16.size a
  hwx2_3 : ∀ i : grid2.Coords, EltTy.bits .f32 = 32 ∨ (Rect.block (s := S3x16) S3x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S424x2048.size a ≤ S26712x2048.size a
  hwx2_5 : ∀ i : grid2.Coords, EltTy.bits .f32 = 32 ∨ (Rect.block (s := S26712x2048) S424x2048.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S1000x2048.size a ≤ S1000x2048.size a
  hwx3_0 : ∀ i : grid3.Coords, EltTy.bits .f32 = 32 ∨ (Rect.block (s := S1000x2048) S1000x2048.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S2048x256.size a
  hwx3_1 : ∀ i : grid3.Coords, EltTy.bits .f32 = 32 ∨ (Rect.block (s := S2048x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1000x256.size a ≤ S1000x256.size a
  hwx3_5 : ∀ i : grid3.Coords, EltTy.bits .f32 = 32 ∨ (Rect.block (s := S1000x256) S1000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S224x3.size a ≤ S1120x3.size a
  hwx4_0 : ∀ i : grid4.Coords, EltTy.bits .f32 = 32 ∨ (Rect.block (s := S1120x3) S224x3.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S224x3.size a ≤ S1120x3.size a
  hwx4_1 : ∀ i : grid4.Coords, EltTy.bits .f32 = 32 ∨ (Rect.block (s := S1120x3) S224x3.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S224x256.size a ≤ S1120x256.size a
  hwx4_2 : ∀ i : grid4.Coords, EltTy.bits .f32 = 32 ∨ (Rect.block (s := S1120x256) S224x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S3x16.size a ≤ S3x16.size a
  hwx4_3 : ∀ i : grid4.Coords, EltTy.bits .f32 = 32 ∨ (Rect.block (s := S3x16) S3x16.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x16.size a ≤ S1x16.size a
  hwx4_4 : ∀ i : grid4.Coords, EltTy.bits .f32 = 32 ∨ (Rect.block (s := S1x16) S1x16.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S224x4096.size a ≤ S1120x4096.size a
  hwx4_5 : ∀ i : grid4.Coords, EltTy.bits .f32 = 32 ∨ (Rect.block (s := S1120x4096) S224x4096.size (cc4_transform_5 i) (hinb4_5 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S8x4096.size a ≤ S8x4096.size a
  hwx5_0 : ∀ i : grid5.Coords, EltTy.bits .f32 = 32 ∨ (Rect.block (s := S8x4096) S8x4096.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S4096x512.size a ≤ S4096x512.size a
  hwx5_1 : ∀ i : grid5.Coords, EltTy.bits .f32 = 32 ∨ (Rect.block (s := S4096x512) S4096x512.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x512.size a ≤ S1x512.size a
  hwx5_3 : ∀ i : grid5.Coords, EltTy.bits .f32 = 32 ∨ (Rect.block (s := S1x512) S1x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x512.size a ≤ S1x512.size a
  hwx5_4 : ∀ i : grid5.Coords, EltTy.bits .f32 = 32 ∨ (Rect.block (s := S1x512) S1x512.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S8x512.size a ≤ S8x512.size a
  hwx5_5 : ∀ i : grid5.Coords, EltTy.bits .f32 = 32 ∨ (Rect.block (s := S8x512) S8x512.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S8x512.size a ≤ S8x512.size a
  hwx6_0 : ∀ i : grid6.Coords, EltTy.bits .f32 = 32 ∨ (Rect.block (s := S8x512) S8x512.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x128.size a ≤ S512x128.size a
  hwx6_1 : ∀ i : grid6.Coords, EltTy.bits .f32 = 32 ∨ (Rect.block (s := S512x128) S512x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S8x128.size a ≤ S8x128.size a
  hwx6_5 : ∀ i : grid6.Coords, EltTy.bits .f32 = 32 ∨ (Rect.block (s := S8x128) S8x128.size (cc6_transform_5 i) (hinb6_5 i)).WholeWords (EltTy.packing .f32)

variable [Facts₀]

def gather_S262144x3_S980628x1_S980628x3_1_0_n_n_0_1_13 : GatherDims S262144x3 S980628x1 S980628x3 where
  offsetDims := [1]
  collapsedSliceDims := [0]
  operandBatchingDims := []
  startIndicesBatchingDims := []
  startIndexMap := [0]
  indexVectorDim := 1
  sliceSizes := ![1, 3]
  wf := gather_S262144x3_S980628x1_S980628x3_1_0_n_n_0_1_13_wf
def gather_S8000x3_S980628x1_S980628x3_1_0_n_n_0_1_13 : GatherDims S8000x3 S980628x1 S980628x3 where
  offsetDims := [1]
  collapsedSliceDims := [0]
  operandBatchingDims := []
  startIndicesBatchingDims := []
  startIndexMap := [0]
  indexVectorDim := 1
  sliceSizes := ![1, 3]
  wf := gather_S8000x3_S980628x1_S980628x3_1_0_n_n_0_1_13_wf
def gather_S262144x1_S980628x1_S980628x1_1_0_n_n_0_1_11 : GatherDims S262144x1 S980628x1 S980628x1 where
  offsetDims := [1]
  collapsedSliceDims := [0]
  operandBatchingDims := []
  startIndicesBatchingDims := []
  startIndexMap := [0]
  indexVectorDim := 1
  sliceSizes := ![1, 1]
  wf := gather_S262144x1_S980628x1_S980628x1_1_0_n_n_0_1_11_wf
def dot_S2048x3_S3x16_S2048x16_1_0_0_1_n_n : DotDims S2048x3 S3x16 S2048x16 where
  lhsContracting := [1]
  rhsContracting := [0]
  lhsNonContracting := [0]
  rhsNonContracting := [1]
  lhsBatch := []
  rhsBatch := []
  wf := dot_S2048x3_S3x16_S2048x16_1_0_0_1_n_n_wf
def scatter_S8000x16_S980628x1_S980628x16_1_0_0_1 : ScatterDims S8000x16 S980628x1 S980628x16 where
  updateWindowDims := [1]
  insertedWindowDims := [0]
  scatterDimsToOperandDims := [0]
  indexVectorDim := 1
  wf := scatter_S8000x16_S980628x1_S980628x16_1_0_0_1_wf
def scatter_S8000_S980628x1_S980628_n_0_0_1 : ScatterDims S8000 S980628x1 S980628 where
  updateWindowDims := []
  insertedWindowDims := [0]
  scatterDimsToOperandDims := [0]
  indexVectorDim := 1
  wf := scatter_S8000_S980628x1_S980628_n_0_0_1_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def gather_S8000x3_S26578x1_S26578x3_1_0_n_n_0_1_13 : GatherDims S8000x3 S26578x1 S26578x3 where
  offsetDims := [1]
  collapsedSliceDims := [0]
  operandBatchingDims := []
  startIndicesBatchingDims := []
  startIndexMap := [0]
  indexVectorDim := 1
  sliceSizes := ![1, 3]
  wf := gather_S8000x3_S26578x1_S26578x3_1_0_n_n_0_1_13_wf
def gather_S1000x3_S26578x1_S26578x3_1_0_n_n_0_1_13 : GatherDims S1000x3 S26578x1 S26578x3 where
  offsetDims := [1]
  collapsedSliceDims := [0]
  operandBatchingDims := []
  startIndicesBatchingDims := []
  startIndexMap := [0]
  indexVectorDim := 1
  sliceSizes := ![1, 3]
  wf := gather_S1000x3_S26578x1_S26578x3_1_0_n_n_0_1_13_wf
def gather_S8000x128_S26578x1_S26578x128_1_0_n_n_0_1_1128 : GatherDims S8000x128 S26578x1 S26578x128 where
  offsetDims := [1]
  collapsedSliceDims := [0]
  operandBatchingDims := []
  startIndicesBatchingDims := []
  startIndexMap := [0]
  indexVectorDim := 1
  sliceSizes := ![1, 128]
  wf := gather_S8000x128_S26578x1_S26578x128_1_0_n_n_0_1_1128_wf
def dot_S424x3_S3x16_S424x16_1_0_0_1_n_n : DotDims S424x3 S3x16 S424x16 where
  lhsContracting := [1]
  rhsContracting := [0]
  lhsNonContracting := [0]
  rhsNonContracting := [1]
  lhsBatch := []
  rhsBatch := []
  wf := dot_S424x3_S3x16_S424x16_1_0_0_1_n_n_wf
def scatter_S1000x2048_S26578x1_S26578x2048_1_0_0_1 : ScatterDims S1000x2048 S26578x1 S26578x2048 where
  updateWindowDims := [1]
  insertedWindowDims := [0]
  scatterDimsToOperandDims := [0]
  indexVectorDim := 1
  wf := scatter_S1000x2048_S26578x1_S26578x2048_1_0_0_1_wf
def scatter_S1000_S26578x1_S26578_n_0_0_1 : ScatterDims S1000 S26578x1 S26578 where
  updateWindowDims := []
  insertedWindowDims := [0]
  scatterDimsToOperandDims := [0]
  indexVectorDim := 1
  wf := scatter_S1000_S26578x1_S26578_n_0_0_1_wf
def dot_S1000x2048_S2048x256_S1000x256_1_0_0_1_n_n : DotDims S1000x2048 S2048x256 S1000x256 where
  lhsContracting := [1]
  rhsContracting := [0]
  lhsNonContracting := [0]
  rhsNonContracting := [1]
  lhsBatch := []
  rhsBatch := []
  wf := dot_S1000x2048_S2048x256_S1000x256_1_0_0_1_n_n_wf
def gather_S1000x3_S1000x1_S1000x3_1_0_n_n_0_1_13 : GatherDims S1000x3 S1000x1 S1000x3 where
  offsetDims := [1]
  collapsedSliceDims := [0]
  operandBatchingDims := []
  startIndicesBatchingDims := []
  startIndexMap := [0]
  indexVectorDim := 1
  sliceSizes := ![1, 3]
  wf := gather_S1000x3_S1000x1_S1000x3_1_0_n_n_0_1_13_wf
def gather_S8x3_S1000x1_S1000x3_1_0_n_n_0_1_13 : GatherDims S8x3 S1000x1 S1000x3 where
  offsetDims := [1]
  collapsedSliceDims := [0]
  operandBatchingDims := []
  startIndicesBatchingDims := []
  startIndexMap := [0]
  indexVectorDim := 1
  sliceSizes := ![1, 3]
  wf := gather_S8x3_S1000x1_S1000x3_1_0_n_n_0_1_13_wf
def gather_S1000x256_S1000x1_S1000x256_1_0_n_n_0_1_1256 : GatherDims S1000x256 S1000x1 S1000x256 where
  offsetDims := [1]
  collapsedSliceDims := [0]
  operandBatchingDims := []
  startIndicesBatchingDims := []
  startIndexMap := [0]
  indexVectorDim := 1
  sliceSizes := ![1, 256]
  wf := gather_S1000x256_S1000x1_S1000x256_1_0_n_n_0_1_1256_wf
def dot_S224x3_S3x16_S224x16_1_0_0_1_n_n : DotDims S224x3 S3x16 S224x16 where
  lhsContracting := [1]
  rhsContracting := [0]
  lhsNonContracting := [0]
  rhsNonContracting := [1]
  lhsBatch := []
  rhsBatch := []
  wf := dot_S224x3_S3x16_S224x16_1_0_0_1_n_n_wf
def scatter_S8x4096_S1000x1_S1000x4096_1_0_0_1 : ScatterDims S8x4096 S1000x1 S1000x4096 where
  updateWindowDims := [1]
  insertedWindowDims := [0]
  scatterDimsToOperandDims := [0]
  indexVectorDim := 1
  wf := scatter_S8x4096_S1000x1_S1000x4096_1_0_0_1_wf
def scatter_S8_S1000x1_S1000_n_0_0_1 : ScatterDims S8 S1000x1 S1000 where
  updateWindowDims := []
  insertedWindowDims := [0]
  scatterDimsToOperandDims := [0]
  indexVectorDim := 1
  wf := scatter_S8_S1000x1_S1000_n_0_0_1_wf
def dot_S8x4096_S4096x512_S8x512_1_0_0_1_n_n : DotDims S8x4096 S4096x512 S8x512 where
  lhsContracting := [1]
  rhsContracting := [0]
  lhsNonContracting := [0]
  rhsNonContracting := [1]
  lhsBatch := []
  rhsBatch := []
  wf := dot_S8x4096_S4096x512_S8x512_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

abbrev win0_0 : Pipeline.Window sig grid0 :=
  Pipeline.Window.ofSpec (Memref.whole main_v22) S2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2048x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S3x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S2048x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S8000x16.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg13) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S8000x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v65) S424x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S424x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v67) S424x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg16) S3x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S424x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v81) S1000x2048.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg18) S2048x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S1000x256.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v108) S224x3.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S224x3.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v110) S224x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg21) S3x16.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v107) S1x16.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v111) S224x4096.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v124) S8x4096.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg23) S4096x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v125) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v126) S1x512.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v127) S1x512.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v128) S8x512.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v128) S8x512.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg26) S512x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v129) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v130) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v131) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v132) S8x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S262144x1 : Shape := ⟨2, ![262144, 1]⟩
abbrev S262144x3 : Shape := ⟨2, ![262144, 3]⟩
abbrev S8000x3 : Shape := ⟨2, ![8000, 3]⟩
abbrev S1000x3 : Shape := ⟨2, ![1000, 3]⟩
abbrev S8x3 : Shape := ⟨2, ![8, 3]⟩
abbrev S980628 : Shape := ⟨1, ![980628]⟩
abbrev S26578 : Shape := ⟨1, ![26578]⟩
abbrev S1000 : Shape := ⟨1, ![1000]⟩
abbrev S3x16 : Shape := ⟨2, ![3, 16]⟩
abbrev S16 : Shape := ⟨1, ![16]⟩
abbrev S16x128 : Shape := ⟨2, ![16, 128]⟩
abbrev S128 : Shape := ⟨1, ![128]⟩
abbrev S2048x256 : Shape := ⟨2, ![2048, 256]⟩
abbrev S256 : Shape := ⟨1, ![256]⟩
abbrev S4096x512 : Shape := ⟨2, ![4096, 512]⟩
abbrev S512 : Shape := ⟨1, ![512]⟩
abbrev S512x128 : Shape := ⟨2, ![512, 128]⟩
abbrev S_ : Shape := ⟨0, ![]⟩
abbrev S980628x1 : Shape := ⟨2, ![980628, 1]⟩
abbrev S980628x3 : Shape := ⟨2, ![980628, 3]⟩
abbrev S980628x16 : Shape := ⟨2, ![980628, 16]⟩
abbrev S1x16 : Shape := ⟨2, ![1, 16]⟩
abbrev S980628x16x1 : Shape := ⟨3, ![980628, 16, 1]⟩
abbrev S980628x1x1 : Shape := ⟨3, ![980628, 1, 1]⟩
abbrev S8000x16x1 : Shape := ⟨3, ![8000, 16, 1]⟩
abbrev S8000 : Shape := ⟨1, ![8000]⟩
abbrev S8000x1x1 : Shape := ⟨3, ![8000, 1, 1]⟩
abbrev S8000x16 : Shape := ⟨2, ![8000, 16]⟩
abbrev S8000x128 : Shape := ⟨2, ![8000, 128]⟩
abbrev S1x128 : Shape := ⟨2, ![1, 128]⟩
abbrev S26578x1 : Shape := ⟨2, ![26578, 1]⟩
abbrev S26578x3 : Shape := ⟨2, ![26578, 3]⟩
abbrev S26578x16 : Shape := ⟨2, ![26578, 16]⟩
abbrev S26578x16x1 : Shape := ⟨3, ![26578, 16, 1]⟩
abbrev S26578x128 : Shape := ⟨2, ![26578, 128]⟩
abbrev S26578x1x128 : Shape := ⟨3, ![26578, 1, 128]⟩
abbrev S26578x16x128 : Shape := ⟨3, ![26578, 16, 128]⟩
abbrev S1000x16x128 : Shape := ⟨3, ![1000, 16, 128]⟩
abbrev S1000x1x1 : Shape := ⟨3, ![1000, 1, 1]⟩
abbrev S1000x2048 : Shape := ⟨2, ![1000, 2048]⟩
abbrev S1000x256 : Shape := ⟨2, ![1000, 256]⟩
abbrev S1x256 : Shape := ⟨2, ![1, 256]⟩
abbrev S1000x1 : Shape := ⟨2, ![1000, 1]⟩
abbrev S1000x16 : Shape := ⟨2, ![1000, 16]⟩
abbrev S1000x16x1 : Shape := ⟨3, ![1000, 16, 1]⟩
abbrev S1000x1x256 : Shape := ⟨3, ![1000, 1, 256]⟩
abbrev S1000x16x256 : Shape := ⟨3, ![1000, 16, 256]⟩
abbrev S8x16x256 : Shape := ⟨3, ![8, 16, 256]⟩
abbrev S8 : Shape := ⟨1, ![8]⟩
abbrev S8x1x1 : Shape := ⟨3, ![8, 1, 1]⟩
abbrev S8x4096 : Shape := ⟨2, ![8, 4096]⟩
abbrev S8x512 : Shape := ⟨2, ![8, 512]⟩
abbrev S1x512 : Shape := ⟨2, ![1, 512]⟩
abbrev S8x128 : Shape := ⟨2, ![8, 128]⟩

abbrev nBuf : Space → Nat
  | .hbm => 439
  | .vmem => 0
  | .smem => 0
  | _ => 0

abbrev hbmTy0_0 (i : Nat) : BufTy := match i % 128 with
  | 0 => ⟨S262144x1, .f32⟩
  | 1 => ⟨S262144x3, .f32⟩
  | 2 => ⟨S8000x3, .f32⟩
  | 3 => ⟨S1000x3, .f32⟩
  | 4 => ⟨S8x3, .f32⟩
  | 5 => ⟨S980628, .i32⟩
  | 6 => ⟨S980628, .i32⟩
  | 7 => ⟨S26578, .i32⟩
  | 8 => ⟨S26578, .i32⟩
  | 9 => ⟨S1000, .i32⟩
  | 10 => ⟨S1000, .i32⟩
  | 11 => ⟨S3x16, .f32⟩
  | 12 => ⟨S16, .f32⟩
  | 13 => ⟨S16x128, .f32⟩
  | 14 => ⟨S128, .f32⟩
  | 15 => ⟨S128, .f32⟩
  | 16 => ⟨S3x16, .f32⟩
  | 17 => ⟨S16, .f32⟩
  | 18 => ⟨S2048x256, .f32⟩
  | 19 => ⟨S256, .f32⟩
  | 20 => ⟨S256, .f32⟩
  | 21 => ⟨S3x16, .f32⟩
  | 22 => ⟨S16, .f32⟩
  | 23 => ⟨S4096x512, .f32⟩
  | 24 => ⟨S512, .f32⟩
  | 25 => ⟨S512, .f32⟩
  | 26 => ⟨S512x128, .f32⟩
  | 27 => ⟨S128, .f32⟩
  | 28 => ⟨S128, .f32⟩
  | 29 => ⟨S128, .f32⟩
  | 30 => ⟨S_, .i32⟩
  | 31 => ⟨S980628, .i32⟩
  | 32 => ⟨S980628, .i1⟩
  | 33 => ⟨S_, .i32⟩
  | 34 => ⟨S980628, .i32⟩
  | 35 => ⟨S980628, .i32⟩
  | 36 => ⟨S980628, .i32⟩
  | 37 => ⟨S980628x1, .i32⟩
  | 38 => ⟨S980628x3, .f32⟩
  | 39 => ⟨S_, .i32⟩
  | 40 => ⟨S980628, .i32⟩
  | 41 => ⟨S980628, .i1⟩
  | 42 => ⟨S_, .i32⟩
  | 43 => ⟨S980628, .i32⟩
  | 44 => ⟨S980628, .i32⟩
  | 45 => ⟨S980628, .i32⟩
  | 46 => ⟨S980628x1, .i32⟩
  | 47 => ⟨S980628x3, .f32⟩
  | 48 => ⟨S980628x3, .f32⟩
  | 49 => ⟨S_, .f32⟩
  | 50 => ⟨S980628x3, .f32⟩
  | 51 => ⟨S980628x3, .f32⟩
  | 52 => ⟨S980628x16, .f32⟩
  | 53 => ⟨S1x16, .f32⟩
  | 54 => ⟨S980628x16, .f32⟩
  | 55 => ⟨S980628x16, .f32⟩
  | 56 => ⟨S_, .f32⟩
  | 57 => ⟨S_, .f32⟩
  | 58 => ⟨S980628x16, .f32⟩
  | 59 => ⟨S980628x16, .i1⟩
  | 60 => ⟨S_, .f32⟩
  | 61 => ⟨S980628x16, .f32⟩
  | 62 => ⟨S980628x16, .f32⟩
  | 63 => ⟨S980628x16, .f32⟩
  | 64 => ⟨S980628x16x1, .f32⟩
  | 65 => ⟨S_, .i32⟩
  | 66 => ⟨S980628, .i32⟩
  | 67 => ⟨S980628, .i1⟩
  | 68 => ⟨S_, .i32⟩
  | 69 => ⟨S980628, .i32⟩
  | 70 => ⟨S980628, .i32⟩
  | 71 => ⟨S980628, .i32⟩
  | 72 => ⟨S980628x1, .i32⟩
  | 73 => ⟨S980628x1, .f32⟩
  | 74 => ⟨S980628x1x1, .f32⟩
  | 75 => ⟨S980628x16x1, .f32⟩
  | 76 => ⟨S980628x16x1, .f32⟩
  | 77 => ⟨S_, .f32⟩
  | 78 => ⟨S8000x16x1, .f32⟩
  | 79 => ⟨S980628x1, .i32⟩
  | 80 => ⟨S8000x16x1, .f32⟩
  | 81 => ⟨S_, .f32⟩
  | 82 => ⟨S980628, .f32⟩
  | 83 => ⟨S_, .f32⟩
  | 84 => ⟨S8000, .f32⟩
  | 85 => ⟨S980628x1, .i32⟩
  | 86 => ⟨S8000, .f32⟩
  | 87 => ⟨S_, .f32⟩
  | 88 => ⟨S8000, .f32⟩
  | 89 => ⟨S8000, .f32⟩
  | 90 => ⟨S8000x1x1, .f32⟩
  | 91 => ⟨S8000x16x1, .f32⟩
  | 92 => ⟨S8000x16x1, .f32⟩
  | 93 => ⟨S8000x16, .f32⟩
  | 94 => ⟨S8000x128, .f32⟩
  | 95 => ⟨S_, .f32⟩
  | 96 => ⟨S128, .f32⟩
  | 97 => ⟨S1x128, .f32⟩
  | 98 => ⟨S_, .f32⟩
  | 99 => ⟨S1x128, .f32⟩
  | 100 => ⟨S1x128, .f32⟩
  | 101 => ⟨S_, .i32⟩
  | 102 => ⟨S_, .f32⟩
  | 103 => ⟨S128, .f32⟩
  | 104 => ⟨S1x128, .f32⟩
  | 105 => ⟨S_, .f32⟩
  | 106 => ⟨S1x128, .f32⟩
  | 107 => ⟨S1x128, .f32⟩
  | 108 => ⟨S8000x128, .f32⟩
  | 109 => ⟨S8000x128, .f32⟩
  | 110 => ⟨S8000x128, .f32⟩
  | 111 => ⟨S_, .f32⟩
  | 112 => ⟨S_, .f32⟩
  | 113 => ⟨S_, .f32⟩
  | 114 => ⟨S_, .f32⟩
  | 115 => ⟨S128, .f32⟩
  | 116 => ⟨S1x128, .f32⟩
  | 117 => ⟨S1x128, .f32⟩
  | 118 => ⟨S1x128, .f32⟩
  | 119 => ⟨S_, .f32⟩
  | 120 => ⟨S_, .i1⟩
  | 121 => ⟨S_, .f32⟩
  | 122 => ⟨S_, .f32⟩
  | 123 => ⟨S1x128, .f32⟩
  | 124 => ⟨S1x128, .f32⟩
  | 125 => ⟨S8000x128, .f32⟩
  | 126 => ⟨S8000x128, .f32⟩
  | 127 => ⟨S_, .f32⟩
  | _ => ⟨S262144x1, .f32⟩

abbrev hbmTy0_1 (i : Nat) : BufTy := match i % 128 with
  | 0 => ⟨S1x128, .f32⟩
  | 1 => ⟨S1x128, .f32⟩
  | 2 => ⟨S1x128, .f32⟩
  | 3 => ⟨S8000x128, .f32⟩
  | 4 => ⟨S8000x128, .f32⟩
  | 5 => ⟨S1x128, .f32⟩
  | 6 => ⟨S8000x128, .f32⟩
  | 7 => ⟨S8000x128, .f32⟩
  | 8 => ⟨S1x128, .f32⟩
  | 9 => ⟨S8000x128, .f32⟩
  | 10 => ⟨S8000x128, .f32⟩
  | 11 => ⟨S_, .f32⟩
  | 12 => ⟨S_, .f32⟩
  | 13 => ⟨S8000x128, .f32⟩
  | 14 => ⟨S8000x128, .i1⟩
  | 15 => ⟨S_, .f32⟩
  | 16 => ⟨S8000x128, .f32⟩
  | 17 => ⟨S8000x128, .f32⟩
  | 18 => ⟨S8000x128, .f32⟩
  | 19 => ⟨S_, .i32⟩
  | 20 => ⟨S26578, .i32⟩
  | 21 => ⟨S26578, .i1⟩
  | 22 => ⟨S_, .i32⟩
  | 23 => ⟨S26578, .i32⟩
  | 24 => ⟨S26578, .i32⟩
  | 25 => ⟨S26578, .i32⟩
  | 26 => ⟨S26578x1, .i32⟩
  | 27 => ⟨S26578x3, .f32⟩
  | 28 => ⟨S_, .i32⟩
  | 29 => ⟨S26578, .i32⟩
  | 30 => ⟨S26578, .i1⟩
  | 31 => ⟨S_, .i32⟩
  | 32 => ⟨S26578, .i32⟩
  | 33 => ⟨S26578, .i32⟩
  | 34 => ⟨S26578, .i32⟩
  | 35 => ⟨S26578x1, .i32⟩
  | 36 => ⟨S26578x3, .f32⟩
  | 37 => ⟨S26578x3, .f32⟩
  | 38 => ⟨S_, .f32⟩
  | 39 => ⟨S26578x3, .f32⟩
  | 40 => ⟨S26578x3, .f32⟩
  | 41 => ⟨S26578x16, .f32⟩
  | 42 => ⟨S1x16, .f32⟩
  | 43 => ⟨S26578x16, .f32⟩
  | 44 => ⟨S26578x16, .f32⟩
  | 45 => ⟨S_, .f32⟩
  | 46 => ⟨S_, .f32⟩
  | 47 => ⟨S26578x16, .f32⟩
  | 48 => ⟨S26578x16, .i1⟩
  | 49 => ⟨S_, .f32⟩
  | 50 => ⟨S26578x16, .f32⟩
  | 51 => ⟨S26578x16, .f32⟩
  | 52 => ⟨S26578x16, .f32⟩
  | 53 => ⟨S26578x16x1, .f32⟩
  | 54 => ⟨S_, .i32⟩
  | 55 => ⟨S26578, .i32⟩
  | 56 => ⟨S26578, .i1⟩
  | 57 => ⟨S_, .i32⟩
  | 58 => ⟨S26578, .i32⟩
  | 59 => ⟨S26578, .i32⟩
  | 60 => ⟨S26578, .i32⟩
  | 61 => ⟨S26578x1, .i32⟩
  | 62 => ⟨S26578x128, .f32⟩
  | 63 => ⟨S26578x1x128, .f32⟩
  | 64 => ⟨S26578x16x128, .f32⟩
  | 65 => ⟨S26578x16x128, .f32⟩
  | 66 => ⟨S26578x16x128, .f32⟩
  | 67 => ⟨S_, .f32⟩
  | 68 => ⟨S1000x16x128, .f32⟩
  | 69 => ⟨S26578x1, .i32⟩
  | 70 => ⟨S1000x16x128, .f32⟩
  | 71 => ⟨S_, .f32⟩
  | 72 => ⟨S26578, .f32⟩
  | 73 => ⟨S_, .f32⟩
  | 74 => ⟨S1000, .f32⟩
  | 75 => ⟨S26578x1, .i32⟩
  | 76 => ⟨S1000, .f32⟩
  | 77 => ⟨S_, .f32⟩
  | 78 => ⟨S1000, .f32⟩
  | 79 => ⟨S1000, .f32⟩
  | 80 => ⟨S1000x1x1, .f32⟩
  | 81 => ⟨S1000x16x128, .f32⟩
  | 82 => ⟨S1000x16x128, .f32⟩
  | 83 => ⟨S1000x2048, .f32⟩
  | 84 => ⟨S1000x256, .f32⟩
  | 85 => ⟨S_, .f32⟩
  | 86 => ⟨S256, .f32⟩
  | 87 => ⟨S1x256, .f32⟩
  | 88 => ⟨S_, .f32⟩
  | 89 => ⟨S1x256, .f32⟩
  | 90 => ⟨S1x256, .f32⟩
  | 91 => ⟨S_, .i32⟩
  | 92 => ⟨S_, .f32⟩
  | 93 => ⟨S256, .f32⟩
  | 94 => ⟨S1x256, .f32⟩
  | 95 => ⟨S_, .f32⟩
  | 96 => ⟨S1x256, .f32⟩
  | 97 => ⟨S1x256, .f32⟩
  | 98 => ⟨S1000x256, .f32⟩
  | 99 => ⟨S1000x256, .f32⟩
  | 100 => ⟨S1000x256, .f32⟩
  | 101 => ⟨S_, .f32⟩
  | 102 => ⟨S_, .f32⟩
  | 103 => ⟨S_, .f32⟩
  | 104 => ⟨S_, .f32⟩
  | 105 => ⟨S256, .f32⟩
  | 106 => ⟨S1x256, .f32⟩
  | 107 => ⟨S1x256, .f32⟩
  | 108 => ⟨S1x256, .f32⟩
  | 109 => ⟨S_, .f32⟩
  | 110 => ⟨S_, .i1⟩
  | 111 => ⟨S_, .f32⟩
  | 112 => ⟨S_, .f32⟩
  | 113 => ⟨S1x256, .f32⟩
  | 114 => ⟨S1x256, .f32⟩
  | 115 => ⟨S1000x256, .f32⟩
  | 116 => ⟨S1000x256, .f32⟩
  | 117 => ⟨S_, .f32⟩
  | 118 => ⟨S1x256, .f32⟩
  | 119 => ⟨S1x256, .f32⟩
  | 120 => ⟨S1x256, .f32⟩
  | 121 => ⟨S1000x256, .f32⟩
  | 122 => ⟨S1000x256, .f32⟩
  | 123 => ⟨S1x256, .f32⟩
  | 124 => ⟨S1000x256, .f32⟩
  | 125 => ⟨S1000x256, .f32⟩
  | 126 => ⟨S1x256, .f32⟩
  | 127 => ⟨S1000x256, .f32⟩
  | _ => ⟨S262144x1, .f32⟩

abbrev hbmTy0_2 (i : Nat) : BufTy := match i % 128 with
  | 0 => ⟨S1000x256, .f32⟩
  | 1 => ⟨S_, .f32⟩
  | 2 => ⟨S_, .f32⟩
  | 3 => ⟨S1000x256, .f32⟩
  | 4 => ⟨S1000x256, .i1⟩
  | 5 => ⟨S_, .f32⟩
  | 6 => ⟨S1000x256, .f32⟩
  | 7 => ⟨S1000x256, .f32⟩
  | 8 => ⟨S1000x256, .f32⟩
  | 9 => ⟨S_, .i32⟩
  | 10 => ⟨S1000, .i32⟩
  | 11 => ⟨S1000, .i1⟩
  | 12 => ⟨S_, .i32⟩
  | 13 => ⟨S1000, .i32⟩
  | 14 => ⟨S1000, .i32⟩
  | 15 => ⟨S1000, .i32⟩
  | 16 => ⟨S1000x1, .i32⟩
  | 17 => ⟨S1000x3, .f32⟩
  | 18 => ⟨S_, .i32⟩
  | 19 => ⟨S1000, .i32⟩
  | 20 => ⟨S1000, .i1⟩
  | 21 => ⟨S_, .i32⟩
  | 22 => ⟨S1000, .i32⟩
  | 23 => ⟨S1000, .i32⟩
  | 24 => ⟨S1000, .i32⟩
  | 25 => ⟨S1000x1, .i32⟩
  | 26 => ⟨S1000x3, .f32⟩
  | 27 => ⟨S1000x3, .f32⟩
  | 28 => ⟨S_, .f32⟩
  | 29 => ⟨S1000x3, .f32⟩
  | 30 => ⟨S1000x3, .f32⟩
  | 31 => ⟨S1000x16, .f32⟩
  | 32 => ⟨S1x16, .f32⟩
  | 33 => ⟨S1000x16, .f32⟩
  | 34 => ⟨S1000x16, .f32⟩
  | 35 => ⟨S_, .f32⟩
  | 36 => ⟨S_, .f32⟩
  | 37 => ⟨S1000x16, .f32⟩
  | 38 => ⟨S1000x16, .i1⟩
  | 39 => ⟨S_, .f32⟩
  | 40 => ⟨S1000x16, .f32⟩
  | 41 => ⟨S1000x16, .f32⟩
  | 42 => ⟨S1000x16, .f32⟩
  | 43 => ⟨S1000x16x1, .f32⟩
  | 44 => ⟨S_, .i32⟩
  | 45 => ⟨S1000, .i32⟩
  | 46 => ⟨S1000, .i1⟩
  | 47 => ⟨S_, .i32⟩
  | 48 => ⟨S1000, .i32⟩
  | 49 => ⟨S1000, .i32⟩
  | 50 => ⟨S1000, .i32⟩
  | 51 => ⟨S1000x1, .i32⟩
  | 52 => ⟨S1000x256, .f32⟩
  | 53 => ⟨S1000x1x256, .f32⟩
  | 54 => ⟨S1000x16x256, .f32⟩
  | 55 => ⟨S1000x16x256, .f32⟩
  | 56 => ⟨S1000x16x256, .f32⟩
  | 57 => ⟨S_, .f32⟩
  | 58 => ⟨S8x16x256, .f32⟩
  | 59 => ⟨S1000x1, .i32⟩
  | 60 => ⟨S8x16x256, .f32⟩
  | 61 => ⟨S_, .f32⟩
  | 62 => ⟨S1000, .f32⟩
  | 63 => ⟨S_, .f32⟩
  | 64 => ⟨S8, .f32⟩
  | 65 => ⟨S1000x1, .i32⟩
  | 66 => ⟨S8, .f32⟩
  | 67 => ⟨S_, .f32⟩
  | 68 => ⟨S8, .f32⟩
  | 69 => ⟨S8, .f32⟩
  | 70 => ⟨S8x1x1, .f32⟩
  | 71 => ⟨S8x16x256, .f32⟩
  | 72 => ⟨S8x16x256, .f32⟩
  | 73 => ⟨S8x4096, .f32⟩
  | 74 => ⟨S8x512, .f32⟩
  | 75 => ⟨S_, .f32⟩
  | 76 => ⟨S512, .f32⟩
  | 77 => ⟨S1x512, .f32⟩
  | 78 => ⟨S_, .f32⟩
  | 79 => ⟨S1x512, .f32⟩
  | 80 => ⟨S1x512, .f32⟩
  | 81 => ⟨S_, .i32⟩
  | 82 => ⟨S_, .f32⟩
  | 83 => ⟨S512, .f32⟩
  | 84 => ⟨S1x512, .f32⟩
  | 85 => ⟨S_, .f32⟩
  | 86 => ⟨S1x512, .f32⟩
  | 87 => ⟨S1x512, .f32⟩
  | 88 => ⟨S8x512, .f32⟩
  | 89 => ⟨S8x512, .f32⟩
  | 90 => ⟨S8x512, .f32⟩
  | 91 => ⟨S_, .f32⟩
  | 92 => ⟨S_, .f32⟩
  | 93 => ⟨S_, .f32⟩
  | 94 => ⟨S_, .f32⟩
  | 95 => ⟨S512, .f32⟩
  | 96 => ⟨S1x512, .f32⟩
  | 97 => ⟨S1x512, .f32⟩
  | 98 => ⟨S1x512, .f32⟩
  | 99 => ⟨S_, .f32⟩
  | 100 => ⟨S_, .i1⟩
  | 101 => ⟨S_, .f32⟩
  | 102 => ⟨S_, .f32⟩
  | 103 => ⟨S1x512, .f32⟩
  | 104 => ⟨S1x512, .f32⟩
  | 105 => ⟨S8x512, .f32⟩
  | 106 => ⟨S8x512, .f32⟩
  | 107 => ⟨S_, .f32⟩
  | 108 => ⟨S1x512, .f32⟩
  | 109 => ⟨S1x512, .f32⟩
  | 110 => ⟨S1x512, .f32⟩
  | 111 => ⟨S8x512, .f32⟩
  | 112 => ⟨S8x512, .f32⟩
  | 113 => ⟨S1x512, .f32⟩
  | 114 => ⟨S8x512, .f32⟩
  | 115 => ⟨S8x512, .f32⟩
  | 116 => ⟨S1x512, .f32⟩
  | 117 => ⟨S8x512, .f32⟩
  | 118 => ⟨S8x512, .f32⟩
  | 119 => ⟨S_, .f32⟩
  | 120 => ⟨S_, .f32⟩
  | 121 => ⟨S8x512, .f32⟩
  | 122 => ⟨S8x512, .i1⟩
  | 123 => ⟨S_, .f32⟩
  | 124 => ⟨S8x512, .f32⟩
  | 125 => ⟨S8x512, .f32⟩
  | 126 => ⟨S8x512, .f32⟩
  | 127 => ⟨S8x128, .f32⟩
  | _ => ⟨S262144x1, .f32⟩

abbrev hbmTy0_3 (i : Nat) : BufTy := match i % 128 with
  | 0 => ⟨S1x128, .f32⟩
  | 1 => ⟨S8x128, .f32⟩
  | 2 => ⟨S8x128, .f32⟩
  | 3 => ⟨S_, .f32⟩
  | 4 => ⟨S128, .f32⟩
  | 5 => ⟨S1x128, .f32⟩
  | 6 => ⟨S_, .f32⟩
  | 7 => ⟨S1x128, .f32⟩
  | 8 => ⟨S1x128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S8x128, .f32⟩
  | 17 => ⟨S8x128, .f32⟩
  | 18 => ⟨S8x128, .f32⟩
  | 19 => ⟨S_, .f32⟩
  | 20 => ⟨S_, .f32⟩
  | 21 => ⟨S_, .f32⟩
  | 22 => ⟨S_, .f32⟩
  | 23 => ⟨S128, .f32⟩
  | 24 => ⟨S1x128, .f32⟩
  | 25 => ⟨S1x128, .f32⟩
  | 26 => ⟨S1x128, .f32⟩
  | 27 => ⟨S_, .f32⟩
  | 28 => ⟨S_, .i1⟩
  | 29 => ⟨S_, .f32⟩
  | 30 => ⟨S_, .f32⟩
  | 31 => ⟨S1x128, .f32⟩
  | 32 => ⟨S1x128, .f32⟩
  | 33 => ⟨S8x128, .f32⟩
  | 34 => ⟨S8x128, .f32⟩
  | 35 => ⟨S_, .f32⟩
  | 36 => ⟨S1x128, .f32⟩
  | 37 => ⟨S1x128, .f32⟩
  | 38 => ⟨S1x128, .f32⟩
  | 39 => ⟨S8x128, .f32⟩
  | 40 => ⟨S8x128, .f32⟩
  | 41 => ⟨S1x128, .f32⟩
  | 42 => ⟨S8x128, .f32⟩
  | 43 => ⟨S8x128, .f32⟩
  | 44 => ⟨S1x128, .f32⟩
  | 45 => ⟨S8x128, .f32⟩
  | 46 => ⟨S8x128, .f32⟩
  | 47 => ⟨S_, .f32⟩
  | 48 => ⟨S_, .f32⟩
  | 49 => ⟨S8x128, .f32⟩
  | 50 => ⟨S8x128, .i1⟩
  | 51 => ⟨S_, .f32⟩
  | 52 => ⟨S8x128, .f32⟩
  | 53 => ⟨S8x128, .f32⟩
  | 54 => ⟨S8x128, .f32⟩
  | _ => ⟨S262144x1, .f32⟩

abbrev hbmTy (i : Nat) : BufTy := match i / 128 with
  | 0 => hbmTy0_0 i
  | 1 => hbmTy0_1 i
  | 2 => hbmTy0_2 i
  | 3 => hbmTy0_3 i
  | _ => ⟨S262144x1, .f32⟩

abbrev bufTy : (tb : Table) → Fin (tcTables nBuf tb) → BufTy
  | .hbm, ⟨i, _⟩ => hbmTy i
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_c : Ref sig .tc := ⟨.hbm, 30, rfl⟩
abbrev main_v0 : Ref sig .tc := ⟨.hbm, 31, rfl⟩
abbrev main_v1 : Ref sig .tc := ⟨.hbm, 32, rfl⟩
abbrev main_c_0 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_c_1 : Ref sig .tc := ⟨.hbm, 39, rfl⟩
abbrev main_v7 : Ref sig .tc := ⟨.hbm, 40, rfl⟩
abbrev main_v8 : Ref sig .tc := ⟨.hbm, 41, rfl⟩
abbrev main_c_2 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_3 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_v21 : Ref sig .tc := ⟨.hbm, 63, rfl⟩
abbrev main_v22 : Ref sig .tc := ⟨.hbm, 64, rfl⟩
abbrev main_c_4 : Ref sig .tc := ⟨.hbm, 65, rfl⟩
abbrev main_v23 : Ref sig .tc := ⟨.hbm, 66, rfl⟩
abbrev main_v24 : Ref sig .tc := ⟨.hbm, 67, rfl⟩
abbrev main_c_5 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_6 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_7 : Ref sig .tc := ⟨.hbm, 81, rfl⟩
abbrev main_v36 : Ref sig .tc := ⟨.hbm, 82, rfl⟩
abbrev main_cst_8 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_9 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_cst_10 : Ref sig .tc := ⟨.hbm, 95, rfl⟩
abbrev main_v47 : Ref sig .tc := ⟨.hbm, 96, rfl⟩
abbrev main_v48 : Ref sig .tc := ⟨.hbm, 97, rfl⟩
abbrev main_cst_11 : Ref sig .tc := ⟨.hbm, 98, rfl⟩
abbrev main_v49 : Ref sig .tc := ⟨.hbm, 99, rfl⟩
abbrev main_v50 : Ref sig .tc := ⟨.hbm, 100, rfl⟩
abbrev main_c_12 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_v12 : Ref sig .tc := ⟨.hbm, 118, rfl⟩
abbrev main_call1_cst_3 : Ref sig .tc := ⟨.hbm, 119, rfl⟩
abbrev main_call1_v13 : Ref sig .tc := ⟨.hbm, 120, rfl⟩
abbrev main_call1_cst_4 : Ref sig .tc := ⟨.hbm, 121, rfl⟩
abbrev main_call1_call0_v0 : Ref sig .tc := ⟨.hbm, 122, rfl⟩
abbrev main_call1_call0_v1 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_cst_13 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_cst_14 : Ref sig .tc := ⟨.hbm, 139, rfl⟩
abbrev main_call2_cst : Ref sig .tc := ⟨.hbm, 140, rfl⟩
abbrev main_call2_v0 : Ref sig .tc := ⟨.hbm, 141, rfl⟩
abbrev main_call2_v1 : Ref sig .tc := ⟨.hbm, 142, rfl⟩
abbrev main_call2_v2 : Ref sig .tc := ⟨.hbm, 143, rfl⟩
abbrev main_call2_v3 : Ref sig .tc := ⟨.hbm, 144, rfl⟩
abbrev main_call2_v4 : Ref sig .tc := ⟨.hbm, 145, rfl⟩
abbrev main_v65 : Ref sig .tc := ⟨.hbm, 146, rfl⟩
abbrev main_c_15 : Ref sig .tc := ⟨.hbm, 147, rfl⟩
abbrev main_v66 : Ref sig .tc := ⟨.hbm, 148, rfl⟩
abbrev main_v67 : Ref sig .tc := ⟨.hbm, 149, rfl⟩
abbrev main_c_16 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_v71 : Ref sig .tc := ⟨.hbm, 154, rfl⟩
abbrev main_v72 : Ref sig .tc := ⟨.hbm, 155, rfl⟩
abbrev main_c_17 : Ref sig .tc := ⟨.hbm, 156, rfl⟩
abbrev main_v73 : Ref sig .tc := ⟨.hbm, 157, rfl⟩
abbrev main_v74 : Ref sig .tc := ⟨.hbm, 158, rfl⟩
abbrev main_c_18 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_v78 : Ref sig .tc := ⟨.hbm, 163, rfl⟩
abbrev main_v79 : Ref sig .tc := ⟨.hbm, 164, rfl⟩
abbrev main_v80 : Ref sig .tc := ⟨.hbm, 165, rfl⟩
abbrev main_cst_19 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_cst_20 : Ref sig .tc := ⟨.hbm, 173, rfl⟩
abbrev main_call3_cst : Ref sig .tc := ⟨.hbm, 174, rfl⟩
abbrev main_call3_v0 : Ref sig .tc := ⟨.hbm, 175, rfl⟩
abbrev main_call3_v1 : Ref sig .tc := ⟨.hbm, 176, rfl⟩
abbrev main_call3_v2 : Ref sig .tc := ⟨.hbm, 177, rfl⟩
abbrev main_call3_v3 : Ref sig .tc := ⟨.hbm, 178, rfl⟩
abbrev main_call3_v4 : Ref sig .tc := ⟨.hbm, 179, rfl⟩
abbrev main_v87 : Ref sig .tc := ⟨.hbm, 180, rfl⟩
abbrev main_v88 : Ref sig .tc := ⟨.hbm, 181, rfl⟩
abbrev main_c_21 : Ref sig .tc := ⟨.hbm, 182, rfl⟩
abbrev main_v89 : Ref sig .tc := ⟨.hbm, 183, rfl⟩
abbrev main_v90 : Ref sig .tc := ⟨.hbm, 184, rfl⟩
abbrev main_c_22 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_cst_23 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_cst_24 : Ref sig .tc := ⟨.hbm, 199, rfl⟩
abbrev main_v103 : Ref sig .tc := ⟨.hbm, 200, rfl⟩
abbrev main_cst_25 : Ref sig .tc := ⟨.hbm, 201, rfl⟩
abbrev main_v104 : Ref sig .tc := ⟨.hbm, 202, rfl⟩
abbrev main_v105 : Ref sig .tc := ⟨.hbm, 203, rfl⟩
abbrev main_v106 : Ref sig .tc := ⟨.hbm, 204, rfl⟩
abbrev main_cst_26 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_v112 : Ref sig .tc := ⟨.hbm, 211, rfl⟩
abbrev main_v113 : Ref sig .tc := ⟨.hbm, 212, rfl⟩
abbrev main_cst_27 : Ref sig .tc := ⟨.hbm, 213, rfl⟩
abbrev main_v114 : Ref sig .tc := ⟨.hbm, 214, rfl⟩
abbrev main_v115 : Ref sig .tc := ⟨.hbm, 215, rfl⟩
abbrev main_cst_28 : Ref sig .tc := ⟨.hbm, 216, rfl⟩
abbrev main_v116 : Ref sig .tc := ⟨.hbm, 217, rfl⟩
abbrev main_v117 : Ref sig .tc := ⟨.hbm, 218, rfl⟩
abbrev main_c_29 : Ref sig .tc := ⟨.hbm, 219, rfl⟩
abbrev main_call4_cst : Ref sig .tc := ⟨.hbm, 220, rfl⟩
abbrev main_call4_v0 : Ref sig .tc := ⟨.hbm, 221, rfl⟩
abbrev main_call4_v1 : Ref sig .tc := ⟨.hbm, 222, rfl⟩
abbrev main_call4_cst_0 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_call4_v5 : Ref sig .tc := ⟨.hbm, 227, rfl⟩
abbrev main_call4_v6 : Ref sig .tc := ⟨.hbm, 228, rfl⟩
abbrev main_call4_v7 : Ref sig .tc := ⟨.hbm, 229, rfl⟩
abbrev main_call4_cst_1 : Ref sig .tc := ⟨.hbm, 230, rfl⟩
abbrev main_call4_v8 : Ref sig .tc := ⟨.hbm, 231, rfl⟩
abbrev main_call4_cst_2 : Ref sig .tc := ⟨.hbm, 232, rfl⟩
abbrev main_call4_v9 : Ref sig .tc := ⟨.hbm, 233, rfl⟩
abbrev main_call4_v10 : Ref sig .tc := ⟨.hbm, 234, rfl⟩
abbrev main_call4_v11 : Ref sig .tc := ⟨.hbm, 235, rfl⟩
abbrev main_call4_v12 : Ref sig .tc := ⟨.hbm, 236, rfl⟩
abbrev main_call4_cst_3 : Ref sig .tc := ⟨.hbm, 237, rfl⟩
abbrev main_call4_v13 : Ref sig .tc := ⟨.hbm, 238, rfl⟩
abbrev main_call4_cst_4 : Ref sig .tc := ⟨.hbm, 239, rfl⟩
abbrev main_call4_call0_v0 : Ref sig .tc := ⟨.hbm, 240, rfl⟩
abbrev main_call4_call0_v1 : Ref sig .tc := ⟨.hbm, 241, rfl⟩
abbrev main_v118 : Ref sig .tc := ⟨.hbm, 242, rfl⟩
abbrev main_v119 : Ref sig .tc := ⟨.hbm, 243, rfl⟩
abbrev main_v120 : Ref sig .tc := ⟨.hbm, 244, rfl⟩
abbrev main_cst_30 : Ref sig .tc := ⟨.hbm, 245, rfl⟩
abbrev main_v121 : Ref sig .tc := ⟨.hbm, 246, rfl⟩
abbrev main_v122 : Ref sig .tc := ⟨.hbm, 247, rfl⟩
abbrev main_v123 : Ref sig .tc := ⟨.hbm, 248, rfl⟩
abbrev main_v124 : Ref sig .tc := ⟨.hbm, 249, rfl⟩
abbrev main_v125 : Ref sig .tc := ⟨.hbm, 250, rfl⟩
abbrev main_v126 : Ref sig .tc := ⟨.hbm, 251, rfl⟩
abbrev main_v127 : Ref sig .tc := ⟨.hbm, 252, rfl⟩
abbrev main_v128 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_cst_31 : Ref sig .tc := ⟨.hbm, 257, rfl⟩
abbrev main_call5_cst : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_v132 : Ref sig .tc := ⟨.hbm, 264, rfl⟩
abbrev main_c_32 : Ref sig .tc := ⟨.hbm, 265, rfl⟩
abbrev main_v133 : Ref sig .tc := ⟨.hbm, 266, rfl⟩
abbrev main_v134 : Ref sig .tc := ⟨.hbm, 267, rfl⟩
abbrev main_c_33 : Ref sig .tc := ⟨.hbm, 268, rfl⟩
abbrev main_v135 : Ref sig .tc := ⟨.hbm, 269, rfl⟩
abbrev main_v136 : Ref sig .tc := ⟨.hbm, 270, rfl⟩
abbrev main_v137 : Ref sig .tc := ⟨.hbm, 271, rfl⟩
abbrev main_v138 : Ref sig .tc := ⟨.hbm, 272, rfl⟩
abbrev main_v139 : Ref sig .tc := ⟨.hbm, 273, rfl⟩
abbrev main_c_34 : Ref sig .tc := ⟨.hbm, 274, rfl⟩
abbrev main_v140 : Ref sig .tc := ⟨.hbm, 275, rfl⟩
abbrev main_v141 : Ref sig .tc := ⟨.hbm, 276, rfl⟩
abbrev main_c_35 : Ref sig .tc := ⟨.hbm, 277, rfl⟩
abbrev main_v142 : Ref sig .tc := ⟨.hbm, 278, rfl⟩
abbrev main_v143 : Ref sig .tc := ⟨.hbm, 279, rfl⟩
abbrev main_v144 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩
abbrev main_cst_36 : Ref sig .tc := ⟨.hbm, 284, rfl⟩
abbrev main_v148 : Ref sig .tc := ⟨.hbm, 285, rfl⟩
abbrev main_v149 : Ref sig .tc := ⟨.hbm, 286, rfl⟩
abbrev main_v150 : Ref sig .tc := ⟨.hbm, 287, rfl⟩
abbrev main_v151 : Ref sig .tc := ⟨.hbm, 288, rfl⟩
abbrev main_v152 : Ref sig .tc := ⟨.hbm, 289, rfl⟩
abbrev main_v153 : Ref sig .tc := ⟨.hbm, 290, rfl⟩
abbrev main_cst_37 : Ref sig .tc := ⟨.hbm, 291, rfl⟩
abbrev main_call6_cst : Ref sig .tc := ⟨.hbm, 292, rfl⟩
abbrev main_call6_v0 : Ref sig .tc := ⟨.hbm, 293, rfl⟩
abbrev main_call6_v1 : Ref sig .tc := ⟨.hbm, 294, rfl⟩
abbrev main_call6_v2 : Ref sig .tc := ⟨.hbm, 295, rfl⟩
abbrev main_call6_v3 : Ref sig .tc := ⟨.hbm, 296, rfl⟩
abbrev main_call6_v4 : Ref sig .tc := ⟨.hbm, 297, rfl⟩
abbrev main_v154 : Ref sig .tc := ⟨.hbm, 298, rfl⟩
abbrev main_v155 : Ref sig .tc := ⟨.hbm, 299, rfl⟩
abbrev main_c_38 : Ref sig .tc := ⟨.hbm, 300, rfl⟩
abbrev main_v156 : Ref sig .tc := ⟨.hbm, 301, rfl⟩
abbrev main_v157 : Ref sig .tc := ⟨.hbm, 302, rfl⟩
abbrev main_c_39 : Ref sig .tc := ⟨.hbm, 303, rfl⟩
abbrev main_v158 : Ref sig .tc := ⟨.hbm, 304, rfl⟩
abbrev main_v159 : Ref sig .tc := ⟨.hbm, 305, rfl⟩
abbrev main_v160 : Ref sig .tc := ⟨.hbm, 306, rfl⟩
abbrev main_v161 : Ref sig .tc := ⟨.hbm, 307, rfl⟩
abbrev main_v162 : Ref sig .tc := ⟨.hbm, 308, rfl⟩
abbrev main_v163 : Ref sig .tc := ⟨.hbm, 309, rfl⟩
abbrev main_v164 : Ref sig .tc := ⟨.hbm, 310, rfl⟩
abbrev main_v165 : Ref sig .tc := ⟨.hbm, 311, rfl⟩
abbrev main_v166 : Ref sig .tc := ⟨.hbm, 312, rfl⟩
abbrev main_cst_40 : Ref sig .tc := ⟨.hbm, 313, rfl⟩
abbrev main_v167 : Ref sig .tc := ⟨.hbm, 314, rfl⟩
abbrev main_v168 : Ref sig .tc := ⟨.hbm, 315, rfl⟩
abbrev main_v169 : Ref sig .tc := ⟨.hbm, 316, rfl⟩
abbrev main_cst_41 : Ref sig .tc := ⟨.hbm, 317, rfl⟩
abbrev main_v170 : Ref sig .tc := ⟨.hbm, 318, rfl⟩
abbrev main_cst_42 : Ref sig .tc := ⟨.hbm, 319, rfl⟩
abbrev main_v171 : Ref sig .tc := ⟨.hbm, 320, rfl⟩
abbrev main_v172 : Ref sig .tc := ⟨.hbm, 321, rfl⟩
abbrev main_v173 : Ref sig .tc := ⟨.hbm, 322, rfl⟩
abbrev main_cst_43 : Ref sig .tc := ⟨.hbm, 323, rfl⟩
abbrev main_v174 : Ref sig .tc := ⟨.hbm, 324, rfl⟩
abbrev main_v175 : Ref sig .tc := ⟨.hbm, 325, rfl⟩
abbrev main_v176 : Ref sig .tc := ⟨.hbm, 326, rfl⟩
abbrev main_v177 : Ref sig .tc := ⟨.hbm, 327, rfl⟩
abbrev main_v178 : Ref sig .tc := ⟨.hbm, 328, rfl⟩
abbrev main_v179 : Ref sig .tc := ⟨.hbm, 329, rfl⟩
abbrev main_v180 : Ref sig .tc := ⟨.hbm, 330, rfl⟩
abbrev main_cst_44 : Ref sig .tc := ⟨.hbm, 331, rfl⟩
abbrev main_v181 : Ref sig .tc := ⟨.hbm, 332, rfl⟩
abbrev main_v182 : Ref sig .tc := ⟨.hbm, 333, rfl⟩
abbrev main_cst_45 : Ref sig .tc := ⟨.hbm, 334, rfl⟩
abbrev main_v183 : Ref sig .tc := ⟨.hbm, 335, rfl⟩
abbrev main_v184 : Ref sig .tc := ⟨.hbm, 336, rfl⟩
abbrev main_c_46 : Ref sig .tc := ⟨.hbm, 337, rfl⟩
abbrev main_call7_cst : Ref sig .tc := ⟨.hbm, 338, rfl⟩
abbrev main_call7_v0 : Ref sig .tc := ⟨.hbm, 339, rfl⟩
abbrev main_call7_v1 : Ref sig .tc := ⟨.hbm, 340, rfl⟩
abbrev main_call7_cst_0 : Ref sig .tc := ⟨.hbm, 341, rfl⟩
abbrev main_call7_v2 : Ref sig .tc := ⟨.hbm, 342, rfl⟩
abbrev main_call7_v3 : Ref sig .tc := ⟨.hbm, 343, rfl⟩
abbrev main_call7_v4 : Ref sig .tc := ⟨.hbm, 344, rfl⟩
abbrev main_call7_v5 : Ref sig .tc := ⟨.hbm, 345, rfl⟩
abbrev main_call7_v6 : Ref sig .tc := ⟨.hbm, 346, rfl⟩
abbrev main_call7_v7 : Ref sig .tc := ⟨.hbm, 347, rfl⟩
abbrev main_call7_cst_1 : Ref sig .tc := ⟨.hbm, 348, rfl⟩
abbrev main_call7_v8 : Ref sig .tc := ⟨.hbm, 349, rfl⟩
abbrev main_call7_cst_2 : Ref sig .tc := ⟨.hbm, 350, rfl⟩
abbrev main_call7_v9 : Ref sig .tc := ⟨.hbm, 351, rfl⟩
abbrev main_call7_v10 : Ref sig .tc := ⟨.hbm, 352, rfl⟩
abbrev main_call7_v11 : Ref sig .tc := ⟨.hbm, 353, rfl⟩
abbrev main_call7_v12 : Ref sig .tc := ⟨.hbm, 354, rfl⟩
abbrev main_call7_cst_3 : Ref sig .tc := ⟨.hbm, 355, rfl⟩
abbrev main_call7_v13 : Ref sig .tc := ⟨.hbm, 356, rfl⟩
abbrev main_call7_cst_4 : Ref sig .tc := ⟨.hbm, 357, rfl⟩
abbrev main_call7_call0_v0 : Ref sig .tc := ⟨.hbm, 358, rfl⟩
abbrev main_call7_call0_v1 : Ref sig .tc := ⟨.hbm, 359, rfl⟩
abbrev main_v185 : Ref sig .tc := ⟨.hbm, 360, rfl⟩
abbrev main_v186 : Ref sig .tc := ⟨.hbm, 361, rfl⟩
abbrev main_v187 : Ref sig .tc := ⟨.hbm, 362, rfl⟩
abbrev main_cst_47 : Ref sig .tc := ⟨.hbm, 363, rfl⟩
abbrev main_v188 : Ref sig .tc := ⟨.hbm, 364, rfl⟩
abbrev main_v189 : Ref sig .tc := ⟨.hbm, 365, rfl⟩
abbrev main_v190 : Ref sig .tc := ⟨.hbm, 366, rfl⟩
abbrev main_v191 : Ref sig .tc := ⟨.hbm, 367, rfl⟩
abbrev main_v192 : Ref sig .tc := ⟨.hbm, 368, rfl⟩
abbrev main_v193 : Ref sig .tc := ⟨.hbm, 369, rfl⟩
abbrev main_v194 : Ref sig .tc := ⟨.hbm, 370, rfl⟩
abbrev main_v195 : Ref sig .tc := ⟨.hbm, 371, rfl⟩
abbrev main_v196 : Ref sig .tc := ⟨.hbm, 372, rfl⟩
abbrev main_v197 : Ref sig .tc := ⟨.hbm, 373, rfl⟩
abbrev main_v198 : Ref sig .tc := ⟨.hbm, 374, rfl⟩
abbrev main_cst_48 : Ref sig .tc := ⟨.hbm, 375, rfl⟩
abbrev main_call8_cst : Ref sig .tc := ⟨.hbm, 376, rfl⟩
abbrev main_call8_v0 : Ref sig .tc := ⟨.hbm, 377, rfl⟩
abbrev main_call8_v1 : Ref sig .tc := ⟨.hbm, 378, rfl⟩
abbrev main_call8_v2 : Ref sig .tc := ⟨.hbm, 379, rfl⟩
abbrev main_call8_v3 : Ref sig .tc := ⟨.hbm, 380, rfl⟩
abbrev main_call8_v4 : Ref sig .tc := ⟨.hbm, 381, rfl⟩
abbrev main_v199 : Ref sig .tc := ⟨.hbm, 382, rfl⟩
abbrev main_v200 : Ref sig .tc := ⟨.hbm, 383, rfl⟩
abbrev main_v201 : Ref sig .tc := ⟨.hbm, 384, rfl⟩
abbrev main_v202 : Ref sig .tc := ⟨.hbm, 385, rfl⟩
abbrev main_v203 : Ref sig .tc := ⟨.hbm, 386, rfl⟩
abbrev main_cst_49 : Ref sig .tc := ⟨.hbm, 387, rfl⟩
abbrev main_v204 : Ref sig .tc := ⟨.hbm, 388, rfl⟩
abbrev main_v205 : Ref sig .tc := ⟨.hbm, 389, rfl⟩
abbrev main_cst_50 : Ref sig .tc := ⟨.hbm, 390, rfl⟩
abbrev main_v206 : Ref sig .tc := ⟨.hbm, 391, rfl⟩
abbrev main_v207 : Ref sig .tc := ⟨.hbm, 392, rfl⟩
abbrev main_c_51 : Ref sig .tc := ⟨.hbm, 393, rfl⟩
abbrev main_call9_cst : Ref sig .tc := ⟨.hbm, 394, rfl⟩
abbrev main_call9_v0 : Ref sig .tc := ⟨.hbm, 395, rfl⟩
abbrev main_call9_v1 : Ref sig .tc := ⟨.hbm, 396, rfl⟩
abbrev main_call9_cst_0 : Ref sig .tc := ⟨.hbm, 397, rfl⟩
abbrev main_call9_v2 : Ref sig .tc := ⟨.hbm, 398, rfl⟩
abbrev main_call9_v3 : Ref sig .tc := ⟨.hbm, 399, rfl⟩
abbrev main_call9_v4 : Ref sig .tc := ⟨.hbm, 400, rfl⟩
abbrev main_call9_v5 : Ref sig .tc := ⟨.hbm, 401, rfl⟩
abbrev main_call9_v6 : Ref sig .tc := ⟨.hbm, 402, rfl⟩
abbrev main_call9_v7 : Ref sig .tc := ⟨.hbm, 403, rfl⟩
abbrev main_call9_cst_1 : Ref sig .tc := ⟨.hbm, 404, rfl⟩
abbrev main_call9_v8 : Ref sig .tc := ⟨.hbm, 405, rfl⟩
abbrev main_call9_cst_2 : Ref sig .tc := ⟨.hbm, 406, rfl⟩
abbrev main_call9_v9 : Ref sig .tc := ⟨.hbm, 407, rfl⟩
abbrev main_call9_v10 : Ref sig .tc := ⟨.hbm, 408, rfl⟩
abbrev main_call9_v11 : Ref sig .tc := ⟨.hbm, 409, rfl⟩
abbrev main_call9_v12 : Ref sig .tc := ⟨.hbm, 410, rfl⟩
abbrev main_call9_cst_3 : Ref sig .tc := ⟨.hbm, 411, rfl⟩
abbrev main_call9_v13 : Ref sig .tc := ⟨.hbm, 412, rfl⟩
abbrev main_call9_cst_4 : Ref sig .tc := ⟨.hbm, 413, rfl⟩
abbrev main_call9_call0_v0 : Ref sig .tc := ⟨.hbm, 414, rfl⟩
abbrev main_call9_call0_v1 : Ref sig .tc := ⟨.hbm, 415, rfl⟩
abbrev main_v208 : Ref sig .tc := ⟨.hbm, 416, rfl⟩
abbrev main_v209 : Ref sig .tc := ⟨.hbm, 417, rfl⟩
abbrev main_v210 : Ref sig .tc := ⟨.hbm, 418, rfl⟩
abbrev main_cst_52 : Ref sig .tc := ⟨.hbm, 419, rfl⟩
abbrev main_v211 : Ref sig .tc := ⟨.hbm, 420, rfl⟩
abbrev main_v212 : Ref sig .tc := ⟨.hbm, 421, rfl⟩
abbrev main_v213 : Ref sig .tc := ⟨.hbm, 422, rfl⟩
abbrev main_v214 : Ref sig .tc := ⟨.hbm, 423, rfl⟩
abbrev main_v215 : Ref sig .tc := ⟨.hbm, 424, rfl⟩
abbrev main_v216 : Ref sig .tc := ⟨.hbm, 425, rfl⟩
abbrev main_v217 : Ref sig .tc := ⟨.hbm, 426, rfl⟩
abbrev main_v218 : Ref sig .tc := ⟨.hbm, 427, rfl⟩
abbrev main_v219 : Ref sig .tc := ⟨.hbm, 428, rfl⟩
abbrev main_v220 : Ref sig .tc := ⟨.hbm, 429, rfl⟩
abbrev main_v221 : Ref sig .tc := ⟨.hbm, 430, rfl⟩
abbrev main_cst_53 : Ref sig .tc := ⟨.hbm, 431, rfl⟩
abbrev main_call10_cst : Ref sig .tc := ⟨.hbm, 432, rfl⟩
abbrev main_call10_v0 : Ref sig .tc := ⟨.hbm, 433, rfl⟩
abbrev main_call10_v1 : Ref sig .tc := ⟨.hbm, 434, rfl⟩
abbrev main_call10_v2 : Ref sig .tc := ⟨.hbm, 435, rfl⟩
abbrev main_call10_v3 : Ref sig .tc := ⟨.hbm, 436, rfl⟩
abbrev main_call10_v4 : Ref sig .tc := ⟨.hbm, 437, rfl⟩
abbrev main_v222 : Ref sig .tc := ⟨.hbm, 438, rfl⟩

abbrev nD : Nat := 1
abbrev τ : Topo := Topo.v7x

variable {F : FTy → Type} [FloatOps F]

class Facts₀ : Prop where
  bcast_S_S980628 : S_.BroadcastsInDim S980628 (![] : Fin 0 → Fin S980628.rank)
  bcast_S980628_S980628x1_0 : S980628.BroadcastsInDim S980628x1 (![0] : Fin 1 → Fin S980628x1.rank)
  bcast_S_S980628x3 : S_.BroadcastsInDim S980628x3 (![] : Fin 0 → Fin S980628x3.rank)
  bcast_S16_S1x16_1 : S16.BroadcastsInDim S1x16 (![1] : Fin 1 → Fin S1x16.rank)
  bcast_S1x16_S980628x16_0_1 : S1x16.BroadcastsInDim S980628x16 (![0, 1] : Fin 2 → Fin S980628x16.rank)
  bcast_S_S980628x16 : S_.BroadcastsInDim S980628x16 (![] : Fin 0 → Fin S980628x16.rank)
  bcast_S980628x16_S980628x16x1_0_1 : S980628x16.BroadcastsInDim S980628x16x1 (![0, 1] : Fin 2 → Fin S980628x16x1.rank)
  bcast_S980628x1_S980628x1x1_0_2 : S980628x1.BroadcastsInDim S980628x1x1 (![0, 2] : Fin 2 → Fin S980628x1x1.rank)
  bcast_S980628x1x1_S980628x16x1_0_1_2 : S980628x1x1.BroadcastsInDim S980628x16x1 (![0, 1, 2] : Fin 3 → Fin S980628x16x1.rank)
  bcast_S_S8000x16x1 : S_.BroadcastsInDim S8000x16x1 (![] : Fin 0 → Fin S8000x16x1.rank)
  bcast_S_S8000 : S_.BroadcastsInDim S8000 (![] : Fin 0 → Fin S8000.rank)
  bcast_S8000_S8000x1x1_0 : S8000.BroadcastsInDim S8000x1x1 (![0] : Fin 1 → Fin S8000x1x1.rank)
  bcast_S8000x1x1_S8000x16x1_0_1_2 : S8000x1x1.BroadcastsInDim S8000x16x1 (![0, 1, 2] : Fin 3 → Fin S8000x16x1.rank)
  shapeCasts_S8000x16x1_S8000x16 : S8000x16x1.ShapeCasts S8000x16
  reducesTo_S8000x128_S128_d0 : S8000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S8000x128_0_1 : S1x128.BroadcastsInDim S8000x128 (![0, 1] : Fin 2 → Fin S8000x128.rank)
  bcast_S_S8000x128 : S_.BroadcastsInDim S8000x128 (![] : Fin 0 → Fin S8000x128.rank)
  bcast_S_S26578 : S_.BroadcastsInDim S26578 (![] : Fin 0 → Fin S26578.rank)
  bcast_S26578_S26578x1_0 : S26578.BroadcastsInDim S26578x1 (![0] : Fin 1 → Fin S26578x1.rank)
  bcast_S_S26578x3 : S_.BroadcastsInDim S26578x3 (![] : Fin 0 → Fin S26578x3.rank)
  bcast_S1x16_S26578x16_0_1 : S1x16.BroadcastsInDim S26578x16 (![0, 1] : Fin 2 → Fin S26578x16.rank)
  bcast_S_S26578x16 : S_.BroadcastsInDim S26578x16 (![] : Fin 0 → Fin S26578x16.rank)
  bcast_S26578x16_S26578x16x1_0_1 : S26578x16.BroadcastsInDim S26578x16x1 (![0, 1] : Fin 2 → Fin S26578x16x1.rank)
  bcast_S26578x128_S26578x1x128_0_2 : S26578x128.BroadcastsInDim S26578x1x128 (![0, 2] : Fin 2 → Fin S26578x1x128.rank)
  bcast_S26578x16x1_S26578x16x128_0_1_2 : S26578x16x1.BroadcastsInDim S26578x16x128 (![0, 1, 2] : Fin 3 → Fin S26578x16x128.rank)
  bcast_S26578x1x128_S26578x16x128_0_1_2 : S26578x1x128.BroadcastsInDim S26578x16x128 (![0, 1, 2] : Fin 3 → Fin S26578x16x128.rank)
  bcast_S_S1000x16x128 : S_.BroadcastsInDim S1000x16x128 (![] : Fin 0 → Fin S1000x16x128.rank)
  bcast_S_S1000 : S_.BroadcastsInDim S1000 (![] : Fin 0 → Fin S1000.rank)
  bcast_S1000_S1000x1x1_0 : S1000.BroadcastsInDim S1000x1x1 (![0] : Fin 1 → Fin S1000x1x1.rank)
  bcast_S1000x1x1_S1000x16x128_0_1_2 : S1000x1x1.BroadcastsInDim S1000x16x128 (![0, 1, 2] : Fin 3 → Fin S1000x16x128.rank)
  shapeCasts_S1000x16x128_S1000x2048 : S1000x16x128.ShapeCasts S1000x2048
  reducesTo_S1000x256_S256_d0 : S1000x256.ReducesTo [0] S256
  bcast_S256_S1x256_1 : S256.BroadcastsInDim S1x256 (![1] : Fin 1 → Fin S1x256.rank)
  bcast_S_S1x256 : S_.BroadcastsInDim S1x256 (![] : Fin 0 → Fin S1x256.rank)
  bcast_S1x256_S1000x256_0_1 : S1x256.BroadcastsInDim S1000x256 (![0, 1] : Fin 2 → Fin S1000x256.rank)
  bcast_S_S1000x256 : S_.BroadcastsInDim S1000x256 (![] : Fin 0 → Fin S1000x256.rank)
  bcast_S1000_S1000x1_0 : S1000.BroadcastsInDim S1000x1 (![0] : Fin 1 → Fin S1000x1.rank)
  bcast_S_S1000x3 : S_.BroadcastsInDim S1000x3 (![] : Fin 0 → Fin S1000x3.rank)
  bcast_S1x16_S1000x16_0_1 : S1x16.BroadcastsInDim S1000x16 (![0, 1] : Fin 2 → Fin S1000x16.rank)
  bcast_S_S1000x16 : S_.BroadcastsInDim S1000x16 (![] : Fin 0 → Fin S1000x16.rank)
  bcast_S1000x16_S1000x16x1_0_1 : S1000x16.BroadcastsInDim S1000x16x1 (![0, 1] : Fin 2 → Fin S1000x16x1.rank)
  bcast_S1000x256_S1000x1x256_0_2 : S1000x256.BroadcastsInDim S1000x1x256 (![0, 2] : Fin 2 → Fin S1000x1x256.rank)
  bcast_S1000x16x1_S1000x16x256_0_1_2 : S1000x16x1.BroadcastsInDim S1000x16x256 (![0, 1, 2] : Fin 3 → Fin S1000x16x256.rank)
  bcast_S1000x1x256_S1000x16x256_0_1_2 : S1000x1x256.BroadcastsInDim S1000x16x256 (![0, 1, 2] : Fin 3 → Fin S1000x16x256.rank)
  bcast_S_S8x16x256 : S_.BroadcastsInDim S8x16x256 (![] : Fin 0 → Fin S8x16x256.rank)
  bcast_S_S8 : S_.BroadcastsInDim S8 (![] : Fin 0 → Fin S8.rank)
  bcast_S8_S8x1x1_0 : S8.BroadcastsInDim S8x1x1 (![0] : Fin 1 → Fin S8x1x1.rank)
  bcast_S8x1x1_S8x16x256_0_1_2 : S8x1x1.BroadcastsInDim S8x16x256 (![0, 1, 2] : Fin 3 → Fin S8x16x256.rank)
  shapeCasts_S8x16x256_S8x4096 : S8x16x256.ShapeCasts S8x4096
  reducesTo_S8x512_S512_d0 : S8x512.ReducesTo [0] S512
  bcast_S512_S1x512_1 : S512.BroadcastsInDim S1x512 (![1] : Fin 1 → Fin S1x512.rank)
  bcast_S_S1x512 : S_.BroadcastsInDim S1x512 (![] : Fin 0 → Fin S1x512.rank)
  bcast_S1x512_S8x512_0_1 : S1x512.BroadcastsInDim S8x512 (![0, 1] : Fin 2 → Fin S8x512.rank)
  bcast_S_S8x512 : S_.BroadcastsInDim S8x512 (![] : Fin 0 → Fin S8x512.rank)
  bcast_S1x128_S8x128_0_1 : S1x128.BroadcastsInDim S8x128 (![0, 1] : Fin 2 → Fin S8x128.rank)
  reducesTo_S8x128_S128_d0 : S8x128.ReducesTo [0] S128
  bcast_S_S8x128 : S_.BroadcastsInDim S8x128 (![] : Fin 0 → Fin S8x128.rank)
  gather_S262144x3_S980628x1_S980628x3_1_0_n_n_0_1_13_wf : GatherDims.WF S262144x3 S980628x1 S980628x3 [1] [0] [] [0] [] 1 ![1, 3]
  gather_S8000x3_S980628x1_S980628x3_1_0_n_n_0_1_13_wf : GatherDims.WF S8000x3 S980628x1 S980628x3 [1] [0] [] [0] [] 1 ![1, 3]
  dot_S980628x3_S3x16_S980628x16_1_0_0_1_n_n_wf : DotDims.WF S980628x3 S3x16 S980628x16 [1] [0] [0] [1] [] []
  gather_S262144x1_S980628x1_S980628x1_1_0_n_n_0_1_11_wf : GatherDims.WF S262144x1 S980628x1 S980628x1 [1] [0] [] [0] [] 1 ![1, 1]
  scatter_S8000x16x1_S980628x1_S980628x16x1_12_0_0_1_wf : ScatterDims.WF S8000x16x1 S980628x1 S980628x16x1 [1, 2] [0] [0] 1
  scatter_S8000_S980628x1_S980628_n_0_0_1_wf : ScatterDims.WF S8000 S980628x1 S980628 [] [0] [0] 1
  dot_S8000x16_S16x128_S8000x128_1_0_0_1_n_n_wf : DotDims.WF S8000x16 S16x128 S8000x128 [1] [0] [0] [1] [] []
  gather_S8000x3_S26578x1_S26578x3_1_0_n_n_0_1_13_wf : GatherDims.WF S8000x3 S26578x1 S26578x3 [1] [0] [] [0] [] 1 ![1, 3]
  gather_S1000x3_S26578x1_S26578x3_1_0_n_n_0_1_13_wf : GatherDims.WF S1000x3 S26578x1 S26578x3 [1] [0] [] [0] [] 1 ![1, 3]
  dot_S26578x3_S3x16_S26578x16_1_0_0_1_n_n_wf : DotDims.WF S26578x3 S3x16 S26578x16 [1] [0] [0] [1] [] []
  gather_S8000x128_S26578x1_S26578x128_1_0_n_n_0_1_1128_wf : GatherDims.WF S8000x128 S26578x1 S26578x128 [1] [0] [] [0] [] 1 ![1, 128]
  scatter_S1000x16x128_S26578x1_S26578x16x128_12_0_0_1_wf : ScatterDims.WF S1000x16x128 S26578x1 S26578x16x128 [1, 2] [0] [0] 1
  scatter_S1000_S26578x1_S26578_n_0_0_1_wf : ScatterDims.WF S1000 S26578x1 S26578 [] [0] [0] 1
  dot_S1000x2048_S2048x256_S1000x256_1_0_0_1_n_n_wf : DotDims.WF S1000x2048 S2048x256 S1000x256 [1] [0] [0] [1] [] []
  gather_S1000x3_S1000x1_S1000x3_1_0_n_n_0_1_13_wf : GatherDims.WF S1000x3 S1000x1 S1000x3 [1] [0] [] [0] [] 1 ![1, 3]
  gather_S8x3_S1000x1_S1000x3_1_0_n_n_0_1_13_wf : GatherDims.WF S8x3 S1000x1 S1000x3 [1] [0] [] [0] [] 1 ![1, 3]
  dot_S1000x3_S3x16_S1000x16_1_0_0_1_n_n_wf : DotDims.WF S1000x3 S3x16 S1000x16 [1] [0] [0] [1] [] []
  gather_S1000x256_S1000x1_S1000x256_1_0_n_n_0_1_1256_wf : GatherDims.WF S1000x256 S1000x1 S1000x256 [1] [0] [] [0] [] 1 ![1, 256]
  scatter_S8x16x256_S1000x1_S1000x16x256_12_0_0_1_wf : ScatterDims.WF S8x16x256 S1000x1 S1000x16x256 [1, 2] [0] [0] 1
  scatter_S8_S1000x1_S1000_n_0_0_1_wf : ScatterDims.WF S8 S1000x1 S1000 [] [0] [0] 1
  dot_S8x4096_S4096x512_S8x512_1_0_0_1_n_n_wf : DotDims.WF S8x4096 S4096x512 S8x512 [1] [0] [0] [1] [] []
  dot_S8x512_S512x128_S8x128_1_0_0_1_n_n_wf : DotDims.WF S8x512 S512x128 S8x128 [1] [0] [0] [1] [] []

variable [Facts₀]

def gather_S262144x3_S980628x1_S980628x3_1_0_n_n_0_1_13 : GatherDims S262144x3 S980628x1 S980628x3 where
  offsetDims := [1]
  collapsedSliceDims := [0]
  operandBatchingDims := []
  startIndicesBatchingDims := []
  startIndexMap := [0]
  indexVectorDim := 1
  sliceSizes := ![1, 3]
  wf := gather_S262144x3_S980628x1_S980628x3_1_0_n_n_0_1_13_wf
def gather_S8000x3_S980628x1_S980628x3_1_0_n_n_0_1_13 : GatherDims S8000x3 S980628x1 S980628x3 where
  offsetDims := [1]
  collapsedSliceDims := [0]
  operandBatchingDims := []
  startIndicesBatchingDims := []
  startIndexMap := [0]
  indexVectorDim := 1
  sliceSizes := ![1, 3]
  wf := gather_S8000x3_S980628x1_S980628x3_1_0_n_n_0_1_13_wf
def dot_S980628x3_S3x16_S980628x16_1_0_0_1_n_n : DotDims S980628x3 S3x16 S980628x16 where
  lhsContracting := [1]
  rhsContracting := [0]
  lhsNonContracting := [0]
  rhsNonContracting := [1]
  lhsBatch := []
  rhsBatch := []
  wf := dot_S980628x3_S3x16_S980628x16_1_0_0_1_n_n_wf
def gather_S262144x1_S980628x1_S980628x1_1_0_n_n_0_1_11 : GatherDims S262144x1 S980628x1 S980628x1 where
  offsetDims := [1]
  collapsedSliceDims := [0]
  operandBatchingDims := []
  startIndicesBatchingDims := []
  startIndexMap := [0]
  indexVectorDim := 1
  sliceSizes := ![1, 1]
  wf := gather_S262144x1_S980628x1_S980628x1_1_0_n_n_0_1_11_wf
def scatter_S8000x16x1_S980628x1_S980628x16x1_12_0_0_1 : ScatterDims S8000x16x1 S980628x1 S980628x16x1 where
  updateWindowDims := [1, 2]
  insertedWindowDims := [0]
  scatterDimsToOperandDims := [0]
  indexVectorDim := 1
  wf := scatter_S8000x16x1_S980628x1_S980628x16x1_12_0_0_1_wf
def scatter_S8000_S980628x1_S980628_n_0_0_1 : ScatterDims S8000 S980628x1 S980628 where
  updateWindowDims := []
  insertedWindowDims := [0]
  scatterDimsToOperandDims := [0]
  indexVectorDim := 1
  wf := scatter_S8000_S980628x1_S980628_n_0_0_1_wf
def dot_S8000x16_S16x128_S8000x128_1_0_0_1_n_n : DotDims S8000x16 S16x128 S8000x128 where
  lhsContracting := [1]
  rhsContracting := [0]
  lhsNonContracting := [0]
  rhsNonContracting := [1]
  lhsBatch := []
  rhsBatch := []
  wf := dot_S8000x16_S16x128_S8000x128_1_0_0_1_n_n_wf
def gather_S8000x3_S26578x1_S26578x3_1_0_n_n_0_1_13 : GatherDims S8000x3 S26578x1 S26578x3 where
  offsetDims := [1]
  collapsedSliceDims := [0]
  operandBatchingDims := []
  startIndicesBatchingDims := []
  startIndexMap := [0]
  indexVectorDim := 1
  sliceSizes := ![1, 3]
  wf := gather_S8000x3_S26578x1_S26578x3_1_0_n_n_0_1_13_wf
def gather_S1000x3_S26578x1_S26578x3_1_0_n_n_0_1_13 : GatherDims S1000x3 S26578x1 S26578x3 where
  offsetDims := [1]
  collapsedSliceDims := [0]
  operandBatchingDims := []
  startIndicesBatchingDims := []
  startIndexMap := [0]
  indexVectorDim := 1
  sliceSizes := ![1, 3]
  wf := gather_S1000x3_S26578x1_S26578x3_1_0_n_n_0_1_13_wf
def dot_S26578x3_S3x16_S26578x16_1_0_0_1_n_n : DotDims S26578x3 S3x16 S26578x16 where
  lhsContracting := [1]
  rhsContracting := [0]
  lhsNonContracting := [0]
  rhsNonContracting := [1]
  lhsBatch := []
  rhsBatch := []
  wf := dot_S26578x3_S3x16_S26578x16_1_0_0_1_n_n_wf
def gather_S8000x128_S26578x1_S26578x128_1_0_n_n_0_1_1128 : GatherDims S8000x128 S26578x1 S26578x128 where
  offsetDims := [1]
  collapsedSliceDims := [0]
  operandBatchingDims := []
  startIndicesBatchingDims := []
  startIndexMap := [0]
  indexVectorDim := 1
  sliceSizes := ![1, 128]
  wf := gather_S8000x128_S26578x1_S26578x128_1_0_n_n_0_1_1128_wf
def scatter_S1000x16x128_S26578x1_S26578x16x128_12_0_0_1 : ScatterDims S1000x16x128 S26578x1 S26578x16x128 where
  updateWindowDims := [1, 2]
  insertedWindowDims := [0]
  scatterDimsToOperandDims := [0]
  indexVectorDim := 1
  wf := scatter_S1000x16x128_S26578x1_S26578x16x128_12_0_0_1_wf
def scatter_S1000_S26578x1_S26578_n_0_0_1 : ScatterDims S1000 S26578x1 S26578 where
  updateWindowDims := []
  insertedWindowDims := [0]
  scatterDimsToOperandDims := [0]
  indexVectorDim := 1
  wf := scatter_S1000_S26578x1_S26578_n_0_0_1_wf
def dot_S1000x2048_S2048x256_S1000x256_1_0_0_1_n_n : DotDims S1000x2048 S2048x256 S1000x256 where
  lhsContracting := [1]
  rhsContracting := [0]
  lhsNonContracting := [0]
  rhsNonContracting := [1]
  lhsBatch := []
  rhsBatch := []
  wf := dot_S1000x2048_S2048x256_S1000x256_1_0_0_1_n_n_wf
def gather_S1000x3_S1000x1_S1000x3_1_0_n_n_0_1_13 : GatherDims S1000x3 S1000x1 S1000x3 where
  offsetDims := [1]
  collapsedSliceDims := [0]
  operandBatchingDims := []
  startIndicesBatchingDims := []
  startIndexMap := [0]
  indexVectorDim := 1
  sliceSizes := ![1, 3]
  wf := gather_S1000x3_S1000x1_S1000x3_1_0_n_n_0_1_13_wf
def gather_S8x3_S1000x1_S1000x3_1_0_n_n_0_1_13 : GatherDims S8x3 S1000x1 S1000x3 where
  offsetDims := [1]
  collapsedSliceDims := [0]
  operandBatchingDims := []
  startIndicesBatchingDims := []
  startIndexMap := [0]
  indexVectorDim := 1
  sliceSizes := ![1, 3]
  wf := gather_S8x3_S1000x1_S1000x3_1_0_n_n_0_1_13_wf
def dot_S1000x3_S3x16_S1000x16_1_0_0_1_n_n : DotDims S1000x3 S3x16 S1000x16 where
  lhsContracting := [1]
  rhsContracting := [0]
  lhsNonContracting := [0]
  rhsNonContracting := [1]
  lhsBatch := []
  rhsBatch := []
  wf := dot_S1000x3_S3x16_S1000x16_1_0_0_1_n_n_wf
def gather_S1000x256_S1000x1_S1000x256_1_0_n_n_0_1_1256 : GatherDims S1000x256 S1000x1 S1000x256 where
  offsetDims := [1]
  collapsedSliceDims := [0]
  operandBatchingDims := []
  startIndicesBatchingDims := []
  startIndexMap := [0]
  indexVectorDim := 1
  sliceSizes := ![1, 256]
  wf := gather_S1000x256_S1000x1_S1000x256_1_0_n_n_0_1_1256_wf
def scatter_S8x16x256_S1000x1_S1000x16x256_12_0_0_1 : ScatterDims S8x16x256 S1000x1 S1000x16x256 where
  updateWindowDims := [1, 2]
  insertedWindowDims := [0]
  scatterDimsToOperandDims := [0]
  indexVectorDim := 1
  wf := scatter_S8x16x256_S1000x1_S1000x16x256_12_0_0_1_wf
def scatter_S8_S1000x1_S1000_n_0_0_1 : ScatterDims S8 S1000x1 S1000 where
  updateWindowDims := []
  insertedWindowDims := [0]
  scatterDimsToOperandDims := [0]
  indexVectorDim := 1
  wf := scatter_S8_S1000x1_S1000_n_0_0_1_wf
def dot_S8x4096_S4096x512_S8x512_1_0_0_1_n_n : DotDims S8x4096 S4096x512 S8x512 where
  lhsContracting := [1]
  rhsContracting := [0]
  lhsNonContracting := [0]
  rhsNonContracting := [1]
  lhsBatch := []
  rhsBatch := []
  wf := dot_S8x4096_S4096x512_S8x512_1_0_0_1_n_n_wf
def dot_S8x512_S512x128_S8x128_1_0_0_1_n_n : DotDims S8x512 S512x128 S8x128 where
  lhsContracting := [1]
  rhsContracting := [0]
  lhsNonContracting := [0]
  rhsNonContracting := [1]
  lhsBatch := []
  rhsBatch := []
  wf := dot_S8x512_S512x128_S8x128_1_0_0_1_n_n_wf

class Facts : Prop extends Facts₀ where

variable [Facts]
-- ==== Proof.KerSpec.lean ====
/-
The host-side arithmetic of the point-cloud network, level by level, as pure functions of arrays over
the extended reals.

Every level of the network works on a list of edges (source point, destination point).  Before the
edge kernel runs, the host prepares four arrays:
  * the source positions and the destination positions of the edges: the edge's index is first
    wrapped (a negative index `k` is read as `k + n`, `n` the number of points on that side), the
    row of that index is gathered out of the position table, and the edge list is lengthened by
    rows of zeros up to a whole number of tiles (`ps`, `pd`);
  * the source features of the edges, gathered and lengthened in the same way (`ft`);
  * the bias of the level's small dense layer as a one-row matrix (`bb`).
After the edge kernel has produced one row per (lengthened) edge, the host drops the added rows,
adds the rows of all edges with the same destination (a scatter-add into zeros), counts the edges
of each destination (a scatter-add of ones into zeros), and divides each destination's sum by
`max(count, 1)` (`agg`): the Monte-Carlo mean over the neighbourhood.  The dense layer that
follows takes a zero row in place of a bias (`zb`), and the scale and shift of its normalisation as
one-row matrices (`gr`, `ber`); the head takes its bias, scale and shift the same way (`bdr`,
`gr3`, `ber3`).

Each definition is the composition of the operations in the order the program applies them, with
the program's own shape records and literals, so that reading a buffer of the program back gives
the definition by unfolding alone.
-/
import proofs.«105096_j6674379178666_1_alg».proof.KernelIdeal

noncomputable section

namespace Cert.Bridge.KerSpec

open Idealize.ShloMosaic Idealize.SL.Sem
open Cert.KernelIdeal
open Cert.KernelIdeal.Facts₀ Cert.KernelIdeal.Facts

variable [Facts]

/-! ## Wrapping an edge's point index: a negative index counts from the end -/

/-- Level 0's edge indices (980628 edges) wrapped by `n`, as a column. -/
def wrap0 (n : BitVec 32) (ix : Vec Ideal S980628 .i32) : Vec Ideal S980628x1 .i32 :=
  (broadcastInDim S980628x1 ![0] bcast_S980628_S980628x1_0 : (⟨S980628, .i32⟩ : BufTy).Contents (Elt Ideal) → (⟨S980628x1, .i32⟩ : BufTy).Contents (Elt Ideal))
    ((select : (⟨S980628, .i1⟩ : BufTy).Contents (Elt Ideal) → (⟨S980628, .i32⟩ : BufTy).Contents (Elt Ideal) → (⟨S980628, .i32⟩ : BufTy).Contents (Elt Ideal) → (⟨S980628, .i32⟩ : BufTy).Contents (Elt Ideal))
      ((cmpi .slt : (⟨S980628, .i32⟩ : BufTy).Contents (Elt Ideal) → (⟨S980628, .i32⟩ : BufTy).Contents (Elt Ideal) → (⟨S980628, .i1⟩ : BufTy).Contents (Elt Ideal)) ix
        ((broadcastInDim S980628 ![] bcast_S_S980628 : (⟨S_, .i32⟩ : BufTy).Contents (Elt Ideal) → (⟨S980628, .i32⟩ : BufTy).Contents (Elt Ideal)) (constantI S_ 32 0#32)))
      ((addi : (⟨S980628, .i32⟩ : BufTy).Contents (Elt Ideal) → (⟨S980628, .i32⟩ : BufTy).Contents (Elt Ideal) → (⟨S980628, .i32⟩ : BufTy).Contents (Elt Ideal)) ix
        ((broadcastInDim S980628 ![] bcast_S_S980628 : (⟨S_, .i32⟩ : BufTy).Contents (Elt Ideal) → (⟨S980628, .i32⟩ : BufTy).Contents (Elt Ideal)) (constantI S_ 32 n)))
      ix)
/-- Level 1's edge indices (26578 edges) wrapped by `n`, as a column. -/
def wrap1 (n : BitVec 32) (ix : Vec Ideal S26578 .i32) : Vec Ideal S26578x1 .i32 :=
  (broadcastInDim S26578x1 ![0] bcast_S26578_S26578x1_0 : (⟨S26578, .i32⟩ : BufTy).Contents (Elt Ideal) → (⟨S26578x1, .i32⟩ : BufTy).Contents (Elt Ideal))
    ((select : (⟨S26578, .i1⟩ : BufTy).Contents (Elt Ideal) → (⟨S26578, .i32⟩ : BufTy).Contents (Elt Ideal) → (⟨S26578, .i32⟩ : BufTy).Contents (Elt Ideal) → (⟨S26578, .i32⟩ : BufTy).Contents (Elt Ideal))
      ((cmpi .slt : (⟨S26578, .i32⟩ : BufTy).Contents (Elt Ideal) → (⟨S26578, .i32⟩ : BufTy).Contents (Elt Ideal) → (⟨S26578, .i1⟩ : BufTy).Contents (Elt Ideal)) ix
        ((broadcastInDim S26578 ![] bcast_S_S26578 : (⟨S_, .i32⟩ : BufTy).Contents (Elt Ideal) → (⟨S26578, .i32⟩ : BufTy).Contents (Elt Ideal)) (constantI S_ 32 0#32)))
      ((addi : (⟨S26578, .i32⟩ : BufTy).Contents (Elt Ideal) → (⟨S26578, .i32⟩ : BufTy).Contents (Elt Ideal) → (⟨S26578, .i32⟩ : BufTy).Contents (Elt Ideal)) ix
        ((broadcastInDim S26578 ![] bcast_S_S26578 : (⟨S_, .i32⟩ : BufTy).Contents (Elt Ideal) → (⟨S26578, .i32⟩ : BufTy).Contents (Elt Ideal)) (constantI S_ 32 n)))
      ix)
/-- Level 2's edge indices (1000 edges) wrapped by `n`, as a column. -/
def wrap2 (n : BitVec 32) (ix : Vec Ideal S1000 .i32) : Vec Ideal S1000x1 .i32 :=
  (broadcastInDim S1000x1 ![0] bcast_S1000_S1000x1_0 : (⟨S1000, .i32⟩ : BufTy).Contents (Elt Ideal) → (⟨S1000x1, .i32⟩ : BufTy).Contents (Elt Ideal))
    ((select : (⟨S1000, .i1⟩ : BufTy).Contents (Elt Ideal) → (⟨S1000, .i32⟩ : BufTy).Contents (Elt Ideal) → (⟨S1000, .i32⟩ : BufTy).Contents (Elt Ideal) → (⟨S1000, .i32⟩ : BufTy).Contents (Elt Ideal))
      ((cmpi .slt : (⟨S1000, .i32⟩ : BufTy).Contents (Elt Ideal) → (⟨S1000, .i32⟩ : BufTy).Contents (Elt Ideal) → (⟨S1000, .i1⟩ : BufTy).Contents (Elt Ideal)) ix
        ((broadcastInDim S1000 ![] bcast_S_S1000 : (⟨S_, .i32⟩ : BufTy).Contents (Elt Ideal) → (⟨S1000, .i32⟩ : BufTy).Contents (Elt Ideal)) (constantI S_ 32 0#32)))
      ((addi : (⟨S1000, .i32⟩ : BufTy).Contents (Elt Ideal) → (⟨S1000, .i32⟩ : BufTy).Contents (Elt Ideal) → (⟨S1000, .i32⟩ : BufTy).Contents (Elt Ideal)) ix
        ((broadcastInDim S1000 ![] bcast_S_S1000 : (⟨S_, .i32⟩ : BufTy).Contents (Elt Ideal) → (⟨S1000, .i32⟩ : BufTy).Contents (Elt Ideal)) (constantI S_ 32 n)))
      ix)

/-! ## Level 0: 262144 source points, 8000 destination points, 980628 edges lengthened to 980992 -/

/-- The source position of every edge of level 0, zero rows appended. -/
def ps0 (a1 : Vec Ideal S262144x3 .f32) (a5 : Vec Ideal S980628 .i32) : Vec Ideal S980992x3 .f32 :=
  pad S980992x3 ![0, 0] ![364, 0] ![0, 0]
    (((fun x i => Host.gather gather_S262144x3_S980628x1_S980628x3_1_0_n_n_0_1_13 x i) : (⟨S262144x3, .f32⟩ : BufTy).Contents (Elt Ideal) → (⟨S980628x1, .i32⟩ : BufTy).Contents (Elt Ideal) → (⟨S980628x3, .f32⟩ : BufTy).Contents (Elt Ideal)) a1 (wrap0 262144#32 a5))
    ((sitofp (F := Ideal) .f32 : (⟨S_, .i32⟩ : BufTy).Contents (Elt Ideal) → (⟨S_, .f32⟩ : BufTy).Contents (Elt Ideal)) (constantI S_ 32 0#32)) pads_S980628x3_S980992x3_03640_000 h_S_
/-- The destination position of every edge of level 0, zero rows appended. -/
def pd0 (a2 : Vec Ideal S8000x3 .f32) (a6 : Vec Ideal S980628 .i32) : Vec Ideal S980992x3 .f32 :=
  pad S980992x3 ![0, 0] ![364, 0] ![0, 0]
    (((fun x i => Host.gather gather_S8000x3_S980628x1_S980628x3_1_0_n_n_0_1_13 x i) : (⟨S8000x3, .f32⟩ : BufTy).Contents (Elt Ideal) → (⟨S980628x1, .i32⟩ : BufTy).Contents (Elt Ideal) → (⟨S980628x3, .f32⟩ : BufTy).Contents (Elt Ideal)) a2 (wrap0 8000#32 a6))
    ((sitofp (F := Ideal) .f32 : (⟨S_, .i32⟩ : BufTy).Contents (Elt Ideal) → (⟨S_, .f32⟩ : BufTy).Contents (Elt Ideal)) (constantI S_ 32 0#32)) pads_S980628x3_S980992x3_03640_000 h_S_
/-- The source feature of every edge of level 0, zero rows appended. -/
def ft0 (a0 : Vec Ideal S262144x1 .f32) (a5 : Vec Ideal S980628 .i32) : Vec Ideal S980992x1 .f32 :=
  pad S980992x1 ![0, 0] ![364, 0] ![0, 0]
    (((fun x i => Host.gather gather_S262144x1_S980628x1_S980628x1_1_0_n_n_0_1_11 x i) : (⟨S262144x1, .f32⟩ : BufTy).Contents (Elt Ideal) → (⟨S980628x1, .i32⟩ : BufTy).Contents (Elt Ideal) → (⟨S980628x1, .f32⟩ : BufTy).Contents (Elt Ideal)) a0 (wrap0 262144#32 a5))
    ((sitofp (F := Ideal) .f32 : (⟨S_, .i32⟩ : BufTy).Contents (Elt Ideal) → (⟨S_, .f32⟩ : BufTy).Contents (Elt Ideal)) (constantI S_ 32 0#32)) pads_S980628x1_S980992x1_03640_000 h_S_
/-- Level 0's edge-layer bias as one row. -/
def bb0 (a12 : Vec Ideal S16 .f32) : Vec Ideal S1x16 .f32 :=
  fun i => shapeCast S1x16 a12 shapeCasts_S16_S1x16 i
/-- Level 0's neighbourhood mean: the edge rows `Y` without the appended ones, summed per destination and divided by `max(count, 1)`. -/
def agg0 (Y : Vec Ideal S980992x16 .f32) (a6 : Vec Ideal S980628 .i32) : Vec Ideal S8000x16 .f32 :=
  (Host.divf (F := Ideal) (φ := .f32) : (⟨S8000x16, .f32⟩ : BufTy).Contents (Elt Ideal) → (⟨S8000x16, .f32⟩ : BufTy).Contents (Elt Ideal) → (⟨S8000x16, .f32⟩ : BufTy).Contents (Elt Ideal))
    (((fun x i u => Host.scatterAdd (F := Ideal) (φ := .f32) scatter_S8000x16_S980628x1_S980628x16_1_0_0_1 x i u) : (⟨S8000x16, .f32⟩ : BufTy).Contents (Elt Ideal) → (⟨S980628x1, .i32⟩ : BufTy).Contents (Elt Ideal) → (⟨S980628x16, .f32⟩ : BufTy).Contents (Elt Ideal) → (⟨S8000x16, .f32⟩ : BufTy).Contents (Elt Ideal))
      ((broadcastInDim S8000x16 ![] bcast_S_S8000x16 : (⟨S_, .f32⟩ : BufTy).Contents (Elt Ideal) → (⟨S8000x16, .f32⟩ : BufTy).Contents (Elt Ideal)) (constant (F := Ideal) S_ .f32 0x00000000#32))
      ((broadcastInDim S980628x1 ![0] bcast_S980628_S980628x1_0 : (⟨S980628, .i32⟩ : BufTy).Contents (Elt Ideal) → (⟨S980628x1, .i32⟩ : BufTy).Contents (Elt Ideal)) a6)
      (((extractStridedSlice S980628x16 ![0, 0] · slices_S980992x16_S980628x16_0_0) : (⟨S980992x16, .f32⟩ : BufTy).Contents (Elt Ideal) → (⟨S980628x16, .f32⟩ : BufTy).Contents (Elt Ideal)) Y))
    ((broadcastInDim S8000x16 ![0, 1] bcast_S8000x1_S8000x16_0_1 : (⟨S8000x1, .f32⟩ : BufTy).Contents (Elt Ideal) → (⟨S8000x16, .f32⟩ : BufTy).Contents (Elt Ideal))
      ((broadcastInDim S8000x1 ![0] bcast_S8000_S8000x1_0 : (⟨S8000, .f32⟩ : BufTy).Contents (Elt Ideal) → (⟨S8000x1, .f32⟩ : BufTy).Contents (Elt Ideal))
        ((maximumf (F := Ideal) (φ := .f32) : (⟨S8000, .f32⟩ : BufTy).Contents (Elt Ideal) → (⟨S8000, .f32⟩ : BufTy).Contents (Elt Ideal) → (⟨S8000, .f32⟩ : BufTy).Contents (Elt Ideal))
          (((fun x i u => Host.scatterAdd (F := Ideal) (φ := .f32) scatter_S8000_S980628x1_S980628_n_0_0_1 x i u) : (⟨S8000, .f32⟩ : BufTy).Contents (Elt Ideal) → (⟨S980628x1, .i32⟩ : BufTy).Contents (Elt Ideal) → (⟨S980628, .f32⟩ : BufTy).Contents (Elt Ideal) → (⟨S8000, .f32⟩ : BufTy).Contents (Elt Ideal))
            ((broadcastInDim S8000 ![] bcast_S_S8000 : (⟨S_, .f32⟩ : BufTy).Contents (Elt Ideal) → (⟨S8000, .f32⟩ : BufTy).Contents (Elt Ideal)) (constant (F := Ideal) S_ .f32 0x00000000#32))
            ((broadcastInDim S980628x1 ![0] bcast_S980628_S980628x1_0 : (⟨S980628, .i32⟩ : BufTy).Contents (Elt Ideal) → (⟨S980628x1, .i32⟩ : BufTy).Contents (Elt Ideal)) a6)
            ((broadcastInDim S980628 ![] bcast_S_S980628 : (⟨S_, .f32⟩ : BufTy).Contents (Elt Ideal) → (⟨S980628, .f32⟩ : BufTy).Contents (Elt Ideal)) (constant (F := Ideal) S_ .f32 0x3F800000#32)))
          ((broadcastInDim S8000 ![] bcast_S_S8000 : (⟨S_, .f32⟩ : BufTy).Contents (Elt Ideal) → (⟨S8000, .f32⟩ : BufTy).Contents (Elt Ideal)) (constant (F := Ideal) S_ .f32 0x3F800000#32)))))
/-- The zero row level 0's dense layer takes as its bias. -/
def zb0 : Vec Ideal S1x128 .f32 :=
  (broadcastInDim S1x128 ![] bcast_S_S1x128 : (⟨S_, .f32⟩ : BufTy).Contents (Elt Ideal) → (⟨S1x128, .f32⟩ : BufTy).Contents (Elt Ideal)) (constant (F := Ideal) S_ .f32 0x00000000#32)
/-- Level 0's normalisation scale as one row. -/
def gr0 (a14 : Vec Ideal S128 .f32) : Vec Ideal S1x128 .f32 :=
  fun i => shapeCast S1x128 a14 shapeCasts_S128_S1x128 i
/-- Level 0's normalisation shift as one row. -/
def ber0 (a15 : Vec Ideal S128 .f32) : Vec Ideal S1x128 .f32 :=
  fun i => shapeCast S1x128 a15 shapeCasts_S128_S1x128 i

/-! ## Level 1: 8000 source points, 1000 destination points, 26578 edges lengthened to 26712 -/

/-- The source position of every edge of level 1, zero rows appended. -/
def ps1 (a2 : Vec Ideal S8000x3 .f32) (a7 : Vec Ideal S26578 .i32) : Vec Ideal S26712x3 .f32 :=
  pad S26712x3 ![0, 0] ![134, 0] ![0, 0]
    (((fun x i => Host.gather gather_S8000x3_S26578x1_S26578x3_1_0_n_n_0_1_13 x i) : (⟨S8000x3, .f32⟩ : BufTy).Contents (Elt Ideal) → (⟨S26578x1, .i32⟩ : BufTy).Contents (Elt Ideal) → (⟨S26578x3, .f32⟩ : BufTy).Contents (Elt Ideal)) a2 (wrap1 8000#32 a7))
    ((sitofp (F := Ideal) .f32 : (⟨S_, .i32⟩ : BufTy).Contents (Elt Ideal) → (⟨S_, .f32⟩ : BufTy).Contents (Elt Ideal)) (constantI S_ 32 0#32)) pads_S26578x3_S26712x3_01340_000 h_S_
/-- The destination position of every edge of level 1, zero rows appended. -/
def pd1 (a3 : Vec Ideal S1000x3 .f32) (a8 : Vec Ideal S26578 .i32) : Vec Ideal S26712x3 .f32 :=
  pad S26712x3 ![0, 0] ![134, 0] ![0, 0]
    (((fun x i => Host.gather gather_S1000x3_S26578x1_S26578x3_1_0_n_n_0_1_13 x i) : (⟨S1000x3, .f32⟩ : BufTy).Contents (Elt Ideal) → (⟨S26578x1, .i32⟩ : BufTy).Contents (Elt Ideal) → (⟨S26578x3, .f32⟩ : BufTy).Contents (Elt Ideal)) a3 (wrap1 1000#32 a8))
    ((sitofp (F := Ideal) .f32 : (⟨S_, .i32⟩ : BufTy).Contents (Elt Ideal) → (⟨S_, .f32⟩ : BufTy).Contents (Elt Ideal)) (constantI S_ 32 0#32)) pads_S26578x3_S26712x3_01340_000 h_S_
/-- The source features (level 0's output `x`) of every edge of level 1, zero rows appended. -/
def ft1 (x : Vec Ideal S8000x128 .f32) (a7 : Vec Ideal S26578 .i32) : Vec Ideal S26712x128 .f32 :=
  pad S26712x128 ![0, 0] ![134, 0] ![0, 0]
    (((fun x i => Host.gather gather_S8000x128_S26578x1_S26578x128_1_0_n_n_0_1_1128 x i) : (⟨S8000x128, .f32⟩ : BufTy).Contents (Elt Ideal) → (⟨S26578x1, .i32⟩ : BufTy).Contents (Elt Ideal) → (⟨S26578x128, .f32⟩ : BufTy).Contents (Elt Ideal)) x (wrap1 8000#32 a7))
    ((sitofp (F := Ideal) .f32 : (⟨S_, .i32⟩ : BufTy).Contents (Elt Ideal) → (⟨S_, .f32⟩ : BufTy).Contents (Elt Ideal)) (constantI S_ 32 0#32)) pads_S26578x128_S26712x128_01340_000 h_S_
/-- Level 1's edge-layer bias as one row. -/
def bb1 (a17 : Vec Ideal S16 .f32) : Vec Ideal S1x16 .f32 :=
  fun i => shapeCast S1x16 a17 shapeCasts_S16_S1x16 i
/-- Level 1's neighbourhood mean. -/
def agg1 (Y : Vec Ideal S26712x2048 .f32) (a8 : Vec Ideal S26578 .i32) : Vec Ideal S1000x2048 .f32 :=
  (Host.divf (F := Ideal) (φ := .f32) : (⟨S1000x2048, .f32⟩ : BufTy).Contents (Elt Ideal) → (⟨S1000x2048, .f32⟩ : BufTy).Contents (Elt Ideal) → (⟨S1000x2048, .f32⟩ : BufTy).Contents (Elt Ideal))
    (((fun x i u => Host.scatterAdd (F := Ideal) (φ := .f32) scatter_S1000x2048_S26578x1_S26578x2048_1_0_0_1 x i u) : (⟨S1000x2048, .f32⟩ : BufTy).Contents (Elt Ideal) → (⟨S26578x1, .i32⟩ : BufTy).Contents (Elt Ideal) → (⟨S26578x2048, .f32⟩ : BufTy).Contents (Elt Ideal) → (⟨S1000x2048, .f32⟩ : BufTy).Contents (Elt Ideal))
      ((broadcastInDim S1000x2048 ![] bcast_S_S1000x2048 : (⟨S_, .f32⟩ : BufTy).Contents (Elt Ideal) → (⟨S1000x2048, .f32⟩ : BufTy).Contents (Elt Ideal)) (constant (F := Ideal) S_ .f32 0x00000000#32))
      ((broadcastInDim S26578x1 ![0] bcast_S26578_S26578x1_0 : (⟨S26578, .i32⟩ : BufTy).Contents (Elt Ideal) → (⟨S26578x1, .i32⟩ : BufTy).Contents (Elt Ideal)) a8)
      (((extractStridedSlice S26578x2048 ![0, 0] · slices_S26712x2048_S26578x2048_0_0) : (⟨S26712x2048, .f32⟩ : BufTy).Contents (Elt Ideal) → (⟨S26578x2048, .f32⟩ : BufTy).Contents (Elt Ideal)) Y))
    ((broadcastInDim S1000x2048 ![0, 1] bcast_S1000x1_S1000x2048_0_1 : (⟨S1000x1, .f32⟩ : BufTy).Contents (Elt Ideal) → (⟨S1000x2048, .f32⟩ : BufTy).Contents (Elt Ideal))
      ((broadcastInDim S1000x1 ![0] bcast_S1000_S1000x1_0 : (⟨S1000, .f32⟩ : BufTy).Contents (Elt Ideal) → (⟨S1000x1, .f32⟩ : BufTy).Contents (Elt Ideal))
        ((maximumf (F := Ideal) (φ := .f32) : (⟨S1000, .f32⟩ : BufTy).Contents (Elt Ideal) → (⟨S1000, .f32⟩ : BufTy).Contents (Elt Ideal) → (⟨S1000, .f32⟩ : BufTy).Contents (Elt Ideal))
          (((fun x i u => Host.scatterAdd (F := Ideal) (φ := .f32) scatter_S1000_S26578x1_S26578_n_0_0_1 x i u) : (⟨S1000, .f32⟩ : BufTy).Contents (Elt Ideal) → (⟨S26578x1, .i32⟩ : BufTy).Contents (Elt Ideal) → (⟨S26578, .f32⟩ : BufTy).Contents (Elt Ideal) → (⟨S1000, .f32⟩ : BufTy).Contents (Elt Ideal))
            ((broadcastInDim S1000 ![] bcast_S_S1000 : (⟨S_, .f32⟩ : BufTy).Contents (Elt Ideal) → (⟨S1000, .f32⟩ : BufTy).Contents (Elt Ideal)) (constant (F := Ideal) S_ .f32 0x00000000#32))
            ((broadcastInDim S26578x1 ![0] bcast_S26578_S26578x1_0 : (⟨S26578, .i32⟩ : BufTy).Contents (Elt Ideal) → (⟨S26578x1, .i32⟩ : BufTy).Contents (Elt Ideal)) a8)
            ((broadcastInDim S26578 ![] bcast_S_S26578 : (⟨S_, .f32⟩ : BufTy).Contents (Elt Ideal) → (⟨S26578, .f32⟩ : BufTy).Contents (Elt Ideal)) (constant (F := Ideal) S_ .f32 0x3F800000#32)))
          ((broadcastInDim S1000 ![] bcast_S_S1000 : (⟨S_, .f32⟩ : BufTy).Contents (Elt Ideal) → (⟨S1000, .f32⟩ : BufTy).Contents (Elt Ideal)) (constant (F := Ideal) S_ .f32 0x3F800000#32)))))
/-- The zero row level 1's dense layer takes as its bias. -/
def zb1 : Vec Ideal S1x256 .f32 :=
  (broadcastInDim S1x256 ![] bcast_S_S1x256 : (⟨S_, .f32⟩ : BufTy).Contents (Elt Ideal) → (⟨S1x256, .f32⟩ : BufTy).Contents (Elt Ideal)) (constant (F := Ideal) S_ .f32 0x00000000#32)
/-- Level 1's normalisation scale as one row. -/
def gr1 (a19 : Vec Ideal S256 .f32) : Vec Ideal S1x256 .f32 :=
  fun i => shapeCast S1x256 a19 shapeCasts_S256_S1x256 i
/-- Level 1's normalisation shift as one row. -/
def ber1 (a20 : Vec Ideal S256 .f32) : Vec Ideal S1x256 .f32 :=
  fun i => shapeCast S1x256 a20 shapeCasts_S256_S1x256 i

/-! ## Level 2: 1000 source points, 8 destination points, 1000 edges lengthened to 1120 -/

/-- The source position of every edge of level 2, zero rows appended. -/
def ps2 (a3 : Vec Ideal S1000x3 .f32) (a9 : Vec Ideal S1000 .i32) : Vec Ideal S1120x3 .f32 :=
  pad S1120x3 ![0, 0] ![120, 0] ![0, 0]
    (((fun x i => Host.gather gather_S1000x3_S1000x1_S1000x3_1_0_n_n_0_1_13 x i) : (⟨S1000x3, .f32⟩ : BufTy).Contents (Elt Ideal) → (⟨S1000x1, .i32⟩ : BufTy).Contents (Elt Ideal) → (⟨S1000x3, .f32⟩ : BufTy).Contents (Elt Ideal)) a3 (wrap2 1000#32 a9))
    ((sitofp (F := Ideal) .f32 : (⟨S_, .i32⟩ : BufTy).Contents (Elt Ideal) → (⟨S_, .f32⟩ : BufTy).Contents (Elt Ideal)) (constantI S_ 32 0#32)) pads_S1000x3_S1120x3_01200_000 h_S_
/-- The destination position of every edge of level 2, zero rows appended. -/
def pd2 (a4 : Vec Ideal S8x3 .f32) (a10 : Vec Ideal S1000 .i32) : Vec Ideal S1120x3 .f32 :=
  pad S1120x3 ![0, 0] ![120, 0] ![0, 0]
    (((fun x i => Host.gather gather_S8x3_S1000x1_S1000x3_1_0_n_n_0_1_13 x i) : (⟨S8x3, .f32⟩ : BufTy).Contents (Elt Ideal) → (⟨S1000x1, .i32⟩ : BufTy).Contents (Elt Ideal) → (⟨S1000x3, .f32⟩ : BufTy).Contents (Elt Ideal)) a4 (wrap2 8#32 a10))
    ((sitofp (F := Ideal) .f32 : (⟨S_, .i32⟩ : BufTy).Contents (Elt Ideal) → (⟨S_, .f32⟩ : BufTy).Contents (Elt Ideal)) (constantI S_ 32 0#32)) pads_S1000x3_S1120x3_01200_000 h_S_
/-- The source features (level 1's output `x`) of every edge of level 2, zero rows appended. -/
def ft2 (x : Vec Ideal S1000x256 .f32) (a9 : Vec Ideal S1000 .i32) : Vec Ideal S1120x256 .f32 :=
  pad S1120x256 ![0, 0] ![120, 0] ![0, 0]
    (((fun x i => Host.gather gather_S1000x256_S1000x1_S1000x256_1_0_n_n_0_1_1256 x i) : (⟨S1000x256, .f32⟩ : BufTy).Contents (Elt Ideal) → (⟨S1000x1, .i32⟩ : BufTy).Contents (Elt Ideal) → (⟨S1000x256, .f32⟩ : BufTy).Contents (Elt Ideal)) x (wrap2 1000#32 a9))
    ((sitofp (F := Ideal) .f32 : (⟨S_, .i32⟩ : BufTy).Contents (Elt Ideal) → (⟨S_, .f32⟩ : BufTy).Contents (Elt Ideal)) (constantI S_ 32 0#32)) pads_S1000x256_S1120x256_01200_000 h_S_
/-- Level 2's edge-layer bias as one row. -/
def bb2 (a22 : Vec Ideal S16 .f32) : Vec Ideal S1x16 .f32 :=
  fun i => shapeCast S1x16 a22 shapeCasts_S16_S1x16 i
/-- Level 2's neighbourhood mean. -/
def agg2 (Y : Vec Ideal S1120x4096 .f32) (a10 : Vec Ideal S1000 .i32) : Vec Ideal S8x4096 .f32 :=
  (Host.divf (F := Ideal) (φ := .f32) : (⟨S8x4096, .f32⟩ : BufTy).Contents (Elt Ideal) → (⟨S8x4096, .f32⟩ : BufTy).Contents (Elt Ideal) → (⟨S8x4096, .f32⟩ : BufTy).Contents (Elt Ideal))
    (((fun x i u => Host.scatterAdd (F := Ideal) (φ := .f32) scatter_S8x4096_S1000x1_S1000x4096_1_0_0_1 x i u) : (⟨S8x4096, .f32⟩ : BufTy).Contents (Elt Ideal) → (⟨S1000x1, .i32⟩ : BufTy).Contents (Elt Ideal) → (⟨S1000x4096, .f32⟩ : BufTy).Contents (Elt Ideal) → (⟨S8x4096, .f32⟩ : BufTy).Contents (Elt Ideal))
      ((broadcastInDim S8x4096 ![] bcast_S_S8x4096 : (⟨S_, .f32⟩ : BufTy).Contents (Elt Ideal) → (⟨S8x4096, .f32⟩ : BufTy).Contents (Elt Ideal)) (constant (F := Ideal) S_ .f32 0x00000000#32))
      ((broadcastInDim S1000x1 ![0] bcast_S1000_S1000x1_0 : (⟨S1000, .i32⟩ : BufTy).Contents (Elt Ideal) → (⟨S1000x1, .i32⟩ : BufTy).Contents (Elt Ideal)) a10)
      (((extractStridedSlice S1000x4096 ![0, 0] · slices_S1120x4096_S1000x4096_0_0) : (⟨S1120x4096, .f32⟩ : BufTy).Contents (Elt Ideal) → (⟨S1000x4096, .f32⟩ : BufTy).Contents (Elt Ideal)) Y))
    ((broadcastInDim S8x4096 ![0, 1] bcast_S8x1_S8x4096_0_1 : (⟨S8x1, .f32⟩ : BufTy).Contents (Elt Ideal) → (⟨S8x4096, .f32⟩ : BufTy).Contents (Elt Ideal))
      ((broadcastInDim S8x1 ![0] bcast_S8_S8x1_0 : (⟨S8, .f32⟩ : BufTy).Contents (Elt Ideal) → (⟨S8x1, .f32⟩ : BufTy).Contents (Elt Ideal))
        ((maximumf (F := Ideal) (φ := .f32) : (⟨S8, .f32⟩ : BufTy).Contents (Elt Ideal) → (⟨S8, .f32⟩ : BufTy).Contents (Elt Ideal) → (⟨S8, .f32⟩ : BufTy).Contents (Elt Ideal))
          (((fun x i u => Host.scatterAdd (F := Ideal) (φ := .f32) scatter_S8_S1000x1_S1000_n_0_0_1 x i u) : (⟨S8, .f32⟩ : BufTy).Contents (Elt Ideal) → (⟨S1000x1, .i32⟩ : BufTy).Contents (Elt Ideal) → (⟨S1000, .f32⟩ : BufTy).Contents (Elt Ideal) → (⟨S8, .f32⟩ : BufTy).Contents (Elt Ideal))
            ((broadcastInDim S8 ![] bcast_S_S8 : (⟨S_, .f32⟩ : BufTy).Contents (Elt Ideal) → (⟨S8, .f32⟩ : BufTy).Contents (Elt Ideal)) (constant (F := Ideal) S_ .f32 0x00000000#32))
            ((broadcastInDim S1000x1 ![0] bcast_S1000_S1000x1_0 : (⟨S1000, .i32⟩ : BufTy).Contents (Elt Ideal) → (⟨S1000x1, .i32⟩ : BufTy).Contents (Elt Ideal)) a10)
            ((broadcastInDim S1000 ![] bcast_S_S1000 : (⟨S_, .f32⟩ : BufTy).Contents (Elt Ideal) → (⟨S1000, .f32⟩ : BufTy).Contents (Elt Ideal)) (constant (F := Ideal) S_ .f32 0x3F800000#32)))
          ((broadcastInDim S8 ![] bcast_S_S8 : (⟨S_, .f32⟩ : BufTy).Contents (Elt Ideal) → (⟨S8, .f32⟩ : BufTy).Contents (Elt Ideal)) (constant (F := Ideal) S_ .f32 0x3F800000#32)))))
/-- The zero row level 2's dense layer takes as its bias. -/
def zb2 : Vec Ideal S1x512 .f32 :=
  (broadcastInDim S1x512 ![] bcast_S_S1x512 : (⟨S_, .f32⟩ : BufTy).Contents (Elt Ideal) → (⟨S1x512, .f32⟩ : BufTy).Contents (Elt Ideal)) (constant (F := Ideal) S_ .f32 0x00000000#32)
/-- Level 2's normalisation scale as one row. -/
def gr2 (a24 : Vec Ideal S512 .f32) : Vec Ideal S1x512 .f32 :=
  fun i => shapeCast S1x512 a24 shapeCasts_S512_S1x512 i
/-- Level 2's normalisation shift as one row. -/
def ber2 (a25 : Vec Ideal S512 .f32) : Vec Ideal S1x512 .f32 :=
  fun i => shapeCast S1x512 a25 shapeCasts_S512_S1x512 i

/-! ## The head's dense layer -/

/-- The head's bias as one row. -/
def bdr (a27 : Vec Ideal S128 .f32) : Vec Ideal S1x128 .f32 :=
  fun i => shapeCast S1x128 a27 shapeCasts_S128_S1x128 i
/-- The head's normalisation scale as one row. -/
def gr3 (a28 : Vec Ideal S128 .f32) : Vec Ideal S1x128 .f32 :=
  fun i => shapeCast S1x128 a28 shapeCasts_S128_S1x128 i
/-- The head's normalisation shift as one row. -/
def ber3 (a29 : Vec Ideal S128 .f32) : Vec Ideal S1x128 .f32 :=
  fun i => shapeCast S1x128 a29 shapeCasts_S128_S1x128 i

end Cert.Bridge.KerSpec

end
-- ==== Proof.KerRegionsBase.lean ====
/-
  Two small facts shared by the region modules.

  Every kernel body here loads and stores its staging buffers whole: through the rectangle at offsets (0, 0) of the
  buffer's own sizes.  The printed offsets are the vector `![0, 0]`; the library's lemmas about such a rectangle ask for
  the constant-zero function, so the equation between the two spellings is stated once.
-/
import Idealize.ShloMosaic.Lib.Pipeline.Value

noncomputable section

namespace Cert.KernelIdeal.KerRegions

/-- The offsets (0, 0), as the constant-zero function on the two axes. -/
theorem zero2 : (![0, 0] : Fin 2 → Nat) = fun _ => 0 := funext fun a => by fin_cases a <;> rfl

end Cert.KernelIdeal.KerRegions

end
-- ==== Proof.KerRegionsEdge0.lean ====
/-
  THE FIRST MONTE-CARLO CONVOLUTION'S EDGE ARRAY (region 0) AS ONE FUNCTION OF ITS FIVE INPUT ARRAYS.

  The edge kernel works on tiles of 2048 consecutive edges (rows): tile `t` (of 479) is rows `2048 t … 2048 t + 2047` of each
  of the three per-edge arrays (the two gathered position arrays [980992, 3] and the gathered feature array [980992, 1]), and
  the small weight [3, 16] and bias [1, 16] are the same for every tile.  From those five blocks the body computes one
  [2048, 16] block (`out0_5` of the imported frame; `out0_5_eq` below says it is the one store's payload of the loaded
  blocks).  The whole [980992, 16] result is therefore ONE function of the five arrays: its entry at row `e`, column `q`
  is the body's block for tile `e / 2048` at row `e % 2048`, column `q`  (`edge0`; `edge0_apply` reads it at row
  `2048 t + p`).
-/
import proofs.«105096_j6674379178666_1_alg».proof.Proof.Gen.KernelIdeal.Frame
import proofs.«105096_j6674379178666_1_alg».proof.Proof.KerRegionsBase
import Idealize.ShloMosaic.Lib.Pipeline.Value
import Idealize.ShloMosaic.Lib.ValueIdx

noncomputable section

namespace Cert.KernelIdeal.KerRegions

open Cert.KernelIdeal Cert.KernelIdeal.Gen Idealize.ShloMosaic Idealize.ShloMosaic.ValueIdx

/-- The body's block is the payload of its one whole-buffer store over the five whole-buffer loads. -/
theorem out0_5_eq (x0 x1 : Vec Ideal S2048x3 .f32) (x2 : Vec Ideal S2048x1 .f32) (x3 : Vec Ideal S3x16 .f32) (x4 : Vec Ideal S1x16 .f32) :
    out0_5 (F := Ideal) x0 x1 x2 x3 x4
      = k0_pay1 (F := Ideal) (k0_pay2 x0 x1 x3 x4) (k0_pay3 x2) (k0_pay4 x0 x1 x3 x4 x2) (k0_pay5 x0 x1 x3 x4 x2) (k0_pay6 x0 x1 x3 x4 x2) (k0_pay7 x0 x1 x3 x4 x2) (k0_pay8 x0 x1 x3 x4 x2) (k0_pay9 x0 x1 x3 x4 x2) (k0_pay10 x0 x1 x3 x4 x2) (k0_pay11 x0 x1 x3 x4 x2) (k0_pay12 x0 x1 x3 x4 x2) (k0_pay13 x0 x1 x3 x4 x2) (k0_pay14 x0 x1 x3 x4 x2) (k0_pay15 x0 x1 x3 x4) := by
  unfold out0_5
  rw [View.canon_unit_zero zero2]
  simp only [View.ld_unit_zero (S := S2048x3) zero2, View.ld_unit_zero (S := S2048x1) zero2, View.ld_unit_zero (S := S3x16) zero2,
    View.ld_unit_zero (S := S1x16) zero2]

/-- Rows `2048 t … 2048 t + 2047` of an array of 980992 rows, as a block of 2048 rows. -/
def tileRows0 {n : Nat} (A : FVec Ideal (⟨2, ![980992, n]⟩ : Shape) .f32) (t : Fin 479) : FVec Ideal (⟨2, ![2048, n]⟩ : Shape) .f32 :=
  fun y => A (ix2 (n0 := 980992) (n1 := n) ⟨2048 * t.val + (y 0).val, by have := idx2_lt0 y; have := t.isLt; omega⟩ (y 1))

/-- The block at row `p`, column `q` is the array at row `2048 t + p`, column `q`. -/
theorem tileRows0_apply {n : Nat} (A : FVec Ideal (⟨2, ![980992, n]⟩ : Shape) .f32) (t : Fin 479) (p : Fin 2048) (q : Fin n) :
    tileRows0 A t (ix2 p q) = A (ix2 (n0 := 980992) (n1 := n) ⟨2048 * t.val + p.val, by have := t.isLt; have := p.isLt; omega⟩ q) := rfl

/-- The tile a row of the result lies in. -/
def tileOf0 (j : S980992x16.Idx) : Fin 479 := ⟨(j 0).val / 2048, by have := idx2_lt0 j; omega⟩

/-- THE RESULT as one function of the five arrays: at row `e`, the body's block for tile `e / 2048`, at row `e % 2048`. -/
def edge0 (PS PD : FVec Ideal S980992x3 .f32) (FT : FVec Ideal S980992x1 .f32) (Wb : FVec Ideal S3x16 .f32) (bb : FVec Ideal S1x16 .f32) :
    FVec Ideal S980992x16 .f32 :=
  fun j => out0_5 (F := Ideal) (tileRows0 (n := 3) PS (tileOf0 j)) (tileRows0 (n := 3) PD (tileOf0 j)) (tileRows0 (n := 1) FT (tileOf0 j)) Wb bb
    (ix2 (n0 := 2048) (n1 := 16) ⟨(j 0).val % 2048, Nat.mod_lt _ (by decide)⟩ (j 1))

/-- The result at row `2048 t + p`, column `q`: tile `t`'s block at row `p`, column `q`. -/
theorem edge0_apply (PS PD : FVec Ideal S980992x3 .f32) (FT : FVec Ideal S980992x1 .f32) (Wb : FVec Ideal S3x16 .f32) (bb : FVec Ideal S1x16 .f32)
    (t : Fin 479) (p : Fin 2048) (q : Fin 16) :
    edge0 PS PD FT Wb bb (ix2 (n0 := 980992) (n1 := 16) ⟨2048 * t.val + p.val, by have := t.isLt; have := p.isLt; omega⟩ q)
      = out0_5 (F := Ideal) (tileRows0 (n := 3) PS t) (tileRows0 (n := 3) PD t) (tileRows0 (n := 1) FT t) Wb bb (ix2 p q) := by
  have hp := p.isLt
  have ht : tileOf0 (ix2 (n0 := 980992) (n1 := 16) ⟨2048 * t.val + p.val, by have := t.isLt; omega⟩ q) = t :=
    Fin.ext (by show (2048 * t.val + p.val) / 2048 = t.val; omega)
  have hi : (ix2 (n0 := 2048) (n1 := 16) ⟨(2048 * t.val + p.val) % 2048, Nat.mod_lt _ (by decide)⟩ q) = ix2 p q := by
    funext a
    match a with
    | ⟨0, _⟩ => exact Fin.ext (by show (2048 * t.val + p.val) % 2048 = p.val; omega)
    | ⟨1, _⟩ => rfl
  show out0_5 (F := Ideal) (tileRows0 (n := 3) PS (tileOf0 _)) (tileRows0 (n := 3) PD (tileOf0 _)) (tileRows0 (n := 1) FT (tileOf0 _)) Wb bb
    (ix2 (n0 := 2048) (n1 := 16) ⟨(2048 * t.val + p.val) % 2048, Nat.mod_lt _ (by decide)⟩ q) = _
  rw [ht, hi]

end Cert.KernelIdeal.KerRegions

end
-- ==== Proof.KerRegionsEdge2.lean ====
/-
  THE SECOND MONTE-CARLO CONVOLUTION'S EDGE ARRAY (region 2) AS ONE FUNCTION OF ITS FIVE INPUT ARRAYS.

  The edge kernel works on tiles of 424 consecutive edges (rows): tile `t` (of 63) is rows `424 t … 424 t + 423` of each
  of the three per-edge arrays (the two gathered position arrays [26712, 3] and the gathered feature array [26712, 128]), and
  the small weight [3, 16] and bias [1, 16] are the same for every tile.  From those five blocks the body computes one
  [424, 2048] block (`out2_5` of the imported frame; `out2_5_eq` below says it is the one store's payload of the loaded
  blocks).  The whole [26712, 2048] result is therefore ONE function of the five arrays: its entry at row `e`, column `q`
  is the body's block for tile `e / 424` at row `e % 424`, column `q`  (`edge2`; `edge2_apply` reads it at row
  `424 t + p`).
-/
import proofs.«105096_j6674379178666_1_alg».proof.Proof.Gen.KernelIdeal.Frame
import proofs.«105096_j6674379178666_1_alg».proof.Proof.KerRegionsBase
import Idealize.ShloMosaic.Lib.Pipeline.Value
import Idealize.ShloMosaic.Lib.ValueIdx

noncomputable section

namespace Cert.KernelIdeal.KerRegions

open Cert.KernelIdeal Cert.KernelIdeal.Gen Idealize.ShloMosaic Idealize.ShloMosaic.ValueIdx

/-- The body's block is the payload of its one whole-buffer store over the five whole-buffer loads. -/
theorem out2_5_eq (x0 x1 : Vec Ideal S424x3 .f32) (x2 : Vec Ideal S424x128 .f32) (x3 : Vec Ideal S3x16 .f32) (x4 : Vec Ideal S1x16 .f32) :
    out2_5 (F := Ideal) x0 x1 x2 x3 x4
      = k2_pay1 (F := Ideal) (k2_pay2 x0 x1 x3 x4) (k2_pay3 x2) (k2_pay4 x0 x1 x3 x4 x2) (k2_pay5 x0 x1 x3 x4 x2) (k2_pay6 x0 x1 x3 x4 x2) (k2_pay7 x0 x1 x3 x4 x2) (k2_pay8 x0 x1 x3 x4 x2) (k2_pay9 x0 x1 x3 x4 x2) (k2_pay10 x0 x1 x3 x4 x2) (k2_pay11 x0 x1 x3 x4) := by
  unfold out2_5
  rw [View.canon_unit_zero zero2]
  simp only [View.ld_unit_zero (S := S424x3) zero2, View.ld_unit_zero (S := S424x128) zero2, View.ld_unit_zero (S := S3x16) zero2,
    View.ld_unit_zero (S := S1x16) zero2]

/-- Rows `424 t … 424 t + 423` of an array of 26712 rows, as a block of 424 rows. -/
def tileRows2 {n : Nat} (A : FVec Ideal (⟨2, ![26712, n]⟩ : Shape) .f32) (t : Fin 63) : FVec Ideal (⟨2, ![424, n]⟩ : Shape) .f32 :=
  fun y => A (ix2 (n0 := 26712) (n1 := n) ⟨424 * t.val + (y 0).val, by have := idx2_lt0 y; have := t.isLt; omega⟩ (y 1))

/-- The block at row `p`, column `q` is the array at row `424 t + p`, column `q`. -/
theorem tileRows2_apply {n : Nat} (A : FVec Ideal (⟨2, ![26712, n]⟩ : Shape) .f32) (t : Fin 63) (p : Fin 424) (q : Fin n) :
    tileRows2 A t (ix2 p q) = A (ix2 (n0 := 26712) (n1 := n) ⟨424 * t.val + p.val, by have := t.isLt; have := p.isLt; omega⟩ q) := rfl

/-- The tile a row of the result lies in. -/
def tileOf2 (j : S26712x2048.Idx) : Fin 63 := ⟨(j 0).val / 424, by have := idx2_lt0 j; omega⟩

/-- THE RESULT as one function of the five arrays: at row `e`, the body's block for tile `e / 424`, at row `e % 424`. -/
def edge2 (PS PD : FVec Ideal S26712x3 .f32) (FT : FVec Ideal S26712x128 .f32) (Wb : FVec Ideal S3x16 .f32) (bb : FVec Ideal S1x16 .f32) :
    FVec Ideal S26712x2048 .f32 :=
  fun j => out2_5 (F := Ideal) (tileRows2 (n := 3) PS (tileOf2 j)) (tileRows2 (n := 3) PD (tileOf2 j)) (tileRows2 (n := 128) FT (tileOf2 j)) Wb bb
    (ix2 (n0 := 424) (n1 := 2048) ⟨(j 0).val % 424, Nat.mod_lt _ (by decide)⟩ (j 1))

/-- The result at row `424 t + p`, column `q`: tile `t`'s block at row `p`, column `q`. -/
theorem edge2_apply (PS PD : FVec Ideal S26712x3 .f32) (FT : FVec Ideal S26712x128 .f32) (Wb : FVec Ideal S3x16 .f32) (bb : FVec Ideal S1x16 .f32)
    (t : Fin 63) (p : Fin 424) (q : Fin 2048) :
    edge2 PS PD FT Wb bb (ix2 (n0 := 26712) (n1 := 2048) ⟨424 * t.val + p.val, by have := t.isLt; have := p.isLt; omega⟩ q)
      = out2_5 (F := Ideal) (tileRows2 (n := 3) PS t) (tileRows2 (n := 3) PD t) (tileRows2 (n := 128) FT t) Wb bb (ix2 p q) := by
  have hp := p.isLt
  have ht : tileOf2 (ix2 (n0 := 26712) (n1 := 2048) ⟨424 * t.val + p.val, by have := t.isLt; omega⟩ q) = t :=
    Fin.ext (by show (424 * t.val + p.val) / 424 = t.val; omega)
  have hi : (ix2 (n0 := 424) (n1 := 2048) ⟨(424 * t.val + p.val) % 424, Nat.mod_lt _ (by decide)⟩ q) = ix2 p q := by
    funext a
    match a with
    | ⟨0, _⟩ => exact Fin.ext (by show (424 * t.val + p.val) % 424 = p.val; omega)
    | ⟨1, _⟩ => rfl
  show out2_5 (F := Ideal) (tileRows2 (n := 3) PS (tileOf2 _)) (tileRows2 (n := 3) PD (tileOf2 _)) (tileRows2 (n := 128) FT (tileOf2 _)) Wb bb
    (ix2 (n0 := 424) (n1 := 2048) ⟨(424 * t.val + p.val) % 424, Nat.mod_lt _ (by decide)⟩ q) = _
  rw [ht, hi]

end Cert.KernelIdeal.KerRegions

end
-- ==== Proof.KerRegionsEdge4.lean ====
/-
  THE THIRD MONTE-CARLO CONVOLUTION'S EDGE ARRAY (region 4) AS ONE FUNCTION OF ITS FIVE INPUT ARRAYS.

  The edge kernel works on tiles of 224 consecutive edges (rows): tile `t` (of 5) is rows `224 t … 224 t + 223` of each
  of the three per-edge arrays (the two gathered position arrays [1120, 3] and the gathered feature array [1120, 256]), and
  the small weight [3, 16] and bias [1, 16] are the same for every tile.  From those five blocks the body computes one
  [224, 4096] block (`out4_5` of the imported frame; `out4_5_eq` below says it is the one store's payload of the loaded
  blocks).  The whole [1120, 4096] result is therefore ONE function of the five arrays: its entry at row `e`, column `q`
  is the body's block for tile `e / 224` at row `e % 224`, column `q`  (`edge4`; `edge4_apply` reads it at row
  `224 t + p`).
-/
import proofs.«105096_j6674379178666_1_alg».proof.Proof.Gen.KernelIdeal.Frame
import proofs.«105096_j6674379178666_1_alg».proof.Proof.KerRegionsBase
import Idealize.ShloMosaic.Lib.Pipeline.Value
import Idealize.ShloMosaic.Lib.ValueIdx

noncomputable section

namespace Cert.KernelIdeal.KerRegions

open Cert.KernelIdeal Cert.KernelIdeal.Gen Idealize.ShloMosaic Idealize.ShloMosaic.ValueIdx

/-- The body's block is the payload of its one whole-buffer store over the five whole-buffer loads. -/
theorem out4_5_eq (x0 x1 : Vec Ideal S224x3 .f32) (x2 : Vec Ideal S224x256 .f32) (x3 : Vec Ideal S3x16 .f32) (x4 : Vec Ideal S1x16 .f32) :
    out4_5 (F := Ideal) x0 x1 x2 x3 x4
      = k4_pay1 (F := Ideal) (k4_pay2 x0 x1 x3 x4) (k4_pay3 x2) (k4_pay4 x0 x1 x3 x4 x2) (k4_pay5 x0 x1 x3 x4 x2) (k4_pay6 x0 x1 x3 x4 x2) (k4_pay7 x0 x1 x3 x4 x2) (k4_pay8 x0 x1 x3 x4 x2) (k4_pay9 x0 x1 x3 x4 x2) (k4_pay10 x0 x1 x3 x4 x2) (k4_pay11 x0 x1 x3 x4) := by
  unfold out4_5
  rw [View.canon_unit_zero zero2]
  simp only [View.ld_unit_zero (S := S224x3) zero2, View.ld_unit_zero (S := S224x256) zero2, View.ld_unit_zero (S := S3x16) zero2,
    View.ld_unit_zero (S := S1x16) zero2]

/-- Rows `224 t … 224 t + 223` of an array of 1120 rows, as a block of 224 rows. -/
def tileRows4 {n : Nat} (A : FVec Ideal (⟨2, ![1120, n]⟩ : Shape) .f32) (t : Fin 5) : FVec Ideal (⟨2, ![224, n]⟩ : Shape) .f32 :=
  fun y => A (ix2 (n0 := 1120) (n1 := n) ⟨224 * t.val + (y 0).val, by have := idx2_lt0 y; have := t.isLt; omega⟩ (y 1))

/-- The block at row `p`, column `q` is the array at row `224 t + p`, column `q`. -/
theorem tileRows4_apply {n : Nat} (A : FVec Ideal (⟨2, ![1120, n]⟩ : Shape) .f32) (t : Fin 5) (p : Fin 224) (q : Fin n) :
    tileRows4 A t (ix2 p q) = A (ix2 (n0 := 1120) (n1 := n) ⟨224 * t.val + p.val, by have := t.isLt; have := p.isLt; omega⟩ q) := rfl

/-- The tile a row of the result lies in. -/
def tileOf4 (j : S1120x4096.Idx) : Fin 5 := ⟨(j 0).val / 224, by have := idx2_lt0 j; omega⟩

/-- THE RESULT as one function of the five arrays: at row `e`, the body's block for tile `e / 224`, at row `e % 224`. -/
def edge4 (PS PD : FVec Ideal S1120x3 .f32) (FT : FVec Ideal S1120x256 .f32) (Wb : FVec Ideal S3x16 .f32) (bb : FVec Ideal S1x16 .f32) :
    FVec Ideal S1120x4096 .f32 :=
  fun j => out4_5 (F := Ideal) (tileRows4 (n := 3) PS (tileOf4 j)) (tileRows4 (n := 3) PD (tileOf4 j)) (tileRows4 (n := 256) FT (tileOf4 j)) Wb bb
    (ix2 (n0 := 224) (n1 := 4096) ⟨(j 0).val % 224, Nat.mod_lt _ (by decide)⟩ (j 1))

/-- The result at row `224 t + p`, column `q`: tile `t`'s block at row `p`, column `q`. -/
theorem edge4_apply (PS PD : FVec Ideal S1120x3 .f32) (FT : FVec Ideal S1120x256 .f32) (Wb : FVec Ideal S3x16 .f32) (bb : FVec Ideal S1x16 .f32)
    (t : Fin 5) (p : Fin 224) (q : Fin 4096) :
    edge4 PS PD FT Wb bb (ix2 (n0 := 1120) (n1 := 4096) ⟨224 * t.val + p.val, by have := t.isLt; have := p.isLt; omega⟩ q)
      = out4_5 (F := Ideal) (tileRows4 (n := 3) PS t) (tileRows4 (n := 3) PD t) (tileRows4 (n := 256) FT t) Wb bb (ix2 p q) := by
  have hp := p.isLt
  have ht : tileOf4 (ix2 (n0 := 1120) (n1 := 4096) ⟨224 * t.val + p.val, by have := t.isLt; omega⟩ q) = t :=
    Fin.ext (by show (224 * t.val + p.val) / 224 = t.val; omega)
  have hi : (ix2 (n0 := 224) (n1 := 4096) ⟨(224 * t.val + p.val) % 224, Nat.mod_lt _ (by decide)⟩ q) = ix2 p q := by
    funext a
    match a with
    | ⟨0, _⟩ => exact Fin.ext (by show (224 * t.val + p.val) % 224 = p.val; omega)
    | ⟨1, _⟩ => rfl
  show out4_5 (F := Ideal) (tileRows4 (n := 3) PS (tileOf4 _)) (tileRows4 (n := 3) PD (tileOf4 _)) (tileRows4 (n := 256) FT (tileOf4 _)) Wb bb
    (ix2 (n0 := 224) (n1 := 4096) ⟨(224 * t.val + p.val) % 224, Nat.mod_lt _ (by decide)⟩ q) = _
  rw [ht, hi]

end Cert.KernelIdeal.KerRegions

end
-- ==== Proof.RefSpec.lean ====
/- The reference network cut at its seven natural boundaries, each stretch a pure function of arrays, at any float instance F (read at F := Ideal by the proofs):
   agg_i — level i's Monte-Carlo aggregate: the offsets of gathered positions divided by the radius, the 3x16 basis
   layer with leaky-relu 0.2, the outer product with the gathered feature, summed per destination point and divided by
   max(count, 1), flattened to [M, 16*Cin]; dense_i — the projection by Wc_i, batch normalisation over the M points
   (mean, centred second moment, rsqrt(var + 1e-3), scale and shift) and leaky-relu 0.3; head — the same with the
   dense bias. The network is head ∘ dense2 ∘ agg2 ∘ dense1 ∘ agg1 ∘ dense0 ∘ agg0. -/
import proofs.«105096_j6674379178666_1_alg».proof.ReferenceIdeal
import Idealize.ShloMosaic.PureOps.Ideal

noncomputable section

namespace Cert.Bridge.RefSpec

open Cert.ReferenceIdeal Idealize.ShloMosaic Idealize.ShloMosaic.TcCoe Idealize.SL.Sem
open Cert.ReferenceIdeal.Facts₀ Cert.ReferenceIdeal.Facts

variable {F : FTy → Type} [FloatOps F] [Facts]

/-- The operations of the reference's private function @where, in its order. -/
def f_where (arg0 : (⟨S980628x16, .i1⟩ : BufTy).Contents (Elt F)) (arg1 : (⟨S980628x16, .f32⟩ : BufTy).Contents (Elt F)) (arg2 : (⟨S980628x16, .f32⟩ : BufTy).Contents (Elt F)) : (⟨S980628x16, .f32⟩ : BufTy).Contents (Elt F) :=
  have v0 : (⟨S980628x16, .f32⟩ : BufTy).Contents (Elt F) := ((select) : (⟨S980628x16, .i1⟩ : BufTy).Contents (Elt F) → (⟨S980628x16, .f32⟩ : BufTy).Contents (Elt F) → (⟨S980628x16, .f32⟩ : BufTy).Contents (Elt F) → (⟨S980628x16, .f32⟩ : BufTy).Contents (Elt F)) arg0 arg1 arg2
  v0

/-- The operations of the reference's private function @leaky_relu, in its order. -/
def f_leaky_relu (arg0 : (⟨S980628x16, .f32⟩ : BufTy).Contents (Elt F)) (arg1 : (⟨S_, .f32⟩ : BufTy).Contents (Elt F)) : (⟨S980628x16, .f32⟩ : BufTy).Contents (Elt F) :=
  have cst : (⟨S_, .f32⟩ : BufTy).Contents (Elt F) := (constant S_ .f32 0x00000000#32)
  have v0 : (⟨S980628x16, .f32⟩ : BufTy).Contents (Elt F) := (((broadcastInDim S980628x16 ![] bcast_S_S980628x16)) : (⟨S_, .f32⟩ : BufTy).Contents (Elt F) → (⟨S980628x16, .f32⟩ : BufTy).Contents (Elt F)) cst
  have v1 : (⟨S980628x16, .i1⟩ : BufTy).Contents (Elt F) := (((cmpf .oge)) : (⟨S980628x16, .f32⟩ : BufTy).Contents (Elt F) → (⟨S980628x16, .f32⟩ : BufTy).Contents (Elt F) → (⟨S980628x16, .i1⟩ : BufTy).Contents (Elt F)) arg0 v0
  have v2 : (⟨S_, .f32⟩ : BufTy).Contents (Elt F) := ((id) : (⟨S_, .f32⟩ : BufTy).Contents (Elt F) → (⟨S_, .f32⟩ : BufTy).Contents (Elt F)) arg1
  have v3 : (⟨S980628x16, .f32⟩ : BufTy).Contents (Elt F) := (((broadcastInDim S980628x16 ![] bcast_S_S980628x16)) : (⟨S_, .f32⟩ : BufTy).Contents (Elt F) → (⟨S980628x16, .f32⟩ : BufTy).Contents (Elt F)) v2
  have v4 : (⟨S980628x16, .f32⟩ : BufTy).Contents (Elt F) := ((mulf) : (⟨S980628x16, .f32⟩ : BufTy).Contents (Elt F) → (⟨S980628x16, .f32⟩ : BufTy).Contents (Elt F) → (⟨S980628x16, .f32⟩ : BufTy).Contents (Elt F)) v3 arg0
  have call0 : (⟨S980628x16, .f32⟩ : BufTy).Contents (Elt F) := f_where v1 arg0 v4
  call0

/-- The operations of the reference's private function @where_0, in its order. -/
def f_where_0 (arg0 : (⟨S_, .i1⟩ : BufTy).Contents (Elt F)) (arg1 : (⟨S1x128, .f32⟩ : BufTy).Contents (Elt F)) (arg2 : (⟨S_, .f32⟩ : BufTy).Contents (Elt F)) : (⟨S1x128, .f32⟩ : BufTy).Contents (Elt F) :=
  have v0 : (⟨S_, .f32⟩ : BufTy).Contents (Elt F) := ((id) : (⟨S_, .f32⟩ : BufTy).Contents (Elt F) → (⟨S_, .f32⟩ : BufTy).Contents (Elt F)) arg2
  have v1 : (⟨S1x128, .f32⟩ : BufTy).Contents (Elt F) := (((broadcastInDim S1x128 ![] bcast_S_S1x128)) : (⟨S_, .f32⟩ : BufTy).Contents (Elt F) → (⟨S1x128, .f32⟩ : BufTy).Contents (Elt F)) v0
  have v2 : (⟨S1x128, .f32⟩ : BufTy).Contents (Elt F) := (((fun p a b => select (broadcastInDim S1x128 ![] bcast_S_S1x128 p) a b)) : (⟨S_, .i1⟩ : BufTy).Contents (Elt F) → (⟨S1x128, .f32⟩ : BufTy).Contents (Elt F) → (⟨S1x128, .f32⟩ : BufTy).Contents (Elt F) → (⟨S1x128, .f32⟩ : BufTy).Contents (Elt F)) arg0 arg1 v1
  v2

/-- The operations of the reference's private function @var, in its order. -/
def f_var (arg0 : (⟨S8000x128, .f32⟩ : BufTy).Contents (Elt F)) (arg1 : (⟨S_, .i32⟩ : BufTy).Contents (Elt F)) : (⟨S1x128, .f32⟩ : BufTy).Contents (Elt F) :=
  have cst : (⟨S_, .f32⟩ : BufTy).Contents (Elt F) := (constant S_ .f32 0x00000000#32)
  have v0 : (⟨S128, .f32⟩ : BufTy).Contents (Elt F) := (((fun x v => Host.reduceAdd x v reducesTo_S8000x128_S128_d0 h_S_)) : (⟨S8000x128, .f32⟩ : BufTy).Contents (Elt F) → (⟨S_, .f32⟩ : BufTy).Contents (Elt F) → (⟨S128, .f32⟩ : BufTy).Contents (Elt F)) arg0 cst
  have v1 : (⟨S1x128, .f32⟩ : BufTy).Contents (Elt F) := (((broadcastInDim S1x128 ![1] bcast_S128_S1x128_1)) : (⟨S128, .f32⟩ : BufTy).Contents (Elt F) → (⟨S1x128, .f32⟩ : BufTy).Contents (Elt F)) v0
  have cst_0 : (⟨S_, .f32⟩ : BufTy).Contents (Elt F) := (constant S_ .f32 0x45FA0000#32)
  have v2 : (⟨S1x128, .f32⟩ : BufTy).Contents (Elt F) := (((broadcastInDim S1x128 ![] bcast_S_S1x128)) : (⟨S_, .f32⟩ : BufTy).Contents (Elt F) → (⟨S1x128, .f32⟩ : BufTy).Contents (Elt F)) cst_0
  have v3 : (⟨S1x128, .f32⟩ : BufTy).Contents (Elt F) := ((Host.divf) : (⟨S1x128, .f32⟩ : BufTy).Contents (Elt F) → (⟨S1x128, .f32⟩ : BufTy).Contents (Elt F) → (⟨S1x128, .f32⟩ : BufTy).Contents (Elt F)) v1 v2
  have v4 : (⟨S8000x128, .f32⟩ : BufTy).Contents (Elt F) := (((broadcastInDim S8000x128 ![0, 1] bcast_S1x128_S8000x128_0_1)) : (⟨S1x128, .f32⟩ : BufTy).Contents (Elt F) → (⟨S8000x128, .f32⟩ : BufTy).Contents (Elt F)) v3
  have v5 : (⟨S8000x128, .f32⟩ : BufTy).Contents (Elt F) := ((subf) : (⟨S8000x128, .f32⟩ : BufTy).Contents (Elt F) → (⟨S8000x128, .f32⟩ : BufTy).Contents (Elt F) → (⟨S8000x128, .f32⟩ : BufTy).Contents (Elt F)) arg0 v4
  have v6 : (⟨S8000x128, .f32⟩ : BufTy).Contents (Elt F) := ((mulf) : (⟨S8000x128, .f32⟩ : BufTy).Contents (Elt F) → (⟨S8000x128, .f32⟩ : BufTy).Contents (Elt F) → (⟨S8000x128, .f32⟩ : BufTy).Contents (Elt F)) v5 v5
  have v7 : (⟨S_, .f32⟩ : BufTy).Contents (Elt F) := (((sitofp .f32)) : (⟨S_, .i32⟩ : BufTy).Contents (Elt F) → (⟨S_, .f32⟩ : BufTy).Contents (Elt F)) arg1
  have cst_1 : (⟨S_, .f32⟩ : BufTy).Contents (Elt F) := (constant S_ .f32 0x45FA0000#32)
  have v8 : (⟨S_, .f32⟩ : BufTy).Contents (Elt F) := ((subf) : (⟨S_, .f32⟩ : BufTy).Contents (Elt F) → (⟨S_, .f32⟩ : BufTy).Contents (Elt F) → (⟨S_, .f32⟩ : BufTy).Contents (Elt F)) cst_1 v7
  have cst_2 : (⟨S_, .f32⟩ : BufTy).Contents (Elt F) := (constant S_ .f32 0x00000000#32)
  have v9 : (⟨S128, .f32⟩ : BufTy).Contents (Elt F) := (((fun x v => Host.reduceAdd x v reducesTo_S8000x128_S128_d0 h_S_)) : (⟨S8000x128, .f32⟩ : BufTy).Contents (Elt F) → (⟨S_, .f32⟩ : BufTy).Contents (Elt F) → (⟨S128, .f32⟩ : BufTy).Contents (Elt F)) v6 cst_2
  have v10 : (⟨S1x128, .f32⟩ : BufTy).Contents (Elt F) := (((broadcastInDim S1x128 ![1] bcast_S128_S1x128_1)) : (⟨S128, .f32⟩ : BufTy).Contents (Elt F) → (⟨S1x128, .f32⟩ : BufTy).Contents (Elt F)) v9
  have v11 : (⟨S1x128, .f32⟩ : BufTy).Contents (Elt F) := (((broadcastInDim S1x128 ![] bcast_S_S1x128)) : (⟨S_, .f32⟩ : BufTy).Contents (Elt F) → (⟨S1x128, .f32⟩ : BufTy).Contents (Elt F)) v8
  have v12 : (⟨S1x128, .f32⟩ : BufTy).Contents (Elt F) := ((Host.divf) : (⟨S1x128, .f32⟩ : BufTy).Contents (Elt F) → (⟨S1x128, .f32⟩ : BufTy).Contents (Elt F) → (⟨S1x128, .f32⟩ : BufTy).Contents (Elt F)) v10 v11
  have cst_3 : (⟨S_, .f32⟩ : BufTy).Contents (Elt F) := (constant S_ .f32 0x00000000#32)
  have v13 : (⟨S_, .i1⟩ : BufTy).Contents (Elt F) := (((cmpf .ogt)) : (⟨S_, .f32⟩ : BufTy).Contents (Elt F) → (⟨S_, .f32⟩ : BufTy).Contents (Elt F) → (⟨S_, .i1⟩ : BufTy).Contents (Elt F)) v8 cst_3
  have cst_4 : (⟨S_, .f32⟩ : BufTy).Contents (Elt F) := (constant S_ .f32 0x7FC00000#32)
  have call0 : (⟨S1x128, .f32⟩ : BufTy).Contents (Elt F) := f_where_0 v13 v12 cst_4
  call0

/-- The operations of the reference's private function @where_2, in its order. -/
def f_where_2 (arg0 : (⟨S8000x128, .i1⟩ : BufTy).Contents (Elt F)) (arg1 : (⟨S8000x128, .f32⟩ : BufTy).Contents (Elt F)) (arg2 : (⟨S8000x128, .f32⟩ : BufTy).Contents (Elt F)) : (⟨S8000x128, .f32⟩ : BufTy).Contents (Elt F) :=
  have v0 : (⟨S8000x128, .f32⟩ : BufTy).Contents (Elt F) := ((select) : (⟨S8000x128, .i1⟩ : BufTy).Contents (Elt F) → (⟨S8000x128, .f32⟩ : BufTy).Contents (Elt F) → (⟨S8000x128, .f32⟩ : BufTy).Contents (Elt F) → (⟨S8000x128, .f32⟩ : BufTy).Contents (Elt F)) arg0 arg1 arg2
  v0

/-- The operations of the reference's private function @leaky_relu_1, in its order. -/
def f_leaky_relu_1 (arg0 : (⟨S8000x128, .f32⟩ : BufTy).Contents (Elt F)) (arg1 : (⟨S_, .f32⟩ : BufTy).Contents (Elt F)) : (⟨S8000x128, .f32⟩ : BufTy).Contents (Elt F) :=
  have cst : (⟨S_, .f32⟩ : BufTy).Contents (Elt F) := (constant S_ .f32 0x00000000#32)
  have v0 : (⟨S8000x128, .f32⟩ : BufTy).Contents (Elt F) := (((broadcastInDim S8000x128 ![] bcast_S_S8000x128)) : (⟨S_, .f32⟩ : BufTy).Contents (Elt F) → (⟨S8000x128, .f32⟩ : BufTy).Contents (Elt F)) cst
  have v1 : (⟨S8000x128, .i1⟩ : BufTy).Contents (Elt F) := (((cmpf .oge)) : (⟨S8000x128, .f32⟩ : BufTy).Contents (Elt F) → (⟨S8000x128, .f32⟩ : BufTy).Contents (Elt F) → (⟨S8000x128, .i1⟩ : BufTy).Contents (Elt F)) arg0 v0
  have v2 : (⟨S_, .f32⟩ : BufTy).Contents (Elt F) := ((id) : (⟨S_, .f32⟩ : BufTy).Contents (Elt F) → (⟨S_, .f32⟩ : BufTy).Contents (Elt F)) arg1
  have v3 : (⟨S8000x128, .f32⟩ : BufTy).Contents (Elt F) := (((broadcastInDim S8000x128 ![] bcast_S_S8000x128)) : (⟨S_, .f32⟩ : BufTy).Contents (Elt F) → (⟨S8000x128, .f32⟩ : BufTy).Contents (Elt F)) v2
  have v4 : (⟨S8000x128, .f32⟩ : BufTy).Contents (Elt F) := ((mulf) : (⟨S8000x128, .f32⟩ : BufTy).Contents (Elt F) → (⟨S8000x128, .f32⟩ : BufTy).Contents (Elt F) → (⟨S8000x128, .f32⟩ : BufTy).Contents (Elt F)) v3 arg0
  have call0 : (⟨S8000x128, .f32⟩ : BufTy).Contents (Elt F) := f_where_2 v1 arg0 v4
  call0

/-- The operations of the reference's private function @where_4, in its order. -/
def f_where_4 (arg0 : (⟨S26578x16, .i1⟩ : BufTy).Contents (Elt F)) (arg1 : (⟨S26578x16, .f32⟩ : BufTy).Contents (Elt F)) (arg2 : (⟨S26578x16, .f32⟩ : BufTy).Contents (Elt F)) : (⟨S26578x16, .f32⟩ : BufTy).Contents (Elt F) :=
  have v0 : (⟨S26578x16, .f32⟩ : BufTy).Contents (Elt F) := ((select) : (⟨S26578x16, .i1⟩ : BufTy).Contents (Elt F) → (⟨S26578x16, .f32⟩ : BufTy).Contents (Elt F) → (⟨S26578x16, .f32⟩ : BufTy).Contents (Elt F) → (⟨S26578x16, .f32⟩ : BufTy).Contents (Elt F)) arg0 arg1 arg2
  v0

/-- The operations of the reference's private function @leaky_relu_3, in its order. -/
def f_leaky_relu_3 (arg0 : (⟨S26578x16, .f32⟩ : BufTy).Contents (Elt F)) (arg1 : (⟨S_, .f32⟩ : BufTy).Contents (Elt F)) : (⟨S26578x16, .f32⟩ : BufTy).Contents (Elt F) :=
  have cst : (⟨S_, .f32⟩ : BufTy).Contents (Elt F) := (constant S_ .f32 0x00000000#32)
  have v0 : (⟨S26578x16, .f32⟩ : BufTy).Contents (Elt F) := (((broadcastInDim S26578x16 ![] bcast_S_S26578x16)) : (⟨S_, .f32⟩ : BufTy).Contents (Elt F) → (⟨S26578x16, .f32⟩ : BufTy).Contents (Elt F)) cst
  have v1 : (⟨S26578x16, .i1⟩ : BufTy).Contents (Elt F) := (((cmpf .oge)) : (⟨S26578x16, .f32⟩ : BufTy).Contents (Elt F) → (⟨S26578x16, .f32⟩ : BufTy).Contents (Elt F) → (⟨S26578x16, .i1⟩ : BufTy).Contents (Elt F)) arg0 v0
  have v2 : (⟨S_, .f32⟩ : BufTy).Contents (Elt F) := ((id) : (⟨S_, .f32⟩ : BufTy).Contents (Elt F) → (⟨S_, .f32⟩ : BufTy).Contents (Elt F)) arg1
  have v3 : (⟨S26578x16, .f32⟩ : BufTy).Contents (Elt F) := (((broadcastInDim S26578x16 ![] bcast_S_S26578x16)) : (⟨S_, .f32⟩ : BufTy).Contents (Elt F) → (⟨S26578x16, .f32⟩ : BufTy).Contents (Elt F)) v2
  have v4 : (⟨S26578x16, .f32⟩ : BufTy).Contents (Elt F) := ((mulf) : (⟨S26578x16, .f32⟩ : BufTy).Contents (Elt F) → (⟨S26578x16, .f32⟩ : BufTy).Contents (Elt F) → (⟨S26578x16, .f32⟩ : BufTy).Contents (Elt F)) v3 arg0
  have call0 : (⟨S26578x16, .f32⟩ : BufTy).Contents (Elt F) := f_where_4 v1 arg0 v4
  call0

/-- The operations of the reference's private function @where_6, in its order. -/
def f_where_6 (arg0 : (⟨S_, .i1⟩ : BufTy).Contents (Elt F)) (arg1 : (⟨S1x256, .f32⟩ : BufTy).Contents (Elt F)) (arg2 : (⟨S_, .f32⟩ : BufTy).Contents (Elt F)) : (⟨S1x256, .f32⟩ : BufTy).Contents (Elt F) :=
  have v0 : (⟨S_, .f32⟩ : BufTy).Contents (Elt F) := ((id) : (⟨S_, .f32⟩ : BufTy).Contents (Elt F) → (⟨S_, .f32⟩ : BufTy).Contents (Elt F)) arg2
  have v1 : (⟨S1x256, .f32⟩ : BufTy).Contents (Elt F) := (((broadcastInDim S1x256 ![] bcast_S_S1x256)) : (⟨S_, .f32⟩ : BufTy).Contents (Elt F) → (⟨S1x256, .f32⟩ : BufTy).Contents (Elt F)) v0
  have v2 : (⟨S1x256, .f32⟩ : BufTy).Contents (Elt F) := (((fun p a b => select (broadcastInDim S1x256 ![] bcast_S_S1x256 p) a b)) : (⟨S_, .i1⟩ : BufTy).Contents (Elt F) → (⟨S1x256, .f32⟩ : BufTy).Contents (Elt F) → (⟨S1x256, .f32⟩ : BufTy).Contents (Elt F) → (⟨S1x256, .f32⟩ : BufTy).Contents (Elt F)) arg0 arg1 v1
  v2

/-- The operations of the reference's private function @var_5, in its order. -/
def f_var_5 (arg0 : (⟨S1000x256, .f32⟩ : BufTy).Contents (Elt F)) (arg1 : (⟨S_, .i32⟩ : BufTy).Contents (Elt F)) : (⟨S1x256, .f32⟩ : BufTy).Contents (Elt F) :=
  have cst : (⟨S_, .f32⟩ : BufTy).Contents (Elt F) := (constant S_ .f32 0x00000000#32)
  have v0 : (⟨S256, .f32⟩ : BufTy).Contents (Elt F) := (((fun x v => Host.reduceAdd x v reducesTo_S1000x256_S256_d0 h_S_)) : (⟨S1000x256, .f32⟩ : BufTy).Contents (Elt F) → (⟨S_, .f32⟩ : BufTy).Contents (Elt F) → (⟨S256, .f32⟩ : BufTy).Contents (Elt F)) arg0 cst
  have v1 : (⟨S1x256, .f32⟩ : BufTy).Contents (Elt F) := (((broadcastInDim S1x256 ![1] bcast_S256_S1x256_1)) : (⟨S256, .f32⟩ : BufTy).Contents (Elt F) → (⟨S1x256, .f32⟩ : BufTy).Contents (Elt F)) v0
  have cst_0 : (⟨S_, .f32⟩ : BufTy).Contents (Elt F) := (constant S_ .f32 0x447A0000#32)
  have v2 : (⟨S1x256, .f32⟩ : BufTy).Contents (Elt F) := (((broadcastInDim S1x256 ![] bcast_S_S1x256)) : (⟨S_, .f32⟩ : BufTy).Contents (Elt F) → (⟨S1x256, .f32⟩ : BufTy).Contents (Elt F)) cst_0
  have v3 : (⟨S1x256, .f32⟩ : BufTy).Contents (Elt F) := ((Host.divf) : (⟨S1x256, .f32⟩ : BufTy).Contents (Elt F) → (⟨S1x256, .f32⟩ : BufTy).Contents (Elt F) → (⟨S1x256, .f32⟩ : BufTy).Contents (Elt F)) v1 v2
  have v4 : (⟨S1000x256, .f32⟩ : BufTy).Contents (Elt F) := (((broadcastInDim S1000x256 ![0, 1] bcast_S1x256_S1000x256_0_1)) : (⟨S1x256, .f32⟩ : BufTy).Contents (Elt F) → (⟨S1000x256, .f32⟩ : BufTy).Contents (Elt F)) v3
  have v5 : (⟨S1000x256, .f32⟩ : BufTy).Contents (Elt F) := ((subf) : (⟨S1000x256, .f32⟩ : BufTy).Contents (Elt F) → (⟨S1000x256, .f32⟩ : BufTy).Contents (Elt F) → (⟨S1000x256, .f32⟩ : BufTy).Contents (Elt F)) arg0 v4
  have v6 : (⟨S1000x256, .f32⟩ : BufTy).Contents (Elt F) := ((mulf) : (⟨S1000x256, .f32⟩ : BufTy).Contents (Elt F) → (⟨S1000x256, .f32⟩ : BufTy).Contents (Elt F) → (⟨S1000x256, .f32⟩ : BufTy).Contents (Elt F)) v5 v5
  have v7 : (⟨S_, .f32⟩ : BufTy).Contents (Elt F) := (((sitofp .f32)) : (⟨S_, .i32⟩ : BufTy).Contents (Elt F) → (⟨S_, .f32⟩ : BufTy).Contents (Elt F)) arg1
  have cst_1 : (⟨S_, .f32⟩ : BufTy).Contents (Elt F) := (constant S_ .f32 0x447A0000#32)
  have v8 : (⟨S_, .f32⟩ : BufTy).Contents (Elt F) := ((subf) : (⟨S_, .f32⟩ : BufTy).Contents (Elt F) → (⟨S_, .f32⟩ : BufTy).Contents (Elt F) → (⟨S_, .f32⟩ : BufTy).Contents (Elt F)) cst_1 v7
  have cst_2 : (⟨S_, .f32⟩ : BufTy).Contents (Elt F) := (constant S_ .f32 0x00000000#32)
  have v9 : (⟨S256, .f32⟩ : BufTy).Contents (Elt F) := (((fun x v => Host.reduceAdd x v reducesTo_S1000x256_S256_d0 h_S_)) : (⟨S1000x256, .f32⟩ : BufTy).Contents (Elt F) → (⟨S_, .f32⟩ : BufTy).Contents (Elt F) → (⟨S256, .f32⟩ : BufTy).Contents (Elt F)) v6 cst_2
  have v10 : (⟨S1x256, .f32⟩ : BufTy).Contents (Elt F) := (((broadcastInDim S1x256 ![1] bcast_S256_S1x256_1)) : (⟨S256, .f32⟩ : BufTy).Contents (Elt F) → (⟨S1x256, .f32⟩ : BufTy).Contents (Elt F)) v9
  have v11 : (⟨S1x256, .f32⟩ : BufTy).Contents (Elt F) := (((broadcastInDim S1x256 ![] bcast_S_S1x256)) : (⟨S_, .f32⟩ : BufTy).Contents (Elt F) → (⟨S1x256, .f32⟩ : BufTy).Contents (Elt F)) v8
  have v12 : (⟨S1x256, .f32⟩ : BufTy).Contents (Elt F) := ((Host.divf) : (⟨S1x256, .f32⟩ : BufTy).Contents (Elt F) → (⟨S1x256, .f32⟩ : BufTy).Contents (Elt F) → (⟨S1x256, .f32⟩ : BufTy).Contents (Elt F)) v10 v11
  have cst_3 : (⟨S_, .f32⟩ : BufTy).Contents (Elt F) := (constant S_ .f32 0x00000000#32)
  have v13 : (⟨S_, .i1⟩ : BufTy).Contents (Elt F) := (((cmpf .ogt)) : (⟨S_, .f32⟩ : BufTy).Contents (Elt F) → (⟨S_, .f32⟩ : BufTy).Contents (Elt F) → (⟨S_, .i1⟩ : BufTy).Contents (Elt F)) v8 cst_3
  have cst_4 : (⟨S_, .f32⟩ : BufTy).Contents (Elt F) := (constant S_ .f32 0x7FC00000#32)
  have call0 : (⟨S1x256, .f32⟩ : BufTy).Contents (Elt F) := f_where_6 v13 v12 cst_4
  call0

/-- The operations of the reference's private function @where_8, in its order. -/
def f_where_8 (arg0 : (⟨S1000x256, .i1⟩ : BufTy).Contents (Elt F)) (arg1 : (⟨S1000x256, .f32⟩ : BufTy).Contents (Elt F)) (arg2 : (⟨S1000x256, .f32⟩ : BufTy).Contents (Elt F)) : (⟨S1000x256, .f32⟩ : BufTy).Contents (Elt F) :=
  have v0 : (⟨S1000x256, .f32⟩ : BufTy).Contents (Elt F) := ((select) : (⟨S1000x256, .i1⟩ : BufTy).Contents (Elt F) → (⟨S1000x256, .f32⟩ : BufTy).Contents (Elt F) → (⟨S1000x256, .f32⟩ : BufTy).Contents (Elt F) → (⟨S1000x256, .f32⟩ : BufTy).Contents (Elt F)) arg0 arg1 arg2
  v0

/-- The operations of the reference's private function @leaky_relu_7, in its order. -/
def f_leaky_relu_7 (arg0 : (⟨S1000x256, .f32⟩ : BufTy).Contents (Elt F)) (arg1 : (⟨S_, .f32⟩ : BufTy).Contents (Elt F)) : (⟨S1000x256, .f32⟩ : BufTy).Contents (Elt F) :=
  have cst : (⟨S_, .f32⟩ : BufTy).Contents (Elt F) := (constant S_ .f32 0x00000000#32)
  have v0 : (⟨S1000x256, .f32⟩ : BufTy).Contents (Elt F) := (((broadcastInDim S1000x256 ![] bcast_S_S1000x256)) : (⟨S_, .f32⟩ : BufTy).Contents (Elt F) → (⟨S1000x256, .f32⟩ : BufTy).Contents (Elt F)) cst
  have v1 : (⟨S1000x256, .i1⟩ : BufTy).Contents (Elt F) := (((cmpf .oge)) : (⟨S1000x256, .f32⟩ : BufTy).Contents (Elt F) → (⟨S1000x256, .f32⟩ : BufTy).Contents (Elt F) → (⟨S1000x256, .i1⟩ : BufTy).Contents (Elt F)) arg0 v0
  have v2 : (⟨S_, .f32⟩ : BufTy).Contents (Elt F) := ((id) : (⟨S_, .f32⟩ : BufTy).Contents (Elt F) → (⟨S_, .f32⟩ : BufTy).Contents (Elt F)) arg1
  have v3 : (⟨S1000x256, .f32⟩ : BufTy).Contents (Elt F) := (((broadcastInDim S1000x256 ![] bcast_S_S1000x256)) : (⟨S_, .f32⟩ : BufTy).Contents (Elt F) → (⟨S1000x256, .f32⟩ : BufTy).Contents (Elt F)) v2
  have v4 : (⟨S1000x256, .f32⟩ : BufTy).Contents (Elt F) := ((mulf) : (⟨S1000x256, .f32⟩ : BufTy).Contents (Elt F) → (⟨S1000x256, .f32⟩ : BufTy).Contents (Elt F) → (⟨S1000x256, .f32⟩ : BufTy).Contents (Elt F)) v3 arg0
  have call0 : (⟨S1000x256, .f32⟩ : BufTy).Contents (Elt F) := f_where_8 v1 arg0 v4
  call0

/-- The operations of the reference's private function @where_10, in its order. -/
def f_where_10 (arg0 : (⟨S1000x16, .i1⟩ : BufTy).Contents (Elt F)) (arg1 : (⟨S1000x16, .f32⟩ : BufTy).Contents (Elt F)) (arg2 : (⟨S1000x16, .f32⟩ : BufTy).Contents (Elt F)) : (⟨S1000x16, .f32⟩ : BufTy).Contents (Elt F) :=
  have v0 : (⟨S1000x16, .f32⟩ : BufTy).Contents (Elt F) := ((select) : (⟨S1000x16, .i1⟩ : BufTy).Contents (Elt F) → (⟨S1000x16, .f32⟩ : BufTy).Contents (Elt F) → (⟨S1000x16, .f32⟩ : BufTy).Contents (Elt F) → (⟨S1000x16, .f32⟩ : BufTy).Contents (Elt F)) arg0 arg1 arg2
  v0

/-- The operations of the reference's private function @leaky_relu_9, in its order. -/
def f_leaky_relu_9 (arg0 : (⟨S1000x16, .f32⟩ : BufTy).Contents (Elt F)) (arg1 : (⟨S_, .f32⟩ : BufTy).Contents (Elt F)) : (⟨S1000x16, .f32⟩ : BufTy).Contents (Elt F) :=
  have cst : (⟨S_, .f32⟩ : BufTy).Contents (Elt F) := (constant S_ .f32 0x00000000#32)
  have v0 : (⟨S1000x16, .f32⟩ : BufTy).Contents (Elt F) := (((broadcastInDim S1000x16 ![] bcast_S_S1000x16)) : (⟨S_, .f32⟩ : BufTy).Contents (Elt F) → (⟨S1000x16, .f32⟩ : BufTy).Contents (Elt F)) cst
  have v1 : (⟨S1000x16, .i1⟩ : BufTy).Contents (Elt F) := (((cmpf .oge)) : (⟨S1000x16, .f32⟩ : BufTy).Contents (Elt F) → (⟨S1000x16, .f32⟩ : BufTy).Contents (Elt F) → (⟨S1000x16, .i1⟩ : BufTy).Contents (Elt F)) arg0 v0
  have v2 : (⟨S_, .f32⟩ : BufTy).Contents (Elt F) := ((id) : (⟨S_, .f32⟩ : BufTy).Contents (Elt F) → (⟨S_, .f32⟩ : BufTy).Contents (Elt F)) arg1
  have v3 : (⟨S1000x16, .f32⟩ : BufTy).Contents (Elt F) := (((broadcastInDim S1000x16 ![] bcast_S_S1000x16)) : (⟨S_, .f32⟩ : BufTy).Contents (Elt F) → (⟨S1000x16, .f32⟩ : BufTy).Contents (Elt F)) v2
  have v4 : (⟨S1000x16, .f32⟩ : BufTy).Contents (Elt F) := ((mulf) : (⟨S1000x16, .f32⟩ : BufTy).Contents (Elt F) → (⟨S1000x16, .f32⟩ : BufTy).Contents (Elt F) → (⟨S1000x16, .f32⟩ : BufTy).Contents (Elt F)) v3 arg0
  have call0 : (⟨S1000x16, .f32⟩ : BufTy).Contents (Elt F) := f_where_10 v1 arg0 v4
  call0

/-- The operations of the reference's private function @where_12, in its order. -/
def f_where_12 (arg0 : (⟨S_, .i1⟩ : BufTy).Contents (Elt F)) (arg1 : (⟨S1x512, .f32⟩ : BufTy).Contents (Elt F)) (arg2 : (⟨S_, .f32⟩ : BufTy).Contents (Elt F)) : (⟨S1x512, .f32⟩ : BufTy).Contents (Elt F) :=
  have v0 : (⟨S_, .f32⟩ : BufTy).Contents (Elt F) := ((id) : (⟨S_, .f32⟩ : BufTy).Contents (Elt F) → (⟨S_, .f32⟩ : BufTy).Contents (Elt F)) arg2
  have v1 : (⟨S1x512, .f32⟩ : BufTy).Contents (Elt F) := (((broadcastInDim S1x512 ![] bcast_S_S1x512)) : (⟨S_, .f32⟩ : BufTy).Contents (Elt F) → (⟨S1x512, .f32⟩ : BufTy).Contents (Elt F)) v0
  have v2 : (⟨S1x512, .f32⟩ : BufTy).Contents (Elt F) := (((fun p a b => select (broadcastInDim S1x512 ![] bcast_S_S1x512 p) a b)) : (⟨S_, .i1⟩ : BufTy).Contents (Elt F) → (⟨S1x512, .f32⟩ : BufTy).Contents (Elt F) → (⟨S1x512, .f32⟩ : BufTy).Contents (Elt F) → (⟨S1x512, .f32⟩ : BufTy).Contents (Elt F)) arg0 arg1 v1
  v2

/-- The operations of the reference's private function @var_11, in its order. -/
def f_var_11 (arg0 : (⟨S8x512, .f32⟩ : BufTy).Contents (Elt F)) (arg1 : (⟨S_, .i32⟩ : BufTy).Contents (Elt F)) : (⟨S1x512, .f32⟩ : BufTy).Contents (Elt F) :=
  have cst : (⟨S_, .f32⟩ : BufTy).Contents (Elt F) := (constant S_ .f32 0x00000000#32)
  have v0 : (⟨S512, .f32⟩ : BufTy).Contents (Elt F) := (((fun x v => Host.reduceAdd x v reducesTo_S8x512_S512_d0 h_S_)) : (⟨S8x512, .f32⟩ : BufTy).Contents (Elt F) → (⟨S_, .f32⟩ : BufTy).Contents (Elt F) → (⟨S512, .f32⟩ : BufTy).Contents (Elt F)) arg0 cst
  have v1 : (⟨S1x512, .f32⟩ : BufTy).Contents (Elt F) := (((broadcastInDim S1x512 ![1] bcast_S512_S1x512_1)) : (⟨S512, .f32⟩ : BufTy).Contents (Elt F) → (⟨S1x512, .f32⟩ : BufTy).Contents (Elt F)) v0
  have cst_0 : (⟨S_, .f32⟩ : BufTy).Contents (Elt F) := (constant S_ .f32 0x41000000#32)
  have v2 : (⟨S1x512, .f32⟩ : BufTy).Contents (Elt F) := (((broadcastInDim S1x512 ![] bcast_S_S1x512)) : (⟨S_, .f32⟩ : BufTy).Contents (Elt F) → (⟨S1x512, .f32⟩ : BufTy).Contents (Elt F)) cst_0
  have v3 : (⟨S1x512, .f32⟩ : BufTy).Contents (Elt F) := ((Host.divf) : (⟨S1x512, .f32⟩ : BufTy).Contents (Elt F) → (⟨S1x512, .f32⟩ : BufTy).Contents (Elt F) → (⟨S1x512, .f32⟩ : BufTy).Contents (Elt F)) v1 v2
  have v4 : (⟨S8x512, .f32⟩ : BufTy).Contents (Elt F) := (((broadcastInDim S8x512 ![0, 1] bcast_S1x512_S8x512_0_1)) : (⟨S1x512, .f32⟩ : BufTy).Contents (Elt F) → (⟨S8x512, .f32⟩ : BufTy).Contents (Elt F)) v3
  have v5 : (⟨S8x512, .f32⟩ : BufTy).Contents (Elt F) := ((subf) : (⟨S8x512, .f32⟩ : BufTy).Contents (Elt F) → (⟨S8x512, .f32⟩ : BufTy).Contents (Elt F) → (⟨S8x512, .f32⟩ : BufTy).Contents (Elt F)) arg0 v4
  have v6 : (⟨S8x512, .f32⟩ : BufTy).Contents (Elt F) := ((mulf) : (⟨S8x512, .f32⟩ : BufTy).Contents (Elt F) → (⟨S8x512, .f32⟩ : BufTy).Contents (Elt F) → (⟨S8x512, .f32⟩ : BufTy).Contents (Elt F)) v5 v5
  have v7 : (⟨S_, .f32⟩ : BufTy).Contents (Elt F) := (((sitofp .f32)) : (⟨S_, .i32⟩ : BufTy).Contents (Elt F) → (⟨S_, .f32⟩ : BufTy).Contents (Elt F)) arg1
  have cst_1 : (⟨S_, .f32⟩ : BufTy).Contents (Elt F) := (constant S_ .f32 0x41000000#32)
  have v8 : (⟨S_, .f32⟩ : BufTy).Contents (Elt F) := ((subf) : (⟨S_, .f32⟩ : BufTy).Contents (Elt F) → (⟨S_, .f32⟩ : BufTy).Contents (Elt F) → (⟨S_, .f32⟩ : BufTy).Contents (Elt F)) cst_1 v7
  have cst_2 : (⟨S_, .f32⟩ : BufTy).Contents (Elt F) := (constant S_ .f32 0x00000000#32)
  have v9 : (⟨S512, .f32⟩ : BufTy).Contents (Elt F) := (((fun x v => Host.reduceAdd x v reducesTo_S8x512_S512_d0 h_S_)) : (⟨S8x512, .f32⟩ : BufTy).Contents (Elt F) → (⟨S_, .f32⟩ : BufTy).Contents (Elt F) → (⟨S512, .f32⟩ : BufTy).Contents (Elt F)) v6 cst_2
  have v10 : (⟨S1x512, .f32⟩ : BufTy).Contents (Elt F) := (((broadcastInDim S1x512 ![1] bcast_S512_S1x512_1)) : (⟨S512, .f32⟩ : BufTy).Contents (Elt F) → (⟨S1x512, .f32⟩ : BufTy).Contents (Elt F)) v9
  have v11 : (⟨S1x512, .f32⟩ : BufTy).Contents (Elt F) := (((broadcastInDim S1x512 ![] bcast_S_S1x512)) : (⟨S_, .f32⟩ : BufTy).Contents (Elt F) → (⟨S1x512, .f32⟩ : BufTy).Contents (Elt F)) v8
  have v12 : (⟨S1x512, .f32⟩ : BufTy).Contents (Elt F) := ((Host.divf) : (⟨S1x512, .f32⟩ : BufTy).Contents (Elt F) → (⟨S1x512, .f32⟩ : BufTy).Contents (Elt F) → (⟨S1x512, .f32⟩ : BufTy).Contents (Elt F)) v10 v11
  have cst_3 : (⟨S_, .f32⟩ : BufTy).Contents (Elt F) := (constant S_ .f32 0x00000000#32)
  have v13 : (⟨S_, .i1⟩ : BufTy).Contents (Elt F) := (((cmpf .ogt)) : (⟨S_, .f32⟩ : BufTy).Contents (Elt F) → (⟨S_, .f32⟩ : BufTy).Contents (Elt F) → (⟨S_, .i1⟩ : BufTy).Contents (Elt F)) v8 cst_3
  have cst_4 : (⟨S_, .f32⟩ : BufTy).Contents (Elt F) := (constant S_ .f32 0x7FC00000#32)
  have call0 : (⟨S1x512, .f32⟩ : BufTy).Contents (Elt F) := f_where_12 v13 v12 cst_4
  call0

/-- The operations of the reference's private function @where_14, in its order. -/
def f_where_14 (arg0 : (⟨S8x512, .i1⟩ : BufTy).Contents (Elt F)) (arg1 : (⟨S8x512, .f32⟩ : BufTy).Contents (Elt F)) (arg2 : (⟨S8x512, .f32⟩ : BufTy).Contents (Elt F)) : (⟨S8x512, .f32⟩ : BufTy).Contents (Elt F) :=
  have v0 : (⟨S8x512, .f32⟩ : BufTy).Contents (Elt F) := ((select) : (⟨S8x512, .i1⟩ : BufTy).Contents (Elt F) → (⟨S8x512, .f32⟩ : BufTy).Contents (Elt F) → (⟨S8x512, .f32⟩ : BufTy).Contents (Elt F) → (⟨S8x512, .f32⟩ : BufTy).Contents (Elt F)) arg0 arg1 arg2
  v0

/-- The operations of the reference's private function @leaky_relu_13, in its order. -/
def f_leaky_relu_13 (arg0 : (⟨S8x512, .f32⟩ : BufTy).Contents (Elt F)) (arg1 : (⟨S_, .f32⟩ : BufTy).Contents (Elt F)) : (⟨S8x512, .f32⟩ : BufTy).Contents (Elt F) :=
  have cst : (⟨S_, .f32⟩ : BufTy).Contents (Elt F) := (constant S_ .f32 0x00000000#32)
  have v0 : (⟨S8x512, .f32⟩ : BufTy).Contents (Elt F) := (((broadcastInDim S8x512 ![] bcast_S_S8x512)) : (⟨S_, .f32⟩ : BufTy).Contents (Elt F) → (⟨S8x512, .f32⟩ : BufTy).Contents (Elt F)) cst
  have v1 : (⟨S8x512, .i1⟩ : BufTy).Contents (Elt F) := (((cmpf .oge)) : (⟨S8x512, .f32⟩ : BufTy).Contents (Elt F) → (⟨S8x512, .f32⟩ : BufTy).Contents (Elt F) → (⟨S8x512, .i1⟩ : BufTy).Contents (Elt F)) arg0 v0
  have v2 : (⟨S_, .f32⟩ : BufTy).Contents (Elt F) := ((id) : (⟨S_, .f32⟩ : BufTy).Contents (Elt F) → (⟨S_, .f32⟩ : BufTy).Contents (Elt F)) arg1
  have v3 : (⟨S8x512, .f32⟩ : BufTy).Contents (Elt F) := (((broadcastInDim S8x512 ![] bcast_S_S8x512)) : (⟨S_, .f32⟩ : BufTy).Contents (Elt F) → (⟨S8x512, .f32⟩ : BufTy).Contents (Elt F)) v2
  have v4 : (⟨S8x512, .f32⟩ : BufTy).Contents (Elt F) := ((mulf) : (⟨S8x512, .f32⟩ : BufTy).Contents (Elt F) → (⟨S8x512, .f32⟩ : BufTy).Contents (Elt F) → (⟨S8x512, .f32⟩ : BufTy).Contents (Elt F)) v3 arg0
  have call0 : (⟨S8x512, .f32⟩ : BufTy).Contents (Elt F) := f_where_14 v1 arg0 v4
  call0

/-- The operations of the reference's private function @var_15, in its order. -/
def f_var_15 (arg0 : (⟨S8x128, .f32⟩ : BufTy).Contents (Elt F)) (arg1 : (⟨S_, .i32⟩ : BufTy).Contents (Elt F)) : (⟨S1x128, .f32⟩ : BufTy).Contents (Elt F) :=
  have cst : (⟨S_, .f32⟩ : BufTy).Contents (Elt F) := (constant S_ .f32 0x00000000#32)
  have v0 : (⟨S128, .f32⟩ : BufTy).Contents (Elt F) := (((fun x v => Host.reduceAdd x v reducesTo_S8x128_S128_d0 h_S_)) : (⟨S8x128, .f32⟩ : BufTy).Contents (Elt F) → (⟨S_, .f32⟩ : BufTy).Contents (Elt F) → (⟨S128, .f32⟩ : BufTy).Contents (Elt F)) arg0 cst
  have v1 : (⟨S1x128, .f32⟩ : BufTy).Contents (Elt F) := (((broadcastInDim S1x128 ![1] bcast_S128_S1x128_1)) : (⟨S128, .f32⟩ : BufTy).Contents (Elt F) → (⟨S1x128, .f32⟩ : BufTy).Contents (Elt F)) v0
  have cst_0 : (⟨S_, .f32⟩ : BufTy).Contents (Elt F) := (constant S_ .f32 0x41000000#32)
  have v2 : (⟨S1x128, .f32⟩ : BufTy).Contents (Elt F) := (((broadcastInDim S1x128 ![] bcast_S_S1x128)) : (⟨S_, .f32⟩ : BufTy).Contents (Elt F) → (⟨S1x128, .f32⟩ : BufTy).Contents (Elt F)) cst_0
  have v3 : (⟨S1x128, .f32⟩ : BufTy).Contents (Elt F) := ((Host.divf) : (⟨S1x128, .f32⟩ : BufTy).Contents (Elt F) → (⟨S1x128, .f32⟩ : BufTy).Contents (Elt F) → (⟨S1x128, .f32⟩ : BufTy).Contents (Elt F)) v1 v2
  have v4 : (⟨S8x128, .f32⟩ : BufTy).Contents (Elt F) := (((broadcastInDim S8x128 ![0, 1] bcast_S1x128_S8x128_0_1)) : (⟨S1x128, .f32⟩ : BufTy).Contents (Elt F) → (⟨S8x128, .f32⟩ : BufTy).Contents (Elt F)) v3
  have v5 : (⟨S8x128, .f32⟩ : BufTy).Contents (Elt F) := ((subf) : (⟨S8x128, .f32⟩ : BufTy).Contents (Elt F) → (⟨S8x128, .f32⟩ : BufTy).Contents (Elt F) → (⟨S8x128, .f32⟩ : BufTy).Contents (Elt F)) arg0 v4
  have v6 : (⟨S8x128, .f32⟩ : BufTy).Contents (Elt F) := ((mulf) : (⟨S8x128, .f32⟩ : BufTy).Contents (Elt F) → (⟨S8x128, .f32⟩ : BufTy).Contents (Elt F) → (⟨S8x128, .f32⟩ : BufTy).Contents (Elt F)) v5 v5
  have v7 : (⟨S_, .f32⟩ : BufTy).Contents (Elt F) := (((sitofp .f32)) : (⟨S_, .i32⟩ : BufTy).Contents (Elt F) → (⟨S_, .f32⟩ : BufTy).Contents (Elt F)) arg1
  have cst_1 : (⟨S_, .f32⟩ : BufTy).Contents (Elt F) := (constant S_ .f32 0x41000000#32)
  have v8 : (⟨S_, .f32⟩ : BufTy).Contents (Elt F) := ((subf) : (⟨S_, .f32⟩ : BufTy).Contents (Elt F) → (⟨S_, .f32⟩ : BufTy).Contents (Elt F) → (⟨S_, .f32⟩ : BufTy).Contents (Elt F)) cst_1 v7
  have cst_2 : (⟨S_, .f32⟩ : BufTy).Contents (Elt F) := (constant S_ .f32 0x00000000#32)
  have v9 : (⟨S128, .f32⟩ : BufTy).Contents (Elt F) := (((fun x v => Host.reduceAdd x v reducesTo_S8x128_S128_d0 h_S_)) : (⟨S8x128, .f32⟩ : BufTy).Contents (Elt F) → (⟨S_, .f32⟩ : BufTy).Contents (Elt F) → (⟨S128, .f32⟩ : BufTy).Contents (Elt F)) v6 cst_2
  have v10 : (⟨S1x128, .f32⟩ : BufTy).Contents (Elt F) := (((broadcastInDim S1x128 ![1] bcast_S128_S1x128_1)) : (⟨S128, .f32⟩ : BufTy).Contents (Elt F) → (⟨S1x128, .f32⟩ : BufTy).Contents (Elt F)) v9
  have v11 : (⟨S1x128, .f32⟩ : BufTy).Contents (Elt F) := (((broadcastInDim S1x128 ![] bcast_S_S1x128)) : (⟨S_, .f32⟩ : BufTy).Contents (Elt F) → (⟨S1x128, .f32⟩ : BufTy).Contents (Elt F)) v8
  have v12 : (⟨S1x128, .f32⟩ : BufTy).Contents (Elt F) := ((Host.divf) : (⟨S1x128, .f32⟩ : BufTy).Contents (Elt F) → (⟨S1x128, .f32⟩ : BufTy).Contents (Elt F) → (⟨S1x128, .f32⟩ : BufTy).Contents (Elt F)) v10 v11
  have cst_3 : (⟨S_, .f32⟩ : BufTy).Contents (Elt F) := (constant S_ .f32 0x00000000#32)
  have v13 : (⟨S_, .i1⟩ : BufTy).Contents (Elt F) := (((cmpf .ogt)) : (⟨S_, .f32⟩ : BufTy).Contents (Elt F) → (⟨S_, .f32⟩ : BufTy).Contents (Elt F) → (⟨S_, .i1⟩ : BufTy).Contents (Elt F)) v8 cst_3
  have cst_4 : (⟨S_, .f32⟩ : BufTy).Contents (Elt F) := (constant S_ .f32 0x7FC00000#32)
  have call0 : (⟨S1x128, .f32⟩ : BufTy).Contents (Elt F) := f_where_0 v13 v12 cst_4
  call0

/-- The operations of the reference's private function @where_17, in its order. -/
def f_where_17 (arg0 : (⟨S8x128, .i1⟩ : BufTy).Contents (Elt F)) (arg1 : (⟨S8x128, .f32⟩ : BufTy).Contents (Elt F)) (arg2 : (⟨S8x128, .f32⟩ : BufTy).Contents (Elt F)) : (⟨S8x128, .f32⟩ : BufTy).Contents (Elt F) :=
  have v0 : (⟨S8x128, .f32⟩ : BufTy).Contents (Elt F) := ((select) : (⟨S8x128, .i1⟩ : BufTy).Contents (Elt F) → (⟨S8x128, .f32⟩ : BufTy).Contents (Elt F) → (⟨S8x128, .f32⟩ : BufTy).Contents (Elt F) → (⟨S8x128, .f32⟩ : BufTy).Contents (Elt F)) arg0 arg1 arg2
  v0

/-- The operations of the reference's private function @leaky_relu_16, in its order. -/
def f_leaky_relu_16 (arg0 : (⟨S8x128, .f32⟩ : BufTy).Contents (Elt F)) (arg1 : (⟨S_, .f32⟩ : BufTy).Contents (Elt F)) : (⟨S8x128, .f32⟩ : BufTy).Contents (Elt F) :=
  have cst : (⟨S_, .f32⟩ : BufTy).Contents (Elt F) := (constant S_ .f32 0x00000000#32)
  have v0 : (⟨S8x128, .f32⟩ : BufTy).Contents (Elt F) := (((broadcastInDim S8x128 ![] bcast_S_S8x128)) : (⟨S_, .f32⟩ : BufTy).Contents (Elt F) → (⟨S8x128, .f32⟩ : BufTy).Contents (Elt F)) cst
  have v1 : (⟨S8x128, .i1⟩ : BufTy).Contents (Elt F) := (((cmpf .oge)) : (⟨S8x128, .f32⟩ : BufTy).Contents (Elt F) → (⟨S8x128, .f32⟩ : BufTy).Contents (Elt F) → (⟨S8x128, .i1⟩ : BufTy).Contents (Elt F)) arg0 v0
  have v2 : (⟨S_, .f32⟩ : BufTy).Contents (Elt F) := ((id) : (⟨S_, .f32⟩ : BufTy).Contents (Elt F) → (⟨S_, .f32⟩ : BufTy).Contents (Elt F)) arg1
  have v3 : (⟨S8x128, .f32⟩ : BufTy).Contents (Elt F) := (((broadcastInDim S8x128 ![] bcast_S_S8x128)) : (⟨S_, .f32⟩ : BufTy).Contents (Elt F) → (⟨S8x128, .f32⟩ : BufTy).Contents (Elt F)) v2
  have v4 : (⟨S8x128, .f32⟩ : BufTy).Contents (Elt F) := ((mulf) : (⟨S8x128, .f32⟩ : BufTy).Contents (Elt F) → (⟨S8x128, .f32⟩ : BufTy).Contents (Elt F) → (⟨S8x128, .f32⟩ : BufTy).Contents (Elt F)) v3 arg0
  have call0 : (⟨S8x128, .f32⟩ : BufTy).Contents (Elt F) := f_where_17 v1 arg0 v4
  call0

/-- Statements %c … %45 of the reference's @main (through main_v45). -/
def agg0 (main_arg0 : (⟨S262144x1, .f32⟩ : BufTy).Contents (Elt F)) (main_arg1 : (⟨S262144x3, .f32⟩ : BufTy).Contents (Elt F)) (main_arg2 : (⟨S8000x3, .f32⟩ : BufTy).Contents (Elt F)) (main_arg5 : (⟨S980628, .i32⟩ : BufTy).Contents (Elt F)) (main_arg6 : (⟨S980628, .i32⟩ : BufTy).Contents (Elt F)) (main_arg11 : (⟨S3x16, .f32⟩ : BufTy).Contents (Elt F)) (main_arg12 : (⟨S16, .f32⟩ : BufTy).Contents (Elt F)) : (⟨S8000x16, .f32⟩ : BufTy).Contents (Elt F) :=
  have main_c : (⟨S_, .i32⟩ : BufTy).Contents (Elt F) := (constantI S_ 32 0#32)
  have main_v0 : (⟨S980628, .i32⟩ : BufTy).Contents (Elt F) := (broadcastInDim S980628 ![] bcast_S_S980628 : (⟨S_, .i32⟩ : BufTy).Contents (Elt F) → (⟨S980628, .i32⟩ : BufTy).Contents (Elt F)) main_c
  have main_v1 : (⟨S980628, .i1⟩ : BufTy).Contents (Elt F) := (cmpi .slt : (⟨S980628, .i32⟩ : BufTy).Contents (Elt F) → (⟨S980628, .i32⟩ : BufTy).Contents (Elt F) → (⟨S980628, .i1⟩ : BufTy).Contents (Elt F)) main_arg5 main_v0
  have main_c_0 : (⟨S_, .i32⟩ : BufTy).Contents (Elt F) := (constantI S_ 32 262144#32)
  have main_v2 : (⟨S980628, .i32⟩ : BufTy).Contents (Elt F) := (broadcastInDim S980628 ![] bcast_S_S980628 : (⟨S_, .i32⟩ : BufTy).Contents (Elt F) → (⟨S980628, .i32⟩ : BufTy).Contents (Elt F)) main_c_0
  have main_v3 : (⟨S980628, .i32⟩ : BufTy).Contents (Elt F) := (addi : (⟨S980628, .i32⟩ : BufTy).Contents (Elt F) → (⟨S980628, .i32⟩ : BufTy).Contents (Elt F) → (⟨S980628, .i32⟩ : BufTy).Contents (Elt F)) main_arg5 main_v2
  have main_v4 : (⟨S980628, .i32⟩ : BufTy).Contents (Elt F) := (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)) main_v1 main_v3 main_arg5
  have main_v5 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_v4
  have main_v6 : (⟨S980628x3, .f32⟩ : BufTy).Contents (Elt F) := ((fun x i => Host.gather gather_S262144x3_S980628x1_S980628x3_1_0_n_n_0_1_13 x i) : (⟨S262144x3, .f32⟩ : BufTy).Contents (Elt F) → (⟨S980628x1, .i32⟩ : BufTy).Contents (Elt F) → (⟨S980628x3, .f32⟩ : BufTy).Contents (Elt F)) main_arg1 main_v5
  have main_c_1 : (⟨S_, .i32⟩ : BufTy).Contents (Elt F) := (constantI S_ 32 0#32)
  have main_v7 : (⟨S980628, .i32⟩ : BufTy).Contents (Elt F) := (broadcastInDim S980628 ![] bcast_S_S980628 : (⟨S_, .i32⟩ : BufTy).Contents (Elt F) → (⟨S980628, .i32⟩ : BufTy).Contents (Elt F)) main_c_1
  have main_v8 : (⟨S980628, .i1⟩ : BufTy).Contents (Elt F) := (cmpi .slt : (⟨S980628, .i32⟩ : BufTy).Contents (Elt F) → (⟨S980628, .i32⟩ : BufTy).Contents (Elt F) → (⟨S980628, .i1⟩ : BufTy).Contents (Elt F)) main_arg6 main_v7
  have main_c_2 : (⟨S_, .i32⟩ : BufTy).Contents (Elt F) := (constantI S_ 32 8000#32)
  have main_v9 : (⟨S980628, .i32⟩ : BufTy).Contents (Elt F) := (broadcastInDim S980628 ![] bcast_S_S980628 : (⟨S_, .i32⟩ : BufTy).Contents (Elt F) → (⟨S980628, .i32⟩ : BufTy).Contents (Elt F)) main_c_2
  have main_v10 : (⟨S980628, .i32⟩ : BufTy).Contents (Elt F) := (addi : (⟨S980628, .i32⟩ : BufTy).Contents (Elt F) → (⟨S980628, .i32⟩ : BufTy).Contents (Elt F) → (⟨S980628, .i32⟩ : BufTy).Contents (Elt F)) main_arg6 main_v9
  have main_v11 : (⟨S980628, .i32⟩ : BufTy).Contents (Elt F) := (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)) main_v8 main_v10 main_arg6
  have main_v12 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_v11
  have main_v13 : (⟨S980628x3, .f32⟩ : BufTy).Contents (Elt F) := ((fun x i => Host.gather gather_S8000x3_S980628x1_S980628x3_1_0_n_n_0_1_13 x i) : (⟨S8000x3, .f32⟩ : BufTy).Contents (Elt F) → (⟨S980628x1, .i32⟩ : BufTy).Contents (Elt F) → (⟨S980628x3, .f32⟩ : BufTy).Contents (Elt F)) main_arg2 main_v12
  have main_v14 : (⟨S980628x3, .f32⟩ : BufTy).Contents (Elt F) := (subf : (⟨S980628x3, .f32⟩ : BufTy).Contents (Elt F) → (⟨S980628x3, .f32⟩ : BufTy).Contents (Elt F) → (⟨S980628x3, .f32⟩ : BufTy).Contents (Elt F)) main_v6 main_v13
  have main_cst : (⟨S_, .f32⟩ : BufTy).Contents (Elt F) := (constant S_ .f32 0x3DCCCCCD#32)
  have main_v15 : (⟨S980628x3, .f32⟩ : BufTy).Contents (Elt F) := (broadcastInDim S980628x3 ![] bcast_S_S980628x3 : (⟨S_, .f32⟩ : BufTy).Contents (Elt F) → (⟨S980628x3, .f32⟩ : BufTy).Contents (Elt F)) main_cst
  have main_v16 : (⟨S980628x3, .f32⟩ : BufTy).Contents (Elt F) := (Host.divf : (⟨S980628x3, .f32⟩ : BufTy).Contents (Elt F) → (⟨S980628x3, .f32⟩ : BufTy).Contents (Elt F) → (⟨S980628x3, .f32⟩ : BufTy).Contents (Elt F)) main_v14 main_v15
  have main_v17 : (⟨S980628x16, .f32⟩ : BufTy).Contents (Elt F) := ((fun l r => Host.dotGeneral dot_S980628x3_S3x16_S980628x16_1_0_0_1_n_n none l r) : (⟨S980628x3, .f32⟩ : BufTy).Contents (Elt F) → (⟨S3x16, .f32⟩ : BufTy).Contents (Elt F) → (⟨S980628x16, .f32⟩ : BufTy).Contents (Elt F)) main_v16 main_arg11
  have main_v18 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_arg12
  have main_v19 : (⟨S980628x16, .f32⟩ : BufTy).Contents (Elt F) := (broadcastInDim S980628x16 ![0, 1] bcast_S1x16_S980628x16_0_1 : (⟨S1x16, .f32⟩ : BufTy).Contents (Elt F) → (⟨S980628x16, .f32⟩ : BufTy).Contents (Elt F)) main_v18
  have main_v20 : (⟨S980628x16, .f32⟩ : BufTy).Contents (Elt F) := (addf : (⟨S980628x16, .f32⟩ : BufTy).Contents (Elt F) → (⟨S980628x16, .f32⟩ : BufTy).Contents (Elt F) → (⟨S980628x16, .f32⟩ : BufTy).Contents (Elt F)) main_v17 main_v19
  have main_cst_3 : (⟨S_, .f32⟩ : BufTy).Contents (Elt F) := (constant S_ .f32 0x3E4CCCCD#32)
  have main_v21 : (⟨S980628x16, .f32⟩ : BufTy).Contents (Elt F) := f_leaky_relu main_v20 main_cst_3
  have main_v22 : (⟨S980628x16x1, .f32⟩ : BufTy).Contents (Elt F) := (broadcastInDim S980628x16x1 ![0, 1] bcast_S980628x16_S980628x16x1_0_1 : (⟨S980628x16, .f32⟩ : BufTy).Contents (Elt F) → (⟨S980628x16x1, .f32⟩ : BufTy).Contents (Elt F)) main_v21
  have main_c_4 : (⟨S_, .i32⟩ : BufTy).Contents (Elt F) := (constantI S_ 32 0#32)
  have main_v23 : (⟨S980628, .i32⟩ : BufTy).Contents (Elt F) := (broadcastInDim S980628 ![] bcast_S_S980628 : (⟨S_, .i32⟩ : BufTy).Contents (Elt F) → (⟨S980628, .i32⟩ : BufTy).Contents (Elt F)) main_c_4
  have main_v24 : (⟨S980628, .i1⟩ : BufTy).Contents (Elt F) := (cmpi .slt : (⟨S980628, .i32⟩ : BufTy).Contents (Elt F) → (⟨S980628, .i32⟩ : BufTy).Contents (Elt F) → (⟨S980628, .i1⟩ : BufTy).Contents (Elt F)) main_arg5 main_v23
  have main_c_5 : (⟨S_, .i32⟩ : BufTy).Contents (Elt F) := (constantI S_ 32 262144#32)
  have main_v25 : (⟨S980628, .i32⟩ : BufTy).Contents (Elt F) := (broadcastInDim S980628 ![] bcast_S_S980628 : (⟨S_, .i32⟩ : BufTy).Contents (Elt F) → (⟨S980628, .i32⟩ : BufTy).Contents (Elt F)) main_c_5
  have main_v26 : (⟨S980628, .i32⟩ : BufTy).Contents (Elt F) := (addi : (⟨S980628, .i32⟩ : BufTy).Contents (Elt F) → (⟨S980628, .i32⟩ : BufTy).Contents (Elt F) → (⟨S980628, .i32⟩ : BufTy).Contents (Elt F)) main_arg5 main_v25
  have main_v27 : (⟨S980628, .i32⟩ : BufTy).Contents (Elt F) := (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)) main_v24 main_v26 main_arg5
  have main_v28 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_v27
  have main_v29 : (⟨S980628x1, .f32⟩ : BufTy).Contents (Elt F) := ((fun x i => Host.gather gather_S262144x1_S980628x1_S980628x1_1_0_n_n_0_1_11 x i) : (⟨S262144x1, .f32⟩ : BufTy).Contents (Elt F) → (⟨S980628x1, .i32⟩ : BufTy).Contents (Elt F) → (⟨S980628x1, .f32⟩ : BufTy).Contents (Elt F)) main_arg0 main_v28
  have main_v30 : (⟨S980628x1x1, .f32⟩ : BufTy).Contents (Elt F) := (broadcastInDim S980628x1x1 ![0, 2] bcast_S980628x1_S980628x1x1_0_2 : (⟨S980628x1, .f32⟩ : BufTy).Contents (Elt F) → (⟨S980628x1x1, .f32⟩ : BufTy).Contents (Elt F)) main_v29
  have main_v31 : (⟨S980628x16x1, .f32⟩ : BufTy).Contents (Elt F) := (broadcastInDim S980628x16x1 ![0, 1, 2] bcast_S980628x1x1_S980628x16x1_0_1_2 : (⟨S980628x1x1, .f32⟩ : BufTy).Contents (Elt F) → (⟨S980628x16x1, .f32⟩ : BufTy).Contents (Elt F)) main_v30
  have main_v32 : (⟨S980628x16x1, .f32⟩ : BufTy).Contents (Elt F) := (mulf : (⟨S980628x16x1, .f32⟩ : BufTy).Contents (Elt F) → (⟨S980628x16x1, .f32⟩ : BufTy).Contents (Elt F) → (⟨S980628x16x1, .f32⟩ : BufTy).Contents (Elt F)) main_v22 main_v31
  have main_cst_6 : (⟨S_, .f32⟩ : BufTy).Contents (Elt F) := (constant S_ .f32 0x00000000#32)
  have main_v33 : (⟨S8000x16x1, .f32⟩ : BufTy).Contents (Elt F) := (broadcastInDim S8000x16x1 ![] bcast_S_S8000x16x1 : (⟨S_, .f32⟩ : BufTy).Contents (Elt F) → (⟨S8000x16x1, .f32⟩ : BufTy).Contents (Elt F)) main_cst_6
  have main_v34 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_arg6
  have main_v35 : (⟨S8000x16x1, .f32⟩ : BufTy).Contents (Elt F) := ((fun x i u => Host.scatterAdd scatter_S8000x16x1_S980628x1_S980628x16x1_12_0_0_1 x i u) : (⟨S8000x16x1, .f32⟩ : BufTy).Contents (Elt F) → (⟨S980628x1, .i32⟩ : BufTy).Contents (Elt F) → (⟨S980628x16x1, .f32⟩ : BufTy).Contents (Elt F) → (⟨S8000x16x1, .f32⟩ : BufTy).Contents (Elt F)) main_v33 main_v34 main_v32
  have main_cst_7 : (⟨S_, .f32⟩ : BufTy).Contents (Elt F) := (constant S_ .f32 0x3F800000#32)
  have main_v36 : (⟨S980628, .f32⟩ : BufTy).Contents (Elt F) := (broadcastInDim S980628 ![] bcast_S_S980628 : (⟨S_, .f32⟩ : BufTy).Contents (Elt F) → (⟨S980628, .f32⟩ : BufTy).Contents (Elt F)) main_cst_7
  have main_cst_8 : (⟨S_, .f32⟩ : BufTy).Contents (Elt F) := (constant S_ .f32 0x00000000#32)
  have main_v37 : (⟨S8000, .f32⟩ : BufTy).Contents (Elt F) := (broadcastInDim S8000 ![] bcast_S_S8000 : (⟨S_, .f32⟩ : BufTy).Contents (Elt F) → (⟨S8000, .f32⟩ : BufTy).Contents (Elt F)) main_cst_8
  have main_v38 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_arg6
  have main_v39 : (⟨S8000, .f32⟩ : BufTy).Contents (Elt F) := ((fun x i u => Host.scatterAdd scatter_S8000_S980628x1_S980628_n_0_0_1 x i u) : (⟨S8000, .f32⟩ : BufTy).Contents (Elt F) → (⟨S980628x1, .i32⟩ : BufTy).Contents (Elt F) → (⟨S980628, .f32⟩ : BufTy).Contents (Elt F) → (⟨S8000, .f32⟩ : BufTy).Contents (Elt F)) main_v37 main_v38 main_v36
  have main_cst_9 : (⟨S_, .f32⟩ : BufTy).Contents (Elt F) := (constant S_ .f32 0x3F800000#32)
  have main_v40 : (⟨S8000, .f32⟩ : BufTy).Contents (Elt F) := (broadcastInDim S8000 ![] bcast_S_S8000 : (⟨S_, .f32⟩ : BufTy).Contents (Elt F) → (⟨S8000, .f32⟩ : BufTy).Contents (Elt F)) main_cst_9
  have main_v41 : (⟨S8000, .f32⟩ : BufTy).Contents (Elt F) := (maximumf : (⟨S8000, .f32⟩ : BufTy).Contents (Elt F) → (⟨S8000, .f32⟩ : BufTy).Contents (Elt F) → (⟨S8000, .f32⟩ : BufTy).Contents (Elt F)) main_v39 main_v40
  have main_v42 : (⟨S8000x1x1, .f32⟩ : BufTy).Contents (Elt F) := (broadcastInDim S8000x1x1 ![0] bcast_S8000_S8000x1x1_0 : (⟨S8000, .f32⟩ : BufTy).Contents (Elt F) → (⟨S8000x1x1, .f32⟩ : BufTy).Contents (Elt F)) main_v41
  have main_v43 : (⟨S8000x16x1, .f32⟩ : BufTy).Contents (Elt F) := (broadcastInDim S8000x16x1 ![0, 1, 2] bcast_S8000x1x1_S8000x16x1_0_1_2 : (⟨S8000x1x1, .f32⟩ : BufTy).Contents (Elt F) → (⟨S8000x16x1, .f32⟩ : BufTy).Contents (Elt F)) main_v42
  have main_v44 : (⟨S8000x16x1, .f32⟩ : BufTy).Contents (Elt F) := (Host.divf : (⟨S8000x16x1, .f32⟩ : BufTy).Contents (Elt F) → (⟨S8000x16x1, .f32⟩ : BufTy).Contents (Elt F) → (⟨S8000x16x1, .f32⟩ : BufTy).Contents (Elt F)) main_v35 main_v43
  have main_v45 : (⟨S8000x16, .f32⟩ : BufTy).Contents (Elt F) := shapeCast S8000x16 main_v44 shapeCasts_S8000x16x1_S8000x16
  main_v45

/-- Statements %46 … %65 of the reference's @main (through main_v65), over a variable in the place of main_v45. -/
def dense0 (main_v45 : (⟨S8000x16, .f32⟩ : BufTy).Contents (Elt F)) (main_arg13 : (⟨S16x128, .f32⟩ : BufTy).Contents (Elt F)) (main_arg14 : (⟨S128, .f32⟩ : BufTy).Contents (Elt F)) (main_arg15 : (⟨S128, .f32⟩ : BufTy).Contents (Elt F)) : (⟨S8000x128, .f32⟩ : BufTy).Contents (Elt F) :=
  have main_v46 : (⟨S8000x128, .f32⟩ : BufTy).Contents (Elt F) := ((fun l r => Host.dotGeneral dot_S8000x16_S16x128_S8000x128_1_0_0_1_n_n none l r) : (⟨S8000x16, .f32⟩ : BufTy).Contents (Elt F) → (⟨S16x128, .f32⟩ : BufTy).Contents (Elt F) → (⟨S8000x128, .f32⟩ : BufTy).Contents (Elt F)) main_v45 main_arg13
  have main_cst_10 : (⟨S_, .f32⟩ : BufTy).Contents (Elt F) := (constant S_ .f32 0x00000000#32)
  have main_v47 : (⟨S128, .f32⟩ : BufTy).Contents (Elt F) := ((fun x v => Host.reduceAdd x v reducesTo_S8000x128_S128_d0 h_S_) : (⟨S8000x128, .f32⟩ : BufTy).Contents (Elt F) → (⟨S_, .f32⟩ : BufTy).Contents (Elt F) → (⟨S128, .f32⟩ : BufTy).Contents (Elt F)) main_v46 main_cst_10
  have main_v48 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v47
  have main_cst_11 : (⟨S_, .f32⟩ : BufTy).Contents (Elt F) := (constant S_ .f32 0x45FA0000#32)
  have main_v49 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_11
  have main_v50 : (⟨S1x128, .f32⟩ : BufTy).Contents (Elt F) := (Host.divf : (⟨S1x128, .f32⟩ : BufTy).Contents (Elt F) → (⟨S1x128, .f32⟩ : BufTy).Contents (Elt F) → (⟨S1x128, .f32⟩ : BufTy).Contents (Elt F)) main_v48 main_v49
  have main_c_12 : (⟨S_, .i32⟩ : BufTy).Contents (Elt F) := (constantI S_ 32 0#32)
  have main_v51 : (⟨S1x128, .f32⟩ : BufTy).Contents (Elt F) := f_var main_v46 main_c_12
  have main_v52 : (⟨S8000x128, .f32⟩ : BufTy).Contents (Elt F) := (broadcastInDim S8000x128 ![0, 1] bcast_S1x128_S8000x128_0_1 : (⟨S1x128, .f32⟩ : BufTy).Contents (Elt F) → (⟨S8000x128, .f32⟩ : BufTy).Contents (Elt F)) main_v50
  have main_v53 : (⟨S8000x128, .f32⟩ : BufTy).Contents (Elt F) := (subf : (⟨S8000x128, .f32⟩ : BufTy).Contents (Elt F) → (⟨S8000x128, .f32⟩ : BufTy).Contents (Elt F) → (⟨S8000x128, .f32⟩ : BufTy).Contents (Elt F)) main_v46 main_v52
  have main_cst_13 : (⟨S_, .f32⟩ : BufTy).Contents (Elt F) := (constant S_ .f32 0x3A83126F#32)
  have main_v54 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_13
  have main_v55 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v51 main_v54
  have main_v56 : (⟨S1x128, .f32⟩ : BufTy).Contents (Elt F) := (Host.rsqrt : (⟨S1x128, .f32⟩ : BufTy).Contents (Elt F) → (⟨S1x128, .f32⟩ : BufTy).Contents (Elt F)) main_v55
  have main_v57 : (⟨S8000x128, .f32⟩ : BufTy).Contents (Elt F) := (broadcastInDim S8000x128 ![0, 1] bcast_S1x128_S8000x128_0_1 : (⟨S1x128, .f32⟩ : BufTy).Contents (Elt F) → (⟨S8000x128, .f32⟩ : BufTy).Contents (Elt F)) main_v56
  have main_v58 : (⟨S8000x128, .f32⟩ : BufTy).Contents (Elt F) := (mulf : (⟨S8000x128, .f32⟩ : BufTy).Contents (Elt F) → (⟨S8000x128, .f32⟩ : BufTy).Contents (Elt F) → (⟨S8000x128, .f32⟩ : BufTy).Contents (Elt F)) main_v53 main_v57
  have main_v59 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg14
  have main_v60 : (⟨S8000x128, .f32⟩ : BufTy).Contents (Elt F) := (broadcastInDim S8000x128 ![0, 1] bcast_S1x128_S8000x128_0_1 : (⟨S1x128, .f32⟩ : BufTy).Contents (Elt F) → (⟨S8000x128, .f32⟩ : BufTy).Contents (Elt F)) main_v59
  have main_v61 : (⟨S8000x128, .f32⟩ : BufTy).Contents (Elt F) := (mulf : (⟨S8000x128, .f32⟩ : BufTy).Contents (Elt F) → (⟨S8000x128, .f32⟩ : BufTy).Contents (Elt F) → (⟨S8000x128, .f32⟩ : BufTy).Contents (Elt F)) main_v58 main_v60
  have main_v62 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg15
  have main_v63 : (⟨S8000x128, .f32⟩ : BufTy).Contents (Elt F) := (broadcastInDim S8000x128 ![0, 1] bcast_S1x128_S8000x128_0_1 : (⟨S1x128, .f32⟩ : BufTy).Contents (Elt F) → (⟨S8000x128, .f32⟩ : BufTy).Contents (Elt F)) main_v62
  have main_v64 : (⟨S8000x128, .f32⟩ : BufTy).Contents (Elt F) := (addf : (⟨S8000x128, .f32⟩ : BufTy).Contents (Elt F) → (⟨S8000x128, .f32⟩ : BufTy).Contents (Elt F) → (⟨S8000x128, .f32⟩ : BufTy).Contents (Elt F)) main_v61 main_v63
  have main_cst_14 : (⟨S_, .f32⟩ : BufTy).Contents (Elt F) := (constant S_ .f32 0x3E99999A#32)
  have main_v65 : (⟨S8000x128, .f32⟩ : BufTy).Contents (Elt F) := f_leaky_relu_1 main_v64 main_cst_14
  main_v65

/-- Statements %c_15 … %112 of the reference's @main (through main_v112), over a variable in the place of main_v65. -/
def agg1 (main_v65 : (⟨S8000x128, .f32⟩ : BufTy).Contents (Elt F)) (main_arg2 : (⟨S8000x3, .f32⟩ : BufTy).Contents (Elt F)) (main_arg3 : (⟨S1000x3, .f32⟩ : BufTy).Contents (Elt F)) (main_arg7 : (⟨S26578, .i32⟩ : BufTy).Contents (Elt F)) (main_arg8 : (⟨S26578, .i32⟩ : BufTy).Contents (Elt F)) (main_arg16 : (⟨S3x16, .f32⟩ : BufTy).Contents (Elt F)) (main_arg17 : (⟨S16, .f32⟩ : BufTy).Contents (Elt F)) : (⟨S1000x2048, .f32⟩ : BufTy).Contents (Elt F) :=
  have main_c_15 : (⟨S_, .i32⟩ : BufTy).Contents (Elt F) := (constantI S_ 32 0#32)
  have main_v66 : (⟨S26578, .i32⟩ : BufTy).Contents (Elt F) := (broadcastInDim S26578 ![] bcast_S_S26578 : (⟨S_, .i32⟩ : BufTy).Contents (Elt F) → (⟨S26578, .i32⟩ : BufTy).Contents (Elt F)) main_c_15
  have main_v67 : (⟨S26578, .i1⟩ : BufTy).Contents (Elt F) := (cmpi .slt : (⟨S26578, .i32⟩ : BufTy).Contents (Elt F) → (⟨S26578, .i32⟩ : BufTy).Contents (Elt F) → (⟨S26578, .i1⟩ : BufTy).Contents (Elt F)) main_arg7 main_v66
  have main_c_16 : (⟨S_, .i32⟩ : BufTy).Contents (Elt F) := (constantI S_ 32 8000#32)
  have main_v68 : (⟨S26578, .i32⟩ : BufTy).Contents (Elt F) := (broadcastInDim S26578 ![] bcast_S_S26578 : (⟨S_, .i32⟩ : BufTy).Contents (Elt F) → (⟨S26578, .i32⟩ : BufTy).Contents (Elt F)) main_c_16
  have main_v69 : (⟨S26578, .i32⟩ : BufTy).Contents (Elt F) := (addi : (⟨S26578, .i32⟩ : BufTy).Contents (Elt F) → (⟨S26578, .i32⟩ : BufTy).Contents (Elt F) → (⟨S26578, .i32⟩ : BufTy).Contents (Elt F)) main_arg7 main_v68
  have main_v70 : (⟨S26578, .i32⟩ : BufTy).Contents (Elt F) := (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)) main_v67 main_v69 main_arg7
  have main_v71 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_v70
  have main_v72 : (⟨S26578x3, .f32⟩ : BufTy).Contents (Elt F) := ((fun x i => Host.gather gather_S8000x3_S26578x1_S26578x3_1_0_n_n_0_1_13 x i) : (⟨S8000x3, .f32⟩ : BufTy).Contents (Elt F) → (⟨S26578x1, .i32⟩ : BufTy).Contents (Elt F) → (⟨S26578x3, .f32⟩ : BufTy).Contents (Elt F)) main_arg2 main_v71
  have main_c_17 : (⟨S_, .i32⟩ : BufTy).Contents (Elt F) := (constantI S_ 32 0#32)
  have main_v73 : (⟨S26578, .i32⟩ : BufTy).Contents (Elt F) := (broadcastInDim S26578 ![] bcast_S_S26578 : (⟨S_, .i32⟩ : BufTy).Contents (Elt F) → (⟨S26578, .i32⟩ : BufTy).Contents (Elt F)) main_c_17
  have main_v74 : (⟨S26578, .i1⟩ : BufTy).Contents (Elt F) := (cmpi .slt : (⟨S26578, .i32⟩ : BufTy).Contents (Elt F) → (⟨S26578, .i32⟩ : BufTy).Contents (Elt F) → (⟨S26578, .i1⟩ : BufTy).Contents (Elt F)) main_arg8 main_v73
  have main_c_18 : (⟨S_, .i32⟩ : BufTy).Contents (Elt F) := (constantI S_ 32 1000#32)
  have main_v75 : (⟨S26578, .i32⟩ : BufTy).Contents (Elt F) := (broadcastInDim S26578 ![] bcast_S_S26578 : (⟨S_, .i32⟩ : BufTy).Contents (Elt F) → (⟨S26578, .i32⟩ : BufTy).Contents (Elt F)) main_c_18
  have main_v76 : (⟨S26578, .i32⟩ : BufTy).Contents (Elt F) := (addi : (⟨S26578, .i32⟩ : BufTy).Contents (Elt F) → (⟨S26578, .i32⟩ : BufTy).Contents (Elt F) → (⟨S26578, .i32⟩ : BufTy).Contents (Elt F)) main_arg8 main_v75
  have main_v77 : (⟨S26578, .i32⟩ : BufTy).Contents (Elt F) := (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)) main_v74 main_v76 main_arg8
  have main_v78 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_v77
  have main_v79 : (⟨S26578x3, .f32⟩ : BufTy).Contents (Elt F) := ((fun x i => Host.gather gather_S1000x3_S26578x1_S26578x3_1_0_n_n_0_1_13 x i) : (⟨S1000x3, .f32⟩ : BufTy).Contents (Elt F) → (⟨S26578x1, .i32⟩ : BufTy).Contents (Elt F) → (⟨S26578x3, .f32⟩ : BufTy).Contents (Elt F)) main_arg3 main_v78
  have main_v80 : (⟨S26578x3, .f32⟩ : BufTy).Contents (Elt F) := (subf : (⟨S26578x3, .f32⟩ : BufTy).Contents (Elt F) → (⟨S26578x3, .f32⟩ : BufTy).Contents (Elt F) → (⟨S26578x3, .f32⟩ : BufTy).Contents (Elt F)) main_v72 main_v79
  have main_cst_19 : (⟨S_, .f32⟩ : BufTy).Contents (Elt F) := (constant S_ .f32 0x3E4CCCCD#32)
  have main_v81 : (⟨S26578x3, .f32⟩ : BufTy).Contents (Elt F) := (broadcastInDim S26578x3 ![] bcast_S_S26578x3 : (⟨S_, .f32⟩ : BufTy).Contents (Elt F) → (⟨S26578x3, .f32⟩ : BufTy).Contents (Elt F)) main_cst_19
  have main_v82 : (⟨S26578x3, .f32⟩ : BufTy).Contents (Elt F) := (Host.divf : (⟨S26578x3, .f32⟩ : BufTy).Contents (Elt F) → (⟨S26578x3, .f32⟩ : BufTy).Contents (Elt F) → (⟨S26578x3, .f32⟩ : BufTy).Contents (Elt F)) main_v80 main_v81
  have main_v83 : (⟨S26578x16, .f32⟩ : BufTy).Contents (Elt F) := ((fun l r => Host.dotGeneral dot_S26578x3_S3x16_S26578x16_1_0_0_1_n_n none l r) : (⟨S26578x3, .f32⟩ : BufTy).Contents (Elt F) → (⟨S3x16, .f32⟩ : BufTy).Contents (Elt F) → (⟨S26578x16, .f32⟩ : BufTy).Contents (Elt F)) main_v82 main_arg16
  have main_v84 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_arg17
  have main_v85 : (⟨S26578x16, .f32⟩ : BufTy).Contents (Elt F) := (broadcastInDim S26578x16 ![0, 1] bcast_S1x16_S26578x16_0_1 : (⟨S1x16, .f32⟩ : BufTy).Contents (Elt F) → (⟨S26578x16, .f32⟩ : BufTy).Contents (Elt F)) main_v84
  have main_v86 : (⟨S26578x16, .f32⟩ : BufTy).Contents (Elt F) := (addf : (⟨S26578x16, .f32⟩ : BufTy).Contents (Elt F) → (⟨S26578x16, .f32⟩ : BufTy).Contents (Elt F) → (⟨S26578x16, .f32⟩ : BufTy).Contents (Elt F)) main_v83 main_v85
  have main_cst_20 : (⟨S_, .f32⟩ : BufTy).Contents (Elt F) := (constant S_ .f32 0x3E4CCCCD#32)
  have main_v87 : (⟨S26578x16, .f32⟩ : BufTy).Contents (Elt F) := f_leaky_relu_3 main_v86 main_cst_20
  have main_v88 : (⟨S26578x16x1, .f32⟩ : BufTy).Contents (Elt F) := (broadcastInDim S26578x16x1 ![0, 1] bcast_S26578x16_S26578x16x1_0_1 : (⟨S26578x16, .f32⟩ : BufTy).Contents (Elt F) → (⟨S26578x16x1, .f32⟩ : BufTy).Contents (Elt F)) main_v87
  have main_c_21 : (⟨S_, .i32⟩ : BufTy).Contents (Elt F) := (constantI S_ 32 0#32)
  have main_v89 : (⟨S26578, .i32⟩ : BufTy).Contents (Elt F) := (broadcastInDim S26578 ![] bcast_S_S26578 : (⟨S_, .i32⟩ : BufTy).Contents (Elt F) → (⟨S26578, .i32⟩ : BufTy).Contents (Elt F)) main_c_21
  have main_v90 : (⟨S26578, .i1⟩ : BufTy).Contents (Elt F) := (cmpi .slt : (⟨S26578, .i32⟩ : BufTy).Contents (Elt F) → (⟨S26578, .i32⟩ : BufTy).Contents (Elt F) → (⟨S26578, .i1⟩ : BufTy).Contents (Elt F)) main_arg7 main_v89
  have main_c_22 : (⟨S_, .i32⟩ : BufTy).Contents (Elt F) := (constantI S_ 32 8000#32)
  have main_v91 : (⟨S26578, .i32⟩ : BufTy).Contents (Elt F) := (broadcastInDim S26578 ![] bcast_S_S26578 : (⟨S_, .i32⟩ : BufTy).Contents (Elt F) → (⟨S26578, .i32⟩ : BufTy).Contents (Elt F)) main_c_22
  have main_v92 : (⟨S26578, .i32⟩ : BufTy).Contents (Elt F) := (addi : (⟨S26578, .i32⟩ : BufTy).Contents (Elt F) → (⟨S26578, .i32⟩ : BufTy).Contents (Elt F) → (⟨S26578, .i32⟩ : BufTy).Contents (Elt F)) main_arg7 main_v91
  have main_v93 : (⟨S26578, .i32⟩ : BufTy).Contents (Elt F) := (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)) main_v90 main_v92 main_arg7
  have main_v94 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_v93
  have main_v95 : (⟨S26578x128, .f32⟩ : BufTy).Contents (Elt F) := ((fun x i => Host.gather gather_S8000x128_S26578x1_S26578x128_1_0_n_n_0_1_1128 x i) : (⟨S8000x128, .f32⟩ : BufTy).Contents (Elt F) → (⟨S26578x1, .i32⟩ : BufTy).Contents (Elt F) → (⟨S26578x128, .f32⟩ : BufTy).Contents (Elt F)) main_v65 main_v94
  have main_v96 : (⟨S26578x1x128, .f32⟩ : BufTy).Contents (Elt F) := (broadcastInDim S26578x1x128 ![0, 2] bcast_S26578x128_S26578x1x128_0_2 : (⟨S26578x128, .f32⟩ : BufTy).Contents (Elt F) → (⟨S26578x1x128, .f32⟩ : BufTy).Contents (Elt F)) main_v95
  have main_v97 : (⟨S26578x16x128, .f32⟩ : BufTy).Contents (Elt F) := (broadcastInDim S26578x16x128 ![0, 1, 2] bcast_S26578x16x1_S26578x16x128_0_1_2 : (⟨S26578x16x1, .f32⟩ : BufTy).Contents (Elt F) → (⟨S26578x16x128, .f32⟩ : BufTy).Contents (Elt F)) main_v88
  have main_v98 : (⟨S26578x16x128, .f32⟩ : BufTy).Contents (Elt F) := (broadcastInDim S26578x16x128 ![0, 1, 2] bcast_S26578x1x128_S26578x16x128_0_1_2 : (⟨S26578x1x128, .f32⟩ : BufTy).Contents (Elt F) → (⟨S26578x16x128, .f32⟩ : BufTy).Contents (Elt F)) main_v96
  have main_v99 : (⟨S26578x16x128, .f32⟩ : BufTy).Contents (Elt F) := (mulf : (⟨S26578x16x128, .f32⟩ : BufTy).Contents (Elt F) → (⟨S26578x16x128, .f32⟩ : BufTy).Contents (Elt F) → (⟨S26578x16x128, .f32⟩ : BufTy).Contents (Elt F)) main_v97 main_v98
  have main_cst_23 : (⟨S_, .f32⟩ : BufTy).Contents (Elt F) := (constant S_ .f32 0x00000000#32)
  have main_v100 : (⟨S1000x16x128, .f32⟩ : BufTy).Contents (Elt F) := (broadcastInDim S1000x16x128 ![] bcast_S_S1000x16x128 : (⟨S_, .f32⟩ : BufTy).Contents (Elt F) → (⟨S1000x16x128, .f32⟩ : BufTy).Contents (Elt F)) main_cst_23
  have main_v101 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_arg8
  have main_v102 : (⟨S1000x16x128, .f32⟩ : BufTy).Contents (Elt F) := ((fun x i u => Host.scatterAdd scatter_S1000x16x128_S26578x1_S26578x16x128_12_0_0_1 x i u) : (⟨S1000x16x128, .f32⟩ : BufTy).Contents (Elt F) → (⟨S26578x1, .i32⟩ : BufTy).Contents (Elt F) → (⟨S26578x16x128, .f32⟩ : BufTy).Contents (Elt F) → (⟨S1000x16x128, .f32⟩ : BufTy).Contents (Elt F)) main_v100 main_v101 main_v99
  have main_cst_24 : (⟨S_, .f32⟩ : BufTy).Contents (Elt F) := (constant S_ .f32 0x3F800000#32)
  have main_v103 : (⟨S26578, .f32⟩ : BufTy).Contents (Elt F) := (broadcastInDim S26578 ![] bcast_S_S26578 : (⟨S_, .f32⟩ : BufTy).Contents (Elt F) → (⟨S26578, .f32⟩ : BufTy).Contents (Elt F)) main_cst_24
  have main_cst_25 : (⟨S_, .f32⟩ : BufTy).Contents (Elt F) := (constant S_ .f32 0x00000000#32)
  have main_v104 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_25
  have main_v105 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_arg8
  have main_v106 : (⟨S1000, .f32⟩ : BufTy).Contents (Elt F) := ((fun x i u => Host.scatterAdd scatter_S1000_S26578x1_S26578_n_0_0_1 x i u) : (⟨S1000, .f32⟩ : BufTy).Contents (Elt F) → (⟨S26578x1, .i32⟩ : BufTy).Contents (Elt F) → (⟨S26578, .f32⟩ : BufTy).Contents (Elt F) → (⟨S1000, .f32⟩ : BufTy).Contents (Elt F)) main_v104 main_v105 main_v103
  have main_cst_26 : (⟨S_, .f32⟩ : BufTy).Contents (Elt F) := (constant S_ .f32 0x3F800000#32)
  have main_v107 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_26
  have main_v108 : (⟨S1000, .f32⟩ : BufTy).Contents (Elt F) := (maximumf : (⟨S1000, .f32⟩ : BufTy).Contents (Elt F) → (⟨S1000, .f32⟩ : BufTy).Contents (Elt F) → (⟨S1000, .f32⟩ : BufTy).Contents (Elt F)) main_v106 main_v107
  have main_v109 : (⟨S1000x1x1, .f32⟩ : BufTy).Contents (Elt F) := (broadcastInDim S1000x1x1 ![0] bcast_S1000_S1000x1x1_0 : (⟨S1000, .f32⟩ : BufTy).Contents (Elt F) → (⟨S1000x1x1, .f32⟩ : BufTy).Contents (Elt F)) main_v108
  have main_v110 : (⟨S1000x16x128, .f32⟩ : BufTy).Contents (Elt F) := (broadcastInDim S1000x16x128 ![0, 1, 2] bcast_S1000x1x1_S1000x16x128_0_1_2 : (⟨S1000x1x1, .f32⟩ : BufTy).Contents (Elt F) → (⟨S1000x16x128, .f32⟩ : BufTy).Contents (Elt F)) main_v109
  have main_v111 : (⟨S1000x16x128, .f32⟩ : BufTy).Contents (Elt F) := (Host.divf : (⟨S1000x16x128, .f32⟩ : BufTy).Contents (Elt F) → (⟨S1000x16x128, .f32⟩ : BufTy).Contents (Elt F) → (⟨S1000x16x128, .f32⟩ : BufTy).Contents (Elt F)) main_v102 main_v110
  have main_v112 : (⟨S1000x2048, .f32⟩ : BufTy).Contents (Elt F) := shapeCast S1000x2048 main_v111 shapeCasts_S1000x16x128_S1000x2048
  main_v112

/-- Statements %113 … %132 of the reference's @main (through main_v132), over a variable in the place of main_v112. -/
def dense1 (main_v112 : (⟨S1000x2048, .f32⟩ : BufTy).Contents (Elt F)) (main_arg18 : (⟨S2048x256, .f32⟩ : BufTy).Contents (Elt F)) (main_arg19 : (⟨S256, .f32⟩ : BufTy).Contents (Elt F)) (main_arg20 : (⟨S256, .f32⟩ : BufTy).Contents (Elt F)) : (⟨S1000x256, .f32⟩ : BufTy).Contents (Elt F) :=
  have main_v113 : (⟨S1000x256, .f32⟩ : BufTy).Contents (Elt F) := ((fun l r => Host.dotGeneral dot_S1000x2048_S2048x256_S1000x256_1_0_0_1_n_n none l r) : (⟨S1000x2048, .f32⟩ : BufTy).Contents (Elt F) → (⟨S2048x256, .f32⟩ : BufTy).Contents (Elt F) → (⟨S1000x256, .f32⟩ : BufTy).Contents (Elt F)) main_v112 main_arg18
  have main_cst_27 : (⟨S_, .f32⟩ : BufTy).Contents (Elt F) := (constant S_ .f32 0x00000000#32)
  have main_v114 : (⟨S256, .f32⟩ : BufTy).Contents (Elt F) := ((fun x v => Host.reduceAdd x v reducesTo_S1000x256_S256_d0 h_S_) : (⟨S1000x256, .f32⟩ : BufTy).Contents (Elt F) → (⟨S_, .f32⟩ : BufTy).Contents (Elt F) → (⟨S256, .f32⟩ : BufTy).Contents (Elt F)) main_v113 main_cst_27
  have main_v115 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) main_v114
  have main_cst_28 : (⟨S_, .f32⟩ : BufTy).Contents (Elt F) := (constant S_ .f32 0x447A0000#32)
  have main_v116 : (⟨S1x256, .f32⟩ : BufTy).Contents (Elt F) := (broadcastInDim S1x256 ![] bcast_S_S1x256 : (⟨S_, .f32⟩ : BufTy).Contents (Elt F) → (⟨S1x256, .f32⟩ : BufTy).Contents (Elt F)) main_cst_28
  have main_v117 : (⟨S1x256, .f32⟩ : BufTy).Contents (Elt F) := (Host.divf : (⟨S1x256, .f32⟩ : BufTy).Contents (Elt F) → (⟨S1x256, .f32⟩ : BufTy).Contents (Elt F) → (⟨S1x256, .f32⟩ : BufTy).Contents (Elt F)) main_v115 main_v116
  have main_c_29 : (⟨S_, .i32⟩ : BufTy).Contents (Elt F) := (constantI S_ 32 0#32)
  have main_v118 : (⟨S1x256, .f32⟩ : BufTy).Contents (Elt F) := f_var_5 main_v113 main_c_29
  have main_v119 : (⟨S1000x256, .f32⟩ : BufTy).Contents (Elt F) := (broadcastInDim S1000x256 ![0, 1] bcast_S1x256_S1000x256_0_1 : (⟨S1x256, .f32⟩ : BufTy).Contents (Elt F) → (⟨S1000x256, .f32⟩ : BufTy).Contents (Elt F)) main_v117
  have main_v120 : (⟨S1000x256, .f32⟩ : BufTy).Contents (Elt F) := (subf : (⟨S1000x256, .f32⟩ : BufTy).Contents (Elt F) → (⟨S1000x256, .f32⟩ : BufTy).Contents (Elt F) → (⟨S1000x256, .f32⟩ : BufTy).Contents (Elt F)) main_v113 main_v119
  have main_cst_30 : (⟨S_, .f32⟩ : BufTy).Contents (Elt F) := (constant S_ .f32 0x3A83126F#32)
  have main_v121 : (⟨S1x256, .f32⟩ : BufTy).Contents (Elt F) := (broadcastInDim S1x256 ![] bcast_S_S1x256 : (⟨S_, .f32⟩ : BufTy).Contents (Elt F) → (⟨S1x256, .f32⟩ : BufTy).Contents (Elt F)) main_cst_30
  have main_v122 : (⟨S1x256, .f32⟩ : BufTy).Contents (Elt F) := (addf : (⟨S1x256, .f32⟩ : BufTy).Contents (Elt F) → (⟨S1x256, .f32⟩ : BufTy).Contents (Elt F) → (⟨S1x256, .f32⟩ : BufTy).Contents (Elt F)) main_v118 main_v121
  have main_v123 : (⟨S1x256, .f32⟩ : BufTy).Contents (Elt F) := (Host.rsqrt : (⟨S1x256, .f32⟩ : BufTy).Contents (Elt F) → (⟨S1x256, .f32⟩ : BufTy).Contents (Elt F)) main_v122
  have main_v124 : (⟨S1000x256, .f32⟩ : BufTy).Contents (Elt F) := (broadcastInDim S1000x256 ![0, 1] bcast_S1x256_S1000x256_0_1 : (⟨S1x256, .f32⟩ : BufTy).Contents (Elt F) → (⟨S1000x256, .f32⟩ : BufTy).Contents (Elt F)) main_v123
  have main_v125 : (⟨S1000x256, .f32⟩ : BufTy).Contents (Elt F) := (mulf : (⟨S1000x256, .f32⟩ : BufTy).Contents (Elt F) → (⟨S1000x256, .f32⟩ : BufTy).Contents (Elt F) → (⟨S1000x256, .f32⟩ : BufTy).Contents (Elt F)) main_v120 main_v124
  have main_v126 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) main_arg19
  have main_v127 : (⟨S1000x256, .f32⟩ : BufTy).Contents (Elt F) := (broadcastInDim S1000x256 ![0, 1] bcast_S1x256_S1000x256_0_1 : (⟨S1x256, .f32⟩ : BufTy).Contents (Elt F) → (⟨S1000x256, .f32⟩ : BufTy).Contents (Elt F)) main_v126
  have main_v128 : (⟨S1000x256, .f32⟩ : BufTy).Contents (Elt F) := (mulf : (⟨S1000x256, .f32⟩ : BufTy).Contents (Elt F) → (⟨S1000x256, .f32⟩ : BufTy).Contents (Elt F) → (⟨S1000x256, .f32⟩ : BufTy).Contents (Elt F)) main_v125 main_v127
  have main_v129 : (⟨S1x256, .f32⟩ : BufTy).Contents (Elt F) := (broadcastInDim S1x256 ![1] bcast_S256_S1x256_1 : (⟨S256, .f32⟩ : BufTy).Contents (Elt F) → (⟨S1x256, .f32⟩ : BufTy).Contents (Elt F)) main_arg20
  have main_v130 : (⟨S1000x256, .f32⟩ : BufTy).Contents (Elt F) := (broadcastInDim S1000x256 ![0, 1] bcast_S1x256_S1000x256_0_1 : (⟨S1x256, .f32⟩ : BufTy).Contents (Elt F) → (⟨S1000x256, .f32⟩ : BufTy).Contents (Elt F)) main_v129
  have main_v131 : (⟨S1000x256, .f32⟩ : BufTy).Contents (Elt F) := (addf : (⟨S1000x256, .f32⟩ : BufTy).Contents (Elt F) → (⟨S1000x256, .f32⟩ : BufTy).Contents (Elt F) → (⟨S1000x256, .f32⟩ : BufTy).Contents (Elt F)) main_v128 main_v130
  have main_cst_31 : (⟨S_, .f32⟩ : BufTy).Contents (Elt F) := (constant S_ .f32 0x3E99999A#32)
  have main_v132 : (⟨S1000x256, .f32⟩ : BufTy).Contents (Elt F) := f_leaky_relu_7 main_v131 main_cst_31
  main_v132

/-- Statements %c_32 … %179 of the reference's @main (through main_v179), over a variable in the place of main_v132. -/
def agg2 (main_v132 : (⟨S1000x256, .f32⟩ : BufTy).Contents (Elt F)) (main_arg3 : (⟨S1000x3, .f32⟩ : BufTy).Contents (Elt F)) (main_arg4 : (⟨S8x3, .f32⟩ : BufTy).Contents (Elt F)) (main_arg9 : (⟨S1000, .i32⟩ : BufTy).Contents (Elt F)) (main_arg10 : (⟨S1000, .i32⟩ : BufTy).Contents (Elt F)) (main_arg21 : (⟨S3x16, .f32⟩ : BufTy).Contents (Elt F)) (main_arg22 : (⟨S16, .f32⟩ : BufTy).Contents (Elt F)) : (⟨S8x4096, .f32⟩ : BufTy).Contents (Elt F) :=
  have main_c_32 : (⟨S_, .i32⟩ : BufTy).Contents (Elt F) := (constantI S_ 32 0#32)
  have main_v133 : (⟨S1000, .i32⟩ : BufTy).Contents (Elt F) := (broadcastInDim S1000 ![] bcast_S_S1000 : (⟨S_, .i32⟩ : BufTy).Contents (Elt F) → (⟨S1000, .i32⟩ : BufTy).Contents (Elt F)) main_c_32
  have main_v134 : (⟨S1000, .i1⟩ : BufTy).Contents (Elt F) := (cmpi .slt : (⟨S1000, .i32⟩ : BufTy).Contents (Elt F) → (⟨S1000, .i32⟩ : BufTy).Contents (Elt F) → (⟨S1000, .i1⟩ : BufTy).Contents (Elt F)) main_arg9 main_v133
  have main_c_33 : (⟨S_, .i32⟩ : BufTy).Contents (Elt F) := (constantI S_ 32 1000#32)
  have main_v135 : (⟨S1000, .i32⟩ : BufTy).Contents (Elt F) := (broadcastInDim S1000 ![] bcast_S_S1000 : (⟨S_, .i32⟩ : BufTy).Contents (Elt F) → (⟨S1000, .i32⟩ : BufTy).Contents (Elt F)) main_c_33
  have main_v136 : (⟨S1000, .i32⟩ : BufTy).Contents (Elt F) := (addi : (⟨S1000, .i32⟩ : BufTy).Contents (Elt F) → (⟨S1000, .i32⟩ : BufTy).Contents (Elt F) → (⟨S1000, .i32⟩ : BufTy).Contents (Elt F)) main_arg9 main_v135
  have main_v137 : (⟨S1000, .i32⟩ : BufTy).Contents (Elt F) := (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)) main_v134 main_v136 main_arg9
  have main_v138 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_v137
  have main_v139 : (⟨S1000x3, .f32⟩ : BufTy).Contents (Elt F) := ((fun x i => Host.gather gather_S1000x3_S1000x1_S1000x3_1_0_n_n_0_1_13 x i) : (⟨S1000x3, .f32⟩ : BufTy).Contents (Elt F) → (⟨S1000x1, .i32⟩ : BufTy).Contents (Elt F) → (⟨S1000x3, .f32⟩ : BufTy).Contents (Elt F)) main_arg3 main_v138
  have main_c_34 : (⟨S_, .i32⟩ : BufTy).Contents (Elt F) := (constantI S_ 32 0#32)
  have main_v140 : (⟨S1000, .i32⟩ : BufTy).Contents (Elt F) := (broadcastInDim S1000 ![] bcast_S_S1000 : (⟨S_, .i32⟩ : BufTy).Contents (Elt F) → (⟨S1000, .i32⟩ : BufTy).Contents (Elt F)) main_c_34
  have main_v141 : (⟨S1000, .i1⟩ : BufTy).Contents (Elt F) := (cmpi .slt : (⟨S1000, .i32⟩ : BufTy).Contents (Elt F) → (⟨S1000, .i32⟩ : BufTy).Contents (Elt F) → (⟨S1000, .i1⟩ : BufTy).Contents (Elt F)) main_arg10 main_v140
  have main_c_35 : (⟨S_, .i32⟩ : BufTy).Contents (Elt F) := (constantI S_ 32 8#32)
  have main_v142 : (⟨S1000, .i32⟩ : BufTy).Contents (Elt F) := (broadcastInDim S1000 ![] bcast_S_S1000 : (⟨S_, .i32⟩ : BufTy).Contents (Elt F) → (⟨S1000, .i32⟩ : BufTy).Contents (Elt F)) main_c_35
  have main_v143 : (⟨S1000, .i32⟩ : BufTy).Contents (Elt F) := (addi : (⟨S1000, .i32⟩ : BufTy).Contents (Elt F) → (⟨S1000, .i32⟩ : BufTy).Contents (Elt F) → (⟨S1000, .i32⟩ : BufTy).Contents (Elt F)) main_arg10 main_v142
  have main_v144 : (⟨S1000, .i32⟩ : BufTy).Contents (Elt F) := (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)) main_v141 main_v143 main_arg10
  have main_v145 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_v144
  have main_v146 : (⟨S1000x3, .f32⟩ : BufTy).Contents (Elt F) := ((fun x i => Host.gather gather_S8x3_S1000x1_S1000x3_1_0_n_n_0_1_13 x i) : (⟨S8x3, .f32⟩ : BufTy).Contents (Elt F) → (⟨S1000x1, .i32⟩ : BufTy).Contents (Elt F) → (⟨S1000x3, .f32⟩ : BufTy).Contents (Elt F)) main_arg4 main_v145
  have main_v147 : (⟨S1000x3, .f32⟩ : BufTy).Contents (Elt F) := (subf : (⟨S1000x3, .f32⟩ : BufTy).Contents (Elt F) → (⟨S1000x3, .f32⟩ : BufTy).Contents (Elt F) → (⟨S1000x3, .f32⟩ : BufTy).Contents (Elt F)) main_v139 main_v146
  have main_cst_36 : (⟨S_, .f32⟩ : BufTy).Contents (Elt F) := (constant S_ .f32 0x40232AD7#32)
  have main_v148 : (⟨S1000x3, .f32⟩ : BufTy).Contents (Elt F) := (broadcastInDim S1000x3 ![] bcast_S_S1000x3 : (⟨S_, .f32⟩ : BufTy).Contents (Elt F) → (⟨S1000x3, .f32⟩ : BufTy).Contents (Elt F)) main_cst_36
  have main_v149 : (⟨S1000x3, .f32⟩ : BufTy).Contents (Elt F) := (Host.divf : (⟨S1000x3, .f32⟩ : BufTy).Contents (Elt F) → (⟨S1000x3, .f32⟩ : BufTy).Contents (Elt F) → (⟨S1000x3, .f32⟩ : BufTy).Contents (Elt F)) main_v147 main_v148
  have main_v150 : (⟨S1000x16, .f32⟩ : BufTy).Contents (Elt F) := ((fun l r => Host.dotGeneral dot_S1000x3_S3x16_S1000x16_1_0_0_1_n_n none l r) : (⟨S1000x3, .f32⟩ : BufTy).Contents (Elt F) → (⟨S3x16, .f32⟩ : BufTy).Contents (Elt F) → (⟨S1000x16, .f32⟩ : BufTy).Contents (Elt F)) main_v149 main_arg21
  have main_v151 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_arg22
  have main_v152 : (⟨S1000x16, .f32⟩ : BufTy).Contents (Elt F) := (broadcastInDim S1000x16 ![0, 1] bcast_S1x16_S1000x16_0_1 : (⟨S1x16, .f32⟩ : BufTy).Contents (Elt F) → (⟨S1000x16, .f32⟩ : BufTy).Contents (Elt F)) main_v151
  have main_v153 : (⟨S1000x16, .f32⟩ : BufTy).Contents (Elt F) := (addf : (⟨S1000x16, .f32⟩ : BufTy).Contents (Elt F) → (⟨S1000x16, .f32⟩ : BufTy).Contents (Elt F) → (⟨S1000x16, .f32⟩ : BufTy).Contents (Elt F)) main_v150 main_v152
  have main_cst_37 : (⟨S_, .f32⟩ : BufTy).Contents (Elt F) := (constant S_ .f32 0x3E4CCCCD#32)
  have main_v154 : (⟨S1000x16, .f32⟩ : BufTy).Contents (Elt F) := f_leaky_relu_9 main_v153 main_cst_37
  have main_v155 : (⟨S1000x16x1, .f32⟩ : BufTy).Contents (Elt F) := (broadcastInDim S1000x16x1 ![0, 1] bcast_S1000x16_S1000x16x1_0_1 : (⟨S1000x16, .f32⟩ : BufTy).Contents (Elt F) → (⟨S1000x16x1, .f32⟩ : BufTy).Contents (Elt F)) main_v154
  have main_c_38 : (⟨S_, .i32⟩ : BufTy).Contents (Elt F) := (constantI S_ 32 0#32)
  have main_v156 : (⟨S1000, .i32⟩ : BufTy).Contents (Elt F) := (broadcastInDim S1000 ![] bcast_S_S1000 : (⟨S_, .i32⟩ : BufTy).Contents (Elt F) → (⟨S1000, .i32⟩ : BufTy).Contents (Elt F)) main_c_38
  have main_v157 : (⟨S1000, .i1⟩ : BufTy).Contents (Elt F) := (cmpi .slt : (⟨S1000, .i32⟩ : BufTy).Contents (Elt F) → (⟨S1000, .i32⟩ : BufTy).Contents (Elt F) → (⟨S1000, .i1⟩ : BufTy).Contents (Elt F)) main_arg9 main_v156
  have main_c_39 : (⟨S_, .i32⟩ : BufTy).Contents (Elt F) := (constantI S_ 32 1000#32)
  have main_v158 : (⟨S1000, .i32⟩ : BufTy).Contents (Elt F) := (broadcastInDim S1000 ![] bcast_S_S1000 : (⟨S_, .i32⟩ : BufTy).Contents (Elt F) → (⟨S1000, .i32⟩ : BufTy).Contents (Elt F)) main_c_39
  have main_v159 : (⟨S1000, .i32⟩ : BufTy).Contents (Elt F) := (addi : (⟨S1000, .i32⟩ : BufTy).Contents (Elt F) → (⟨S1000, .i32⟩ : BufTy).Contents (Elt F) → (⟨S1000, .i32⟩ : BufTy).Contents (Elt F)) main_arg9 main_v158
  have main_v160 : (⟨S1000, .i32⟩ : BufTy).Contents (Elt F) := (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)) main_v157 main_v159 main_arg9
  have main_v161 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_v160
  have main_v162 : (⟨S1000x256, .f32⟩ : BufTy).Contents (Elt F) := ((fun x i => Host.gather gather_S1000x256_S1000x1_S1000x256_1_0_n_n_0_1_1256 x i) : (⟨S1000x256, .f32⟩ : BufTy).Contents (Elt F) → (⟨S1000x1, .i32⟩ : BufTy).Contents (Elt F) → (⟨S1000x256, .f32⟩ : BufTy).Contents (Elt F)) main_v132 main_v161
  have main_v163 : (⟨S1000x1x256, .f32⟩ : BufTy).Contents (Elt F) := (broadcastInDim S1000x1x256 ![0, 2] bcast_S1000x256_S1000x1x256_0_2 : (⟨S1000x256, .f32⟩ : BufTy).Contents (Elt F) → (⟨S1000x1x256, .f32⟩ : BufTy).Contents (Elt F)) main_v162
  have main_v164 : (⟨S1000x16x256, .f32⟩ : BufTy).Contents (Elt F) := (broadcastInDim S1000x16x256 ![0, 1, 2] bcast_S1000x16x1_S1000x16x256_0_1_2 : (⟨S1000x16x1, .f32⟩ : BufTy).Contents (Elt F) → (⟨S1000x16x256, .f32⟩ : BufTy).Contents (Elt F)) main_v155
  have main_v165 : (⟨S1000x16x256, .f32⟩ : BufTy).Contents (Elt F) := (broadcastInDim S1000x16x256 ![0, 1, 2] bcast_S1000x1x256_S1000x16x256_0_1_2 : (⟨S1000x1x256, .f32⟩ : BufTy).Contents (Elt F) → (⟨S1000x16x256, .f32⟩ : BufTy).Contents (Elt F)) main_v163
  have main_v166 : (⟨S1000x16x256, .f32⟩ : BufTy).Contents (Elt F) := (mulf : (⟨S1000x16x256, .f32⟩ : BufTy).Contents (Elt F) → (⟨S1000x16x256, .f32⟩ : BufTy).Contents (Elt F) → (⟨S1000x16x256, .f32⟩ : BufTy).Contents (Elt F)) main_v164 main_v165
  have main_cst_40 : (⟨S_, .f32⟩ : BufTy).Contents (Elt F) := (constant S_ .f32 0x00000000#32)
  have main_v167 : (⟨S8x16x256, .f32⟩ : BufTy).Contents (Elt F) := (broadcastInDim S8x16x256 ![] bcast_S_S8x16x256 : (⟨S_, .f32⟩ : BufTy).Contents (Elt F) → (⟨S8x16x256, .f32⟩ : BufTy).Contents (Elt F)) main_cst_40
  have main_v168 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_arg10
  have main_v169 : (⟨S8x16x256, .f32⟩ : BufTy).Contents (Elt F) := ((fun x i u => Host.scatterAdd scatter_S8x16x256_S1000x1_S1000x16x256_12_0_0_1 x i u) : (⟨S8x16x256, .f32⟩ : BufTy).Contents (Elt F) → (⟨S1000x1, .i32⟩ : BufTy).Contents (Elt F) → (⟨S1000x16x256, .f32⟩ : BufTy).Contents (Elt F) → (⟨S8x16x256, .f32⟩ : BufTy).Contents (Elt F)) main_v167 main_v168 main_v166
  have main_cst_41 : (⟨S_, .f32⟩ : BufTy).Contents (Elt F) := (constant S_ .f32 0x3F800000#32)
  have main_v170 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_41
  have main_cst_42 : (⟨S_, .f32⟩ : BufTy).Contents (Elt F) := (constant S_ .f32 0x00000000#32)
  have main_v171 : (⟨S8, .f32⟩ : BufTy).Contents (Elt F) := (broadcastInDim S8 ![] bcast_S_S8 : (⟨S_, .f32⟩ : BufTy).Contents (Elt F) → (⟨S8, .f32⟩ : BufTy).Contents (Elt F)) main_cst_42
  have main_v172 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_arg10
  have main_v173 : (⟨S8, .f32⟩ : BufTy).Contents (Elt F) := ((fun x i u => Host.scatterAdd scatter_S8_S1000x1_S1000_n_0_0_1 x i u) : (⟨S8, .f32⟩ : BufTy).Contents (Elt F) → (⟨S1000x1, .i32⟩ : BufTy).Contents (Elt F) → (⟨S1000, .f32⟩ : BufTy).Contents (Elt F) → (⟨S8, .f32⟩ : BufTy).Contents (Elt F)) main_v171 main_v172 main_v170
  have main_cst_43 : (⟨S_, .f32⟩ : BufTy).Contents (Elt F) := (constant S_ .f32 0x3F800000#32)
  have main_v174 : (⟨S8, .f32⟩ : BufTy).Contents (Elt F) := (broadcastInDim S8 ![] bcast_S_S8 : (⟨S_, .f32⟩ : BufTy).Contents (Elt F) → (⟨S8, .f32⟩ : BufTy).Contents (Elt F)) main_cst_43
  have main_v175 : (⟨S8, .f32⟩ : BufTy).Contents (Elt F) := (maximumf : (⟨S8, .f32⟩ : BufTy).Contents (Elt F) → (⟨S8, .f32⟩ : BufTy).Contents (Elt F) → (⟨S8, .f32⟩ : BufTy).Contents (Elt F)) main_v173 main_v174
  have main_v176 : (⟨S8x1x1, .f32⟩ : BufTy).Contents (Elt F) := (broadcastInDim S8x1x1 ![0] bcast_S8_S8x1x1_0 : (⟨S8, .f32⟩ : BufTy).Contents (Elt F) → (⟨S8x1x1, .f32⟩ : BufTy).Contents (Elt F)) main_v175
  have main_v177 : (⟨S8x16x256, .f32⟩ : BufTy).Contents (Elt F) := (broadcastInDim S8x16x256 ![0, 1, 2] bcast_S8x1x1_S8x16x256_0_1_2 : (⟨S8x1x1, .f32⟩ : BufTy).Contents (Elt F) → (⟨S8x16x256, .f32⟩ : BufTy).Contents (Elt F)) main_v176
  have main_v178 : (⟨S8x16x256, .f32⟩ : BufTy).Contents (Elt F) := (Host.divf : (⟨S8x16x256, .f32⟩ : BufTy).Contents (Elt F) → (⟨S8x16x256, .f32⟩ : BufTy).Contents (Elt F) → (⟨S8x16x256, .f32⟩ : BufTy).Contents (Elt F)) main_v169 main_v177
  have main_v179 : (⟨S8x4096, .f32⟩ : BufTy).Contents (Elt F) := shapeCast S8x4096 main_v178 shapeCasts_S8x16x256_S8x4096
  main_v179

/-- Statements %180 … %199 of the reference's @main (through main_v199), over a variable in the place of main_v179. -/
def dense2 (main_v179 : (⟨S8x4096, .f32⟩ : BufTy).Contents (Elt F)) (main_arg23 : (⟨S4096x512, .f32⟩ : BufTy).Contents (Elt F)) (main_arg24 : (⟨S512, .f32⟩ : BufTy).Contents (Elt F)) (main_arg25 : (⟨S512, .f32⟩ : BufTy).Contents (Elt F)) : (⟨S8x512, .f32⟩ : BufTy).Contents (Elt F) :=
  have main_v180 : (⟨S8x512, .f32⟩ : BufTy).Contents (Elt F) := ((fun l r => Host.dotGeneral dot_S8x4096_S4096x512_S8x512_1_0_0_1_n_n none l r) : (⟨S8x4096, .f32⟩ : BufTy).Contents (Elt F) → (⟨S4096x512, .f32⟩ : BufTy).Contents (Elt F) → (⟨S8x512, .f32⟩ : BufTy).Contents (Elt F)) main_v179 main_arg23
  have main_cst_44 : (⟨S_, .f32⟩ : BufTy).Contents (Elt F) := (constant S_ .f32 0x00000000#32)
  have main_v181 : (⟨S512, .f32⟩ : BufTy).Contents (Elt F) := ((fun x v => Host.reduceAdd x v reducesTo_S8x512_S512_d0 h_S_) : (⟨S8x512, .f32⟩ : BufTy).Contents (Elt F) → (⟨S_, .f32⟩ : BufTy).Contents (Elt F) → (⟨S512, .f32⟩ : BufTy).Contents (Elt F)) main_v180 main_cst_44
  have main_v182 : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) main_v181
  have main_cst_45 : (⟨S_, .f32⟩ : BufTy).Contents (Elt F) := (constant S_ .f32 0x41000000#32)
  have main_v183 : (⟨S1x512, .f32⟩ : BufTy).Contents (Elt F) := (broadcastInDim S1x512 ![] bcast_S_S1x512 : (⟨S_, .f32⟩ : BufTy).Contents (Elt F) → (⟨S1x512, .f32⟩ : BufTy).Contents (Elt F)) main_cst_45
  have main_v184 : (⟨S1x512, .f32⟩ : BufTy).Contents (Elt F) := (Host.divf : (⟨S1x512, .f32⟩ : BufTy).Contents (Elt F) → (⟨S1x512, .f32⟩ : BufTy).Contents (Elt F) → (⟨S1x512, .f32⟩ : BufTy).Contents (Elt F)) main_v182 main_v183
  have main_c_46 : (⟨S_, .i32⟩ : BufTy).Contents (Elt F) := (constantI S_ 32 0#32)
  have main_v185 : (⟨S1x512, .f32⟩ : BufTy).Contents (Elt F) := f_var_11 main_v180 main_c_46
  have main_v186 : (⟨S8x512, .f32⟩ : BufTy).Contents (Elt F) := (broadcastInDim S8x512 ![0, 1] bcast_S1x512_S8x512_0_1 : (⟨S1x512, .f32⟩ : BufTy).Contents (Elt F) → (⟨S8x512, .f32⟩ : BufTy).Contents (Elt F)) main_v184
  have main_v187 : (⟨S8x512, .f32⟩ : BufTy).Contents (Elt F) := (subf : (⟨S8x512, .f32⟩ : BufTy).Contents (Elt F) → (⟨S8x512, .f32⟩ : BufTy).Contents (Elt F) → (⟨S8x512, .f32⟩ : BufTy).Contents (Elt F)) main_v180 main_v186
  have main_cst_47 : (⟨S_, .f32⟩ : BufTy).Contents (Elt F) := (constant S_ .f32 0x3A83126F#32)
  have main_v188 : (⟨S1x512, .f32⟩ : BufTy).Contents (Elt F) := (broadcastInDim S1x512 ![] bcast_S_S1x512 : (⟨S_, .f32⟩ : BufTy).Contents (Elt F) → (⟨S1x512, .f32⟩ : BufTy).Contents (Elt F)) main_cst_47
  have main_v189 : (⟨S1x512, .f32⟩ : BufTy).Contents (Elt F) := (addf : (⟨S1x512, .f32⟩ : BufTy).Contents (Elt F) → (⟨S1x512, .f32⟩ : BufTy).Contents (Elt F) → (⟨S1x512, .f32⟩ : BufTy).Contents (Elt F)) main_v185 main_v188
  have main_v190 : (⟨S1x512, .f32⟩ : BufTy).Contents (Elt F) := (Host.rsqrt : (⟨S1x512, .f32⟩ : BufTy).Contents (Elt F) → (⟨S1x512, .f32⟩ : BufTy).Contents (Elt F)) main_v189
  have main_v191 : (⟨S8x512, .f32⟩ : BufTy).Contents (Elt F) := (broadcastInDim S8x512 ![0, 1] bcast_S1x512_S8x512_0_1 : (⟨S1x512, .f32⟩ : BufTy).Contents (Elt F) → (⟨S8x512, .f32⟩ : BufTy).Contents (Elt F)) main_v190
  have main_v192 : (⟨S8x512, .f32⟩ : BufTy).Contents (Elt F) := (mulf : (⟨S8x512, .f32⟩ : BufTy).Contents (Elt F) → (⟨S8x512, .f32⟩ : BufTy).Contents (Elt F) → (⟨S8x512, .f32⟩ : BufTy).Contents (Elt F)) main_v187 main_v191
  have main_v193 : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) main_arg24
  have main_v194 : (⟨S8x512, .f32⟩ : BufTy).Contents (Elt F) := (broadcastInDim S8x512 ![0, 1] bcast_S1x512_S8x512_0_1 : (⟨S1x512, .f32⟩ : BufTy).Contents (Elt F) → (⟨S8x512, .f32⟩ : BufTy).Contents (Elt F)) main_v193
  have main_v195 : (⟨S8x512, .f32⟩ : BufTy).Contents (Elt F) := (mulf : (⟨S8x512, .f32⟩ : BufTy).Contents (Elt F) → (⟨S8x512, .f32⟩ : BufTy).Contents (Elt F) → (⟨S8x512, .f32⟩ : BufTy).Contents (Elt F)) main_v192 main_v194
  have main_v196 : (⟨S1x512, .f32⟩ : BufTy).Contents (Elt F) := (broadcastInDim S1x512 ![1] bcast_S512_S1x512_1 : (⟨S512, .f32⟩ : BufTy).Contents (Elt F) → (⟨S1x512, .f32⟩ : BufTy).Contents (Elt F)) main_arg25
  have main_v197 : (⟨S8x512, .f32⟩ : BufTy).Contents (Elt F) := (broadcastInDim S8x512 ![0, 1] bcast_S1x512_S8x512_0_1 : (⟨S1x512, .f32⟩ : BufTy).Contents (Elt F) → (⟨S8x512, .f32⟩ : BufTy).Contents (Elt F)) main_v196
  have main_v198 : (⟨S8x512, .f32⟩ : BufTy).Contents (Elt F) := (addf : (⟨S8x512, .f32⟩ : BufTy).Contents (Elt F) → (⟨S8x512, .f32⟩ : BufTy).Contents (Elt F) → (⟨S8x512, .f32⟩ : BufTy).Contents (Elt F)) main_v195 main_v197
  have main_cst_48 : (⟨S_, .f32⟩ : BufTy).Contents (Elt F) := (constant S_ .f32 0x3E99999A#32)
  have main_v199 : (⟨S8x512, .f32⟩ : BufTy).Contents (Elt F) := f_leaky_relu_13 main_v198 main_cst_48
  main_v199

/-- Statements %200 … %222 of the reference's @main (through main_v222), over a variable in the place of main_v199. -/
def head (main_v199 : (⟨S8x512, .f32⟩ : BufTy).Contents (Elt F)) (main_arg26 : (⟨S512x128, .f32⟩ : BufTy).Contents (Elt F)) (main_arg27 : (⟨S128, .f32⟩ : BufTy).Contents (Elt F)) (main_arg28 : (⟨S128, .f32⟩ : BufTy).Contents (Elt F)) (main_arg29 : (⟨S128, .f32⟩ : BufTy).Contents (Elt F)) : (⟨S8x128, .f32⟩ : BufTy).Contents (Elt F) :=
  have main_v200 : (⟨S8x128, .f32⟩ : BufTy).Contents (Elt F) := ((fun l r => Host.dotGeneral dot_S8x512_S512x128_S8x128_1_0_0_1_n_n none l r) : (⟨S8x512, .f32⟩ : BufTy).Contents (Elt F) → (⟨S512x128, .f32⟩ : BufTy).Contents (Elt F) → (⟨S8x128, .f32⟩ : BufTy).Contents (Elt F)) main_v199 main_arg26
  have main_v201 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg27
  have main_v202 : (⟨S8x128, .f32⟩ : BufTy).Contents (Elt F) := (broadcastInDim S8x128 ![0, 1] bcast_S1x128_S8x128_0_1 : (⟨S1x128, .f32⟩ : BufTy).Contents (Elt F) → (⟨S8x128, .f32⟩ : BufTy).Contents (Elt F)) main_v201
  have main_v203 : (⟨S8x128, .f32⟩ : BufTy).Contents (Elt F) := (addf : (⟨S8x128, .f32⟩ : BufTy).Contents (Elt F) → (⟨S8x128, .f32⟩ : BufTy).Contents (Elt F) → (⟨S8x128, .f32⟩ : BufTy).Contents (Elt F)) main_v200 main_v202
  have main_cst_49 : (⟨S_, .f32⟩ : BufTy).Contents (Elt F) := (constant S_ .f32 0x00000000#32)
  have main_v204 : (⟨S128, .f32⟩ : BufTy).Contents (Elt F) := ((fun x v => Host.reduceAdd x v reducesTo_S8x128_S128_d0 h_S_) : (⟨S8x128, .f32⟩ : BufTy).Contents (Elt F) → (⟨S_, .f32⟩ : BufTy).Contents (Elt F) → (⟨S128, .f32⟩ : BufTy).Contents (Elt F)) main_v203 main_cst_49
  have main_v205 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_v204
  have main_cst_50 : (⟨S_, .f32⟩ : BufTy).Contents (Elt F) := (constant S_ .f32 0x41000000#32)
  have main_v206 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_50
  have main_v207 : (⟨S1x128, .f32⟩ : BufTy).Contents (Elt F) := (Host.divf : (⟨S1x128, .f32⟩ : BufTy).Contents (Elt F) → (⟨S1x128, .f32⟩ : BufTy).Contents (Elt F) → (⟨S1x128, .f32⟩ : BufTy).Contents (Elt F)) main_v205 main_v206
  have main_c_51 : (⟨S_, .i32⟩ : BufTy).Contents (Elt F) := (constantI S_ 32 0#32)
  have main_v208 : (⟨S1x128, .f32⟩ : BufTy).Contents (Elt F) := f_var_15 main_v203 main_c_51
  have main_v209 : (⟨S8x128, .f32⟩ : BufTy).Contents (Elt F) := (broadcastInDim S8x128 ![0, 1] bcast_S1x128_S8x128_0_1 : (⟨S1x128, .f32⟩ : BufTy).Contents (Elt F) → (⟨S8x128, .f32⟩ : BufTy).Contents (Elt F)) main_v207
  have main_v210 : (⟨S8x128, .f32⟩ : BufTy).Contents (Elt F) := (subf : (⟨S8x128, .f32⟩ : BufTy).Contents (Elt F) → (⟨S8x128, .f32⟩ : BufTy).Contents (Elt F) → (⟨S8x128, .f32⟩ : BufTy).Contents (Elt F)) main_v203 main_v209
  have main_cst_52 : (⟨S_, .f32⟩ : BufTy).Contents (Elt F) := (constant S_ .f32 0x3A83126F#32)
  have main_v211 : (⟨S1x128, .f32⟩ : BufTy).Contents (Elt F) := (broadcastInDim S1x128 ![] bcast_S_S1x128 : (⟨S_, .f32⟩ : BufTy).Contents (Elt F) → (⟨S1x128, .f32⟩ : BufTy).Contents (Elt F)) main_cst_52
  have main_v212 : (⟨S1x128, .f32⟩ : BufTy).Contents (Elt F) := (addf : (⟨S1x128, .f32⟩ : BufTy).Contents (Elt F) → (⟨S1x128, .f32⟩ : BufTy).Contents (Elt F) → (⟨S1x128, .f32⟩ : BufTy).Contents (Elt F)) main_v208 main_v211
  have main_v213 : (⟨S1x128, .f32⟩ : BufTy).Contents (Elt F) := (Host.rsqrt : (⟨S1x128, .f32⟩ : BufTy).Contents (Elt F) → (⟨S1x128, .f32⟩ : BufTy).Contents (Elt F)) main_v212
  have main_v214 : (⟨S8x128, .f32⟩ : BufTy).Contents (Elt F) := (broadcastInDim S8x128 ![0, 1] bcast_S1x128_S8x128_0_1 : (⟨S1x128, .f32⟩ : BufTy).Contents (Elt F) → (⟨S8x128, .f32⟩ : BufTy).Contents (Elt F)) main_v213
  have main_v215 : (⟨S8x128, .f32⟩ : BufTy).Contents (Elt F) := (mulf : (⟨S8x128, .f32⟩ : BufTy).Contents (Elt F) → (⟨S8x128, .f32⟩ : BufTy).Contents (Elt F) → (⟨S8x128, .f32⟩ : BufTy).Contents (Elt F)) main_v210 main_v214
  have main_v216 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg28
  have main_v217 : (⟨S8x128, .f32⟩ : BufTy).Contents (Elt F) := (broadcastInDim S8x128 ![0, 1] bcast_S1x128_S8x128_0_1 : (⟨S1x128, .f32⟩ : BufTy).Contents (Elt F) → (⟨S8x128, .f32⟩ : BufTy).Contents (Elt F)) main_v216
  have main_v218 : (⟨S8x128, .f32⟩ : BufTy).Contents (Elt F) := (mulf : (⟨S8x128, .f32⟩ : BufTy).Contents (Elt F) → (⟨S8x128, .f32⟩ : BufTy).Contents (Elt F) → (⟨S8x128, .f32⟩ : BufTy).Contents (Elt F)) main_v215 main_v217
  have main_v219 : (⟨S1x128, .f32⟩ : BufTy).Contents (Elt F) := (broadcastInDim S1x128 ![1] bcast_S128_S1x128_1 : (⟨S128, .f32⟩ : BufTy).Contents (Elt F) → (⟨S1x128, .f32⟩ : BufTy).Contents (Elt F)) main_arg29
  have main_v220 : (⟨S8x128, .f32⟩ : BufTy).Contents (Elt F) := (broadcastInDim S8x128 ![0, 1] bcast_S1x128_S8x128_0_1 : (⟨S1x128, .f32⟩ : BufTy).Contents (Elt F) → (⟨S8x128, .f32⟩ : BufTy).Contents (Elt F)) main_v219
  have main_v221 : (⟨S8x128, .f32⟩ : BufTy).Contents (Elt F) := (addf : (⟨S8x128, .f32⟩ : BufTy).Contents (Elt F) → (⟨S8x128, .f32⟩ : BufTy).Contents (Elt F) → (⟨S8x128, .f32⟩ : BufTy).Contents (Elt F)) main_v218 main_v220
  have main_cst_53 : (⟨S_, .f32⟩ : BufTy).Contents (Elt F) := (constant S_ .f32 0x3E99999A#32)
  have main_v222 : (⟨S8x128, .f32⟩ : BufTy).Contents (Elt F) := f_leaky_relu_16 main_v221 main_cst_53
  main_v222

end Cert.Bridge.RefSpec

end
-- ==== Proof.RefRunOps00.lean ====
/- Operations 1 … 64 of the reference's straight line (statements %c … %45 of its @main, inside agg0), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops00 : List (HloOp τ sig (Elt F)) :=
  [ StableHlo.nullary main_c (constantI S_ 32 0#32),
    StableHlo.unary main_c main_v0 (broadcastInDim S980628 ![] bcast_S_S980628 : (⟨S_, .i32⟩ : BufTy).Contents (Elt F) → (⟨S980628, .i32⟩ : BufTy).Contents (Elt F)),
    StableHlo.binary main_arg5 main_v0 main_v1 (cmpi .slt : (⟨S980628, .i32⟩ : BufTy).Contents (Elt F) → (⟨S980628, .i32⟩ : BufTy).Contents (Elt F) → (⟨S980628, .i1⟩ : BufTy).Contents (Elt F)),
    StableHlo.nullary main_c_0 (constantI S_ 32 262144#32),
    StableHlo.unary main_c_0 main_v2 (broadcastInDim S980628 ![] bcast_S_S980628 : (⟨S_, .i32⟩ : BufTy).Contents (Elt F) → (⟨S980628, .i32⟩ : BufTy).Contents (Elt F)),
    StableHlo.binary main_arg5 main_v2 main_v3 (addi : (⟨S980628, .i32⟩ : BufTy).Contents (Elt F) → (⟨S980628, .i32⟩ : BufTy).Contents (Elt F) → (⟨S980628, .i32⟩ : BufTy).Contents (Elt F)),
    StableHlo.ternary main_v1 main_v3 main_arg5 main_v4 (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)),
    StableHlo.unary main_v4 main_v5 (broadcastInDim S980628x1 ![0] bcast_S980628_S980628x1_0 : (⟨S980628, .i32⟩ : BufTy).Contents (Elt F) → (⟨S980628x1, .i32⟩ : BufTy).Contents (Elt F)),
    StableHlo.binary main_arg1 main_v5 main_v6 ((fun x i => Host.gather gather_S262144x3_S980628x1_S980628x3_1_0_n_n_0_1_13 x i) : (⟨S262144x3, .f32⟩ : BufTy).Contents (Elt F) → (⟨S980628x1, .i32⟩ : BufTy).Contents (Elt F) → (⟨S980628x3, .f32⟩ : BufTy).Contents (Elt F)),
    StableHlo.nullary main_c_1 (constantI S_ 32 0#32),
    StableHlo.unary main_c_1 main_v7 (broadcastInDim S980628 ![] bcast_S_S980628 : (⟨S_, .i32⟩ : BufTy).Contents (Elt F) → (⟨S980628, .i32⟩ : BufTy).Contents (Elt F)),
    StableHlo.binary main_arg6 main_v7 main_v8 (cmpi .slt : (⟨S980628, .i32⟩ : BufTy).Contents (Elt F) → (⟨S980628, .i32⟩ : BufTy).Contents (Elt F) → (⟨S980628, .i1⟩ : BufTy).Contents (Elt F)),
    StableHlo.nullary main_c_2 (constantI S_ 32 8000#32),
    StableHlo.unary main_c_2 main_v9 (broadcastInDim S980628 ![] bcast_S_S980628 : (⟨S_, .i32⟩ : BufTy).Contents (Elt F) → (⟨S980628, .i32⟩ : BufTy).Contents (Elt F)),
    StableHlo.binary main_arg6 main_v9 main_v10 (addi : (⟨S980628, .i32⟩ : BufTy).Contents (Elt F) → (⟨S980628, .i32⟩ : BufTy).Contents (Elt F) → (⟨S980628, .i32⟩ : BufTy).Contents (Elt F)),
    StableHlo.ternary main_v8 main_v10 main_arg6 main_v11 (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)),
    StableHlo.unary main_v11 main_v12 (broadcastInDim S980628x1 ![0] bcast_S980628_S980628x1_0 : (⟨S980628, .i32⟩ : BufTy).Contents (Elt F) → (⟨S980628x1, .i32⟩ : BufTy).Contents (Elt F)),
    StableHlo.binary main_arg2 main_v12 main_v13 ((fun x i => Host.gather gather_S8000x3_S980628x1_S980628x3_1_0_n_n_0_1_13 x i) : (⟨S8000x3, .f32⟩ : BufTy).Contents (Elt F) → (⟨S980628x1, .i32⟩ : BufTy).Contents (Elt F) → (⟨S980628x3, .f32⟩ : BufTy).Contents (Elt F)),
    StableHlo.binary main_v6 main_v13 main_v14 (subf : (⟨S980628x3, .f32⟩ : BufTy).Contents (Elt F) → (⟨S980628x3, .f32⟩ : BufTy).Contents (Elt F) → (⟨S980628x3, .f32⟩ : BufTy).Contents (Elt F)),
    StableHlo.nullary main_cst (constant S_ .f32 0x3DCCCCCD#32),
    StableHlo.unary main_cst main_v15 (broadcastInDim S980628x3 ![] bcast_S_S980628x3 : (⟨S_, .f32⟩ : BufTy).Contents (Elt F) → (⟨S980628x3, .f32⟩ : BufTy).Contents (Elt F)),
    StableHlo.binary main_v14 main_v15 main_v16 (Host.divf : (⟨S980628x3, .f32⟩ : BufTy).Contents (Elt F) → (⟨S980628x3, .f32⟩ : BufTy).Contents (Elt F) → (⟨S980628x3, .f32⟩ : BufTy).Contents (Elt F)),
    StableHlo.binary main_v16 main_arg11 main_v17 ((fun l r => Host.dotGeneral dot_S980628x3_S3x16_S980628x16_1_0_0_1_n_n none l r) : (⟨S980628x3, .f32⟩ : BufTy).Contents (Elt F) → (⟨S3x16, .f32⟩ : BufTy).Contents (Elt F) → (⟨S980628x16, .f32⟩ : BufTy).Contents (Elt F)),
    StableHlo.unary main_arg12 main_v18 (broadcastInDim S1x16 ![1] bcast_S16_S1x16_1 : (⟨S16, .f32⟩ : BufTy).Contents (Elt F) → (⟨S1x16, .f32⟩ : BufTy).Contents (Elt F)),
    StableHlo.unary main_v18 main_v19 (broadcastInDim S980628x16 ![0, 1] bcast_S1x16_S980628x16_0_1 : (⟨S1x16, .f32⟩ : BufTy).Contents (Elt F) → (⟨S980628x16, .f32⟩ : BufTy).Contents (Elt F)),
    StableHlo.binary main_v17 main_v19 main_v20 (addf : (⟨S980628x16, .f32⟩ : BufTy).Contents (Elt F) → (⟨S980628x16, .f32⟩ : BufTy).Contents (Elt F) → (⟨S980628x16, .f32⟩ : BufTy).Contents (Elt F)),
    StableHlo.nullary main_cst_3 (constant S_ .f32 0x3E4CCCCD#32),
    StableHlo.TRef.nullary main_call0.cst (constant S_ .f32 0x00000000#32),
    StableHlo.TRef.unary main_call0.cst main_call0.v0 (broadcastInDim S980628x16 ![] bcast_S_S980628x16),
    StableHlo.TRef.binary (.of main_v20 : StableHlo.TRef sig ⟨S980628x16, .f32⟩) main_call0.v0 main_call0.v1 (cmpf .oge),
    StableHlo.TRef.unary (.of main_cst_3 : StableHlo.TRef sig ⟨S_, .f32⟩) main_call0.v2 id,
    StableHlo.TRef.unary main_call0.v2 main_call0.v3 (broadcastInDim S980628x16 ![] bcast_S_S980628x16),
    StableHlo.TRef.binary main_call0.v3 (.of main_v20 : StableHlo.TRef sig ⟨S980628x16, .f32⟩) main_call0.v4 mulf,
    StableHlo.TRef.ternary main_call0.v1 (.of main_v20 : StableHlo.TRef sig ⟨S980628x16, .f32⟩) main_call0.v4 main_call0.call0.v0 select,
    StableHlo.unary main_v21 main_v22 (broadcastInDim S980628x16x1 ![0, 1] bcast_S980628x16_S980628x16x1_0_1 : (⟨S980628x16, .f32⟩ : BufTy).Contents (Elt F) → (⟨S980628x16x1, .f32⟩ : BufTy).Contents (Elt F)),
    StableHlo.nullary main_c_4 (constantI S_ 32 0#32),
    StableHlo.unary main_c_4 main_v23 (broadcastInDim S980628 ![] bcast_S_S980628 : (⟨S_, .i32⟩ : BufTy).Contents (Elt F) → (⟨S980628, .i32⟩ : BufTy).Contents (Elt F)),
    StableHlo.binary main_arg5 main_v23 main_v24 (cmpi .slt : (⟨S980628, .i32⟩ : BufTy).Contents (Elt F) → (⟨S980628, .i32⟩ : BufTy).Contents (Elt F) → (⟨S980628, .i1⟩ : BufTy).Contents (Elt F)),
    StableHlo.nullary main_c_5 (constantI S_ 32 262144#32),
    StableHlo.unary main_c_5 main_v25 (broadcastInDim S980628 ![] bcast_S_S980628 : (⟨S_, .i32⟩ : BufTy).Contents (Elt F) → (⟨S980628, .i32⟩ : BufTy).Contents (Elt F)),
    StableHlo.binary main_arg5 main_v25 main_v26 (addi : (⟨S980628, .i32⟩ : BufTy).Contents (Elt F) → (⟨S980628, .i32⟩ : BufTy).Contents (Elt F) → (⟨S980628, .i32⟩ : BufTy).Contents (Elt F)),
    StableHlo.ternary main_v24 main_v26 main_arg5 main_v27 (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)),
    StableHlo.unary main_v27 main_v28 (broadcastInDim S980628x1 ![0] bcast_S980628_S980628x1_0 : (⟨S980628, .i32⟩ : BufTy).Contents (Elt F) → (⟨S980628x1, .i32⟩ : BufTy).Contents (Elt F)),
    StableHlo.binary main_arg0 main_v28 main_v29 ((fun x i => Host.gather gather_S262144x1_S980628x1_S980628x1_1_0_n_n_0_1_11 x i) : (⟨S262144x1, .f32⟩ : BufTy).Contents (Elt F) → (⟨S980628x1, .i32⟩ : BufTy).Contents (Elt F) → (⟨S980628x1, .f32⟩ : BufTy).Contents (Elt F)),
    StableHlo.unary main_v29 main_v30 (broadcastInDim S980628x1x1 ![0, 2] bcast_S980628x1_S980628x1x1_0_2 : (⟨S980628x1, .f32⟩ : BufTy).Contents (Elt F) → (⟨S980628x1x1, .f32⟩ : BufTy).Contents (Elt F)),
    StableHlo.unary main_v30 main_v31 (broadcastInDim S980628x16x1 ![0, 1, 2] bcast_S980628x1x1_S980628x16x1_0_1_2 : (⟨S980628x1x1, .f32⟩ : BufTy).Contents (Elt F) → (⟨S980628x16x1, .f32⟩ : BufTy).Contents (Elt F)),
    StableHlo.binary main_v22 main_v31 main_v32 (mulf : (⟨S980628x16x1, .f32⟩ : BufTy).Contents (Elt F) → (⟨S980628x16x1, .f32⟩ : BufTy).Contents (Elt F) → (⟨S980628x16x1, .f32⟩ : BufTy).Contents (Elt F)),
    StableHlo.nullary main_cst_6 (constant S_ .f32 0x00000000#32),
    StableHlo.unary main_cst_6 main_v33 (broadcastInDim S8000x16x1 ![] bcast_S_S8000x16x1 : (⟨S_, .f32⟩ : BufTy).Contents (Elt F) → (⟨S8000x16x1, .f32⟩ : BufTy).Contents (Elt F)),
    StableHlo.unary main_arg6 main_v34 (broadcastInDim S980628x1 ![0] bcast_S980628_S980628x1_0 : (⟨S980628, .i32⟩ : BufTy).Contents (Elt F) → (⟨S980628x1, .i32⟩ : BufTy).Contents (Elt F)),
    StableHlo.ternary main_v33 main_v34 main_v32 main_v35 ((fun x i u => Host.scatterAdd scatter_S8000x16x1_S980628x1_S980628x16x1_12_0_0_1 x i u) : (⟨S8000x16x1, .f32⟩ : BufTy).Contents (Elt F) → (⟨S980628x1, .i32⟩ : BufTy).Contents (Elt F) → (⟨S980628x16x1, .f32⟩ : BufTy).Contents (Elt F) → (⟨S8000x16x1, .f32⟩ : BufTy).Contents (Elt F)),
    StableHlo.nullary main_cst_7 (constant S_ .f32 0x3F800000#32),
    StableHlo.unary main_cst_7 main_v36 (broadcastInDim S980628 ![] bcast_S_S980628 : (⟨S_, .f32⟩ : BufTy).Contents (Elt F) → (⟨S980628, .f32⟩ : BufTy).Contents (Elt F)),
    StableHlo.nullary main_cst_8 (constant S_ .f32 0x00000000#32),
    StableHlo.unary main_cst_8 main_v37 (broadcastInDim S8000 ![] bcast_S_S8000 : (⟨S_, .f32⟩ : BufTy).Contents (Elt F) → (⟨S8000, .f32⟩ : BufTy).Contents (Elt F)),
    StableHlo.unary main_arg6 main_v38 (broadcastInDim S980628x1 ![0] bcast_S980628_S980628x1_0 : (⟨S980628, .i32⟩ : BufTy).Contents (Elt F) → (⟨S980628x1, .i32⟩ : BufTy).Contents (Elt F)),
    StableHlo.ternary main_v37 main_v38 main_v36 main_v39 ((fun x i u => Host.scatterAdd scatter_S8000_S980628x1_S980628_n_0_0_1 x i u) : (⟨S8000, .f32⟩ : BufTy).Contents (Elt F) → (⟨S980628x1, .i32⟩ : BufTy).Contents (Elt F) → (⟨S980628, .f32⟩ : BufTy).Contents (Elt F) → (⟨S8000, .f32⟩ : BufTy).Contents (Elt F)),
    StableHlo.nullary main_cst_9 (constant S_ .f32 0x3F800000#32),
    StableHlo.unary main_cst_9 main_v40 (broadcastInDim S8000 ![] bcast_S_S8000 : (⟨S_, .f32⟩ : BufTy).Contents (Elt F) → (⟨S8000, .f32⟩ : BufTy).Contents (Elt F)),
    StableHlo.binary main_v39 main_v40 main_v41 (maximumf : (⟨S8000, .f32⟩ : BufTy).Contents (Elt F) → (⟨S8000, .f32⟩ : BufTy).Contents (Elt F) → (⟨S8000, .f32⟩ : BufTy).Contents (Elt F)),
    StableHlo.unary main_v41 main_v42 (broadcastInDim S8000x1x1 ![0] bcast_S8000_S8000x1x1_0 : (⟨S8000, .f32⟩ : BufTy).Contents (Elt F) → (⟨S8000x1x1, .f32⟩ : BufTy).Contents (Elt F)),
    StableHlo.unary main_v42 main_v43 (broadcastInDim S8000x16x1 ![0, 1, 2] bcast_S8000x1x1_S8000x16x1_0_1_2 : (⟨S8000x1x1, .f32⟩ : BufTy).Contents (Elt F) → (⟨S8000x16x1, .f32⟩ : BufTy).Contents (Elt F)),
    StableHlo.binary main_v35 main_v43 main_v44 (Host.divf : (⟨S8000x16x1, .f32⟩ : BufTy).Contents (Elt F) → (⟨S8000x16x1, .f32⟩ : BufTy).Contents (Elt F) → (⟨S8000x16x1, .f32⟩ : BufTy).Contents (Elt F)),
    StableHlo.reshape main_v44 main_v45 rfl shapeCasts_S8000x16x1_S8000x16 ]

set_option maxRecDepth 8192 in
theorem ops00_sub : (ops00 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., reshape_bufs_sub ..⟩

/-- Every operation determines what it writes (none leaves a buffer at contents not chosen). -/
theorem ops00_fresh : (ops00 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the piece's operations write, in order. -/
abbrev ops00_W : List (Ref sig .tc) := [main_c, main_v0, main_v1, main_c_0, main_v2, main_v3, main_v4, main_v5, main_v6, main_c_1, main_v7, main_v8, main_c_2, main_v9, main_v10, main_v11, main_v12, main_v13, main_v14, main_cst, main_v15, main_v16, main_v17, main_v18, main_v19, main_v20, main_cst_3, main_call0_cst, main_call0_v0, main_call0_v1, main_call0_v2, main_call0_v3, main_call0_v4, main_v21, main_v22, main_c_4, main_v23, main_v24, main_c_5, main_v25, main_v26, main_v27, main_v28, main_v29, main_v30, main_v31, main_v32, main_cst_6, main_v33, main_v34, main_v35, main_cst_7, main_v36, main_cst_8, main_v37, main_v38, main_v39, main_cst_9, main_v40, main_v41, main_v42, main_v43, main_v44, main_v45]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops00_writes : (ops00 : List (HloOp τ sig (Elt F))).Forall fun op => op.writes ⊆ (ops00_W.map (Proc.devRef (τ := τ) .tc)).toFinset :=
  ⟨single_sub (y := main_c) (by decide), single_sub (y := main_v0) (by decide), single_sub (y := main_v1) (by decide), single_sub (y := main_c_0) (by decide), single_sub (y := main_v2) (by decide), single_sub (y := main_v3) (by decide), single_sub (y := main_v4) (by decide), single_sub (y := main_v5) (by decide), single_sub (y := main_v6) (by decide), single_sub (y := main_c_1) (by decide), single_sub (y := main_v7) (by decide), single_sub (y := main_v8) (by decide), single_sub (y := main_c_2) (by decide), single_sub (y := main_v9) (by decide), single_sub (y := main_v10) (by decide), single_sub (y := main_v11) (by decide), single_sub (y := main_v12) (by decide), single_sub (y := main_v13) (by decide), single_sub (y := main_v14) (by decide), single_sub (y := main_cst) (by decide), single_sub (y := main_v15) (by decide), single_sub (y := main_v16) (by decide), single_sub (y := main_v17) (by decide), single_sub (y := main_v18) (by decide), single_sub (y := main_v19) (by decide), single_sub (y := main_v20) (by decide), single_sub (y := main_cst_3) (by decide), single_sub (y := main_call0_cst) (by decide), single_sub (y := main_call0_v0) (by decide), single_sub (y := main_call0_v1) (by decide), single_sub (y := main_call0_v2) (by decide), single_sub (y := main_call0_v3) (by decide), single_sub (y := main_call0_v4) (by decide), single_sub (y := main_v21) (by decide), single_sub (y := main_v22) (by decide), single_sub (y := main_c_4) (by decide), single_sub (y := main_v23) (by decide), single_sub (y := main_v24) (by decide), single_sub (y := main_c_5) (by decide), single_sub (y := main_v25) (by decide), single_sub (y := main_v26) (by decide), single_sub (y := main_v27) (by decide), single_sub (y := main_v28) (by decide), single_sub (y := main_v29) (by decide), single_sub (y := main_v30) (by decide), single_sub (y := main_v31) (by decide), single_sub (y := main_v32) (by decide), single_sub (y := main_cst_6) (by decide), single_sub (y := main_v33) (by decide), single_sub (y := main_v34) (by decide), single_sub (y := main_v35) (by decide), single_sub (y := main_cst_7) (by decide), single_sub (y := main_v36) (by decide), single_sub (y := main_cst_8) (by decide), single_sub (y := main_v37) (by decide), single_sub (y := main_v38) (by decide), single_sub (y := main_v39) (by decide), single_sub (y := main_cst_9) (by decide), single_sub (y := main_v40) (by decide), single_sub (y := main_v41) (by decide), single_sub (y := main_v42) (by decide), single_sub (y := main_v43) (by decide), single_sub (y := main_v44) (by decide), single_sub (y := main_v45) (by decide)⟩

/-- A buffer outside the list keeps its contents through the piece. -/
theorem ops00_keep (V : Valuation τ sig (Elt F)) (r : Ref sig .tc) (h : r ∉ ops00_W) :
    after ops00 V (Proc.devRef .tc r) = V (Proc.devRef .tc r) :=
  after_of_writes_sub ops00 V ops00_writes h

end Cert.ReferenceIdeal.RefRun

end
-- ==== Proof.RefRunOps01.lean ====
/- Operations 65 … 66 of the reference's straight line (statements %46 … %cst_10 of its @main, inside dense0), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops01 : List (HloOp τ sig (Elt F)) :=
  [ StableHlo.binary main_v45 main_arg13 main_v46 ((fun l r => Host.dotGeneral dot_S8000x16_S16x128_S8000x128_1_0_0_1_n_n none l r) : (⟨S8000x16, .f32⟩ : BufTy).Contents (Elt F) → (⟨S16x128, .f32⟩ : BufTy).Contents (Elt F) → (⟨S8000x128, .f32⟩ : BufTy).Contents (Elt F)),
    StableHlo.nullary main_cst_10 (constant S_ .f32 0x00000000#32) ]

set_option maxRecDepth 8192 in
theorem ops01_sub : (ops01 : List (HloOp τ sig (Elt F))).Forall fun op => op.bufs ⊆ tcRefs τ sig :=
  ⟨binary_bufs_sub .., nullary_bufs_sub ..⟩

/-- Every operation determines what it writes (none leaves a buffer at contents not chosen). -/
theorem ops01_fresh : (ops01 : List (HloOp τ sig (Elt F))).Forall fun op => op.fresh = ∅ :=
  ⟨rfl, rfl⟩

/-- The buffers the piece's operations write, in order. -/
abbrev ops01_W : List (Ref sig .tc) := [main_v46, main_cst_10]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops01_writes : (ops01 : List (HloOp τ sig (Elt F))).Forall fun op => op.writes ⊆ (ops01_W.map (Proc.devRef (τ := τ) .tc)).toFinset :=
  ⟨single_sub (y := main_v46) (by decide), single_sub (y := main_cst_10) (by decide)⟩

/-- A buffer outside the list keeps its contents through the piece. -/
theorem ops01_keep (V : Valuation τ sig (Elt F)) (r : Ref sig .tc) (h : r ∉ ops01_W) :
    after ops01 V (Proc.devRef .tc r) = V (Proc.devRef .tc r) :=
  after_of_writes_sub ops01 V ops01_writes h

end Cert.ReferenceIdeal.RefRun

end
-- ==== Proof.RefRunOps02.lean ====
/- Operations 67 … 117 of the reference's straight line (statements %47 … %65 of its @main, inside dense0), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops02 : List (HloOp τ sig (Elt F)) :=
  [ StableHlo.binary main_v46 main_cst_10 main_v47 ((fun x v => Host.reduceAdd x v reducesTo_S8000x128_S128_d0 h_S_) : (⟨S8000x128, .f32⟩ : BufTy).Contents (Elt F) → (⟨S_, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.nullary main_cst_11 (constant S_ .f32 0x45FA0000#32),
    StableHlo.unary main_cst_11 main_v49 (broadcastInDim S1x128 ![] bcast_S_S1x128 : (⟨S_, .f32⟩ : BufTy).Contents (Elt F) → (⟨S1x128, .f32⟩ : BufTy).Contents (Elt F)),
    StableHlo.binary main_v48 main_v49 main_v50 (Host.divf : (⟨S1x128, .f32⟩ : BufTy).Contents (Elt F) → (⟨S1x128, .f32⟩ : BufTy).Contents (Elt F) → (⟨S1x128, .f32⟩ : BufTy).Contents (Elt F)),
    StableHlo.nullary main_c_12 (constantI S_ 32 0#32),
    StableHlo.TRef.nullary main_call1.cst (constant S_ .f32 0x00000000#32),
    StableHlo.TRef.binary (.of main_v46 : StableHlo.TRef sig ⟨S8000x128, .f32⟩) main_call1.cst main_call1.v0 (fun x v => Host.reduceAdd x v reducesTo_S8000x128_S128_d0 h_S_),
    StableHlo.TRef.unary main_call1.v0 main_call1.v1 (broadcastInDim S1x128 ![1] bcast_S128_S1x128_1),
    StableHlo.TRef.nullary main_call1.cst_0 (constant S_ .f32 0x45FA0000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S8000x128 ![0, 1] bcast_S1x128_S8000x128_0_1),
    StableHlo.TRef.binary (.of main_v46 : StableHlo.TRef sig ⟨S8000x128, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x45FA0000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S8000x128_S128_d0 h_S_),
    StableHlo.TRef.unary main_call1.v9 main_call1.v10 (broadcastInDim S1x128 ![1] bcast_S128_S1x128_1),
    StableHlo.TRef.unary main_call1.v8 main_call1.v11 (broadcastInDim S1x128 ![] bcast_S_S1x128),
    StableHlo.TRef.binary main_call1.v10 main_call1.v11 main_call1.v12 Host.divf,
    StableHlo.TRef.nullary main_call1.cst_3 (constant S_ .f32 0x00000000#32),
    StableHlo.TRef.binary main_call1.v8 main_call1.cst_3 main_call1.v13 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S1x128 ![] bcast_S_S1x128),
    StableHlo.TRef.ternary main_call1.v13 main_call1.v12 main_call1.call0.v1 main_call1.call0.v2 (fun p a b => select (broadcastInDim S1x128 ![] bcast_S_S1x128 p) a b),
    StableHlo.unary main_v50 main_v52 (broadcastInDim S8000x128 ![0, 1] bcast_S1x128_S8000x128_0_1 : (⟨S1x128, .f32⟩ : BufTy).Contents (Elt F) → (⟨S8000x128, .f32⟩ : BufTy).Contents (Elt F)),
    StableHlo.binary main_v46 main_v52 main_v53 (subf : (⟨S8000x128, .f32⟩ : BufTy).Contents (Elt F) → (⟨S8000x128, .f32⟩ : BufTy).Contents (Elt F) → (⟨S8000x128, .f32⟩ : BufTy).Contents (Elt F)),
    StableHlo.nullary main_cst_13 (constant S_ .f32 0x3A83126F#32),
    StableHlo.unary main_cst_13 main_v54 (broadcastInDim S1x128 ![] bcast_S_S1x128 : (⟨S_, .f32⟩ : BufTy).Contents (Elt F) → (⟨S1x128, .f32⟩ : BufTy).Contents (Elt F)),
    StableHlo.binary main_v51 main_v54 main_v55 (addf : (⟨S1x128, .f32⟩ : BufTy).Contents (Elt F) → (⟨S1x128, .f32⟩ : BufTy).Contents (Elt F) → (⟨S1x128, .f32⟩ : BufTy).Contents (Elt F)),
    StableHlo.unary main_v55 main_v56 (Host.rsqrt : (⟨S1x128, .f32⟩ : BufTy).Contents (Elt F) → (⟨S1x128, .f32⟩ : BufTy).Contents (Elt F)),
    StableHlo.unary main_v56 main_v57 (broadcastInDim S8000x128 ![0, 1] bcast_S1x128_S8000x128_0_1 : (⟨S1x128, .f32⟩ : BufTy).Contents (Elt F) → (⟨S8000x128, .f32⟩ : BufTy).Contents (Elt F)),
    StableHlo.binary main_v53 main_v57 main_v58 (mulf : (⟨S8000x128, .f32⟩ : BufTy).Contents (Elt F) → (⟨S8000x128, .f32⟩ : BufTy).Contents (Elt F) → (⟨S8000x128, .f32⟩ : BufTy).Contents (Elt F)),
    StableHlo.unary main_arg14 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S8000x128 ![0, 1] bcast_S1x128_S8000x128_0_1 : (⟨S1x128, .f32⟩ : BufTy).Contents (Elt F) → (⟨S8000x128, .f32⟩ : BufTy).Contents (Elt F)),
    StableHlo.binary main_v58 main_v60 main_v61 (mulf : (⟨S8000x128, .f32⟩ : BufTy).Contents (Elt F) → (⟨S8000x128, .f32⟩ : BufTy).Contents (Elt F) → (⟨S8000x128, .f32⟩ : BufTy).Contents (Elt F)),
    StableHlo.unary main_arg15 main_v62 (broadcastInDim S1x128 ![1] bcast_S128_S1x128_1 : (⟨S128, .f32⟩ : BufTy).Contents (Elt F) → (⟨S1x128, .f32⟩ : BufTy).Contents (Elt F)),
    StableHlo.unary main_v62 main_v63 (broadcastInDim S8000x128 ![0, 1] bcast_S1x128_S8000x128_0_1 : (⟨S1x128, .f32⟩ : BufTy).Contents (Elt F) → (⟨S8000x128, .f32⟩ : BufTy).Contents (Elt F)),
    StableHlo.binary main_v61 main_v63 main_v64 (addf : (⟨S8000x128, .f32⟩ : BufTy).Contents (Elt F) → (⟨S8000x128, .f32⟩ : BufTy).Contents (Elt F) → (⟨S8000x128, .f32⟩ : BufTy).Contents (Elt F)),
    StableHlo.nullary main_cst_14 (constant S_ .f32 0x3E99999A#32),
    StableHlo.TRef.nullary main_call2.cst (constant S_ .f32 0x00000000#32),
    StableHlo.TRef.unary main_call2.cst main_call2.v0 (broadcastInDim S8000x128 ![] bcast_S_S8000x128),
    StableHlo.TRef.binary (.of main_v64 : StableHlo.TRef sig ⟨S8000x128, .f32⟩) main_call2.v0 main_call2.v1 (cmpf .oge),
    StableHlo.TRef.unary (.of main_cst_14 : StableHlo.TRef sig ⟨S_, .f32⟩) main_call2.v2 id,
    StableHlo.TRef.unary main_call2.v2 main_call2.v3 (broadcastInDim S8000x128 ![] bcast_S_S8000x128),
    StableHlo.TRef.binary main_call2.v3 (.of main_v64 : StableHlo.TRef sig ⟨S8000x128, .f32⟩) main_call2.v4 mulf,
    StableHlo.TRef.ternary main_call2.v1 (.of main_v64 : StableHlo.TRef sig ⟨S8000x128, .f32⟩) main_call2.v4 main_call2.call0.v0 select ]

set_option maxRecDepth 8192 in
theorem ops02_sub : (ops02 : List (HloOp τ sig (Elt F))).Forall fun op => op.bufs ⊆ tcRefs τ sig :=
  ⟨binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Every operation determines what it writes (none leaves a buffer at contents not chosen). -/
theorem ops02_fresh : (ops02 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the piece's operations write, in order. -/
abbrev ops02_W : List (Ref sig .tc) := [main_v47, main_v48, main_cst_11, main_v49, main_v50, main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v51, main_v52, main_v53, main_cst_13, main_v54, main_v55, main_v56, main_v57, main_v58, main_v59, main_v60, main_v61, main_v62, main_v63, main_v64, main_cst_14, main_call2_cst, main_call2_v0, main_call2_v1, main_call2_v2, main_call2_v3, main_call2_v4, main_v65]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops02_writes : (ops02 : List (HloOp τ sig (Elt F))).Forall fun op => op.writes ⊆ (ops02_W.map (Proc.devRef (τ := τ) .tc)).toFinset :=
  ⟨single_sub (y := main_v47) (by decide), single_sub (y := main_v48) (by decide), single_sub (y := main_cst_11) (by decide), single_sub (y := main_v49) (by decide), single_sub (y := main_v50) (by decide), single_sub (y := main_c_12) (by decide), single_sub (y := main_call1_cst) (by decide), single_sub (y := main_call1_v0) (by decide), single_sub (y := main_call1_v1) (by decide), single_sub (y := main_call1_cst_0) (by decide), single_sub (y := main_call1_v2) (by decide), single_sub (y := main_call1_v3) (by decide), single_sub (y := main_call1_v4) (by decide), single_sub (y := main_call1_v5) (by decide), single_sub (y := main_call1_v6) (by decide), single_sub (y := main_call1_v7) (by decide), single_sub (y := main_call1_cst_1) (by decide), single_sub (y := main_call1_v8) (by decide), single_sub (y := main_call1_cst_2) (by decide), single_sub (y := main_call1_v9) (by decide), single_sub (y := main_call1_v10) (by decide), single_sub (y := main_call1_v11) (by decide), single_sub (y := main_call1_v12) (by decide), single_sub (y := main_call1_cst_3) (by decide), single_sub (y := main_call1_v13) (by decide), single_sub (y := main_call1_cst_4) (by decide), single_sub (y := main_call1_call0_v0) (by decide), single_sub (y := main_call1_call0_v1) (by decide), single_sub (y := main_v51) (by decide), single_sub (y := main_v52) (by decide), single_sub (y := main_v53) (by decide), single_sub (y := main_cst_13) (by decide), single_sub (y := main_v54) (by decide), single_sub (y := main_v55) (by decide), single_sub (y := main_v56) (by decide), single_sub (y := main_v57) (by decide), single_sub (y := main_v58) (by decide), single_sub (y := main_v59) (by decide), single_sub (y := main_v60) (by decide), single_sub (y := main_v61) (by decide), single_sub (y := main_v62) (by decide), single_sub (y := main_v63) (by decide), single_sub (y := main_v64) (by decide), single_sub (y := main_cst_14) (by decide), single_sub (y := main_call2_cst) (by decide), single_sub (y := main_call2_v0) (by decide), single_sub (y := main_call2_v1) (by decide), single_sub (y := main_call2_v2) (by decide), single_sub (y := main_call2_v3) (by decide), single_sub (y := main_call2_v4) (by decide), single_sub (y := main_v65) (by decide)⟩

/-- A buffer outside the list keeps its contents through the piece. -/
theorem ops02_keep (V : Valuation τ sig (Elt F)) (r : Ref sig .tc) (h : r ∉ ops02_W) :
    after ops02 V (Proc.devRef .tc r) = V (Proc.devRef .tc r) :=
  after_of_writes_sub ops02 V ops02_writes h

end Cert.ReferenceIdeal.RefRun

end
-- ==== Proof.RefRunOps03.lean ====
/- Operations 118 … 160 of the reference's straight line (statements %c_15 … %94 of its @main, inside agg1), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops03 : List (HloOp τ sig (Elt F)) :=
  [ StableHlo.nullary main_c_15 (constantI S_ 32 0#32),
    StableHlo.unary main_c_15 main_v66 (broadcastInDim S26578 ![] bcast_S_S26578 : (⟨S_, .i32⟩ : BufTy).Contents (Elt F) → (⟨S26578, .i32⟩ : BufTy).Contents (Elt F)),
    StableHlo.binary main_arg7 main_v66 main_v67 (cmpi .slt : (⟨S26578, .i32⟩ : BufTy).Contents (Elt F) → (⟨S26578, .i32⟩ : BufTy).Contents (Elt F) → (⟨S26578, .i1⟩ : BufTy).Contents (Elt F)),
    StableHlo.nullary main_c_16 (constantI S_ 32 8000#32),
    StableHlo.unary main_c_16 main_v68 (broadcastInDim S26578 ![] bcast_S_S26578 : (⟨S_, .i32⟩ : BufTy).Contents (Elt F) → (⟨S26578, .i32⟩ : BufTy).Contents (Elt F)),
    StableHlo.binary main_arg7 main_v68 main_v69 (addi : (⟨S26578, .i32⟩ : BufTy).Contents (Elt F) → (⟨S26578, .i32⟩ : BufTy).Contents (Elt F) → (⟨S26578, .i32⟩ : BufTy).Contents (Elt F)),
    StableHlo.ternary main_v67 main_v69 main_arg7 main_v70 (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)),
    StableHlo.unary main_v70 main_v71 (broadcastInDim S26578x1 ![0] bcast_S26578_S26578x1_0 : (⟨S26578, .i32⟩ : BufTy).Contents (Elt F) → (⟨S26578x1, .i32⟩ : BufTy).Contents (Elt F)),
    StableHlo.binary main_arg2 main_v71 main_v72 ((fun x i => Host.gather gather_S8000x3_S26578x1_S26578x3_1_0_n_n_0_1_13 x i) : (⟨S8000x3, .f32⟩ : BufTy).Contents (Elt F) → (⟨S26578x1, .i32⟩ : BufTy).Contents (Elt F) → (⟨S26578x3, .f32⟩ : BufTy).Contents (Elt F)),
    StableHlo.nullary main_c_17 (constantI S_ 32 0#32),
    StableHlo.unary main_c_17 main_v73 (broadcastInDim S26578 ![] bcast_S_S26578 : (⟨S_, .i32⟩ : BufTy).Contents (Elt F) → (⟨S26578, .i32⟩ : BufTy).Contents (Elt F)),
    StableHlo.binary main_arg8 main_v73 main_v74 (cmpi .slt : (⟨S26578, .i32⟩ : BufTy).Contents (Elt F) → (⟨S26578, .i32⟩ : BufTy).Contents (Elt F) → (⟨S26578, .i1⟩ : BufTy).Contents (Elt F)),
    StableHlo.nullary main_c_18 (constantI S_ 32 1000#32),
    StableHlo.unary main_c_18 main_v75 (broadcastInDim S26578 ![] bcast_S_S26578 : (⟨S_, .i32⟩ : BufTy).Contents (Elt F) → (⟨S26578, .i32⟩ : BufTy).Contents (Elt F)),
    StableHlo.binary main_arg8 main_v75 main_v76 (addi : (⟨S26578, .i32⟩ : BufTy).Contents (Elt F) → (⟨S26578, .i32⟩ : BufTy).Contents (Elt F) → (⟨S26578, .i32⟩ : BufTy).Contents (Elt F)),
    StableHlo.ternary main_v74 main_v76 main_arg8 main_v77 (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)),
    StableHlo.unary main_v77 main_v78 (broadcastInDim S26578x1 ![0] bcast_S26578_S26578x1_0 : (⟨S26578, .i32⟩ : BufTy).Contents (Elt F) → (⟨S26578x1, .i32⟩ : BufTy).Contents (Elt F)),
    StableHlo.binary main_arg3 main_v78 main_v79 ((fun x i => Host.gather gather_S1000x3_S26578x1_S26578x3_1_0_n_n_0_1_13 x i) : (⟨S1000x3, .f32⟩ : BufTy).Contents (Elt F) → (⟨S26578x1, .i32⟩ : BufTy).Contents (Elt F) → (⟨S26578x3, .f32⟩ : BufTy).Contents (Elt F)),
    StableHlo.binary main_v72 main_v79 main_v80 (subf : (⟨S26578x3, .f32⟩ : BufTy).Contents (Elt F) → (⟨S26578x3, .f32⟩ : BufTy).Contents (Elt F) → (⟨S26578x3, .f32⟩ : BufTy).Contents (Elt F)),
    StableHlo.nullary main_cst_19 (constant S_ .f32 0x3E4CCCCD#32),
    StableHlo.unary main_cst_19 main_v81 (broadcastInDim S26578x3 ![] bcast_S_S26578x3 : (⟨S_, .f32⟩ : BufTy).Contents (Elt F) → (⟨S26578x3, .f32⟩ : BufTy).Contents (Elt F)),
    StableHlo.binary main_v80 main_v81 main_v82 (Host.divf : (⟨S26578x3, .f32⟩ : BufTy).Contents (Elt F) → (⟨S26578x3, .f32⟩ : BufTy).Contents (Elt F) → (⟨S26578x3, .f32⟩ : BufTy).Contents (Elt F)),
    StableHlo.binary main_v82 main_arg16 main_v83 ((fun l r => Host.dotGeneral dot_S26578x3_S3x16_S26578x16_1_0_0_1_n_n none l r) : (⟨S26578x3, .f32⟩ : BufTy).Contents (Elt F) → (⟨S3x16, .f32⟩ : BufTy).Contents (Elt F) → (⟨S26578x16, .f32⟩ : BufTy).Contents (Elt F)),
    StableHlo.unary main_arg17 main_v84 (broadcastInDim S1x16 ![1] bcast_S16_S1x16_1 : (⟨S16, .f32⟩ : BufTy).Contents (Elt F) → (⟨S1x16, .f32⟩ : BufTy).Contents (Elt F)),
    StableHlo.unary main_v84 main_v85 (broadcastInDim S26578x16 ![0, 1] bcast_S1x16_S26578x16_0_1 : (⟨S1x16, .f32⟩ : BufTy).Contents (Elt F) → (⟨S26578x16, .f32⟩ : BufTy).Contents (Elt F)),
    StableHlo.binary main_v83 main_v85 main_v86 (addf : (⟨S26578x16, .f32⟩ : BufTy).Contents (Elt F) → (⟨S26578x16, .f32⟩ : BufTy).Contents (Elt F) → (⟨S26578x16, .f32⟩ : BufTy).Contents (Elt F)),
    StableHlo.nullary main_cst_20 (constant S_ .f32 0x3E4CCCCD#32),
    StableHlo.TRef.nullary main_call3.cst (constant S_ .f32 0x00000000#32),
    StableHlo.TRef.unary main_call3.cst main_call3.v0 (broadcastInDim S26578x16 ![] bcast_S_S26578x16),
    StableHlo.TRef.binary (.of main_v86 : StableHlo.TRef sig ⟨S26578x16, .f32⟩) main_call3.v0 main_call3.v1 (cmpf .oge),
    StableHlo.TRef.unary (.of main_cst_20 : StableHlo.TRef sig ⟨S_, .f32⟩) main_call3.v2 id,
    StableHlo.TRef.unary main_call3.v2 main_call3.v3 (broadcastInDim S26578x16 ![] bcast_S_S26578x16),
    StableHlo.TRef.binary main_call3.v3 (.of main_v86 : StableHlo.TRef sig ⟨S26578x16, .f32⟩) main_call3.v4 mulf,
    StableHlo.TRef.ternary main_call3.v1 (.of main_v86 : StableHlo.TRef sig ⟨S26578x16, .f32⟩) main_call3.v4 main_call3.call0.v0 select,
    StableHlo.unary main_v87 main_v88 (broadcastInDim S26578x16x1 ![0, 1] bcast_S26578x16_S26578x16x1_0_1 : (⟨S26578x16, .f32⟩ : BufTy).Contents (Elt F) → (⟨S26578x16x1, .f32⟩ : BufTy).Contents (Elt F)),
    StableHlo.nullary main_c_21 (constantI S_ 32 0#32),
    StableHlo.unary main_c_21 main_v89 (broadcastInDim S26578 ![] bcast_S_S26578 : (⟨S_, .i32⟩ : BufTy).Contents (Elt F) → (⟨S26578, .i32⟩ : BufTy).Contents (Elt F)),
    StableHlo.binary main_arg7 main_v89 main_v90 (cmpi .slt : (⟨S26578, .i32⟩ : BufTy).Contents (Elt F) → (⟨S26578, .i32⟩ : BufTy).Contents (Elt F) → (⟨S26578, .i1⟩ : BufTy).Contents (Elt F)),
    StableHlo.nullary main_c_22 (constantI S_ 32 8000#32),
    StableHlo.unary main_c_22 main_v91 (broadcastInDim S26578 ![] bcast_S_S26578 : (⟨S_, .i32⟩ : BufTy).Contents (Elt F) → (⟨S26578, .i32⟩ : BufTy).Contents (Elt F)),
    StableHlo.binary main_arg7 main_v91 main_v92 (addi : (⟨S26578, .i32⟩ : BufTy).Contents (Elt F) → (⟨S26578, .i32⟩ : BufTy).Contents (Elt F) → (⟨S26578, .i32⟩ : BufTy).Contents (Elt F)),
    StableHlo.ternary main_v90 main_v92 main_arg7 main_v93 (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)),
    StableHlo.unary main_v93 main_v94 (broadcastInDim S26578x1 ![0] bcast_S26578_S26578x1_0 : (⟨S26578, .i32⟩ : BufTy).Contents (Elt F) → (⟨S26578x1, .i32⟩ : BufTy).Contents (Elt F)) ]

set_option maxRecDepth 8192 in
theorem ops03_sub : (ops03 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub ..⟩

/-- Every operation determines what it writes (none leaves a buffer at contents not chosen). -/
theorem ops03_fresh : (ops03 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the piece's operations write, in order. -/
abbrev ops03_W : List (Ref sig .tc) := [main_c_15, main_v66, main_v67, main_c_16, main_v68, main_v69, main_v70, main_v71, main_v72, main_c_17, main_v73, main_v74, main_c_18, main_v75, main_v76, main_v77, main_v78, main_v79, main_v80, main_cst_19, main_v81, main_v82, main_v83, main_v84, main_v85, main_v86, main_cst_20, main_call3_cst, main_call3_v0, main_call3_v1, main_call3_v2, main_call3_v3, main_call3_v4, main_v87, main_v88, main_c_21, main_v89, main_v90, main_c_22, main_v91, main_v92, main_v93, main_v94]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops03_writes : (ops03 : List (HloOp τ sig (Elt F))).Forall fun op => op.writes ⊆ (ops03_W.map (Proc.devRef (τ := τ) .tc)).toFinset :=
  ⟨single_sub (y := main_c_15) (by decide), single_sub (y := main_v66) (by decide), single_sub (y := main_v67) (by decide), single_sub (y := main_c_16) (by decide), single_sub (y := main_v68) (by decide), single_sub (y := main_v69) (by decide), single_sub (y := main_v70) (by decide), single_sub (y := main_v71) (by decide), single_sub (y := main_v72) (by decide), single_sub (y := main_c_17) (by decide), single_sub (y := main_v73) (by decide), single_sub (y := main_v74) (by decide), single_sub (y := main_c_18) (by decide), single_sub (y := main_v75) (by decide), single_sub (y := main_v76) (by decide), single_sub (y := main_v77) (by decide), single_sub (y := main_v78) (by decide), single_sub (y := main_v79) (by decide), single_sub (y := main_v80) (by decide), single_sub (y := main_cst_19) (by decide), single_sub (y := main_v81) (by decide), single_sub (y := main_v82) (by decide), single_sub (y := main_v83) (by decide), single_sub (y := main_v84) (by decide), single_sub (y := main_v85) (by decide), single_sub (y := main_v86) (by decide), single_sub (y := main_cst_20) (by decide), single_sub (y := main_call3_cst) (by decide), single_sub (y := main_call3_v0) (by decide), single_sub (y := main_call3_v1) (by decide), single_sub (y := main_call3_v2) (by decide), single_sub (y := main_call3_v3) (by decide), single_sub (y := main_call3_v4) (by decide), single_sub (y := main_v87) (by decide), single_sub (y := main_v88) (by decide), single_sub (y := main_c_21) (by decide), single_sub (y := main_v89) (by decide), single_sub (y := main_v90) (by decide), single_sub (y := main_c_22) (by decide), single_sub (y := main_v91) (by decide), single_sub (y := main_v92) (by decide), single_sub (y := main_v93) (by decide), single_sub (y := main_v94) (by decide)⟩

/-- A buffer outside the list keeps its contents through the piece. -/
theorem ops03_keep (V : Valuation τ sig (Elt F)) (r : Ref sig .tc) (h : r ∉ ops03_W) :
    after ops03 V (Proc.devRef .tc r) = V (Proc.devRef .tc r) :=
  after_of_writes_sub ops03 V ops03_writes h

end Cert.ReferenceIdeal.RefRun

end
-- ==== Proof.RefRunOps04.lean ====
/- Operations 161 … 182 of the reference's straight line (statements %95 … %112 of its @main, inside agg1), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops04 : List (HloOp τ sig (Elt F)) :=
  [ StableHlo.binary main_v65 main_v94 main_v95 ((fun x i => Host.gather gather_S8000x128_S26578x1_S26578x128_1_0_n_n_0_1_1128 x i) : (⟨S8000x128, .f32⟩ : BufTy).Contents (Elt F) → (⟨S26578x1, .i32⟩ : BufTy).Contents (Elt F) → (⟨S26578x128, .f32⟩ : BufTy).Contents (Elt F)),
    StableHlo.unary main_v95 main_v96 (broadcastInDim S26578x1x128 ![0, 2] bcast_S26578x128_S26578x1x128_0_2 : (⟨S26578x128, .f32⟩ : BufTy).Contents (Elt F) → (⟨S26578x1x128, .f32⟩ : BufTy).Contents (Elt F)),
    StableHlo.unary main_v88 main_v97 (broadcastInDim S26578x16x128 ![0, 1, 2] bcast_S26578x16x1_S26578x16x128_0_1_2 : (⟨S26578x16x1, .f32⟩ : BufTy).Contents (Elt F) → (⟨S26578x16x128, .f32⟩ : BufTy).Contents (Elt F)),
    StableHlo.unary main_v96 main_v98 (broadcastInDim S26578x16x128 ![0, 1, 2] bcast_S26578x1x128_S26578x16x128_0_1_2 : (⟨S26578x1x128, .f32⟩ : BufTy).Contents (Elt F) → (⟨S26578x16x128, .f32⟩ : BufTy).Contents (Elt F)),
    StableHlo.binary main_v97 main_v98 main_v99 (mulf : (⟨S26578x16x128, .f32⟩ : BufTy).Contents (Elt F) → (⟨S26578x16x128, .f32⟩ : BufTy).Contents (Elt F) → (⟨S26578x16x128, .f32⟩ : BufTy).Contents (Elt F)),
    StableHlo.nullary main_cst_23 (constant S_ .f32 0x00000000#32),
    StableHlo.unary main_cst_23 main_v100 (broadcastInDim S1000x16x128 ![] bcast_S_S1000x16x128 : (⟨S_, .f32⟩ : BufTy).Contents (Elt F) → (⟨S1000x16x128, .f32⟩ : BufTy).Contents (Elt F)),
    StableHlo.unary main_arg8 main_v101 (broadcastInDim S26578x1 ![0] bcast_S26578_S26578x1_0 : (⟨S26578, .i32⟩ : BufTy).Contents (Elt F) → (⟨S26578x1, .i32⟩ : BufTy).Contents (Elt F)),
    StableHlo.ternary main_v100 main_v101 main_v99 main_v102 ((fun x i u => Host.scatterAdd scatter_S1000x16x128_S26578x1_S26578x16x128_12_0_0_1 x i u) : (⟨S1000x16x128, .f32⟩ : BufTy).Contents (Elt F) → (⟨S26578x1, .i32⟩ : BufTy).Contents (Elt F) → (⟨S26578x16x128, .f32⟩ : BufTy).Contents (Elt F) → (⟨S1000x16x128, .f32⟩ : BufTy).Contents (Elt F)),
    StableHlo.nullary main_cst_24 (constant S_ .f32 0x3F800000#32),
    StableHlo.unary main_cst_24 main_v103 (broadcastInDim S26578 ![] bcast_S_S26578 : (⟨S_, .f32⟩ : BufTy).Contents (Elt F) → (⟨S26578, .f32⟩ : BufTy).Contents (Elt F)),
    StableHlo.nullary main_cst_25 (constant S_ .f32 0x00000000#32),
    StableHlo.unary main_cst_25 main_v104 (broadcastInDim S1000 ![] bcast_S_S1000 : (⟨S_, .f32⟩ : BufTy).Contents (Elt F) → (⟨S1000, .f32⟩ : BufTy).Contents (Elt F)),
    StableHlo.unary main_arg8 main_v105 (broadcastInDim S26578x1 ![0] bcast_S26578_S26578x1_0 : (⟨S26578, .i32⟩ : BufTy).Contents (Elt F) → (⟨S26578x1, .i32⟩ : BufTy).Contents (Elt F)),
    StableHlo.ternary main_v104 main_v105 main_v103 main_v106 ((fun x i u => Host.scatterAdd scatter_S1000_S26578x1_S26578_n_0_0_1 x i u) : (⟨S1000, .f32⟩ : BufTy).Contents (Elt F) → (⟨S26578x1, .i32⟩ : BufTy).Contents (Elt F) → (⟨S26578, .f32⟩ : BufTy).Contents (Elt F) → (⟨S1000, .f32⟩ : BufTy).Contents (Elt F)),
    StableHlo.nullary main_cst_26 (constant S_ .f32 0x3F800000#32),
    StableHlo.unary main_cst_26 main_v107 (broadcastInDim S1000 ![] bcast_S_S1000 : (⟨S_, .f32⟩ : BufTy).Contents (Elt F) → (⟨S1000, .f32⟩ : BufTy).Contents (Elt F)),
    StableHlo.binary main_v106 main_v107 main_v108 (maximumf : (⟨S1000, .f32⟩ : BufTy).Contents (Elt F) → (⟨S1000, .f32⟩ : BufTy).Contents (Elt F) → (⟨S1000, .f32⟩ : BufTy).Contents (Elt F)),
    StableHlo.unary main_v108 main_v109 (broadcastInDim S1000x1x1 ![0] bcast_S1000_S1000x1x1_0 : (⟨S1000, .f32⟩ : BufTy).Contents (Elt F) → (⟨S1000x1x1, .f32⟩ : BufTy).Contents (Elt F)),
    StableHlo.unary main_v109 main_v110 (broadcastInDim S1000x16x128 ![0, 1, 2] bcast_S1000x1x1_S1000x16x128_0_1_2 : (⟨S1000x1x1, .f32⟩ : BufTy).Contents (Elt F) → (⟨S1000x16x128, .f32⟩ : BufTy).Contents (Elt F)),
    StableHlo.binary main_v102 main_v110 main_v111 (Host.divf : (⟨S1000x16x128, .f32⟩ : BufTy).Contents (Elt F) → (⟨S1000x16x128, .f32⟩ : BufTy).Contents (Elt F) → (⟨S1000x16x128, .f32⟩ : BufTy).Contents (Elt F)),
    StableHlo.reshape main_v111 main_v112 rfl shapeCasts_S1000x16x128_S1000x2048 ]

set_option maxRecDepth 8192 in
theorem ops04_sub : (ops04 : List (HloOp τ sig (Elt F))).Forall fun op => op.bufs ⊆ tcRefs τ sig :=
  ⟨binary_bufs_sub .., unary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., reshape_bufs_sub ..⟩

/-- Every operation determines what it writes (none leaves a buffer at contents not chosen). -/
theorem ops04_fresh : (ops04 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The buffers the piece's operations write, in order. -/
abbrev ops04_W : List (Ref sig .tc) := [main_v95, main_v96, main_v97, main_v98, main_v99, main_cst_23, main_v100, main_v101, main_v102, main_cst_24, main_v103, main_cst_25, main_v104, main_v105, main_v106, main_cst_26, main_v107, main_v108, main_v109, main_v110, main_v111, main_v112]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops04_writes : (ops04 : List (HloOp τ sig (Elt F))).Forall fun op => op.writes ⊆ (ops04_W.map (Proc.devRef (τ := τ) .tc)).toFinset :=
  ⟨single_sub (y := main_v95) (by decide), single_sub (y := main_v96) (by decide), single_sub (y := main_v97) (by decide), single_sub (y := main_v98) (by decide), single_sub (y := main_v99) (by decide), single_sub (y := main_cst_23) (by decide), single_sub (y := main_v100) (by decide), single_sub (y := main_v101) (by decide), single_sub (y := main_v102) (by decide), single_sub (y := main_cst_24) (by decide), single_sub (y := main_v103) (by decide), single_sub (y := main_cst_25) (by decide), single_sub (y := main_v104) (by decide), single_sub (y := main_v105) (by decide), single_sub (y := main_v106) (by decide), single_sub (y := main_cst_26) (by decide), single_sub (y := main_v107) (by decide), single_sub (y := main_v108) (by decide), single_sub (y := main_v109) (by decide), single_sub (y := main_v110) (by decide), single_sub (y := main_v111) (by decide), single_sub (y := main_v112) (by decide)⟩

/-- A buffer outside the list keeps its contents through the piece. -/
theorem ops04_keep (V : Valuation τ sig (Elt F)) (r : Ref sig .tc) (h : r ∉ ops04_W) :
    after ops04 V (Proc.devRef .tc r) = V (Proc.devRef .tc r) :=
  after_of_writes_sub ops04 V ops04_writes h

end Cert.ReferenceIdeal.RefRun

end
-- ==== Proof.RefRunOps05.lean ====
/- Operations 183 … 235 of the reference's straight line (statements %113 … %132 of its @main, inside dense1), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops05 : List (HloOp τ sig (Elt F)) :=
  [ StableHlo.binary main_v112 main_arg18 main_v113 ((fun l r => Host.dotGeneral dot_S1000x2048_S2048x256_S1000x256_1_0_0_1_n_n none l r) : (⟨S1000x2048, .f32⟩ : BufTy).Contents (Elt F) → (⟨S2048x256, .f32⟩ : BufTy).Contents (Elt F) → (⟨S1000x256, .f32⟩ : BufTy).Contents (Elt F)),
    StableHlo.nullary main_cst_27 (constant S_ .f32 0x00000000#32),
    StableHlo.binary main_v113 main_cst_27 main_v114 ((fun x v => Host.reduceAdd x v reducesTo_S1000x256_S256_d0 h_S_) : (⟨S1000x256, .f32⟩ : BufTy).Contents (Elt F) → (⟨S_, .f32⟩ : BufTy).Contents (Elt F) → (⟨S256, .f32⟩ : BufTy).Contents (Elt F)),
    StableHlo.unary main_v114 main_v115 (broadcastInDim S1x256 ![1] bcast_S256_S1x256_1 : (⟨S256, .f32⟩ : BufTy).Contents (Elt F) → (⟨S1x256, .f32⟩ : BufTy).Contents (Elt F)),
    StableHlo.nullary main_cst_28 (constant S_ .f32 0x447A0000#32),
    StableHlo.unary main_cst_28 main_v116 (broadcastInDim S1x256 ![] bcast_S_S1x256 : (⟨S_, .f32⟩ : BufTy).Contents (Elt F) → (⟨S1x256, .f32⟩ : BufTy).Contents (Elt F)),
    StableHlo.binary main_v115 main_v116 main_v117 (Host.divf : (⟨S1x256, .f32⟩ : BufTy).Contents (Elt F) → (⟨S1x256, .f32⟩ : BufTy).Contents (Elt F) → (⟨S1x256, .f32⟩ : BufTy).Contents (Elt F)),
    StableHlo.nullary main_c_29 (constantI S_ 32 0#32),
    StableHlo.TRef.nullary main_call4.cst (constant S_ .f32 0x00000000#32),
    StableHlo.TRef.binary (.of main_v113 : StableHlo.TRef sig ⟨S1000x256, .f32⟩) main_call4.cst main_call4.v0 (fun x v => Host.reduceAdd x v reducesTo_S1000x256_S256_d0 h_S_),
    StableHlo.TRef.unary main_call4.v0 main_call4.v1 (broadcastInDim S1x256 ![1] bcast_S256_S1x256_1),
    StableHlo.TRef.nullary main_call4.cst_0 (constant S_ .f32 0x447A0000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S1000x256 ![0, 1] bcast_S1x256_S1000x256_0_1),
    StableHlo.TRef.binary (.of main_v113 : StableHlo.TRef sig ⟨S1000x256, .f32⟩) main_call4.v4 main_call4.v5 subf,
    StableHlo.TRef.binary main_call4.v5 main_call4.v5 main_call4.v6 mulf,
    StableHlo.TRef.unary (.of main_c_29 : StableHlo.TRef sig ⟨S_, .i32⟩) main_call4.v7 (sitofp .f32),
    StableHlo.TRef.nullary main_call4.cst_1 (constant S_ .f32 0x447A0000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S1000x256_S256_d0 h_S_),
    StableHlo.TRef.unary main_call4.v9 main_call4.v10 (broadcastInDim S1x256 ![1] bcast_S256_S1x256_1),
    StableHlo.TRef.unary main_call4.v8 main_call4.v11 (broadcastInDim S1x256 ![] bcast_S_S1x256),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S1x256 ![] bcast_S_S1x256),
    StableHlo.TRef.ternary main_call4.v13 main_call4.v12 main_call4.call0.v1 main_call4.call0.v2 (fun p a b => select (broadcastInDim S1x256 ![] bcast_S_S1x256 p) a b),
    StableHlo.unary main_v117 main_v119 (broadcastInDim S1000x256 ![0, 1] bcast_S1x256_S1000x256_0_1 : (⟨S1x256, .f32⟩ : BufTy).Contents (Elt F) → (⟨S1000x256, .f32⟩ : BufTy).Contents (Elt F)),
    StableHlo.binary main_v113 main_v119 main_v120 (subf : (⟨S1000x256, .f32⟩ : BufTy).Contents (Elt F) → (⟨S1000x256, .f32⟩ : BufTy).Contents (Elt F) → (⟨S1000x256, .f32⟩ : BufTy).Contents (Elt F)),
    StableHlo.nullary main_cst_30 (constant S_ .f32 0x3A83126F#32),
    StableHlo.unary main_cst_30 main_v121 (broadcastInDim S1x256 ![] bcast_S_S1x256 : (⟨S_, .f32⟩ : BufTy).Contents (Elt F) → (⟨S1x256, .f32⟩ : BufTy).Contents (Elt F)),
    StableHlo.binary main_v118 main_v121 main_v122 (addf : (⟨S1x256, .f32⟩ : BufTy).Contents (Elt F) → (⟨S1x256, .f32⟩ : BufTy).Contents (Elt F) → (⟨S1x256, .f32⟩ : BufTy).Contents (Elt F)),
    StableHlo.unary main_v122 main_v123 (Host.rsqrt : (⟨S1x256, .f32⟩ : BufTy).Contents (Elt F) → (⟨S1x256, .f32⟩ : BufTy).Contents (Elt F)),
    StableHlo.unary main_v123 main_v124 (broadcastInDim S1000x256 ![0, 1] bcast_S1x256_S1000x256_0_1 : (⟨S1x256, .f32⟩ : BufTy).Contents (Elt F) → (⟨S1000x256, .f32⟩ : BufTy).Contents (Elt F)),
    StableHlo.binary main_v120 main_v124 main_v125 (mulf : (⟨S1000x256, .f32⟩ : BufTy).Contents (Elt F) → (⟨S1000x256, .f32⟩ : BufTy).Contents (Elt F) → (⟨S1000x256, .f32⟩ : BufTy).Contents (Elt F)),
    StableHlo.unary main_arg19 main_v126 (broadcastInDim S1x256 ![1] bcast_S256_S1x256_1 : (⟨S256, .f32⟩ : BufTy).Contents (Elt F) → (⟨S1x256, .f32⟩ : BufTy).Contents (Elt F)),
    StableHlo.unary main_v126 main_v127 (broadcastInDim S1000x256 ![0, 1] bcast_S1x256_S1000x256_0_1 : (⟨S1x256, .f32⟩ : BufTy).Contents (Elt F) → (⟨S1000x256, .f32⟩ : BufTy).Contents (Elt F)),
    StableHlo.binary main_v125 main_v127 main_v128 (mulf : (⟨S1000x256, .f32⟩ : BufTy).Contents (Elt F) → (⟨S1000x256, .f32⟩ : BufTy).Contents (Elt F) → (⟨S1000x256, .f32⟩ : BufTy).Contents (Elt F)),
    StableHlo.unary main_arg20 main_v129 (broadcastInDim S1x256 ![1] bcast_S256_S1x256_1 : (⟨S256, .f32⟩ : BufTy).Contents (Elt F) → (⟨S1x256, .f32⟩ : BufTy).Contents (Elt F)),
    StableHlo.unary main_v129 main_v130 (broadcastInDim S1000x256 ![0, 1] bcast_S1x256_S1000x256_0_1 : (⟨S1x256, .f32⟩ : BufTy).Contents (Elt F) → (⟨S1000x256, .f32⟩ : BufTy).Contents (Elt F)),
    StableHlo.binary main_v128 main_v130 main_v131 (addf : (⟨S1000x256, .f32⟩ : BufTy).Contents (Elt F) → (⟨S1000x256, .f32⟩ : BufTy).Contents (Elt F) → (⟨S1000x256, .f32⟩ : BufTy).Contents (Elt F)),
    StableHlo.nullary main_cst_31 (constant S_ .f32 0x3E99999A#32),
    StableHlo.TRef.nullary main_call5.cst (constant S_ .f32 0x00000000#32),
    StableHlo.TRef.unary main_call5.cst main_call5.v0 (broadcastInDim S1000x256 ![] bcast_S_S1000x256),
    StableHlo.TRef.binary (.of main_v131 : StableHlo.TRef sig ⟨S1000x256, .f32⟩) main_call5.v0 main_call5.v1 (cmpf .oge),
    StableHlo.TRef.unary (.of main_cst_31 : StableHlo.TRef sig ⟨S_, .f32⟩) main_call5.v2 id,
    StableHlo.TRef.unary main_call5.v2 main_call5.v3 (broadcastInDim S1000x256 ![] bcast_S_S1000x256),
    StableHlo.TRef.binary main_call5.v3 (.of main_v131 : StableHlo.TRef sig ⟨S1000x256, .f32⟩) main_call5.v4 mulf,
    StableHlo.TRef.ternary main_call5.v1 (.of main_v131 : StableHlo.TRef sig ⟨S1000x256, .f32⟩) main_call5.v4 main_call5.call0.v0 select ]

set_option maxRecDepth 8192 in
theorem ops05_sub : (ops05 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Every operation determines what it writes (none leaves a buffer at contents not chosen). -/
theorem ops05_fresh : (ops05 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the piece's operations write, in order. -/
abbrev ops05_W : List (Ref sig .tc) := [main_v113, main_cst_27, main_v114, main_v115, main_cst_28, main_v116, main_v117, main_c_29, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v118, main_v119, main_v120, main_cst_30, main_v121, main_v122, main_v123, main_v124, main_v125, main_v126, main_v127, main_v128, main_v129, main_v130, main_v131, main_cst_31, main_call5_cst, main_call5_v0, main_call5_v1, main_call5_v2, main_call5_v3, main_call5_v4, main_v132]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops05_writes : (ops05 : List (HloOp τ sig (Elt F))).Forall fun op => op.writes ⊆ (ops05_W.map (Proc.devRef (τ := τ) .tc)).toFinset :=
  ⟨single_sub (y := main_v113) (by decide), single_sub (y := main_cst_27) (by decide), single_sub (y := main_v114) (by decide), single_sub (y := main_v115) (by decide), single_sub (y := main_cst_28) (by decide), single_sub (y := main_v116) (by decide), single_sub (y := main_v117) (by decide), single_sub (y := main_c_29) (by decide), single_sub (y := main_call4_cst) (by decide), single_sub (y := main_call4_v0) (by decide), single_sub (y := main_call4_v1) (by decide), single_sub (y := main_call4_cst_0) (by decide), single_sub (y := main_call4_v2) (by decide), single_sub (y := main_call4_v3) (by decide), single_sub (y := main_call4_v4) (by decide), single_sub (y := main_call4_v5) (by decide), single_sub (y := main_call4_v6) (by decide), single_sub (y := main_call4_v7) (by decide), single_sub (y := main_call4_cst_1) (by decide), single_sub (y := main_call4_v8) (by decide), single_sub (y := main_call4_cst_2) (by decide), single_sub (y := main_call4_v9) (by decide), single_sub (y := main_call4_v10) (by decide), single_sub (y := main_call4_v11) (by decide), single_sub (y := main_call4_v12) (by decide), single_sub (y := main_call4_cst_3) (by decide), single_sub (y := main_call4_v13) (by decide), single_sub (y := main_call4_cst_4) (by decide), single_sub (y := main_call4_call0_v0) (by decide), single_sub (y := main_call4_call0_v1) (by decide), single_sub (y := main_v118) (by decide), single_sub (y := main_v119) (by decide), single_sub (y := main_v120) (by decide), single_sub (y := main_cst_30) (by decide), single_sub (y := main_v121) (by decide), single_sub (y := main_v122) (by decide), single_sub (y := main_v123) (by decide), single_sub (y := main_v124) (by decide), single_sub (y := main_v125) (by decide), single_sub (y := main_v126) (by decide), single_sub (y := main_v127) (by decide), single_sub (y := main_v128) (by decide), single_sub (y := main_v129) (by decide), single_sub (y := main_v130) (by decide), single_sub (y := main_v131) (by decide), single_sub (y := main_cst_31) (by decide), single_sub (y := main_call5_cst) (by decide), single_sub (y := main_call5_v0) (by decide), single_sub (y := main_call5_v1) (by decide), single_sub (y := main_call5_v2) (by decide), single_sub (y := main_call5_v3) (by decide), single_sub (y := main_call5_v4) (by decide), single_sub (y := main_v132) (by decide)⟩

/-- A buffer outside the list keeps its contents through the piece. -/
theorem ops05_keep (V : Valuation τ sig (Elt F)) (r : Ref sig .tc) (h : r ∉ ops05_W) :
    after ops05 V (Proc.devRef .tc r) = V (Proc.devRef .tc r) :=
  after_of_writes_sub ops05 V ops05_writes h

end Cert.ReferenceIdeal.RefRun

end
-- ==== Proof.RefRunOps06.lean ====
/- Operations 236 … 248 of the reference's straight line (statements %c_32 … %c_35 of its @main, inside agg2), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops06 : List (HloOp τ sig (Elt F)) :=
  [ StableHlo.nullary main_c_32 (constantI S_ 32 0#32),
    StableHlo.unary main_c_32 main_v133 (broadcastInDim S1000 ![] bcast_S_S1000 : (⟨S_, .i32⟩ : BufTy).Contents (Elt F) → (⟨S1000, .i32⟩ : BufTy).Contents (Elt F)),
    StableHlo.binary main_arg9 main_v133 main_v134 (cmpi .slt : (⟨S1000, .i32⟩ : BufTy).Contents (Elt F) → (⟨S1000, .i32⟩ : BufTy).Contents (Elt F) → (⟨S1000, .i1⟩ : BufTy).Contents (Elt F)),
    StableHlo.nullary main_c_33 (constantI S_ 32 1000#32),
    StableHlo.unary main_c_33 main_v135 (broadcastInDim S1000 ![] bcast_S_S1000 : (⟨S_, .i32⟩ : BufTy).Contents (Elt F) → (⟨S1000, .i32⟩ : BufTy).Contents (Elt F)),
    StableHlo.binary main_arg9 main_v135 main_v136 (addi : (⟨S1000, .i32⟩ : BufTy).Contents (Elt F) → (⟨S1000, .i32⟩ : BufTy).Contents (Elt F) → (⟨S1000, .i32⟩ : BufTy).Contents (Elt F)),
    StableHlo.ternary main_v134 main_v136 main_arg9 main_v137 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_v137 main_v138 (broadcastInDim S1000x1 ![0] bcast_S1000_S1000x1_0 : (⟨S1000, .i32⟩ : BufTy).Contents (Elt F) → (⟨S1000x1, .i32⟩ : BufTy).Contents (Elt F)),
    StableHlo.binary main_arg3 main_v138 main_v139 ((fun x i => Host.gather gather_S1000x3_S1000x1_S1000x3_1_0_n_n_0_1_13 x i) : (⟨S1000x3, .f32⟩ : BufTy).Contents (Elt F) → (⟨S1000x1, .i32⟩ : BufTy).Contents (Elt F) → (⟨S1000x3, .f32⟩ : BufTy).Contents (Elt F)),
    StableHlo.nullary main_c_34 (constantI S_ 32 0#32),
    StableHlo.unary main_c_34 main_v140 (broadcastInDim S1000 ![] bcast_S_S1000 : (⟨S_, .i32⟩ : BufTy).Contents (Elt F) → (⟨S1000, .i32⟩ : BufTy).Contents (Elt F)),
    StableHlo.binary main_arg10 main_v140 main_v141 (cmpi .slt : (⟨S1000, .i32⟩ : BufTy).Contents (Elt F) → (⟨S1000, .i32⟩ : BufTy).Contents (Elt F) → (⟨S1000, .i1⟩ : BufTy).Contents (Elt F)),
    StableHlo.nullary main_c_35 (constantI S_ 32 8#32) ]

set_option maxRecDepth 8192 in
theorem ops06_sub : (ops06 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub ..⟩

/-- Every operation determines what it writes (none leaves a buffer at contents not chosen). -/
theorem ops06_fresh : (ops06 : List (HloOp τ sig (Elt F))).Forall fun op => op.fresh = ∅ :=
  ⟨rfl, rfl, rfl, rfl, rfl, rfl, rfl, rfl, rfl, rfl, rfl, rfl, rfl⟩

/-- The buffers the piece's operations write, in order. -/
abbrev ops06_W : List (Ref sig .tc) := [main_c_32, main_v133, main_v134, main_c_33, main_v135, main_v136, main_v137, main_v138, main_v139, main_c_34, main_v140, main_v141, main_c_35]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops06_writes : (ops06 : List (HloOp τ sig (Elt F))).Forall fun op => op.writes ⊆ (ops06_W.map (Proc.devRef (τ := τ) .tc)).toFinset :=
  ⟨single_sub (y := main_c_32) (by decide), single_sub (y := main_v133) (by decide), single_sub (y := main_v134) (by decide), single_sub (y := main_c_33) (by decide), single_sub (y := main_v135) (by decide), single_sub (y := main_v136) (by decide), single_sub (y := main_v137) (by decide), single_sub (y := main_v138) (by decide), single_sub (y := main_v139) (by decide), single_sub (y := main_c_34) (by decide), single_sub (y := main_v140) (by decide), single_sub (y := main_v141) (by decide), single_sub (y := main_c_35) (by decide)⟩

/-- A buffer outside the list keeps its contents through the piece. -/
theorem ops06_keep (V : Valuation τ sig (Elt F)) (r : Ref sig .tc) (h : r ∉ ops06_W) :
    after ops06 V (Proc.devRef .tc r) = V (Proc.devRef .tc r) :=
  after_of_writes_sub ops06 V ops06_writes h

end Cert.ReferenceIdeal.RefRun

end
-- ==== Proof.RefRunOps07.lean ====
/- Operations 249 … 300 of the reference's straight line (statements %142 … %179 of its @main, inside agg2), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops07 : List (HloOp τ sig (Elt F)) :=
  [ StableHlo.unary main_c_35 main_v142 (broadcastInDim S1000 ![] bcast_S_S1000 : (⟨S_, .i32⟩ : BufTy).Contents (Elt F) → (⟨S1000, .i32⟩ : BufTy).Contents (Elt F)),
    StableHlo.binary main_arg10 main_v142 main_v143 (addi : (⟨S1000, .i32⟩ : BufTy).Contents (Elt F) → (⟨S1000, .i32⟩ : BufTy).Contents (Elt F) → (⟨S1000, .i32⟩ : BufTy).Contents (Elt F)),
    StableHlo.ternary main_v141 main_v143 main_arg10 main_v144 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_v144 main_v145 (broadcastInDim S1000x1 ![0] bcast_S1000_S1000x1_0 : (⟨S1000, .i32⟩ : BufTy).Contents (Elt F) → (⟨S1000x1, .i32⟩ : BufTy).Contents (Elt F)),
    StableHlo.binary main_arg4 main_v145 main_v146 ((fun x i => Host.gather gather_S8x3_S1000x1_S1000x3_1_0_n_n_0_1_13 x i) : (⟨S8x3, .f32⟩ : BufTy).Contents (Elt F) → (⟨S1000x1, .i32⟩ : BufTy).Contents (Elt F) → (⟨S1000x3, .f32⟩ : BufTy).Contents (Elt F)),
    StableHlo.binary main_v139 main_v146 main_v147 (subf : (⟨S1000x3, .f32⟩ : BufTy).Contents (Elt F) → (⟨S1000x3, .f32⟩ : BufTy).Contents (Elt F) → (⟨S1000x3, .f32⟩ : BufTy).Contents (Elt F)),
    StableHlo.nullary main_cst_36 (constant S_ .f32 0x40232AD7#32),
    StableHlo.unary main_cst_36 main_v148 (broadcastInDim S1000x3 ![] bcast_S_S1000x3 : (⟨S_, .f32⟩ : BufTy).Contents (Elt F) → (⟨S1000x3, .f32⟩ : BufTy).Contents (Elt F)),
    StableHlo.binary main_v147 main_v148 main_v149 (Host.divf : (⟨S1000x3, .f32⟩ : BufTy).Contents (Elt F) → (⟨S1000x3, .f32⟩ : BufTy).Contents (Elt F) → (⟨S1000x3, .f32⟩ : BufTy).Contents (Elt F)),
    StableHlo.binary main_v149 main_arg21 main_v150 ((fun l r => Host.dotGeneral dot_S1000x3_S3x16_S1000x16_1_0_0_1_n_n none l r) : (⟨S1000x3, .f32⟩ : BufTy).Contents (Elt F) → (⟨S3x16, .f32⟩ : BufTy).Contents (Elt F) → (⟨S1000x16, .f32⟩ : BufTy).Contents (Elt F)),
    StableHlo.unary main_arg22 main_v151 (broadcastInDim S1x16 ![1] bcast_S16_S1x16_1 : (⟨S16, .f32⟩ : BufTy).Contents (Elt F) → (⟨S1x16, .f32⟩ : BufTy).Contents (Elt F)),
    StableHlo.unary main_v151 main_v152 (broadcastInDim S1000x16 ![0, 1] bcast_S1x16_S1000x16_0_1 : (⟨S1x16, .f32⟩ : BufTy).Contents (Elt F) → (⟨S1000x16, .f32⟩ : BufTy).Contents (Elt F)),
    StableHlo.binary main_v150 main_v152 main_v153 (addf : (⟨S1000x16, .f32⟩ : BufTy).Contents (Elt F) → (⟨S1000x16, .f32⟩ : BufTy).Contents (Elt F) → (⟨S1000x16, .f32⟩ : BufTy).Contents (Elt F)),
    StableHlo.nullary main_cst_37 (constant S_ .f32 0x3E4CCCCD#32),
    StableHlo.TRef.nullary main_call6.cst (constant S_ .f32 0x00000000#32),
    StableHlo.TRef.unary main_call6.cst main_call6.v0 (broadcastInDim S1000x16 ![] bcast_S_S1000x16),
    StableHlo.TRef.binary (.of main_v153 : StableHlo.TRef sig ⟨S1000x16, .f32⟩) main_call6.v0 main_call6.v1 (cmpf .oge),
    StableHlo.TRef.unary (.of main_cst_37 : StableHlo.TRef sig ⟨S_, .f32⟩) main_call6.v2 id,
    StableHlo.TRef.unary main_call6.v2 main_call6.v3 (broadcastInDim S1000x16 ![] bcast_S_S1000x16),
    StableHlo.TRef.binary main_call6.v3 (.of main_v153 : StableHlo.TRef sig ⟨S1000x16, .f32⟩) main_call6.v4 mulf,
    StableHlo.TRef.ternary main_call6.v1 (.of main_v153 : StableHlo.TRef sig ⟨S1000x16, .f32⟩) main_call6.v4 main_call6.call0.v0 select,
    StableHlo.unary main_v154 main_v155 (broadcastInDim S1000x16x1 ![0, 1] bcast_S1000x16_S1000x16x1_0_1 : (⟨S1000x16, .f32⟩ : BufTy).Contents (Elt F) → (⟨S1000x16x1, .f32⟩ : BufTy).Contents (Elt F)),
    StableHlo.nullary main_c_38 (constantI S_ 32 0#32),
    StableHlo.unary main_c_38 main_v156 (broadcastInDim S1000 ![] bcast_S_S1000 : (⟨S_, .i32⟩ : BufTy).Contents (Elt F) → (⟨S1000, .i32⟩ : BufTy).Contents (Elt F)),
    StableHlo.binary main_arg9 main_v156 main_v157 (cmpi .slt : (⟨S1000, .i32⟩ : BufTy).Contents (Elt F) → (⟨S1000, .i32⟩ : BufTy).Contents (Elt F) → (⟨S1000, .i1⟩ : BufTy).Contents (Elt F)),
    StableHlo.nullary main_c_39 (constantI S_ 32 1000#32),
    StableHlo.unary main_c_39 main_v158 (broadcastInDim S1000 ![] bcast_S_S1000 : (⟨S_, .i32⟩ : BufTy).Contents (Elt F) → (⟨S1000, .i32⟩ : BufTy).Contents (Elt F)),
    StableHlo.binary main_arg9 main_v158 main_v159 (addi : (⟨S1000, .i32⟩ : BufTy).Contents (Elt F) → (⟨S1000, .i32⟩ : BufTy).Contents (Elt F) → (⟨S1000, .i32⟩ : BufTy).Contents (Elt F)),
    StableHlo.ternary main_v157 main_v159 main_arg9 main_v160 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    StableHlo.unary main_v160 main_v161 (broadcastInDim S1000x1 ![0] bcast_S1000_S1000x1_0 : (⟨S1000, .i32⟩ : BufTy).Contents (Elt F) → (⟨S1000x1, .i32⟩ : BufTy).Contents (Elt F)),
    StableHlo.binary main_v132 main_v161 main_v162 ((fun x i => Host.gather gather_S1000x256_S1000x1_S1000x256_1_0_n_n_0_1_1256 x i) : (⟨S1000x256, .f32⟩ : BufTy).Contents (Elt F) → (⟨S1000x1, .i32⟩ : BufTy).Contents (Elt F) → (⟨S1000x256, .f32⟩ : BufTy).Contents (Elt F)),
    StableHlo.unary main_v162 main_v163 (broadcastInDim S1000x1x256 ![0, 2] bcast_S1000x256_S1000x1x256_0_2 : (⟨S1000x256, .f32⟩ : BufTy).Contents (Elt F) → (⟨S1000x1x256, .f32⟩ : BufTy).Contents (Elt F)),
    StableHlo.unary main_v155 main_v164 (broadcastInDim S1000x16x256 ![0, 1, 2] bcast_S1000x16x1_S1000x16x256_0_1_2 : (⟨S1000x16x1, .f32⟩ : BufTy).Contents (Elt F) → (⟨S1000x16x256, .f32⟩ : BufTy).Contents (Elt F)),
    StableHlo.unary main_v163 main_v165 (broadcastInDim S1000x16x256 ![0, 1, 2] bcast_S1000x1x256_S1000x16x256_0_1_2 : (⟨S1000x1x256, .f32⟩ : BufTy).Contents (Elt F) → (⟨S1000x16x256, .f32⟩ : BufTy).Contents (Elt F)),
    StableHlo.binary main_v164 main_v165 main_v166 (mulf : (⟨S1000x16x256, .f32⟩ : BufTy).Contents (Elt F) → (⟨S1000x16x256, .f32⟩ : BufTy).Contents (Elt F) → (⟨S1000x16x256, .f32⟩ : BufTy).Contents (Elt F)),
    StableHlo.nullary main_cst_40 (constant S_ .f32 0x00000000#32),
    StableHlo.unary main_cst_40 main_v167 (broadcastInDim S8x16x256 ![] bcast_S_S8x16x256 : (⟨S_, .f32⟩ : BufTy).Contents (Elt F) → (⟨S8x16x256, .f32⟩ : BufTy).Contents (Elt F)),
    StableHlo.unary main_arg10 main_v168 (broadcastInDim S1000x1 ![0] bcast_S1000_S1000x1_0 : (⟨S1000, .i32⟩ : BufTy).Contents (Elt F) → (⟨S1000x1, .i32⟩ : BufTy).Contents (Elt F)),
    StableHlo.ternary main_v167 main_v168 main_v166 main_v169 ((fun x i u => Host.scatterAdd scatter_S8x16x256_S1000x1_S1000x16x256_12_0_0_1 x i u) : (⟨S8x16x256, .f32⟩ : BufTy).Contents (Elt F) → (⟨S1000x1, .i32⟩ : BufTy).Contents (Elt F) → (⟨S1000x16x256, .f32⟩ : BufTy).Contents (Elt F) → (⟨S8x16x256, .f32⟩ : BufTy).Contents (Elt F)),
    StableHlo.nullary main_cst_41 (constant S_ .f32 0x3F800000#32),
    StableHlo.unary main_cst_41 main_v170 (broadcastInDim S1000 ![] bcast_S_S1000 : (⟨S_, .f32⟩ : BufTy).Contents (Elt F) → (⟨S1000, .f32⟩ : BufTy).Contents (Elt F)),
    StableHlo.nullary main_cst_42 (constant S_ .f32 0x00000000#32),
    StableHlo.unary main_cst_42 main_v171 (broadcastInDim S8 ![] bcast_S_S8 : (⟨S_, .f32⟩ : BufTy).Contents (Elt F) → (⟨S8, .f32⟩ : BufTy).Contents (Elt F)),
    StableHlo.unary main_arg10 main_v172 (broadcastInDim S1000x1 ![0] bcast_S1000_S1000x1_0 : (⟨S1000, .i32⟩ : BufTy).Contents (Elt F) → (⟨S1000x1, .i32⟩ : BufTy).Contents (Elt F)),
    StableHlo.ternary main_v171 main_v172 main_v170 main_v173 ((fun x i u => Host.scatterAdd scatter_S8_S1000x1_S1000_n_0_0_1 x i u) : (⟨S8, .f32⟩ : BufTy).Contents (Elt F) → (⟨S1000x1, .i32⟩ : BufTy).Contents (Elt F) → (⟨S1000, .f32⟩ : BufTy).Contents (Elt F) → (⟨S8, .f32⟩ : BufTy).Contents (Elt F)),
    StableHlo.nullary main_cst_43 (constant S_ .f32 0x3F800000#32),
    StableHlo.unary main_cst_43 main_v174 (broadcastInDim S8 ![] bcast_S_S8 : (⟨S_, .f32⟩ : BufTy).Contents (Elt F) → (⟨S8, .f32⟩ : BufTy).Contents (Elt F)),
    StableHlo.binary main_v173 main_v174 main_v175 (maximumf : (⟨S8, .f32⟩ : BufTy).Contents (Elt F) → (⟨S8, .f32⟩ : BufTy).Contents (Elt F) → (⟨S8, .f32⟩ : BufTy).Contents (Elt F)),
    StableHlo.unary main_v175 main_v176 (broadcastInDim S8x1x1 ![0] bcast_S8_S8x1x1_0 : (⟨S8, .f32⟩ : BufTy).Contents (Elt F) → (⟨S8x1x1, .f32⟩ : BufTy).Contents (Elt F)),
    StableHlo.unary main_v176 main_v177 (broadcastInDim S8x16x256 ![0, 1, 2] bcast_S8x1x1_S8x16x256_0_1_2 : (⟨S8x1x1, .f32⟩ : BufTy).Contents (Elt F) → (⟨S8x16x256, .f32⟩ : BufTy).Contents (Elt F)),
    StableHlo.binary main_v169 main_v177 main_v178 (Host.divf : (⟨S8x16x256, .f32⟩ : BufTy).Contents (Elt F) → (⟨S8x16x256, .f32⟩ : BufTy).Contents (Elt F) → (⟨S8x16x256, .f32⟩ : BufTy).Contents (Elt F)),
    StableHlo.reshape main_v178 main_v179 rfl shapeCasts_S8x16x256_S8x4096 ]

set_option maxRecDepth 8192 in
theorem ops07_sub : (ops07 : List (HloOp τ sig (Elt F))).Forall fun op => op.bufs ⊆ tcRefs τ sig :=
  ⟨unary_bufs_sub .., binary_bufs_sub .., ternary_bufs_sub .., unary_bufs_sub .., binary_bufs_sub .., binary_bufs_sub .., nullary_bufs_sub .., unary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., reshape_bufs_sub ..⟩

/-- Every operation determines what it writes (none leaves a buffer at contents not chosen). -/
theorem ops07_fresh : (ops07 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the piece's operations write, in order. -/
abbrev ops07_W : List (Ref sig .tc) := [main_v142, main_v143, main_v144, main_v145, main_v146, main_v147, main_cst_36, main_v148, main_v149, main_v150, main_v151, main_v152, main_v153, main_cst_37, main_call6_cst, main_call6_v0, main_call6_v1, main_call6_v2, main_call6_v3, main_call6_v4, main_v154, main_v155, main_c_38, main_v156, main_v157, main_c_39, main_v158, main_v159, main_v160, main_v161, main_v162, main_v163, main_v164, main_v165, main_v166, main_cst_40, main_v167, main_v168, main_v169, main_cst_41, main_v170, main_cst_42, main_v171, main_v172, main_v173, main_cst_43, main_v174, main_v175, main_v176, main_v177, main_v178, main_v179]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops07_writes : (ops07 : List (HloOp τ sig (Elt F))).Forall fun op => op.writes ⊆ (ops07_W.map (Proc.devRef (τ := τ) .tc)).toFinset :=
  ⟨single_sub (y := main_v142) (by decide), single_sub (y := main_v143) (by decide), single_sub (y := main_v144) (by decide), single_sub (y := main_v145) (by decide), single_sub (y := main_v146) (by decide), single_sub (y := main_v147) (by decide), single_sub (y := main_cst_36) (by decide), single_sub (y := main_v148) (by decide), single_sub (y := main_v149) (by decide), single_sub (y := main_v150) (by decide), single_sub (y := main_v151) (by decide), single_sub (y := main_v152) (by decide), single_sub (y := main_v153) (by decide), single_sub (y := main_cst_37) (by decide), single_sub (y := main_call6_cst) (by decide), single_sub (y := main_call6_v0) (by decide), single_sub (y := main_call6_v1) (by decide), single_sub (y := main_call6_v2) (by decide), single_sub (y := main_call6_v3) (by decide), single_sub (y := main_call6_v4) (by decide), single_sub (y := main_v154) (by decide), single_sub (y := main_v155) (by decide), single_sub (y := main_c_38) (by decide), single_sub (y := main_v156) (by decide), single_sub (y := main_v157) (by decide), single_sub (y := main_c_39) (by decide), single_sub (y := main_v158) (by decide), single_sub (y := main_v159) (by decide), single_sub (y := main_v160) (by decide), single_sub (y := main_v161) (by decide), single_sub (y := main_v162) (by decide), single_sub (y := main_v163) (by decide), single_sub (y := main_v164) (by decide), single_sub (y := main_v165) (by decide), single_sub (y := main_v166) (by decide), single_sub (y := main_cst_40) (by decide), single_sub (y := main_v167) (by decide), single_sub (y := main_v168) (by decide), single_sub (y := main_v169) (by decide), single_sub (y := main_cst_41) (by decide), single_sub (y := main_v170) (by decide), single_sub (y := main_cst_42) (by decide), single_sub (y := main_v171) (by decide), single_sub (y := main_v172) (by decide), single_sub (y := main_v173) (by decide), single_sub (y := main_cst_43) (by decide), single_sub (y := main_v174) (by decide), single_sub (y := main_v175) (by decide), single_sub (y := main_v176) (by decide), single_sub (y := main_v177) (by decide), single_sub (y := main_v178) (by decide), single_sub (y := main_v179) (by decide)⟩

/-- A buffer outside the list keeps its contents through the piece. -/
theorem ops07_keep (V : Valuation τ sig (Elt F)) (r : Ref sig .tc) (h : r ∉ ops07_W) :
    after ops07 V (Proc.devRef .tc r) = V (Proc.devRef .tc r) :=
  after_of_writes_sub ops07 V ops07_writes h

end Cert.ReferenceIdeal.RefRun

end
-- ==== Proof.RefRunOps08.lean ====
/- Operations 301 … 336 of the reference's straight line (statements %180 … %189 of its @main, inside dense2), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops08 : List (HloOp τ sig (Elt F)) :=
  [ StableHlo.binary main_v179 main_arg23 main_v180 ((fun l r => Host.dotGeneral dot_S8x4096_S4096x512_S8x512_1_0_0_1_n_n none l r) : (⟨S8x4096, .f32⟩ : BufTy).Contents (Elt F) → (⟨S4096x512, .f32⟩ : BufTy).Contents (Elt F) → (⟨S8x512, .f32⟩ : BufTy).Contents (Elt F)),
    StableHlo.nullary main_cst_44 (constant S_ .f32 0x00000000#32),
    StableHlo.binary main_v180 main_cst_44 main_v181 ((fun x v => Host.reduceAdd x v reducesTo_S8x512_S512_d0 h_S_) : (⟨S8x512, .f32⟩ : BufTy).Contents (Elt F) → (⟨S_, .f32⟩ : BufTy).Contents (Elt F) → (⟨S512, .f32⟩ : BufTy).Contents (Elt F)),
    StableHlo.unary main_v181 main_v182 (broadcastInDim S1x512 ![1] bcast_S512_S1x512_1 : (⟨S512, .f32⟩ : BufTy).Contents (Elt F) → (⟨S1x512, .f32⟩ : BufTy).Contents (Elt F)),
    StableHlo.nullary main_cst_45 (constant S_ .f32 0x41000000#32),
    StableHlo.unary main_cst_45 main_v183 (broadcastInDim S1x512 ![] bcast_S_S1x512 : (⟨S_, .f32⟩ : BufTy).Contents (Elt F) → (⟨S1x512, .f32⟩ : BufTy).Contents (Elt F)),
    StableHlo.binary main_v182 main_v183 main_v184 (Host.divf : (⟨S1x512, .f32⟩ : BufTy).Contents (Elt F) → (⟨S1x512, .f32⟩ : BufTy).Contents (Elt F) → (⟨S1x512, .f32⟩ : BufTy).Contents (Elt F)),
    StableHlo.nullary main_c_46 (constantI S_ 32 0#32),
    StableHlo.TRef.nullary main_call7.cst (constant S_ .f32 0x00000000#32),
    StableHlo.TRef.binary (.of main_v180 : StableHlo.TRef sig ⟨S8x512, .f32⟩) main_call7.cst main_call7.v0 (fun x v => Host.reduceAdd x v reducesTo_S8x512_S512_d0 h_S_),
    StableHlo.TRef.unary main_call7.v0 main_call7.v1 (broadcastInDim S1x512 ![1] bcast_S512_S1x512_1),
    StableHlo.TRef.nullary main_call7.cst_0 (constant S_ .f32 0x41000000#32),
    StableHlo.TRef.unary main_call7.cst_0 main_call7.v2 (broadcastInDim S1x512 ![] bcast_S_S1x512),
    StableHlo.TRef.binary main_call7.v1 main_call7.v2 main_call7.v3 Host.divf,
    StableHlo.TRef.unary main_call7.v3 main_call7.v4 (broadcastInDim S8x512 ![0, 1] bcast_S1x512_S8x512_0_1),
    StableHlo.TRef.binary (.of main_v180 : StableHlo.TRef sig ⟨S8x512, .f32⟩) main_call7.v4 main_call7.v5 subf,
    StableHlo.TRef.binary main_call7.v5 main_call7.v5 main_call7.v6 mulf,
    StableHlo.TRef.unary (.of main_c_46 : StableHlo.TRef sig ⟨S_, .i32⟩) main_call7.v7 (sitofp .f32),
    StableHlo.TRef.nullary main_call7.cst_1 (constant S_ .f32 0x41000000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S8x512_S512_d0 h_S_),
    StableHlo.TRef.unary main_call7.v9 main_call7.v10 (broadcastInDim S1x512 ![1] bcast_S512_S1x512_1),
    StableHlo.TRef.unary main_call7.v8 main_call7.v11 (broadcastInDim S1x512 ![] bcast_S_S1x512),
    StableHlo.TRef.binary main_call7.v10 main_call7.v11 main_call7.v12 Host.divf,
    StableHlo.TRef.nullary main_call7.cst_3 (constant S_ .f32 0x00000000#32),
    StableHlo.TRef.binary main_call7.v8 main_call7.cst_3 main_call7.v13 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S1x512 ![] bcast_S_S1x512),
    StableHlo.TRef.ternary main_call7.v13 main_call7.v12 main_call7.call0.v1 main_call7.call0.v2 (fun p a b => select (broadcastInDim S1x512 ![] bcast_S_S1x512 p) a b),
    StableHlo.unary main_v184 main_v186 (broadcastInDim S8x512 ![0, 1] bcast_S1x512_S8x512_0_1 : (⟨S1x512, .f32⟩ : BufTy).Contents (Elt F) → (⟨S8x512, .f32⟩ : BufTy).Contents (Elt F)),
    StableHlo.binary main_v180 main_v186 main_v187 (subf : (⟨S8x512, .f32⟩ : BufTy).Contents (Elt F) → (⟨S8x512, .f32⟩ : BufTy).Contents (Elt F) → (⟨S8x512, .f32⟩ : BufTy).Contents (Elt F)),
    StableHlo.nullary main_cst_47 (constant S_ .f32 0x3A83126F#32),
    StableHlo.unary main_cst_47 main_v188 (broadcastInDim S1x512 ![] bcast_S_S1x512 : (⟨S_, .f32⟩ : BufTy).Contents (Elt F) → (⟨S1x512, .f32⟩ : BufTy).Contents (Elt F)),
    StableHlo.binary main_v185 main_v188 main_v189 (addf : (⟨S1x512, .f32⟩ : BufTy).Contents (Elt F) → (⟨S1x512, .f32⟩ : BufTy).Contents (Elt F) → (⟨S1x512, .f32⟩ : BufTy).Contents (Elt F)) ]

set_option maxRecDepth 8192 in
theorem ops08_sub : (ops08 : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub ..⟩

/-- Every operation determines what it writes (none leaves a buffer at contents not chosen). -/
theorem ops08_fresh : (ops08 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the piece's operations write, in order. -/
abbrev ops08_W : List (Ref sig .tc) := [main_v180, main_cst_44, main_v181, main_v182, main_cst_45, main_v183, main_v184, main_c_46, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_v12, main_call7_cst_3, main_call7_v13, main_call7_cst_4, main_call7_call0_v0, main_call7_call0_v1, main_v185, main_v186, main_v187, main_cst_47, main_v188, main_v189]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops08_writes : (ops08 : List (HloOp τ sig (Elt F))).Forall fun op => op.writes ⊆ (ops08_W.map (Proc.devRef (τ := τ) .tc)).toFinset :=
  ⟨single_sub (y := main_v180) (by decide), single_sub (y := main_cst_44) (by decide), single_sub (y := main_v181) (by decide), single_sub (y := main_v182) (by decide), single_sub (y := main_cst_45) (by decide), single_sub (y := main_v183) (by decide), single_sub (y := main_v184) (by decide), single_sub (y := main_c_46) (by decide), single_sub (y := main_call7_cst) (by decide), single_sub (y := main_call7_v0) (by decide), single_sub (y := main_call7_v1) (by decide), single_sub (y := main_call7_cst_0) (by decide), single_sub (y := main_call7_v2) (by decide), single_sub (y := main_call7_v3) (by decide), single_sub (y := main_call7_v4) (by decide), single_sub (y := main_call7_v5) (by decide), single_sub (y := main_call7_v6) (by decide), single_sub (y := main_call7_v7) (by decide), single_sub (y := main_call7_cst_1) (by decide), single_sub (y := main_call7_v8) (by decide), single_sub (y := main_call7_cst_2) (by decide), single_sub (y := main_call7_v9) (by decide), single_sub (y := main_call7_v10) (by decide), single_sub (y := main_call7_v11) (by decide), single_sub (y := main_call7_v12) (by decide), single_sub (y := main_call7_cst_3) (by decide), single_sub (y := main_call7_v13) (by decide), single_sub (y := main_call7_cst_4) (by decide), single_sub (y := main_call7_call0_v0) (by decide), single_sub (y := main_call7_call0_v1) (by decide), single_sub (y := main_v185) (by decide), single_sub (y := main_v186) (by decide), single_sub (y := main_v187) (by decide), single_sub (y := main_cst_47) (by decide), single_sub (y := main_v188) (by decide), single_sub (y := main_v189) (by decide)⟩

/-- A buffer outside the list keeps its contents through the piece. -/
theorem ops08_keep (V : Valuation τ sig (Elt F)) (r : Ref sig .tc) (h : r ∉ ops08_W) :
    after ops08 V (Proc.devRef .tc r) = V (Proc.devRef .tc r) :=
  after_of_writes_sub ops08 V ops08_writes h

end Cert.ReferenceIdeal.RefRun

end
-- ==== Proof.RefRunOps09.lean ====
/- Operations 337 … 353 of the reference's straight line (statements %190 … %199 of its @main, inside dense2), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops09 : List (HloOp τ sig (Elt F)) :=
  [ StableHlo.unary main_v189 main_v190 (Host.rsqrt : (⟨S1x512, .f32⟩ : BufTy).Contents (Elt F) → (⟨S1x512, .f32⟩ : BufTy).Contents (Elt F)),
    StableHlo.unary main_v190 main_v191 (broadcastInDim S8x512 ![0, 1] bcast_S1x512_S8x512_0_1 : (⟨S1x512, .f32⟩ : BufTy).Contents (Elt F) → (⟨S8x512, .f32⟩ : BufTy).Contents (Elt F)),
    StableHlo.binary main_v187 main_v191 main_v192 (mulf : (⟨S8x512, .f32⟩ : BufTy).Contents (Elt F) → (⟨S8x512, .f32⟩ : BufTy).Contents (Elt F) → (⟨S8x512, .f32⟩ : BufTy).Contents (Elt F)),
    StableHlo.unary main_arg24 main_v193 (broadcastInDim S1x512 ![1] bcast_S512_S1x512_1 : (⟨S512, .f32⟩ : BufTy).Contents (Elt F) → (⟨S1x512, .f32⟩ : BufTy).Contents (Elt F)),
    StableHlo.unary main_v193 main_v194 (broadcastInDim S8x512 ![0, 1] bcast_S1x512_S8x512_0_1 : (⟨S1x512, .f32⟩ : BufTy).Contents (Elt F) → (⟨S8x512, .f32⟩ : BufTy).Contents (Elt F)),
    StableHlo.binary main_v192 main_v194 main_v195 (mulf : (⟨S8x512, .f32⟩ : BufTy).Contents (Elt F) → (⟨S8x512, .f32⟩ : BufTy).Contents (Elt F) → (⟨S8x512, .f32⟩ : BufTy).Contents (Elt F)),
    StableHlo.unary main_arg25 main_v196 (broadcastInDim S1x512 ![1] bcast_S512_S1x512_1 : (⟨S512, .f32⟩ : BufTy).Contents (Elt F) → (⟨S1x512, .f32⟩ : BufTy).Contents (Elt F)),
    StableHlo.unary main_v196 main_v197 (broadcastInDim S8x512 ![0, 1] bcast_S1x512_S8x512_0_1 : (⟨S1x512, .f32⟩ : BufTy).Contents (Elt F) → (⟨S8x512, .f32⟩ : BufTy).Contents (Elt F)),
    StableHlo.binary main_v195 main_v197 main_v198 (addf : (⟨S8x512, .f32⟩ : BufTy).Contents (Elt F) → (⟨S8x512, .f32⟩ : BufTy).Contents (Elt F) → (⟨S8x512, .f32⟩ : BufTy).Contents (Elt F)),
    StableHlo.nullary main_cst_48 (constant S_ .f32 0x3E99999A#32),
    StableHlo.TRef.nullary main_call8.cst (constant S_ .f32 0x00000000#32),
    StableHlo.TRef.unary main_call8.cst main_call8.v0 (broadcastInDim S8x512 ![] bcast_S_S8x512),
    StableHlo.TRef.binary (.of main_v198 : StableHlo.TRef sig ⟨S8x512, .f32⟩) main_call8.v0 main_call8.v1 (cmpf .oge),
    StableHlo.TRef.unary (.of main_cst_48 : StableHlo.TRef sig ⟨S_, .f32⟩) main_call8.v2 id,
    StableHlo.TRef.unary main_call8.v2 main_call8.v3 (broadcastInDim S8x512 ![] bcast_S_S8x512),
    StableHlo.TRef.binary main_call8.v3 (.of main_v198 : StableHlo.TRef sig ⟨S8x512, .f32⟩) main_call8.v4 mulf,
    StableHlo.TRef.ternary main_call8.v1 (.of main_v198 : StableHlo.TRef sig ⟨S8x512, .f32⟩) main_call8.v4 main_call8.call0.v0 select ]

set_option maxRecDepth 8192 in
theorem ops09_sub : (ops09 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Every operation determines what it writes (none leaves a buffer at contents not chosen). -/
theorem ops09_fresh : (ops09 : List (HloOp τ sig (Elt F))).Forall fun op => op.fresh = ∅ :=
  ⟨rfl, rfl, rfl, rfl, rfl, rfl, rfl, rfl, rfl, rfl, rfl, rfl, rfl, rfl, rfl, rfl, rfl⟩

/-- The buffers the piece's operations write, in order. -/
abbrev ops09_W : List (Ref sig .tc) := [main_v190, main_v191, main_v192, main_v193, main_v194, main_v195, main_v196, main_v197, main_v198, main_cst_48, main_call8_cst, main_call8_v0, main_call8_v1, main_call8_v2, main_call8_v3, main_call8_v4, main_v199]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops09_writes : (ops09 : List (HloOp τ sig (Elt F))).Forall fun op => op.writes ⊆ (ops09_W.map (Proc.devRef (τ := τ) .tc)).toFinset :=
  ⟨single_sub (y := main_v190) (by decide), single_sub (y := main_v191) (by decide), single_sub (y := main_v192) (by decide), single_sub (y := main_v193) (by decide), single_sub (y := main_v194) (by decide), single_sub (y := main_v195) (by decide), single_sub (y := main_v196) (by decide), single_sub (y := main_v197) (by decide), single_sub (y := main_v198) (by decide), single_sub (y := main_cst_48) (by decide), single_sub (y := main_call8_cst) (by decide), single_sub (y := main_call8_v0) (by decide), single_sub (y := main_call8_v1) (by decide), single_sub (y := main_call8_v2) (by decide), single_sub (y := main_call8_v3) (by decide), single_sub (y := main_call8_v4) (by decide), single_sub (y := main_v199) (by decide)⟩

/-- A buffer outside the list keeps its contents through the piece. -/
theorem ops09_keep (V : Valuation τ sig (Elt F)) (r : Ref sig .tc) (h : r ∉ ops09_W) :
    after ops09 V (Proc.devRef .tc r) = V (Proc.devRef .tc r) :=
  after_of_writes_sub ops09 V ops09_writes h

end Cert.ReferenceIdeal.RefRun

end
-- ==== Proof.RefRunOps10.lean ====
/- Operations 354 … 409 of the reference's straight line (statements %200 … %222 of its @main, inside head), as a list;
   each touches TensorCore buffers only, and each writes exactly one buffer: the list of those, in order, and the fact
   that every operation's written set lies inside it (so a buffer outside the list keeps its contents through the piece). -/
import proofs.«105096_j6674379178666_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The piece's operations, in order. -/
abbrev ops10 : List (HloOp τ sig (Elt F)) :=
  [ StableHlo.binary main_v199 main_arg26 main_v200 ((fun l r => Host.dotGeneral dot_S8x512_S512x128_S8x128_1_0_0_1_n_n none l r) : (⟨S8x512, .f32⟩ : BufTy).Contents (Elt F) → (⟨S512x128, .f32⟩ : BufTy).Contents (Elt F) → (⟨S8x128, .f32⟩ : BufTy).Contents (Elt F)),
    StableHlo.unary main_arg27 main_v201 (broadcastInDim S1x128 ![1] bcast_S128_S1x128_1 : (⟨S128, .f32⟩ : BufTy).Contents (Elt F) → (⟨S1x128, .f32⟩ : BufTy).Contents (Elt F)),
    StableHlo.unary main_v201 main_v202 (broadcastInDim S8x128 ![0, 1] bcast_S1x128_S8x128_0_1 : (⟨S1x128, .f32⟩ : BufTy).Contents (Elt F) → (⟨S8x128, .f32⟩ : BufTy).Contents (Elt F)),
    StableHlo.binary main_v200 main_v202 main_v203 (addf : (⟨S8x128, .f32⟩ : BufTy).Contents (Elt F) → (⟨S8x128, .f32⟩ : BufTy).Contents (Elt F) → (⟨S8x128, .f32⟩ : BufTy).Contents (Elt F)),
    StableHlo.nullary main_cst_49 (constant S_ .f32 0x00000000#32),
    StableHlo.binary main_v203 main_cst_49 main_v204 ((fun x v => Host.reduceAdd x v reducesTo_S8x128_S128_d0 h_S_) : (⟨S8x128, .f32⟩ : BufTy).Contents (Elt F) → (⟨S_, .f32⟩ : BufTy).Contents (Elt F) → (⟨S128, .f32⟩ : BufTy).Contents (Elt F)),
    StableHlo.unary main_v204 main_v205 (broadcastInDim S1x128 ![1] bcast_S128_S1x128_1 : (⟨S128, .f32⟩ : BufTy).Contents (Elt F) → (⟨S1x128, .f32⟩ : BufTy).Contents (Elt F)),
    StableHlo.nullary main_cst_50 (constant S_ .f32 0x41000000#32),
    StableHlo.unary main_cst_50 main_v206 (broadcastInDim S1x128 ![] bcast_S_S1x128 : (⟨S_, .f32⟩ : BufTy).Contents (Elt F) → (⟨S1x128, .f32⟩ : BufTy).Contents (Elt F)),
    StableHlo.binary main_v205 main_v206 main_v207 (Host.divf : (⟨S1x128, .f32⟩ : BufTy).Contents (Elt F) → (⟨S1x128, .f32⟩ : BufTy).Contents (Elt F) → (⟨S1x128, .f32⟩ : BufTy).Contents (Elt F)),
    StableHlo.nullary main_c_51 (constantI S_ 32 0#32),
    StableHlo.TRef.nullary main_call9.cst (constant S_ .f32 0x00000000#32),
    StableHlo.TRef.binary (.of main_v203 : StableHlo.TRef sig ⟨S8x128, .f32⟩) main_call9.cst main_call9.v0 (fun x v => Host.reduceAdd x v reducesTo_S8x128_S128_d0 h_S_),
    StableHlo.TRef.unary main_call9.v0 main_call9.v1 (broadcastInDim S1x128 ![1] bcast_S128_S1x128_1),
    StableHlo.TRef.nullary main_call9.cst_0 (constant S_ .f32 0x41000000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S8x128 ![0, 1] bcast_S1x128_S8x128_0_1),
    StableHlo.TRef.binary (.of main_v203 : StableHlo.TRef sig ⟨S8x128, .f32⟩) main_call9.v4 main_call9.v5 subf,
    StableHlo.TRef.binary main_call9.v5 main_call9.v5 main_call9.v6 mulf,
    StableHlo.TRef.unary (.of main_c_51 : StableHlo.TRef sig ⟨S_, .i32⟩) main_call9.v7 (sitofp .f32),
    StableHlo.TRef.nullary main_call9.cst_1 (constant S_ .f32 0x41000000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S8x128_S128_d0 h_S_),
    StableHlo.TRef.unary main_call9.v9 main_call9.v10 (broadcastInDim S1x128 ![1] bcast_S128_S1x128_1),
    StableHlo.TRef.unary main_call9.v8 main_call9.v11 (broadcastInDim S1x128 ![] bcast_S_S1x128),
    StableHlo.TRef.binary main_call9.v10 main_call9.v11 main_call9.v12 Host.divf,
    StableHlo.TRef.nullary main_call9.cst_3 (constant S_ .f32 0x00000000#32),
    StableHlo.TRef.binary main_call9.v8 main_call9.cst_3 main_call9.v13 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S1x128 ![] bcast_S_S1x128),
    StableHlo.TRef.ternary main_call9.v13 main_call9.v12 main_call9.call0.v1 main_call9.call0.v2 (fun p a b => select (broadcastInDim S1x128 ![] bcast_S_S1x128 p) a b),
    StableHlo.unary main_v207 main_v209 (broadcastInDim S8x128 ![0, 1] bcast_S1x128_S8x128_0_1 : (⟨S1x128, .f32⟩ : BufTy).Contents (Elt F) → (⟨S8x128, .f32⟩ : BufTy).Contents (Elt F)),
    StableHlo.binary main_v203 main_v209 main_v210 (subf : (⟨S8x128, .f32⟩ : BufTy).Contents (Elt F) → (⟨S8x128, .f32⟩ : BufTy).Contents (Elt F) → (⟨S8x128, .f32⟩ : BufTy).Contents (Elt F)),
    StableHlo.nullary main_cst_52 (constant S_ .f32 0x3A83126F#32),
    StableHlo.unary main_cst_52 main_v211 (broadcastInDim S1x128 ![] bcast_S_S1x128 : (⟨S_, .f32⟩ : BufTy).Contents (Elt F) → (⟨S1x128, .f32⟩ : BufTy).Contents (Elt F)),
    StableHlo.binary main_v208 main_v211 main_v212 (addf : (⟨S1x128, .f32⟩ : BufTy).Contents (Elt F) → (⟨S1x128, .f32⟩ : BufTy).Contents (Elt F) → (⟨S1x128, .f32⟩ : BufTy).Contents (Elt F)),
    StableHlo.unary main_v212 main_v213 (Host.rsqrt : (⟨S1x128, .f32⟩ : BufTy).Contents (Elt F) → (⟨S1x128, .f32⟩ : BufTy).Contents (Elt F)),
    StableHlo.unary main_v213 main_v214 (broadcastInDim S8x128 ![0, 1] bcast_S1x128_S8x128_0_1 : (⟨S1x128, .f32⟩ : BufTy).Contents (Elt F) → (⟨S8x128, .f32⟩ : BufTy).Contents (Elt F)),
    StableHlo.binary main_v210 main_v214 main_v215 (mulf : (⟨S8x128, .f32⟩ : BufTy).Contents (Elt F) → (⟨S8x128, .f32⟩ : BufTy).Contents (Elt F) → (⟨S8x128, .f32⟩ : BufTy).Contents (Elt F)),
    StableHlo.unary main_arg28 main_v216 (broadcastInDim S1x128 ![1] bcast_S128_S1x128_1 : (⟨S128, .f32⟩ : BufTy).Contents (Elt F) → (⟨S1x128, .f32⟩ : BufTy).Contents (Elt F)),
    StableHlo.unary main_v216 main_v217 (broadcastInDim S8x128 ![0, 1] bcast_S1x128_S8x128_0_1 : (⟨S1x128, .f32⟩ : BufTy).Contents (Elt F) → (⟨S8x128, .f32⟩ : BufTy).Contents (Elt F)),
    StableHlo.binary main_v215 main_v217 main_v218 (mulf : (⟨S8x128, .f32⟩ : BufTy).Contents (Elt F) → (⟨S8x128, .f32⟩ : BufTy).Contents (Elt F) → (⟨S8x128, .f32⟩ : BufTy).Contents (Elt F)),
    StableHlo.unary main_arg29 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S8x128 ![0, 1] bcast_S1x128_S8x128_0_1 : (⟨S1x128, .f32⟩ : BufTy).Contents (Elt F) → (⟨S8x128, .f32⟩ : BufTy).Contents (Elt F)),
    StableHlo.binary main_v218 main_v220 main_v221 (addf : (⟨S8x128, .f32⟩ : BufTy).Contents (Elt F) → (⟨S8x128, .f32⟩ : BufTy).Contents (Elt F) → (⟨S8x128, .f32⟩ : BufTy).Contents (Elt F)),
    StableHlo.nullary main_cst_53 (constant S_ .f32 0x3E99999A#32),
    StableHlo.TRef.nullary main_call10.cst (constant S_ .f32 0x00000000#32),
    StableHlo.TRef.unary main_call10.cst main_call10.v0 (broadcastInDim S8x128 ![] bcast_S_S8x128),
    StableHlo.TRef.binary (.of main_v221 : StableHlo.TRef sig ⟨S8x128, .f32⟩) main_call10.v0 main_call10.v1 (cmpf .oge),
    StableHlo.TRef.unary (.of main_cst_53 : StableHlo.TRef sig ⟨S_, .f32⟩) main_call10.v2 id,
    StableHlo.TRef.unary main_call10.v2 main_call10.v3 (broadcastInDim S8x128 ![] bcast_S_S8x128),
    StableHlo.TRef.binary main_call10.v3 (.of main_v221 : StableHlo.TRef sig ⟨S8x128, .f32⟩) main_call10.v4 mulf,
    StableHlo.TRef.ternary main_call10.v1 (.of main_v221 : StableHlo.TRef sig ⟨S8x128, .f32⟩) main_call10.v4 main_call10.call0.v0 select ]

set_option maxRecDepth 8192 in
theorem ops10_sub : (ops10 : List (HloOp τ sig (Elt F))).Forall fun op => op.bufs ⊆ tcRefs τ sig :=
  ⟨binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Every operation determines what it writes (none leaves a buffer at contents not chosen). -/
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers the piece's operations write, in order. -/
abbrev ops10_W : List (Ref sig .tc) := [main_v200, main_v201, main_v202, main_v203, main_cst_49, main_v204, main_v205, main_cst_50, main_v206, main_v207, main_c_51, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_v12, main_call9_cst_3, main_call9_v13, main_call9_cst_4, main_call9_call0_v0, main_call9_call0_v1, main_v208, main_v209, main_v210, main_cst_52, main_v211, main_v212, main_v213, main_v214, main_v215, main_v216, main_v217, main_v218, main_v219, main_v220, main_v221, main_cst_53, main_call10_cst, main_call10_v0, main_call10_v1, main_call10_v2, main_call10_v3, main_call10_v4, main_v222]

/-- A one-buffer written set lies inside the list's image when the buffer is in the list. -/
private theorem single_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
theorem ops10_writes : (ops10 : List (HloOp τ sig (Elt F))).Forall fun op => op.writes ⊆ (ops10_W.map (Proc.devRef (τ := τ) .tc)).toFinset :=
  ⟨single_sub (y := main_v200) (by decide), single_sub (y := main_v201) (by decide), single_sub (y := main_v202) (by decide), single_sub (y := main_v203) (by decide), single_sub (y := main_cst_49) (by decide), single_sub (y := main_v204) (by decide), single_sub (y := main_v205) (by decide), single_sub (y := main_cst_50) (by decide), single_sub (y := main_v206) (by decide), single_sub (y := main_v207) (by decide), single_sub (y := main_c_51) (by decide), single_sub (y := main_call9_cst) (by decide), single_sub (y := main_call9_v0) (by decide), single_sub (y := main_call9_v1) (by decide), single_sub (y := main_call9_cst_0) (by decide), single_sub (y := main_call9_v2) (by decide), single_sub (y := main_call9_v3) (by decide), single_sub (y := main_call9_v4) (by decide), single_sub (y := main_call9_v5) (by decide), single_sub (y := main_call9_v6) (by decide), single_sub (y := main_call9_v7) (by decide), single_sub (y := main_call9_cst_1) (by decide), single_sub (y := main_call9_v8) (by decide), single_sub (y := main_call9_cst_2) (by decide), single_sub (y := main_call9_v9) (by decide), single_sub (y := main_call9_v10) (by decide), single_sub (y := main_call9_v11) (by decide), single_sub (y := main_call9_v12) (by decide), single_sub (y := main_call9_cst_3) (by decide), single_sub (y := main_call9_v13) (by decide), single_sub (y := main_call9_cst_4) (by decide), single_sub (y := main_call9_call0_v0) (by decide), single_sub (y := main_call9_call0_v1) (by decide), single_sub (y := main_v208) (by decide), single_sub (y := main_v209) (by decide), single_sub (y := main_v210) (by decide), single_sub (y := main_cst_52) (by decide), single_sub (y := main_v211) (by decide), single_sub (y := main_v212) (by decide), single_sub (y := main_v213) (by decide), single_sub (y := main_v214) (by decide), single_sub (y := main_v215) (by decide), single_sub (y := main_v216) (by decide), single_sub (y := main_v217) (by decide), single_sub (y := main_v218) (by decide), single_sub (y := main_v219) (by decide), single_sub (y := main_v220) (by decide), single_sub (y := main_v221) (by decide), single_sub (y := main_cst_53) (by decide), single_sub (y := main_call10_cst) (by decide), single_sub (y := main_call10_v0) (by decide), single_sub (y := main_call10_v1) (by decide), single_sub (y := main_call10_v2) (by decide), single_sub (y := main_call10_v3) (by decide), single_sub (y := main_call10_v4) (by decide), single_sub (y := main_v222) (by decide)⟩

/-- A buffer outside the list keeps its contents through the piece. -/
theorem ops10_keep (V : Valuation τ sig (Elt F)) (r : Ref sig .tc) (h : r ∉ ops10_W) :
    after ops10 V (Proc.devRef .tc r) = V (Proc.devRef .tc r) :=
  after_of_writes_sub ops10 V ops10_writes h

end Cert.ReferenceIdeal.RefRun

end
-- ==== Proof.RefRunMain.lean ====
/- The reference's @main is a straight line of 409 tensor operations (its 279 statements, each private function's
   operations standing where it is called). The list is held in eleven consecutive pieces, cut where a printed window of
   @main ends and where one of the network's seven stages ends. Each printed window is, by unfolding, the straight line
   `seq` of the two or three pieces it spans; joined (`seq` of a concatenation is the two lines in sequence), @main is
   `seq ops` for the concatenation `ops` of all the pieces. The signature scopes no buffer and no semaphore, every
   operation touches TensorCore buffers only and determines everything it writes, so the straight-line run of the library
   applies: from any memory with zero counters every weakly fair execution terminates, and each TensorCore buffer ends at
   the fold `after ops` of the operations over what the launch put there. That fold is the pieces' folds nested in
   order (the fold of a concatenation is the second fold after the first). -/
import proofs.«105096_j6674379178666_1_alg».proof.Proof.RefRunOps00
import proofs.«105096_j6674379178666_1_alg».proof.Proof.RefRunOps01
import proofs.«105096_j6674379178666_1_alg».proof.Proof.RefRunOps02
import proofs.«105096_j6674379178666_1_alg».proof.Proof.RefRunOps03
import proofs.«105096_j6674379178666_1_alg».proof.Proof.RefRunOps04
import proofs.«105096_j6674379178666_1_alg».proof.Proof.RefRunOps05
import proofs.«105096_j6674379178666_1_alg».proof.Proof.RefRunOps06
import proofs.«105096_j6674379178666_1_alg».proof.Proof.RefRunOps07
import proofs.«105096_j6674379178666_1_alg».proof.Proof.RefRunOps08
import proofs.«105096_j6674379178666_1_alg».proof.Proof.RefRunOps09
import proofs.«105096_j6674379178666_1_alg».proof.Proof.RefRunOps10
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's printed window 0: pieces 00, 01. -/
def win0 : List (HloOp τ sig (Elt F)) := ops00 ++ ops01
/-- The operations of @main's printed window 1: pieces 02, 03. -/
def win1 : List (HloOp τ sig (Elt F)) := ops02 ++ ops03
/-- The operations of @main's printed window 2: pieces 04, 05, 06. -/
def win2 : List (HloOp τ sig (Elt F)) := ops04 ++ ops05 ++ ops06
/-- The operations of @main's printed window 3: pieces 07, 08. -/
def win3 : List (HloOp τ sig (Elt F)) := ops07 ++ ops08
/-- The operations of @main's printed window 4: pieces 09, 10. -/
def win4 : List (HloOp τ sig (Elt F)) := ops09 ++ ops10

set_option maxRecDepth 16384 in
set_option maxHeartbeats 4000000 in
/-- Window 0 of @main is the straight line of its operations: both sides are one chain of `hlo` steps, the called
    functions' bodies unfolding at their calls. -/
theorem main_part0_eq (c : Dev nD) : main_part0 (F := F) c = seq win0 := rfl

set_option maxRecDepth 16384 in
set_option maxHeartbeats 4000000 in
/-- Window 1 of @main is the straight line of its operations: both sides are one chain of `hlo` steps, the called
    functions' bodies unfolding at their calls. -/
theorem main_part1_eq (c : Dev nD) : main_part1 (F := F) c = seq win1 := rfl

set_option maxRecDepth 16384 in
set_option maxHeartbeats 4000000 in
/-- Window 2 of @main is the straight line of its operations: both sides are one chain of `hlo` steps, the called
    functions' bodies unfolding at their calls. -/
theorem main_part2_eq (c : Dev nD) : main_part2 (F := F) c = seq win2 := rfl

set_option maxRecDepth 16384 in
set_option maxHeartbeats 4000000 in
/-- Window 3 of @main is the straight line of its operations: both sides are one chain of `hlo` steps, the called
    functions' bodies unfolding at their calls. -/
theorem main_part3_eq (c : Dev nD) : main_part3 (F := F) c = seq win3 := rfl

set_option maxRecDepth 16384 in
set_option maxHeartbeats 4000000 in
/-- Window 4 of @main is the straight line of its operations: both sides are one chain of `hlo` steps, the called
    functions' bodies unfolding at their calls. -/
theorem main_part4_eq (c : Dev nD) : main_part4 (F := F) c = seq win4 := rfl

/-- @main's 409 operations, in order. -/
def ops : List (HloOp τ sig (Elt F)) := win0 ++ win1 ++ win2 ++ win3 ++ win4

/-- @main is the straight line of its operations. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Membership in the whole list is membership in one of the eleven pieces. -/
theorem mem_ops {op : HloOp τ sig (Elt F)} (h : op ∈ (ops : List (HloOp τ sig (Elt F)))) :
    op ∈ (ops00 : List (HloOp τ sig (Elt F))) ∨ op ∈ (ops01 : List (HloOp τ sig (Elt F))) ∨ op ∈ (ops02 : List (HloOp τ sig (Elt F))) ∨ op ∈ (ops03 : List (HloOp τ sig (Elt F))) ∨ op ∈ (ops04 : List (HloOp τ sig (Elt F))) ∨ op ∈ (ops05 : List (HloOp τ sig (Elt F))) ∨ op ∈ (ops06 : List (HloOp τ sig (Elt F))) ∨ op ∈ (ops07 : List (HloOp τ sig (Elt F))) ∨ op ∈ (ops08 : List (HloOp τ sig (Elt F))) ∨ op ∈ (ops09 : List (HloOp τ sig (Elt F))) ∨ op ∈ (ops10 : List (HloOp τ sig (Elt F))) := by
  simp only [ops, win0, win1, win2, win3, win4, List.mem_append, or_assoc] at h
  exact h

/-- Every operation touches TensorCore buffers only. -/
theorem ops_sub : (ops : List (HloOp τ sig (Elt F))).Forall fun op => op.bufs ⊆ tcRefs τ sig :=
  List.forall_iff_forall_mem.mpr fun op h => by
    rcases mem_ops h with h | h | h | h | h | h | h | h | h | h | h
    exacts [List.forall_iff_forall_mem.mp ops00_sub op h, List.forall_iff_forall_mem.mp ops01_sub op h, List.forall_iff_forall_mem.mp ops02_sub op h, List.forall_iff_forall_mem.mp ops03_sub op h, List.forall_iff_forall_mem.mp ops04_sub op h, List.forall_iff_forall_mem.mp ops05_sub op h, List.forall_iff_forall_mem.mp ops06_sub op h, List.forall_iff_forall_mem.mp ops07_sub op h, List.forall_iff_forall_mem.mp ops08_sub op h, List.forall_iff_forall_mem.mp ops09_sub op h, List.forall_iff_forall_mem.mp ops10_sub op h]

/-- Every operation determines what it writes. -/
theorem ops_fresh : ∀ op ∈ (ops : List (HloOp τ sig (Elt F))), op.fresh = ∅ := fun op h => by
  rcases mem_ops h with h | h | h | h | h | h | h | h | h | h | h
  exacts [List.forall_iff_forall_mem.mp ops00_fresh op h, List.forall_iff_forall_mem.mp ops01_fresh op h, List.forall_iff_forall_mem.mp ops02_fresh op h, List.forall_iff_forall_mem.mp ops03_fresh op h, List.forall_iff_forall_mem.mp ops04_fresh op h, List.forall_iff_forall_mem.mp ops05_fresh op h, List.forall_iff_forall_mem.mp ops06_fresh op h, List.forall_iff_forall_mem.mp ops07_fresh op h, List.forall_iff_forall_mem.mp ops08_fresh op h, List.forall_iff_forall_mem.mp ops09_fresh op h, List.forall_iff_forall_mem.mp ops10_fresh op h]

/-- On every device, for any float values, from any memory with zero counters: every weakly fair execution of @main
    terminates, and every final state has each TensorCore buffer at the operations' fold over its launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over the whole list is the pieces' folds nested in order. -/
theorem after_ops (V : Valuation τ sig (Elt F)) :
    after ops V = after ops10 (after ops09 (after ops08 (after ops07 (after ops06 (after ops05 (after ops04 (after ops03 (after ops02 (after ops01 (after ops00 (V))))))))))) := by
  simp only [ops, win0, win1, win2, win3, win4, after_append]

end Cert.ReferenceIdeal.RefRun

end
-- ==== Proof.RefRunArgs.lean ====
/- The buffer contents stage by stage. From contents `V`, `valK V` is what the buffers hold once the first K of the
   eleven pieces of the reference's operation list have run (each piece's fold applied to the stage before), and the
   fold over the whole list is the last stage. None of the pieces writes any of @main's thirty argument buffers — decided
   on each piece's list of written buffers — so at every stage each argument buffer still holds what `V` gave it. -/
import proofs.«105096_j6674379178666_1_alg».proof.Proof.RefRunMain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's thirty argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem ops00_args : ∀ r ∈ argRefs, r ∉ ops00_W := by decide
theorem ops01_args : ∀ r ∈ argRefs, r ∉ ops01_W := by decide
theorem ops02_args : ∀ r ∈ argRefs, r ∉ ops02_W := by decide
theorem ops03_args : ∀ r ∈ argRefs, r ∉ ops03_W := by decide
theorem ops04_args : ∀ r ∈ argRefs, r ∉ ops04_W := by decide
theorem ops05_args : ∀ r ∈ argRefs, r ∉ ops05_W := by decide
theorem ops06_args : ∀ r ∈ argRefs, r ∉ ops06_W := by decide
theorem ops07_args : ∀ r ∈ argRefs, r ∉ ops07_W := by decide
theorem ops08_args : ∀ r ∈ argRefs, r ∉ ops08_W := by decide
theorem ops09_args : ∀ r ∈ argRefs, r ∉ ops09_W := by decide
theorem ops10_args : ∀ r ∈ argRefs, r ∉ ops10_W := by decide

section Stages
variable (V : Valuation τ sig (Elt F))

/-- The contents after the first 1 piece. -/
def val1 : Valuation τ sig (Elt F) := after ops00 V
/-- The contents after the first 2 pieces. -/
def val2 : Valuation τ sig (Elt F) := after ops01 (val1 V)
/-- The contents after the first 3 pieces. -/
def val3 : Valuation τ sig (Elt F) := after ops02 (val2 V)
/-- The contents after the first 4 pieces. -/
def val4 : Valuation τ sig (Elt F) := after ops03 (val3 V)
/-- The contents after the first 5 pieces. -/
def val5 : Valuation τ sig (Elt F) := after ops04 (val4 V)
/-- The contents after the first 6 pieces. -/
def val6 : Valuation τ sig (Elt F) := after ops05 (val5 V)
/-- The contents after the first 7 pieces. -/
def val7 : Valuation τ sig (Elt F) := after ops06 (val6 V)
/-- The contents after the first 8 pieces. -/
def val8 : Valuation τ sig (Elt F) := after ops07 (val7 V)
/-- The contents after the first 9 pieces. -/
def val9 : Valuation τ sig (Elt F) := after ops08 (val8 V)
/-- The contents after the first 10 pieces. -/
def val10 : Valuation τ sig (Elt F) := after ops09 (val9 V)
/-- The contents after the first 11 pieces. -/
def val11 : Valuation τ sig (Elt F) := after ops10 (val10 V)

/-- The fold over the whole list is the last stage. -/
theorem after_ops_val : after ops V = val11 V := by
  rw [after_ops]
  rfl

theorem val1_arg {r : Ref sig .tc} (hr : r ∈ argRefs) : val1 V (Proc.devRef .tc r) = V (Proc.devRef .tc r) :=
  ops00_keep V r (ops00_args r hr)
theorem val2_arg {r : Ref sig .tc} (hr : r ∈ argRefs) : val2 V (Proc.devRef .tc r) = V (Proc.devRef .tc r) :=
  (ops01_keep (val1 V) r (ops01_args r hr)).trans (val1_arg V hr)
theorem val3_arg {r : Ref sig .tc} (hr : r ∈ argRefs) : val3 V (Proc.devRef .tc r) = V (Proc.devRef .tc r) :=
  (ops02_keep (val2 V) r (ops02_args r hr)).trans (val2_arg V hr)
theorem val4_arg {r : Ref sig .tc} (hr : r ∈ argRefs) : val4 V (Proc.devRef .tc r) = V (Proc.devRef .tc r) :=
  (ops03_keep (val3 V) r (ops03_args r hr)).trans (val3_arg V hr)
theorem val5_arg {r : Ref sig .tc} (hr : r ∈ argRefs) : val5 V (Proc.devRef .tc r) = V (Proc.devRef .tc r) :=
  (ops04_keep (val4 V) r (ops04_args r hr)).trans (val4_arg V hr)
theorem val6_arg {r : Ref sig .tc} (hr : r ∈ argRefs) : val6 V (Proc.devRef .tc r) = V (Proc.devRef .tc r) :=
  (ops05_keep (val5 V) r (ops05_args r hr)).trans (val5_arg V hr)
theorem val7_arg {r : Ref sig .tc} (hr : r ∈ argRefs) : val7 V (Proc.devRef .tc r) = V (Proc.devRef .tc r) :=
  (ops06_keep (val6 V) r (ops06_args r hr)).trans (val6_arg V hr)
theorem val8_arg {r : Ref sig .tc} (hr : r ∈ argRefs) : val8 V (Proc.devRef .tc r) = V (Proc.devRef .tc r) :=
  (ops07_keep (val7 V) r (ops07_args r hr)).trans (val7_arg V hr)
theorem val9_arg {r : Ref sig .tc} (hr : r ∈ argRefs) : val9 V (Proc.devRef .tc r) = V (Proc.devRef .tc r) :=
  (ops08_keep (val8 V) r (ops08_args r hr)).trans (val8_arg V hr)
theorem val10_arg {r : Ref sig .tc} (hr : r ∈ argRefs) : val10 V (Proc.devRef .tc r) = V (Proc.devRef .tc r) :=
  (ops09_keep (val9 V) r (ops09_args r hr)).trans (val9_arg V hr)
theorem val11_arg {r : Ref sig .tc} (hr : r ∈ argRefs) : val11 V (Proc.devRef .tc r) = V (Proc.devRef .tc r) :=
  (ops10_keep (val10 V) r (ops10_args r hr)).trans (val10_arg V hr)

/-- An argument buffer holds after the whole list what it held before. -/
theorem after_ops_arg {r : Ref sig .tc} (hr : r ∈ argRefs) : after ops V (Proc.devRef .tc r) = V (Proc.devRef .tc r) :=
  (congrFun (after_ops_val V) _).trans (val11_arg V hr)

end Stages

end Cert.ReferenceIdeal.RefRun

end
-- ==== Proof.RefRunRead_agg0.lean ====
/- The stage agg0 of the reference (level 0's Monte-Carlo aggregate) read back: from ANY buffer contents `W`,
   once the stage's operations have run in order the stage's result buffer main_v45 holds the stage's pure function
   `RefSpec.agg0` of what `W` holds at the stage's input buffers.
   The fold unrolls one operation at a time: at its own result buffer an operation leaves its function's value of its
   operands' contents, at every other buffer what was there, the two buffers told apart by computation on the references.
   What is left is the composition of the operations' functions in the printed order, which is the stage's definition
   term for term; the gathers, scatter-sums and reductions are kept folded while the two are compared. -/
import proofs.«105096_j6674379178666_1_alg».proof.Proof.RefRunOps00
import proofs.«105096_j6674379178666_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Bridge

attribute [local irreducible] Host.gather Host.scatterAdd Host.reduceAdd in
set_option maxRecDepth 16384 in
set_option maxHeartbeats 8000000 in
theorem read_agg0 (W : Valuation τ sig (Elt Ideal)) :
    after ops00 (W) (Proc.devRef .tc main_v45)
      = RefSpec.agg0 (W (Proc.devRef .tc main_arg0)) (W (Proc.devRef .tc main_arg1)) (W (Proc.devRef .tc main_arg2)) (W (Proc.devRef .tc main_arg5)) (W (Proc.devRef .tc main_arg6)) (W (Proc.devRef .tc main_arg11)) (W (Proc.devRef .tc main_arg12)) := by
  simp only [ops00]
  after_results_simp
  rfl

end Cert.ReferenceIdeal.RefRun

end
-- ==== Proof.RefRunRead_dense0.lean ====
/- The stage dense0 of the reference (level 0's projection, batch normalisation and leaky-relu) read back: from ANY buffer contents `W`,
   once the stage's operations have run in order the stage's result buffer main_v65 holds the stage's pure function
   `RefSpec.dense0` of what `W` holds at the stage's input buffers (the stage is two consecutive pieces of the operation list, the second run after the first).
   The fold unrolls one operation at a time: at its own result buffer an operation leaves its function's value of its
   operands' contents, at every other buffer what was there, the two buffers told apart by computation on the references.
   What is left is the composition of the operations' functions in the printed order, which is the stage's definition
   term for term; the gathers, scatter-sums and reductions are kept folded while the two are compared. -/
import proofs.«105096_j6674379178666_1_alg».proof.Proof.RefRunOps01
import proofs.«105096_j6674379178666_1_alg».proof.Proof.RefRunOps02
import proofs.«105096_j6674379178666_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Bridge

attribute [local irreducible] Host.gather Host.scatterAdd Host.reduceAdd in
set_option maxRecDepth 16384 in
set_option maxHeartbeats 8000000 in
theorem read_dense0 (W : Valuation τ sig (Elt Ideal)) :
    after ops02 (after ops01 (W)) (Proc.devRef .tc main_v65)
      = RefSpec.dense0 (W (Proc.devRef .tc main_v45)) (W (Proc.devRef .tc main_arg13)) (W (Proc.devRef .tc main_arg14)) (W (Proc.devRef .tc main_arg15)) := by
  simp only [ops01, ops02]
  after_results_simp
  rfl

end Cert.ReferenceIdeal.RefRun

end
-- ==== Proof.RefRunRead_agg1.lean ====
/- The stage agg1 of the reference (level 1's Monte-Carlo aggregate) read back: from ANY buffer contents `W`,
   once the stage's operations have run in order the stage's result buffer main_v112 holds the stage's pure function
   `RefSpec.agg1` of what `W` holds at the stage's input buffers (the stage is two consecutive pieces of the operation list, the second run after the first).
   The fold unrolls one operation at a time: at its own result buffer an operation leaves its function's value of its
   operands' contents, at every other buffer what was there, the two buffers told apart by computation on the references.
   What is left is the composition of the operations' functions in the printed order, which is the stage's definition
   term for term; the gathers, scatter-sums and reductions are kept folded while the two are compared. -/
import proofs.«105096_j6674379178666_1_alg».proof.Proof.RefRunOps03
import proofs.«105096_j6674379178666_1_alg».proof.Proof.RefRunOps04
import proofs.«105096_j6674379178666_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Bridge

attribute [local irreducible] Host.gather Host.scatterAdd Host.reduceAdd in
set_option maxRecDepth 16384 in
set_option maxHeartbeats 8000000 in
theorem read_agg1 (W : Valuation τ sig (Elt Ideal)) :
    after ops04 (after ops03 (W)) (Proc.devRef .tc main_v112)
      = RefSpec.agg1 (W (Proc.devRef .tc main_v65)) (W (Proc.devRef .tc main_arg2)) (W (Proc.devRef .tc main_arg3)) (W (Proc.devRef .tc main_arg7)) (W (Proc.devRef .tc main_arg8)) (W (Proc.devRef .tc main_arg16)) (W (Proc.devRef .tc main_arg17)) := by
  simp only [ops03, ops04]
  after_results_simp
  rfl

end Cert.ReferenceIdeal.RefRun

end
-- ==== Proof.RefRunRead_dense1.lean ====
/- The stage dense1 of the reference (level 1's projection, batch normalisation and leaky-relu) read back: from ANY buffer contents `W`,
   once the stage's operations have run in order the stage's result buffer main_v132 holds the stage's pure function
   `RefSpec.dense1` of what `W` holds at the stage's input buffers.
   The fold unrolls one operation at a time: at its own result buffer an operation leaves its function's value of its
   operands' contents, at every other buffer what was there, the two buffers told apart by computation on the references.
   What is left is the composition of the operations' functions in the printed order, which is the stage's definition
   term for term; the gathers, scatter-sums and reductions are kept folded while the two are compared. -/
import proofs.«105096_j6674379178666_1_alg».proof.Proof.RefRunOps05
import proofs.«105096_j6674379178666_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Bridge

attribute [local irreducible] Host.gather Host.scatterAdd Host.reduceAdd in
set_option maxRecDepth 16384 in
set_option maxHeartbeats 8000000 in
theorem read_dense1 (W : Valuation τ sig (Elt Ideal)) :
    after ops05 (W) (Proc.devRef .tc main_v132)
      = RefSpec.dense1 (W (Proc.devRef .tc main_v112)) (W (Proc.devRef .tc main_arg18)) (W (Proc.devRef .tc main_arg19)) (W (Proc.devRef .tc main_arg20)) := by
  simp only [ops05]
  after_results_simp
  rfl

end Cert.ReferenceIdeal.RefRun

end
-- ==== Proof.RefRunRead_agg2.lean ====
/- The stage agg2 of the reference (level 2's Monte-Carlo aggregate) read back: from ANY buffer contents `W`,
   once the stage's operations have run in order the stage's result buffer main_v179 holds the stage's pure function
   `RefSpec.agg2` of what `W` holds at the stage's input buffers (the stage is two consecutive pieces of the operation list, the second run after the first).
   The fold unrolls one operation at a time: at its own result buffer an operation leaves its function's value of its
   operands' contents, at every other buffer what was there, the two buffers told apart by computation on the references.
   What is left is the composition of the operations' functions in the printed order, which is the stage's definition
   term for term; the gathers, scatter-sums and reductions are kept folded while the two are compared. -/
import proofs.«105096_j6674379178666_1_alg».proof.Proof.RefRunOps06
import proofs.«105096_j6674379178666_1_alg».proof.Proof.RefRunOps07
import proofs.«105096_j6674379178666_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Bridge

attribute [local irreducible] Host.gather Host.scatterAdd Host.reduceAdd in
set_option maxRecDepth 16384 in
set_option maxHeartbeats 8000000 in
theorem read_agg2 (W : Valuation τ sig (Elt Ideal)) :
    after ops07 (after ops06 (W)) (Proc.devRef .tc main_v179)
      = RefSpec.agg2 (W (Proc.devRef .tc main_v132)) (W (Proc.devRef .tc main_arg3)) (W (Proc.devRef .tc main_arg4)) (W (Proc.devRef .tc main_arg9)) (W (Proc.devRef .tc main_arg10)) (W (Proc.devRef .tc main_arg21)) (W (Proc.devRef .tc main_arg22)) := by
  simp only [ops06, ops07]
  after_results_simp
  rfl

end Cert.ReferenceIdeal.RefRun

end
-- ==== Proof.RefRunRead_dense2.lean ====
/- The stage dense2 of the reference (level 2's projection, batch normalisation and leaky-relu) read back: from ANY buffer contents `W`,
   once the stage's operations have run in order the stage's result buffer main_v199 holds the stage's pure function
   `RefSpec.dense2` of what `W` holds at the stage's input buffers (the stage is two consecutive pieces of the operation list, the second run after the first).
   The fold unrolls one operation at a time: at its own result buffer an operation leaves its function's value of its
   operands' contents, at every other buffer what was there, the two buffers told apart by computation on the references.
   What is left is the composition of the operations' functions in the printed order, which is the stage's definition
   term for term; the gathers, scatter-sums and reductions are kept folded while the two are compared. -/
import proofs.«105096_j6674379178666_1_alg».proof.Proof.RefRunOps08
import proofs.«105096_j6674379178666_1_alg».proof.Proof.RefRunOps09
import proofs.«105096_j6674379178666_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Bridge

attribute [local irreducible] Host.gather Host.scatterAdd Host.reduceAdd in
set_option maxRecDepth 16384 in
set_option maxHeartbeats 8000000 in
theorem read_dense2 (W : Valuation τ sig (Elt Ideal)) :
    after ops09 (after ops08 (W)) (Proc.devRef .tc main_v199)
      = RefSpec.dense2 (W (Proc.devRef .tc main_v179)) (W (Proc.devRef .tc main_arg23)) (W (Proc.devRef .tc main_arg24)) (W (Proc.devRef .tc main_arg25)) := by
  simp only [ops08, ops09]
  after_results_simp
  rfl

end Cert.ReferenceIdeal.RefRun

end
-- ==== Proof.RefRunRead_head.lean ====
/- The stage head of the reference (the dense head with its batch normalisation and leaky-relu) read back: from ANY buffer contents `W`,
   once the stage's operations have run in order the stage's result buffer main_v222 holds the stage's pure function
   `RefSpec.head` of what `W` holds at the stage's input buffers.
   The fold unrolls one operation at a time: at its own result buffer an operation leaves its function's value of its
   operands' contents, at every other buffer what was there, the two buffers told apart by computation on the references.
   What is left is the composition of the operations' functions in the printed order, which is the stage's definition
   term for term; the gathers, scatter-sums and reductions are kept folded while the two are compared. -/
import proofs.«105096_j6674379178666_1_alg».proof.Proof.RefRunOps10
import proofs.«105096_j6674379178666_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Bridge

attribute [local irreducible] Host.gather Host.scatterAdd Host.reduceAdd in
set_option maxRecDepth 16384 in
set_option maxHeartbeats 8000000 in
theorem read_head (W : Valuation τ sig (Elt Ideal)) :
    after ops10 (W) (Proc.devRef .tc main_v222)
      = RefSpec.head (W (Proc.devRef .tc main_v199)) (W (Proc.devRef .tc main_arg26)) (W (Proc.devRef .tc main_arg27)) (W (Proc.devRef .tc main_arg28)) (W (Proc.devRef .tc main_arg29)) := by
  simp only [ops10]
  after_results_simp
  rfl

end Cert.ReferenceIdeal.RefRun

end
-- ==== Proof.RefRun.lean ====
/- The reference's run read back at its seven stage boundaries. The network is
   head ∘ dense2 ∘ agg2 ∘ dense1 ∘ agg1 ∘ dense0 ∘ agg0; stage by stage, the contents of a stage's result buffer after
   the pieces of the operation list up to it are the stage's pure function (`RefSpec`) of the previous stage's result and of
   argument buffers: the stage's own read-back, stated from any contents, is taken at the contents the earlier pieces
   left, where the previous result is the previous stage's value and the argument buffers still hold the launch
   contents. Composed, the output buffer main_v222 ends at the seven functions nested in order over the thirty
   arguments' launch contents, and the arguments are unchanged; with the straight-line run of @main this is the run's
   postcondition. Each stage's value is kept under a name, never opened: the equations are between short terms. -/
import proofs.«105096_j6674379178666_1_alg».proof.Proof.RefRunMain
import proofs.«105096_j6674379178666_1_alg».proof.Proof.RefRunArgs
import proofs.«105096_j6674379178666_1_alg».proof.Proof.RefRunRead_agg0
import proofs.«105096_j6674379178666_1_alg».proof.Proof.RefRunRead_dense0
import proofs.«105096_j6674379178666_1_alg».proof.Proof.RefRunRead_agg1
import proofs.«105096_j6674379178666_1_alg».proof.Proof.RefRunRead_dense1
import proofs.«105096_j6674379178666_1_alg».proof.Proof.RefRunRead_agg2
import proofs.«105096_j6674379178666_1_alg».proof.Proof.RefRunRead_dense2
import proofs.«105096_j6674379178666_1_alg».proof.Proof.RefRunRead_head

noncomputable section

namespace Cert.ReferenceIdeal.RefRun

open Cert.ReferenceIdeal Cert.ReferenceIdeal.Gen Idealize.ShloMosaic Idealize.ShloMosaic.TcCoe Idealize.SL.Sem Idealize.ShloMosaic.StableHlo

open Cert.Bridge

section Values
variable (V : Valuation τ sig (Elt Ideal))

/-- The value of stage agg0 from contents `V`. -/
def out1 := RefSpec.agg0 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))
/-- The value of stage dense0 from contents `V` (over the stage before). -/
def out2 := RefSpec.dense0 (out1 V) (V (Proc.devRef .tc main_arg13)) (V (Proc.devRef .tc main_arg14)) (V (Proc.devRef .tc main_arg15))
/-- The value of stage agg1 from contents `V` (over the stage before). -/
def out3 := RefSpec.agg1 (out2 V) (V (Proc.devRef .tc main_arg2)) (V (Proc.devRef .tc main_arg3)) (V (Proc.devRef .tc main_arg7)) (V (Proc.devRef .tc main_arg8)) (V (Proc.devRef .tc main_arg16)) (V (Proc.devRef .tc main_arg17))
/-- The value of stage dense1 from contents `V` (over the stage before). -/
def out4 := RefSpec.dense1 (out3 V) (V (Proc.devRef .tc main_arg18)) (V (Proc.devRef .tc main_arg19)) (V (Proc.devRef .tc main_arg20))
/-- The value of stage agg2 from contents `V` (over the stage before). -/
def out5 := RefSpec.agg2 (out4 V) (V (Proc.devRef .tc main_arg3)) (V (Proc.devRef .tc main_arg4)) (V (Proc.devRef .tc main_arg9)) (V (Proc.devRef .tc main_arg10)) (V (Proc.devRef .tc main_arg21)) (V (Proc.devRef .tc main_arg22))
/-- The value of stage dense2 from contents `V` (over the stage before). -/
def out6 := RefSpec.dense2 (out5 V) (V (Proc.devRef .tc main_arg23)) (V (Proc.devRef .tc main_arg24)) (V (Proc.devRef .tc main_arg25))
/-- The value of stage head from contents `V` (over the stage before). -/
def out7 := RefSpec.head (out6 V) (V (Proc.devRef .tc main_arg26)) (V (Proc.devRef .tc main_arg27)) (V (Proc.devRef .tc main_arg28)) (V (Proc.devRef .tc main_arg29))

/-- After the pieces through stage agg0, its result buffer holds the stage's value. -/
theorem val1_main_v45 : val1 V (Proc.devRef .tc main_v45) = out1 V := by
  exact read_agg0 V

/-- After the pieces through stage dense0, its result buffer holds the stage's value. -/
theorem val3_main_v65 : val3 V (Proc.devRef .tc main_v65) = out2 V := by
  have h := read_dense0 (val1 V)
  rw [val1_main_v45 V, val1_arg V (r := main_arg13) (by decide), val1_arg V (r := main_arg14) (by decide), val1_arg V (r := main_arg15) (by decide)] at h
  exact h

/-- After the pieces through stage agg1, its result buffer holds the stage's value. -/
theorem val5_main_v112 : val5 V (Proc.devRef .tc main_v112) = out3 V := by
  have h := read_agg1 (val3 V)
  rw [val3_main_v65 V, val3_arg V (r := main_arg2) (by decide), val3_arg V (r := main_arg3) (by decide), val3_arg V (r := main_arg7) (by decide), val3_arg V (r := main_arg8) (by decide), val3_arg V (r := main_arg16) (by decide), val3_arg V (r := main_arg17) (by decide)] at h
  exact h

/-- After the pieces through stage dense1, its result buffer holds the stage's value. -/
theorem val6_main_v132 : val6 V (Proc.devRef .tc main_v132) = out4 V := by
  have h := read_dense1 (val5 V)
  rw [val5_main_v112 V, val5_arg V (r := main_arg18) (by decide), val5_arg V (r := main_arg19) (by decide), val5_arg V (r := main_arg20) (by decide)] at h
  exact h

/-- After the pieces through stage agg2, its result buffer holds the stage's value. -/
theorem val8_main_v179 : val8 V (Proc.devRef .tc main_v179) = out5 V := by
  have h := read_agg2 (val6 V)
  rw [val6_main_v132 V, val6_arg V (r := main_arg3) (by decide), val6_arg V (r := main_arg4) (by decide), val6_arg V (r := main_arg9) (by decide), val6_arg V (r := main_arg10) (by decide), val6_arg V (r := main_arg21) (by decide), val6_arg V (r := main_arg22) (by decide)] at h
  exact h

/-- After the pieces through stage dense2, its result buffer holds the stage's value. -/
theorem val10_main_v199 : val10 V (Proc.devRef .tc main_v199) = out6 V := by
  have h := read_dense2 (val8 V)
  rw [val8_main_v179 V, val8_arg V (r := main_arg23) (by decide), val8_arg V (r := main_arg24) (by decide), val8_arg V (r := main_arg25) (by decide)] at h
  exact h

/-- After the pieces through stage head, its result buffer holds the stage's value. -/
theorem val11_main_v222 : val11 V (Proc.devRef .tc main_v222) = out7 V := by
  have h := read_head (val10 V)
  rw [val10_main_v199 V, val10_arg V (r := main_arg26) (by decide), val10_arg V (r := main_arg27) (by decide), val10_arg V (r := main_arg28) (by decide), val10_arg V (r := main_arg29) (by decide)] at h
  exact h

/-- After the whole list the output buffer holds the seven stages composed over the arguments' contents. -/
theorem after_ops_out :
    after ops V (Proc.devRef .tc main_v222)
      = RefSpec.head (RefSpec.dense2 (RefSpec.agg2 (RefSpec.dense1 (RefSpec.agg1 (RefSpec.dense0 (RefSpec.agg0 (V (Proc.devRef .tc main_arg0)) (V (Proc.devRef .tc main_arg1)) (V (Proc.devRef .tc main_arg2)) (V (Proc.devRef .tc main_arg5)) (V (Proc.devRef .tc main_arg6)) (V (Proc.devRef .tc main_arg11)) (V (Proc.devRef .tc main_arg12))) (V (Proc.devRef .tc main_arg13)) (V (Proc.devRef .tc main_arg14)) (V (Proc.devRef .tc main_arg15))) (V (Proc.devRef .tc main_arg2)) (V (Proc.devRef .tc main_arg3)) (V (Proc.devRef .tc main_arg7)) (V (Proc.devRef .tc main_arg8)) (V (Proc.devRef .tc main_arg16)) (V (Proc.devRef .tc main_arg17))) (V (Proc.devRef .tc main_arg18)) (V (Proc.devRef .tc main_arg19)) (V (Proc.devRef .tc main_arg20))) (V (Proc.devRef .tc main_arg3)) (V (Proc.devRef .tc main_arg4)) (V (Proc.devRef .tc main_arg9)) (V (Proc.devRef .tc main_arg10)) (V (Proc.devRef .tc main_arg21)) (V (Proc.devRef .tc main_arg22))) (V (Proc.devRef .tc main_arg23)) (V (Proc.devRef .tc main_arg24)) (V (Proc.devRef .tc main_arg25))) (V (Proc.devRef .tc main_arg26)) (V (Proc.devRef .tc main_arg27)) (V (Proc.devRef .tc main_arg28)) (V (Proc.devRef .tc main_arg29)) :=
  (congrFun (after_ops_val V) _).trans (val11_main_v222 V)

end Values

/-- On every device, from any memory with zero counters: every weakly fair execution of the reference's @main
    terminates with the output buffer at the network's seven stages composed over the arguments' launch contents, and
    every argument buffer unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v222)
        = RefSpec.head (RefSpec.dense2 (RefSpec.agg2 (RefSpec.dense1 (RefSpec.agg1 (RefSpec.dense0 (RefSpec.agg0 (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg11)) (m ((c.tc : Thread nD τ).loc main_arg12))) (m ((c.tc : Thread nD τ).loc main_arg13)) (m ((c.tc : Thread nD τ).loc main_arg14)) (m ((c.tc : Thread nD τ).loc main_arg15))) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg16)) (m ((c.tc : Thread nD τ).loc main_arg17))) (m ((c.tc : Thread nD τ).loc main_arg18)) (m ((c.tc : Thread nD τ).loc main_arg19)) (m ((c.tc : Thread nD τ).loc main_arg20))) (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg21)) (m ((c.tc : Thread nD τ).loc main_arg22))) (m ((c.tc : Thread nD τ).loc main_arg23)) (m ((c.tc : Thread nD τ).loc main_arg24)) (m ((c.tc : Thread nD τ).loc main_arg25))) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c => ⟨(h c main_v222).trans (after_ops_out (launchContents m c)),
      (h c main_arg0).trans (after_ops_arg (launchContents m c) (by decide)),
      (h c main_arg1).trans (after_ops_arg (launchContents m c) (by decide)),
      (h c main_arg2).trans (after_ops_arg (launchContents m c) (by decide)),
      (h c main_arg3).trans (after_ops_arg (launchContents m c) (by decide)),
      (h c main_arg4).trans (after_ops_arg (launchContents m c) (by decide)),
      (h c main_arg5).trans (after_ops_arg (launchContents m c) (by decide)),
      (h c main_arg6).trans (after_ops_arg (launchContents m c) (by decide)),
      (h c main_arg7).trans (after_ops_arg (launchContents m c) (by decide)),
      (h c main_arg8).trans (after_ops_arg (launchContents m c) (by decide)),
      (h c main_arg9).trans (after_ops_arg (launchContents m c) (by decide)),
      (h c main_arg10).trans (after_ops_arg (launchContents m c) (by decide)),
      (h c main_arg11).trans (after_ops_arg (launchContents m c) (by decide)),
      (h c main_arg12).trans (after_ops_arg (launchContents m c) (by decide)),
      (h c main_arg13).trans (after_ops_arg (launchContents m c) (by decide)),
      (h c main_arg14).trans (after_ops_arg (launchContents m c) (by decide)),
      (h c main_arg15).trans (after_ops_arg (launchContents m c) (by decide)),
      (h c main_arg16).trans (after_ops_arg (launchContents m c) (by decide)),
      (h c main_arg17).trans (after_ops_arg (launchContents m c) (by decide)),
      (h c main_arg18).trans (after_ops_arg (launchContents m c) (by decide)),
      (h c main_arg19).trans (after_ops_arg (launchContents m c) (by decide)),
      (h c main_arg20).trans (after_ops_arg (launchContents m c) (by decide)),
      (h c main_arg21).trans (after_ops_arg (launchContents m c) (by decide)),
      (h c main_arg22).trans (after_ops_arg (launchContents m c) (by decide)),
      (h c main_arg23).trans (after_ops_arg (launchContents m c) (by decide)),
      (h c main_arg24).trans (after_ops_arg (launchContents m c) (by decide)),
      (h c main_arg25).trans (after_ops_arg (launchContents m c) (by decide)),
      (h c main_arg26).trans (after_ops_arg (launchContents m c) (by decide)),
      (h c main_arg27).trans (after_ops_arg (launchContents m c) (by decide)),
      (h c main_arg28).trans (after_ops_arg (launchContents m c) (by decide)),
      (h c main_arg29).trans (after_ops_arg (launchContents m c) (by decide))⟩)
    (run_after m ρ)

end Cert.ReferenceIdeal.RefRun

end
-- ==== Proof.Assemble.lean ====
/- The idealized kernel program and the idealized reference compute one function of the thirty argument arrays.
   Both are the same network cut at the same seven places: three levels, each an aggregation stage (gather the edges'
   positions and features, the edge layer with its leaky-relu, the outer product with the gathered feature, the mean over
   each destination's edges) followed by a dense stage (projection, batch normalisation, leaky-relu), and the head.
   On the kernel's side an aggregation stage is the host's mean of the edge kernel's rows of the gathered and lengthened
   arrays, and a dense stage is the dense kernel's body on the stage's input with its bias, scale and shift handed over as
   rows; on the reference's side each stage is one pure function. Given, stage by stage, that the kernel's spelling of a
   stage equals the reference's on EVERY input, the two seven-fold compositions are equal: rewrite the innermost stage, whose
   input is arguments only; then the stage around it, whose input has just become the reference's value of the stage
   before; and so on outwards. No stage is opened: the seven equalities are used as they stand, so what is compared at each
   step is two short terms. The two programs name the same shapes separately; the names denote the same literals, which is
   all the statements need to be well typed.
   The claim about the two runs follows: from memories that agree on the arguments, the kernel program runs and leaves
   its result buffer at the kernel's composition over its arguments; the reference runs and leaves its result buffer at
   the reference's composition over ITS arguments, which are the kernel's by the agreement; the one result function named
   in the claim is the kernel's composition, and the reference's equals it by the equality above. Both runs leave the
   arguments unchanged. -/
import proofs.«105096_j6674379178666_1_alg».proof.Proof.Gen.KernelIdeal
import proofs.«105096_j6674379178666_1_alg».proof.Proof.Gen.KernelIdeal.Skeleton
import proofs.«105096_j6674379178666_1_alg».proof.Proof.Gen.ReferenceIdeal
import proofs.«105096_j6674379178666_1_alg».proof.Proof.KerSpec
import proofs.«105096_j6674379178666_1_alg».proof.Proof.KerRegionsEdge0
import proofs.«105096_j6674379178666_1_alg».proof.Proof.KerRegionsEdge2
import proofs.«105096_j6674379178666_1_alg».proof.Proof.KerRegionsEdge4
import proofs.«105096_j6674379178666_1_alg».proof.Proof.RefSpec
import proofs.«105096_j6674379178666_1_alg».proof.Defs
import proofs.«105096_j6674379178666_1_alg».proof.Proof.Gen.Pre_finite_inputs
import proofs.«105096_j6674379178666_1_alg».proof.Proof.RefRun

noncomputable section

namespace Cert.Bridge.Assemble

open Idealize.ShloMosaic Idealize.ShloMosaic.TcCoe Idealize.SL.Sem
open Cert.KernelIdeal Cert.KernelIdeal.Gen

/-- The kernel program's result, as the seven stages in the kernel's spelling composed over the argument arrays, is the
    reference's seven stages composed over the same arrays — from the seven stage equalities. -/
theorem result_eq
    (hagg0 : ∀ (a0 : Vec Ideal S262144x1 .f32) (a1 : Vec Ideal S262144x3 .f32) (a2 : Vec Ideal S8000x3 .f32) (a5 a6 : Vec Ideal S980628 .i32) (a11 : Vec Ideal S3x16 .f32) (a12 : Vec Ideal S16 .f32),
      KerSpec.agg0 (KerRegions.edge0 (KerSpec.ps0 a1 a5) (KerSpec.pd0 a2 a6) (KerSpec.ft0 a0 a5) a11 (KerSpec.bb0 a12)) a6
        = RefSpec.agg0 (F := Ideal) a0 a1 a2 a5 a6 a11 a12)
    (hdense0 : ∀ (X : Vec Ideal S8000x16 .f32) (W : Vec Ideal S16x128 .f32) (g be : Vec Ideal S128 .f32),
      k1_pay1 (F := Ideal) X W KerSpec.zb0 (KerSpec.gr0 g) (KerSpec.ber0 be) = RefSpec.dense0 (F := Ideal) X W g be)
    (hagg1 : ∀ (x : Vec Ideal S8000x128 .f32) (a2 : Vec Ideal S8000x3 .f32) (a3 : Vec Ideal S1000x3 .f32) (a7 a8 : Vec Ideal S26578 .i32) (a16 : Vec Ideal S3x16 .f32) (a17 : Vec Ideal S16 .f32),
      KerSpec.agg1 (KerRegions.edge2 (KerSpec.ps1 a2 a7) (KerSpec.pd1 a3 a8) (KerSpec.ft1 x a7) a16 (KerSpec.bb1 a17)) a8
        = RefSpec.agg1 (F := Ideal) x a2 a3 a7 a8 a16 a17)
    (hdense1 : ∀ (X : Vec Ideal S1000x2048 .f32) (W : Vec Ideal S2048x256 .f32) (g be : Vec Ideal S256 .f32),
      k3_pay1 (F := Ideal) X W KerSpec.zb1 (KerSpec.gr1 g) (KerSpec.ber1 be) = RefSpec.dense1 (F := Ideal) X W g be)
    (hagg2 : ∀ (x : Vec Ideal S1000x256 .f32) (a3 : Vec Ideal S1000x3 .f32) (a4 : Vec Ideal S8x3 .f32) (a9 a10 : Vec Ideal S1000 .i32) (a21 : Vec Ideal S3x16 .f32) (a22 : Vec Ideal S16 .f32),
      KerSpec.agg2 (KerRegions.edge4 (KerSpec.ps2 a3 a9) (KerSpec.pd2 a4 a10) (KerSpec.ft2 x a9) a21 (KerSpec.bb2 a22)) a10
        = RefSpec.agg2 (F := Ideal) x a3 a4 a9 a10 a21 a22)
    (hdense2 : ∀ (X : Vec Ideal S8x4096 .f32) (W : Vec Ideal S4096x512 .f32) (g be : Vec Ideal S512 .f32),
      k5_pay1 (F := Ideal) X W KerSpec.zb2 (KerSpec.gr2 g) (KerSpec.ber2 be) = RefSpec.dense2 (F := Ideal) X W g be)
    (hhead : ∀ (X : Vec Ideal S8x512 .f32) (W : Vec Ideal S512x128 .f32) (b g be : Vec Ideal S128 .f32),
      k6_pay1 (F := Ideal) X W (KerSpec.bdr b) (KerSpec.gr3 g) (KerSpec.ber3 be) = RefSpec.head (F := Ideal) X W b g be)
    (A0 : Vec Ideal S262144x1 .f32) (A1 : Vec Ideal S262144x3 .f32) (A2 : Vec Ideal S8000x3 .f32) (A3 : Vec Ideal S1000x3 .f32) (A4 : Vec Ideal S8x3 .f32) (A5 : Vec Ideal S980628 .i32) (A6 : Vec Ideal S980628 .i32) (A7 : Vec Ideal S26578 .i32) (A8 : Vec Ideal S26578 .i32) (A9 : Vec Ideal S1000 .i32) (A10 : Vec Ideal S1000 .i32) (A11 : Vec Ideal S3x16 .f32) (A12 : Vec Ideal S16 .f32) (A13 : Vec Ideal S16x128 .f32) (A14 : Vec Ideal S128 .f32) (A15 : Vec Ideal S128 .f32) (A16 : Vec Ideal S3x16 .f32) (A17 : Vec Ideal S16 .f32) (A18 : Vec Ideal S2048x256 .f32) (A19 : Vec Ideal S256 .f32) (A20 : Vec Ideal S256 .f32) (A21 : Vec Ideal S3x16 .f32) (A22 : Vec Ideal S16 .f32) (A23 : Vec Ideal S4096x512 .f32) (A24 : Vec Ideal S512 .f32) (A25 : Vec Ideal S512 .f32) (A26 : Vec Ideal S512x128 .f32) (A27 : Vec Ideal S128 .f32) (A28 : Vec Ideal S128 .f32) (A29 : Vec Ideal S128 .f32) :
    k6_pay1 (F := Ideal) (k5_pay1 (F := Ideal) (KerSpec.agg2 (KerRegions.edge4 (KerSpec.ps2 A3 A9) (KerSpec.pd2 A4 A10) (KerSpec.ft2 (k3_pay1 (F := Ideal) (KerSpec.agg1 (KerRegions.edge2 (KerSpec.ps1 A2 A7) (KerSpec.pd1 A3 A8) (KerSpec.ft1 (k1_pay1 (F := Ideal) (KerSpec.agg0 (KerRegions.edge0 (KerSpec.ps0 A1 A5) (KerSpec.pd0 A2 A6) (KerSpec.ft0 A0 A5) A11 (KerSpec.bb0 A12)) A6) A13 KerSpec.zb0 (KerSpec.gr0 A14) (KerSpec.ber0 A15)) A7) A16 (KerSpec.bb1 A17)) A8) A18 KerSpec.zb1 (KerSpec.gr1 A19) (KerSpec.ber1 A20)) A9) A21 (KerSpec.bb2 A22)) A10) A23 KerSpec.zb2 (KerSpec.gr2 A24) (KerSpec.ber2 A25)) A26 (KerSpec.bdr A27) (KerSpec.gr3 A28) (KerSpec.ber3 A29)
      = RefSpec.head (F := Ideal) (RefSpec.dense2 (F := Ideal) (RefSpec.agg2 (F := Ideal) (RefSpec.dense1 (F := Ideal) (RefSpec.agg1 (F := Ideal) (RefSpec.dense0 (F := Ideal) (RefSpec.agg0 (F := Ideal) A0 A1 A2 A5 A6 A11 A12) A13 A14 A15) A2 A3 A7 A8 A16 A17) A18 A19 A20) A3 A4 A9 A10 A21 A22) A23 A24 A25) A26 A27 A28 A29 := by
  rw [hagg0, hdense0, hagg1, hdense1, hagg2, hdense2, hhead]

-- thirty argument equations rewritten under seven nested stage names and two runs' posts unified: past the default budget
set_option maxHeartbeats 2000000 in
/-- The two idealized programs, run from memories that agree on the arguments, end with equal results and unchanged
    arguments — from the kernel program's run with its result read back as the kernel's composition, the reference's
    run (read back in this certificate), and the seven stage equalities. -/
theorem algebraic_of
    (hker : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v132)
          = k6_pay1 (F := Ideal) (k5_pay1 (F := Ideal) (KerSpec.agg2 (KerRegions.edge4 (KerSpec.ps2 (m ((c.tc : Thread Cert.KernelIdeal.nD Cert.KernelIdeal.τ).loc Cert.KernelIdeal.main_arg3)) (m ((c.tc : Thread Cert.KernelIdeal.nD Cert.KernelIdeal.τ).loc Cert.KernelIdeal.main_arg9))) (KerSpec.pd2 (m ((c.tc : Thread Cert.KernelIdeal.nD Cert.KernelIdeal.τ).loc Cert.KernelIdeal.main_arg4)) (m ((c.tc : Thread Cert.KernelIdeal.nD Cert.KernelIdeal.τ).loc Cert.KernelIdeal.main_arg10))) (KerSpec.ft2 (k3_pay1 (F := Ideal) (KerSpec.agg1 (KerRegions.edge2 (KerSpec.ps1 (m ((c.tc : Thread Cert.KernelIdeal.nD Cert.KernelIdeal.τ).loc Cert.KernelIdeal.main_arg2)) (m ((c.tc : Thread Cert.KernelIdeal.nD Cert.KernelIdeal.τ).loc Cert.KernelIdeal.main_arg7))) (KerSpec.pd1 (m ((c.tc : Thread Cert.KernelIdeal.nD Cert.KernelIdeal.τ).loc Cert.KernelIdeal.main_arg3)) (m ((c.tc : Thread Cert.KernelIdeal.nD Cert.KernelIdeal.τ).loc Cert.KernelIdeal.main_arg8))) (KerSpec.ft1 (k1_pay1 (F := Ideal) (KerSpec.agg0 (KerRegions.edge0 (KerSpec.ps0 (m ((c.tc : Thread Cert.KernelIdeal.nD Cert.KernelIdeal.τ).loc Cert.KernelIdeal.main_arg1)) (m ((c.tc : Thread Cert.KernelIdeal.nD Cert.KernelIdeal.τ).loc Cert.KernelIdeal.main_arg5))) (KerSpec.pd0 (m ((c.tc : Thread Cert.KernelIdeal.nD Cert.KernelIdeal.τ).loc Cert.KernelIdeal.main_arg2)) (m ((c.tc : Thread Cert.KernelIdeal.nD Cert.KernelIdeal.τ).loc Cert.KernelIdeal.main_arg6))) (KerSpec.ft0 (m ((c.tc : Thread Cert.KernelIdeal.nD Cert.KernelIdeal.τ).loc Cert.KernelIdeal.main_arg0)) (m ((c.tc : Thread Cert.KernelIdeal.nD Cert.KernelIdeal.τ).loc Cert.KernelIdeal.main_arg5))) (m ((c.tc : Thread Cert.KernelIdeal.nD Cert.KernelIdeal.τ).loc Cert.KernelIdeal.main_arg11)) (KerSpec.bb0 (m ((c.tc : Thread Cert.KernelIdeal.nD Cert.KernelIdeal.τ).loc Cert.KernelIdeal.main_arg12)))) (m ((c.tc : Thread Cert.KernelIdeal.nD Cert.KernelIdeal.τ).loc Cert.KernelIdeal.main_arg6))) (m ((c.tc : Thread Cert.KernelIdeal.nD Cert.KernelIdeal.τ).loc Cert.KernelIdeal.main_arg13)) KerSpec.zb0 (KerSpec.gr0 (m ((c.tc : Thread Cert.KernelIdeal.nD Cert.KernelIdeal.τ).loc Cert.KernelIdeal.main_arg14))) (KerSpec.ber0 (m ((c.tc : Thread Cert.KernelIdeal.nD Cert.KernelIdeal.τ).loc Cert.KernelIdeal.main_arg15)))) (m ((c.tc : Thread Cert.KernelIdeal.nD Cert.KernelIdeal.τ).loc Cert.KernelIdeal.main_arg7))) (m ((c.tc : Thread Cert.KernelIdeal.nD Cert.KernelIdeal.τ).loc Cert.KernelIdeal.main_arg16)) (KerSpec.bb1 (m ((c.tc : Thread Cert.KernelIdeal.nD Cert.KernelIdeal.τ).loc Cert.KernelIdeal.main_arg17)))) (m ((c.tc : Thread Cert.KernelIdeal.nD Cert.KernelIdeal.τ).loc Cert.KernelIdeal.main_arg8))) (m ((c.tc : Thread Cert.KernelIdeal.nD Cert.KernelIdeal.τ).loc Cert.KernelIdeal.main_arg18)) KerSpec.zb1 (KerSpec.gr1 (m ((c.tc : Thread Cert.KernelIdeal.nD Cert.KernelIdeal.τ).loc Cert.KernelIdeal.main_arg19))) (KerSpec.ber1 (m ((c.tc : Thread Cert.KernelIdeal.nD Cert.KernelIdeal.τ).loc Cert.KernelIdeal.main_arg20)))) (m ((c.tc : Thread Cert.KernelIdeal.nD Cert.KernelIdeal.τ).loc Cert.KernelIdeal.main_arg9))) (m ((c.tc : Thread Cert.KernelIdeal.nD Cert.KernelIdeal.τ).loc Cert.KernelIdeal.main_arg21)) (KerSpec.bb2 (m ((c.tc : Thread Cert.KernelIdeal.nD Cert.KernelIdeal.τ).loc Cert.KernelIdeal.main_arg22)))) (m ((c.tc : Thread Cert.KernelIdeal.nD Cert.KernelIdeal.τ).loc Cert.KernelIdeal.main_arg10))) (m ((c.tc : Thread Cert.KernelIdeal.nD Cert.KernelIdeal.τ).loc Cert.KernelIdeal.main_arg23)) KerSpec.zb2 (KerSpec.gr2 (m ((c.tc : Thread Cert.KernelIdeal.nD Cert.KernelIdeal.τ).loc Cert.KernelIdeal.main_arg24))) (KerSpec.ber2 (m ((c.tc : Thread Cert.KernelIdeal.nD Cert.KernelIdeal.τ).loc Cert.KernelIdeal.main_arg25)))) (m ((c.tc : Thread Cert.KernelIdeal.nD Cert.KernelIdeal.τ).loc Cert.KernelIdeal.main_arg26)) (KerSpec.bdr (m ((c.tc : Thread Cert.KernelIdeal.nD Cert.KernelIdeal.τ).loc Cert.KernelIdeal.main_arg27))) (KerSpec.gr3 (m ((c.tc : Thread Cert.KernelIdeal.nD Cert.KernelIdeal.τ).loc Cert.KernelIdeal.main_arg28))) (KerSpec.ber3 (m ((c.tc : Thread Cert.KernelIdeal.nD Cert.KernelIdeal.τ).loc Cert.KernelIdeal.main_arg29)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
        ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
        ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
        ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
        ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
        ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
        ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
        ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
        ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)))
    (hagg0 : ∀ (a0 : Vec Ideal S262144x1 .f32) (a1 : Vec Ideal S262144x3 .f32) (a2 : Vec Ideal S8000x3 .f32) (a5 a6 : Vec Ideal S980628 .i32) (a11 : Vec Ideal S3x16 .f32) (a12 : Vec Ideal S16 .f32),
      KerSpec.agg0 (KerRegions.edge0 (KerSpec.ps0 a1 a5) (KerSpec.pd0 a2 a6) (KerSpec.ft0 a0 a5) a11 (KerSpec.bb0 a12)) a6
        = RefSpec.agg0 (F := Ideal) a0 a1 a2 a5 a6 a11 a12)
    (hdense0 : ∀ (X : Vec Ideal S8000x16 .f32) (W : Vec Ideal S16x128 .f32) (g be : Vec Ideal S128 .f32),
      k1_pay1 (F := Ideal) X W KerSpec.zb0 (KerSpec.gr0 g) (KerSpec.ber0 be) = RefSpec.dense0 (F := Ideal) X W g be)
    (hagg1 : ∀ (x : Vec Ideal S8000x128 .f32) (a2 : Vec Ideal S8000x3 .f32) (a3 : Vec Ideal S1000x3 .f32) (a7 a8 : Vec Ideal S26578 .i32) (a16 : Vec Ideal S3x16 .f32) (a17 : Vec Ideal S16 .f32),
      KerSpec.agg1 (KerRegions.edge2 (KerSpec.ps1 a2 a7) (KerSpec.pd1 a3 a8) (KerSpec.ft1 x a7) a16 (KerSpec.bb1 a17)) a8
        = RefSpec.agg1 (F := Ideal) x a2 a3 a7 a8 a16 a17)
    (hdense1 : ∀ (X : Vec Ideal S1000x2048 .f32) (W : Vec Ideal S2048x256 .f32) (g be : Vec Ideal S256 .f32),
      k3_pay1 (F := Ideal) X W KerSpec.zb1 (KerSpec.gr1 g) (KerSpec.ber1 be) = RefSpec.dense1 (F := Ideal) X W g be)
    (hagg2 : ∀ (x : Vec Ideal S1000x256 .f32) (a3 : Vec Ideal S1000x3 .f32) (a4 : Vec Ideal S8x3 .f32) (a9 a10 : Vec Ideal S1000 .i32) (a21 : Vec Ideal S3x16 .f32) (a22 : Vec Ideal S16 .f32),
      KerSpec.agg2 (KerRegions.edge4 (KerSpec.ps2 a3 a9) (KerSpec.pd2 a4 a10) (KerSpec.ft2 x a9) a21 (KerSpec.bb2 a22)) a10
        = RefSpec.agg2 (F := Ideal) x a3 a4 a9 a10 a21 a22)
    (hdense2 : ∀ (X : Vec Ideal S8x4096 .f32) (W : Vec Ideal S4096x512 .f32) (g be : Vec Ideal S512 .f32),
      k5_pay1 (F := Ideal) X W KerSpec.zb2 (KerSpec.gr2 g) (KerSpec.ber2 be) = RefSpec.dense2 (F := Ideal) X W g be)
    (hhead : ∀ (X : Vec Ideal S8x512 .f32) (W : Vec Ideal S512x128 .f32) (b g be : Vec Ideal S128 .f32),
      k6_pay1 (F := Ideal) X W (KerSpec.bdr b) (KerSpec.gr3 g) (KerSpec.ber3 be) = RefSpec.head (F := Ideal) X W b g be) :
    Cert.algebraic_KernelIdeal_ReferenceIdeal := by
  intro m ρ m' ρ' _ hagree
  refine ⟨_, hker m ρ, ?_⟩
  refine (θ_run Cert.ReferenceIdeal.defs _ _).mono (fun _ h c => ⟨(h c).1.trans ?_, (h c).2⟩) (Cert.ReferenceIdeal.RefRun.run m' ρ')
  obtain ⟨h0, h1, h2, h3, h4, h5, h6, h7, h8, h9, h10, h11, h12, h13, h14, h15, h16, h17, h18, h19, h20, h21, h22, h23, h24, h25, h26, h27, h28, h29⟩ := hagree c
  rw [h0, h1, h2, h3, h4, h5, h6, h7, h8, h9, h10, h11, h12, h13, h14, h15, h16, h17, h18, h19, h20, h21, h22, h23, h24, h25, h26, h27, h28, h29]
  exact (result_eq hagg0 hdense0 hagg1 hdense1 hagg2 hdense2 hhead
    (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))).symm

end Cert.Bridge.Assemble

end
-- ==== Proof.KerRunW.lean ====
/-
The idealized kernel program's run with its result buffer named.

The program is a chain of host stretches and seven kernel regions.  Every weakly fair execution
from a memory with zero counters terminates without a fault; at the end every buffer that outlives
the regions holds what folding the stretches' operations and the regions' write-backs over the
launch memory gives.  Here that is stated for the result buffer (the last region's output array,
read at the last boundary) together with the thirty argument arrays, which end as launched.
-/
import proofs.«105096_j6674379178666_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

local notation "𝕄" => MT nD τ sig Unit (Elt Ideal) ℕ (UR sig nD τ) ℕ

-- the launch theorem's implicit arguments are found by unifying its conclusion with this one, which takes
-- unfolding plain definitions in a metavariable's type
set_option backward.isDefEq.respectTransparency.types false in
/-- Every weakly fair execution of the program from a memory `m` with zero counters terminates without a
    fault, and in every final state the result buffer holds the last boundary's contents at the last
    region's output, and every argument array what it held at launch. -/
theorem run_W (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v132) = Gen.W29 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m ρ c b)
    (hfin := fun c s' => by
      iintro ⟨⟨Hh, -⟩, HSI⟩
      unfold StableHlo.held
      imodintro
      iapply (pointsTo_read_all (Pipeline.ucRefs τ sig) (fun b => (((c : Thread nD τ)).1, b)) (W29 m ρ c) s')
      isplitl [Hh] <;> iassumption)
    (hQ := fun s h c =>
      ⟨h c _ (mem_uc main_v132 (by decide)),
       (h c _ (mem_uc main_arg0 (by decide))).trans (W29_main_arg0 m ρ c),
       (h c _ (mem_uc main_arg1 (by decide))).trans (W29_main_arg1 m ρ c),
       (h c _ (mem_uc main_arg2 (by decide))).trans (W29_main_arg2 m ρ c),
       (h c _ (mem_uc main_arg3 (by decide))).trans (W29_main_arg3 m ρ c),
       (h c _ (mem_uc main_arg4 (by decide))).trans (W29_main_arg4 m ρ c),
       (h c _ (mem_uc main_arg5 (by decide))).trans (W29_main_arg5 m ρ c),
       (h c _ (mem_uc main_arg6 (by decide))).trans (W29_main_arg6 m ρ c),
       (h c _ (mem_uc main_arg7 (by decide))).trans (W29_main_arg7 m ρ c),
       (h c _ (mem_uc main_arg8 (by decide))).trans (W29_main_arg8 m ρ c),
       (h c _ (mem_uc main_arg9 (by decide))).trans (W29_main_arg9 m ρ c),
       (h c _ (mem_uc main_arg10 (by decide))).trans (W29_main_arg10 m ρ c),
       (h c _ (mem_uc main_arg11 (by decide))).trans (W29_main_arg11 m ρ c),
       (h c _ (mem_uc main_arg12 (by decide))).trans (W29_main_arg12 m ρ c),
       (h c _ (mem_uc main_arg13 (by decide))).trans (W29_main_arg13 m ρ c),
       (h c _ (mem_uc main_arg14 (by decide))).trans (W29_main_arg14 m ρ c),
       (h c _ (mem_uc main_arg15 (by decide))).trans (W29_main_arg15 m ρ c),
       (h c _ (mem_uc main_arg16 (by decide))).trans (W29_main_arg16 m ρ c),
       (h c _ (mem_uc main_arg17 (by decide))).trans (W29_main_arg17 m ρ c),
       (h c _ (mem_uc main_arg18 (by decide))).trans (W29_main_arg18 m ρ c),
       (h c _ (mem_uc main_arg19 (by decide))).trans (W29_main_arg19 m ρ c),
       (h c _ (mem_uc main_arg20 (by decide))).trans (W29_main_arg20 m ρ c),
       (h c _ (mem_uc main_arg21 (by decide))).trans (W29_main_arg21 m ρ c),
       (h c _ (mem_uc main_arg22 (by decide))).trans (W29_main_arg22 m ρ c),
       (h c _ (mem_uc main_arg23 (by decide))).trans (W29_main_arg23 m ρ c),
       (h c _ (mem_uc main_arg24 (by decide))).trans (W29_main_arg24 m ρ c),
       (h c _ (mem_uc main_arg25 (by decide))).trans (W29_main_arg25 m ρ c),
       (h c _ (mem_uc main_arg26 (by decide))).trans (W29_main_arg26 m ρ c),
       (h c _ (mem_uc main_arg27 (by decide))).trans (W29_main_arg27 m ρ c),
       (h c _ (mem_uc main_arg28 (by decide))).trans (W29_main_arg28 m ρ c),
       (h c _ (mem_uc main_arg29 (by decide))).trans (W29_main_arg29 m ρ c)⟩)

end Cert.KernelIdeal.KerRun

end
-- ==== Proof.KerRunHostA.lean ====
/-
The first host stretch of the program, read as a function of the contents it starts from: the edges'
wrapped indices, the gathered and lengthened source positions, destination positions and source
features of level 0, and level 0's edge-layer bias as a row.  Every other buffer of interest (the
program's arguments) is left as it was: no operation of the stretch writes it.
-/
import proofs.«105096_j6674379178666_1_alg».proof.Proof.Gen.KernelIdeal.Launch
import proofs.«105096_j6674379178666_1_alg».proof.Proof.KerSpec

set_option maxRecDepth 16384

noncomputable section

namespace Cert.KernelIdeal.KerRun

open Idealize.ShloMosaic Idealize.ShloMosaic.TcCoe
open Idealize.SL.Sem
open Cert.KernelIdeal.Gen
open Cert.Bridge

/-- The stretch as one fold over the contents `W` it starts from. -/
abbrev hostA (W : Valuation τ sig (Elt Ideal)) : Valuation τ sig (Elt Ideal) :=
  StableHlo.after hostOps0_5 (StableHlo.after hostOps0_4 (StableHlo.after hostOps0_3 (StableHlo.after hostOps0_2 (StableHlo.after hostOps0_1 (StableHlo.after hostOps0 W)))))

/-- The buffers the stretch must leave alone: the program's arguments. -/
abbrev keptA : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem nw_hostOps0 : ∀ r ∈ keptA, ∀ op ∈ (hostOps0 : List (HloOp τ sig (Elt Ideal))), Proc.devRef .tc r ∉ op.writes := by decide
theorem nw_hostOps0_1 : ∀ r ∈ keptA, ∀ op ∈ (hostOps0_1 : List (HloOp τ sig (Elt Ideal))), Proc.devRef .tc r ∉ op.writes := by decide
theorem nw_hostOps0_2 : ∀ r ∈ keptA, ∀ op ∈ (hostOps0_2 : List (HloOp τ sig (Elt Ideal))), Proc.devRef .tc r ∉ op.writes := by decide
theorem nw_hostOps0_3 : ∀ r ∈ keptA, ∀ op ∈ (hostOps0_3 : List (HloOp τ sig (Elt Ideal))), Proc.devRef .tc r ∉ op.writes := by decide
theorem nw_hostOps0_4 : ∀ r ∈ keptA, ∀ op ∈ (hostOps0_4 : List (HloOp τ sig (Elt Ideal))), Proc.devRef .tc r ∉ op.writes := by decide
theorem nw_hostOps0_5 : ∀ r ∈ keptA, ∀ op ∈ (hostOps0_5 : List (HloOp τ sig (Elt Ideal))), Proc.devRef .tc r ∉ op.writes := by decide

/-- No operation of the stretch writes a kept buffer: it holds at the end what it held at the start. -/
theorem passA (W : Valuation τ sig (Elt Ideal)) (r : Ref sig .tc) (hr : r ∈ keptA) :
    hostA W (Proc.devRef .tc r) = W (Proc.devRef .tc r) :=
  (StableHlo.after_of_forall_not_mem _ _ (nw_hostOps0_5 r hr)).trans <|
    (StableHlo.after_of_forall_not_mem _ _ (nw_hostOps0_4 r hr)).trans <|
    (StableHlo.after_of_forall_not_mem _ _ (nw_hostOps0_3 r hr)).trans <|
    (StableHlo.after_of_forall_not_mem _ _ (nw_hostOps0_2 r hr)).trans <|
    (StableHlo.after_of_forall_not_mem _ _ (nw_hostOps0_1 r hr)).trans <|
    (StableHlo.after_of_forall_not_mem _ _ (nw_hostOps0 r hr))

/-- The edge kernel's first operand: level 0's source positions per edge. -/
theorem hostA_v22 (W : Valuation τ sig (Elt Ideal)) :
    hostA W (Proc.devRef .tc main_v22) = KerSpec.ps0 (W (Proc.devRef .tc main_arg1)) (W (Proc.devRef .tc main_arg5)) := by
  simp only [hostA, hostOps0, hostOps0_1, hostOps0_2, hostOps0_3, hostOps0_4, hostOps0_5]
  after_results_simp
  rfl

/-- Its second operand: level 0's destination positions per edge. -/
theorem hostA_v23 (W : Valuation τ sig (Elt Ideal)) :
    hostA W (Proc.devRef .tc main_v23) = KerSpec.pd0 (W (Proc.devRef .tc main_arg2)) (W (Proc.devRef .tc main_arg6)) := by
  simp only [hostA, hostOps0, hostOps0_1, hostOps0_2, hostOps0_3, hostOps0_4, hostOps0_5]
  after_results_simp
  rfl

/-- Its third operand: level 0's source features per edge. -/
theorem hostA_v24 (W : Valuation τ sig (Elt Ideal)) :
    hostA W (Proc.devRef .tc main_v24) = KerSpec.ft0 (W (Proc.devRef .tc main_arg0)) (W (Proc.devRef .tc main_arg5)) := by
  simp only [hostA, hostOps0, hostOps0_1, hostOps0_2, hostOps0_3, hostOps0_4, hostOps0_5]
  after_results_simp
  rfl

/-- Its fifth operand: the bias row. -/
theorem hostA_v21 (W : Valuation τ sig (Elt Ideal)) :
    hostA W (Proc.devRef .tc main_v21) = KerSpec.bb0 (W (Proc.devRef .tc main_arg12)) := by
  simp only [hostA, hostOps0, hostOps0_1, hostOps0_2, hostOps0_3, hostOps0_4, hostOps0_5]
  after_results_simp
  rfl

end Cert.KernelIdeal.KerRun

end
-- ==== Proof.KerRunHostB.lean ====
/-
The host stretch between level 0's edge kernel and its dense layer, read as a function of the contents
it starts from: the per-destination mean of the edge kernel's rows, the zero bias row, and the
normalisation's scale and shift as rows.
-/
import proofs.«105096_j6674379178666_1_alg».proof.Proof.Gen.KernelIdeal.Launch
import proofs.«105096_j6674379178666_1_alg».proof.Proof.KerSpec

set_option maxRecDepth 16384

noncomputable section

namespace Cert.KernelIdeal.KerRun

open Idealize.ShloMosaic Idealize.ShloMosaic.TcCoe
open Idealize.SL.Sem
open Cert.KernelIdeal.Gen
open Cert.Bridge

/-- The stretch as one fold over the contents `W` it starts from. -/
abbrev hostB (W : Valuation τ sig (Elt Ideal)) : Valuation τ sig (Elt Ideal) :=
  StableHlo.after hostOps1 W

/-- The buffers the stretch must leave alone: the program's arguments. -/
abbrev keptB : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem nw_hostOps1 : ∀ r ∈ keptB, ∀ op ∈ (hostOps1 : List (HloOp τ sig (Elt Ideal))), Proc.devRef .tc r ∉ op.writes := by decide

/-- No operation of the stretch writes a kept buffer: it holds at the end what it held at the start. -/
theorem passB (W : Valuation τ sig (Elt Ideal)) (r : Ref sig .tc) (hr : r ∈ keptB) :
    hostB W (Proc.devRef .tc r) = W (Proc.devRef .tc r) :=
  (StableHlo.after_of_forall_not_mem _ _ (nw_hostOps1 r hr))

/-- The dense layer's input: the neighbourhood mean of the edge kernel's result. -/
theorem hostB_v38 (W : Valuation τ sig (Elt Ideal)) :
    hostB W (Proc.devRef .tc main_v38) = KerSpec.agg0 (W (Proc.devRef .tc main_v25)) (W (Proc.devRef .tc main_arg6)) := by
  simp only [hostB, hostOps1]
  after_results_simp
  rfl

/-- The zero bias row. -/
theorem hostB_v39 (W : Valuation τ sig (Elt Ideal)) :
    hostB W (Proc.devRef .tc main_v39) = KerSpec.zb0 := by
  simp only [hostB, hostOps1]
  after_results_simp
  rfl

/-- The scale row. -/
theorem hostB_v40 (W : Valuation τ sig (Elt Ideal)) :
    hostB W (Proc.devRef .tc main_v40) = KerSpec.gr0 (W (Proc.devRef .tc main_arg14)) := by
  simp only [hostB, hostOps1]
  after_results_simp
  rfl

/-- The shift row. -/
theorem hostB_v41 (W : Valuation τ sig (Elt Ideal)) :
    hostB W (Proc.devRef .tc main_v41) = KerSpec.ber0 (W (Proc.devRef .tc main_arg15)) := by
  simp only [hostB, hostOps1]
  after_results_simp
  rfl

end Cert.KernelIdeal.KerRun

end
-- ==== Proof.KerRunHostC.lean ====
/-
The host stretch before level 1's edge kernel, read as a function of the contents it starts from: the
gathered and lengthened source positions, destination positions and source features (rows of level 0's
output) of level 1's edges, and the bias row.
-/
import proofs.«105096_j6674379178666_1_alg».proof.Proof.Gen.KernelIdeal.Launch
import proofs.«105096_j6674379178666_1_alg».proof.Proof.KerSpec

set_option maxRecDepth 16384

noncomputable section

namespace Cert.KernelIdeal.KerRun

open Idealize.ShloMosaic Idealize.ShloMosaic.TcCoe
open Idealize.SL.Sem
open Cert.KernelIdeal.Gen
open Cert.Bridge

/-- The stretch as one fold over the contents `W` it starts from. -/
abbrev hostC (W : Valuation τ sig (Elt Ideal)) : Valuation τ sig (Elt Ideal) :=
  StableHlo.after hostOps2_5 (StableHlo.after hostOps2_4 (StableHlo.after hostOps2_3 (StableHlo.after hostOps2_2 (StableHlo.after hostOps2_1 (StableHlo.after hostOps2 W)))))

/-- The buffers the stretch must leave alone: the program's arguments. -/
abbrev keptC : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem nw_hostOps2 : ∀ r ∈ keptC, ∀ op ∈ (hostOps2 : List (HloOp τ sig (Elt Ideal))), Proc.devRef .tc r ∉ op.writes := by decide
theorem nw_hostOps2_1 : ∀ r ∈ keptC, ∀ op ∈ (hostOps2_1 : List (HloOp τ sig (Elt Ideal))), Proc.devRef .tc r ∉ op.writes := by decide
theorem nw_hostOps2_2 : ∀ r ∈ keptC, ∀ op ∈ (hostOps2_2 : List (HloOp τ sig (Elt Ideal))), Proc.devRef .tc r ∉ op.writes := by decide
theorem nw_hostOps2_3 : ∀ r ∈ keptC, ∀ op ∈ (hostOps2_3 : List (HloOp τ sig (Elt Ideal))), Proc.devRef .tc r ∉ op.writes := by decide
theorem nw_hostOps2_4 : ∀ r ∈ keptC, ∀ op ∈ (hostOps2_4 : List (HloOp τ sig (Elt Ideal))), Proc.devRef .tc r ∉ op.writes := by decide
theorem nw_hostOps2_5 : ∀ r ∈ keptC, ∀ op ∈ (hostOps2_5 : List (HloOp τ sig (Elt Ideal))), Proc.devRef .tc r ∉ op.writes := by decide

/-- No operation of the stretch writes a kept buffer: it holds at the end what it held at the start. -/
theorem passC (W : Valuation τ sig (Elt Ideal)) (r : Ref sig .tc) (hr : r ∈ keptC) :
    hostC W (Proc.devRef .tc r) = W (Proc.devRef .tc r) :=
  (StableHlo.after_of_forall_not_mem _ _ (nw_hostOps2_5 r hr)).trans <|
    (StableHlo.after_of_forall_not_mem _ _ (nw_hostOps2_4 r hr)).trans <|
    (StableHlo.after_of_forall_not_mem _ _ (nw_hostOps2_3 r hr)).trans <|
    (StableHlo.after_of_forall_not_mem _ _ (nw_hostOps2_2 r hr)).trans <|
    (StableHlo.after_of_forall_not_mem _ _ (nw_hostOps2_1 r hr)).trans <|
    (StableHlo.after_of_forall_not_mem _ _ (nw_hostOps2 r hr))

/-- Level 1's source positions per edge. -/
theorem hostC_v65 (W : Valuation τ sig (Elt Ideal)) :
    hostC W (Proc.devRef .tc main_v65) = KerSpec.ps1 (W (Proc.devRef .tc main_arg2)) (W (Proc.devRef .tc main_arg7)) := by
  simp only [hostC, hostOps2, hostOps2_1, hostOps2_2, hostOps2_3, hostOps2_4, hostOps2_5]
  after_results_simp
  rfl

/-- Level 1's destination positions per edge. -/
theorem hostC_v66 (W : Valuation τ sig (Elt Ideal)) :
    hostC W (Proc.devRef .tc main_v66) = KerSpec.pd1 (W (Proc.devRef .tc main_arg3)) (W (Proc.devRef .tc main_arg8)) := by
  simp only [hostC, hostOps2, hostOps2_1, hostOps2_2, hostOps2_3, hostOps2_4, hostOps2_5]
  after_results_simp
  rfl

/-- Level 1's source features per edge: rows of level 0's output. -/
theorem hostC_v67 (W : Valuation τ sig (Elt Ideal)) :
    hostC W (Proc.devRef .tc main_v67) = KerSpec.ft1 (W (Proc.devRef .tc main_v42)) (W (Proc.devRef .tc main_arg7)) := by
  simp only [hostC, hostOps2, hostOps2_1, hostOps2_2, hostOps2_3, hostOps2_4, hostOps2_5]
  after_results_simp
  rfl

/-- The bias row. -/
theorem hostC_v64 (W : Valuation τ sig (Elt Ideal)) :
    hostC W (Proc.devRef .tc main_v64) = KerSpec.bb1 (W (Proc.devRef .tc main_arg17)) := by
  simp only [hostC, hostOps2, hostOps2_1, hostOps2_2, hostOps2_3, hostOps2_4, hostOps2_5]
  after_results_simp
  rfl

end Cert.KernelIdeal.KerRun

end
-- ==== Proof.KerRunHostD.lean ====
/-
The host stretch between level 1's edge kernel and its dense layer, read as a function of the contents
it starts from: the per-destination mean, the zero bias row, the scale and shift rows.
-/
import proofs.«105096_j6674379178666_1_alg».proof.Proof.Gen.KernelIdeal.Launch
import proofs.«105096_j6674379178666_1_alg».proof.Proof.KerSpec

set_option maxRecDepth 16384

noncomputable section

namespace Cert.KernelIdeal.KerRun

open Idealize.ShloMosaic Idealize.ShloMosaic.TcCoe
open Idealize.SL.Sem
open Cert.KernelIdeal.Gen
open Cert.Bridge

/-- The stretch as one fold over the contents `W` it starts from. -/
abbrev hostD (W : Valuation τ sig (Elt Ideal)) : Valuation τ sig (Elt Ideal) :=
  StableHlo.after hostOps3 W

/-- The buffers the stretch must leave alone: the program's arguments. -/
abbrev keptD : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem nw_hostOps3 : ∀ r ∈ keptD, ∀ op ∈ (hostOps3 : List (HloOp τ sig (Elt Ideal))), Proc.devRef .tc r ∉ op.writes := by decide

/-- No operation of the stretch writes a kept buffer: it holds at the end what it held at the start. -/
theorem passD (W : Valuation τ sig (Elt Ideal)) (r : Ref sig .tc) (hr : r ∈ keptD) :
    hostD W (Proc.devRef .tc r) = W (Proc.devRef .tc r) :=
  (StableHlo.after_of_forall_not_mem _ _ (nw_hostOps3 r hr))

/-- The dense layer's input: the neighbourhood mean of the edge kernel's result. -/
theorem hostD_v81 (W : Valuation τ sig (Elt Ideal)) :
    hostD W (Proc.devRef .tc main_v81) = KerSpec.agg1 (W (Proc.devRef .tc main_v68)) (W (Proc.devRef .tc main_arg8)) := by
  simp only [hostD, hostOps3]
  after_results_simp
  rfl

/-- The zero bias row. -/
theorem hostD_v82 (W : Valuation τ sig (Elt Ideal)) :
    hostD W (Proc.devRef .tc main_v82) = KerSpec.zb1 := by
  simp only [hostD, hostOps3]
  after_results_simp
  rfl

/-- The scale row. -/
theorem hostD_v83 (W : Valuation τ sig (Elt Ideal)) :
    hostD W (Proc.devRef .tc main_v83) = KerSpec.gr1 (W (Proc.devRef .tc main_arg19)) := by
  simp only [hostD, hostOps3]
  after_results_simp
  rfl

/-- The shift row. -/
theorem hostD_v84 (W : Valuation τ sig (Elt Ideal)) :
    hostD W (Proc.devRef .tc main_v84) = KerSpec.ber1 (W (Proc.devRef .tc main_arg20)) := by
  simp only [hostD, hostOps3]
  after_results_simp
  rfl

end Cert.KernelIdeal.KerRun

end
-- ==== Proof.KerRunHostE.lean ====
/-
The host stretch before level 2's edge kernel, read as a function of the contents it starts from: the
gathered and lengthened source positions, destination positions and source features (rows of level 1's
output) of level 2's edges, and the bias row.
-/
import proofs.«105096_j6674379178666_1_alg».proof.Proof.Gen.KernelIdeal.Launch
import proofs.«105096_j6674379178666_1_alg».proof.Proof.KerSpec

set_option maxRecDepth 16384

noncomputable section

namespace Cert.KernelIdeal.KerRun

open Idealize.ShloMosaic Idealize.ShloMosaic.TcCoe
open Idealize.SL.Sem
open Cert.KernelIdeal.Gen
open Cert.Bridge

/-- The stretch as one fold over the contents `W` it starts from. -/
abbrev hostE (W : Valuation τ sig (Elt Ideal)) : Valuation τ sig (Elt Ideal) :=
  StableHlo.after hostOps4_5 (StableHlo.after hostOps4_4 (StableHlo.after hostOps4_3 (StableHlo.after hostOps4_2 (StableHlo.after hostOps4_1 (StableHlo.after hostOps4 W)))))

/-- The buffers the stretch must leave alone: the program's arguments. -/
abbrev keptE : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem nw_hostOps4 : ∀ r ∈ keptE, ∀ op ∈ (hostOps4 : List (HloOp τ sig (Elt Ideal))), Proc.devRef .tc r ∉ op.writes := by decide
theorem nw_hostOps4_1 : ∀ r ∈ keptE, ∀ op ∈ (hostOps4_1 : List (HloOp τ sig (Elt Ideal))), Proc.devRef .tc r ∉ op.writes := by decide
theorem nw_hostOps4_2 : ∀ r ∈ keptE, ∀ op ∈ (hostOps4_2 : List (HloOp τ sig (Elt Ideal))), Proc.devRef .tc r ∉ op.writes := by decide
theorem nw_hostOps4_3 : ∀ r ∈ keptE, ∀ op ∈ (hostOps4_3 : List (HloOp τ sig (Elt Ideal))), Proc.devRef .tc r ∉ op.writes := by decide
theorem nw_hostOps4_4 : ∀ r ∈ keptE, ∀ op ∈ (hostOps4_4 : List (HloOp τ sig (Elt Ideal))), Proc.devRef .tc r ∉ op.writes := by decide
theorem nw_hostOps4_5 : ∀ r ∈ keptE, ∀ op ∈ (hostOps4_5 : List (HloOp τ sig (Elt Ideal))), Proc.devRef .tc r ∉ op.writes := by decide

/-- No operation of the stretch writes a kept buffer: it holds at the end what it held at the start. -/
theorem passE (W : Valuation τ sig (Elt Ideal)) (r : Ref sig .tc) (hr : r ∈ keptE) :
    hostE W (Proc.devRef .tc r) = W (Proc.devRef .tc r) :=
  (StableHlo.after_of_forall_not_mem _ _ (nw_hostOps4_5 r hr)).trans <|
    (StableHlo.after_of_forall_not_mem _ _ (nw_hostOps4_4 r hr)).trans <|
    (StableHlo.after_of_forall_not_mem _ _ (nw_hostOps4_3 r hr)).trans <|
    (StableHlo.after_of_forall_not_mem _ _ (nw_hostOps4_2 r hr)).trans <|
    (StableHlo.after_of_forall_not_mem _ _ (nw_hostOps4_1 r hr)).trans <|
    (StableHlo.after_of_forall_not_mem _ _ (nw_hostOps4 r hr))

/-- Level 2's source positions per edge. -/
theorem hostE_v108 (W : Valuation τ sig (Elt Ideal)) :
    hostE W (Proc.devRef .tc main_v108) = KerSpec.ps2 (W (Proc.devRef .tc main_arg3)) (W (Proc.devRef .tc main_arg9)) := by
  simp only [hostE, hostOps4, hostOps4_1, hostOps4_2, hostOps4_3, hostOps4_4, hostOps4_5]
  after_results_simp
  rfl

/-- Level 2's destination positions per edge. -/
theorem hostE_v109 (W : Valuation τ sig (Elt Ideal)) :
    hostE W (Proc.devRef .tc main_v109) = KerSpec.pd2 (W (Proc.devRef .tc main_arg4)) (W (Proc.devRef .tc main_arg10)) := by
  simp only [hostE, hostOps4, hostOps4_1, hostOps4_2, hostOps4_3, hostOps4_4, hostOps4_5]
  after_results_simp
  rfl

/-- Level 2's source features per edge: rows of level 1's output. -/
theorem hostE_v110 (W : Valuation τ sig (Elt Ideal)) :
    hostE W (Proc.devRef .tc main_v110) = KerSpec.ft2 (W (Proc.devRef .tc main_v85)) (W (Proc.devRef .tc main_arg9)) := by
  simp only [hostE, hostOps4, hostOps4_1, hostOps4_2, hostOps4_3, hostOps4_4, hostOps4_5]
  after_results_simp
  rfl

/-- The bias row. -/
theorem hostE_v107 (W : Valuation τ sig (Elt Ideal)) :
    hostE W (Proc.devRef .tc main_v107) = KerSpec.bb2 (W (Proc.devRef .tc main_arg22)) := by
  simp only [hostE, hostOps4, hostOps4_1, hostOps4_2, hostOps4_3, hostOps4_4, hostOps4_5]
  after_results_simp
  rfl

end Cert.KernelIdeal.KerRun

end
-- ==== Proof.KerRunHostF.lean ====
/-
The host stretch between level 2's edge kernel and its dense layer, read as a function of the contents
it starts from: the per-destination mean, the zero bias row, the scale and shift rows.
-/
import proofs.«105096_j6674379178666_1_alg».proof.Proof.Gen.KernelIdeal.Launch
import proofs.«105096_j6674379178666_1_alg».proof.Proof.KerSpec

set_option maxRecDepth 16384

noncomputable section

namespace Cert.KernelIdeal.KerRun

open Idealize.ShloMosaic Idealize.ShloMosaic.TcCoe
open Idealize.SL.Sem
open Cert.KernelIdeal.Gen
open Cert.Bridge

/-- The stretch as one fold over the contents `W` it starts from. -/
abbrev hostF (W : Valuation τ sig (Elt Ideal)) : Valuation τ sig (Elt Ideal) :=
  StableHlo.after hostOps5 W

/-- The buffers the stretch must leave alone: the program's arguments. -/
abbrev keptF : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29]

theorem nw_hostOps5 : ∀ r ∈ keptF, ∀ op ∈ (hostOps5 : List (HloOp τ sig (Elt Ideal))), Proc.devRef .tc r ∉ op.writes := by decide

/-- No operation of the stretch writes a kept buffer: it holds at the end what it held at the start. -/
theorem passF (W : Valuation τ sig (Elt Ideal)) (r : Ref sig .tc) (hr : r ∈ keptF) :
    hostF W (Proc.devRef .tc r) = W (Proc.devRef .tc r) :=
  (StableHlo.after_of_forall_not_mem _ _ (nw_hostOps5 r hr))

/-- The dense layer's input: the neighbourhood mean of the edge kernel's result. -/
theorem hostF_v124 (W : Valuation τ sig (Elt Ideal)) :
    hostF W (Proc.devRef .tc main_v124) = KerSpec.agg2 (W (Proc.devRef .tc main_v111)) (W (Proc.devRef .tc main_arg10)) := by
  simp only [hostF, hostOps5]
  after_results_simp
  rfl

/-- The zero bias row. -/
theorem hostF_v125 (W : Valuation τ sig (Elt Ideal)) :
    hostF W (Proc.devRef .tc main_v125) = KerSpec.zb2 := by
  simp only [hostF, hostOps5]
  after_results_simp
  rfl

/-- The scale row. -/
theorem hostF_v126 (W : Valuation τ sig (Elt Ideal)) :
    hostF W (Proc.devRef .tc main_v126) = KerSpec.gr2 (W (Proc.devRef .tc main_arg24)) := by
  simp only [hostF, hostOps5]
  after_results_simp
  rfl

/-- The shift row. -/
theorem hostF_v127 (W : Valuation τ sig (Elt Ideal)) :
    hostF W (Proc.devRef .tc main_v127) = KerSpec.ber2 (W (Proc.devRef .tc main_arg25)) := by
  simp only [hostF, hostOps5]
  after_results_simp
  rfl

end Cert.KernelIdeal.KerRun

end
-- ==== Proof.KerRunHostG.lean ====
/-
The host stretch before the head's dense layer, read as a function of the contents it starts from: the
head's bias, scale and shift as rows; level 2's output is passed on untouched.
-/
import proofs.«105096_j6674379178666_1_alg».proof.Proof.Gen.KernelIdeal.Launch
import proofs.«105096_j6674379178666_1_alg».proof.Proof.KerSpec

set_option maxRecDepth 16384

noncomputable section

namespace Cert.KernelIdeal.KerRun

open Idealize.ShloMosaic Idealize.ShloMosaic.TcCoe
open Idealize.SL.Sem
open Cert.KernelIdeal.Gen
open Cert.Bridge

/-- The stretch as one fold over the contents `W` it starts from. -/
abbrev hostG (W : Valuation τ sig (Elt Ideal)) : Valuation τ sig (Elt Ideal) :=
  StableHlo.after hostOps6 W

/-- The buffers the stretch must leave alone: the program's arguments and the kernel results it passes on. -/
abbrev keptG : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_v128]

theorem nw_hostOps6 : ∀ r ∈ keptG, ∀ op ∈ (hostOps6 : List (HloOp τ sig (Elt Ideal))), Proc.devRef .tc r ∉ op.writes := by decide

/-- No operation of the stretch writes a kept buffer: it holds at the end what it held at the start. -/
theorem passG (W : Valuation τ sig (Elt Ideal)) (r : Ref sig .tc) (hr : r ∈ keptG) :
    hostG W (Proc.devRef .tc r) = W (Proc.devRef .tc r) :=
  (StableHlo.after_of_forall_not_mem _ _ (nw_hostOps6 r hr))

/-- The bias row. -/
theorem hostG_v129 (W : Valuation τ sig (Elt Ideal)) :
    hostG W (Proc.devRef .tc main_v129) = KerSpec.bdr (W (Proc.devRef .tc main_arg27)) := by
  simp only [hostG, hostOps6]
  after_results_simp
  rfl

/-- The scale row. -/
theorem hostG_v130 (W : Valuation τ sig (Elt Ideal)) :
    hostG W (Proc.devRef .tc main_v130) = KerSpec.gr3 (W (Proc.devRef .tc main_arg28)) := by
  simp only [hostG, hostOps6]
  after_results_simp
  rfl

/-- The shift row. -/
theorem hostG_v131 (W : Valuation τ sig (Elt Ideal)) :
    hostG W (Proc.devRef .tc main_v131) = KerSpec.ber3 (W (Proc.devRef .tc main_arg29)) := by
  simp only [hostG, hostOps6]
  after_results_simp
  rfl

end Cert.KernelIdeal.KerRun

end
-- ==== Proof.KerRunBack.lean ====
/-
The result buffer of the idealized kernel program read back through the program's boundaries.

The run of the program leaves, at each boundary between a host stretch and a kernel region, contents
obtained from the previous boundary's: a stretch applies its operations (read in the stretch modules
as the gather / lengthen / mean / row functions of the specification), a region replaces its output
array by what its write-backs leave and keeps everything else.  Walking back from the last boundary:
the head's dense layer of level 2's output; level 2's output is the dense layer of the mean of the
edge kernel of the gathered rows of level 1's output; and so on down to the program's arguments,
which no stretch and no region writes.  The value each region leaves in its output array, as a
function of its five input arrays, is taken here as a hypothesis of the shape the region modules
prove.
-/
import proofs.«105096_j6674379178666_1_alg».proof.Proof.Gen.KernelIdeal.Frame
import proofs.«105096_j6674379178666_1_alg».proof.Proof.KerSpec
import proofs.«105096_j6674379178666_1_alg».proof.Proof.KerRunHostA
import proofs.«105096_j6674379178666_1_alg».proof.Proof.KerRunHostB
import proofs.«105096_j6674379178666_1_alg».proof.Proof.KerRunHostC
import proofs.«105096_j6674379178666_1_alg».proof.Proof.KerRunHostD
import proofs.«105096_j6674379178666_1_alg».proof.Proof.KerRunHostE
import proofs.«105096_j6674379178666_1_alg».proof.Proof.KerRunHostF
import proofs.«105096_j6674379178666_1_alg».proof.Proof.KerRunHostG

set_option maxRecDepth 16384

noncomputable section

namespace Cert.KernelIdeal.KerRun

open Idealize.ShloMosaic Idealize.ShloMosaic.TcCoe
open Idealize.SL.Sem
open Idealize.ShloMosaic.Pipeline (Dat)
open Cert.KernelIdeal.Gen
open Cert.Bridge

/-! ## The arguments still to be read at each boundary -/

/-- Arguments read after level 0's edge kernel. -/
abbrev needB : List (Ref sig .tc) := [main_arg6, main_arg13, main_arg14, main_arg15, main_arg2, main_arg3, main_arg7, main_arg8, main_arg16, main_arg17, main_arg18, main_arg19, main_arg20, main_arg4, main_arg9, main_arg10, main_arg21, main_arg22, main_arg23, main_arg24, main_arg25, main_arg26, main_arg27, main_arg28, main_arg29]
/-- Arguments read after level 0's dense layer. -/
abbrev needC : List (Ref sig .tc) := [main_arg2, main_arg3, main_arg7, main_arg8, main_arg16, main_arg17, main_arg18, main_arg19, main_arg20, main_arg4, main_arg9, main_arg10, main_arg21, main_arg22, main_arg23, main_arg24, main_arg25, main_arg26, main_arg27, main_arg28, main_arg29]
/-- Arguments read after level 1's edge kernel. -/
abbrev needD : List (Ref sig .tc) := [main_arg8, main_arg18, main_arg19, main_arg20, main_arg3, main_arg4, main_arg9, main_arg10, main_arg21, main_arg22, main_arg23, main_arg24, main_arg25, main_arg26, main_arg27, main_arg28, main_arg29]
/-- Arguments read after level 1's dense layer. -/
abbrev needE : List (Ref sig .tc) := [main_arg3, main_arg4, main_arg9, main_arg10, main_arg21, main_arg22, main_arg23, main_arg24, main_arg25, main_arg26, main_arg27, main_arg28, main_arg29]
/-- Arguments read after level 2's edge kernel. -/
abbrev needF : List (Ref sig .tc) := [main_arg10, main_arg23, main_arg24, main_arg25, main_arg26, main_arg27, main_arg28, main_arg29]
/-- Arguments read after level 2's dense layer. -/
abbrev needG : List (Ref sig .tc) := [main_arg26, main_arg27, main_arg28, main_arg29]

theorem needB_keptA : ∀ r ∈ needB, r ∈ keptA := by decide
theorem needB_keptB : ∀ r ∈ needB, r ∈ keptB := by decide
theorem needC_keptC : ∀ r ∈ needC, r ∈ keptC := by decide
theorem needD_keptD : ∀ r ∈ needD, r ∈ keptD := by decide
theorem needE_keptE : ∀ r ∈ needE, r ∈ keptE := by decide
theorem needF_keptF : ∀ r ∈ needF, r ∈ keptF := by decide
theorem needG_keptG : ∀ r ∈ needG, r ∈ keptG := by decide
theorem needC_B : ∀ r ∈ needC, r ∈ needB := by decide
theorem needD_C : ∀ r ∈ needD, r ∈ needC := by decide
theorem needE_D : ∀ r ∈ needE, r ∈ needD := by decide
theorem needF_E : ∀ r ∈ needF, r ∈ needE := by decide
theorem needG_F : ∀ r ∈ needG, r ∈ needF := by decide

/-- No array of a region is an argument still to be read after it. -/
theorem ne0 : ∀ r ∈ needB, ∀ w, Pipeline.arrRef spec0 w ≠ r := by decide
theorem ne1 : ∀ r ∈ needC, ∀ w, Pipeline.arrRef spec1 w ≠ r := by decide
theorem ne2 : ∀ r ∈ needD, ∀ w, Pipeline.arrRef spec2 w ≠ r := by decide
theorem ne3 : ∀ r ∈ needE, ∀ w, Pipeline.arrRef spec3 w ≠ r := by decide
theorem ne4 : ∀ r ∈ needF, ∀ w, Pipeline.arrRef spec4 w ≠ r := by decide
theorem ne5 : ∀ r ∈ needG, ∀ w, Pipeline.arrRef spec5 w ≠ r := by decide

/-! ## What a region leaves in its output array, as a function of its five input arrays: the shape of the region modules' results -/

/-- Region 0 (level 0's edge kernel) leaves `edge0` of its inputs. -/
def RegVal0 (edge0 : Vec Ideal S980992x3 .f32 → Vec Ideal S980992x3 .f32 → Vec Ideal S980992x1 .f32 → Vec Ideal S3x16 .f32 → Vec Ideal S1x16 .f32 → Vec Ideal S980992x16 .f32) : Prop :=
  ∀ (V : (c : Dev nD) → (b : Ref sig .tc) → Buf (Elt Ideal) ((c : Thread nD τ).loc b)) (c : Dev nD), (dat0 V c).arrAt 5 cfg0.N = edge0 (V c (Pipeline.arrRef spec0 0)) (V c (Pipeline.arrRef spec0 1)) (V c (Pipeline.arrRef spec0 2)) (V c (Pipeline.arrRef spec0 3)) (V c (Pipeline.arrRef spec0 4))
/-- Region 1 (level 0's dense layer) leaves its body's payload of its inputs. -/
def RegVal1 : Prop :=
  ∀ (V : (c : Dev nD) → (b : Ref sig .tc) → Buf (Elt Ideal) ((c : Thread nD τ).loc b)) (c : Dev nD), (dat1 V c).arrAt 5 cfg1.N = k1_pay1 (F := Ideal) (V c (Pipeline.arrRef spec1 0)) (V c (Pipeline.arrRef spec1 1)) (V c (Pipeline.arrRef spec1 2)) (V c (Pipeline.arrRef spec1 3)) (V c (Pipeline.arrRef spec1 4))
/-- Region 2 (level 1's edge kernel). -/
def RegVal2 (edge2 : Vec Ideal S26712x3 .f32 → Vec Ideal S26712x3 .f32 → Vec Ideal S26712x128 .f32 → Vec Ideal S3x16 .f32 → Vec Ideal S1x16 .f32 → Vec Ideal S26712x2048 .f32) : Prop :=
  ∀ (V : (c : Dev nD) → (b : Ref sig .tc) → Buf (Elt Ideal) ((c : Thread nD τ).loc b)) (c : Dev nD), (dat2 V c).arrAt 5 cfg2.N = edge2 (V c (Pipeline.arrRef spec2 0)) (V c (Pipeline.arrRef spec2 1)) (V c (Pipeline.arrRef spec2 2)) (V c (Pipeline.arrRef spec2 3)) (V c (Pipeline.arrRef spec2 4))
/-- Region 3 (level 1's dense layer). -/
def RegVal3 : Prop :=
  ∀ (V : (c : Dev nD) → (b : Ref sig .tc) → Buf (Elt Ideal) ((c : Thread nD τ).loc b)) (c : Dev nD), (dat3 V c).arrAt 5 cfg3.N = k3_pay1 (F := Ideal) (V c (Pipeline.arrRef spec3 0)) (V c (Pipeline.arrRef spec3 1)) (V c (Pipeline.arrRef spec3 2)) (V c (Pipeline.arrRef spec3 3)) (V c (Pipeline.arrRef spec3 4))
/-- Region 4 (level 2's edge kernel). -/
def RegVal4 (edge4 : Vec Ideal S1120x3 .f32 → Vec Ideal S1120x3 .f32 → Vec Ideal S1120x256 .f32 → Vec Ideal S3x16 .f32 → Vec Ideal S1x16 .f32 → Vec Ideal S1120x4096 .f32) : Prop :=
  ∀ (V : (c : Dev nD) → (b : Ref sig .tc) → Buf (Elt Ideal) ((c : Thread nD τ).loc b)) (c : Dev nD), (dat4 V c).arrAt 5 cfg4.N = edge4 (V c (Pipeline.arrRef spec4 0)) (V c (Pipeline.arrRef spec4 1)) (V c (Pipeline.arrRef spec4 2)) (V c (Pipeline.arrRef spec4 3)) (V c (Pipeline.arrRef spec4 4))
/-- Region 5 (level 2's dense layer). -/
def RegVal5 : Prop :=
  ∀ (V : (c : Dev nD) → (b : Ref sig .tc) → Buf (Elt Ideal) ((c : Thread nD τ).loc b)) (c : Dev nD), (dat5 V c).arrAt 5 cfg5.N = k5_pay1 (F := Ideal) (V c (Pipeline.arrRef spec5 0)) (V c (Pipeline.arrRef spec5 1)) (V c (Pipeline.arrRef spec5 2)) (V c (Pipeline.arrRef spec5 3)) (V c (Pipeline.arrRef spec5 4))
/-- Region 6 (the head's dense layer). -/
def RegVal6 : Prop :=
  ∀ (V : (c : Dev nD) → (b : Ref sig .tc) → Buf (Elt Ideal) ((c : Thread nD τ).loc b)) (c : Dev nD), (dat6 V c).arrAt 5 cfg6.N = k6_pay1 (F := Ideal) (V c (Pipeline.arrRef spec6 0)) (V c (Pipeline.arrRef spec6 1)) (V c (Pipeline.arrRef spec6 2)) (V c (Pipeline.arrRef spec6 3)) (V c (Pipeline.arrRef spec6 4))

variable (m : (ℓ : Loc nD τ sig) → Buf (Elt Ideal) ℓ) (ρ : Dev nD → PrngReg) (c : Dev nD)

/-! ## The arguments at each boundary: as launched -/

theorem args6 (r : Ref sig .tc) (hr : r ∈ keptA) : W6 m ρ c (Proc.devRef .tc r) = m ((c : Thread nD τ).loc r) :=
  passA (W0 m ρ c) r hr
theorem args7 (r : Ref sig .tc) (hr : r ∈ needB) : W7 m ρ c (Proc.devRef .tc r) = m ((c : Thread nD τ).loc r) :=
  (W7_of_ne m ρ c r (ne0 r hr)).trans (args6 m ρ c r (needB_keptA r hr))
theorem args8 (r : Ref sig .tc) (hr : r ∈ needB) : W8 m ρ c (Proc.devRef .tc r) = m ((c : Thread nD τ).loc r) :=
  (passB (W7 m ρ c) r (needB_keptB r hr)).trans (args7 m ρ c r hr)
theorem args9 (r : Ref sig .tc) (hr : r ∈ needC) : W9 m ρ c (Proc.devRef .tc r) = m ((c : Thread nD τ).loc r) :=
  (W9_of_ne m ρ c r (ne1 r hr)).trans (args8 m ρ c r (needC_B r hr))
theorem args15 (r : Ref sig .tc) (hr : r ∈ needC) : W15 m ρ c (Proc.devRef .tc r) = m ((c : Thread nD τ).loc r) :=
  (passC (W9 m ρ c) r (needC_keptC r hr)).trans (args9 m ρ c r hr)
theorem args16 (r : Ref sig .tc) (hr : r ∈ needD) : W16 m ρ c (Proc.devRef .tc r) = m ((c : Thread nD τ).loc r) :=
  (W16_of_ne m ρ c r (ne2 r hr)).trans (args15 m ρ c r (needD_C r hr))
theorem args17 (r : Ref sig .tc) (hr : r ∈ needD) : W17 m ρ c (Proc.devRef .tc r) = m ((c : Thread nD τ).loc r) :=
  (passD (W16 m ρ c) r (needD_keptD r hr)).trans (args16 m ρ c r hr)
theorem args18 (r : Ref sig .tc) (hr : r ∈ needE) : W18 m ρ c (Proc.devRef .tc r) = m ((c : Thread nD τ).loc r) :=
  (W18_of_ne m ρ c r (ne3 r hr)).trans (args17 m ρ c r (needE_D r hr))
theorem args24 (r : Ref sig .tc) (hr : r ∈ needE) : W24 m ρ c (Proc.devRef .tc r) = m ((c : Thread nD τ).loc r) :=
  (passE (W18 m ρ c) r (needE_keptE r hr)).trans (args18 m ρ c r hr)
theorem args25 (r : Ref sig .tc) (hr : r ∈ needF) : W25 m ρ c (Proc.devRef .tc r) = m ((c : Thread nD τ).loc r) :=
  (W25_of_ne m ρ c r (ne4 r hr)).trans (args24 m ρ c r (needF_E r hr))
theorem args26 (r : Ref sig .tc) (hr : r ∈ needF) : W26 m ρ c (Proc.devRef .tc r) = m ((c : Thread nD τ).loc r) :=
  (passF (W25 m ρ c) r (needF_keptF r hr)).trans (args25 m ρ c r hr)
theorem args27 (r : Ref sig .tc) (hr : r ∈ needG) : W27 m ρ c (Proc.devRef .tc r) = m ((c : Thread nD τ).loc r) :=
  (W27_of_ne m ρ c r (ne5 r hr)).trans (args26 m ρ c r (needG_F r hr))
theorem args28 (r : Ref sig .tc) (hr : r ∈ needG) : W28 m ρ c (Proc.devRef .tc r) = m ((c : Thread nD τ).loc r) :=
  (passG (W27 m ρ c) r (needG_keptG r hr)).trans (args27 m ρ c r hr)

/-! ## The edge kernels' results, as parameters of the shape the region modules give them -/

variable (edge0 : Vec Ideal S980992x3 .f32 → Vec Ideal S980992x3 .f32 → Vec Ideal S980992x1 .f32 → Vec Ideal S3x16 .f32 → Vec Ideal S1x16 .f32 → Vec Ideal S980992x16 .f32)
variable (edge2 : Vec Ideal S26712x3 .f32 → Vec Ideal S26712x3 .f32 → Vec Ideal S26712x128 .f32 → Vec Ideal S3x16 .f32 → Vec Ideal S1x16 .f32 → Vec Ideal S26712x2048 .f32)
variable (edge4 : Vec Ideal S1120x3 .f32 → Vec Ideal S1120x3 .f32 → Vec Ideal S1120x256 .f32 → Vec Ideal S3x16 .f32 → Vec Ideal S1x16 .f32 → Vec Ideal S1120x4096 .f32)

/-! ## The levels' values -/

/-- Level 0's edge rows. -/
def E0 : Vec Ideal S980992x16 .f32 :=
  edge0 (KerSpec.ps0 (m ((c : Thread nD τ).loc main_arg1)) (m ((c : Thread nD τ).loc main_arg5))) (KerSpec.pd0 (m ((c : Thread nD τ).loc main_arg2)) (m ((c : Thread nD τ).loc main_arg6))) (KerSpec.ft0 (m ((c : Thread nD τ).loc main_arg0)) (m ((c : Thread nD τ).loc main_arg5))) (m ((c : Thread nD τ).loc main_arg11)) (KerSpec.bb0 (m ((c : Thread nD τ).loc main_arg12)))
/-- Level 0's output: the dense layer of the neighbourhood mean. -/
def X1 : Vec Ideal S8000x128 .f32 :=
  k1_pay1 (F := Ideal) (KerSpec.agg0 (E0 m c edge0) (m ((c : Thread nD τ).loc main_arg6))) (m ((c : Thread nD τ).loc main_arg13)) KerSpec.zb0 (KerSpec.gr0 (m ((c : Thread nD τ).loc main_arg14))) (KerSpec.ber0 (m ((c : Thread nD τ).loc main_arg15)))
/-- Level 1's edge rows. -/
def E1 : Vec Ideal S26712x2048 .f32 :=
  edge2 (KerSpec.ps1 (m ((c : Thread nD τ).loc main_arg2)) (m ((c : Thread nD τ).loc main_arg7))) (KerSpec.pd1 (m ((c : Thread nD τ).loc main_arg3)) (m ((c : Thread nD τ).loc main_arg8))) (KerSpec.ft1 (X1 m c edge0) (m ((c : Thread nD τ).loc main_arg7))) (m ((c : Thread nD τ).loc main_arg16)) (KerSpec.bb1 (m ((c : Thread nD τ).loc main_arg17)))
/-- Level 1's output. -/
def X2 : Vec Ideal S1000x256 .f32 :=
  k3_pay1 (F := Ideal) (KerSpec.agg1 (E1 m c edge0 edge2) (m ((c : Thread nD τ).loc main_arg8))) (m ((c : Thread nD τ).loc main_arg18)) KerSpec.zb1 (KerSpec.gr1 (m ((c : Thread nD τ).loc main_arg19))) (KerSpec.ber1 (m ((c : Thread nD τ).loc main_arg20)))
/-- Level 2's edge rows. -/
def E2 : Vec Ideal S1120x4096 .f32 :=
  edge4 (KerSpec.ps2 (m ((c : Thread nD τ).loc main_arg3)) (m ((c : Thread nD τ).loc main_arg9))) (KerSpec.pd2 (m ((c : Thread nD τ).loc main_arg4)) (m ((c : Thread nD τ).loc main_arg10))) (KerSpec.ft2 (X2 m c edge0 edge2) (m ((c : Thread nD τ).loc main_arg9))) (m ((c : Thread nD τ).loc main_arg21)) (KerSpec.bb2 (m ((c : Thread nD τ).loc main_arg22)))
/-- Level 2's output. -/
def X3 : Vec Ideal S8x512 .f32 :=
  k5_pay1 (F := Ideal) (KerSpec.agg2 (E2 m c edge0 edge2 edge4) (m ((c : Thread nD τ).loc main_arg10))) (m ((c : Thread nD τ).loc main_arg23)) KerSpec.zb2 (KerSpec.gr2 (m ((c : Thread nD τ).loc main_arg24))) (KerSpec.ber2 (m ((c : Thread nD τ).loc main_arg25)))
/-- The network's output: the head's dense layer. -/
def OUT : Vec Ideal S8x128 .f32 :=
  k6_pay1 (F := Ideal) (X3 m c edge0 edge2 edge4) (m ((c : Thread nD τ).loc main_arg26)) (KerSpec.bdr (m ((c : Thread nD τ).loc main_arg27))) (KerSpec.gr3 (m ((c : Thread nD τ).loc main_arg28))) (KerSpec.ber3 (m ((c : Thread nD τ).loc main_arg29)))

set_option maxHeartbeats 2000000 in
/-- Level 0's edge kernel leaves its rows of the gathered positions and features. -/
theorem lev0 (h0 : RegVal0 edge0) :
    W7 m ρ c (Proc.devRef .tc main_v25) = E0 m c edge0 := by
  refine (W7_arr m ρ c 5).trans ((h0 (V6 m ρ) c).trans ?_)
  rw [show V6 m ρ c (Pipeline.arrRef spec0 0) = _ from (hostA_v22 (W0 m ρ c)),
    show V6 m ρ c (Pipeline.arrRef spec0 1) = _ from (hostA_v23 (W0 m ρ c)),
    show V6 m ρ c (Pipeline.arrRef spec0 2) = _ from (hostA_v24 (W0 m ρ c)),
    show V6 m ρ c (Pipeline.arrRef spec0 3) = _ from (args6 m ρ c main_arg11 (by decide)),
    show V6 m ρ c (Pipeline.arrRef spec0 4) = _ from (hostA_v21 (W0 m ρ c))]
  first | done | rfl

set_option maxHeartbeats 2000000 in
/-- Level 0's dense layer leaves the level's output. -/
theorem lev1 (h0 : RegVal0 edge0) (h1 : RegVal1) :
    W9 m ρ c (Proc.devRef .tc main_v42) = X1 m c edge0 := by
  refine (W9_arr m ρ c 5).trans ((h1 (V8 m ρ) c).trans ?_)
  rw [show V8 m ρ c (Pipeline.arrRef spec1 0) = _ from ((hostB_v38 (W7 m ρ c)).trans (by rw [lev0 m ρ c edge0 h0, args7 m ρ c main_arg6 (by decide)])),
    show V8 m ρ c (Pipeline.arrRef spec1 1) = _ from (args8 m ρ c main_arg13 (by decide)),
    show V8 m ρ c (Pipeline.arrRef spec1 2) = _ from (hostB_v39 (W7 m ρ c)),
    show V8 m ρ c (Pipeline.arrRef spec1 3) = _ from ((hostB_v40 (W7 m ρ c)).trans (by rw [args7 m ρ c main_arg14 (by decide)])),
    show V8 m ρ c (Pipeline.arrRef spec1 4) = _ from ((hostB_v41 (W7 m ρ c)).trans (by rw [args7 m ρ c main_arg15 (by decide)]))]
  first | done | rfl

set_option maxHeartbeats 2000000 in
/-- Level 1's edge kernel. -/
theorem lev2 (h0 : RegVal0 edge0) (h1 : RegVal1) (h2 : RegVal2 edge2) :
    W16 m ρ c (Proc.devRef .tc main_v68) = E1 m c edge0 edge2 := by
  refine (W16_arr m ρ c 5).trans ((h2 (V15 m ρ) c).trans ?_)
  rw [show V15 m ρ c (Pipeline.arrRef spec2 0) = _ from ((hostC_v65 (W9 m ρ c)).trans (by rw [args9 m ρ c main_arg2 (by decide), args9 m ρ c main_arg7 (by decide)])),
    show V15 m ρ c (Pipeline.arrRef spec2 1) = _ from ((hostC_v66 (W9 m ρ c)).trans (by rw [args9 m ρ c main_arg3 (by decide), args9 m ρ c main_arg8 (by decide)])),
    show V15 m ρ c (Pipeline.arrRef spec2 2) = _ from ((hostC_v67 (W9 m ρ c)).trans (by rw [lev1 m ρ c edge0 h0 h1, args9 m ρ c main_arg7 (by decide)])),
    show V15 m ρ c (Pipeline.arrRef spec2 3) = _ from (args15 m ρ c main_arg16 (by decide)),
    show V15 m ρ c (Pipeline.arrRef spec2 4) = _ from ((hostC_v64 (W9 m ρ c)).trans (by rw [args9 m ρ c main_arg17 (by decide)]))]
  first | done | rfl

set_option maxHeartbeats 2000000 in
/-- Level 1's dense layer. -/
theorem lev3 (h0 : RegVal0 edge0) (h1 : RegVal1) (h2 : RegVal2 edge2) (h3 : RegVal3) :
    W18 m ρ c (Proc.devRef .tc main_v85) = X2 m c edge0 edge2 := by
  refine (W18_arr m ρ c 5).trans ((h3 (V17 m ρ) c).trans ?_)
  rw [show V17 m ρ c (Pipeline.arrRef spec3 0) = _ from ((hostD_v81 (W16 m ρ c)).trans (by rw [lev2 m ρ c edge0 edge2 h0 h1 h2, args16 m ρ c main_arg8 (by decide)])),
    show V17 m ρ c (Pipeline.arrRef spec3 1) = _ from (args17 m ρ c main_arg18 (by decide)),
    show V17 m ρ c (Pipeline.arrRef spec3 2) = _ from (hostD_v82 (W16 m ρ c)),
    show V17 m ρ c (Pipeline.arrRef spec3 3) = _ from ((hostD_v83 (W16 m ρ c)).trans (by rw [args16 m ρ c main_arg19 (by decide)])),
    show V17 m ρ c (Pipeline.arrRef spec3 4) = _ from ((hostD_v84 (W16 m ρ c)).trans (by rw [args16 m ρ c main_arg20 (by decide)]))]
  first | done | rfl

set_option maxHeartbeats 2000000 in
/-- Level 2's edge kernel. -/
theorem lev4 (h0 : RegVal0 edge0) (h1 : RegVal1) (h2 : RegVal2 edge2) (h3 : RegVal3) (h4 : RegVal4 edge4) :
    W25 m ρ c (Proc.devRef .tc main_v111) = E2 m c edge0 edge2 edge4 := by
  refine (W25_arr m ρ c 5).trans ((h4 (V24 m ρ) c).trans ?_)
  rw [show V24 m ρ c (Pipeline.arrRef spec4 0) = _ from ((hostE_v108 (W18 m ρ c)).trans (by rw [args18 m ρ c main_arg3 (by decide), args18 m ρ c main_arg9 (by decide)])),
    show V24 m ρ c (Pipeline.arrRef spec4 1) = _ from ((hostE_v109 (W18 m ρ c)).trans (by rw [args18 m ρ c main_arg4 (by decide), args18 m ρ c main_arg10 (by decide)])),
    show V24 m ρ c (Pipeline.arrRef spec4 2) = _ from ((hostE_v110 (W18 m ρ c)).trans (by rw [lev3 m ρ c edge0 edge2 h0 h1 h2 h3, args18 m ρ c main_arg9 (by decide)])),
    show V24 m ρ c (Pipeline.arrRef spec4 3) = _ from (args24 m ρ c main_arg21 (by decide)),
    show V24 m ρ c (Pipeline.arrRef spec4 4) = _ from ((hostE_v107 (W18 m ρ c)).trans (by rw [args18 m ρ c main_arg22 (by decide)]))]
  first | done | rfl

set_option maxHeartbeats 2000000 in
/-- Level 2's dense layer. -/
theorem lev5 (h0 : RegVal0 edge0) (h1 : RegVal1) (h2 : RegVal2 edge2) (h3 : RegVal3) (h4 : RegVal4 edge4) (h5 : RegVal5) :
    W27 m ρ c (Proc.devRef .tc main_v128) = X3 m c edge0 edge2 edge4 := by
  refine (W27_arr m ρ c 5).trans ((h5 (V26 m ρ) c).trans ?_)
  rw [show V26 m ρ c (Pipeline.arrRef spec5 0) = _ from ((hostF_v124 (W25 m ρ c)).trans (by rw [lev4 m ρ c edge0 edge2 edge4 h0 h1 h2 h3 h4, args25 m ρ c main_arg10 (by decide)])),
    show V26 m ρ c (Pipeline.arrRef spec5 1) = _ from (args26 m ρ c main_arg23 (by decide)),
    show V26 m ρ c (Pipeline.arrRef spec5 2) = _ from (hostF_v125 (W25 m ρ c)),
    show V26 m ρ c (Pipeline.arrRef spec5 3) = _ from ((hostF_v126 (W25 m ρ c)).trans (by rw [args25 m ρ c main_arg24 (by decide)])),
    show V26 m ρ c (Pipeline.arrRef spec5 4) = _ from ((hostF_v127 (W25 m ρ c)).trans (by rw [args25 m ρ c main_arg25 (by decide)]))]
  first | done | rfl

set_option maxHeartbeats 2000000 in
/-- The head's dense layer: the result buffer at the last boundary is the network's output. -/
theorem lev6 (h0 : RegVal0 edge0) (h1 : RegVal1) (h2 : RegVal2 edge2) (h3 : RegVal3) (h4 : RegVal4 edge4) (h5 : RegVal5) (h6 : RegVal6) :
    W29 m ρ c (Proc.devRef .tc main_v132) = OUT m c edge0 edge2 edge4 := by
  refine (W29_arr m ρ c 5).trans ((h6 (V28 m ρ) c).trans ?_)
  rw [show V28 m ρ c (Pipeline.arrRef spec6 0) = _ from ((passG (W27 m ρ c) main_v128 (by decide)).trans (lev5 m ρ c edge0 edge2 edge4 h0 h1 h2 h3 h4 h5)),
    show V28 m ρ c (Pipeline.arrRef spec6 1) = _ from (args28 m ρ c main_arg26 (by decide)),
    show V28 m ρ c (Pipeline.arrRef spec6 2) = _ from ((hostG_v129 (W27 m ρ c)).trans (by rw [args27 m ρ c main_arg27 (by decide)])),
    show V28 m ρ c (Pipeline.arrRef spec6 3) = _ from ((hostG_v130 (W27 m ρ c)).trans (by rw [args27 m ρ c main_arg28 (by decide)])),
    show V28 m ρ c (Pipeline.arrRef spec6 4) = _ from ((hostG_v131 (W27 m ρ c)).trans (by rw [args27 m ρ c main_arg29 (by decide)]))]
  first | done | rfl

end Cert.KernelIdeal.KerRun

end
-- ==== Proof.KerRegions0.lean ====
/-
  THE FIRST MONTE-CARLO CONVOLUTION'S EDGE ARRAY AFTER ITS REGION (region 0: 479 tiles of 2048 edges).

  The pipeline's grid has 479 points; at point `t` the three per-edge input windows and the output window are at block
  (t, 0) — rows `2048 t … 2048 t + 2047` of their arrays — and the weight and bias windows are their whole arrays (the index
  maps, decided once over the grid).  So
    * each input block the body sees at `t` is the tile `t` of its array (an element of a block sits in the array at
      block index * block size + its own coordinate);
    * what point `t` writes back is the body's block of those tiles, which is exactly block `t` of the one function
      `edge0` of the five arrays (row `2048 t + p` of `edge0` is tile `t`'s block at row `p`);
    * the 479 row blocks cover the [980992, 16] result (row `e` is in block `e / 2048`).
  Hence the result array after the region is `edge0` of the five input arrays as the region finds them.
-/
import proofs.«105096_j6674379178666_1_alg».proof.Proof.Gen.KernelIdeal.Frame
import proofs.«105096_j6674379178666_1_alg».proof.Proof.KerRegionsEdge0
import Idealize.ShloMosaic.Lib.Pipeline.Value
import Idealize.ShloMosaic.Lib.ValueIdx

noncomputable section

namespace Cert.KernelIdeal.KerRegions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the row-blocked windows 0, 1, 2, 5 are at block (t, 0) at point `t`,
    the whole windows 3, 4 at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Input window 0's block at point `t` is rows `2048 t … 2048 t + 2047` of its array. -/
theorem blk0_0 (c : Dev nD) (t : Fin cfg0.N) (hN : t.val < 479) :
    (iblk0 V c 0 t : Vec Ideal S2048x3 .f32) = tileRows0 (n := 3) (V c (Pipeline.arrRef spec0 0)) ⟨t.val, hN⟩ := by
  obtain ⟨e00, e01, e10, e11, e20, e21, e30, e31, e40, e41, e50, e51⟩ := idx_facts0 t
  funext y
  have hy0 : (y 0).val < 2048 := (y 0).isLt
  show V c (Pipeline.arrRef spec0 0) (((cfg0.win 0).blk t).view.emb y)
    = V c (Pipeline.arrRef spec0 0) (ix2 (n0 := 980992) (n1 := 3) ⟨2048 * t.val + (y 0).val, by omega⟩ (y 1))
  refine congrArg _ (funext fun a => Fin.ext ?_)
  match a with
  | ⟨0, _⟩ => show win0_0.index t (0 : Fin 2) * 2048 + 1 * (y 0).val = 2048 * t.val + (y 0).val; omega
  | ⟨1, _⟩ => show win0_0.index t (1 : Fin 2) * 3 + 1 * (y 1).val = (y 1).val; omega

/-- Input window 1's block at point `t` is rows `2048 t … 2048 t + 2047` of its array. -/
theorem blk0_1 (c : Dev nD) (t : Fin cfg0.N) (hN : t.val < 479) :
    (iblk0 V c 1 t : Vec Ideal S2048x3 .f32) = tileRows0 (n := 3) (V c (Pipeline.arrRef spec0 1)) ⟨t.val, hN⟩ := by
  obtain ⟨e00, e01, e10, e11, e20, e21, e30, e31, e40, e41, e50, e51⟩ := idx_facts0 t
  funext y
  have hy0 : (y 0).val < 2048 := (y 0).isLt
  show V c (Pipeline.arrRef spec0 1) (((cfg0.win 1).blk t).view.emb y)
    = V c (Pipeline.arrRef spec0 1) (ix2 (n0 := 980992) (n1 := 3) ⟨2048 * t.val + (y 0).val, by omega⟩ (y 1))
  refine congrArg _ (funext fun a => Fin.ext ?_)
  match a with
  | ⟨0, _⟩ => show win0_1.index t (0 : Fin 2) * 2048 + 1 * (y 0).val = 2048 * t.val + (y 0).val; omega
  | ⟨1, _⟩ => show win0_1.index t (1 : Fin 2) * 3 + 1 * (y 1).val = (y 1).val; omega

/-- Input window 2's block at point `t` is rows `2048 t … 2048 t + 2047` of its array. -/
theorem blk0_2 (c : Dev nD) (t : Fin cfg0.N) (hN : t.val < 479) :
    (iblk0 V c 2 t : Vec Ideal S2048x1 .f32) = tileRows0 (n := 1) (V c (Pipeline.arrRef spec0 2)) ⟨t.val, hN⟩ := by
  obtain ⟨e00, e01, e10, e11, e20, e21, e30, e31, e40, e41, e50, e51⟩ := idx_facts0 t
  funext y
  have hy0 : (y 0).val < 2048 := (y 0).isLt
  show V c (Pipeline.arrRef spec0 2) (((cfg0.win 2).blk t).view.emb y)
    = V c (Pipeline.arrRef spec0 2) (ix2 (n0 := 980992) (n1 := 1) ⟨2048 * t.val + (y 0).val, by omega⟩ (y 1))
  refine congrArg _ (funext fun a => Fin.ext ?_)
  match a with
  | ⟨0, _⟩ => show win0_2.index t (0 : Fin 2) * 2048 + 1 * (y 0).val = 2048 * t.val + (y 0).val; omega
  | ⟨1, _⟩ => show win0_2.index t (1 : Fin 2) * 1 + 1 * (y 1).val = (y 1).val; omega

/-- Input window 3's block is its whole array, at every point. -/
theorem blk0_3 (c : Dev nD) (t : Fin cfg0.N) :
    (iblk0 V c 3 t : Vec Ideal S3x16 .f32) = V c (Pipeline.arrRef spec0 3) := by
  obtain ⟨e00, e01, e10, e11, e20, e21, e30, e31, e40, e41, e50, e51⟩ := idx_facts0 t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 3 + 1 * (y 0).val = (y 0).val; omega
  | ⟨1, _⟩ => show win0_3.index t (1 : Fin 2) * 16 + 1 * (y 1).val = (y 1).val; omega

/-- Input window 4's block is its whole array, at every point. -/
theorem blk0_4 (c : Dev nD) (t : Fin cfg0.N) :
    (iblk0 V c 4 t : Vec Ideal S1x16 .f32) = V c (Pipeline.arrRef spec0 4) := by
  obtain ⟨e00, e01, e10, e11, e20, e21, e30, e31, e40, e41, e50, e51⟩ := idx_facts0 t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 16 + 1 * (y 1).val = (y 1).val; omega

/-- A block held in the output window's staging buffer, as the write-back at point `t` reads it: at the block index `y`
    it is the block at `y`'s coordinates. -/
theorem cut0 (X : Vec Ideal S2048x16 .f32) (t : Fin cfg0.N) (y : ((cfg0.win 5).xblock (grid0.coords t)).Idx)
    (p : Fin 2048) (q : Fin 16) (hp : (y 0).val = p.val) (hq : (y 1).val = q.val) :
    (cfg0.win 5).cut (grid0.coords t) X y = X (ix2 p q) := by
  show X ((cfg0.win 5).xinj (grid0.coords t) y) = X (ix2 p q)
  refine congrArg X (funext fun a => ?_)
  match a with
  | ⟨0, _⟩ => exact Fin.ext hp
  | ⟨1, _⟩ => exact Fin.ext hq

/-- An array of the result's shape read through the output window's block at point `t`: at the block index `y` it is the
    array at row `2048 t + y 0`, column `y 1`. -/
theorem read_blk0 (G : Vec Ideal S980992x16 .f32) (t : Fin cfg0.N) (tt : Fin 479) (htt : t.val = tt.val)
    (y : ((cfg0.win 5).xblock (grid0.coords t)).Idx) (p : Fin 2048) (q : Fin 16) (hp : (y 0).val = p.val) (hq : (y 1).val = q.val) :
    ((cfg0.win 5).blk t).view.read (Elt Ideal) G y
      = G (ix2 (n0 := 980992) (n1 := 16) ⟨2048 * tt.val + p.val, by have := tt.isLt; have := p.isLt; omega⟩ q) := by
  obtain ⟨e00, e01, e10, e11, e20, e21, e30, e31, e40, e41, e50, e51⟩ := idx_facts0 t
  show G (((cfg0.win 5).blk t).view.emb y) = G _
  refine congrArg G (funext fun a => Fin.ext ?_)
  match a with
  | ⟨0, _⟩ => show win0_5.index t (0 : Fin 2) * 2048 + 1 * (y 0).val = 2048 * tt.val + p.val; omega
  | ⟨1, _⟩ => show win0_5.index t (1 : Fin 2) * 16 + 1 * (y 1).val = q.val; omega

/-- WHAT POINT `t` WRITES BACK is block `t` of `edge0` of the five input arrays. -/
theorem flushed0 (c : Dev nD) (t : Fin cfg0.N) :
    (dat0 V c).flushed 5 t = ((cfg0.win 5).blk t).view.read (Elt Ideal)
      (edge0 (V c (Pipeline.arrRef spec0 0)) (V c (Pipeline.arrRef spec0 1)) (V c (Pipeline.arrRef spec0 2))
        (V c (Pipeline.arrRef spec0 3)) (V c (Pipeline.arrRef spec0 4))) := by
  have hN : t.val < 479 := Nat.lt_of_lt_of_eq t.isLt N_0
  show (cfg0.win 5).cut (grid0.coords t) ((dat0 V c).after 5 t) = _
  rw [after0_5, blk0_0 V c t hN, blk0_1 V c t hN, blk0_2 V c t hN, blk0_3 V c t, blk0_4 V c t]
  funext y
  have hy0 : (y 0).val < 2048 := (y 0).isLt
  have hy1 : (y 1).val < 16 := (y 1).isLt
  refine (cut0 _ t y ⟨(y 0).val, hy0⟩ ⟨(y 1).val, hy1⟩ rfl rfl).trans ?_
  refine Eq.trans ?_ (read_blk0 _ t ⟨t.val, hN⟩ rfl y ⟨(y 0).val, hy0⟩ ⟨(y 1).val, hy1⟩ rfl rfl).symm
  exact (edge0_apply _ _ _ _ _ ⟨t.val, hN⟩ ⟨(y 0).val, hy0⟩ ⟨(y 1).val, hy1⟩).symm

/-- The 479 row blocks cover the result array: row `e` lies in block `e / 2048`. -/
theorem cover0 (i : S980992x16.Idx) :
    ∃ t : Fin cfg0.N, (cfg0.win 5).flush t = true ∧ i ∈ ((cfg0.win 5).blk t).view.set := by
  have h0 : (i 0).val < 980992 := (i 0).isLt
  have h1 : (i 1).val < 16 := (i 1).isLt
  have hlt : (i 0).val / 2048 < cfg0.N := by rw [show cfg0.N = 479 from N_0]; omega
  obtain ⟨e00, e01, e10, e11, e20, e21, e30, e31, e40, e41, e50, e51⟩ := idx_facts0 ⟨(i 0).val / 2048, hlt⟩
  have e50' : win0_5.index ⟨(i 0).val / 2048, hlt⟩ (0 : Fin 2) = (i 0).val / 2048 := e50
  refine ⟨⟨(i 0).val / 2048, hlt⟩, flush0_5 _, ?_⟩
  show i ∈ ((View.whole (Pipeline.arrRef spec0 5)).slice (win0_5.rect ⟨(i 0).val / 2048, hlt⟩)).set
  rw [View.set_slice_whole, Rect.mem_set_unit]
  intro a
  match a with
  | ⟨0, _⟩ =>
    show win0_5.index ⟨(i 0).val / 2048, hlt⟩ (0 : Fin 2) * 2048 ≤ (i 0).val
      ∧ (i 0).val < win0_5.index ⟨(i 0).val / 2048, hlt⟩ (0 : Fin 2) * 2048 + 2048
    omega
  | ⟨1, _⟩ =>
    show win0_5.index ⟨(i 0).val / 2048, hlt⟩ (1 : Fin 2) * 16 ≤ (i 1).val
      ∧ (i 1).val < win0_5.index ⟨(i 0).val / 2048, hlt⟩ (1 : Fin 2) * 16 + 16
    omega

/-- THE RESULT ARRAY after the region: `edge0` of the five input arrays as the region finds them. -/
theorem arr_0 (c : Dev nD) :
    (dat0 V c).arrAt 5 cfg0.N
      = edge0 (V c (Pipeline.arrRef spec0 0)) (V c (Pipeline.arrRef spec0 1)) (V c (Pipeline.arrRef spec0 2))
          (V c (Pipeline.arrRef spec0 3)) (V c (Pipeline.arrRef spec0 4)) :=
  (dat0 V c).arrAt_eq_of_cover 5 _ (fun t _ => flushed0 V c t) (cover0)

end Cert.KernelIdeal.KerRegions

end
-- ==== Proof.KerRegions1.lean ====
/-
  THE RESULT ARRAY OF THE FIRST LEVEL'S DENSE LAYER (region 1: an [8000, 16] input against a [16, 128] weight).

  The dense kernel of this region runs at a single grid point, and each of its six windows is its whole array: the
  block sizes are the array sizes and every index map is constantly (0, 0).  Hence
    * the block of an input window at the grid point is the input array itself (an element of the block sits in the
      array at  0 * size + its own coordinate);
    * what the point writes back, read through the output window's block, is the body's result itself;
    * that one block covers the whole result array.
  So the result array after the region is the body's payload (matmul, bias, batch statistics, activation: the
  payload `k1_pay1` of the imported frame) applied to the five input arrays as the region finds them.
-/
import proofs.«105096_j6674379178666_1_alg».proof.Proof.Gen.KernelIdeal.Frame
import proofs.«105096_j6674379178666_1_alg».proof.Proof.KerRegionsBase
import Idealize.ShloMosaic.Lib.Pipeline.Value

noncomputable section

namespace Cert.KernelIdeal.KerRegions

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Every window's block index is (0, 0) at every grid point (decided over the grid). -/
theorem idx_zero1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Input window 0's block is its whole array. -/
theorem in1_0 (c : Dev nD) (t : Fin cfg1.N) :
    (iblk1 V c 0 t : Vec Ideal S8000x16 .f32) = V c (Pipeline.arrRef spec1 0) := by
  obtain ⟨e00, e01, e10, e11, e20, e21, e30, e31, e40, e41, e50, e51⟩ := idx_zero1 t
  funext y
  show V c (Pipeline.arrRef spec1 0) (((cfg1.win 0).blk t).view.emb y) = V c (Pipeline.arrRef spec1 0) y
  refine congrArg _ (funext fun a => Fin.ext ?_)
  match a with
  | ⟨0, _⟩ => show win1_0.index t (0 : Fin 2) * 8000 + 1 * (y 0).val = (y 0).val; omega
  | ⟨1, _⟩ => show win1_0.index t (1 : Fin 2) * 16 + 1 * (y 1).val = (y 1).val; omega

/-- Input window 1's block is its whole array. -/
theorem in1_1 (c : Dev nD) (t : Fin cfg1.N) :
    (iblk1 V c 1 t : Vec Ideal S16x128 .f32) = V c (Pipeline.arrRef spec1 1) := by
  obtain ⟨e00, e01, e10, e11, e20, e21, e30, e31, e40, e41, e50, e51⟩ := idx_zero1 t
  funext y
  show V c (Pipeline.arrRef spec1 1) (((cfg1.win 1).blk t).view.emb y) = V c (Pipeline.arrRef spec1 1) y
  refine congrArg _ (funext fun a => Fin.ext ?_)
  match a with
  | ⟨0, _⟩ => show win1_1.index t (0 : Fin 2) * 16 + 1 * (y 0).val = (y 0).val; omega
  | ⟨1, _⟩ => show win1_1.index t (1 : Fin 2) * 128 + 1 * (y 1).val = (y 1).val; omega

/-- Input window 2's block is its whole array. -/
theorem in1_2 (c : Dev nD) (t : Fin cfg1.N) :
    (iblk1 V c 2 t : Vec Ideal S1x128 .f32) = V c (Pipeline.arrRef spec1 2) := by
  obtain ⟨e00, e01, e10, e11, e20, e21, e30, e31, e40, e41, e50, e51⟩ := idx_zero1 t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

/-- Input window 3's block is its whole array. -/
theorem in1_3 (c : Dev nD) (t : Fin cfg1.N) :
    (iblk1 V c 3 t : Vec Ideal S1x128 .f32) = V c (Pipeline.arrRef spec1 3) := by
  obtain ⟨e00, e01, e10, e11, e20, e21, e30, e31, e40, e41, e50, e51⟩ := idx_zero1 t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Input window 4's block is its whole array. -/
theorem in1_4 (c : Dev nD) (t : Fin cfg1.N) :
    (iblk1 V c 4 t : Vec Ideal S1x128 .f32) = V c (Pipeline.arrRef spec1 4) := by
  obtain ⟨e00, e01, e10, e11, e20, e21, e30, e31, e40, e41, e50, e51⟩ := idx_zero1 t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The body's result at the grid point is its payload of the five loaded blocks. -/
theorem out1_5_eq (x0 : Vec Ideal S8000x16 .f32) (x1 : Vec Ideal S16x128 .f32) (x2 x3 x4 : Vec Ideal S1x128 .f32) :
    out1_5 (F := Ideal) x0 x1 x2 x3 x4 = k1_pay1 (F := Ideal) x0 x1 x2 x3 x4 := by
  unfold out1_5
  rw [View.canon_unit_zero zero2]
  simp only [View.ld_unit_zero (S := S8000x16) zero2, View.ld_unit_zero (S := S16x128) zero2, View.ld_unit_zero (S := S1x128) zero2]

/-- A result held in the output window's staging buffer, written back, is that result read through the window's
    (whole-array) block. -/
theorem wb1 (t : Fin cfg1.N) (X : Vec Ideal S8000x128 .f32) :
    (cfg1.win 5).cut (grid1.coords t) X = ((cfg1.win 5).blk t).view.read (Elt Ideal) X := by
  obtain ⟨e00, e01, e10, e11, e20, e21, e30, e31, e40, e41, e50, e51⟩ := idx_zero1 t
  funext y
  show X ((cfg1.win 5).xinj (grid1.coords t) y) = X (((cfg1.win 5).blk t).view.emb y)
  refine congrArg X (funext fun a => Fin.ext ?_)
  match a with
  | ⟨0, _⟩ => show (y 0).val = win1_5.index t (0 : Fin 2) * 8000 + 1 * (y 0).val; omega
  | ⟨1, _⟩ => show (y 1).val = win1_5.index t (1 : Fin 2) * 128 + 1 * (y 1).val; omega

/-- What the grid point writes back is the payload of the five input ARRAYS, read through the output's block. -/
theorem flushed1 (c : Dev nD) (t : Fin cfg1.N) :
    (dat1 V c).flushed 5 t = ((cfg1.win 5).blk t).view.read (Elt Ideal)
      (k1_pay1 (F := Ideal) (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5, out1_5_eq, in1_0 V c t, in1_1 V c t, in1_2 V c t, in1_3 V c t, in1_4 V c t]
  exact wb1 t _

/-- The one block covers the result array. -/
theorem cover1 (i : S8000x128.Idx) :
    ∃ t : Fin cfg1.N, (cfg1.win 5).flush t = true ∧ i ∈ ((cfg1.win 5).blk t).view.set := by
  refine ⟨t1_0, flush1_5 t1_0, ?_⟩
  obtain ⟨e00, e01, e10, e11, e20, e21, e30, e31, e40, e41, e50, e51⟩ := idx_zero1 t1_0
  show i ∈ ((View.whole (Pipeline.arrRef spec1 5)).slice (win1_5.rect t1_0)).set
  rw [View.set_slice_whole, Rect.mem_set_unit]
  intro a
  have h0 : (i 0).val < 8000 := (i 0).isLt
  have h1 : (i 1).val < 128 := (i 1).isLt
  match a with
  | ⟨0, _⟩ => show win1_5.index t1_0 (0 : Fin 2) * 8000 ≤ (i 0).val ∧ (i 0).val < win1_5.index t1_0 (0 : Fin 2) * 8000 + 8000; omega
  | ⟨1, _⟩ => show win1_5.index t1_0 (1 : Fin 2) * 128 ≤ (i 1).val ∧ (i 1).val < win1_5.index t1_0 (1 : Fin 2) * 128 + 128; omega

/-- THE RESULT ARRAY after the region: the body's payload of the five input arrays as the region finds them. -/
theorem arr_1 (c : Dev nD) :
    (dat1 V c).arrAt 5 cfg1.N
      = k1_pay1 (F := Ideal) (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed1 V c t) (cover1)

end Cert.KernelIdeal.KerRegions

end
-- ==== Proof.KerRegions2.lean ====
/-
  THE SECOND MONTE-CARLO CONVOLUTION'S EDGE ARRAY AFTER ITS REGION (region 2: 63 tiles of 424 edges).

  The pipeline's grid has 63 points; at point `t` the three per-edge input windows and the output window are at block
  (t, 0) — rows `424 t … 424 t + 423` of their arrays — and the weight and bias windows are their whole arrays (the index
  maps, decided once over the grid).  So
    * each input block the body sees at `t` is the tile `t` of its array (an element of a block sits in the array at
      block index * block size + its own coordinate);
    * what point `t` writes back is the body's block of those tiles, which is exactly block `t` of the one function
      `edge2` of the five arrays (row `424 t + p` of `edge2` is tile `t`'s block at row `p`);
    * the 63 row blocks cover the [26712, 2048] result (row `e` is in block `e / 424`).
  Hence the result array after the region is `edge2` of the five input arrays as the region finds them.
-/
import proofs.«105096_j6674379178666_1_alg».proof.Proof.Gen.KernelIdeal.Frame
import proofs.«105096_j6674379178666_1_alg».proof.Proof.KerRegionsEdge2
import Idealize.ShloMosaic.Lib.Pipeline.Value
import Idealize.ShloMosaic.Lib.ValueIdx

noncomputable section

namespace Cert.KernelIdeal.KerRegions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the row-blocked windows 0, 1, 2, 5 are at block (t, 0) at point `t`,
    the whole windows 3, 4 at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Input window 0's block at point `t` is rows `424 t … 424 t + 423` of its array. -/
theorem blk2_0 (c : Dev nD) (t : Fin cfg2.N) (hN : t.val < 63) :
    (iblk2 V c 0 t : Vec Ideal S424x3 .f32) = tileRows2 (n := 3) (V c (Pipeline.arrRef spec2 0)) ⟨t.val, hN⟩ := by
  obtain ⟨e00, e01, e10, e11, e20, e21, e30, e31, e40, e41, e50, e51⟩ := idx_facts2 t
  funext y
  have hy0 : (y 0).val < 424 := (y 0).isLt
  show V c (Pipeline.arrRef spec2 0) (((cfg2.win 0).blk t).view.emb y)
    = V c (Pipeline.arrRef spec2 0) (ix2 (n0 := 26712) (n1 := 3) ⟨424 * t.val + (y 0).val, by omega⟩ (y 1))
  refine congrArg _ (funext fun a => Fin.ext ?_)
  match a with
  | ⟨0, _⟩ => show win2_0.index t (0 : Fin 2) * 424 + 1 * (y 0).val = 424 * t.val + (y 0).val; omega
  | ⟨1, _⟩ => show win2_0.index t (1 : Fin 2) * 3 + 1 * (y 1).val = (y 1).val; omega

/-- Input window 1's block at point `t` is rows `424 t … 424 t + 423` of its array. -/
theorem blk2_1 (c : Dev nD) (t : Fin cfg2.N) (hN : t.val < 63) :
    (iblk2 V c 1 t : Vec Ideal S424x3 .f32) = tileRows2 (n := 3) (V c (Pipeline.arrRef spec2 1)) ⟨t.val, hN⟩ := by
  obtain ⟨e00, e01, e10, e11, e20, e21, e30, e31, e40, e41, e50, e51⟩ := idx_facts2 t
  funext y
  have hy0 : (y 0).val < 424 := (y 0).isLt
  show V c (Pipeline.arrRef spec2 1) (((cfg2.win 1).blk t).view.emb y)
    = V c (Pipeline.arrRef spec2 1) (ix2 (n0 := 26712) (n1 := 3) ⟨424 * t.val + (y 0).val, by omega⟩ (y 1))
  refine congrArg _ (funext fun a => Fin.ext ?_)
  match a with
  | ⟨0, _⟩ => show win2_1.index t (0 : Fin 2) * 424 + 1 * (y 0).val = 424 * t.val + (y 0).val; omega
  | ⟨1, _⟩ => show win2_1.index t (1 : Fin 2) * 3 + 1 * (y 1).val = (y 1).val; omega

/-- Input window 2's block at point `t` is rows `424 t … 424 t + 423` of its array. -/
theorem blk2_2 (c : Dev nD) (t : Fin cfg2.N) (hN : t.val < 63) :
    (iblk2 V c 2 t : Vec Ideal S424x128 .f32) = tileRows2 (n := 128) (V c (Pipeline.arrRef spec2 2)) ⟨t.val, hN⟩ := by
  obtain ⟨e00, e01, e10, e11, e20, e21, e30, e31, e40, e41, e50, e51⟩ := idx_facts2 t
  funext y
  have hy0 : (y 0).val < 424 := (y 0).isLt
  show V c (Pipeline.arrRef spec2 2) (((cfg2.win 2).blk t).view.emb y)
    = V c (Pipeline.arrRef spec2 2) (ix2 (n0 := 26712) (n1 := 128) ⟨424 * t.val + (y 0).val, by omega⟩ (y 1))
  refine congrArg _ (funext fun a => Fin.ext ?_)
  match a with
  | ⟨0, _⟩ => show win2_2.index t (0 : Fin 2) * 424 + 1 * (y 0).val = 424 * t.val + (y 0).val; omega
  | ⟨1, _⟩ => show win2_2.index t (1 : Fin 2) * 128 + 1 * (y 1).val = (y 1).val; omega

/-- Input window 3's block is its whole array, at every point. -/
theorem blk2_3 (c : Dev nD) (t : Fin cfg2.N) :
    (iblk2 V c 3 t : Vec Ideal S3x16 .f32) = V c (Pipeline.arrRef spec2 3) := by
  obtain ⟨e00, e01, e10, e11, e20, e21, e30, e31, e40, e41, e50, e51⟩ := idx_facts2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 3 + 1 * (y 0).val = (y 0).val; omega
  | ⟨1, _⟩ => show win2_3.index t (1 : Fin 2) * 16 + 1 * (y 1).val = (y 1).val; omega

/-- Input window 4's block is its whole array, at every point. -/
theorem blk2_4 (c : Dev nD) (t : Fin cfg2.N) :
    (iblk2 V c 4 t : Vec Ideal S1x16 .f32) = V c (Pipeline.arrRef spec2 4) := by
  obtain ⟨e00, e01, e10, e11, e20, e21, e30, e31, e40, e41, e50, e51⟩ := idx_facts2 t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 16 + 1 * (y 1).val = (y 1).val; omega

/-- The body's block depends only on the five blocks it is given. -/
theorem out2_5_congr {a0 b0 a1 b1 : Vec Ideal S424x3 .f32} {a2 b2 : Vec Ideal S424x128 .f32} {a3 b3 : Vec Ideal S3x16 .f32} {a4 b4 : Vec Ideal S1x16 .f32}
    (h0 : a0 = b0) (h1 : a1 = b1) (h2 : a2 = b2) (h3 : a3 = b3) (h4 : a4 = b4) :
    out2_5 (F := Ideal) a0 a1 a2 a3 a4 = out2_5 (F := Ideal) b0 b1 b2 b3 b4 := by
  subst h0 h1 h2 h3 h4; rfl

/-- A block held in the output window's staging buffer, as the write-back at point `t` reads it: at the block index `y`
    it is the block at `y`'s coordinates. -/
theorem cut2 (X : Vec Ideal S424x2048 .f32) (t : Fin cfg2.N) (y : ((cfg2.win 5).xblock (grid2.coords t)).Idx)
    (p : Fin 424) (q : Fin 2048) (hp : (y 0).val = p.val) (hq : (y 1).val = q.val) :
    (cfg2.win 5).cut (grid2.coords t) X y = X (ix2 p q) := by
  show X ((cfg2.win 5).xinj (grid2.coords t) y) = X (ix2 p q)
  refine congrArg X (funext fun a => ?_)
  match a with
  | ⟨0, _⟩ => exact Fin.ext hp
  | ⟨1, _⟩ => exact Fin.ext hq

/-- An array of the result's shape read through the output window's block at point `t`: at the block index `y` it is the
    array at row `424 t + y 0`, column `y 1`. -/
theorem read_blk2 (G : Vec Ideal S26712x2048 .f32) (t : Fin cfg2.N) (tt : Fin 63) (htt : t.val = tt.val)
    (y : ((cfg2.win 5).xblock (grid2.coords t)).Idx) (p : Fin 424) (q : Fin 2048) (hp : (y 0).val = p.val) (hq : (y 1).val = q.val) :
    ((cfg2.win 5).blk t).view.read (Elt Ideal) G y
      = G (ix2 (n0 := 26712) (n1 := 2048) ⟨424 * tt.val + p.val, by have := tt.isLt; have := p.isLt; omega⟩ q) := by
  obtain ⟨e00, e01, e10, e11, e20, e21, e30, e31, e40, e41, e50, e51⟩ := idx_facts2 t
  show G (((cfg2.win 5).blk t).view.emb y) = G _
  refine congrArg G (funext fun a => Fin.ext ?_)
  match a with
  | ⟨0, _⟩ => show win2_5.index t (0 : Fin 2) * 424 + 1 * (y 0).val = 424 * tt.val + p.val; omega
  | ⟨1, _⟩ => show win2_5.index t (1 : Fin 2) * 2048 + 1 * (y 1).val = q.val; omega

/-- WHAT POINT `t` WRITES BACK is block `t` of `edge2` of the five input arrays. -/
theorem flushed2 (c : Dev nD) (t : Fin cfg2.N) :
    (dat2 V c).flushed 5 t = ((cfg2.win 5).blk t).view.read (Elt Ideal)
      (edge2 (V c (Pipeline.arrRef spec2 0)) (V c (Pipeline.arrRef spec2 1)) (V c (Pipeline.arrRef spec2 2))
        (V c (Pipeline.arrRef spec2 3)) (V c (Pipeline.arrRef spec2 4))) := by
  have hN : t.val < 63 := Nat.lt_of_lt_of_eq t.isLt N_2
  show (cfg2.win 5).cut (grid2.coords t) ((dat2 V c).after 5 t) = _
  rw [after2_5, out2_5_congr (blk2_0 V c t hN) (blk2_1 V c t hN) (blk2_2 V c t hN) (blk2_3 V c t) (blk2_4 V c t)]
  funext y
  have hy0 : (y 0).val < 424 := (y 0).isLt
  have hy1 : (y 1).val < 2048 := (y 1).isLt
  refine (cut2 _ t y ⟨(y 0).val, hy0⟩ ⟨(y 1).val, hy1⟩ rfl rfl).trans ?_
  refine Eq.trans ?_ (read_blk2 _ t ⟨t.val, hN⟩ rfl y ⟨(y 0).val, hy0⟩ ⟨(y 1).val, hy1⟩ rfl rfl).symm
  exact (edge2_apply _ _ _ _ _ ⟨t.val, hN⟩ ⟨(y 0).val, hy0⟩ ⟨(y 1).val, hy1⟩).symm

/-- The 63 row blocks cover the result array: row `e` lies in block `e / 424`. -/
theorem cover2 (i : S26712x2048.Idx) :
    ∃ t : Fin cfg2.N, (cfg2.win 5).flush t = true ∧ i ∈ ((cfg2.win 5).blk t).view.set := by
  have h0 : (i 0).val < 26712 := (i 0).isLt
  have h1 : (i 1).val < 2048 := (i 1).isLt
  have hlt : (i 0).val / 424 < cfg2.N := by rw [show cfg2.N = 63 from N_2]; omega
  obtain ⟨e00, e01, e10, e11, e20, e21, e30, e31, e40, e41, e50, e51⟩ := idx_facts2 ⟨(i 0).val / 424, hlt⟩
  have e50' : win2_5.index ⟨(i 0).val / 424, hlt⟩ (0 : Fin 2) = (i 0).val / 424 := e50
  refine ⟨⟨(i 0).val / 424, hlt⟩, flush2_5 _, ?_⟩
  show i ∈ ((View.whole (Pipeline.arrRef spec2 5)).slice (win2_5.rect ⟨(i 0).val / 424, hlt⟩)).set
  rw [View.set_slice_whole, Rect.mem_set_unit]
  intro a
  match a with
  | ⟨0, _⟩ =>
    show win2_5.index ⟨(i 0).val / 424, hlt⟩ (0 : Fin 2) * 424 ≤ (i 0).val
      ∧ (i 0).val < win2_5.index ⟨(i 0).val / 424, hlt⟩ (0 : Fin 2) * 424 + 424
    omega
  | ⟨1, _⟩ =>
    show win2_5.index ⟨(i 0).val / 424, hlt⟩ (1 : Fin 2) * 2048 ≤ (i 1).val
      ∧ (i 1).val < win2_5.index ⟨(i 0).val / 424, hlt⟩ (1 : Fin 2) * 2048 + 2048
    omega

/-- THE RESULT ARRAY after the region: `edge2` of the five input arrays as the region finds them. -/
theorem arr_2 (c : Dev nD) :
    (dat2 V c).arrAt 5 cfg2.N
      = edge2 (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => flushed2 V c t) (cover2)

end Cert.KernelIdeal.KerRegions

end
-- ==== Proof.KerRegions3.lean ====
/-
  THE RESULT ARRAY OF THE SECOND LEVEL'S DENSE LAYER (region 3: a [1000, 2048] input against a [2048, 256] weight).

  The dense kernel of this region runs at a single grid point, and each of its six windows is its whole array: the
  block sizes are the array sizes and every index map is constantly (0, 0).  Hence
    * the block of an input window at the grid point is the input array itself (an element of the block sits in the
      array at  0 * size + its own coordinate);
    * what the point writes back, read through the output window's block, is the body's result itself;
    * that one block covers the whole result array.
  So the result array after the region is the body's payload (matmul, bias, batch statistics, activation: the
  payload `k3_pay1` of the imported frame) applied to the five input arrays as the region finds them.
-/
import proofs.«105096_j6674379178666_1_alg».proof.Proof.Gen.KernelIdeal.Frame
import proofs.«105096_j6674379178666_1_alg».proof.Proof.KerRegionsBase
import Idealize.ShloMosaic.Lib.Pipeline.Value

noncomputable section

namespace Cert.KernelIdeal.KerRegions

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Every window's block index is (0, 0) at every grid point (decided over the grid). -/
theorem idx_zero3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Input window 0's block is its whole array. -/
theorem in3_0 (c : Dev nD) (t : Fin cfg3.N) :
    (iblk3 V c 0 t : Vec Ideal S1000x2048 .f32) = V c (Pipeline.arrRef spec3 0) := by
  obtain ⟨e00, e01, e10, e11, e20, e21, e30, e31, e40, e41, e50, e51⟩ := idx_zero3 t
  funext y
  show V c (Pipeline.arrRef spec3 0) (((cfg3.win 0).blk t).view.emb y) = V c (Pipeline.arrRef spec3 0) y
  refine congrArg _ (funext fun a => Fin.ext ?_)
  match a with
  | ⟨0, _⟩ => show win3_0.index t (0 : Fin 2) * 1000 + 1 * (y 0).val = (y 0).val; omega
  | ⟨1, _⟩ => show win3_0.index t (1 : Fin 2) * 2048 + 1 * (y 1).val = (y 1).val; omega

/-- Input window 1's block is its whole array. -/
theorem in3_1 (c : Dev nD) (t : Fin cfg3.N) :
    (iblk3 V c 1 t : Vec Ideal S2048x256 .f32) = V c (Pipeline.arrRef spec3 1) := by
  obtain ⟨e00, e01, e10, e11, e20, e21, e30, e31, e40, e41, e50, e51⟩ := idx_zero3 t
  funext y
  show V c (Pipeline.arrRef spec3 1) (((cfg3.win 1).blk t).view.emb y) = V c (Pipeline.arrRef spec3 1) y
  refine congrArg _ (funext fun a => Fin.ext ?_)
  match a with
  | ⟨0, _⟩ => show win3_1.index t (0 : Fin 2) * 2048 + 1 * (y 0).val = (y 0).val; omega
  | ⟨1, _⟩ => show win3_1.index t (1 : Fin 2) * 256 + 1 * (y 1).val = (y 1).val; omega

/-- Input window 2's block is its whole array. -/
theorem in3_2 (c : Dev nD) (t : Fin cfg3.N) :
    (iblk3 V c 2 t : Vec Ideal S1x256 .f32) = V c (Pipeline.arrRef spec3 2) := by
  obtain ⟨e00, e01, e10, e11, e20, e21, e30, e31, e40, e41, e50, e51⟩ := idx_zero3 t
  funext y
  show V c (Pipeline.arrRef spec3 2) (((cfg3.win 2).blk t).view.emb y) = V c (Pipeline.arrRef spec3 2) y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 256 + 1 * (y 1).val = (y 1).val; omega

/-- Input window 3's block is its whole array. -/
theorem in3_3 (c : Dev nD) (t : Fin cfg3.N) :
    (iblk3 V c 3 t : Vec Ideal S1x256 .f32) = V c (Pipeline.arrRef spec3 3) := by
  obtain ⟨e00, e01, e10, e11, e20, e21, e30, e31, e40, e41, e50, e51⟩ := idx_zero3 t
  funext y
  show V c (Pipeline.arrRef spec3 3) (((cfg3.win 3).blk t).view.emb y) = V c (Pipeline.arrRef spec3 3) y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 256 + 1 * (y 1).val = (y 1).val; omega

/-- Input window 4's block is its whole array. -/
theorem in3_4 (c : Dev nD) (t : Fin cfg3.N) :
    (iblk3 V c 4 t : Vec Ideal S1x256 .f32) = V c (Pipeline.arrRef spec3 4) := by
  obtain ⟨e00, e01, e10, e11, e20, e21, e30, e31, e40, e41, e50, e51⟩ := idx_zero3 t
  funext y
  show V c (Pipeline.arrRef spec3 4) (((cfg3.win 4).blk t).view.emb y) = V c (Pipeline.arrRef spec3 4) y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 256 + 1 * (y 1).val = (y 1).val; omega

/-- The body's result at the grid point is its payload of the five loaded blocks. -/
theorem out3_5_eq (x0 : Vec Ideal S1000x2048 .f32) (x1 : Vec Ideal S2048x256 .f32) (x2 x3 x4 : Vec Ideal S1x256 .f32) :
    out3_5 (F := Ideal) x0 x1 x2 x3 x4 = k3_pay1 (F := Ideal) x0 x1 x2 x3 x4 := by
  unfold out3_5
  rw [View.canon_unit_zero zero2]
  simp only [View.ld_unit_zero (S := S1000x2048) zero2, View.ld_unit_zero (S := S2048x256) zero2, View.ld_unit_zero (S := S1x256) zero2]

/-- A result held in the output window's staging buffer, written back, is that result read through the window's
    (whole-array) block. -/
theorem wb3 (t : Fin cfg3.N) (X : Vec Ideal S1000x256 .f32) :
    (cfg3.win 5).cut (grid3.coords t) X = ((cfg3.win 5).blk t).view.read (Elt Ideal) X := by
  obtain ⟨e00, e01, e10, e11, e20, e21, e30, e31, e40, e41, e50, e51⟩ := idx_zero3 t
  funext y
  show X ((cfg3.win 5).xinj (grid3.coords t) y) = X (((cfg3.win 5).blk t).view.emb y)
  refine congrArg X (funext fun a => Fin.ext ?_)
  match a with
  | ⟨0, _⟩ => show (y 0).val = win3_5.index t (0 : Fin 2) * 1000 + 1 * (y 0).val; omega
  | ⟨1, _⟩ => show (y 1).val = win3_5.index t (1 : Fin 2) * 256 + 1 * (y 1).val; omega

/-- What the grid point writes back is the payload of the five input ARRAYS, read through the output's block. -/
theorem flushed3 (c : Dev nD) (t : Fin cfg3.N) :
    (dat3 V c).flushed 5 t = ((cfg3.win 5).blk t).view.read (Elt Ideal)
      (k3_pay1 (F := Ideal) (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5, out3_5_eq, in3_0 V c t, in3_1 V c t, in3_2 V c t, in3_3 V c t, in3_4 V c t]
  exact wb3 t _

/-- The one block covers the result array. -/
theorem cover3 (i : S1000x256.Idx) :
    ∃ t : Fin cfg3.N, (cfg3.win 5).flush t = true ∧ i ∈ ((cfg3.win 5).blk t).view.set := by
  refine ⟨t3_0, flush3_5 t3_0, ?_⟩
  obtain ⟨e00, e01, e10, e11, e20, e21, e30, e31, e40, e41, e50, e51⟩ := idx_zero3 t3_0
  show i ∈ ((View.whole (Pipeline.arrRef spec3 5)).slice (win3_5.rect t3_0)).set
  rw [View.set_slice_whole, Rect.mem_set_unit]
  intro a
  have h0 : (i 0).val < 1000 := (i 0).isLt
  have h1 : (i 1).val < 256 := (i 1).isLt
  match a with
  | ⟨0, _⟩ => show win3_5.index t3_0 (0 : Fin 2) * 1000 ≤ (i 0).val ∧ (i 0).val < win3_5.index t3_0 (0 : Fin 2) * 1000 + 1000; omega
  | ⟨1, _⟩ => show win3_5.index t3_0 (1 : Fin 2) * 256 ≤ (i 1).val ∧ (i 1).val < win3_5.index t3_0 (1 : Fin 2) * 256 + 256; omega

/-- THE RESULT ARRAY after the region: the body's payload of the five input arrays as the region finds them. -/
theorem arr_3 (c : Dev nD) :
    (dat3 V c).arrAt 5 cfg3.N
      = k3_pay1 (F := Ideal) (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed3 V c t) (cover3)

end Cert.KernelIdeal.KerRegions

end
-- ==== Proof.KerRegions4.lean ====
/-
  THE THIRD MONTE-CARLO CONVOLUTION'S EDGE ARRAY AFTER ITS REGION (region 4: 5 tiles of 224 edges).

  The pipeline's grid has 5 points; at point `t` the three per-edge input windows and the output window are at block
  (t, 0) — rows `224 t … 224 t + 223` of their arrays — and the weight and bias windows are their whole arrays (the index
  maps, decided once over the grid).  So
    * each input block the body sees at `t` is the tile `t` of its array (an element of a block sits in the array at
      block index * block size + its own coordinate);
    * what point `t` writes back is the body's block of those tiles, which is exactly block `t` of the one function
      `edge4` of the five arrays (row `224 t + p` of `edge4` is tile `t`'s block at row `p`);
    * the 5 row blocks cover the [1120, 4096] result (row `e` is in block `e / 224`).
  Hence the result array after the region is `edge4` of the five input arrays as the region finds them.
-/
import proofs.«105096_j6674379178666_1_alg».proof.Proof.Gen.KernelIdeal.Frame
import proofs.«105096_j6674379178666_1_alg».proof.Proof.KerRegionsEdge4
import Idealize.ShloMosaic.Lib.Pipeline.Value
import Idealize.ShloMosaic.Lib.ValueIdx

noncomputable section

namespace Cert.KernelIdeal.KerRegions

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The printed index maps, decided over the grid: the row-blocked windows 0, 1, 2, 5 are at block (t, 0) at point `t`,
    the whole windows 3, 4 at block (0, 0). -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Input window 0's block at point `t` is rows `224 t … 224 t + 223` of its array. -/
theorem blk4_0 (c : Dev nD) (t : Fin cfg4.N) (hN : t.val < 5) :
    (iblk4 V c 0 t : Vec Ideal S224x3 .f32) = tileRows4 (n := 3) (V c (Pipeline.arrRef spec4 0)) ⟨t.val, hN⟩ := by
  obtain ⟨e00, e01, e10, e11, e20, e21, e30, e31, e40, e41, e50, e51⟩ := idx_facts4 t
  funext y
  have hy0 : (y 0).val < 224 := (y 0).isLt
  show V c (Pipeline.arrRef spec4 0) (((cfg4.win 0).blk t).view.emb y)
    = V c (Pipeline.arrRef spec4 0) (ix2 (n0 := 1120) (n1 := 3) ⟨224 * t.val + (y 0).val, by omega⟩ (y 1))
  refine congrArg _ (funext fun a => Fin.ext ?_)
  match a with
  | ⟨0, _⟩ => show win4_0.index t (0 : Fin 2) * 224 + 1 * (y 0).val = 224 * t.val + (y 0).val; omega
  | ⟨1, _⟩ => show win4_0.index t (1 : Fin 2) * 3 + 1 * (y 1).val = (y 1).val; omega

/-- Input window 1's block at point `t` is rows `224 t … 224 t + 223` of its array. -/
theorem blk4_1 (c : Dev nD) (t : Fin cfg4.N) (hN : t.val < 5) :
    (iblk4 V c 1 t : Vec Ideal S224x3 .f32) = tileRows4 (n := 3) (V c (Pipeline.arrRef spec4 1)) ⟨t.val, hN⟩ := by
  obtain ⟨e00, e01, e10, e11, e20, e21, e30, e31, e40, e41, e50, e51⟩ := idx_facts4 t
  funext y
  have hy0 : (y 0).val < 224 := (y 0).isLt
  show V c (Pipeline.arrRef spec4 1) (((cfg4.win 1).blk t).view.emb y)
    = V c (Pipeline.arrRef spec4 1) (ix2 (n0 := 1120) (n1 := 3) ⟨224 * t.val + (y 0).val, by omega⟩ (y 1))
  refine congrArg _ (funext fun a => Fin.ext ?_)
  match a with
  | ⟨0, _⟩ => show win4_1.index t (0 : Fin 2) * 224 + 1 * (y 0).val = 224 * t.val + (y 0).val; omega
  | ⟨1, _⟩ => show win4_1.index t (1 : Fin 2) * 3 + 1 * (y 1).val = (y 1).val; omega

/-- Input window 2's block at point `t` is rows `224 t … 224 t + 223` of its array. -/
theorem blk4_2 (c : Dev nD) (t : Fin cfg4.N) (hN : t.val < 5) :
    (iblk4 V c 2 t : Vec Ideal S224x256 .f32) = tileRows4 (n := 256) (V c (Pipeline.arrRef spec4 2)) ⟨t.val, hN⟩ := by
  obtain ⟨e00, e01, e10, e11, e20, e21, e30, e31, e40, e41, e50, e51⟩ := idx_facts4 t
  funext y
  have hy0 : (y 0).val < 224 := (y 0).isLt
  show V c (Pipeline.arrRef spec4 2) (((cfg4.win 2).blk t).view.emb y)
    = V c (Pipeline.arrRef spec4 2) (ix2 (n0 := 1120) (n1 := 256) ⟨224 * t.val + (y 0).val, by omega⟩ (y 1))
  refine congrArg _ (funext fun a => Fin.ext ?_)
  match a with
  | ⟨0, _⟩ => show win4_2.index t (0 : Fin 2) * 224 + 1 * (y 0).val = 224 * t.val + (y 0).val; omega
  | ⟨1, _⟩ => show win4_2.index t (1 : Fin 2) * 256 + 1 * (y 1).val = (y 1).val; omega

/-- Input window 3's block is its whole array, at every point. -/
theorem blk4_3 (c : Dev nD) (t : Fin cfg4.N) :
    (iblk4 V c 3 t : Vec Ideal S3x16 .f32) = V c (Pipeline.arrRef spec4 3) := by
  obtain ⟨e00, e01, e10, e11, e20, e21, e30, e31, e40, e41, e50, e51⟩ := idx_facts4 t
  funext y
  show V c (Pipeline.arrRef spec4 3) (((cfg4.win 3).blk t).view.emb y) = V c (Pipeline.arrRef spec4 3) y
  refine congrArg _ (funext fun a => Fin.ext ?_)
  match a with
  | ⟨0, _⟩ => show win4_3.index t (0 : Fin 2) * 3 + 1 * (y 0).val = (y 0).val; omega
  | ⟨1, _⟩ => show win4_3.index t (1 : Fin 2) * 16 + 1 * (y 1).val = (y 1).val; omega

/-- Input window 4's block is its whole array, at every point. -/
theorem blk4_4 (c : Dev nD) (t : Fin cfg4.N) :
    (iblk4 V c 4 t : Vec Ideal S1x16 .f32) = V c (Pipeline.arrRef spec4 4) := by
  obtain ⟨e00, e01, e10, e11, e20, e21, e30, e31, e40, e41, e50, e51⟩ := idx_facts4 t
  funext y
  show V c (Pipeline.arrRef spec4 4) (((cfg4.win 4).blk t).view.emb y) = V c (Pipeline.arrRef spec4 4) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 16 + 1 * (y 1).val = (y 1).val; omega

/-- A block held in the output window's staging buffer, as the write-back at point `t` reads it: at the block index `y`
    it is the block at `y`'s coordinates. -/
theorem cut4 (X : Vec Ideal S224x4096 .f32) (t : Fin cfg4.N) (y : ((cfg4.win 5).xblock (grid4.coords t)).Idx)
    (p : Fin 224) (q : Fin 4096) (hp : (y 0).val = p.val) (hq : (y 1).val = q.val) :
    (cfg4.win 5).cut (grid4.coords t) X y = X (ix2 p q) := by
  show X ((cfg4.win 5).xinj (grid4.coords t) y) = X (ix2 p q)
  refine congrArg X (funext fun a => ?_)
  match a with
  | ⟨0, _⟩ => exact Fin.ext hp
  | ⟨1, _⟩ => exact Fin.ext hq

/-- An array of the result's shape read through the output window's block at point `t`: at the block index `y` it is the
    array at row `224 t + y 0`, column `y 1`. -/
theorem read_blk4 (G : Vec Ideal S1120x4096 .f32) (t : Fin cfg4.N) (tt : Fin 5) (htt : t.val = tt.val)
    (y : ((cfg4.win 5).xblock (grid4.coords t)).Idx) (p : Fin 224) (q : Fin 4096) (hp : (y 0).val = p.val) (hq : (y 1).val = q.val) :
    ((cfg4.win 5).blk t).view.read (Elt Ideal) G y
      = G (ix2 (n0 := 1120) (n1 := 4096) ⟨224 * tt.val + p.val, by have := tt.isLt; have := p.isLt; omega⟩ q) := by
  obtain ⟨e00, e01, e10, e11, e20, e21, e30, e31, e40, e41, e50, e51⟩ := idx_facts4 t
  show G (((cfg4.win 5).blk t).view.emb y) = G _
  refine congrArg G (funext fun a => Fin.ext ?_)
  match a with
  | ⟨0, _⟩ => show win4_5.index t (0 : Fin 2) * 224 + 1 * (y 0).val = 224 * tt.val + p.val; omega
  | ⟨1, _⟩ => show win4_5.index t (1 : Fin 2) * 4096 + 1 * (y 1).val = q.val; omega

/-- WHAT POINT `t` WRITES BACK is block `t` of `edge4` of the five input arrays. -/
theorem flushed4 (c : Dev nD) (t : Fin cfg4.N) :
    (dat4 V c).flushed 5 t = ((cfg4.win 5).blk t).view.read (Elt Ideal)
      (edge4 (V c (Pipeline.arrRef spec4 0)) (V c (Pipeline.arrRef spec4 1)) (V c (Pipeline.arrRef spec4 2))
        (V c (Pipeline.arrRef spec4 3)) (V c (Pipeline.arrRef spec4 4))) := by
  have hN : t.val < 5 := Nat.lt_of_lt_of_eq t.isLt N_4
  show (cfg4.win 5).cut (grid4.coords t) ((dat4 V c).after 5 t) = _
  rw [after4_5, blk4_0 V c t hN, blk4_1 V c t hN, blk4_2 V c t hN, blk4_3 V c t, blk4_4 V c t]
  funext y
  have hy0 : (y 0).val < 224 := (y 0).isLt
  have hy1 : (y 1).val < 4096 := (y 1).isLt
  refine (cut4 _ t y ⟨(y 0).val, hy0⟩ ⟨(y 1).val, hy1⟩ rfl rfl).trans ?_
  refine Eq.trans ?_ (read_blk4 _ t ⟨t.val, hN⟩ rfl y ⟨(y 0).val, hy0⟩ ⟨(y 1).val, hy1⟩ rfl rfl).symm
  exact (edge4_apply _ _ _ _ _ ⟨t.val, hN⟩ ⟨(y 0).val, hy0⟩ ⟨(y 1).val, hy1⟩).symm

/-- The 5 row blocks cover the result array: row `e` lies in block `e / 224`. -/
theorem cover4 (i : S1120x4096.Idx) :
    ∃ t : Fin cfg4.N, (cfg4.win 5).flush t = true ∧ i ∈ ((cfg4.win 5).blk t).view.set := by
  have h0 : (i 0).val < 1120 := (i 0).isLt
  have h1 : (i 1).val < 4096 := (i 1).isLt
  have hlt : (i 0).val / 224 < cfg4.N := by rw [show cfg4.N = 5 from N_4]; omega
  obtain ⟨e00, e01, e10, e11, e20, e21, e30, e31, e40, e41, e50, e51⟩ := idx_facts4 ⟨(i 0).val / 224, hlt⟩
  have e50' : win4_5.index ⟨(i 0).val / 224, hlt⟩ (0 : Fin 2) = (i 0).val / 224 := e50
  refine ⟨⟨(i 0).val / 224, hlt⟩, flush4_5 _, ?_⟩
  show i ∈ ((View.whole (Pipeline.arrRef spec4 5)).slice (win4_5.rect ⟨(i 0).val / 224, hlt⟩)).set
  rw [View.set_slice_whole, Rect.mem_set_unit]
  intro a
  match a with
  | ⟨0, _⟩ =>
    show win4_5.index ⟨(i 0).val / 224, hlt⟩ (0 : Fin 2) * 224 ≤ (i 0).val
      ∧ (i 0).val < win4_5.index ⟨(i 0).val / 224, hlt⟩ (0 : Fin 2) * 224 + 224
    omega
  | ⟨1, _⟩ =>
    show win4_5.index ⟨(i 0).val / 224, hlt⟩ (1 : Fin 2) * 4096 ≤ (i 1).val
      ∧ (i 1).val < win4_5.index ⟨(i 0).val / 224, hlt⟩ (1 : Fin 2) * 4096 + 4096
    omega

/-- THE RESULT ARRAY after the region: `edge4` of the five input arrays as the region finds them. -/
theorem arr_4 (c : Dev nD) :
    (dat4 V c).arrAt 5 cfg4.N
      = edge4 (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 _ (fun t _ => flushed4 V c t) (cover4)

end Cert.KernelIdeal.KerRegions

end
-- ==== Proof.KerRegions5.lean ====
/-
  THE RESULT ARRAY OF THE SECOND DENSE LAYER OF THE HEAD (region 5: an [8, 4096] input against a [4096, 512] weight).

  The dense kernel of this region runs at a single grid point, and each of its six windows is its whole array: the
  block sizes are the array sizes and every index map is constantly (0, 0).  Hence
    * the block of an input window at the grid point is the input array itself (an element of the block sits in the
      array at  0 * size + its own coordinate);
    * what the point writes back, read through the output window's block, is the body's result itself;
    * that one block covers the whole result array.
  So the result array after the region is the body's payload (matmul, bias, batch statistics, activation: the
  payload `k5_pay1` of the imported frame) applied to the five input arrays as the region finds them.
-/
import proofs.«105096_j6674379178666_1_alg».proof.Proof.Gen.KernelIdeal.Frame
import proofs.«105096_j6674379178666_1_alg».proof.Proof.KerRegionsBase
import Idealize.ShloMosaic.Lib.Pipeline.Value

noncomputable section

namespace Cert.KernelIdeal.KerRegions

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Every window's block index is (0, 0) at every grid point (decided over the grid). -/
theorem idx_zero5 : ∀ t : Fin cfg5.N,
    win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- Input window 0's block is its whole array. -/
theorem in5_0 (c : Dev nD) (t : Fin cfg5.N) :
    (iblk5 V c 0 t : Vec Ideal S8x4096 .f32) = V c (Pipeline.arrRef spec5 0) := by
  obtain ⟨e00, e01, e10, e11, e20, e21, e30, e31, e40, e41, e50, e51⟩ := idx_zero5 t
  funext y
  show V c (Pipeline.arrRef spec5 0) (((cfg5.win 0).blk t).view.emb y) = V c (Pipeline.arrRef spec5 0) y
  refine congrArg _ (funext fun a => Fin.ext ?_)
  match a with
  | ⟨0, _⟩ => show win5_0.index t (0 : Fin 2) * 8 + 1 * (y 0).val = (y 0).val; omega
  | ⟨1, _⟩ => show win5_0.index t (1 : Fin 2) * 4096 + 1 * (y 1).val = (y 1).val; omega

/-- Input window 1's block is its whole array. -/
theorem in5_1 (c : Dev nD) (t : Fin cfg5.N) :
    (iblk5 V c 1 t : Vec Ideal S4096x512 .f32) = V c (Pipeline.arrRef spec5 1) := by
  obtain ⟨e00, e01, e10, e11, e20, e21, e30, e31, e40, e41, e50, e51⟩ := idx_zero5 t
  funext y
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 4096 + 1 * (y 0).val = (y 0).val; omega
  | ⟨1, _⟩ => show win5_1.index t (1 : Fin 2) * 512 + 1 * (y 1).val = (y 1).val; omega

/-- Input window 2's block is its whole array. -/
theorem in5_2 (c : Dev nD) (t : Fin cfg5.N) :
    (iblk5 V c 2 t : Vec Ideal S1x512 .f32) = V c (Pipeline.arrRef spec5 2) := by
  obtain ⟨e00, e01, e10, e11, e20, e21, e30, e31, e40, e41, e50, e51⟩ := idx_zero5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 512 + 1 * (y 1).val = (y 1).val; omega

/-- Input window 3's block is its whole array. -/
theorem in5_3 (c : Dev nD) (t : Fin cfg5.N) :
    (iblk5 V c 3 t : Vec Ideal S1x512 .f32) = V c (Pipeline.arrRef spec5 3) := by
  obtain ⟨e00, e01, e10, e11, e20, e21, e30, e31, e40, e41, e50, e51⟩ := idx_zero5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 512 + 1 * (y 1).val = (y 1).val; omega

/-- Input window 4's block is its whole array. -/
theorem in5_4 (c : Dev nD) (t : Fin cfg5.N) :
    (iblk5 V c 4 t : Vec Ideal S1x512 .f32) = V c (Pipeline.arrRef spec5 4) := by
  obtain ⟨e00, e01, e10, e11, e20, e21, e30, e31, e40, e41, e50, e51⟩ := idx_zero5 t
  funext y
  show V c (Pipeline.arrRef spec5 4) (((cfg5.win 4).blk t).view.emb y) = V c (Pipeline.arrRef spec5 4) y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 512 + 1 * (y 1).val = (y 1).val; omega

/-- The body's result at the grid point is its payload of the five loaded blocks. -/
theorem out5_5_eq (x0 : Vec Ideal S8x4096 .f32) (x1 : Vec Ideal S4096x512 .f32) (x2 x3 x4 : Vec Ideal S1x512 .f32) :
    out5_5 (F := Ideal) x0 x1 x2 x3 x4 = k5_pay1 (F := Ideal) x0 x1 x2 x3 x4 := by
  unfold out5_5
  rw [View.canon_unit_zero zero2]
  simp only [View.ld_unit_zero (S := S8x4096) zero2, View.ld_unit_zero (S := S4096x512) zero2, View.ld_unit_zero (S := S1x512) zero2]

/-- A result held in the output window's staging buffer, written back, is that result read through the window's
    (whole-array) block. -/
theorem wb5 (t : Fin cfg5.N) (X : Vec Ideal S8x512 .f32) :
    (cfg5.win 5).cut (grid5.coords t) X = ((cfg5.win 5).blk t).view.read (Elt Ideal) X := by
  obtain ⟨e00, e01, e10, e11, e20, e21, e30, e31, e40, e41, e50, e51⟩ := idx_zero5 t
  funext y
  show X ((cfg5.win 5).xinj (grid5.coords t) y) = X (((cfg5.win 5).blk t).view.emb y)
  refine congrArg X (funext fun a => Fin.ext ?_)
  match a with
  | ⟨0, _⟩ => show (y 0).val = win5_5.index t (0 : Fin 2) * 8 + 1 * (y 0).val; omega
  | ⟨1, _⟩ => show (y 1).val = win5_5.index t (1 : Fin 2) * 512 + 1 * (y 1).val; omega

/-- What the grid point writes back is the payload of the five input ARRAYS, read through the output's block. -/
theorem flushed5 (c : Dev nD) (t : Fin cfg5.N) :
    (dat5 V c).flushed 5 t = ((cfg5.win 5).blk t).view.read (Elt Ideal)
      (k5_pay1 (F := Ideal) (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5, out5_5_eq, in5_0 V c t, in5_1 V c t, in5_2 V c t, in5_3 V c t, in5_4 V c t]
  exact wb5 t _

/-- The one block covers the result array. -/
theorem cover5 (i : S8x512.Idx) :
    ∃ t : Fin cfg5.N, (cfg5.win 5).flush t = true ∧ i ∈ ((cfg5.win 5).blk t).view.set := by
  refine ⟨t5_0, flush5_5 t5_0, ?_⟩
  obtain ⟨e00, e01, e10, e11, e20, e21, e30, e31, e40, e41, e50, e51⟩ := idx_zero5 t5_0
  show i ∈ ((View.whole (Pipeline.arrRef spec5 5)).slice (win5_5.rect t5_0)).set
  rw [View.set_slice_whole, Rect.mem_set_unit]
  intro a
  have h0 : (i 0).val < 8 := (i 0).isLt
  have h1 : (i 1).val < 512 := (i 1).isLt
  match a with
  | ⟨0, _⟩ => show win5_5.index t5_0 (0 : Fin 2) * 8 ≤ (i 0).val ∧ (i 0).val < win5_5.index t5_0 (0 : Fin 2) * 8 + 8; omega
  | ⟨1, _⟩ => show win5_5.index t5_0 (1 : Fin 2) * 512 ≤ (i 1).val ∧ (i 1).val < win5_5.index t5_0 (1 : Fin 2) * 512 + 512; omega

/-- THE RESULT ARRAY after the region: the body's payload of the five input arrays as the region finds them. -/
theorem arr_5 (c : Dev nD) :
    (dat5 V c).arrAt 5 cfg5.N
      = k5_pay1 (F := Ideal) (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed5 V c t) (cover5)

end Cert.KernelIdeal.KerRegions

end
-- ==== Proof.KerRegions6.lean ====
/-
  THE RESULT ARRAY OF THE LAST DENSE LAYER (region 6: an [8, 512] input against a [512, 128] weight).

  The dense kernel of this region runs at a single grid point, and each of its six windows is its whole array: the
  block sizes are the array sizes and every index map is constantly (0, 0).  Hence
    * the block of an input window at the grid point is the input array itself (an element of the block sits in the
      array at  0 * size + its own coordinate);
    * what the point writes back, read through the output window's block, is the body's result itself;
    * that one block covers the whole result array.
  So the result array after the region is the body's payload (matmul, bias, batch statistics, activation: the
  payload `k6_pay1` of the imported frame) applied to the five input arrays as the region finds them.
-/
import proofs.«105096_j6674379178666_1_alg».proof.Proof.Gen.KernelIdeal.Frame
import proofs.«105096_j6674379178666_1_alg».proof.Proof.KerRegionsBase
import Idealize.ShloMosaic.Lib.Pipeline.Value

noncomputable section

namespace Cert.KernelIdeal.KerRegions

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- Every window's block index is (0, 0) at every grid point (decided over the grid). -/
theorem idx_zero6 : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Input window 0's block is its whole array. -/
theorem in6_0 (c : Dev nD) (t : Fin cfg6.N) :
    (iblk6 V c 0 t : Vec Ideal S8x512 .f32) = V c (Pipeline.arrRef spec6 0) := by
  obtain ⟨e00, e01, e10, e11, e20, e21, e30, e31, e40, e41, e50, e51⟩ := idx_zero6 t
  funext y
  show V c (Pipeline.arrRef spec6 0) (((cfg6.win 0).blk t).view.emb y) = V c (Pipeline.arrRef spec6 0) y
  refine congrArg _ (funext fun a => Fin.ext ?_)
  match a with
  | ⟨0, _⟩ => show win6_0.index t (0 : Fin 2) * 8 + 1 * (y 0).val = (y 0).val; omega
  | ⟨1, _⟩ => show win6_0.index t (1 : Fin 2) * 512 + 1 * (y 1).val = (y 1).val; omega

/-- Input window 1's block is its whole array. -/
theorem in6_1 (c : Dev nD) (t : Fin cfg6.N) :
    (iblk6 V c 1 t : Vec Ideal S512x128 .f32) = V c (Pipeline.arrRef spec6 1) := by
  obtain ⟨e00, e01, e10, e11, e20, e21, e30, e31, e40, e41, e50, e51⟩ := idx_zero6 t
  funext y
  show V c (Pipeline.arrRef spec6 1) (((cfg6.win 1).blk t).view.emb y) = V c (Pipeline.arrRef spec6 1) y
  refine congrArg _ (funext fun a => Fin.ext ?_)
  match a with
  | ⟨0, _⟩ => show win6_1.index t (0 : Fin 2) * 512 + 1 * (y 0).val = (y 0).val; omega
  | ⟨1, _⟩ => show win6_1.index t (1 : Fin 2) * 128 + 1 * (y 1).val = (y 1).val; omega

/-- Input window 2's block is its whole array. -/
theorem in6_2 (c : Dev nD) (t : Fin cfg6.N) :
    (iblk6 V c 2 t : Vec Ideal S1x128 .f32) = V c (Pipeline.arrRef spec6 2) := by
  obtain ⟨e00, e01, e10, e11, e20, e21, e30, e31, e40, e41, e50, e51⟩ := idx_zero6 t
  funext y
  show V c (Pipeline.arrRef spec6 2) (((cfg6.win 2).blk t).view.emb y) = V c (Pipeline.arrRef spec6 2) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Input window 3's block is its whole array. -/
theorem in6_3 (c : Dev nD) (t : Fin cfg6.N) :
    (iblk6 V c 3 t : Vec Ideal S1x128 .f32) = V c (Pipeline.arrRef spec6 3) := by
  obtain ⟨e00, e01, e10, e11, e20, e21, e30, e31, e40, e41, e50, e51⟩ := idx_zero6 t
  funext y
  show V c (Pipeline.arrRef spec6 3) (((cfg6.win 3).blk t).view.emb y) = V c (Pipeline.arrRef spec6 3) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Input window 4's block is its whole array. -/
theorem in6_4 (c : Dev nD) (t : Fin cfg6.N) :
    (iblk6 V c 4 t : Vec Ideal S1x128 .f32) = V c (Pipeline.arrRef spec6 4) := by
  obtain ⟨e00, e01, e10, e11, e20, e21, e30, e31, e40, e41, e50, e51⟩ := idx_zero6 t
  funext y
  show V c (Pipeline.arrRef spec6 4) (((cfg6.win 4).blk t).view.emb y) = V c (Pipeline.arrRef spec6 4) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- The body's result at the grid point is its payload of the five loaded blocks. -/
theorem out6_5_eq (x0 : Vec Ideal S8x512 .f32) (x1 : Vec Ideal S512x128 .f32) (x2 x3 x4 : Vec Ideal S1x128 .f32) :
    out6_5 (F := Ideal) x0 x1 x2 x3 x4 = k6_pay1 (F := Ideal) x0 x1 x2 x3 x4 := by
  unfold out6_5
  rw [View.canon_unit_zero zero2]
  simp only [View.ld_unit_zero (S := S8x512) zero2, View.ld_unit_zero (S := S512x128) zero2, View.ld_unit_zero (S := S1x128) zero2]

/-- A result held in the output window's staging buffer, written back, is that result read through the window's
    (whole-array) block. -/
theorem wb6 (t : Fin cfg6.N) (X : Vec Ideal S8x128 .f32) :
    (cfg6.win 5).cut (grid6.coords t) X = ((cfg6.win 5).blk t).view.read (Elt Ideal) X := by
  obtain ⟨e00, e01, e10, e11, e20, e21, e30, e31, e40, e41, e50, e51⟩ := idx_zero6 t
  funext y
  show X ((cfg6.win 5).xinj (grid6.coords t) y) = X (((cfg6.win 5).blk t).view.emb y)
  refine congrArg X (funext fun a => Fin.ext ?_)
  match a with
  | ⟨0, _⟩ => show (y 0).val = win6_5.index t (0 : Fin 2) * 8 + 1 * (y 0).val; omega
  | ⟨1, _⟩ => show (y 1).val = win6_5.index t (1 : Fin 2) * 128 + 1 * (y 1).val; omega

/-- What the grid point writes back is the payload of the five input ARRAYS, read through the output's block. -/
theorem flushed6 (c : Dev nD) (t : Fin cfg6.N) :
    (dat6 V c).flushed 5 t = ((cfg6.win 5).blk t).view.read (Elt Ideal)
      (k6_pay1 (F := Ideal) (V c (Pipeline.arrRef spec6 0)) (V c (Pipeline.arrRef spec6 1)) (V c (Pipeline.arrRef spec6 2))
        (V c (Pipeline.arrRef spec6 3)) (V c (Pipeline.arrRef spec6 4))) := by
  show (cfg6.win 5).cut (grid6.coords t) ((dat6 V c).after 5 t) = _
  rw [after6_5, out6_5_eq, in6_0 V c t, in6_1 V c t, in6_2 V c t, in6_3 V c t, in6_4 V c t]
  exact wb6 t _

/-- The one block covers the result array. -/
theorem cover6 (i : S8x128.Idx) :
    ∃ t : Fin cfg6.N, (cfg6.win 5).flush t = true ∧ i ∈ ((cfg6.win 5).blk t).view.set := by
  refine ⟨t6_0, flush6_5 t6_0, ?_⟩
  obtain ⟨e00, e01, e10, e11, e20, e21, e30, e31, e40, e41, e50, e51⟩ := idx_zero6 t6_0
  show i ∈ ((View.whole (Pipeline.arrRef spec6 5)).slice (win6_5.rect t6_0)).set
  rw [View.set_slice_whole, Rect.mem_set_unit]
  intro a
  have h0 : (i 0).val < 8 := (i 0).isLt
  have h1 : (i 1).val < 128 := (i 1).isLt
  match a with
  | ⟨0, _⟩ => show win6_5.index t6_0 (0 : Fin 2) * 8 ≤ (i 0).val ∧ (i 0).val < win6_5.index t6_0 (0 : Fin 2) * 8 + 8; omega
  | ⟨1, _⟩ => show win6_5.index t6_0 (1 : Fin 2) * 128 ≤ (i 1).val ∧ (i 1).val < win6_5.index t6_0 (1 : Fin 2) * 128 + 128; omega

/-- THE RESULT ARRAY after the region: the body's payload of the five input arrays as the region finds them. -/
theorem arr_6 (c : Dev nD) :
    (dat6 V c).arrAt 5 cfg6.N
      = k6_pay1 (F := Ideal) (V c (Pipeline.arrRef spec6 0)) (V c (Pipeline.arrRef spec6 1)) (V c (Pipeline.arrRef spec6 2))
          (V c (Pipeline.arrRef spec6 3)) (V c (Pipeline.arrRef spec6 4)) :=
  (dat6 V c).arrAt_eq_of_cover 5 _ (fun t _ => flushed6 V c t) (cover6)

end Cert.KernelIdeal.KerRegions

end
-- ==== Proof.KerRun.lean ====
/-
The idealized kernel program's run, read back as a value.

Every weakly fair execution of the program from a memory with zero counters terminates without a
fault, and at its end the result buffer holds the network's output as a closed expression in the
launch arguments: for each of the three levels, the edge kernel's rows of the gathered (and
lengthened) positions and features, averaged per destination point and passed through the level's
dense layer; then the head's dense layer.  The run itself and the contents of the result buffer at
the last boundary come from the run with its result named; the walk back through the boundaries is
the read-back module's, here with the regions' value lemmas supplied.
-/
import proofs.«105096_j6674379178666_1_alg».proof.Proof.KerRunW
import proofs.«105096_j6674379178666_1_alg».proof.Proof.KerRunBack
import proofs.«105096_j6674379178666_1_alg».proof.Proof.KerRegions0
import proofs.«105096_j6674379178666_1_alg».proof.Proof.KerRegions1
import proofs.«105096_j6674379178666_1_alg».proof.Proof.KerRegions2
import proofs.«105096_j6674379178666_1_alg».proof.Proof.KerRegions3
import proofs.«105096_j6674379178666_1_alg».proof.Proof.KerRegions4
import proofs.«105096_j6674379178666_1_alg».proof.Proof.KerRegions5
import proofs.«105096_j6674379178666_1_alg».proof.Proof.KerRegions6

set_option maxRecDepth 16384

noncomputable section

namespace Cert.KernelIdeal.KerRun

open Idealize.ShloMosaic Idealize.ShloMosaic.TcCoe
open Idealize.SL.Sem
open Cert.KernelIdeal.Gen
open Cert.Bridge

variable (m : (ℓ : Loc nD τ sig) → Buf (Elt Ideal) ℓ) (ρ : Dev nD → PrngReg)

/-! ## The levels' outputs, one level at a time (each is its definition) -/

/-- Level 0's output: the dense layer of the per-destination mean of the edge kernel's rows. -/
theorem X1_eq (c : Dev nD) : X1 m c KerRegions.edge0
    = k1_pay1 (F := Ideal) (KerSpec.agg0 (KerRegions.edge0 (KerSpec.ps0 (m ((c : Thread nD τ).loc main_arg1)) (m ((c : Thread nD τ).loc main_arg5))) (KerSpec.pd0 (m ((c : Thread nD τ).loc main_arg2)) (m ((c : Thread nD τ).loc main_arg6))) (KerSpec.ft0 (m ((c : Thread nD τ).loc main_arg0)) (m ((c : Thread nD τ).loc main_arg5))) (m ((c : Thread nD τ).loc main_arg11)) (KerSpec.bb0 (m ((c : Thread nD τ).loc main_arg12)))) (m ((c : Thread nD τ).loc main_arg6)))
        (m ((c : Thread nD τ).loc main_arg13)) KerSpec.zb0 (KerSpec.gr0 (m ((c : Thread nD τ).loc main_arg14))) (KerSpec.ber0 (m ((c : Thread nD τ).loc main_arg15))) := rfl
/-- Level 1's output, over level 0's. -/
theorem X2_eq (c : Dev nD) : X2 m c KerRegions.edge0 KerRegions.edge2
    = k3_pay1 (F := Ideal) (KerSpec.agg1 (KerRegions.edge2 (KerSpec.ps1 (m ((c : Thread nD τ).loc main_arg2)) (m ((c : Thread nD τ).loc main_arg7))) (KerSpec.pd1 (m ((c : Thread nD τ).loc main_arg3)) (m ((c : Thread nD τ).loc main_arg8))) (KerSpec.ft1 (X1 m c KerRegions.edge0) (m ((c : Thread nD τ).loc main_arg7))) (m ((c : Thread nD τ).loc main_arg16)) (KerSpec.bb1 (m ((c : Thread nD τ).loc main_arg17)))) (m ((c : Thread nD τ).loc main_arg8)))
        (m ((c : Thread nD τ).loc main_arg18)) KerSpec.zb1 (KerSpec.gr1 (m ((c : Thread nD τ).loc main_arg19))) (KerSpec.ber1 (m ((c : Thread nD τ).loc main_arg20))) := rfl
/-- Level 2's output, over level 1's. -/
theorem X3_eq (c : Dev nD) : X3 m c KerRegions.edge0 KerRegions.edge2 KerRegions.edge4
    = k5_pay1 (F := Ideal) (KerSpec.agg2 (KerRegions.edge4 (KerSpec.ps2 (m ((c : Thread nD τ).loc main_arg3)) (m ((c : Thread nD τ).loc main_arg9))) (KerSpec.pd2 (m ((c : Thread nD τ).loc main_arg4)) (m ((c : Thread nD τ).loc main_arg10))) (KerSpec.ft2 (X2 m c KerRegions.edge0 KerRegions.edge2) (m ((c : Thread nD τ).loc main_arg9))) (m ((c : Thread nD τ).loc main_arg21)) (KerSpec.bb2 (m ((c : Thread nD τ).loc main_arg22)))) (m ((c : Thread nD τ).loc main_arg10)))
        (m ((c : Thread nD τ).loc main_arg23)) KerSpec.zb2 (KerSpec.gr2 (m ((c : Thread nD τ).loc main_arg24))) (KerSpec.ber2 (m ((c : Thread nD τ).loc main_arg25))) := rfl

/-- The result buffer at the last boundary is the network's output. -/
theorem W29_out (c : Dev nD) :
    W29 m ρ c (Proc.devRef .tc main_v132) = OUT m c KerRegions.edge0 KerRegions.edge2 KerRegions.edge4 :=
  lev6 m ρ c KerRegions.edge0 KerRegions.edge2 KerRegions.edge4
    KerRegions.arr_0 KerRegions.arr_1 KerRegions.arr_2 KerRegions.arr_3 KerRegions.arr_4 KerRegions.arr_5 KerRegions.arr_6

/-- The program's run with its result read back: the head's dense layer of level 2's output `X3`, itself the
    dense layer of the mean of level 2's edge rows over the gathered rows of level 1's output `X2`, and so on. -/
theorem run : θ_run (defs (F := Ideal)) (onTc (τ := τ) (main (F := Ideal))) ⟨m, fun _ => 0, ρ⟩ (fun r => ∀ c : Dev nD,
      r.2.mem ((c.tc : Thread nD τ).loc main_v132)
        = k6_pay1 (F := Ideal) (X3 m c KerRegions.edge0 KerRegions.edge2 KerRegions.edge4) (m ((c.tc : Thread nD τ).loc main_arg26))
            (KerSpec.bdr (m ((c.tc : Thread nD τ).loc main_arg27))) (KerSpec.gr3 (m ((c.tc : Thread nD τ).loc main_arg28))) (KerSpec.ber3 (m ((c.tc : Thread nD τ).loc main_arg29)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run (defs (F := Ideal)) _ _).mono (fun r h c => ⟨((h c).1).trans (W29_out m ρ c), (h c).2⟩) (run_W m ρ)

end Cert.KernelIdeal.KerRun

end
-- ==== Proof.LibRows.lean ====
/-
  Rank-two arrays of extended reals read ROW BY ROW.

  A multilayer perceptron applied to a batch treats every row of its input alone: each operation it is made of
  (a product with a weight matrix, the addition of a bias vector, the maximum with zero, laying vectors side by
  side along the feature axis, cutting a band of columns out) sends row `r` of its operands to row `r` of its
  result. This file names that: `rowOf A r` is row `r` of a rank-two array, `lift1 f A` is the array whose every row
  is `f` of the same row of `A` (`lift2`, `lift3` for two and three operands), and each array operation — in the
  vector form a kernel body uses and in the host form a reference program uses — is proved to be the lift of a plain
  function of rows (`mm`, `addb`, `relu`, `cat2`, `cat3`, `cols`, `pick`). The number of rows is a variable throughout, so
  one lemma serves a block of a few thousand rows and an array of millions.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Lib.Rows

open Idealize.ShloMosaic Idealize.ShloMosaic.ValueIdx

variable {α β γ δ : Type}

/-! ## Rows and lifts -/

/-- Row `r` of a rank-two array. -/
def rowOf {N K : Nat} (A : (⟨2, ![N, K]⟩ : Shape).Idx → α) (r : Fin N) : Fin K → α := fun k => A (ix2 r k)

/-- The array whose row `r` is `f` of row `r` of `A`. -/
def lift1 {N K J : Nat} (f : (Fin K → α) → Fin J → β) (A : (⟨2, ![N, K]⟩ : Shape).Idx → α) :
    (⟨2, ![N, J]⟩ : Shape).Idx → β := fun i => f (rowOf A (i 0)) (i 1)

/-- The array whose row `r` is `f` of rows `r` of `A` and `B`. -/
def lift2 {N K₁ K₂ J : Nat} (f : (Fin K₁ → α) → (Fin K₂ → β) → Fin J → γ) (A : (⟨2, ![N, K₁]⟩ : Shape).Idx → α)
    (B : (⟨2, ![N, K₂]⟩ : Shape).Idx → β) : (⟨2, ![N, J]⟩ : Shape).Idx → γ :=
  fun i => f (rowOf A (i 0)) (rowOf B (i 0)) (i 1)

/-- The array whose row `r` is `f` of rows `r` of `A`, `B` and `C`. -/
def lift3 {N K₁ K₂ K₃ J : Nat} (f : (Fin K₁ → α) → (Fin K₂ → β) → (Fin K₃ → γ) → Fin J → δ)
    (A : (⟨2, ![N, K₁]⟩ : Shape).Idx → α) (B : (⟨2, ![N, K₂]⟩ : Shape).Idx → β) (C : (⟨2, ![N, K₃]⟩ : Shape).Idx → γ) :
    (⟨2, ![N, J]⟩ : Shape).Idx → δ :=
  fun i => f (rowOf A (i 0)) (rowOf B (i 0)) (rowOf C (i 0)) (i 1)

theorem lift1_apply {N K J : Nat} (f : (Fin K → α) → Fin J → β) (A : (⟨2, ![N, K]⟩ : Shape).Idx → α) (r : Fin N) (j : Fin J) :
    lift1 f A (ix2 r j) = f (rowOf A r) j := rfl

theorem rowOf_lift1 {N K J : Nat} (f : (Fin K → α) → Fin J → β) (A : (⟨2, ![N, K]⟩ : Shape).Idx → α) (r : Fin N) :
    rowOf (lift1 f A) r = f (rowOf A r) := rfl

theorem rowOf_lift2 {N K₁ K₂ J : Nat} (f : (Fin K₁ → α) → (Fin K₂ → β) → Fin J → γ) (A : (⟨2, ![N, K₁]⟩ : Shape).Idx → α)
    (B : (⟨2, ![N, K₂]⟩ : Shape).Idx → β) (r : Fin N) : rowOf (lift2 f A B) r = f (rowOf A r) (rowOf B r) := rfl

theorem rowOf_lift3 {N K₁ K₂ K₃ J : Nat} (f : (Fin K₁ → α) → (Fin K₂ → β) → (Fin K₃ → γ) → Fin J → δ)
    (A : (⟨2, ![N, K₁]⟩ : Shape).Idx → α) (B : (⟨2, ![N, K₂]⟩ : Shape).Idx → β) (C : (⟨2, ![N, K₃]⟩ : Shape).Idx → γ) (r : Fin N) :
    rowOf (lift3 f A B C) r = f (rowOf A r) (rowOf B r) (rowOf C r) := rfl

/-- Two arrays are equal when their rows are. -/
theorem ext_rows {N K : Nat} {A B : (⟨2, ![N, K]⟩ : Shape).Idx → α} (h : ∀ r, rowOf A r = rowOf B r) : A = B := by
  funext i
  rw [eq_ix2 i]
  exact congrFun (h (i 0)) (i 1)

/-- Two arrays are equal when they agree at every pair of coordinates. -/
theorem ext_ix2 {N K : Nat} {A B : (⟨2, ![N, K]⟩ : Shape).Idx → α} (h : ∀ (r : Fin N) (j : Fin K), A (ix2 r j) = B (ix2 r j)) :
    A = B := by
  funext i
  rw [eq_ix2 i]
  exact h (i 0) (i 1)

/-- Lifts compose. -/
theorem lift1_lift1 {N K J L : Nat} (g : (Fin J → β) → Fin L → γ) (f : (Fin K → α) → Fin J → β)
    (A : (⟨2, ![N, K]⟩ : Shape).Idx → α) : lift1 g (lift1 f A) = lift1 (fun v => g (f v)) A := rfl

/-! ## The functions of rows -/

/-- A row times a matrix: entry `j` is the sum over `k` of `v k · W k j`. -/
def mm {K J : Nat} (W : (⟨2, ![K, J]⟩ : Shape).Idx → EReal) (v : Fin K → EReal) : Fin J → EReal :=
  fun j => ∑ k : Fin K, v k * W (ix2 k j)

/-- A row plus a bias vector. -/
def addb {J : Nat} (b : (⟨1, ![J]⟩ : Shape).Idx → EReal) (v : Fin J → EReal) : Fin J → EReal := fun j => v j + b (ix1 j)

/-- The maximum with zero, entry by entry. -/
def relu {J : Nat} (v : Fin J → EReal) : Fin J → EReal := fun j => max (v j) 0

/-- Two rows side by side (an entry past both is `0`; the lengths add up wherever this is used). -/
def cat2 {a b n : Nat} (u : Fin a → EReal) (v : Fin b → EReal) : Fin n → EReal :=
  fun j => if h : j.val < a then u ⟨j.val, h⟩ else if h' : j.val - a < b then v ⟨j.val - a, h'⟩ else 0

/-- Three rows side by side. -/
def cat3 {a b c n : Nat} (u : Fin a → EReal) (v : Fin b → EReal) (w : Fin c → EReal) : Fin n → EReal :=
  fun j => if h : j.val < a then u ⟨j.val, h⟩ else if h' : j.val - a < b then v ⟨j.val - a, h'⟩
    else if h'' : j.val - a - b < c then w ⟨j.val - a - b, h''⟩ else 0

/-- The band of `w` entries of a row that starts at entry `o`. -/
def cols {K w : Nat} (o : Nat) (v : Fin K → EReal) : Fin w → EReal :=
  fun j => if h : o + j.val < K then v ⟨o + j.val, h⟩ else 0

/-- The entries of a row at the positions a table names. -/
def pick {K w : Nat} (tbl : Fin w → Fin K) (v : Fin K → EReal) : Fin w → EReal := fun j => v (tbl j)

/-! ## The matrix product -/

/-- The sum over a one-axis contraction index of a matrix product's terms, as the sum over the feature index. -/
theorem sum_contr {N K J : Nat} (d : DotDims ⟨2, ![N, K]⟩ ⟨2, ![K, J]⟩ ⟨2, ![N, J]⟩)
    (hl : d.lhsContracting = [1]) (hr : d.rhsContracting = [0]) (hrank : d.contr.rank = 1)
    (hs : d.contr.size ⟨0, by omega⟩ = K)
    (hl0 : ∀ (j : (⟨2, ![N, J]⟩ : Shape).Idx) (k : d.contr.Idx), (d.lhsIdx j k 0).val = (j 0).val)
    (hr1 : ∀ (j : (⟨2, ![N, J]⟩ : Shape).Idx) (k : d.contr.Idx), (d.rhsIdx j k 1).val = (j 1).val)
    (L : (⟨2, ![N, K]⟩ : Shape).Idx → EReal) (W : (⟨2, ![K, J]⟩ : Shape).Idx → EReal) (r : Fin N) (j : Fin J) :
    ∑ k : d.contr.Idx, L (d.lhsIdx (ix2 r j) k) * W (d.rhsIdx (ix2 r j) k) = ∑ k : Fin K, L (ix2 r k) * W (ix2 k j) := by
  rw [← Equiv.sum_comp (contrEquiv1 d K hrank hs).symm]
  refine Finset.sum_congr rfl fun k _ => ?_
  have eL : d.lhsIdx (ix2 r j) ((contrEquiv1 d K hrank hs).symm k) = ix2 r k := by
    funext a
    refine Fin.ext ?_
    match a with
    | ⟨0, _⟩ => exact hl0 _ _
    | ⟨1, _⟩ => exact (d.lhsIdx_val_of_single hl _ _).trans (contrEquiv1_symm_val d K hrank hs k)
  have eR : d.rhsIdx (ix2 r j) ((contrEquiv1 d K hrank hs).symm k) = ix2 k j := by
    funext a
    refine Fin.ext ?_
    match a with
    | ⟨0, _⟩ => exact (d.rhsIdx_val_of_single hr _ _).trans (contrEquiv1_symm_val d K hrank hs k)
    | ⟨1, _⟩ => exact hr1 _ _
  rw [eL, eR]

/-- A vector matrix product into a zero accumulator is, row by row, the row times the matrix. -/
theorem matmul_eq_lift {N K J : Nat} (d : DotDims ⟨2, ![N, K]⟩ ⟨2, ![K, J]⟩ ⟨2, ![N, J]⟩)
    (hl : d.lhsContracting = [1]) (hr : d.rhsContracting = [0]) (hrank : d.contr.rank = 1)
    (hs : d.contr.size ⟨0, by omega⟩ = K)
    (hl0 : ∀ (j : (⟨2, ![N, J]⟩ : Shape).Idx) (k : d.contr.Idx), (d.lhsIdx j k 0).val = (j 0).val)
    (hr1 : ∀ (j : (⟨2, ![N, J]⟩ : Shape).Idx) (k : d.contr.Idx), (d.rhsIdx j k 1).val = (j 1).val)
    (prec : Option ContractPrecision) (L : FVec Ideal ⟨2, ![N, K]⟩ .f32) (W : FVec Ideal ⟨2, ![K, J]⟩ .f32) :
    matmul d prec L W (constant ⟨2, ![N, J]⟩ .f32 0x00000000#32) = lift1 (mm W) L := by
  funext i
  rw [eq_ix2 i]
  refine (Ideal.matmul_constant_zero_apply d prec L W _).trans ?_
  exact sum_contr d hl hr hrank hs hl0 hr1 L W (i 0) (i 1)

/-- The host's `dot_general` is the same function of rows. -/
theorem dotGeneral_eq_lift {N K J : Nat} (d : DotDims ⟨2, ![N, K]⟩ ⟨2, ![K, J]⟩ ⟨2, ![N, J]⟩)
    (hl : d.lhsContracting = [1]) (hr : d.rhsContracting = [0]) (hrank : d.contr.rank = 1)
    (hs : d.contr.size ⟨0, by omega⟩ = K)
    (hl0 : ∀ (j : (⟨2, ![N, J]⟩ : Shape).Idx) (k : d.contr.Idx), (d.lhsIdx j k 0).val = (j 0).val)
    (hr1 : ∀ (j : (⟨2, ![N, J]⟩ : Shape).Idx) (k : d.contr.Idx), (d.rhsIdx j k 1).val = (j 1).val)
    (prec : Option ContractPrecision) (L : FVec Ideal ⟨2, ![N, K]⟩ .f32) (W : FVec Ideal ⟨2, ![K, J]⟩ .f32) :
    Host.dotGeneral d prec L W = lift1 (mm W) L := by
  funext i
  rw [eq_ix2 i]
  refine (Ideal.dotGeneral_apply d prec .single L W _).trans ?_
  exact sum_contr d hl hr hrank hs hl0 hr1 L W (i 0) (i 1)

/-! ## The bias -/

/-- A bias vector cast to one row and broadcast down the rows (a kernel body's spelling), read at an entry. -/
theorem bias_vec_apply {N J : Nat} (b : (⟨1, ![J]⟩ : Shape).Idx → α) (h1 : (⟨1, ![J]⟩ : Shape).ShapeCasts ⟨2, ![1, J]⟩)
    (h2 : (⟨2, ![1, J]⟩ : Shape).Broadcasts ⟨2, ![N, J]⟩) (r : Fin N) (j : Fin J) :
    broadcastTo ⟨2, ![N, J]⟩ (shapeCast ⟨2, ![1, J]⟩ b h1) h2 (ix2 r j) = b (ix1 j) := by
  refine (broadcastTo_apply _ h2 (ix2 r j) (ix2 (0 : Fin 1) j) (fun a => ?_)).trans ?_
  · match a with
    | ⟨0, _⟩ => exact (if_pos rfl).symm
    | ⟨1, _⟩ =>
      show j.val = if J = 1 then 0 else j.val
      split_ifs with h
      · subst h; omega
      · rfl
  · exact shapeCast_apply b h1 _ (ix1 j) (by
      rw [Shape.rowMajor_val_one, Shape.rowMajor_val_two]
      show j.val = 0 * J + j.val
      omega)

/-- Adding that broadcast bias adds the bias vector to every row. -/
theorem addf_bias_vec {N J : Nat} (A : FVec Ideal ⟨2, ![N, J]⟩ .f32) (b : FVec Ideal ⟨1, ![J]⟩ .f32)
    (h1 : (⟨1, ![J]⟩ : Shape).ShapeCasts ⟨2, ![1, J]⟩) (h2 : (⟨2, ![1, J]⟩ : Shape).Broadcasts ⟨2, ![N, J]⟩) :
    addf A (broadcastTo ⟨2, ![N, J]⟩ (shapeCast ⟨2, ![1, J]⟩ b h1) h2) = lift1 (addb b) A := by
  refine ext_ix2 fun r j => ?_
  show A (ix2 r j) + _ = A (ix2 r j) + b (ix1 j)
  rw [bias_vec_apply b h1 h2 r j]

/-- A bias vector broadcast to one row and then down the rows (a host program's spelling), read at an entry. -/
theorem bias_host_apply {N J : Nat} (b : (⟨1, ![J]⟩ : Shape).Idx → α)
    (h1 : (⟨1, ![J]⟩ : Shape).BroadcastsInDim ⟨2, ![1, J]⟩ ![1])
    (h2 : (⟨2, ![1, J]⟩ : Shape).BroadcastsInDim ⟨2, ![N, J]⟩ ![0, 1]) (r : Fin N) (j : Fin J) :
    broadcastInDim ⟨2, ![N, J]⟩ ![0, 1] h2 (broadcastInDim ⟨2, ![1, J]⟩ ![1] h1 b) (ix2 r j) = b (ix1 j) := by
  refine (broadcastInDim_apply _ h2 _ (ix2 r j) (ix2 (0 : Fin 1) j) (fun a => ?_)).trans ?_
  · match a with
    | ⟨0, _⟩ => exact (if_pos rfl).symm
    | ⟨1, _⟩ =>
      show j.val = if J = 1 then 0 else j.val
      split_ifs with h
      · subst h; omega
      · rfl
  · refine broadcastInDim_apply _ h1 b _ (ix1 j) (fun a => ?_)
    match a with
    | ⟨0, _⟩ =>
      show j.val = if J = 1 then 0 else j.val
      split_ifs with h
      · subst h; omega
      · rfl

theorem addf_bias_host {N J : Nat} (A : FVec Ideal ⟨2, ![N, J]⟩ .f32) (b : FVec Ideal ⟨1, ![J]⟩ .f32)
    (h1 : (⟨1, ![J]⟩ : Shape).BroadcastsInDim ⟨2, ![1, J]⟩ ![1])
    (h2 : (⟨2, ![1, J]⟩ : Shape).BroadcastsInDim ⟨2, ![N, J]⟩ ![0, 1]) :
    addf A (broadcastInDim ⟨2, ![N, J]⟩ ![0, 1] h2 (broadcastInDim ⟨2, ![1, J]⟩ ![1] h1 b)) = lift1 (addb b) A := by
  refine ext_ix2 fun r j => ?_
  show A (ix2 r j) + _ = A (ix2 r j) + b (ix1 j)
  rw [bias_host_apply b h1 h2 r j]

/-! ## The maximum with zero -/

theorem relu_vec {N J : Nat} (A : FVec Ideal ⟨2, ![N, J]⟩ .f32) :
    maximumf A (broadcast ⟨2, ![N, J]⟩ (Scalar.ofBits (F := Ideal) .f32 0x00000000#32)) = lift1 relu A := by
  refine ext_ix2 fun r j => ?_
  show max (A (ix2 r j)) (Ideal.ofBits .f32 0x00000000#32) = max (A (ix2 r j)) 0
  rw [Ideal.ofBits_zero_f32]

theorem relu_host {N J : Nat} (A : FVec Ideal ⟨2, ![N, J]⟩ .f32)
    (h : (⟨0, ![]⟩ : Shape).BroadcastsInDim ⟨2, ![N, J]⟩ ![]) :
    maximumf A (broadcastInDim ⟨2, ![N, J]⟩ ![] h (constant (F := Ideal) ⟨0, ![]⟩ .f32 0x00000000#32)) = lift1 relu A := by
  refine ext_ix2 fun r j => ?_
  show max (A (ix2 r j)) _ = max (A (ix2 r j)) 0
  rw [broadcastInDim_apply ![] h (constant (F := Ideal) ⟨0, ![]⟩ .f32 0x00000000#32) (ix2 r j) ix0 (fun a => a.elim0)]
  show max (A (ix2 r j)) (Ideal.ofBits .f32 0x00000000#32) = max (A (ix2 r j)) 0
  rw [Ideal.ofBits_zero_f32]

/-! ## A band of columns -/

theorem slice_eq_lift {N K w : Nat} (o : Nat) (X : (⟨2, ![N, K]⟩ : Shape).Idx → EReal)
    (h : (⟨2, ![N, K]⟩ : Shape).Slices ![0, o] ⟨2, ![N, w]⟩) :
    extractStridedSlice ⟨2, ![N, w]⟩ ![0, o] X h = lift1 (cols o) X := by
  refine ext_ix2 fun r j => ?_
  rw [slice2_axis1_eq o X h r j]
  have hlt : o + j.val < K := Nat.lt_of_lt_of_le (Nat.add_lt_add_left j.isLt o) (h.2 1)
  show _ = cols o (rowOf X r) j
  unfold cols
  rw [dif_pos hlt]
  rfl

end Cert.Lib.Rows

end
-- ==== Proof.LibBatchNorm.lean ====
/-
  Batch normalisation down the rows of a rank-two array of extended reals, followed by a leaky rectifier.

  For an array Y of M rows and N columns, a divisor c, an offset eps, a scale vector g, a shift vector be, a slope and
  a threshold z, the result at (p, q) is leaky (D p q * rsqrt (V q + eps) * g q + be q), where the column mean is
  m q = (sum over r of Y r q) / c, the centred array is D p q = Y p q - m q, the column variance is
  V q = (sum over r of D r q * D r q) / c, and leaky t is t when z <= t and slope * t otherwise. Division, the
  reciprocal square root and the comparison are the ideal instance's, so the statement holds on all of the extended
  reals with no side condition on Y.

  The file states this function once (bnAct) and proves that two spellings of it compute it, whatever M and N are:
  the vector spelling (a reduction over axis 0 into a vector, the vector cast to one row, a quotient by a splat, the
  row broadcast back over the rows, and a compare / multiply / select rectifier), and the host spelling (a host sum
  from an initial value zero, two successive broadcasts, the variance as a separate function that divides by the
  count minus an integer zero and guards the quotient by a select on the scalar predicate "count minus zero is
  positive", and the rectifier over scalars broadcast from rank zero). The host spelling needs one fact about the
  count: it is positive.
-/
import proofs.«105096_j6674379178666_1_alg».proof.Proof.LibRows

noncomputable section

open scoped BigOperators

namespace Cert.Lib.BatchNorm

open Idealize.ShloMosaic Idealize.ShloMosaic.ValueIdx Cert.Lib.Rows

/-! ## The function -/

section Spec
variable {M N : Nat}

/-- The sum of column q. -/
def colSum (Y : FVec Ideal ⟨2, ![M, N]⟩ .f32) (q : Fin N) : EReal := ∑ r : Fin M, Y (ix2 r q)

/-- The column sums divided by c, as one row. -/
def meanRow (c : Ideal .f32) (Y : FVec Ideal ⟨2, ![M, N]⟩ .f32) : FVec Ideal ⟨2, ![1, N]⟩ .f32 :=
  fun i => Ideal.div (colSum Y (i 1)) c

/-- One row repeated down M rows. -/
def spread (v : FVec Ideal ⟨2, ![1, N]⟩ .f32) : FVec Ideal ⟨2, ![M, N]⟩ .f32 := fun i => v (ix2 (0 : Fin 1) (i 1))

/-- A vector repeated down M rows. -/
def spreadVec (g : FVec Ideal ⟨1, ![N]⟩ .f32) : FVec Ideal ⟨2, ![M, N]⟩ .f32 := fun i => g (ix1 (i 1))

/-- The array minus its column means. -/
def centred (c : Ideal .f32) (Y : FVec Ideal ⟨2, ![M, N]⟩ .f32) : FVec Ideal ⟨2, ![M, N]⟩ .f32 :=
  subf Y (spread (meanRow c Y))

/-- The leaky rectifier entry by entry: t where z <= t, slope * t elsewhere. -/
def leakyVec (slope z : Ideal .f32) (T : FVec Ideal ⟨2, ![M, N]⟩ .f32) : FVec Ideal ⟨2, ![M, N]⟩ .f32 :=
  select (cmpf .oge T (broadcast ⟨2, ![M, N]⟩ z)) T (mulf (broadcast ⟨2, ![M, N]⟩ slope) T)

/-- Batch normalisation down the rows, then the leaky rectifier. -/
def bnAct (c eps slope z : Ideal .f32) (g be : FVec Ideal ⟨1, ![N]⟩ .f32) (Y : FVec Ideal ⟨2, ![M, N]⟩ .f32) :
    FVec Ideal ⟨2, ![M, N]⟩ .f32 :=
  leakyVec slope z (addf (mulf (mulf (centred c Y)
    (spread (rsqrt (addf (meanRow c (mulf (centred c Y) (centred c Y))) (broadcast ⟨2, ![1, N]⟩ eps)))))
    (spreadVec g)) (spreadVec be))

end Spec

/-! ## Layout steps, array by array -/

section Layout
variable {M N : Nat}

/-- A row broadcast over the rows (vector spelling) is the row repeated. -/
theorem broadcastTo_row_eq (v : FVec Ideal ⟨2, ![1, N]⟩ .f32) (hb : (⟨2, ![1, N]⟩ : Shape).Broadcasts ⟨2, ![M, N]⟩) :
    broadcastTo ⟨2, ![M, N]⟩ v hb = spread v :=
  ext_ix2 fun p q => broadcastTo_1b_ab_apply v hb p q

/-- A row broadcast over the rows (host spelling) is the row repeated. -/
theorem bcast_row_eq (v : FVec Ideal ⟨2, ![1, N]⟩ .f32)
    (hbr : (⟨2, ![1, N]⟩ : Shape).BroadcastsInDim ⟨2, ![M, N]⟩ ![0, 1]) :
    broadcastInDim ⟨2, ![M, N]⟩ ![0, 1] hbr v = spread v := by
  refine ext_ix2 fun p q => ?_
  refine broadcastInDim_apply _ hbr v (ix2 p q) (ix2 (0 : Fin 1) q) (fun a => ?_)
  match a with
  | ⟨0, _⟩ => exact (if_pos rfl).symm
  | ⟨1, _⟩ =>
    show q.val = if N = 1 then 0 else q.val
    split_ifs with h
    · subst h; omega
    · rfl

/-- A vector cast to one row, cast to itself and broadcast over the rows (vector spelling) is the vector repeated. -/
theorem vec_rows_eq (g : FVec Ideal ⟨1, ![N]⟩ .f32) (hcast : (⟨1, ![N]⟩ : Shape).ShapeCasts ⟨2, ![1, N]⟩)
    (hself : (⟨2, ![1, N]⟩ : Shape).ShapeCasts ⟨2, ![1, N]⟩) (hb : (⟨2, ![1, N]⟩ : Shape).Broadcasts ⟨2, ![M, N]⟩) :
    broadcastTo ⟨2, ![M, N]⟩ (shapeCast ⟨2, ![1, N]⟩ (shapeCast ⟨2, ![1, N]⟩ g hcast) hself) hb = spreadVec g := by
  rw [shapeCast_self]
  exact ext_ix2 fun p q => bias_vec_apply g hcast hb p q

/-- A vector broadcast to one row and then over the rows (host spelling) is the vector repeated. -/
theorem vec_rows_host_eq (g : FVec Ideal ⟨1, ![N]⟩ .f32) (hb1 : (⟨1, ![N]⟩ : Shape).BroadcastsInDim ⟨2, ![1, N]⟩ ![1])
    (hbr : (⟨2, ![1, N]⟩ : Shape).BroadcastsInDim ⟨2, ![M, N]⟩ ![0, 1]) :
    broadcastInDim ⟨2, ![M, N]⟩ ![0, 1] hbr (broadcastInDim ⟨2, ![1, N]⟩ ![1] hb1 g) = spreadVec g :=
  ext_ix2 fun p q => bias_host_apply g hb1 hbr p q

/-- A vector broadcast to one row (host spelling), read at an entry. -/
theorem vec_row_host_apply {α : Type} (v : (⟨1, ![N]⟩ : Shape).Idx → α)
    (hb1 : (⟨1, ![N]⟩ : Shape).BroadcastsInDim ⟨2, ![1, N]⟩ ![1]) (u : Fin 1) (q : Fin N) :
    broadcastInDim ⟨2, ![1, N]⟩ ![1] hb1 v (ix2 u q) = v (ix1 q) := by
  refine broadcastInDim_apply _ hb1 v (ix2 u q) (ix1 q) (fun a => ?_)
  match a with
  | ⟨0, _⟩ =>
    show q.val = if N = 1 then 0 else q.val
    split_ifs with h
    · subst h; omega
    · rfl

/-- A rank-zero array broadcast to rank two reads its one element everywhere. -/
theorem bcast_scalar_eq {a b : Nat} {α : Type} (h : (⟨0, ![]⟩ : Shape).BroadcastsInDim ⟨2, ![a, b]⟩ ![])
    (s : (⟨0, ![]⟩ : Shape).Idx → α) : broadcastInDim ⟨2, ![a, b]⟩ ![] h s = fun _ => s ix0 :=
  funext fun j => broadcastInDim_apply ![] h s j ix0 (fun x => x.elim0)

/-- The index over column q with row r put back is (r, q). -/
theorem lift_eq (hred : (⟨2, ![M, N]⟩ : Shape).Reduces [0] ⟨1, ![N]⟩) (q : Fin N) (r : Fin M) :
    hred.lift (ix1 q) r = ix2 r q := by
  funext a
  refine Fin.ext ?_
  match a with
  | ⟨0, _⟩ => rfl
  | ⟨1, _⟩ => rfl

end Layout

/-! ## The vector spelling -/

section Vec
variable {M N : Nat} (hred : (⟨2, ![M, N]⟩ : Shape).Reduces [0] ⟨1, ![N]⟩) (hφ : FKind.Formats .f32)
  (hacc : (0x00000000#32 : BitVec 32) = FKind.add.neutral .f32 hφ)
  (hcast : (⟨1, ![N]⟩ : Shape).ShapeCasts ⟨2, ![1, N]⟩) (hself : (⟨2, ![1, N]⟩ : Shape).ShapeCasts ⟨2, ![1, N]⟩)
  (hb : (⟨2, ![1, N]⟩ : Shape).Broadcasts ⟨2, ![M, N]⟩)

/-- The column sums by a reduction over axis 0, cast to one row and divided by a splat. -/
def meanVec (c : Ideal .f32) (Y : FVec Ideal ⟨2, ![M, N]⟩ .f32) : FVec Ideal ⟨2, ![1, N]⟩ .f32 :=
  divf (shapeCast ⟨2, ![1, N]⟩ (multiReduction .add [0] ⟨1, ![N]⟩ Y 0x00000000#32 hred hφ hacc) hcast)
    (broadcast ⟨2, ![1, N]⟩ c)

/-- The array minus that row broadcast back. -/
def centVec (c : Ideal .f32) (Y : FVec Ideal ⟨2, ![M, N]⟩ .f32) : FVec Ideal ⟨2, ![M, N]⟩ .f32 :=
  subf Y (broadcastTo ⟨2, ![M, N]⟩ (meanVec hred hφ hacc hcast c Y) hb)

/-- The reciprocal square root of the column variance plus eps, as one row. -/
def scaleVec (c eps : Ideal .f32) (Y : FVec Ideal ⟨2, ![M, N]⟩ .f32) : FVec Ideal ⟨2, ![1, N]⟩ .f32 :=
  rsqrt (addf (meanVec hred hφ hacc hcast c
    (mulf (centVec hred hφ hacc hcast hb c Y) (centVec hred hφ hacc hcast hb c Y))) (broadcast ⟨2, ![1, N]⟩ eps))

/-- Normalised, scaled by the row g1 and shifted by the row be1. -/
def affVec (c eps : Ideal .f32) (g1 be1 : FVec Ideal ⟨2, ![1, N]⟩ .f32) (Y : FVec Ideal ⟨2, ![M, N]⟩ .f32) :
    FVec Ideal ⟨2, ![M, N]⟩ .f32 :=
  addf (mulf (mulf (centVec hred hφ hacc hcast hb c Y) (broadcastTo ⟨2, ![M, N]⟩ (scaleVec hred hφ hacc hcast hb c eps Y) hb))
    (broadcastTo ⟨2, ![M, N]⟩ (shapeCast ⟨2, ![1, N]⟩ g1 hself) hb))
    (broadcastTo ⟨2, ![M, N]⟩ (shapeCast ⟨2, ![1, N]⟩ be1 hself) hb)

/-- The whole vector spelling. -/
def bnVec (c eps slope z : Ideal .f32) (g1 be1 : FVec Ideal ⟨2, ![1, N]⟩ .f32) (Y : FVec Ideal ⟨2, ![M, N]⟩ .f32) :
    FVec Ideal ⟨2, ![M, N]⟩ .f32 :=
  leakyVec slope z (affVec hred hφ hacc hcast hself hb c eps g1 be1 Y)

/-- The reduction over axis 0, cast to one row, reads the column sum. -/
theorem colSum_vec_apply (Y : FVec Ideal ⟨2, ![M, N]⟩ .f32) (u : Fin 1) (q : Fin N) :
    shapeCast ⟨2, ![1, N]⟩ (multiReduction .add [0] ⟨1, ![N]⟩ Y 0x00000000#32 hred hφ hacc) hcast (ix2 u q)
      = colSum Y q := by
  refine (shapeCast_a_1a_apply _ hcast u q).trans ?_
  refine (Ideal.multiReduction_add_single Y _ hred hφ hacc (ix1 q)).trans ?_
  show ∑ r : Fin M, Y (hred.lift (ix1 q) r) = ∑ r : Fin M, Y (ix2 r q)
  exact Finset.sum_congr rfl fun r _ => congrArg Y (lift_eq hred q r)

theorem meanVec_eq (c : Ideal .f32) (Y : FVec Ideal ⟨2, ![M, N]⟩ .f32) :
    meanVec hred hφ hacc hcast c Y = meanRow c Y := by
  refine ext_ix2 fun u q => ?_
  show Ideal.div (shapeCast ⟨2, ![1, N]⟩ (multiReduction .add [0] ⟨1, ![N]⟩ Y 0x00000000#32 hred hφ hacc) hcast (ix2 u q)) c
    = Ideal.div (colSum Y q) c
  rw [colSum_vec_apply hred hφ hacc hcast Y u q]

theorem centVec_eq (c : Ideal .f32) (Y : FVec Ideal ⟨2, ![M, N]⟩ .f32) :
    centVec hred hφ hacc hcast hb c Y = centred c Y := by
  unfold centVec centred
  rw [meanVec_eq, broadcastTo_row_eq]

/-- The vector spelling computes the function. -/
theorem bnVec_eq (c eps slope z : Ideal .f32) (g be : FVec Ideal ⟨1, ![N]⟩ .f32) (Y : FVec Ideal ⟨2, ![M, N]⟩ .f32) :
    bnVec hred hφ hacc hcast hself hb c eps slope z (shapeCast ⟨2, ![1, N]⟩ g hcast) (shapeCast ⟨2, ![1, N]⟩ be hcast) Y
      = bnAct c eps slope z g be Y := by
  unfold bnVec affVec scaleVec bnAct
  rw [centVec_eq, meanVec_eq, broadcastTo_row_eq, vec_rows_eq g hcast hself hb, vec_rows_eq be hcast hself hb]

end Vec

/-! ## The host spelling -/

section Host
variable {M N : Nat} (hred : (⟨2, ![M, N]⟩ : Shape).ReducesTo [0] ⟨1, ![N]⟩) (hS : 0 < (⟨0, ![]⟩ : Shape).numel)
  (hb1 : (⟨1, ![N]⟩ : Shape).BroadcastsInDim ⟨2, ![1, N]⟩ ![1])
  (hb0 : (⟨0, ![]⟩ : Shape).BroadcastsInDim ⟨2, ![1, N]⟩ ![])
  (hbr : (⟨2, ![1, N]⟩ : Shape).BroadcastsInDim ⟨2, ![M, N]⟩ ![0, 1])
  (hbs : (⟨0, ![]⟩ : Shape).BroadcastsInDim ⟨2, ![M, N]⟩ ![])

/-- The column sums by a host sum from zero, broadcast to one row and divided by the broadcast count. -/
def meanHost (cw : BitVec 32) (Y : FVec Ideal ⟨2, ![M, N]⟩ .f32) : FVec Ideal ⟨2, ![1, N]⟩ .f32 :=
  Host.divf (broadcastInDim ⟨2, ![1, N]⟩ ![1] hb1
      (Host.reduceAdd Y (constant (F := Ideal) ⟨0, ![]⟩ .f32 0x00000000#32) hred hS))
    (broadcastInDim ⟨2, ![1, N]⟩ ![] hb0 (constant (F := Ideal) ⟨0, ![]⟩ .f32 cw))

/-- The array minus that row broadcast back. -/
def centHost (cw : BitVec 32) (Y : FVec Ideal ⟨2, ![M, N]⟩ .f32) : FVec Ideal ⟨2, ![M, N]⟩ .f32 :=
  subf Y (broadcastInDim ⟨2, ![M, N]⟩ ![0, 1] hbr (meanHost hred hS hb1 hb0 cw Y))

/-- The count minus the integer zero, a rank-zero array. -/
def countHost (cw : BitVec 32) : FVec Ideal ⟨0, ![]⟩ .f32 :=
  subf (constant (F := Ideal) ⟨0, ![]⟩ .f32 cw) (sitofp .f32 (constantI ⟨0, ![]⟩ 32 0#32))

/-- The column variance as the host's variance function spells it: the squares summed, divided by the count minus
    zero, and a select against a fixed word on the predicate "the count minus zero is positive". -/
def varHost (cw : BitVec 32) (Y : FVec Ideal ⟨2, ![M, N]⟩ .f32) : FVec Ideal ⟨2, ![1, N]⟩ .f32 :=
  select (broadcastInDim ⟨2, ![1, N]⟩ ![] hb0
      (cmpf .ogt (countHost cw) (constant (F := Ideal) ⟨0, ![]⟩ .f32 0x00000000#32)))
    (Host.divf (broadcastInDim ⟨2, ![1, N]⟩ ![1] hb1
        (Host.reduceAdd (mulf (centHost hred hS hb1 hb0 hbr cw Y) (centHost hred hS hb1 hb0 hbr cw Y))
          (constant (F := Ideal) ⟨0, ![]⟩ .f32 0x00000000#32) hred hS))
      (broadcastInDim ⟨2, ![1, N]⟩ ![] hb0 (countHost cw)))
    (broadcastInDim ⟨2, ![1, N]⟩ ![] hb0 (constant (F := Ideal) ⟨0, ![]⟩ .f32 0x7FC00000#32))

/-- Normalised, scaled and shifted, in the host spelling. -/
def affHost (cw epsw : BitVec 32) (g be : FVec Ideal ⟨1, ![N]⟩ .f32) (Y : FVec Ideal ⟨2, ![M, N]⟩ .f32) :
    FVec Ideal ⟨2, ![M, N]⟩ .f32 :=
  addf (mulf (mulf (centHost hred hS hb1 hb0 hbr cw Y)
      (broadcastInDim ⟨2, ![M, N]⟩ ![0, 1] hbr
        (Host.rsqrt (addf (varHost hred hS hb1 hb0 hbr cw Y)
          (broadcastInDim ⟨2, ![1, N]⟩ ![] hb0 (constant (F := Ideal) ⟨0, ![]⟩ .f32 epsw))))))
      (broadcastInDim ⟨2, ![M, N]⟩ ![0, 1] hbr (broadcastInDim ⟨2, ![1, N]⟩ ![1] hb1 g)))
    (broadcastInDim ⟨2, ![M, N]⟩ ![0, 1] hbr (broadcastInDim ⟨2, ![1, N]⟩ ![1] hb1 be))

/-- The rectifier over scalars broadcast from rank zero. -/
def leakyHost (slopew : BitVec 32) (T : FVec Ideal ⟨2, ![M, N]⟩ .f32) : FVec Ideal ⟨2, ![M, N]⟩ .f32 :=
  select (cmpf .oge T (broadcastInDim ⟨2, ![M, N]⟩ ![] hbs (constant (F := Ideal) ⟨0, ![]⟩ .f32 0x00000000#32))) T
    (mulf (broadcastInDim ⟨2, ![M, N]⟩ ![] hbs (constant (F := Ideal) ⟨0, ![]⟩ .f32 slopew)) T)

/-- The whole host spelling. -/
def bnHost (cw epsw slopew : BitVec 32) (g be : FVec Ideal ⟨1, ![N]⟩ .f32) (Y : FVec Ideal ⟨2, ![M, N]⟩ .f32) :
    FVec Ideal ⟨2, ![M, N]⟩ .f32 :=
  leakyHost hbs slopew (affHost hred hS hb1 hb0 hbr cw epsw g be Y)

/-- The host sum over axis 0 reads the initial value plus the column sum. -/
theorem colSum_host_apply (Y : FVec Ideal ⟨2, ![M, N]⟩ .f32) (init : FVec Ideal ⟨0, ![]⟩ .f32) (q : Fin N) :
    Host.reduceAdd Y init hred hS (ix1 q) = init (Shape.Idx.first hS) + colSum Y q := by
  have hred' : (⟨2, ![M, N]⟩ : Shape).Reduces [0] ⟨1, ![N]⟩ := ⟨hred.1, Nat.one_pos, hred.2⟩
  show Ideal.hostReduceAdd hred Y (init (Shape.Idx.first hS)) (ix1 q) = _
  rw [Ideal.hostReduceAdd_single hred hred' Y _ (ix1 q)]
  refine congrArg (fun s => init (Shape.Idx.first hS) + s) ?_
  show ∑ r : Fin M, Y (hred'.lift (ix1 q) r) = ∑ r : Fin M, Y (ix2 r q)
  exact Finset.sum_congr rfl fun r _ => congrArg Y (lift_eq hred' q r)

theorem meanHost_eq (cw : BitVec 32) (Y : FVec Ideal ⟨2, ![M, N]⟩ .f32) :
    meanHost hred hS hb1 hb0 cw Y = meanRow (Ideal.ofBits .f32 cw) Y := by
  refine ext_ix2 fun u q => ?_
  show Ideal.div (broadcastInDim ⟨2, ![1, N]⟩ ![1] hb1
      (Host.reduceAdd Y (constant (F := Ideal) ⟨0, ![]⟩ .f32 0x00000000#32) hred hS) (ix2 u q))
      (broadcastInDim ⟨2, ![1, N]⟩ ![] hb0 (constant (F := Ideal) ⟨0, ![]⟩ .f32 cw) (ix2 u q))
    = Ideal.div (colSum Y q) (Ideal.ofBits .f32 cw)
  rw [vec_row_host_apply _ hb1 u q, colSum_host_apply hred hS Y _ q, bcast_scalar_eq hb0]
  show Ideal.div (Ideal.ofBits .f32 0x00000000#32 + colSum Y q) (Ideal.ofBits .f32 cw) = _
  rw [Ideal.ofBits_zero_f32, zero_add]

theorem centHost_eq (cw : BitVec 32) (Y : FVec Ideal ⟨2, ![M, N]⟩ .f32) :
    centHost hred hS hb1 hb0 hbr cw Y = centred (Ideal.ofBits .f32 cw) Y := by
  unfold centHost centred
  rw [meanHost_eq, bcast_row_eq]

/-- The count minus the integer zero is the count. -/
theorem countHost_apply (cw : BitVec 32) (i : (⟨0, ![]⟩ : Shape).Idx) : countHost cw i = Ideal.ofBits .f32 cw := by
  show Ideal.ofBits .f32 cw - (((0#32 : BitVec 32).toInt : ℝ) : EReal) = _
  have h0 : (0#32 : BitVec 32).toInt = 0 := by decide
  rw [h0, Int.cast_zero, EReal.coe_zero, sub_zero]

theorem varHost_eq (cw : BitVec 32) (hpos : (0 : EReal) < Ideal.ofBits .f32 cw) (Y : FVec Ideal ⟨2, ![M, N]⟩ .f32) :
    varHost hred hS hb1 hb0 hbr cw Y
      = meanRow (Ideal.ofBits .f32 cw) (mulf (centred (Ideal.ofBits .f32 cw) Y) (centred (Ideal.ofBits .f32 cw) Y)) := by
  unfold varHost
  rw [centHost_eq]
  generalize mulf (centred (Ideal.ofBits .f32 cw) Y) (centred (Ideal.ofBits .f32 cw) Y) = SQ
  refine ext_ix2 fun u q => ?_
  rw [select_apply, bcast_scalar_eq hb0, bcast_scalar_eq hb0]
  have hp : cmpf .ogt (countHost cw) (constant (F := Ideal) ⟨0, ![]⟩ .f32 0x00000000#32) ix0 = 1#1 := by
    show Ideal.cmp .ogt (countHost cw ix0) (Ideal.ofBits .f32 0x00000000#32) = 1#1
    rw [countHost_apply, Ideal.ofBits_zero_f32]
    show BitVec.ofBool (decide ((0 : EReal) < Ideal.ofBits .f32 cw)) = 1#1
    rw [decide_eq_true hpos]
    rfl
  show Scalar.select (cmpf .ogt (countHost cw) (constant (F := Ideal) ⟨0, ![]⟩ .f32 0x00000000#32) ix0) _ _ = _
  rw [hp, select_one]
  show Ideal.div (broadcastInDim ⟨2, ![1, N]⟩ ![1] hb1
      (Host.reduceAdd SQ (constant (F := Ideal) ⟨0, ![]⟩ .f32 0x00000000#32) hred hS) (ix2 u q)) (countHost cw ix0)
    = Ideal.div (colSum SQ q) (Ideal.ofBits .f32 cw)
  rw [vec_row_host_apply _ hb1 u q, colSum_host_apply hred hS SQ _ q, countHost_apply]
  show Ideal.div (Ideal.ofBits .f32 0x00000000#32 + colSum SQ q) (Ideal.ofBits .f32 cw) = _
  rw [Ideal.ofBits_zero_f32, zero_add]

/-- The host spelling computes the function, when the count is positive. -/
theorem bnHost_eq (cw epsw slopew : BitVec 32) (hpos : (0 : EReal) < Ideal.ofBits .f32 cw)
    (g be : FVec Ideal ⟨1, ![N]⟩ .f32) (Y : FVec Ideal ⟨2, ![M, N]⟩ .f32) :
    bnHost hred hS hb1 hb0 hbr hbs cw epsw slopew g be Y
      = bnAct (Ideal.ofBits .f32 cw) (Ideal.ofBits .f32 epsw) (Ideal.ofBits .f32 slopew)
          (Ideal.ofBits .f32 0x00000000#32) g be Y := by
  unfold bnHost affHost leakyHost bnAct
  rw [varHost_eq hred hS hb1 hb0 hbr cw hpos, centHost_eq, bcast_row_eq, vec_rows_host_eq g hb1 hbr,
    vec_rows_host_eq be hb1 hbr, bcast_scalar_eq hb0, bcast_scalar_eq hbs, bcast_scalar_eq hbs]
  rfl

end Host

end Cert.Lib.BatchNorm

end
-- ==== Proof.DenseConsts.lean ====
/-
  The row counts the three normalisation levels and the head divide by, 8000, 1000 and 8, as the reals their
  float32 patterns denote; what the bridge needs of them is that each is a positive extended real.
-/
import Idealize.ShloMosaic.PureOps.Ideal

noncomputable section

namespace Cert.Bridge.Dense

open Idealize.ShloMosaic

/-- The pattern 0x41000000 is 8. -/
theorem ofBits_8 : Ideal.ofBits .f32 0x41000000#32 = ((8 : ℝ) : EReal) := by
  simp [Ideal.ofBits, Ideal.ieee, -EReal.coe_mul]; norm_num

/-- The pattern 0x447A0000 is 1000. -/
theorem ofBits_1000 : Ideal.ofBits .f32 0x447A0000#32 = ((1000 : ℝ) : EReal) := by
  simp [Ideal.ofBits, Ideal.ieee, -EReal.coe_mul]; norm_num

/-- The pattern 0x45FA0000 is 8000. -/
theorem ofBits_8000 : Ideal.ofBits .f32 0x45FA0000#32 = ((8000 : ℝ) : EReal) := by
  simp [Ideal.ofBits, Ideal.ieee, -EReal.coe_mul]; norm_num

theorem pos_8 : (0 : EReal) < Ideal.ofBits .f32 0x41000000#32 := by
  rw [ofBits_8]; exact EReal.coe_pos.mpr (by norm_num)

theorem pos_1000 : (0 : EReal) < Ideal.ofBits .f32 0x447A0000#32 := by
  rw [ofBits_1000]; exact EReal.coe_pos.mpr (by norm_num)

theorem pos_8000 : (0 : EReal) < Ideal.ofBits .f32 0x45FA0000#32 := by
  rw [ofBits_8000]; exact EReal.coe_pos.mpr (by norm_num)

end Cert.Bridge.Dense

end
-- ==== Proof.DenseProj.lean ====
/-
  The projection step of a dense level, read row by row, whatever the extents.

  The kernel multiplies the M x K input (cast to its own shape and narrowed to a shorter float format, both the
  identity on extended reals) by the K x N weight into a zero accumulator, and adds one row broadcast down the M rows:
  either a bias vector laid out as a row, or the row of zeros. The host multiplies the same arrays and adds the bias
  vector broadcast twice, or adds nothing. Each is the array whose row r is (row r of the input) times the weight,
  plus the bias; adding the zero row changes nothing, since x + 0 = x on the extended reals.
-/
import proofs.«105096_j6674379178666_1_alg».proof.Proof.LibBatchNorm

noncomputable section

namespace Cert.Bridge.Dense

open Idealize.ShloMosaic Idealize.ShloMosaic.ValueIdx Cert.Lib.Rows Cert.Lib.BatchNorm

section
variable {M K N : Nat}

/-- The kernel's product: the operands' self cast and narrowing are the identity, the accumulator is zero. -/
theorem proj_vec (d : DotDims ⟨2, ![M, K]⟩ ⟨2, ![K, N]⟩ ⟨2, ![M, N]⟩)
    (hl : d.lhsContracting = [1]) (hr : d.rhsContracting = [0]) (hrank : d.contr.rank = 1)
    (hs : d.contr.size ⟨0, by omega⟩ = K)
    (hl0 : ∀ (j : (⟨2, ![M, N]⟩ : Shape).Idx) (k : d.contr.Idx), (d.lhsIdx j k 0).val = (j 0).val)
    (hr1 : ∀ (j : (⟨2, ![M, N]⟩ : Shape).Idx) (k : d.contr.Idx), (d.rhsIdx j k 1).val = (j 1).val)
    (hX : (⟨2, ![M, K]⟩ : Shape).ShapeCasts ⟨2, ![M, K]⟩) (hlt : FTy.bits .bf16 < FTy.bits .f32)
    (X : FVec Ideal ⟨2, ![M, K]⟩ .f32) (W : FVec Ideal ⟨2, ![K, N]⟩ .f32) :
    matmul d none (truncf .bf16 (shapeCast ⟨2, ![M, K]⟩ X hX) hlt) (truncf .bf16 W hlt)
        (constant ⟨2, ![M, N]⟩ .f32 0x00000000#32)
      = lift1 (mm W) X := by
  rw [shapeCast_self]
  exact matmul_eq_lift d hl hr hrank hs hl0 hr1 none X W

/-- The kernel's bias: a vector laid out as a row, cast to itself and broadcast down the rows. -/
theorem bias_vec (A : FVec Ideal ⟨2, ![M, N]⟩ .f32) (b : FVec Ideal ⟨1, ![N]⟩ .f32)
    (hcast : (⟨1, ![N]⟩ : Shape).ShapeCasts ⟨2, ![1, N]⟩) (hself : (⟨2, ![1, N]⟩ : Shape).ShapeCasts ⟨2, ![1, N]⟩)
    (hb : (⟨2, ![1, N]⟩ : Shape).Broadcasts ⟨2, ![M, N]⟩) :
    addf A (broadcastTo ⟨2, ![M, N]⟩ (shapeCast ⟨2, ![1, N]⟩ (shapeCast ⟨2, ![1, N]⟩ b hcast) hself) hb)
      = lift1 (addb b) A := by
  rw [shapeCast_self]
  exact addf_bias_vec A b hcast hb

/-- The kernel's zero row: adding it changes nothing. -/
theorem zero_row_vec (A : FVec Ideal ⟨2, ![M, N]⟩ .f32) (hb0 : (⟨0, ![]⟩ : Shape).BroadcastsInDim ⟨2, ![1, N]⟩ ![])
    (hself : (⟨2, ![1, N]⟩ : Shape).ShapeCasts ⟨2, ![1, N]⟩) (hb : (⟨2, ![1, N]⟩ : Shape).Broadcasts ⟨2, ![M, N]⟩) :
    addf A (broadcastTo ⟨2, ![M, N]⟩ (shapeCast ⟨2, ![1, N]⟩
        (broadcastInDim ⟨2, ![1, N]⟩ ![] hb0 (constant (F := Ideal) ⟨0, ![]⟩ .f32 0x00000000#32)) hself) hb) = A := by
  rw [shapeCast_self, bcast_scalar_eq hb0]
  refine ext_ix2 fun p q => ?_
  show A (ix2 p q) + Ideal.ofBits .f32 0x00000000#32 = A (ix2 p q)
  rw [Ideal.ofBits_zero_f32, add_zero]

end

end Cert.Bridge.Dense

end
-- ==== Proof.DenseHead.lean ====
/-
  The head of the network, kernel against reference, as arrays of extended reals.

  Both sides multiply the 8 x 512 feature array by the 512 x 128 weight, add the bias vector to every row, normalise
  each of the 128 columns over the 8 rows (mean, centred second moment, reciprocal square root of the variance plus
  1e-3, scale g, shift be) and apply the leaky rectifier of slope 0.3. The kernel's body is the vector spelling of
  that function and the reference's statements are the host spelling; each is unfolded to the generic spelling by
  definitional unfolding alone, and the generic theorems do the rest. The one numerical fact used is 8 > 0.
-/
import proofs.«105096_j6674379178666_1_alg».proof.Proof.Gen.KernelIdeal
import proofs.«105096_j6674379178666_1_alg».proof.Proof.Gen.KernelIdeal.Skeleton
import proofs.«105096_j6674379178666_1_alg».proof.Proof.Gen.ReferenceIdeal
import proofs.«105096_j6674379178666_1_alg».proof.Proof.RefSpec
import proofs.«105096_j6674379178666_1_alg».proof.Proof.LibBatchNorm
import proofs.«105096_j6674379178666_1_alg».proof.Proof.DenseConsts
import proofs.«105096_j6674379178666_1_alg».proof.Proof.DenseProj

noncomputable section

namespace Cert.Bridge.Dense

open Idealize.ShloMosaic Idealize.ShloMosaic.ValueIdx Cert.Lib.Rows Cert.Lib.BatchNorm
open Cert.KernelIdeal Cert.KernelIdeal.Gen

/-- The kernel's body is the vector spelling at 8 x 128, applied to the biased product. -/
theorem k6_vec (X : FVec Ideal S8x512 .f32) (W : FVec Ideal S512x128 .f32) (b1 g1 be1 : FVec Ideal S1x128 .f32) :
    k6_pay1 (F := Ideal) X W b1 g1 be1
      = bnVec reduces_S8x128_S128 (.inl rfl) rfl shapeCasts_S128_S1x128 shapeCasts_S1x128_S1x128 broadcasts_S1x128_S8x128
          (FloatOps.ofBits .f32 0x41000000#32) (FloatOps.ofBits .f32 0x3A83126F#32) (FloatOps.ofBits .f32 0x3E99999A#32)
          (FloatOps.ofBits .f32 0x00000000#32) g1 be1
          (addf (matmul dot_S8x512_S512x128_S8x128_1_0_0_1_n_n none
              (truncf .bf16 (shapeCast S8x512 X shapeCasts_S8x512_S8x512) bitsLt_bf16_f32) (truncf .bf16 W bitsLt_bf16_f32)
              (constant S8x128 .f32 0x00000000#32))
            (broadcastTo S8x128 (shapeCast S1x128 b1 shapeCasts_S1x128_S1x128) broadcasts_S1x128_S8x128)) := rfl

/-- The reference's statements are the host spelling at 8 x 128, applied to the biased product. -/
theorem head_host (X : FVec Ideal S8x512 .f32) (W : FVec Ideal S512x128 .f32) (b g be : FVec Ideal S128 .f32) :
    Cert.Bridge.RefSpec.head (F := Ideal) X W b g be
      = bnHost Cert.ReferenceIdeal.Gen.reducesTo_S8x128_S128_d0 Cert.ReferenceIdeal.Gen.h_S_
          Cert.ReferenceIdeal.Gen.bcast_S128_S1x128_1 Cert.ReferenceIdeal.Gen.bcast_S_S1x128
          Cert.ReferenceIdeal.Gen.bcast_S1x128_S8x128_0_1 Cert.ReferenceIdeal.Gen.bcast_S_S8x128
          0x41000000#32 0x3A83126F#32 0x3E99999A#32 g be
          (addf (Host.dotGeneral Cert.ReferenceIdeal.dot_S8x512_S512x128_S8x128_1_0_0_1_n_n none X W)
            (broadcastInDim S8x128 ![0, 1] Cert.ReferenceIdeal.Gen.bcast_S1x128_S8x128_0_1
              (broadcastInDim S1x128 ![1] Cert.ReferenceIdeal.Gen.bcast_S128_S1x128_1 b))) := rfl

/-- The head: the kernel's body on the arrays its windows hold is the reference's head. -/
theorem head_eq (X : FVec Ideal S8x512 .f32) (W : FVec Ideal S512x128 .f32) (b g be : FVec Ideal S128 .f32) :
    k6_pay1 (F := Ideal) X W (shapeCast S1x128 b shapeCasts_S128_S1x128) (shapeCast S1x128 g shapeCasts_S128_S1x128)
        (shapeCast S1x128 be shapeCasts_S128_S1x128)
      = Cert.Bridge.RefSpec.head (F := Ideal) X W b g be := by
  refine (k6_vec X W _ _ _).trans ?_
  refine (bnVec_eq _ _ _ _ _ _ _ _ _ _ g be _).trans ?_
  refine Eq.trans ?_ (head_host X W b g be).symm
  refine Eq.trans ?_ (bnHost_eq _ _ _ _ _ _ _ _ _ pos_8 g be _).symm
  refine congrArg (bnAct _ _ _ _ g be) ?_
  refine (congrArg (fun A => addf A _) (proj_vec _ rfl rfl rfl rfl (fun _ _ => rfl) (fun _ _ => rfl) _ _ X W)).trans ?_
  refine (bias_vec _ b _ _ _).trans ?_
  refine Eq.trans ?_ (congrArg (fun A => addf A _)
    (dotGeneral_eq_lift _ rfl rfl rfl rfl (fun _ _ => rfl) (fun _ _ => rfl) none X W)).symm
  exact (addf_bias_host _ b _ _).symm

end Cert.Bridge.Dense

end
-- ==== Proof.DenseL2.lean ====
/-
  Dense level 2 of the network, kernel against reference, as arrays of extended reals.

  Both sides multiply the 8 x 4096 aggregate by the 4096 x 512 weight, normalise each of the 512 columns over
  the 8 rows (mean, centred second moment, reciprocal square root of the variance plus 1e-3, scale g, shift be) and
  apply the leaky rectifier of slope 0.3. The kernel also adds a row of zeros to the product, which changes nothing
  on the extended reals. The kernel's body is the vector spelling of that function and the reference's statements are
  the host spelling; each is unfolded to the generic spelling by definitional unfolding alone, and the generic
  theorems do the rest. The one numerical fact used is 8 > 0.
-/
import proofs.«105096_j6674379178666_1_alg».proof.Proof.Gen.KernelIdeal
import proofs.«105096_j6674379178666_1_alg».proof.Proof.Gen.KernelIdeal.Skeleton
import proofs.«105096_j6674379178666_1_alg».proof.Proof.Gen.ReferenceIdeal
import proofs.«105096_j6674379178666_1_alg».proof.Proof.RefSpec
import proofs.«105096_j6674379178666_1_alg».proof.Proof.LibBatchNorm
import proofs.«105096_j6674379178666_1_alg».proof.Proof.DenseConsts
import proofs.«105096_j6674379178666_1_alg».proof.Proof.DenseProj

noncomputable section

namespace Cert.Bridge.Dense

open Idealize.ShloMosaic Idealize.ShloMosaic.ValueIdx Cert.Lib.Rows Cert.Lib.BatchNorm
open Cert.KernelIdeal Cert.KernelIdeal.Gen

/-- The kernel's body is the vector spelling at 8 x 512, applied to the product plus the row it is handed. -/
theorem k5_vec (X : FVec Ideal S8x4096 .f32) (W : FVec Ideal S4096x512 .f32) (b1 g1 be1 : FVec Ideal S1x512 .f32) :
    k5_pay1 (F := Ideal) X W b1 g1 be1
      = bnVec reduces_S8x512_S512 (.inl rfl) rfl shapeCasts_S512_S1x512 shapeCasts_S1x512_S1x512 broadcasts_S1x512_S8x512
          (FloatOps.ofBits .f32 0x41000000#32) (FloatOps.ofBits .f32 0x3A83126F#32) (FloatOps.ofBits .f32 0x3E99999A#32)
          (FloatOps.ofBits .f32 0x00000000#32) g1 be1
          (addf (matmul dot_S8x4096_S4096x512_S8x512_1_0_0_1_n_n none
              (truncf .bf16 (shapeCast S8x4096 X shapeCasts_S8x4096_S8x4096) bitsLt_bf16_f32) (truncf .bf16 W bitsLt_bf16_f32)
              (constant S8x512 .f32 0x00000000#32))
            (broadcastTo S8x512 (shapeCast S1x512 b1 shapeCasts_S1x512_S1x512) broadcasts_S1x512_S8x512)) := rfl

/-- The reference's statements are the host spelling at 8 x 512, applied to the product. -/
theorem dense2_host (X : FVec Ideal S8x4096 .f32) (W : FVec Ideal S4096x512 .f32) (g be : FVec Ideal S512 .f32) :
    Cert.Bridge.RefSpec.dense2 (F := Ideal) X W g be
      = bnHost Cert.ReferenceIdeal.Gen.reducesTo_S8x512_S512_d0 Cert.ReferenceIdeal.Gen.h_S_
          Cert.ReferenceIdeal.Gen.bcast_S512_S1x512_1 Cert.ReferenceIdeal.Gen.bcast_S_S1x512
          Cert.ReferenceIdeal.Gen.bcast_S1x512_S8x512_0_1 Cert.ReferenceIdeal.Gen.bcast_S_S8x512
          0x41000000#32 0x3A83126F#32 0x3E99999A#32 g be
          (Host.dotGeneral Cert.ReferenceIdeal.dot_S8x4096_S4096x512_S8x512_1_0_0_1_n_n none X W) := rfl

/-- Level 2: the kernel's body on the arrays its windows hold (the zero row in the bias place) is the reference's
    dense stretch. -/
theorem dense2_eq (X : FVec Ideal S8x4096 .f32) (W : FVec Ideal S4096x512 .f32) (g be : FVec Ideal S512 .f32) :
    k5_pay1 (F := Ideal) X W
        (broadcastInDim S1x512 ![] bcast_S_S1x512 (constant (F := Ideal) S_ .f32 0x00000000#32))
        (shapeCast S1x512 g shapeCasts_S512_S1x512) (shapeCast S1x512 be shapeCasts_S512_S1x512)
      = Cert.Bridge.RefSpec.dense2 (F := Ideal) X W g be := by
  refine (k5_vec X W _ _ _).trans ?_
  refine (bnVec_eq _ _ _ _ _ _ _ _ _ _ g be _).trans ?_
  refine Eq.trans ?_ (dense2_host X W g be).symm
  refine Eq.trans ?_ (bnHost_eq _ _ _ _ _ _ _ _ _ pos_8 g be _).symm
  refine congrArg (bnAct _ _ _ _ g be) ?_
  refine (congrArg (fun A => addf A _) (proj_vec _ rfl rfl rfl rfl (fun _ _ => rfl) (fun _ _ => rfl) _ _ X W)).trans ?_
  refine (zero_row_vec _ _ _ _).trans ?_
  exact (dotGeneral_eq_lift _ rfl rfl rfl rfl (fun _ _ => rfl) (fun _ _ => rfl) none X W).symm

end Cert.Bridge.Dense

end
-- ==== Proof.DenseL1.lean ====
/-
  Dense level 1 of the network, kernel against reference, as arrays of extended reals.

  Both sides multiply the 1000 x 2048 aggregate by the 2048 x 256 weight, normalise each of the 256 columns over
  the 1000 rows (mean, centred second moment, reciprocal square root of the variance plus 1e-3, scale g, shift be) and
  apply the leaky rectifier of slope 0.3. The kernel also adds a row of zeros to the product, which changes nothing
  on the extended reals. The kernel's body is the vector spelling of that function and the reference's statements are
  the host spelling; each is unfolded to the generic spelling by definitional unfolding alone, and the generic
  theorems do the rest. The one numerical fact used is 1000 > 0.
-/
import proofs.«105096_j6674379178666_1_alg».proof.Proof.Gen.KernelIdeal
import proofs.«105096_j6674379178666_1_alg».proof.Proof.Gen.KernelIdeal.Skeleton
import proofs.«105096_j6674379178666_1_alg».proof.Proof.Gen.ReferenceIdeal
import proofs.«105096_j6674379178666_1_alg».proof.Proof.RefSpec
import proofs.«105096_j6674379178666_1_alg».proof.Proof.LibBatchNorm
import proofs.«105096_j6674379178666_1_alg».proof.Proof.DenseConsts
import proofs.«105096_j6674379178666_1_alg».proof.Proof.DenseProj

noncomputable section

namespace Cert.Bridge.Dense

open Idealize.ShloMosaic Idealize.ShloMosaic.ValueIdx Cert.Lib.Rows Cert.Lib.BatchNorm
open Cert.KernelIdeal Cert.KernelIdeal.Gen

/-- The kernel's body is the vector spelling at 1000 x 256, applied to the product plus the row it is handed. -/
theorem k3_vec (X : FVec Ideal S1000x2048 .f32) (W : FVec Ideal S2048x256 .f32) (b1 g1 be1 : FVec Ideal S1x256 .f32) :
    k3_pay1 (F := Ideal) X W b1 g1 be1
      = bnVec reduces_S1000x256_S256 (.inl rfl) rfl shapeCasts_S256_S1x256 shapeCasts_S1x256_S1x256 broadcasts_S1x256_S1000x256
          (FloatOps.ofBits .f32 0x447A0000#32) (FloatOps.ofBits .f32 0x3A83126F#32) (FloatOps.ofBits .f32 0x3E99999A#32)
          (FloatOps.ofBits .f32 0x00000000#32) g1 be1
          (addf (matmul dot_S1000x2048_S2048x256_S1000x256_1_0_0_1_n_n none
              (truncf .bf16 (shapeCast S1000x2048 X shapeCasts_S1000x2048_S1000x2048) bitsLt_bf16_f32) (truncf .bf16 W bitsLt_bf16_f32)
              (constant S1000x256 .f32 0x00000000#32))
            (broadcastTo S1000x256 (shapeCast S1x256 b1 shapeCasts_S1x256_S1x256) broadcasts_S1x256_S1000x256)) := rfl

/-- The reference's statements are the host spelling at 1000 x 256, applied to the product. -/
theorem dense1_host (X : FVec Ideal S1000x2048 .f32) (W : FVec Ideal S2048x256 .f32) (g be : FVec Ideal S256 .f32) :
    Cert.Bridge.RefSpec.dense1 (F := Ideal) X W g be
      = bnHost Cert.ReferenceIdeal.Gen.reducesTo_S1000x256_S256_d0 Cert.ReferenceIdeal.Gen.h_S_
          Cert.ReferenceIdeal.Gen.bcast_S256_S1x256_1 Cert.ReferenceIdeal.Gen.bcast_S_S1x256
          Cert.ReferenceIdeal.Gen.bcast_S1x256_S1000x256_0_1 Cert.ReferenceIdeal.Gen.bcast_S_S1000x256
          0x447A0000#32 0x3A83126F#32 0x3E99999A#32 g be
          (Host.dotGeneral Cert.ReferenceIdeal.dot_S1000x2048_S2048x256_S1000x256_1_0_0_1_n_n none X W) := rfl

/-- Level 1: the kernel's body on the arrays its windows hold (the zero row in the bias place) is the reference's
    dense stretch. -/
theorem dense1_eq (X : FVec Ideal S1000x2048 .f32) (W : FVec Ideal S2048x256 .f32) (g be : FVec Ideal S256 .f32) :
    k3_pay1 (F := Ideal) X W
        (broadcastInDim S1x256 ![] bcast_S_S1x256 (constant (F := Ideal) S_ .f32 0x00000000#32))
        (shapeCast S1x256 g shapeCasts_S256_S1x256) (shapeCast S1x256 be shapeCasts_S256_S1x256)
      = Cert.Bridge.RefSpec.dense1 (F := Ideal) X W g be := by
  refine (k3_vec X W _ _ _).trans ?_
  refine (bnVec_eq _ _ _ _ _ _ _ _ _ _ g be _).trans ?_
  refine Eq.trans ?_ (dense1_host X W g be).symm
  refine Eq.trans ?_ (bnHost_eq _ _ _ _ _ _ _ _ _ pos_1000 g be _).symm
  refine congrArg (bnAct _ _ _ _ g be) ?_
  refine (congrArg (fun A => addf A _) (proj_vec _ rfl rfl rfl rfl (fun _ _ => rfl) (fun _ _ => rfl) _ _ X W)).trans ?_
  refine (zero_row_vec _ _ _ _).trans ?_
  exact (dotGeneral_eq_lift _ rfl rfl rfl rfl (fun _ _ => rfl) (fun _ _ => rfl) none X W).symm

end Cert.Bridge.Dense

end
-- ==== Proof.DenseL0.lean ====
/-
  Dense level 0 of the network, kernel against reference, as arrays of extended reals.

  Both sides multiply the 8000 x 16 aggregate by the 16 x 128 weight, normalise each of the 128 columns over
  the 8000 rows (mean, centred second moment, reciprocal square root of the variance plus 1e-3, scale g, shift be) and
  apply the leaky rectifier of slope 0.3. The kernel also adds a row of zeros to the product, which changes nothing
  on the extended reals. The kernel's body is the vector spelling of that function and the reference's statements are
  the host spelling; each is unfolded to the generic spelling by definitional unfolding alone, and the generic
  theorems do the rest. The one numerical fact used is 8000 > 0.
-/
import proofs.«105096_j6674379178666_1_alg».proof.Proof.Gen.KernelIdeal
import proofs.«105096_j6674379178666_1_alg».proof.Proof.Gen.KernelIdeal.Skeleton
import proofs.«105096_j6674379178666_1_alg».proof.Proof.Gen.ReferenceIdeal
import proofs.«105096_j6674379178666_1_alg».proof.Proof.RefSpec
import proofs.«105096_j6674379178666_1_alg».proof.Proof.LibBatchNorm
import proofs.«105096_j6674379178666_1_alg».proof.Proof.DenseConsts
import proofs.«105096_j6674379178666_1_alg».proof.Proof.DenseProj

noncomputable section

namespace Cert.Bridge.Dense

open Idealize.ShloMosaic Idealize.ShloMosaic.ValueIdx Cert.Lib.Rows Cert.Lib.BatchNorm
open Cert.KernelIdeal Cert.KernelIdeal.Gen

/-- The kernel's body is the vector spelling at 8000 x 128, applied to the product plus the row it is handed. -/
theorem k1_vec (X : FVec Ideal S8000x16 .f32) (W : FVec Ideal S16x128 .f32) (b1 g1 be1 : FVec Ideal S1x128 .f32) :
    k1_pay1 (F := Ideal) X W b1 g1 be1
      = bnVec reduces_S8000x128_S128 (.inl rfl) rfl shapeCasts_S128_S1x128 shapeCasts_S1x128_S1x128 broadcasts_S1x128_S8000x128
          (FloatOps.ofBits .f32 0x45FA0000#32) (FloatOps.ofBits .f32 0x3A83126F#32) (FloatOps.ofBits .f32 0x3E99999A#32)
          (FloatOps.ofBits .f32 0x00000000#32) g1 be1
          (addf (matmul dot_S8000x16_S16x128_S8000x128_1_0_0_1_n_n none
              (truncf .bf16 (shapeCast S8000x16 X shapeCasts_S8000x16_S8000x16) bitsLt_bf16_f32) (truncf .bf16 W bitsLt_bf16_f32)
              (constant S8000x128 .f32 0x00000000#32))
            (broadcastTo S8000x128 (shapeCast S1x128 b1 shapeCasts_S1x128_S1x128) broadcasts_S1x128_S8000x128)) := rfl

/-- The reference's statements are the host spelling at 8000 x 128, applied to the product. -/
theorem dense0_host (X : FVec Ideal S8000x16 .f32) (W : FVec Ideal S16x128 .f32) (g be : FVec Ideal S128 .f32) :
    Cert.Bridge.RefSpec.dense0 (F := Ideal) X W g be
      = bnHost Cert.ReferenceIdeal.Gen.reducesTo_S8000x128_S128_d0 Cert.ReferenceIdeal.Gen.h_S_
          Cert.ReferenceIdeal.Gen.bcast_S128_S1x128_1 Cert.ReferenceIdeal.Gen.bcast_S_S1x128
          Cert.ReferenceIdeal.Gen.bcast_S1x128_S8000x128_0_1 Cert.ReferenceIdeal.Gen.bcast_S_S8000x128
          0x45FA0000#32 0x3A83126F#32 0x3E99999A#32 g be
          (Host.dotGeneral Cert.ReferenceIdeal.dot_S8000x16_S16x128_S8000x128_1_0_0_1_n_n none X W) := rfl

/-- Level 0: the kernel's body on the arrays its windows hold (the zero row in the bias place) is the reference's
    dense stretch. -/
theorem dense0_eq (X : FVec Ideal S8000x16 .f32) (W : FVec Ideal S16x128 .f32) (g be : FVec Ideal S128 .f32) :
    k1_pay1 (F := Ideal) X W
        (broadcastInDim S1x128 ![] bcast_S_S1x128 (constant (F := Ideal) S_ .f32 0x00000000#32))
        (shapeCast S1x128 g shapeCasts_S128_S1x128) (shapeCast S1x128 be shapeCasts_S128_S1x128)
      = Cert.Bridge.RefSpec.dense0 (F := Ideal) X W g be := by
  refine (k1_vec X W _ _ _).trans ?_
  refine (bnVec_eq _ _ _ _ _ _ _ _ _ _ g be _).trans ?_
  refine Eq.trans ?_ (dense0_host X W g be).symm
  refine Eq.trans ?_ (bnHost_eq _ _ _ _ _ _ _ _ _ pos_8000 g be _).symm
  refine congrArg (bnAct _ _ _ _ g be) ?_
  refine (congrArg (fun A => addf A _) (proj_vec _ rfl rfl rfl rfl (fun _ _ => rfl) (fun _ _ => rfl) _ _ X W)).trans ?_
  refine (zero_row_vec _ _ _ _).trans ?_
  exact (dotGeneral_eq_lift _ rfl rfl rfl rfl (fun _ _ => rfl) (fun _ _ => rfl) none X W).symm

end Cert.Bridge.Dense

end
-- ==== Proof.Dense.lean ====
/-
  The dense, batch-normalisation and leaky-rectifier stage of the network at its four places, kernel against
  reference: levels 0, 1 and 2 (a product with the level's weight, normalisation of every column over the rows, slope
  0.3) and the head (the same with the dense bias added before the normalisation). Each of the four equations says
  that the kernel's one-grid-point body, applied to the arrays its windows hold, is the reference's stretch of host
  statements applied to the same arrays, as arrays of extended reals. This module only gathers the four.
-/
import proofs.«105096_j6674379178666_1_alg».proof.Proof.DenseHead
import proofs.«105096_j6674379178666_1_alg».proof.Proof.DenseL2
import proofs.«105096_j6674379178666_1_alg».proof.Proof.DenseL1
import proofs.«105096_j6674379178666_1_alg».proof.Proof.DenseL0
-- ==== Proof.EdgeSpec.lean ====
/-
  The scalar arithmetic of one edge of a Monte-Carlo convolution level, shared by both programs.

  For an edge with source position P, destination position Q (three coordinates each), a scale c, the column W of the
  3 x 16 basis weights for hidden unit h and that unit's bias b, the basis layer's pre-activation is
      pre = Σₖ (Pₖ − Qₖ) · c · Wₖ + b
  and its value is the leaky rectifier with slope 0.2 of it: z where z ≥ 0, 0.2 · z elsewhere (both programs spell it as a
  comparison with +0.0, a product with the slope word 0x3E4CCCCD and a select).
-/
import Idealize.ShloMosaic.PureOps.Ideal
import Idealize.ShloMosaic.PureOps.Ideal.Laws

noncomputable section

open scoped BigOperators

namespace Cert.Bridge.EdgeSpec

open Idealize.ShloMosaic

/-- The leaky rectifier with slope 0.2, as both programs spell it. -/
def act (z : EReal) : EReal :=
  Scalar.select (FloatOps.cmpf (F := Ideal) (φ := .f32) CmpFPredicate.oge z (FloatOps.ofBits (F := Ideal) .f32 0x00000000#32)) z
    (FloatOps.ofBits (F := Ideal) .f32 0x3E4CCCCD#32 * z)

/-- The basis layer's pre-activation for one edge and one hidden unit. -/
def pre (P Q : Fin 3 → EReal) (c : EReal) (W : Fin 3 → EReal) (b : EReal) : EReal :=
  ∑ k : Fin 3, (P k - Q k) * c * W k + b

end Cert.Bridge.EdgeSpec

end
-- ==== Proof.EdgeKer0.lean ====
/-
  The edge kernel of level 0 (tiles of 2048 edges, one input channel) at an entry of its output block.

  The body computes, for the tile's edge p and hidden unit h, the basis value
      H(p, h) = act (Σₖ (x0[p,k] − x1[p,k]) · c · Wb[k,h] + bb[0,h]),   c the named reciprocal of the level's radius,
  then lays the sixteen products H(·, h) · FT side by side, FT the single feature column: output column q holds
  H(p, q) · FT[p, 0].  Each of the sixteen one-column pieces is one function of h, so the concatenation is read in one
  step: column q is piece q at its only column.
-/
import proofs.«105096_j6674379178666_1_alg».proof.Proof.Gen.KernelIdeal.Skeleton
import proofs.«105096_j6674379178666_1_alg».proof.Proof.LibRows
import proofs.«105096_j6674379178666_1_alg».proof.Proof.EdgeSpec
import Idealize.ShloMosaic.PureOps.IdealRules
import Idealize.ShloMosaic.Lib.ValueIdx
import Idealize.ShloMosaic.Lib.Pipeline.Value
import Idealize.ShloMosaic.PureOps.Ideal.Laws

noncomputable section

open scoped BigOperators

namespace Cert.Bridge.EdgeKer0

open Cert.KernelIdeal Cert.KernelIdeal.Gen Idealize.ShloMosaic Idealize.ShloMosaic.ValueIdx Cert.Bridge.EdgeSpec

variable [Cert.KernelIdeal.Facts]

/-- The 2048 x 3 by 3 x 16 product into a zero accumulator, at (p, h): the sum over the three coordinates. -/
theorem mm_apply (L : FVec Ideal S2048x3 .bf16) (R : FVec Ideal S3x16 .bf16) (p : Fin 2048) (hh : Fin 16) :
    matmul dot_S2048x3_S3x16_S2048x16_1_0_0_1_n_n none L R (constant S2048x16 .f32 0x00000000#32) (ix2 p hh)
      = ∑ k : Fin 3, L (ix2 p k) * R (ix2 k hh) :=
  (Ideal.matmul_constant_zero_apply _ _ L R _).trans
    (Cert.Lib.Rows.sum_contr _ rfl rfl rfl rfl (fun _ _ => rfl) (fun _ _ => rfl) L R p hh)

/-- The bias row broadcast down the tile, at (p, h): the row's entry h. -/
theorem bias_apply (v : FVec Ideal S1x16 .f32) (hb : S1x16.Broadcasts S2048x16) (p : Fin 2048) (hh : Fin 16) :
    broadcastTo S2048x16 v hb (ix2 p hh) = v (ix2 (0 : Fin 1) hh) :=
  broadcastTo_apply v hb _ _ (by intro a; match a with | ⟨0, _⟩ => rfl | ⟨1, _⟩ => rfl)

/-- THE BASIS LAYER AT (p, h). -/
theorem pay2_apply (x0 x1 : Vec Ideal S2048x3 .f32) (x3 : Vec Ideal S3x16 .f32) (x4 : Vec Ideal S1x16 .f32) (p : Fin 2048) (hh : Fin 16) :
    k0_pay2 (F := Ideal) x0 x1 x3 x4 (ix2 p hh)
      = act (pre (fun k => x0 (ix2 p k)) (fun k => x1 (ix2 p k)) (Named.named (F := Ideal) κ "inv_r0" (φ := .f32) 0x41200000#32)
          (fun k => x3 (ix2 k hh)) (x4 (ix2 (0 : Fin 1) hh))) := by
  unfold k0_pay2
  simp only [select_apply, cmpf_apply, mulf_apply, addf_apply, subf_apply, broadcast_apply, shapeCast_self, truncf_apply,
    mm_apply, bias_apply]
  rfl

/-- Column h of the basis layer times the gathered feature column. -/
def piece (H : FVec Ideal S2048x16 .f32) (FT : FVec Ideal S2048x1 .f32) (hh : Fin 16) : S2048x1.Idx → EReal :=
  fun y => H (ix2 (n0 := 2048) (n1 := 16) ⟨(y 0).val, idx2_lt0 y⟩ hh) * FT y

/-- Every one of the body's sixteen pieces is that function of its column number. -/
theorem piece_eq (H : FVec Ideal S2048x16 .f32) (FT : FVec Ideal S2048x1 .f32) (o : Nat) (ho : o < 16)
    (hs : S2048x16.Slices ![0, o] S2048x1) :
    mulf (extractStridedSlice S2048x1 ![0, o] H hs) FT = piece H FT ⟨o, ho⟩ := by
  funext y
  show extractStridedSlice S2048x1 ![0, o] H hs y * FT y = _ * FT y
  congr 1
  exact extractStridedSlice_apply ![0, o] H hs y (ix2 (n0 := 2048) (n1 := 16) ⟨(y 0).val, idx2_lt0 y⟩ ⟨o, ho⟩)
    (by
      intro a
      match a with
      | ⟨0, _⟩ => exact (Nat.zero_add _).symm
      | ⟨1, _⟩ => show o = o + (y 1).val; have := idx2_lt1 y; omega)

/-- THE BODY'S STORED VALUE AT (p, q): the basis value of hidden unit q times the feature of edge p. -/
theorem body_apply (x0 x1 : Vec Ideal S2048x3 .f32) (x2 : Vec Ideal S2048x1 .f32) (x3 : Vec Ideal S3x16 .f32) (x4 : Vec Ideal S1x16 .f32)
    (p : Fin 2048) (q : Fin 16) :
    k0_pay1 (F := Ideal) (k0_pay2 x0 x1 x3 x4) (k0_pay3 x2) (k0_pay4 x0 x1 x3 x4 x2) (k0_pay5 x0 x1 x3 x4 x2) (k0_pay6 x0 x1 x3 x4 x2)
        (k0_pay7 x0 x1 x3 x4 x2) (k0_pay8 x0 x1 x3 x4 x2) (k0_pay9 x0 x1 x3 x4 x2) (k0_pay10 x0 x1 x3 x4 x2) (k0_pay11 x0 x1 x3 x4 x2)
        (k0_pay12 x0 x1 x3 x4 x2) (k0_pay13 x0 x1 x3 x4 x2) (k0_pay14 x0 x1 x3 x4 x2) (k0_pay15 x0 x1 x3 x4) (ix2 p q)
      = k0_pay2 (F := Ideal) x0 x1 x3 x4 (ix2 p q) * x2 (ix2 p (0 : Fin 1)) := by
  unfold k0_pay1 k0_pay4 k0_pay5 k0_pay6 k0_pay7 k0_pay8 k0_pay9 k0_pay10 k0_pay11 k0_pay12 k0_pay13 k0_pay14 k0_pay15 k0_pay3
  simp only [shapeCast_self]
  simp only [piece_eq _ _ 0 (by norm_num), piece_eq _ _ 1 (by norm_num), piece_eq _ _ 2 (by norm_num), piece_eq _ _ 3 (by norm_num),
    piece_eq _ _ 4 (by norm_num), piece_eq _ _ 5 (by norm_num), piece_eq _ _ 6 (by norm_num), piece_eq _ _ 7 (by norm_num),
    piece_eq _ _ 8 (by norm_num), piece_eq _ _ 9 (by norm_num), piece_eq _ _ 10 (by norm_num), piece_eq _ _ 11 (by norm_num),
    piece_eq _ _ 12 (by norm_num), piece_eq _ _ 13 (by norm_num), piece_eq _ _ 14 (by norm_num), piece_eq _ _ 15 (by norm_num)]
  exact concatenate_ofFn_apply (t := S2048x16) (s₁ := S2048x1) 1
    (fun n : Fin 16 => piece (k0_pay2 (F := Ideal) x0 x1 x3 x4) x2 n) _ rfl 1 rfl (ix2 p q)
    q (Nat.div_one _) (ix2 p (0 : Fin 1)) (Nat.mod_one _).symm
    (fun b hb => by match b with | ⟨0, _⟩ => rfl | ⟨1, _⟩ => exact absurd rfl hb)

end Cert.Bridge.EdgeKer0

end
-- ==== Proof.AggKer0.lean ====
/-
  Level 0 of the kernel program, read at an index.

  The edge array has one row per lengthened edge; only the first 980628 rows are real edges. For a real edge
  e = 2048 t + p the row lies in tile t at row p, where the kernel body left, in column h (the level has one channel),
      act (Σₖ (Psrc[e,k] − Pdst[e,k]) · c · Wb[k,h] + bb[h]) · feat[e,0],     c the named reciprocal of the radius,
  Psrc, Pdst, feat being the gathered rows (the appended zero rows are never read by a real edge).
-/
import proofs.«105096_j6674379178666_1_alg».proof.Proof.KerSpec
import proofs.«105096_j6674379178666_1_alg».proof.Proof.KerRegionsEdge0
import proofs.«105096_j6674379178666_1_alg».proof.Proof.EdgeKer0
import Idealize.ShloMosaic.Lib.KernelVsHost
import Idealize.ShloMosaic.Lib.ValueLayout

noncomputable section

open scoped BigOperators

namespace Cert.Bridge.AggKer0

open Cert.KernelIdeal Cert.KernelIdeal.Gen Cert.KernelIdeal.KerRegions Idealize.ShloMosaic Idealize.ShloMosaic.ValueIdx
open Cert.Bridge Cert.Bridge.EdgeSpec
open Cert.KernelIdeal.Facts₀ Cert.KernelIdeal.Facts

variable [Cert.KernelIdeal.Facts]

/-- A lengthened array read at a real edge's row is the array before lengthening. -/
theorem pad_row {n : Nat} (G : (⟨2, ![980628, n]⟩ : Shape).Idx → EReal) {u : Shape} (v : u.Idx → EReal)
    (hp : (⟨2, ![980628, n]⟩ : Shape).Pads ![0, 0] ![364, 0] ![0, 0] ⟨2, ![980992, n]⟩) (hu : 0 < u.numel)
    (m : Nat) (h1 : m < 980992) (h2 : m < 980628) (k : Fin n) :
    pad ⟨2, ![980992, n]⟩ ![0, 0] ![364, 0] ![0, 0] G v hp hu (ix2 (n0 := 980992) (n1 := n) ⟨m, h1⟩ k) = G (ix2 (n0 := 980628) (n1 := n) ⟨m, h2⟩ k) :=
  pad_apply_of_inside _ _ _ G v hp hu _ _ (by
    intro a
    match a with
    | ⟨0, _⟩ => show m = 0 + m * (0 + 1); omega
    | ⟨1, _⟩ => show k.val = 0 + k.val * (0 + 1); omega)

/-- The source positions of the level's edges, as the kernel program gathers them. -/
abbrev gsrc (a1 : Vec Ideal S262144x3 .f32) (a5 : Vec Ideal S980628 .i32) : Vec Ideal S980628x3 .f32 :=
  Host.gather gather_S262144x3_S980628x1_S980628x3_1_0_n_n_0_1_13 a1 (KerSpec.wrap0 262144#32 a5)
/-- The destination positions of the level's edges. -/
abbrev gdst (a2 : Vec Ideal S8000x3 .f32) (a6 : Vec Ideal S980628 .i32) : Vec Ideal S980628x3 .f32 :=
  Host.gather gather_S8000x3_S980628x1_S980628x3_1_0_n_n_0_1_13 a2 (KerSpec.wrap0 8000#32 a6)
/-- The source features of the level's edges. -/
abbrev gfeat (a0 : Vec Ideal S262144x1 .f32) (a5 : Vec Ideal S980628 .i32) : Vec Ideal S980628x1 .f32 :=
  Host.gather gather_S262144x1_S980628x1_S980628x1_1_0_n_n_0_1_11 a0 (KerSpec.wrap0 262144#32 a5)

theorem ps0_row (a1 : Vec Ideal S262144x3 .f32) (a5 : Vec Ideal S980628 .i32) (m : Nat) (h1 : m < 980992) (h2 : m < 980628) (k : Fin 3) :
    KerSpec.ps0 a1 a5 (ix2 (n0 := 980992) (n1 := 3) ⟨m, h1⟩ k) = gsrc a1 a5 (ix2 (n0 := 980628) (n1 := 3) ⟨m, h2⟩ k) := by
  unfold KerSpec.ps0
  exact pad_row _ _ _ _ m h1 h2 k

theorem pd0_row (a2 : Vec Ideal S8000x3 .f32) (a6 : Vec Ideal S980628 .i32) (m : Nat) (h1 : m < 980992) (h2 : m < 980628) (k : Fin 3) :
    KerSpec.pd0 a2 a6 (ix2 (n0 := 980992) (n1 := 3) ⟨m, h1⟩ k) = gdst a2 a6 (ix2 (n0 := 980628) (n1 := 3) ⟨m, h2⟩ k) := by
  unfold KerSpec.pd0
  exact pad_row _ _ _ _ m h1 h2 k

theorem ft0_row (a0 : Vec Ideal S262144x1 .f32) (a5 : Vec Ideal S980628 .i32) (m : Nat) (h1 : m < 980992) (h2 : m < 980628) (k : Fin 1) :
    KerSpec.ft0 a0 a5 (ix2 (n0 := 980992) (n1 := 1) ⟨m, h1⟩ k) = gfeat a0 a5 (ix2 (n0 := 980628) (n1 := 1) ⟨m, h2⟩ k) := by
  unfold KerSpec.ft0
  exact pad_row _ _ _ _ m h1 h2 k

theorem bb0_apply (a12 : Vec Ideal S16 .f32) (u : Fin 1) (hh : Fin 16) : KerSpec.bb0 a12 (ix2 u hh) = a12 (ix1 hh) := by
  unfold KerSpec.bb0
  exact shapeCast_a_1a_apply a12 _ u hh

/-- A REAL EDGE'S ENTRY OF THE EDGE ARRAY, after the appended rows are dropped. -/
theorem edge_apply (a0 : Vec Ideal S262144x1 .f32) (a1 : Vec Ideal S262144x3 .f32) (a2 : Vec Ideal S8000x3 .f32) (a5 a6 : Vec Ideal S980628 .i32)
    (a11 : Vec Ideal S3x16 .f32) (a12 : Vec Ideal S16 .f32) (hs : S980992x16.Slices ![0, 0] S980628x16) (e : Fin 980628) (q : Fin 16) :
    extractStridedSlice S980628x16 ![0, 0]
        (edge0 (KerSpec.ps0 a1 a5) (KerSpec.pd0 a2 a6) (KerSpec.ft0 a0 a5) a11 (KerSpec.bb0 a12)) hs (ix2 e q)
      = act (pre (fun k => gsrc a1 a5 (ix2 e k)) (fun k => gdst a2 a6 (ix2 e k))
            (Named.named (F := Ideal) κ "inv_r0" (φ := .f32) 0x41200000#32)
            (fun k => a11 (ix2 k q)) (a12 (ix1 q)))
          * gfeat a0 a5 (ix2 e (0 : Fin 1)) := by
  have he := e.isLt
  obtain ⟨t, p, h2, rfl⟩ : ∃ (t : Fin 479) (p : Fin 2048) (h2 : 2048 * t.val + p.val < 980628), e = ⟨2048 * t.val + p.val, h2⟩ :=
    ⟨⟨e.val / 2048, by omega⟩, ⟨e.val % 2048, Nat.mod_lt _ (by norm_num)⟩, by show 2048 * (e.val / 2048) + e.val % 2048 < 980628; omega,
      Fin.ext (by show e.val = 2048 * (e.val / 2048) + e.val % 2048; omega)⟩
  have h1 : 2048 * t.val + p.val < 980992 := by omega
  refine (extractStridedSlice_apply ![0, 0] _ hs _ (ix2 (n0 := 980992) (n1 := 16) ⟨2048 * t.val + p.val, h1⟩ q)
    (by intro a; match a with | ⟨0, _⟩ => exact (Nat.zero_add _).symm | ⟨1, _⟩ => exact (Nat.zero_add _).symm)).trans ?_
  refine (edge0_apply _ _ _ _ _ t p q).trans ?_
  rw [out0_5_eq]
  refine (EdgeKer0.body_apply _ _ _ _ _ p q).trans ?_
  rw [EdgeKer0.pay2_apply]
  simp only [tileRows0_apply, ps0_row _ _ _ _ h2, pd0_row _ _ _ _ h2, ft0_row _ _ _ _ h2, bb0_apply]

end Cert.Bridge.AggKer0

end
-- ==== Proof.RefParts.lean ====
/- The pieces of each level's aggregate, as functions of what they read: gsrc_i, gdst_i, gfeat_i — the source positions,
   destination positions and source features of the level's edges (an edge's point index wrapped when negative, then the
   row gathered); core_i — one edge's contribution from those three: the offset divided by the radius, the basis layer
   with leaky-relu 0.2, and its outer product with the feature, as an [E, 16, Cin] array; cnt_i — the number of edges of
   each destination, at least 1. -/
import proofs.«105096_j6674379178666_1_alg».proof.Proof.RefSpec

noncomputable section

namespace Cert.Bridge.RefParts

open Cert.ReferenceIdeal Idealize.ShloMosaic Idealize.ShloMosaic.TcCoe Idealize.SL.Sem Cert.Bridge
open Cert.ReferenceIdeal.Facts₀ Cert.ReferenceIdeal.Facts

variable {F : FTy → Type} [FloatOps F] [Facts]

/-- Statements main_c … main_v6 of the reference's @main, over variables for what they read from outside. -/
def gsrc0 (main_arg5 : (⟨S980628, .i32⟩ : BufTy).Contents (Elt F)) (main_arg1 : (⟨S262144x3, .f32⟩ : BufTy).Contents (Elt F)) : (⟨S980628x3, .f32⟩ : BufTy).Contents (Elt F) :=
  have main_c : (⟨S_, .i32⟩ : BufTy).Contents (Elt F) := (constantI S_ 32 0#32)
  have main_v0 : (⟨S980628, .i32⟩ : BufTy).Contents (Elt F) := (broadcastInDim S980628 ![] bcast_S_S980628 : (⟨S_, .i32⟩ : BufTy).Contents (Elt F) → (⟨S980628, .i32⟩ : BufTy).Contents (Elt F)) main_c
  have main_v1 : (⟨S980628, .i1⟩ : BufTy).Contents (Elt F) := (cmpi .slt : (⟨S980628, .i32⟩ : BufTy).Contents (Elt F) → (⟨S980628, .i32⟩ : BufTy).Contents (Elt F) → (⟨S980628, .i1⟩ : BufTy).Contents (Elt F)) main_arg5 main_v0
  have main_c_0 : (⟨S_, .i32⟩ : BufTy).Contents (Elt F) := (constantI S_ 32 262144#32)
  have main_v2 : (⟨S980628, .i32⟩ : BufTy).Contents (Elt F) := (broadcastInDim S980628 ![] bcast_S_S980628 : (⟨S_, .i32⟩ : BufTy).Contents (Elt F) → (⟨S980628, .i32⟩ : BufTy).Contents (Elt F)) main_c_0
  have main_v3 : (⟨S980628, .i32⟩ : BufTy).Contents (Elt F) := (addi : (⟨S980628, .i32⟩ : BufTy).Contents (Elt F) → (⟨S980628, .i32⟩ : BufTy).Contents (Elt F) → (⟨S980628, .i32⟩ : BufTy).Contents (Elt F)) main_arg5 main_v2
  have main_v4 : (⟨S980628, .i32⟩ : BufTy).Contents (Elt F) := (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)) main_v1 main_v3 main_arg5
  have main_v5 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_v4
  have main_v6 : (⟨S980628x3, .f32⟩ : BufTy).Contents (Elt F) := ((fun x i => Host.gather gather_S262144x3_S980628x1_S980628x3_1_0_n_n_0_1_13 x i) : (⟨S262144x3, .f32⟩ : BufTy).Contents (Elt F) → (⟨S980628x1, .i32⟩ : BufTy).Contents (Elt F) → (⟨S980628x3, .f32⟩ : BufTy).Contents (Elt F)) main_arg1 main_v5
  main_v6

/-- Statements main_c_1 … main_v13 of the reference's @main, over variables for what they read from outside. -/
def gdst0 (main_arg6 : (⟨S980628, .i32⟩ : BufTy).Contents (Elt F)) (main_arg2 : (⟨S8000x3, .f32⟩ : BufTy).Contents (Elt F)) : (⟨S980628x3, .f32⟩ : BufTy).Contents (Elt F) :=
  have main_c_1 : (⟨S_, .i32⟩ : BufTy).Contents (Elt F) := (constantI S_ 32 0#32)
  have main_v7 : (⟨S980628, .i32⟩ : BufTy).Contents (Elt F) := (broadcastInDim S980628 ![] bcast_S_S980628 : (⟨S_, .i32⟩ : BufTy).Contents (Elt F) → (⟨S980628, .i32⟩ : BufTy).Contents (Elt F)) main_c_1
  have main_v8 : (⟨S980628, .i1⟩ : BufTy).Contents (Elt F) := (cmpi .slt : (⟨S980628, .i32⟩ : BufTy).Contents (Elt F) → (⟨S980628, .i32⟩ : BufTy).Contents (Elt F) → (⟨S980628, .i1⟩ : BufTy).Contents (Elt F)) main_arg6 main_v7
  have main_c_2 : (⟨S_, .i32⟩ : BufTy).Contents (Elt F) := (constantI S_ 32 8000#32)
  have main_v9 : (⟨S980628, .i32⟩ : BufTy).Contents (Elt F) := (broadcastInDim S980628 ![] bcast_S_S980628 : (⟨S_, .i32⟩ : BufTy).Contents (Elt F) → (⟨S980628, .i32⟩ : BufTy).Contents (Elt F)) main_c_2
  have main_v10 : (⟨S980628, .i32⟩ : BufTy).Contents (Elt F) := (addi : (⟨S980628, .i32⟩ : BufTy).Contents (Elt F) → (⟨S980628, .i32⟩ : BufTy).Contents (Elt F) → (⟨S980628, .i32⟩ : BufTy).Contents (Elt F)) main_arg6 main_v9
  have main_v11 : (⟨S980628, .i32⟩ : BufTy).Contents (Elt F) := (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)) main_v8 main_v10 main_arg6
  have main_v12 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_v11
  have main_v13 : (⟨S980628x3, .f32⟩ : BufTy).Contents (Elt F) := ((fun x i => Host.gather gather_S8000x3_S980628x1_S980628x3_1_0_n_n_0_1_13 x i) : (⟨S8000x3, .f32⟩ : BufTy).Contents (Elt F) → (⟨S980628x1, .i32⟩ : BufTy).Contents (Elt F) → (⟨S980628x3, .f32⟩ : BufTy).Contents (Elt F)) main_arg2 main_v12
  main_v13

/-- Statements main_c_4 … main_v29 of the reference's @main, over variables for what they read from outside. -/
def gfeat0 (main_arg5 : (⟨S980628, .i32⟩ : BufTy).Contents (Elt F)) (main_arg0 : (⟨S262144x1, .f32⟩ : BufTy).Contents (Elt F)) : (⟨S980628x1, .f32⟩ : BufTy).Contents (Elt F) :=
  have main_c_4 : (⟨S_, .i32⟩ : BufTy).Contents (Elt F) := (constantI S_ 32 0#32)
  have main_v23 : (⟨S980628, .i32⟩ : BufTy).Contents (Elt F) := (broadcastInDim S980628 ![] bcast_S_S980628 : (⟨S_, .i32⟩ : BufTy).Contents (Elt F) → (⟨S980628, .i32⟩ : BufTy).Contents (Elt F)) main_c_4
  have main_v24 : (⟨S980628, .i1⟩ : BufTy).Contents (Elt F) := (cmpi .slt : (⟨S980628, .i32⟩ : BufTy).Contents (Elt F) → (⟨S980628, .i32⟩ : BufTy).Contents (Elt F) → (⟨S980628, .i1⟩ : BufTy).Contents (Elt F)) main_arg5 main_v23
  have main_c_5 : (⟨S_, .i32⟩ : BufTy).Contents (Elt F) := (constantI S_ 32 262144#32)
  have main_v25 : (⟨S980628, .i32⟩ : BufTy).Contents (Elt F) := (broadcastInDim S980628 ![] bcast_S_S980628 : (⟨S_, .i32⟩ : BufTy).Contents (Elt F) → (⟨S980628, .i32⟩ : BufTy).Contents (Elt F)) main_c_5
  have main_v26 : (⟨S980628, .i32⟩ : BufTy).Contents (Elt F) := (addi : (⟨S980628, .i32⟩ : BufTy).Contents (Elt F) → (⟨S980628, .i32⟩ : BufTy).Contents (Elt F) → (⟨S980628, .i32⟩ : BufTy).Contents (Elt F)) main_arg5 main_v25
  have main_v27 : (⟨S980628, .i32⟩ : BufTy).Contents (Elt F) := (select : (⟨S980628, .i1⟩ : BufTy).Contents (Elt F) → (⟨S980628, .i32⟩ : BufTy).Contents (Elt F) → (⟨S980628, .i32⟩ : BufTy).Contents (Elt F) → (⟨S980628, .i32⟩ : BufTy).Contents (Elt F)) main_v24 main_v26 main_arg5
  have main_v28 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_v27
  have main_v29 : (⟨S980628x1, .f32⟩ : BufTy).Contents (Elt F) := ((fun x i => Host.gather gather_S262144x1_S980628x1_S980628x1_1_0_n_n_0_1_11 x i) : (⟨S262144x1, .f32⟩ : BufTy).Contents (Elt F) → (⟨S980628x1, .i32⟩ : BufTy).Contents (Elt F) → (⟨S980628x1, .f32⟩ : BufTy).Contents (Elt F)) main_arg0 main_v28
  main_v29

/-- Statements main_v14 … main_v22 and main_v30 … main_v32 of the reference's @main, over variables for what they read from outside. -/
def core0 (main_v6 : (⟨S980628x3, .f32⟩ : BufTy).Contents (Elt F)) (main_v13 : (⟨S980628x3, .f32⟩ : BufTy).Contents (Elt F)) (main_arg11 : (⟨S3x16, .f32⟩ : BufTy).Contents (Elt F)) (main_arg12 : (⟨S16, .f32⟩ : BufTy).Contents (Elt F)) (main_v29 : (⟨S980628x1, .f32⟩ : BufTy).Contents (Elt F)) : (⟨S980628x16x1, .f32⟩ : BufTy).Contents (Elt F) :=
  have main_v14 : (⟨S980628x3, .f32⟩ : BufTy).Contents (Elt F) := (subf : (⟨S980628x3, .f32⟩ : BufTy).Contents (Elt F) → (⟨S980628x3, .f32⟩ : BufTy).Contents (Elt F) → (⟨S980628x3, .f32⟩ : BufTy).Contents (Elt F)) main_v6 main_v13
  have main_cst : (⟨S_, .f32⟩ : BufTy).Contents (Elt F) := (constant S_ .f32 0x3DCCCCCD#32)
  have main_v15 : (⟨S980628x3, .f32⟩ : BufTy).Contents (Elt F) := (broadcastInDim S980628x3 ![] bcast_S_S980628x3 : (⟨S_, .f32⟩ : BufTy).Contents (Elt F) → (⟨S980628x3, .f32⟩ : BufTy).Contents (Elt F)) main_cst
  have main_v16 : (⟨S980628x3, .f32⟩ : BufTy).Contents (Elt F) := (Host.divf : (⟨S980628x3, .f32⟩ : BufTy).Contents (Elt F) → (⟨S980628x3, .f32⟩ : BufTy).Contents (Elt F) → (⟨S980628x3, .f32⟩ : BufTy).Contents (Elt F)) main_v14 main_v15
  have main_v17 : (⟨S980628x16, .f32⟩ : BufTy).Contents (Elt F) := ((fun l r => Host.dotGeneral dot_S980628x3_S3x16_S980628x16_1_0_0_1_n_n none l r) : (⟨S980628x3, .f32⟩ : BufTy).Contents (Elt F) → (⟨S3x16, .f32⟩ : BufTy).Contents (Elt F) → (⟨S980628x16, .f32⟩ : BufTy).Contents (Elt F)) main_v16 main_arg11
  have main_v18 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_arg12
  have main_v19 : (⟨S980628x16, .f32⟩ : BufTy).Contents (Elt F) := (broadcastInDim S980628x16 ![0, 1] bcast_S1x16_S980628x16_0_1 : (⟨S1x16, .f32⟩ : BufTy).Contents (Elt F) → (⟨S980628x16, .f32⟩ : BufTy).Contents (Elt F)) main_v18
  have main_v20 : (⟨S980628x16, .f32⟩ : BufTy).Contents (Elt F) := (addf : (⟨S980628x16, .f32⟩ : BufTy).Contents (Elt F) → (⟨S980628x16, .f32⟩ : BufTy).Contents (Elt F) → (⟨S980628x16, .f32⟩ : BufTy).Contents (Elt F)) main_v17 main_v19
  have main_cst_3 : (⟨S_, .f32⟩ : BufTy).Contents (Elt F) := (constant S_ .f32 0x3E4CCCCD#32)
  have main_v21 : (⟨S980628x16, .f32⟩ : BufTy).Contents (Elt F) := RefSpec.f_leaky_relu main_v20 main_cst_3
  have main_v22 : (⟨S980628x16x1, .f32⟩ : BufTy).Contents (Elt F) := (broadcastInDim S980628x16x1 ![0, 1] bcast_S980628x16_S980628x16x1_0_1 : (⟨S980628x16, .f32⟩ : BufTy).Contents (Elt F) → (⟨S980628x16x1, .f32⟩ : BufTy).Contents (Elt F)) main_v21
  have main_v30 : (⟨S980628x1x1, .f32⟩ : BufTy).Contents (Elt F) := (broadcastInDim S980628x1x1 ![0, 2] bcast_S980628x1_S980628x1x1_0_2 : (⟨S980628x1, .f32⟩ : BufTy).Contents (Elt F) → (⟨S980628x1x1, .f32⟩ : BufTy).Contents (Elt F)) main_v29
  have main_v31 : (⟨S980628x16x1, .f32⟩ : BufTy).Contents (Elt F) := (broadcastInDim S980628x16x1 ![0, 1, 2] bcast_S980628x1x1_S980628x16x1_0_1_2 : (⟨S980628x1x1, .f32⟩ : BufTy).Contents (Elt F) → (⟨S980628x16x1, .f32⟩ : BufTy).Contents (Elt F)) main_v30
  have main_v32 : (⟨S980628x16x1, .f32⟩ : BufTy).Contents (Elt F) := (mulf : (⟨S980628x16x1, .f32⟩ : BufTy).Contents (Elt F) → (⟨S980628x16x1, .f32⟩ : BufTy).Contents (Elt F) → (⟨S980628x16x1, .f32⟩ : BufTy).Contents (Elt F)) main_v22 main_v31
  main_v32

/-- Statements main_cst_7 … main_v41 of the reference's @main, over variables for what they read from outside. -/
def cnt0 (main_arg6 : (⟨S980628, .i32⟩ : BufTy).Contents (Elt F)) : (⟨S8000, .f32⟩ : BufTy).Contents (Elt F) :=
  have main_cst_7 : (⟨S_, .f32⟩ : BufTy).Contents (Elt F) := (constant S_ .f32 0x3F800000#32)
  have main_v36 : (⟨S980628, .f32⟩ : BufTy).Contents (Elt F) := (broadcastInDim S980628 ![] bcast_S_S980628 : (⟨S_, .f32⟩ : BufTy).Contents (Elt F) → (⟨S980628, .f32⟩ : BufTy).Contents (Elt F)) main_cst_7
  have main_cst_8 : (⟨S_, .f32⟩ : BufTy).Contents (Elt F) := (constant S_ .f32 0x00000000#32)
  have main_v37 : (⟨S8000, .f32⟩ : BufTy).Contents (Elt F) := (broadcastInDim S8000 ![] bcast_S_S8000 : (⟨S_, .f32⟩ : BufTy).Contents (Elt F) → (⟨S8000, .f32⟩ : BufTy).Contents (Elt F)) main_cst_8
  have main_v38 : (⟨S980628x1, .i32⟩ : BufTy).Contents (Elt F) := (broadcastInDim S980628x1 ![0] bcast_S980628_S980628x1_0 : (⟨S980628, .i32⟩ : BufTy).Contents (Elt F) → (⟨S980628x1, .i32⟩ : BufTy).Contents (Elt F)) main_arg6
  have main_v39 : (⟨S8000, .f32⟩ : BufTy).Contents (Elt F) := ((fun x i u => Host.scatterAdd scatter_S8000_S980628x1_S980628_n_0_0_1 x i u) : (⟨S8000, .f32⟩ : BufTy).Contents (Elt F) → (⟨S980628x1, .i32⟩ : BufTy).Contents (Elt F) → (⟨S980628, .f32⟩ : BufTy).Contents (Elt F) → (⟨S8000, .f32⟩ : BufTy).Contents (Elt F)) main_v37 main_v38 main_v36
  have main_cst_9 : (⟨S_, .f32⟩ : BufTy).Contents (Elt F) := (constant S_ .f32 0x3F800000#32)
  have main_v40 : (⟨S8000, .f32⟩ : BufTy).Contents (Elt F) := (broadcastInDim S8000 ![] bcast_S_S8000 : (⟨S_, .f32⟩ : BufTy).Contents (Elt F) → (⟨S8000, .f32⟩ : BufTy).Contents (Elt F)) main_cst_9
  have main_v41 : (⟨S8000, .f32⟩ : BufTy).Contents (Elt F) := (maximumf : (⟨S8000, .f32⟩ : BufTy).Contents (Elt F) → (⟨S8000, .f32⟩ : BufTy).Contents (Elt F) → (⟨S8000, .f32⟩ : BufTy).Contents (Elt F)) main_v39 main_v40
  main_v41

/-- Statements main_c_15 … main_v72 of the reference's @main, over variables for what they read from outside. -/
def gsrc1 (main_arg7 : (⟨S26578, .i32⟩ : BufTy).Contents (Elt F)) (main_arg2 : (⟨S8000x3, .f32⟩ : BufTy).Contents (Elt F)) : (⟨S26578x3, .f32⟩ : BufTy).Contents (Elt F) :=
  have main_c_15 : (⟨S_, .i32⟩ : BufTy).Contents (Elt F) := (constantI S_ 32 0#32)
  have main_v66 : (⟨S26578, .i32⟩ : BufTy).Contents (Elt F) := (broadcastInDim S26578 ![] bcast_S_S26578 : (⟨S_, .i32⟩ : BufTy).Contents (Elt F) → (⟨S26578, .i32⟩ : BufTy).Contents (Elt F)) main_c_15
  have main_v67 : (⟨S26578, .i1⟩ : BufTy).Contents (Elt F) := (cmpi .slt : (⟨S26578, .i32⟩ : BufTy).Contents (Elt F) → (⟨S26578, .i32⟩ : BufTy).Contents (Elt F) → (⟨S26578, .i1⟩ : BufTy).Contents (Elt F)) main_arg7 main_v66
  have main_c_16 : (⟨S_, .i32⟩ : BufTy).Contents (Elt F) := (constantI S_ 32 8000#32)
  have main_v68 : (⟨S26578, .i32⟩ : BufTy).Contents (Elt F) := (broadcastInDim S26578 ![] bcast_S_S26578 : (⟨S_, .i32⟩ : BufTy).Contents (Elt F) → (⟨S26578, .i32⟩ : BufTy).Contents (Elt F)) main_c_16
  have main_v69 : (⟨S26578, .i32⟩ : BufTy).Contents (Elt F) := (addi : (⟨S26578, .i32⟩ : BufTy).Contents (Elt F) → (⟨S26578, .i32⟩ : BufTy).Contents (Elt F) → (⟨S26578, .i32⟩ : BufTy).Contents (Elt F)) main_arg7 main_v68
  have main_v70 : (⟨S26578, .i32⟩ : BufTy).Contents (Elt F) := (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)) main_v67 main_v69 main_arg7
  have main_v71 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_v70
  have main_v72 : (⟨S26578x3, .f32⟩ : BufTy).Contents (Elt F) := ((fun x i => Host.gather gather_S8000x3_S26578x1_S26578x3_1_0_n_n_0_1_13 x i) : (⟨S8000x3, .f32⟩ : BufTy).Contents (Elt F) → (⟨S26578x1, .i32⟩ : BufTy).Contents (Elt F) → (⟨S26578x3, .f32⟩ : BufTy).Contents (Elt F)) main_arg2 main_v71
  main_v72

/-- Statements main_c_17 … main_v79 of the reference's @main, over variables for what they read from outside. -/
def gdst1 (main_arg8 : (⟨S26578, .i32⟩ : BufTy).Contents (Elt F)) (main_arg3 : (⟨S1000x3, .f32⟩ : BufTy).Contents (Elt F)) : (⟨S26578x3, .f32⟩ : BufTy).Contents (Elt F) :=
  have main_c_17 : (⟨S_, .i32⟩ : BufTy).Contents (Elt F) := (constantI S_ 32 0#32)
  have main_v73 : (⟨S26578, .i32⟩ : BufTy).Contents (Elt F) := (broadcastInDim S26578 ![] bcast_S_S26578 : (⟨S_, .i32⟩ : BufTy).Contents (Elt F) → (⟨S26578, .i32⟩ : BufTy).Contents (Elt F)) main_c_17
  have main_v74 : (⟨S26578, .i1⟩ : BufTy).Contents (Elt F) := (cmpi .slt : (⟨S26578, .i32⟩ : BufTy).Contents (Elt F) → (⟨S26578, .i32⟩ : BufTy).Contents (Elt F) → (⟨S26578, .i1⟩ : BufTy).Contents (Elt F)) main_arg8 main_v73
  have main_c_18 : (⟨S_, .i32⟩ : BufTy).Contents (Elt F) := (constantI S_ 32 1000#32)
  have main_v75 : (⟨S26578, .i32⟩ : BufTy).Contents (Elt F) := (broadcastInDim S26578 ![] bcast_S_S26578 : (⟨S_, .i32⟩ : BufTy).Contents (Elt F) → (⟨S26578, .i32⟩ : BufTy).Contents (Elt F)) main_c_18
  have main_v76 : (⟨S26578, .i32⟩ : BufTy).Contents (Elt F) := (addi : (⟨S26578, .i32⟩ : BufTy).Contents (Elt F) → (⟨S26578, .i32⟩ : BufTy).Contents (Elt F) → (⟨S26578, .i32⟩ : BufTy).Contents (Elt F)) main_arg8 main_v75
  have main_v77 : (⟨S26578, .i32⟩ : BufTy).Contents (Elt F) := (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)) main_v74 main_v76 main_arg8
  have main_v78 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_v77
  have main_v79 : (⟨S26578x3, .f32⟩ : BufTy).Contents (Elt F) := ((fun x i => Host.gather gather_S1000x3_S26578x1_S26578x3_1_0_n_n_0_1_13 x i) : (⟨S1000x3, .f32⟩ : BufTy).Contents (Elt F) → (⟨S26578x1, .i32⟩ : BufTy).Contents (Elt F) → (⟨S26578x3, .f32⟩ : BufTy).Contents (Elt F)) main_arg3 main_v78
  main_v79

/-- Statements main_c_21 … main_v95 of the reference's @main, over variables for what they read from outside. -/
def gfeat1 (main_arg7 : (⟨S26578, .i32⟩ : BufTy).Contents (Elt F)) (main_v65 : (⟨S8000x128, .f32⟩ : BufTy).Contents (Elt F)) : (⟨S26578x128, .f32⟩ : BufTy).Contents (Elt F) :=
  have main_c_21 : (⟨S_, .i32⟩ : BufTy).Contents (Elt F) := (constantI S_ 32 0#32)
  have main_v89 : (⟨S26578, .i32⟩ : BufTy).Contents (Elt F) := (broadcastInDim S26578 ![] bcast_S_S26578 : (⟨S_, .i32⟩ : BufTy).Contents (Elt F) → (⟨S26578, .i32⟩ : BufTy).Contents (Elt F)) main_c_21
  have main_v90 : (⟨S26578, .i1⟩ : BufTy).Contents (Elt F) := (cmpi .slt : (⟨S26578, .i32⟩ : BufTy).Contents (Elt F) → (⟨S26578, .i32⟩ : BufTy).Contents (Elt F) → (⟨S26578, .i1⟩ : BufTy).Contents (Elt F)) main_arg7 main_v89
  have main_c_22 : (⟨S_, .i32⟩ : BufTy).Contents (Elt F) := (constantI S_ 32 8000#32)
  have main_v91 : (⟨S26578, .i32⟩ : BufTy).Contents (Elt F) := (broadcastInDim S26578 ![] bcast_S_S26578 : (⟨S_, .i32⟩ : BufTy).Contents (Elt F) → (⟨S26578, .i32⟩ : BufTy).Contents (Elt F)) main_c_22
  have main_v92 : (⟨S26578, .i32⟩ : BufTy).Contents (Elt F) := (addi : (⟨S26578, .i32⟩ : BufTy).Contents (Elt F) → (⟨S26578, .i32⟩ : BufTy).Contents (Elt F) → (⟨S26578, .i32⟩ : BufTy).Contents (Elt F)) main_arg7 main_v91
  have main_v93 : (⟨S26578, .i32⟩ : BufTy).Contents (Elt F) := (select : (⟨S26578, .i1⟩ : BufTy).Contents (Elt F) → (⟨S26578, .i32⟩ : BufTy).Contents (Elt F) → (⟨S26578, .i32⟩ : BufTy).Contents (Elt F) → (⟨S26578, .i32⟩ : BufTy).Contents (Elt F)) main_v90 main_v92 main_arg7
  have main_v94 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_v93
  have main_v95 : (⟨S26578x128, .f32⟩ : BufTy).Contents (Elt F) := ((fun x i => Host.gather gather_S8000x128_S26578x1_S26578x128_1_0_n_n_0_1_1128 x i) : (⟨S8000x128, .f32⟩ : BufTy).Contents (Elt F) → (⟨S26578x1, .i32⟩ : BufTy).Contents (Elt F) → (⟨S26578x128, .f32⟩ : BufTy).Contents (Elt F)) main_v65 main_v94
  main_v95

/-- Statements main_v80 … main_v88 and main_v96 … main_v99 of the reference's @main, over variables for what they read from outside. -/
def core1 (main_v72 : (⟨S26578x3, .f32⟩ : BufTy).Contents (Elt F)) (main_v79 : (⟨S26578x3, .f32⟩ : BufTy).Contents (Elt F)) (main_arg16 : (⟨S3x16, .f32⟩ : BufTy).Contents (Elt F)) (main_arg17 : (⟨S16, .f32⟩ : BufTy).Contents (Elt F)) (main_v95 : (⟨S26578x128, .f32⟩ : BufTy).Contents (Elt F)) : (⟨S26578x16x128, .f32⟩ : BufTy).Contents (Elt F) :=
  have main_v80 : (⟨S26578x3, .f32⟩ : BufTy).Contents (Elt F) := (subf : (⟨S26578x3, .f32⟩ : BufTy).Contents (Elt F) → (⟨S26578x3, .f32⟩ : BufTy).Contents (Elt F) → (⟨S26578x3, .f32⟩ : BufTy).Contents (Elt F)) main_v72 main_v79
  have main_cst_19 : (⟨S_, .f32⟩ : BufTy).Contents (Elt F) := (constant S_ .f32 0x3E4CCCCD#32)
  have main_v81 : (⟨S26578x3, .f32⟩ : BufTy).Contents (Elt F) := (broadcastInDim S26578x3 ![] bcast_S_S26578x3 : (⟨S_, .f32⟩ : BufTy).Contents (Elt F) → (⟨S26578x3, .f32⟩ : BufTy).Contents (Elt F)) main_cst_19
  have main_v82 : (⟨S26578x3, .f32⟩ : BufTy).Contents (Elt F) := (Host.divf : (⟨S26578x3, .f32⟩ : BufTy).Contents (Elt F) → (⟨S26578x3, .f32⟩ : BufTy).Contents (Elt F) → (⟨S26578x3, .f32⟩ : BufTy).Contents (Elt F)) main_v80 main_v81
  have main_v83 : (⟨S26578x16, .f32⟩ : BufTy).Contents (Elt F) := ((fun l r => Host.dotGeneral dot_S26578x3_S3x16_S26578x16_1_0_0_1_n_n none l r) : (⟨S26578x3, .f32⟩ : BufTy).Contents (Elt F) → (⟨S3x16, .f32⟩ : BufTy).Contents (Elt F) → (⟨S26578x16, .f32⟩ : BufTy).Contents (Elt F)) main_v82 main_arg16
  have main_v84 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_arg17
  have main_v85 : (⟨S26578x16, .f32⟩ : BufTy).Contents (Elt F) := (broadcastInDim S26578x16 ![0, 1] bcast_S1x16_S26578x16_0_1 : (⟨S1x16, .f32⟩ : BufTy).Contents (Elt F) → (⟨S26578x16, .f32⟩ : BufTy).Contents (Elt F)) main_v84
  have main_v86 : (⟨S26578x16, .f32⟩ : BufTy).Contents (Elt F) := (addf : (⟨S26578x16, .f32⟩ : BufTy).Contents (Elt F) → (⟨S26578x16, .f32⟩ : BufTy).Contents (Elt F) → (⟨S26578x16, .f32⟩ : BufTy).Contents (Elt F)) main_v83 main_v85
  have main_cst_20 : (⟨S_, .f32⟩ : BufTy).Contents (Elt F) := (constant S_ .f32 0x3E4CCCCD#32)
  have main_v87 : (⟨S26578x16, .f32⟩ : BufTy).Contents (Elt F) := RefSpec.f_leaky_relu_3 main_v86 main_cst_20
  have main_v88 : (⟨S26578x16x1, .f32⟩ : BufTy).Contents (Elt F) := (broadcastInDim S26578x16x1 ![0, 1] bcast_S26578x16_S26578x16x1_0_1 : (⟨S26578x16, .f32⟩ : BufTy).Contents (Elt F) → (⟨S26578x16x1, .f32⟩ : BufTy).Contents (Elt F)) main_v87
  have main_v96 : (⟨S26578x1x128, .f32⟩ : BufTy).Contents (Elt F) := (broadcastInDim S26578x1x128 ![0, 2] bcast_S26578x128_S26578x1x128_0_2 : (⟨S26578x128, .f32⟩ : BufTy).Contents (Elt F) → (⟨S26578x1x128, .f32⟩ : BufTy).Contents (Elt F)) main_v95
  have main_v97 : (⟨S26578x16x128, .f32⟩ : BufTy).Contents (Elt F) := (broadcastInDim S26578x16x128 ![0, 1, 2] bcast_S26578x16x1_S26578x16x128_0_1_2 : (⟨S26578x16x1, .f32⟩ : BufTy).Contents (Elt F) → (⟨S26578x16x128, .f32⟩ : BufTy).Contents (Elt F)) main_v88
  have main_v98 : (⟨S26578x16x128, .f32⟩ : BufTy).Contents (Elt F) := (broadcastInDim S26578x16x128 ![0, 1, 2] bcast_S26578x1x128_S26578x16x128_0_1_2 : (⟨S26578x1x128, .f32⟩ : BufTy).Contents (Elt F) → (⟨S26578x16x128, .f32⟩ : BufTy).Contents (Elt F)) main_v96
  have main_v99 : (⟨S26578x16x128, .f32⟩ : BufTy).Contents (Elt F) := (mulf : (⟨S26578x16x128, .f32⟩ : BufTy).Contents (Elt F) → (⟨S26578x16x128, .f32⟩ : BufTy).Contents (Elt F) → (⟨S26578x16x128, .f32⟩ : BufTy).Contents (Elt F)) main_v97 main_v98
  main_v99

/-- Statements main_cst_24 … main_v108 of the reference's @main, over variables for what they read from outside. -/
def cnt1 (main_arg8 : (⟨S26578, .i32⟩ : BufTy).Contents (Elt F)) : (⟨S1000, .f32⟩ : BufTy).Contents (Elt F) :=
  have main_cst_24 : (⟨S_, .f32⟩ : BufTy).Contents (Elt F) := (constant S_ .f32 0x3F800000#32)
  have main_v103 : (⟨S26578, .f32⟩ : BufTy).Contents (Elt F) := (broadcastInDim S26578 ![] bcast_S_S26578 : (⟨S_, .f32⟩ : BufTy).Contents (Elt F) → (⟨S26578, .f32⟩ : BufTy).Contents (Elt F)) main_cst_24
  have main_cst_25 : (⟨S_, .f32⟩ : BufTy).Contents (Elt F) := (constant S_ .f32 0x00000000#32)
  have main_v104 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_25
  have main_v105 : (⟨S26578x1, .i32⟩ : BufTy).Contents (Elt F) := (broadcastInDim S26578x1 ![0] bcast_S26578_S26578x1_0 : (⟨S26578, .i32⟩ : BufTy).Contents (Elt F) → (⟨S26578x1, .i32⟩ : BufTy).Contents (Elt F)) main_arg8
  have main_v106 : (⟨S1000, .f32⟩ : BufTy).Contents (Elt F) := ((fun x i u => Host.scatterAdd scatter_S1000_S26578x1_S26578_n_0_0_1 x i u) : (⟨S1000, .f32⟩ : BufTy).Contents (Elt F) → (⟨S26578x1, .i32⟩ : BufTy).Contents (Elt F) → (⟨S26578, .f32⟩ : BufTy).Contents (Elt F) → (⟨S1000, .f32⟩ : BufTy).Contents (Elt F)) main_v104 main_v105 main_v103
  have main_cst_26 : (⟨S_, .f32⟩ : BufTy).Contents (Elt F) := (constant S_ .f32 0x3F800000#32)
  have main_v107 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_26
  have main_v108 : (⟨S1000, .f32⟩ : BufTy).Contents (Elt F) := (maximumf : (⟨S1000, .f32⟩ : BufTy).Contents (Elt F) → (⟨S1000, .f32⟩ : BufTy).Contents (Elt F) → (⟨S1000, .f32⟩ : BufTy).Contents (Elt F)) main_v106 main_v107
  main_v108

/-- Statements main_c_32 … main_v139 of the reference's @main, over variables for what they read from outside. -/
def gsrc2 (main_arg9 : (⟨S1000, .i32⟩ : BufTy).Contents (Elt F)) (main_arg3 : (⟨S1000x3, .f32⟩ : BufTy).Contents (Elt F)) : (⟨S1000x3, .f32⟩ : BufTy).Contents (Elt F) :=
  have main_c_32 : (⟨S_, .i32⟩ : BufTy).Contents (Elt F) := (constantI S_ 32 0#32)
  have main_v133 : (⟨S1000, .i32⟩ : BufTy).Contents (Elt F) := (broadcastInDim S1000 ![] bcast_S_S1000 : (⟨S_, .i32⟩ : BufTy).Contents (Elt F) → (⟨S1000, .i32⟩ : BufTy).Contents (Elt F)) main_c_32
  have main_v134 : (⟨S1000, .i1⟩ : BufTy).Contents (Elt F) := (cmpi .slt : (⟨S1000, .i32⟩ : BufTy).Contents (Elt F) → (⟨S1000, .i32⟩ : BufTy).Contents (Elt F) → (⟨S1000, .i1⟩ : BufTy).Contents (Elt F)) main_arg9 main_v133
  have main_c_33 : (⟨S_, .i32⟩ : BufTy).Contents (Elt F) := (constantI S_ 32 1000#32)
  have main_v135 : (⟨S1000, .i32⟩ : BufTy).Contents (Elt F) := (broadcastInDim S1000 ![] bcast_S_S1000 : (⟨S_, .i32⟩ : BufTy).Contents (Elt F) → (⟨S1000, .i32⟩ : BufTy).Contents (Elt F)) main_c_33
  have main_v136 : (⟨S1000, .i32⟩ : BufTy).Contents (Elt F) := (addi : (⟨S1000, .i32⟩ : BufTy).Contents (Elt F) → (⟨S1000, .i32⟩ : BufTy).Contents (Elt F) → (⟨S1000, .i32⟩ : BufTy).Contents (Elt F)) main_arg9 main_v135
  have main_v137 : (⟨S1000, .i32⟩ : BufTy).Contents (Elt F) := (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)) main_v134 main_v136 main_arg9
  have main_v138 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_v137
  have main_v139 : (⟨S1000x3, .f32⟩ : BufTy).Contents (Elt F) := ((fun x i => Host.gather gather_S1000x3_S1000x1_S1000x3_1_0_n_n_0_1_13 x i) : (⟨S1000x3, .f32⟩ : BufTy).Contents (Elt F) → (⟨S1000x1, .i32⟩ : BufTy).Contents (Elt F) → (⟨S1000x3, .f32⟩ : BufTy).Contents (Elt F)) main_arg3 main_v138
  main_v139

/-- Statements main_c_34 … main_v146 of the reference's @main, over variables for what they read from outside. -/
def gdst2 (main_arg10 : (⟨S1000, .i32⟩ : BufTy).Contents (Elt F)) (main_arg4 : (⟨S8x3, .f32⟩ : BufTy).Contents (Elt F)) : (⟨S1000x3, .f32⟩ : BufTy).Contents (Elt F) :=
  have main_c_34 : (⟨S_, .i32⟩ : BufTy).Contents (Elt F) := (constantI S_ 32 0#32)
  have main_v140 : (⟨S1000, .i32⟩ : BufTy).Contents (Elt F) := (broadcastInDim S1000 ![] bcast_S_S1000 : (⟨S_, .i32⟩ : BufTy).Contents (Elt F) → (⟨S1000, .i32⟩ : BufTy).Contents (Elt F)) main_c_34
  have main_v141 : (⟨S1000, .i1⟩ : BufTy).Contents (Elt F) := (cmpi .slt : (⟨S1000, .i32⟩ : BufTy).Contents (Elt F) → (⟨S1000, .i32⟩ : BufTy).Contents (Elt F) → (⟨S1000, .i1⟩ : BufTy).Contents (Elt F)) main_arg10 main_v140
  have main_c_35 : (⟨S_, .i32⟩ : BufTy).Contents (Elt F) := (constantI S_ 32 8#32)
  have main_v142 : (⟨S1000, .i32⟩ : BufTy).Contents (Elt F) := (broadcastInDim S1000 ![] bcast_S_S1000 : (⟨S_, .i32⟩ : BufTy).Contents (Elt F) → (⟨S1000, .i32⟩ : BufTy).Contents (Elt F)) main_c_35
  have main_v143 : (⟨S1000, .i32⟩ : BufTy).Contents (Elt F) := (addi : (⟨S1000, .i32⟩ : BufTy).Contents (Elt F) → (⟨S1000, .i32⟩ : BufTy).Contents (Elt F) → (⟨S1000, .i32⟩ : BufTy).Contents (Elt F)) main_arg10 main_v142
  have main_v144 : (⟨S1000, .i32⟩ : BufTy).Contents (Elt F) := (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)) main_v141 main_v143 main_arg10
  have main_v145 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_v144
  have main_v146 : (⟨S1000x3, .f32⟩ : BufTy).Contents (Elt F) := ((fun x i => Host.gather gather_S8x3_S1000x1_S1000x3_1_0_n_n_0_1_13 x i) : (⟨S8x3, .f32⟩ : BufTy).Contents (Elt F) → (⟨S1000x1, .i32⟩ : BufTy).Contents (Elt F) → (⟨S1000x3, .f32⟩ : BufTy).Contents (Elt F)) main_arg4 main_v145
  main_v146

/-- Statements main_c_38 … main_v162 of the reference's @main, over variables for what they read from outside. -/
def gfeat2 (main_arg9 : (⟨S1000, .i32⟩ : BufTy).Contents (Elt F)) (main_v132 : (⟨S1000x256, .f32⟩ : BufTy).Contents (Elt F)) : (⟨S1000x256, .f32⟩ : BufTy).Contents (Elt F) :=
  have main_c_38 : (⟨S_, .i32⟩ : BufTy).Contents (Elt F) := (constantI S_ 32 0#32)
  have main_v156 : (⟨S1000, .i32⟩ : BufTy).Contents (Elt F) := (broadcastInDim S1000 ![] bcast_S_S1000 : (⟨S_, .i32⟩ : BufTy).Contents (Elt F) → (⟨S1000, .i32⟩ : BufTy).Contents (Elt F)) main_c_38
  have main_v157 : (⟨S1000, .i1⟩ : BufTy).Contents (Elt F) := (cmpi .slt : (⟨S1000, .i32⟩ : BufTy).Contents (Elt F) → (⟨S1000, .i32⟩ : BufTy).Contents (Elt F) → (⟨S1000, .i1⟩ : BufTy).Contents (Elt F)) main_arg9 main_v156
  have main_c_39 : (⟨S_, .i32⟩ : BufTy).Contents (Elt F) := (constantI S_ 32 1000#32)
  have main_v158 : (⟨S1000, .i32⟩ : BufTy).Contents (Elt F) := (broadcastInDim S1000 ![] bcast_S_S1000 : (⟨S_, .i32⟩ : BufTy).Contents (Elt F) → (⟨S1000, .i32⟩ : BufTy).Contents (Elt F)) main_c_39
  have main_v159 : (⟨S1000, .i32⟩ : BufTy).Contents (Elt F) := (addi : (⟨S1000, .i32⟩ : BufTy).Contents (Elt F) → (⟨S1000, .i32⟩ : BufTy).Contents (Elt F) → (⟨S1000, .i32⟩ : BufTy).Contents (Elt F)) main_arg9 main_v158
  have main_v160 : (⟨S1000, .i32⟩ : BufTy).Contents (Elt F) := (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)) main_v157 main_v159 main_arg9
  have main_v161 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_v160
  have main_v162 : (⟨S1000x256, .f32⟩ : BufTy).Contents (Elt F) := ((fun x i => Host.gather gather_S1000x256_S1000x1_S1000x256_1_0_n_n_0_1_1256 x i) : (⟨S1000x256, .f32⟩ : BufTy).Contents (Elt F) → (⟨S1000x1, .i32⟩ : BufTy).Contents (Elt F) → (⟨S1000x256, .f32⟩ : BufTy).Contents (Elt F)) main_v132 main_v161
  main_v162

/-- Statements main_v147 … main_v155 and main_v163 … main_v166 of the reference's @main, over variables for what they read from outside. -/
def core2 (main_v139 : (⟨S1000x3, .f32⟩ : BufTy).Contents (Elt F)) (main_v146 : (⟨S1000x3, .f32⟩ : BufTy).Contents (Elt F)) (main_arg21 : (⟨S3x16, .f32⟩ : BufTy).Contents (Elt F)) (main_arg22 : (⟨S16, .f32⟩ : BufTy).Contents (Elt F)) (main_v162 : (⟨S1000x256, .f32⟩ : BufTy).Contents (Elt F)) : (⟨S1000x16x256, .f32⟩ : BufTy).Contents (Elt F) :=
  have main_v147 : (⟨S1000x3, .f32⟩ : BufTy).Contents (Elt F) := (subf : (⟨S1000x3, .f32⟩ : BufTy).Contents (Elt F) → (⟨S1000x3, .f32⟩ : BufTy).Contents (Elt F) → (⟨S1000x3, .f32⟩ : BufTy).Contents (Elt F)) main_v139 main_v146
  have main_cst_36 : (⟨S_, .f32⟩ : BufTy).Contents (Elt F) := (constant S_ .f32 0x40232AD7#32)
  have main_v148 : (⟨S1000x3, .f32⟩ : BufTy).Contents (Elt F) := (broadcastInDim S1000x3 ![] bcast_S_S1000x3 : (⟨S_, .f32⟩ : BufTy).Contents (Elt F) → (⟨S1000x3, .f32⟩ : BufTy).Contents (Elt F)) main_cst_36
  have main_v149 : (⟨S1000x3, .f32⟩ : BufTy).Contents (Elt F) := (Host.divf : (⟨S1000x3, .f32⟩ : BufTy).Contents (Elt F) → (⟨S1000x3, .f32⟩ : BufTy).Contents (Elt F) → (⟨S1000x3, .f32⟩ : BufTy).Contents (Elt F)) main_v147 main_v148
  have main_v150 : (⟨S1000x16, .f32⟩ : BufTy).Contents (Elt F) := ((fun l r => Host.dotGeneral dot_S1000x3_S3x16_S1000x16_1_0_0_1_n_n none l r) : (⟨S1000x3, .f32⟩ : BufTy).Contents (Elt F) → (⟨S3x16, .f32⟩ : BufTy).Contents (Elt F) → (⟨S1000x16, .f32⟩ : BufTy).Contents (Elt F)) main_v149 main_arg21
  have main_v151 : (⟨S1x16, .f32⟩ : BufTy).Contents (Elt F) := (broadcastInDim S1x16 ![1] bcast_S16_S1x16_1 : (⟨S16, .f32⟩ : BufTy).Contents (Elt F) → (⟨S1x16, .f32⟩ : BufTy).Contents (Elt F)) main_arg22
  have main_v152 : (⟨S1000x16, .f32⟩ : BufTy).Contents (Elt F) := (broadcastInDim S1000x16 ![0, 1] bcast_S1x16_S1000x16_0_1 : (⟨S1x16, .f32⟩ : BufTy).Contents (Elt F) → (⟨S1000x16, .f32⟩ : BufTy).Contents (Elt F)) main_v151
  have main_v153 : (⟨S1000x16, .f32⟩ : BufTy).Contents (Elt F) := (addf : (⟨S1000x16, .f32⟩ : BufTy).Contents (Elt F) → (⟨S1000x16, .f32⟩ : BufTy).Contents (Elt F) → (⟨S1000x16, .f32⟩ : BufTy).Contents (Elt F)) main_v150 main_v152
  have main_cst_37 : (⟨S_, .f32⟩ : BufTy).Contents (Elt F) := (constant S_ .f32 0x3E4CCCCD#32)
  have main_v154 : (⟨S1000x16, .f32⟩ : BufTy).Contents (Elt F) := RefSpec.f_leaky_relu_9 main_v153 main_cst_37
  have main_v155 : (⟨S1000x16x1, .f32⟩ : BufTy).Contents (Elt F) := (broadcastInDim S1000x16x1 ![0, 1] bcast_S1000x16_S1000x16x1_0_1 : (⟨S1000x16, .f32⟩ : BufTy).Contents (Elt F) → (⟨S1000x16x1, .f32⟩ : BufTy).Contents (Elt F)) main_v154
  have main_v163 : (⟨S1000x1x256, .f32⟩ : BufTy).Contents (Elt F) := (broadcastInDim S1000x1x256 ![0, 2] bcast_S1000x256_S1000x1x256_0_2 : (⟨S1000x256, .f32⟩ : BufTy).Contents (Elt F) → (⟨S1000x1x256, .f32⟩ : BufTy).Contents (Elt F)) main_v162
  have main_v164 : (⟨S1000x16x256, .f32⟩ : BufTy).Contents (Elt F) := (broadcastInDim S1000x16x256 ![0, 1, 2] bcast_S1000x16x1_S1000x16x256_0_1_2 : (⟨S1000x16x1, .f32⟩ : BufTy).Contents (Elt F) → (⟨S1000x16x256, .f32⟩ : BufTy).Contents (Elt F)) main_v155
  have main_v165 : (⟨S1000x16x256, .f32⟩ : BufTy).Contents (Elt F) := (broadcastInDim S1000x16x256 ![0, 1, 2] bcast_S1000x1x256_S1000x16x256_0_1_2 : (⟨S1000x1x256, .f32⟩ : BufTy).Contents (Elt F) → (⟨S1000x16x256, .f32⟩ : BufTy).Contents (Elt F)) main_v163
  have main_v166 : (⟨S1000x16x256, .f32⟩ : BufTy).Contents (Elt F) := (mulf : (⟨S1000x16x256, .f32⟩ : BufTy).Contents (Elt F) → (⟨S1000x16x256, .f32⟩ : BufTy).Contents (Elt F) → (⟨S1000x16x256, .f32⟩ : BufTy).Contents (Elt F)) main_v164 main_v165
  main_v166

/-- Statements main_cst_41 … main_v175 of the reference's @main, over variables for what they read from outside. -/
def cnt2 (main_arg10 : (⟨S1000, .i32⟩ : BufTy).Contents (Elt F)) : (⟨S8, .f32⟩ : BufTy).Contents (Elt F) :=
  have main_cst_41 : (⟨S_, .f32⟩ : BufTy).Contents (Elt F) := (constant S_ .f32 0x3F800000#32)
  have main_v170 : (⟨S1000, .f32⟩ : BufTy).Contents (Elt F) := (broadcastInDim S1000 ![] bcast_S_S1000 : (⟨S_, .f32⟩ : BufTy).Contents (Elt F) → (⟨S1000, .f32⟩ : BufTy).Contents (Elt F)) main_cst_41
  have main_cst_42 : (⟨S_, .f32⟩ : BufTy).Contents (Elt F) := (constant S_ .f32 0x00000000#32)
  have main_v171 : (⟨S8, .f32⟩ : BufTy).Contents (Elt F) := (broadcastInDim S8 ![] bcast_S_S8 : (⟨S_, .f32⟩ : BufTy).Contents (Elt F) → (⟨S8, .f32⟩ : BufTy).Contents (Elt F)) main_cst_42
  have main_v172 : (⟨S1000x1, .i32⟩ : BufTy).Contents (Elt F) := (broadcastInDim S1000x1 ![0] bcast_S1000_S1000x1_0 : (⟨S1000, .i32⟩ : BufTy).Contents (Elt F) → (⟨S1000x1, .i32⟩ : BufTy).Contents (Elt F)) main_arg10
  have main_v173 : (⟨S8, .f32⟩ : BufTy).Contents (Elt F) := ((fun x i u => Host.scatterAdd scatter_S8_S1000x1_S1000_n_0_0_1 x i u) : (⟨S8, .f32⟩ : BufTy).Contents (Elt F) → (⟨S1000x1, .i32⟩ : BufTy).Contents (Elt F) → (⟨S1000, .f32⟩ : BufTy).Contents (Elt F) → (⟨S8, .f32⟩ : BufTy).Contents (Elt F)) main_v171 main_v172 main_v170
  have main_cst_43 : (⟨S_, .f32⟩ : BufTy).Contents (Elt F) := (constant S_ .f32 0x3F800000#32)
  have main_v174 : (⟨S8, .f32⟩ : BufTy).Contents (Elt F) := (broadcastInDim S8 ![] bcast_S_S8 : (⟨S_, .f32⟩ : BufTy).Contents (Elt F) → (⟨S8, .f32⟩ : BufTy).Contents (Elt F)) main_cst_43
  have main_v175 : (⟨S8, .f32⟩ : BufTy).Contents (Elt F) := (maximumf : (⟨S8, .f32⟩ : BufTy).Contents (Elt F) → (⟨S8, .f32⟩ : BufTy).Contents (Elt F) → (⟨S8, .f32⟩ : BufTy).Contents (Elt F)) main_v173 main_v174
  main_v175

end Cert.Bridge.RefParts

end
-- ==== Proof.Consts.lean ====
/-
  The three radius constants of the network as the reals their float32 patterns denote, and the one law that joins the
  two programs' scalings: dividing an extended real by the reference's divisor D is multiplying it by 1/D, at the
  infinities too. D₀ = f32(0.1) = 13421773/2^27, D₁ = f32(0.2) = 13421773/2^26, D₂ = f32(√6 + 0.1) = 10693335/2^22.
-/
import Idealize.ShloMosaic.PureOps.Ideal

noncomputable section

namespace Cert.Bridge.Consts

open Idealize.ShloMosaic

/-- The level-0 divisor: the pattern 0x3DCCCCCD is 13421773 / 2^27. -/
theorem ofBits_r0 : Ideal.ofBits .f32 0x3DCCCCCD#32 = ((13421773 / 134217728 : ℝ) : EReal) := by
  simp [Ideal.ofBits, Ideal.ieee, -EReal.coe_mul]; norm_num

/-- The level-1 divisor: the pattern 0x3E4CCCCD is 13421773 / 2^26. -/
theorem ofBits_r1 : Ideal.ofBits .f32 0x3E4CCCCD#32 = ((13421773 / 67108864 : ℝ) : EReal) := by
  simp [Ideal.ofBits, Ideal.ieee, -EReal.coe_mul]; norm_num

/-- The level-2 divisor: the pattern 0x40232AD7 is 10693335 / 2^22. -/
theorem ofBits_r2 : Ideal.ofBits .f32 0x40232AD7#32 = ((10693335 / 4194304 : ℝ) : EReal) := by
  simp [Ideal.ofBits, Ideal.ieee, -EReal.coe_mul]; norm_num

/-- x / D₀ = x · (2^27 / 13421773). -/
theorem div_r0 (x : EReal) : Ideal.div x (Ideal.ofBits .f32 0x3DCCCCCD#32) = x * ((134217728 / 13421773 : ℝ) : EReal) := by
  rw [ofBits_r0, Ideal.div_coe (by norm_num)]
  norm_num

/-- x / D₁ = x · (2^26 / 13421773). -/
theorem div_r1 (x : EReal) : Ideal.div x (Ideal.ofBits .f32 0x3E4CCCCD#32) = x * ((67108864 / 13421773 : ℝ) : EReal) := by
  rw [ofBits_r1, Ideal.div_coe (by norm_num)]
  norm_num

/-- x / D₂ = x · (2^22 / 10693335). -/
theorem div_r2 (x : EReal) : Ideal.div x (Ideal.ofBits .f32 0x40232AD7#32) = x * ((4194304 / 10693335 : ℝ) : EReal) := by
  rw [ofBits_r2, Ideal.div_coe (by norm_num)]
  norm_num

end Cert.Bridge.Consts

end
-- ==== Proof.AggRef0.lean ====
/-
  Level 0 of the reference, read at an index.

  The level's aggregate is a reshape of  (scatter-add over destinations of the per-edge contributions) / max(count, 1).
  A contribution is, for edge e and hidden unit h (the level has a single input channel),
      act (Σₖ ((Psrc[e,k] − Pdst[e,k]) / D₀) · Wb[k,h] + bb[h]) · feat[e,0],
  where Psrc, Pdst, feat are the gathered rows; dividing by the radius D₀ = 13421773/2^27 is multiplying by its reciprocal.
  With one channel the basis value is only given a trailing unit axis ([E,16] to [E,16,1]); the feature column is given
  a middle unit axis and spread over the sixteen hidden units, and the product is taken at [E,16,1].
-/
import proofs.«105096_j6674379178666_1_alg».proof.Proof.RefParts
import proofs.«105096_j6674379178666_1_alg».proof.Proof.LibRows
import proofs.«105096_j6674379178666_1_alg».proof.Proof.EdgeSpec
import proofs.«105096_j6674379178666_1_alg».proof.Proof.Consts
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.Bridge.AggRef0

open Cert.ReferenceIdeal Idealize.ShloMosaic Idealize.ShloMosaic.ValueIdx Cert.Bridge Cert.Bridge.EdgeSpec
open Cert.ReferenceIdeal.Facts₀ Cert.ReferenceIdeal.Facts

variable [Cert.ReferenceIdeal.Facts]

/-- The level's aggregate is the reshape of the quotient of the scattered contributions by the broadcast counts. -/
theorem agg0_struct (a0 : FVec Ideal S262144x1 .f32) (a1 : FVec Ideal S262144x3 .f32) (a2 : FVec Ideal S8000x3 .f32)
    (a5 a6 : IVec S980628 32) (a11 : FVec Ideal S3x16 .f32) (a12 : FVec Ideal S16 .f32) :
    RefSpec.agg0 (F := Ideal) a0 a1 a2 a5 a6 a11 a12
      = shapeCast S8000x16
          (Host.divf (F := Ideal)
            (Host.scatterAdd (F := Ideal) scatter_S8000x16x1_S980628x1_S980628x16x1_12_0_0_1
              (broadcastInDim S8000x16x1 ![] bcast_S_S8000x16x1 (constant (F := Ideal) S_ .f32 0x00000000#32))
              (broadcastInDim S980628x1 ![0] bcast_S980628_S980628x1_0 a6)
              (RefParts.core0 (F := Ideal) (RefParts.gsrc0 a5 a1) (RefParts.gdst0 a6 a2) a11 a12 (RefParts.gfeat0 a5 a0)))
            (broadcastInDim S8000x16x1 ![0, 1, 2] bcast_S8000x1x1_S8000x16x1_0_1_2
              (broadcastInDim S8000x1x1 ![0] bcast_S8000_S8000x1x1_0 (RefParts.cnt0 (F := Ideal) a6))))
          shapeCasts_S8000x16x1_S8000x16 := rfl

/-- The host product [980628,3] x [3,16] at (e, h): the sum over the three coordinates. -/
theorem dot_apply (L : FVec Ideal S980628x3 .f32) (R : FVec Ideal S3x16 .f32) (e : Fin 980628) (hh : Fin 16) :
    Host.dotGeneral dot_S980628x3_S3x16_S980628x16_1_0_0_1_n_n none L R (ix2 e hh) = ∑ k : Fin 3, L (ix2 e k) * R (ix2 k hh) :=
  (Ideal.dotGeneral_apply _ none .single L R _).trans
    (Cert.Lib.Rows.sum_contr _ rfl rfl rfl rfl (fun _ _ => rfl) (fun _ _ => rfl) L R e hh)

theorem bias_row (v : FVec Ideal S16 .f32) (h : S16.BroadcastsInDim S1x16 ![1]) (u : Fin 1) (hh : Fin 16) :
    broadcastInDim S1x16 ![1] h v (ix2 u hh) = v (ix1 hh) :=
  broadcastInDim_apply _ h v _ _ (by intro a; match a with | ⟨0, _⟩ => rfl)

theorem bias_rows (v : FVec Ideal S1x16 .f32) (h : S1x16.BroadcastsInDim S980628x16 ![0, 1]) (e : Fin 980628) (hh : Fin 16) :
    broadcastInDim S980628x16 ![0, 1] h v (ix2 e hh) = v (ix2 (0 : Fin 1) hh) :=
  broadcastInDim_apply _ h v _ _ (by intro a; match a with | ⟨0, _⟩ => rfl | ⟨1, _⟩ => rfl)

/-- The basis value with its trailing unit axis. -/
theorem unit_last (v : FVec Ideal S980628x16 .f32) (h : S980628x16.BroadcastsInDim S980628x16x1 ![0, 1]) (e : Fin 980628) (hh : Fin 16) (u : Fin 1) :
    broadcastInDim S980628x16x1 ![0, 1] h v (ix3 e hh u) = v (ix2 e hh) :=
  broadcastInDim_apply _ h v _ _ (by intro a; match a with | ⟨0, _⟩ => rfl | ⟨1, _⟩ => rfl)

/-- The feature column with its middle unit axis. -/
theorem unit_mid (v : FVec Ideal S980628x1 .f32) (h : S980628x1.BroadcastsInDim S980628x1x1 ![0, 2]) (e : Fin 980628) (u : Fin 1) :
    broadcastInDim S980628x1x1 ![0, 2] h v (ix3 e u (0 : Fin 1)) = v (ix2 e (0 : Fin 1)) :=
  broadcastInDim_apply _ h v _ _ (by intro a; match a with | ⟨0, _⟩ => rfl | ⟨1, _⟩ => rfl)

/-- The feature column spread over the sixteen hidden units. -/
theorem spread_mid (v : FVec Ideal S980628x1x1 .f32) (h : S980628x1x1.BroadcastsInDim S980628x16x1 ![0, 1, 2]) (e : Fin 980628) (hh : Fin 16) :
    broadcastInDim S980628x16x1 ![0, 1, 2] h v (ix3 e hh (0 : Fin 1)) = v (ix3 e (0 : Fin 1) (0 : Fin 1)) :=
  broadcastInDim_apply _ h v _ _ (by intro a; match a with | ⟨0, _⟩ => rfl | ⟨1, _⟩ => rfl | ⟨2, _⟩ => rfl)

/-- ONE EDGE'S CONTRIBUTION AT (e, h, 0). -/
theorem core0_apply (G3 G4 : FVec Ideal S980628x3 .f32) (a11 : FVec Ideal S3x16 .f32) (a12 : FVec Ideal S16 .f32)
    (GX : FVec Ideal S980628x1 .f32) (e : Fin 980628) (hh : Fin 16) :
    RefParts.core0 (F := Ideal) G3 G4 a11 a12 GX (ix3 e hh (0 : Fin 1))
      = act (pre (fun k => G3 (ix2 e k)) (fun k => G4 (ix2 e k)) ((134217728 / 13421773 : ℝ) : EReal)
          (fun k => a11 (ix2 k hh)) (a12 (ix1 hh))) * GX (ix2 e (0 : Fin 1)) := by
  unfold RefParts.core0 RefSpec.f_leaky_relu RefSpec.f_where
  simp only [mulf_apply]
  refine congrArg₂ (· * ·) ((unit_last _ _ e hh (0 : Fin 1)).trans ?_)
    ((spread_mid _ _ e hh).trans (unit_mid _ _ e (0 : Fin 1)))
  simp only [select_apply, cmpf_apply, mulf_apply, addf_apply, subf_apply, hostDivf_apply, dot_apply, id]
  have hD : ∀ k : Fin 3, broadcastInDim S980628x3 ![] bcast_S_S980628x3 (constant (F := Ideal) S_ .f32 0x3DCCCCCD#32) (ix2 e k)
      = Ideal.ofBits .f32 0x3DCCCCCD#32 := fun k => broadcastInDim_scalar_apply _ _ _
  have hZ : broadcastInDim S980628x16 ![] bcast_S_S980628x16 (constant (F := Ideal) S_ .f32 0x00000000#32) (ix2 e hh)
      = FloatOps.ofBits (F := Ideal) .f32 0x00000000#32 := broadcastInDim_scalar_apply _ _ _
  have hS : broadcastInDim S980628x16 ![] bcast_S_S980628x16 (constant (F := Ideal) S_ .f32 0x3E4CCCCD#32) (ix2 e hh)
      = FloatOps.ofBits (F := Ideal) .f32 0x3E4CCCCD#32 := broadcastInDim_scalar_apply _ _ _
  have hB : broadcastInDim S980628x16 ![0, 1] bcast_S1x16_S980628x16_0_1 (broadcastInDim S1x16 ![1] bcast_S16_S1x16_1 a12) (ix2 e hh)
      = a12 (ix1 hh) := (bias_rows _ _ e hh).trans (bias_row _ _ (0 : Fin 1) hh)
  simp only [hD, hZ, hS, hB, Consts.div_r0]
  rfl

end Cert.Bridge.AggRef0

end
-- ==== Proof.LibHostIdx.lean ====
/-
  Host shape operations READ AT AN INDEX, for the dimension numbers of row gathers, row scatters, scatters at index pairs,
  two-piece concatenations and a vector's iota.

  `gather_rows_apply`: a gather of whole rows of an `[N, C]` operand at a column `[E, 1]` of start indices reads, at
  `(e, c)`, the operand at row `idx[e, 0]` (signed, clamped into `[0, N − 1]`) and column `c`.
  `scatterAdd_rows_apply`: at the ideal instance an accumulating scatter of the rows of `[E, C]` updates into an `[N, C]`
  operand reads, at `(i, c)`, the operand's element plus the sum of `upd (e, c)` over the rows `e` whose index word, read
  signed, is `i` (an index outside `[0, N)` meets no `i`: the update is dropped).
  `scatterAdd_pair_apply`: the same for single elements scattered at (row, column) pairs `[E, 2]`.
  `concat1_apply_left` / `_right`, `concatCols_apply0` / `_apply1`: two vectors end to end, two columns side by side.
  `iota1_apply`, `iota1_toInt`: a vector's iota is the position, as a word and read signed.
  `gather_vec_apply`, `scatterAdd_vec_apply`: the same gather and accumulating scatter for single entries of a vector `[N]`.
-/
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.HostIdx

open Idealize.ShloMosaic Idealize.ShloMosaic.ValueIdx

/-- An axis of a rank-2 shape is axis 0 or axis 1. -/
theorem fin2_cases (a : Fin 2) : a = 0 ∨ a = 1 := by
  rcases a with ⟨v, hv⟩
  interval_cases v
  · exact Or.inl rfl
  · exact Or.inr rfl

/-! ## Gather of rows: operand [N, C] at a column [E, 1] of start indices -/

section GatherRows
variable {α : Type}

/-- The dimension numbers of a gather of whole rows: operand `[N, C]`, start indices `[E, 1]`, result `[E, C]`;
    the result's axis 1 is the offset axis, the operand's axis 0 is collapsed and is the one the start index names. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, c)` of a gather of rows is the operand at row `idx[e, 0]` (read signed, clamped into
    `[0, N - 1]`) and column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsDims N E C wf) x idx (ix2 e c)
      = x (ix2 ⟨min (idx (ix2 e (0 : Fin 1))).toInt.toNat (N - 1), by omega⟩ c) := by
  unfold Host.gather
  congr 1
  funext a
  refine Fin.ext ?_
  show (rowsDims N E C wf).start (ix2 e c) idx a + (rowsDims N E C wf).batchCoord (ix2 e c) a
    + (rowsDims N E C wf).offCoord (ix2 e c) a = _
  rw [GatherDims.batchCoord_eq_zero _ _ _ List.not_mem_nil]
  rcases fin2_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e c) ⟨List.idxOf (0 : Fin 2) (rowsDims N E C wf).startIndexMap,
        List.idxOf_lt_length_iff.2 (List.mem_singleton.mpr rfl)⟩ = ix2 e (0 : Fin 1) := by
      funext b; refine Fin.ext ?_
      rcases fin2_cases b with rfl | rfl
      · rfl
      · rfl
    rw [hsi]
    rfl
  · have hs : (rowsDims N E C wf).start (ix2 e c) idx (1 : Fin 2) = 0 := by
      unfold GatherDims.start
      rw [dif_neg (show (1 : Fin 2) ∉ ([0] : List (Fin 2)) by decide)]
    have ho : (rowsDims N E C wf).offCoord (ix2 e c) (1 : Fin 2) = c.val := by
      unfold GatherDims.offCoord
      rw [dif_pos ((GatherDims.mem_sKept _ _).mpr
        ⟨(show (1 : Fin 2) ∉ ([0] : List (Fin 2)) by decide), List.not_mem_nil⟩)]
      rfl
    rw [hs, ho]
    show 0 + 0 + c.val = c.val
    omega

/-- The same with the index word known to be a row number: no clamp. -/
theorem gather_rows_apply_of_lt {N E C w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C)
    (h0 : 0 ≤ (idx (ix2 e (0 : Fin 1))).toInt) (hlt : (idx (ix2 e (0 : Fin 1))).toInt < (N : Int)) :
    Host.gather (rowsDims N E C wf) x idx (ix2 e c)
      = x (ix2 ⟨(idx (ix2 e (0 : Fin 1))).toInt.toNat, by omega⟩ c) := by
  rw [gather_rows_apply (by omega) wf x idx e c]
  congr 2
  refine Fin.ext ?_
  show min (idx (ix2 e (0 : Fin 1))).toInt.toNat (N - 1) = (idx (ix2 e (0 : Fin 1))).toInt.toNat
  omega

end GatherRows

/-! ## Accumulating scatter of rows at the ideal instance: operand [N, C], a column [E, 1] of indices, updates [E, C] -/

section ScatterRows

/-- The dimension numbers of a scatter of whole rows: operand `[N, C]`, scatter indices `[E, 1]`, updates `[E, C]`;
    the updates' axis 1 is the window axis, the operand's axis 0 is inserted and is the one the index names. -/
abbrev scatterRowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis the window starts at the index word, read signed. -/
theorem scatterRows_start0 (e : Fin E) (c : Fin C) :
    (scatterRowsDims N E C wf).start (ix2 e c) idx (0 : Fin 2) = (idx (ix2 e (0 : Fin 1))).toInt := by
  unfold ScatterDims.start
  rw [dif_pos (show (0 : Fin 2) ∈ (scatterRowsDims N E C wf).scatterDimsToOperandDims from List.mem_singleton.mpr rfl)]
  have hsi : (scatterRowsDims N E C wf).siIdx (ix2 e c)
      ⟨List.idxOf (0 : Fin 2) (scatterRowsDims N E C wf).scatterDimsToOperandDims,
        List.idxOf_lt_length_iff.2 (List.mem_singleton.mpr rfl)⟩ = ix2 e (0 : Fin 1) := by
    funext b; refine Fin.ext ?_
    rcases fin2_cases b with rfl | rfl
    · rfl
    · rfl
  rw [hsi]

/-- On the column axis the window starts at 0. -/
theorem scatterRows_start1 (e : Fin E) (c : Fin C) :
    (scatterRowsDims N E C wf).start (ix2 e c) idx (1 : Fin 2) = 0 := by
  unfold ScatterDims.start
  rw [dif_neg (show (1 : Fin 2) ∉ ([0] : List (Fin 2)) by decide)]

/-- The row axis is inserted: its window coordinate is 0. -/
theorem scatterRows_window0 (e : Fin E) (c : Fin C) :
    (scatterRowsDims N E C wf).window (ix2 e c) (0 : Fin 2) = 0 := by
  unfold ScatterDims.window
  rw [dif_neg (show (0 : Fin 2) ∉ (Shape.kept ⟨2, ![N, C]⟩ ([0] : List (Fin 2))) by
    simp [Shape.kept, List.mem_filter])]

/-- The column axis carries the update's column. -/
theorem scatterRows_window1 (e : Fin E) (c : Fin C) :
    (scatterRowsDims N E C wf).window (ix2 e c) (1 : Fin 2) = c.val := by
  unfold ScatterDims.window
  rw [dif_pos (show (1 : Fin 2) ∈ (Shape.kept ⟨2, ![N, C]⟩ ([0] : List (Fin 2))) by
    simp [Shape.kept, List.mem_filter, List.mem_finRange])]
  rfl

/-- Update `(e, c')` lands on operand element `(i, c)` exactly when the index word of row `e` is `i` and the columns agree. -/
theorem scatterRows_resultIdx_iff (e : Fin E) (c' : Fin C) (i : Fin N) (c : Fin C) :
    (scatterRowsDims N E C wf).resultIdx? (ix2 e c') idx = some (ix2 i c)
      ↔ (idx (ix2 e (0 : Fin 1))).toInt = (i.val : Int) ∧ c' = c := by
  have h0s := scatterRows_start0 wf idx e c'
  have h1s := scatterRows_start1 wf idx e c'
  have h0w := scatterRows_window0 (N := N) wf e c'
  have h1w := scatterRows_window1 (N := N) wf e c'
  unfold ScatterDims.resultIdx?
  constructor
  · intro h
    split at h
    · next hall =>
      have hf := Option.some.inj h
      have e0 := congrArg Fin.val (congrFun hf (0 : Fin 2))
      have e1 := congrArg Fin.val (congrFun hf (1 : Fin 2))
      have b0 := hall (0 : Fin 2)
      have b1 := hall (1 : Fin 2)
      rw [h0s, h0w] at b0
      rw [h1s, h1w] at b1
      have e0' : ((scatterRowsDims N E C wf).start (ix2 e c') idx (0 : Fin 2)
          + ((scatterRowsDims N E C wf).window (ix2 e c') (0 : Fin 2) : Int)).toNat = i.val := e0
      have e1' : ((scatterRowsDims N E C wf).start (ix2 e c') idx (1 : Fin 2)
          + ((scatterRowsDims N E C wf).window (ix2 e c') (1 : Fin 2) : Int)).toNat = c.val := e1
      rw [h0s, h0w] at e0'
      rw [h1s, h1w] at e1'
      refine ⟨?_, Fin.ext ?_⟩
      · omega
      · omega
    · exact absurd h (by simp)
  · rintro ⟨hi, rfl⟩
    have hall : ∀ a, 0 ≤ (scatterRowsDims N E C wf).start (ix2 e c') idx a + (scatterRowsDims N E C wf).window (ix2 e c') a
        ∧ (scatterRowsDims N E C wf).start (ix2 e c') idx a + (scatterRowsDims N E C wf).window (ix2 e c') a
          < (⟨2, ![N, C]⟩ : Shape).size a := by
      intro a
      rcases fin2_cases a with rfl | rfl
      · rw [h0s, h0w, hi]
        show 0 ≤ (i.val : Int) + ((0 : Nat) : Int) ∧ (i.val : Int) + ((0 : Nat) : Int) < (N : Int)
        have := i.isLt
        omega
      · rw [h1s, h1w]
        show 0 ≤ (0 : Int) + (c'.val : Int) ∧ (0 : Int) + (c'.val : Int) < (C : Int)
        have := c'.isLt
        omega
    rw [dif_pos hall]
    congr 1
    funext a
    refine Fin.ext ?_
    rcases fin2_cases a with rfl | rfl
    · show ((scatterRowsDims N E C wf).start (ix2 e c') idx (0 : Fin 2)
        + (scatterRowsDims N E C wf).window (ix2 e c') (0 : Fin 2)).toNat = i.val
      rw [h0s, h0w, hi]
      omega
    · show ((scatterRowsDims N E C wf).start (ix2 e c') idx (1 : Fin 2)
        + (scatterRowsDims N E C wf).window (ix2 e c') (1 : Fin 2)).toNat = c'.val
      rw [h1s, h1w]
      omega

/-- THE ACCUMULATING SCATTER OF ROWS READ AT `(i, c)`: the operand's element plus the updates' column `c` summed over
    the rows `e` whose index word, read signed, is `i`. -/
theorem scatterAdd_rows_apply (x : (⟨2, ![N, C]⟩ : Shape).Idx → EReal) (upd : (⟨2, ![E, C]⟩ : Shape).Idx → EReal)
    (i : Fin N) (c : Fin C) :
    Ideal.hostScatterAdd (scatterRowsDims N E C wf) x idx upd (ix2 i c)
      = x (ix2 i c) + ∑ e ∈ Finset.univ.filter (fun e : Fin E => (idx (ix2 e (0 : Fin 1))).toInt = (i.val : Int)),
          upd (ix2 e c) := by
  unfold Ideal.hostScatterAdd
  congr 1
  have hset : Finset.univ.filter (fun j => (scatterRowsDims N E C wf).resultIdx? j idx = some (ix2 i c))
      = (Finset.univ.filter (fun e : Fin E => (idx (ix2 e (0 : Fin 1))).toInt = (i.val : Int))).image
          (fun e => (ix2 e c : (⟨2, ![E, C]⟩ : Shape).Idx)) := by
    ext j
    obtain ⟨e, c', rfl⟩ : ∃ e c', j = ix2 e c' := ⟨j 0, j 1, eq_ix2 j⟩
    simp only [Finset.mem_filter, Finset.mem_univ, true_and, Finset.mem_image]
    rw [scatterRows_resultIdx_iff]
    constructor
    · rintro ⟨h, rfl⟩
      exact ⟨e, h, rfl⟩
    · rintro ⟨e', h, heq⟩
      have h0 : e' = e := congrFun heq (0 : Fin 2)
      have h1 : c = c' := congrFun heq (1 : Fin 2)
      subst h0
      exact ⟨h, h1.symm⟩
  rw [hset, Finset.sum_image]
  intro a _ b _ hab
  exact congrFun hab (0 : Fin 2)

end ScatterRows

/-! ## Accumulating scatter at a pair of indices, at the ideal instance: operand [N, M], indices [E, 2], updates [E] -/

section ScatterPair

/-- The dimension numbers of a scatter of single elements at (row, column) pairs: operand `[N, M]`, scatter indices
    `[E, 2]`, updates `[E]`; no window axis, both operand axes inserted, index component `k` names operand axis `k`. -/
abbrev scatterPairDims (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

variable {N M E w : Nat} (wf : ScatterDims.WF ⟨2, ![N, M]⟩ ⟨2, ![E, 2]⟩ ⟨1, ![E]⟩ [] [0, 1] [0, 1] 1)
  (idx : IVec ⟨2, ![E, 2]⟩ w)

/-- On the row axis the window starts at the first index word, read signed. -/
theorem scatterPair_start0 (e : Fin E) :
    (scatterPairDims N M E wf).start (ix1 e) idx (0 : Fin 2) = (idx (ix2 e (0 : Fin 2))).toInt := by
  unfold ScatterDims.start
  rw [dif_pos (show (0 : Fin 2) ∈ ([0, 1] : List (Fin 2)) by decide)]
  have hsi : (scatterPairDims N M E wf).siIdx (ix1 e)
      ⟨List.idxOf (0 : Fin 2) (scatterPairDims N M E wf).scatterDimsToOperandDims,
        List.idxOf_lt_length_iff.2 (show (0 : Fin 2) ∈ ([0, 1] : List (Fin 2)) by decide)⟩ = ix2 e (0 : Fin 2) := by
    funext b; refine Fin.ext ?_
    rcases fin2_cases b with rfl | rfl
    · rfl
    · rfl
  rw [hsi]

/-- On the column axis the window starts at the second index word, read signed. -/
theorem scatterPair_start1 (e : Fin E) :
    (scatterPairDims N M E wf).start (ix1 e) idx (1 : Fin 2) = (idx (ix2 e (1 : Fin 2))).toInt := by
  unfold ScatterDims.start
  rw [dif_pos (show (1 : Fin 2) ∈ ([0, 1] : List (Fin 2)) by decide)]
  have hsi : (scatterPairDims N M E wf).siIdx (ix1 e)
      ⟨List.idxOf (1 : Fin 2) (scatterPairDims N M E wf).scatterDimsToOperandDims,
        List.idxOf_lt_length_iff.2 (show (1 : Fin 2) ∈ ([0, 1] : List (Fin 2)) by decide)⟩ = ix2 e (1 : Fin 2) := by
    funext b; refine Fin.ext ?_
    rcases fin2_cases b with rfl | rfl
    · rfl
    · rfl
  rw [hsi]

/-- Both operand axes are inserted: every window coordinate is 0. -/
theorem scatterPair_window (e : Fin E) (a : Fin 2) :
    (scatterPairDims N M E wf).window (ix1 e) a = 0 := by
  unfold ScatterDims.window
  rw [dif_neg (show a ∉ (Shape.kept ⟨2, ![N, M]⟩ ([0, 1] : List (Fin 2))) by
    rcases fin2_cases a with rfl | rfl <;> simp [Shape.kept, List.mem_filter])]

/-- Update `e` lands on operand element `(i, j)` exactly when its two index words are `i` and `j`. -/
theorem scatterPair_resultIdx_iff (e : Fin E) (i : Fin N) (j : Fin M) :
    (scatterPairDims N M E wf).resultIdx? (ix1 e) idx = some (ix2 i j)
      ↔ (idx (ix2 e (0 : Fin 2))).toInt = (i.val : Int) ∧ (idx (ix2 e (1 : Fin 2))).toInt = (j.val : Int) := by
  have h0s := scatterPair_start0 wf idx e
  have h1s := scatterPair_start1 wf idx e
  have h0w := scatterPair_window (N := N) (M := M) wf e (0 : Fin 2)
  have h1w := scatterPair_window (N := N) (M := M) wf e (1 : Fin 2)
  unfold ScatterDims.resultIdx?
  constructor
  · intro h
    split at h
    · next hall =>
      have hf := Option.some.inj h
      have e0 := congrArg Fin.val (congrFun hf (0 : Fin 2))
      have e1 := congrArg Fin.val (congrFun hf (1 : Fin 2))
      have b0 := hall (0 : Fin 2)
      have b1 := hall (1 : Fin 2)
      rw [h0s, h0w] at b0
      rw [h1s, h1w] at b1
      have e0' : ((scatterPairDims N M E wf).start (ix1 e) idx (0 : Fin 2)
          + ((scatterPairDims N M E wf).window (ix1 e) (0 : Fin 2) : Int)).toNat = i.val := e0
      have e1' : ((scatterPairDims N M E wf).start (ix1 e) idx (1 : Fin 2)
          + ((scatterPairDims N M E wf).window (ix1 e) (1 : Fin 2) : Int)).toNat = j.val := e1
      rw [h0s, h0w] at e0'
      rw [h1s, h1w] at e1'
      refine ⟨?_, ?_⟩
      · omega
      · omega
    · exact absurd h (by simp)
  · rintro ⟨hi, hj⟩
    have hall : ∀ a, 0 ≤ (scatterPairDims N M E wf).start (ix1 e) idx a + (scatterPairDims N M E wf).window (ix1 e) a
        ∧ (scatterPairDims N M E wf).start (ix1 e) idx a + (scatterPairDims N M E wf).window (ix1 e) a
          < (⟨2, ![N, M]⟩ : Shape).size a := by
      intro a
      rcases fin2_cases a with rfl | rfl
      · rw [h0s, h0w, hi]
        show 0 ≤ (i.val : Int) + ((0 : Nat) : Int) ∧ (i.val : Int) + ((0 : Nat) : Int) < (N : Int)
        have := i.isLt
        omega
      · rw [h1s, h1w, hj]
        show 0 ≤ (j.val : Int) + ((0 : Nat) : Int) ∧ (j.val : Int) + ((0 : Nat) : Int) < (M : Int)
        have := j.isLt
        omega
    rw [dif_pos hall]
    congr 1
    funext a
    refine Fin.ext ?_
    rcases fin2_cases a with rfl | rfl
    · show ((scatterPairDims N M E wf).start (ix1 e) idx (0 : Fin 2)
        + (scatterPairDims N M E wf).window (ix1 e) (0 : Fin 2)).toNat = i.val
      rw [h0s, h0w, hi]
      omega
    · show ((scatterPairDims N M E wf).start (ix1 e) idx (1 : Fin 2)
        + (scatterPairDims N M E wf).window (ix1 e) (1 : Fin 2)).toNat = j.val
      rw [h1s, h1w, hj]
      omega

/-- THE ACCUMULATING SCATTER AT PAIRS READ AT `(i, j)`: the operand's element plus the updates summed over the
    entries `e` whose two index words, read signed, are `i` and `j`. -/
theorem scatterAdd_pair_apply (x : (⟨2, ![N, M]⟩ : Shape).Idx → EReal) (upd : (⟨1, ![E]⟩ : Shape).Idx → EReal)
    (i : Fin N) (j : Fin M) :
    Ideal.hostScatterAdd (scatterPairDims N M E wf) x idx upd (ix2 i j)
      = x (ix2 i j) + ∑ e ∈ Finset.univ.filter (fun e : Fin E =>
          (idx (ix2 e (0 : Fin 2))).toInt = (i.val : Int) ∧ (idx (ix2 e (1 : Fin 2))).toInt = (j.val : Int)),
          upd (ix1 e) := by
  unfold Ideal.hostScatterAdd
  congr 1
  have hset : Finset.univ.filter (fun u => (scatterPairDims N M E wf).resultIdx? u idx = some (ix2 i j))
      = (Finset.univ.filter (fun e : Fin E =>
          (idx (ix2 e (0 : Fin 2))).toInt = (i.val : Int) ∧ (idx (ix2 e (1 : Fin 2))).toInt = (j.val : Int))).image
          (fun e => (ix1 e : (⟨1, ![E]⟩ : Shape).Idx)) := by
    ext u
    obtain ⟨e, rfl⟩ : ∃ e, u = ix1 e := ⟨u 0, eq_ix1 u⟩
    simp only [Finset.mem_filter, Finset.mem_univ, true_and, Finset.mem_image]
    rw [scatterPair_resultIdx_iff]
    constructor
    · intro h
      exact ⟨e, h, rfl⟩
    · rintro ⟨e', h, heq⟩
      have h0 : e' = e := congrFun heq (0 : Fin 1)
      subst h0
      exact h
  rw [hset, Finset.sum_image]
  intro a _ b _ hab
  exact congrFun hab (0 : Fin 1)

end ScatterPair

/-! ## Concatenations and an iota read at an index -/

section Concat
variable {α : Type}

/-- Two rank-1 pieces laid end to end, read in the first piece. -/
theorem concat1_apply_left {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (e : Fin n) (he : e.val < n₁) :
    concatenate ⟨1, ![n]⟩ 0 [⟨⟨1, ![n₁]⟩, x₁⟩, ⟨⟨1, ![n₂]⟩, x₂⟩] h (ix1 e) = x₁ (ix1 ⟨e.val, he⟩) :=
  concatenate_pair_apply_left (t := ⟨1, ![n]⟩) (s₁ := ⟨1, ![n₁]⟩) (s₂ := ⟨1, ![n₂]⟩) (0 : Fin 1) x₁ x₂ h _ rfl _
    (fun b => by
      obtain rfl : b = (0 : Fin 1) := Subsingleton.elim _ _
      rfl)

/-- Two rank-1 pieces laid end to end, read in the second piece. -/
theorem concat1_apply_right {n₁ n₂ n : Nat} (x₁ : (⟨1, ![n₁]⟩ : Shape).Idx → α) (x₂ : (⟨1, ![n₂]⟩ : Shape).Idx → α)
    (h : Shape.Concatenates [(⟨1, ![n₁]⟩ : Shape), ⟨1, ![n₂]⟩] ⟨1, ![n]⟩ 0) (e : Fin n) (he : n₁ ≤ e.val)
    (he₂ : e.val - n₁ < n₂) :
    concatenate ⟨1, ![n]⟩ 0 [⟨⟨1, ![n₁]⟩, x₁⟩, ⟨⟨1, ![n₂]⟩, x₂⟩] h (ix1 e) = x₂ (ix1 ⟨e.val - n₁, he₂⟩) :=
  concatenate_pair_apply_right (t := ⟨1, ![n]⟩) (s₁ := ⟨1, ![n₁]⟩) (s₂ := ⟨1, ![n₂]⟩) (0 : Fin 1) x₁ x₂ h _ rfl rfl _
    (fun b hb => by
      obtain rfl : b = (0 : Fin 1) := Subsingleton.elim _ _
      exact absurd rfl hb)
    (by show e.val - n₁ + n₁ = e.val; omega)

/-- Two `[E, 1]` columns side by side: column 0 of the result is the first. -/
theorem concatCols_apply0 {E : Nat} (x₁ x₂ : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, x₁⟩, ⟨⟨2, ![E, 1]⟩, x₂⟩] h (ix2 e (0 : Fin 2)) = x₁ (ix2 e (0 : Fin 1)) :=
  concatenate_pair_apply_left (t := ⟨2, ![E, 2]⟩) (s₁ := ⟨2, ![E, 1]⟩) (s₂ := ⟨2, ![E, 1]⟩) (1 : Fin 2) x₁ x₂ h _ rfl _
    (fun b => by
      rcases fin2_cases b with rfl | rfl
      · rfl
      · rfl)

/-- Two `[E, 1]` columns side by side: column 1 of the result is the second. -/
theorem concatCols_apply1 {E : Nat} (x₁ x₂ : (⟨2, ![E, 1]⟩ : Shape).Idx → α)
    (h : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, x₁⟩, ⟨⟨2, ![E, 1]⟩, x₂⟩] h (ix2 e (1 : Fin 2)) = x₂ (ix2 e (0 : Fin 1)) :=
  concatenate_pair_apply_right (t := ⟨2, ![E, 2]⟩) (s₁ := ⟨2, ![E, 1]⟩) (s₂ := ⟨2, ![E, 1]⟩) (1 : Fin 2) x₁ x₂ h _ rfl rfl _
    (fun b hb => by
      rcases fin2_cases b with rfl | rfl
      · rfl
      · exact absurd rfl hb)
    rfl

end Concat

section Iota

/-- The iota along the one axis of a vector reads the position as a 32-bit word. -/
theorem iota1_apply {n : Nat} (i : Fin n) :
    iotaInDim (⟨1, ![n]⟩ : Shape) 32 (0 : Fin 1) (ix1 i) = BitVec.ofNat 32 i.val := rfl

/-- Read signed, that word is the position (positions below 2³¹). -/
theorem iota1_toInt {n : Nat} (hn : n ≤ 2147483648) (i : Fin n) :
    (iotaInDim (⟨1, ![n]⟩ : Shape) 32 (0 : Fin 1) (ix1 i)).toInt = (i.val : Int) := by
  rw [iota1_apply]
  have hi := i.isLt
  rw [BitVec.toInt_eq_toNat_cond, BitVec.toNat_ofNat]
  have hmod : i.val % 2 ^ 32 = i.val := Nat.mod_eq_of_lt (by omega)
  rw [hmod]
  rw [if_pos (by omega)]

end Iota

/-! ## Gather of a vector's entries and accumulating scatter into a vector, at a column [E, 1] of indices -/

section GatherVec
variable {α : Type}

/-- The dimension numbers of a gather of single entries: operand `[N]`, start indices `[E, 1]`, result `[E]`. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result entry `e` is the operand at `idx[e, 0]`, read signed and clamped into `[0, N − 1]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨min (idx (ix2 e (0 : Fin 1))).toInt.toNat (N - 1), by omega⟩) := by
  unfold Host.gather
  congr 1
  funext a
  obtain rfl : a = (0 : Fin 1) := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    rcases fin2_cases b with rfl | rfl
    · rfl
    · rfl
  rw [hsi]
  rfl

end GatherVec

section ScatterVec

/-- The dimension numbers of a scatter of single entries into a vector: operand `[N]`, indices `[E, 1]`, updates `[E]`. -/
abbrev scatterVecDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w)

/-- The window starts at the index word, read signed. -/
theorem scatterVec_start (e : Fin E) :
    (scatterVecDims N E wf).start (ix1 e) idx (0 : Fin 1) = (idx (ix2 e (0 : Fin 1))).toInt := by
  unfold ScatterDims.start
  rw [dif_pos (show (0 : Fin 1) ∈ (scatterVecDims N E wf).scatterDimsToOperandDims from List.mem_singleton.mpr rfl)]
  have hsi : (scatterVecDims N E wf).siIdx (ix1 e)
      ⟨List.idxOf (0 : Fin 1) (scatterVecDims N E wf).scatterDimsToOperandDims,
        List.idxOf_lt_length_iff.2 (List.mem_singleton.mpr rfl)⟩ = ix2 e (0 : Fin 1) := by
    funext b; refine Fin.ext ?_
    rcases fin2_cases b with rfl | rfl
    · rfl
    · rfl
  rw [hsi]

/-- The one operand axis is inserted: its window coordinate is 0. -/
theorem scatterVec_window (e : Fin E) :
    (scatterVecDims N E wf).window (ix1 e) (0 : Fin 1) = 0 := by
  unfold ScatterDims.window
  rw [dif_neg (show (0 : Fin 1) ∉ (Shape.kept ⟨1, ![N]⟩ ([0] : List (Fin 1))) by
    simp [Shape.kept, List.mem_filter])]

/-- Update `e` lands on operand entry `i` exactly when its index word is `i`. -/
theorem scatterVec_resultIdx_iff (e : Fin E) (i : Fin N) :
    (scatterVecDims N E wf).resultIdx? (ix1 e) idx = some (ix1 i)
      ↔ (idx (ix2 e (0 : Fin 1))).toInt = (i.val : Int) := by
  have h0s := scatterVec_start wf idx e
  have h0w := scatterVec_window (N := N) wf e
  unfold ScatterDims.resultIdx?
  constructor
  · intro h
    split at h
    · next hall =>
      have hf := Option.some.inj h
      have e0 := congrArg Fin.val (congrFun hf (0 : Fin 1))
      have b0 := hall (0 : Fin 1)
      rw [h0s, h0w] at b0
      have e0' : ((scatterVecDims N E wf).start (ix1 e) idx (0 : Fin 1)
          + ((scatterVecDims N E wf).window (ix1 e) (0 : Fin 1) : Int)).toNat = i.val := e0
      rw [h0s, h0w] at e0'
      omega
    · exact absurd h (by simp)
  · intro hi
    have hall : ∀ a, 0 ≤ (scatterVecDims N E wf).start (ix1 e) idx a + (scatterVecDims N E wf).window (ix1 e) a
        ∧ (scatterVecDims N E wf).start (ix1 e) idx a + (scatterVecDims N E wf).window (ix1 e) a
          < (⟨1, ![N]⟩ : Shape).size a := by
      intro a
      obtain rfl : a = (0 : Fin 1) := Subsingleton.elim _ _
      rw [h0s, h0w, hi]
      show 0 ≤ (i.val : Int) + ((0 : Nat) : Int) ∧ (i.val : Int) + ((0 : Nat) : Int) < (N : Int)
      have := i.isLt
      omega
    rw [dif_pos hall]
    congr 1
    funext a
    obtain rfl : a = (0 : Fin 1) := Subsingleton.elim _ _
    refine Fin.ext ?_
    show ((scatterVecDims N E wf).start (ix1 e) idx (0 : Fin 1)
      + (scatterVecDims N E wf).window (ix1 e) (0 : Fin 1)).toNat = i.val
    rw [h0s, h0w, hi]
    omega

/-- THE ACCUMULATING SCATTER INTO A VECTOR READ AT `i`: the operand's entry plus the updates summed over the entries `e`
    whose index word, read signed, is `i`. -/
theorem scatterAdd_vec_apply (x : (⟨1, ![N]⟩ : Shape).Idx → EReal) (upd : (⟨1, ![E]⟩ : Shape).Idx → EReal) (i : Fin N) :
    Ideal.hostScatterAdd (scatterVecDims N E wf) x idx upd (ix1 i)
      = x (ix1 i) + ∑ e ∈ Finset.univ.filter (fun e : Fin E => (idx (ix2 e (0 : Fin 1))).toInt = (i.val : Int)),
          upd (ix1 e) := by
  unfold Ideal.hostScatterAdd
  congr 1
  have hset : Finset.univ.filter (fun u => (scatterVecDims N E wf).resultIdx? u idx = some (ix1 i))
      = (Finset.univ.filter (fun e : Fin E => (idx (ix2 e (0 : Fin 1))).toInt = (i.val : Int))).image
          (fun e => (ix1 e : (⟨1, ![E]⟩ : Shape).Idx)) := by
    ext u
    obtain ⟨e, rfl⟩ : ∃ e, u = ix1 e := ⟨u 0, eq_ix1 u⟩
    simp only [Finset.mem_filter, Finset.mem_univ, true_and, Finset.mem_image]
    rw [scatterVec_resultIdx_iff]
    constructor
    · intro h
      exact ⟨e, h, rfl⟩
    · rintro ⟨e', h, heq⟩
      have h0 : e' = e := congrFun heq (0 : Fin 1)
      subst h0
      exact h
  rw [hset, Finset.sum_image]
  intro a _ b _ hab
  exact congrFun hab (0 : Fin 1)

end ScatterVec

end Cert.HostIdx

end
-- ==== Proof.LibScatter3.lean ====
/-
  An accumulating scatter of SLABS read at an index: operand [N, H, C], a column [E, 1] of indices, updates [E, H, C] —
  the dimension numbers of a segment sum over the leading axis of a rank-three array.

  scatterAdd_slabs_apply: at the ideal instance the result at (i, h, c) is the operand's element plus the sum of
  upd (e, h, c) over the rows e whose index word, read signed, is i. An index outside [0, N) meets no i: the slab is
  dropped. The two trailing axes are window axes and pass through unchanged, so the set of contributing rows depends on
  i alone — the same set as for the rank-two scatter of rows and for the scatter of single entries into a vector.
-/
import proofs.«105096_j6674379178666_1_alg».proof.Proof.LibHostIdx

noncomputable section

open scoped BigOperators

namespace Cert.HostIdx

open Idealize.ShloMosaic Idealize.ShloMosaic.ValueIdx

theorem fin3_cases (a : Fin 3) : a = 0 ∨ a = 1 ∨ a = 2 := by
  match a with
  | ⟨0, _⟩ => exact .inl rfl
  | ⟨1, _⟩ => exact .inr (.inl rfl)
  | ⟨2, _⟩ => exact .inr (.inr rfl)

section ScatterSlabs

/-- The dimension numbers of a scatter of whole slabs: operand [N, H, C], scatter indices [E, 1], updates [E, H, C];
    the updates' axes 1 and 2 are window axes, the operand's axis 0 is inserted and is the one the index names. -/
abbrev scatterSlabsDims (N E H C : Nat)
    (wf : ScatterDims.WF ⟨3, ![N, H, C]⟩ ⟨2, ![E, 1]⟩ ⟨3, ![E, H, C]⟩ [1, 2] [0] [0] 1) :
    ScatterDims ⟨3, ![N, H, C]⟩ ⟨2, ![E, 1]⟩ ⟨3, ![E, H, C]⟩ where
  updateWindowDims := [1, 2]
  insertedWindowDims := [0]
  scatterDimsToOperandDims := [0]
  indexVectorDim := 1
  wf := wf

variable {N E H C w : Nat} (wf : ScatterDims.WF ⟨3, ![N, H, C]⟩ ⟨2, ![E, 1]⟩ ⟨3, ![E, H, C]⟩ [1, 2] [0] [0] 1)
  (idx : IVec ⟨2, ![E, 1]⟩ w)

/-- On the leading axis the window starts at the index word, read signed. -/
theorem scatterSlabs_start0 (e : Fin E) (h : Fin H) (c : Fin C) :
    (scatterSlabsDims N E H C wf).start (ix3 e h c) idx (0 : Fin 3) = (idx (ix2 e (0 : Fin 1))).toInt := by
  unfold ScatterDims.start
  rw [dif_pos (show (0 : Fin 3) ∈ (scatterSlabsDims N E H C wf).scatterDimsToOperandDims from List.mem_singleton.mpr rfl)]
  have hsi : (scatterSlabsDims N E H C wf).siIdx (ix3 e h c)
      ⟨List.idxOf (0 : Fin 3) (scatterSlabsDims N E H C wf).scatterDimsToOperandDims,
        List.idxOf_lt_length_iff.2 (List.mem_singleton.mpr rfl)⟩ = ix2 e (0 : Fin 1) := by
    funext b; refine Fin.ext ?_
    rcases fin2_cases b with rfl | rfl
    · rfl
    · rfl
  rw [hsi]

/-- On the two trailing axes the window starts at 0. -/
theorem scatterSlabs_start1 (e : Fin E) (h : Fin H) (c : Fin C) :
    (scatterSlabsDims N E H C wf).start (ix3 e h c) idx (1 : Fin 3) = 0 := by
  unfold ScatterDims.start
  rw [dif_neg (show (1 : Fin 3) ∉ ([0] : List (Fin 3)) by decide)]

theorem scatterSlabs_start2 (e : Fin E) (h : Fin H) (c : Fin C) :
    (scatterSlabsDims N E H C wf).start (ix3 e h c) idx (2 : Fin 3) = 0 := by
  unfold ScatterDims.start
  rw [dif_neg (show (2 : Fin 3) ∉ ([0] : List (Fin 3)) by decide)]

/-- The leading axis is inserted: its window coordinate is 0. -/
theorem scatterSlabs_window0 (e : Fin E) (h : Fin H) (c : Fin C) :
    (scatterSlabsDims N E H C wf).window (ix3 e h c) (0 : Fin 3) = 0 := by
  unfold ScatterDims.window
  rw [dif_neg (show (0 : Fin 3) ∉ (Shape.kept ⟨3, ![N, H, C]⟩ ([0] : List (Fin 3))) by
    simp [Shape.kept, List.mem_filter])]

/-- The middle axis carries the update's middle coordinate. -/
theorem scatterSlabs_window1 (e : Fin E) (h : Fin H) (c : Fin C) :
    (scatterSlabsDims N E H C wf).window (ix3 e h c) (1 : Fin 3) = h.val := by
  unfold ScatterDims.window
  rw [dif_pos (show (1 : Fin 3) ∈ (Shape.kept ⟨3, ![N, H, C]⟩ ([0] : List (Fin 3))) by
    simp [Shape.kept, List.mem_filter, List.mem_finRange])]
  rfl

/-- The last axis carries the update's last coordinate. -/
theorem scatterSlabs_window2 (e : Fin E) (h : Fin H) (c : Fin C) :
    (scatterSlabsDims N E H C wf).window (ix3 e h c) (2 : Fin 3) = c.val := by
  unfold ScatterDims.window
  rw [dif_pos (show (2 : Fin 3) ∈ (Shape.kept ⟨3, ![N, H, C]⟩ ([0] : List (Fin 3))) by
    simp [Shape.kept, List.mem_filter, List.mem_finRange])]
  rfl

/-- Update (e, h', c') lands on operand element (i, h, c) exactly when the index word of row e is i and the two
    trailing coordinates agree. -/
theorem scatterSlabs_resultIdx_iff (e : Fin E) (h' : Fin H) (c' : Fin C) (i : Fin N) (h : Fin H) (c : Fin C) :
    (scatterSlabsDims N E H C wf).resultIdx? (ix3 e h' c') idx = some (ix3 i h c)
      ↔ (idx (ix2 e (0 : Fin 1))).toInt = (i.val : Int) ∧ h' = h ∧ c' = c := by
  have h0s := scatterSlabs_start0 wf idx e h' c'
  have h1s := scatterSlabs_start1 wf idx e h' c'
  have h2s := scatterSlabs_start2 wf idx e h' c'
  have h0w := scatterSlabs_window0 (N := N) wf e h' c'
  have h1w := scatterSlabs_window1 (N := N) wf e h' c'
  have h2w := scatterSlabs_window2 (N := N) wf e h' c'
  unfold ScatterDims.resultIdx?
  constructor
  · intro hh
    split at hh
    · next hall =>
      have hf := Option.some.inj hh
      have e0 := congrArg Fin.val (congrFun hf (0 : Fin 3))
      have e1 := congrArg Fin.val (congrFun hf (1 : Fin 3))
      have e2 := congrArg Fin.val (congrFun hf (2 : Fin 3))
      have b0 := hall (0 : Fin 3)
      rw [h0s, h0w] at b0
      have e0' : ((scatterSlabsDims N E H C wf).start (ix3 e h' c') idx (0 : Fin 3)
          + ((scatterSlabsDims N E H C wf).window (ix3 e h' c') (0 : Fin 3) : Int)).toNat = i.val := e0
      have e1' : ((scatterSlabsDims N E H C wf).start (ix3 e h' c') idx (1 : Fin 3)
          + ((scatterSlabsDims N E H C wf).window (ix3 e h' c') (1 : Fin 3) : Int)).toNat = h.val := e1
      have e2' : ((scatterSlabsDims N E H C wf).start (ix3 e h' c') idx (2 : Fin 3)
          + ((scatterSlabsDims N E H C wf).window (ix3 e h' c') (2 : Fin 3) : Int)).toNat = c.val := e2
      rw [h0s, h0w] at e0'
      rw [h1s, h1w] at e1'
      rw [h2s, h2w] at e2'
      refine ⟨?_, Fin.ext ?_, Fin.ext ?_⟩
      · omega
      · omega
      · omega
    · exact absurd hh (by simp)
  · rintro ⟨hi, rfl, rfl⟩
    have hall : ∀ a, 0 ≤ (scatterSlabsDims N E H C wf).start (ix3 e h' c') idx a
          + (scatterSlabsDims N E H C wf).window (ix3 e h' c') a
        ∧ (scatterSlabsDims N E H C wf).start (ix3 e h' c') idx a + (scatterSlabsDims N E H C wf).window (ix3 e h' c') a
          < (⟨3, ![N, H, C]⟩ : Shape).size a := by
      intro a
      rcases fin3_cases a with rfl | rfl | rfl
      · rw [h0s, h0w, hi]
        show 0 ≤ (i.val : Int) + ((0 : Nat) : Int) ∧ (i.val : Int) + ((0 : Nat) : Int) < (N : Int)
        have := i.isLt
        omega
      · rw [h1s, h1w]
        show 0 ≤ (0 : Int) + (h'.val : Int) ∧ (0 : Int) + (h'.val : Int) < (H : Int)
        have := h'.isLt
        omega
      · rw [h2s, h2w]
        show 0 ≤ (0 : Int) + (c'.val : Int) ∧ (0 : Int) + (c'.val : Int) < (C : Int)
        have := c'.isLt
        omega
    rw [dif_pos hall]
    congr 1
    funext a
    refine Fin.ext ?_
    rcases fin3_cases a with rfl | rfl | rfl
    · show ((scatterSlabsDims N E H C wf).start (ix3 e h' c') idx (0 : Fin 3)
        + (scatterSlabsDims N E H C wf).window (ix3 e h' c') (0 : Fin 3)).toNat = i.val
      rw [h0s, h0w, hi]
      omega
    · show ((scatterSlabsDims N E H C wf).start (ix3 e h' c') idx (1 : Fin 3)
        + (scatterSlabsDims N E H C wf).window (ix3 e h' c') (1 : Fin 3)).toNat = h'.val
      rw [h1s, h1w]
      omega
    · show ((scatterSlabsDims N E H C wf).start (ix3 e h' c') idx (2 : Fin 3)
        + (scatterSlabsDims N E H C wf).window (ix3 e h' c') (2 : Fin 3)).toNat = c'.val
      rw [h2s, h2w]
      omega

/-- THE ACCUMULATING SCATTER OF SLABS READ AT (i, h, c): the operand's element plus the updates' entry (h, c) summed
    over the rows e whose index word, read signed, is i. -/
theorem scatterAdd_slabs_apply (x : (⟨3, ![N, H, C]⟩ : Shape).Idx → EReal) (upd : (⟨3, ![E, H, C]⟩ : Shape).Idx → EReal)
    (i : Fin N) (h : Fin H) (c : Fin C) :
    Ideal.hostScatterAdd (scatterSlabsDims N E H C wf) x idx upd (ix3 i h c)
      = x (ix3 i h c) + ∑ e ∈ Finset.univ.filter (fun e : Fin E => (idx (ix2 e (0 : Fin 1))).toInt = (i.val : Int)),
          upd (ix3 e h c) := by
  unfold Ideal.hostScatterAdd
  congr 1
  have hset : Finset.univ.filter (fun j => (scatterSlabsDims N E H C wf).resultIdx? j idx = some (ix3 i h c))
      = (Finset.univ.filter (fun e : Fin E => (idx (ix2 e (0 : Fin 1))).toInt = (i.val : Int))).image
          (fun e => (ix3 e h c : (⟨3, ![E, H, C]⟩ : Shape).Idx)) := by
    ext j
    obtain ⟨e, h', c', rfl⟩ : ∃ e h' c', j = ix3 e h' c' := ⟨j 0, j 1, j 2, eq_ix3 j⟩
    simp only [Finset.mem_filter, Finset.mem_univ, true_and, Finset.mem_image]
    rw [scatterSlabs_resultIdx_iff]
    constructor
    · rintro ⟨hi, rfl, rfl⟩
      exact ⟨e, hi, rfl⟩
    · rintro ⟨e', hi, heq⟩
      have q0 : e' = e := congrFun heq (0 : Fin 3)
      have q1 : h = h' := congrFun heq (1 : Fin 3)
      have q2 : c = c' := congrFun heq (2 : Fin 3)
      subst q0
      exact ⟨hi, q1.symm, q2.symm⟩
  rw [hset, Finset.sum_image]
  intro a _ b _ hab
  exact congrFun hab (0 : Fin 3)

end ScatterSlabs

end Cert.HostIdx

end
-- ==== Proof.Agg0.lean ====
/-
  Level 0: the kernel program's aggregate IS the reference's.

  Both are, at destination r and hidden unit q (the level has one input channel, so a column is a hidden unit),
      (0 + Σ over the edges e whose destination index is r of contribution(e, q)) / max(number of such edges, 1).
  The kernel scatters rows of a [980628, 16] array and the reference slabs of a [980628, 16, 1] array whose trailing
  unit axis it then drops; the edges that meet r are the same set (it depends on the index column alone), the counts
  are the same term, and the contributions agree edge by edge: the kernel's product with the named reciprocal of the
  radius is the reference's quotient by the radius.
-/
import proofs.«105096_j6674379178666_1_alg».proof.Proof.AggKer0
import proofs.«105096_j6674379178666_1_alg».proof.Proof.AggRef0
import proofs.«105096_j6674379178666_1_alg».proof.Proof.LibScatter3
import Idealize.ShloMosaic.PureOps.IdealRules

noncomputable section

open scoped BigOperators

namespace Cert.Bridge.Agg

open Idealize.ShloMosaic Idealize.ShloMosaic.ValueIdx Cert.Bridge Cert.Bridge.EdgeSpec

variable [Cert.KernelIdeal.Facts] [Cert.ReferenceIdeal.Facts]

/-- The kernel's named scale is the reciprocal of the level's radius. -/
theorem inv_r0 : Named.named (F := Ideal) Cert.KernelIdeal.κ "inv_r0" (φ := .f32) 0x41200000#32 = ((134217728 / 13421773 : ℝ) : EReal) :=
  IdealRules.named_const.ideal_named_scalar _ _ _ _ rfl

/-- The two programs gather the same rows: their operations are the same. -/
theorem gsrc0_eq (a1 : Vec Ideal Cert.KernelIdeal.S262144x3 .f32) (a5 : Vec Ideal Cert.KernelIdeal.S980628 .i32) :
    AggKer0.gsrc a1 a5 = RefParts.gsrc0 (F := Ideal) a5 a1 := rfl
theorem gdst0_eq (a2 : Vec Ideal Cert.KernelIdeal.S8000x3 .f32) (a6 : Vec Ideal Cert.KernelIdeal.S980628 .i32) :
    AggKer0.gdst a2 a6 = RefParts.gdst0 (F := Ideal) a6 a2 := rfl
theorem gfeat0_eq (a0 : Vec Ideal Cert.KernelIdeal.S262144x1 .f32) (a5 : Vec Ideal Cert.KernelIdeal.S980628 .i32) :
    AggKer0.gfeat a0 a5 = RefParts.gfeat0 (F := Ideal) a5 a0 := rfl

/-- The kernel program's scatter of edge rows, read at (r, q): the operand's entry plus the entries (e, q) of the edges
    e whose destination index is r.  (Stated over variables, so that nothing about the long edge list is unfolded.) -/
theorem ker_sum (x : FVec Ideal Cert.KernelIdeal.S8000x16 .f32) (idx : IVec Cert.KernelIdeal.S980628x1 32)
    (upd : FVec Ideal Cert.KernelIdeal.S980628x16 .f32) (r : Fin 8000) (q : Fin 16) :
    Host.scatterAdd (F := Ideal) (φ := .f32) Cert.KernelIdeal.scatter_S8000x16_S980628x1_S980628x16_1_0_0_1 x idx upd (ix2 r q)
      = x (ix2 r q) + ∑ e ∈ Finset.univ.filter (fun e : Fin 980628 => (idx (ix2 e (0 : Fin 1))).toInt = (r.val : Int)),
          upd (ix2 e q) := by
  unfold Host.scatterAdd
  rw [Ideal.hostScatterAdd_def]
  exact Cert.HostIdx.scatterAdd_rows_apply (N := 8000) (E := 980628) (C := 16)
    _ idx x upd r q

/-- The reference's scatter of edge slabs, read at (r, q, 0): the same sum over the same edges. -/
theorem ref_sum (x : FVec Ideal Cert.ReferenceIdeal.S8000x16x1 .f32) (idx : IVec Cert.ReferenceIdeal.S980628x1 32)
    (upd : FVec Ideal Cert.ReferenceIdeal.S980628x16x1 .f32) (r : Fin 8000) (q : Fin 16) :
    Host.scatterAdd (F := Ideal) (φ := .f32) Cert.ReferenceIdeal.scatter_S8000x16x1_S980628x1_S980628x16x1_12_0_0_1 x idx upd
        (ix3 r q (0 : Fin 1))
      = x (ix3 r q (0 : Fin 1)) + ∑ e ∈ Finset.univ.filter (fun e : Fin 980628 => (idx (ix2 e (0 : Fin 1))).toInt = (r.val : Int)),
          upd (ix3 e q (0 : Fin 1)) := by
  unfold Host.scatterAdd
  rw [Ideal.hostScatterAdd_def]
  exact Cert.HostIdx.scatterAdd_slabs_apply (N := 8000) (E := 980628) (H := 16) (C := 1)
    _ idx x upd r q (0 : Fin 1)

/-- LEVEL 0'S AGGREGATE. -/
theorem agg0_eq (a0 : Vec Ideal Cert.KernelIdeal.S262144x1 .f32) (a1 : Vec Ideal Cert.KernelIdeal.S262144x3 .f32)
    (a2 : Vec Ideal Cert.KernelIdeal.S8000x3 .f32) (a5 a6 : Vec Ideal Cert.KernelIdeal.S980628 .i32)
    (a11 : Vec Ideal Cert.KernelIdeal.S3x16 .f32) (a12 : Vec Ideal Cert.KernelIdeal.S16 .f32) :
    KerSpec.agg0 (Cert.KernelIdeal.KerRegions.edge0 (KerSpec.ps0 a1 a5) (KerSpec.pd0 a2 a6) (KerSpec.ft0 a0 a5) a11 (KerSpec.bb0 a12)) a6
      = RefSpec.agg0 (F := Ideal) a0 a1 a2 a5 a6 a11 a12 := by
  rw [AggRef0.agg0_struct]
  funext j
  obtain ⟨r, q, rfl⟩ : ∃ (r : Fin 8000) (q : Fin 16), j = ix2 r q := ⟨j 0, j 1, eq_ix2 j⟩
  have hq := q.isLt
  refine Eq.trans ?_ (shapeCast_apply _ _ (ix2 r q)
    (ix3 (n0 := 8000) (n1 := 16) (n2 := 1) r q (0 : Fin 1)) (by
      rw [Shape.rowMajor_val_three, Shape.rowMajor_val_two]
      show (r.val * 16 + q.val) * 1 + 0 = r.val * 16 + q.val
      omega)).symm
  unfold KerSpec.agg0
  refine (hostDivf_apply _ _ _).trans (Eq.trans ?_ (hostDivf_apply _ _ _).symm)
  refine congrArg₂ Ideal.div ?_ ?_
  · -- the scattered sums
    refine (ker_sum _ _ _ r q).trans ?_
    refine Eq.trans ?_ (ref_sum _ _ _ r q).symm
    refine congrArg₂ (· + ·) ((broadcastInDim_scalar_apply _ _ _).trans (broadcastInDim_scalar_apply _ _ _).symm)
      (Finset.sum_congr rfl fun e _ => ?_)
    refine (AggKer0.edge_apply a0 a1 a2 a5 a6 a11 a12 _ e q).trans ?_
    refine Eq.trans ?_ (AggRef0.core0_apply _ _ a11 a12 _ e q).symm
    rw [inv_r0, gsrc0_eq, gdst0_eq, gfeat0_eq]
  · -- the counts
    refine (broadcastInDim_apply _ _ _ (ix2 r q) (ix2 (n0 := 8000) (n1 := 1) r (0 : Fin 1))
      (by intro a; match a with | ⟨0, _⟩ => rfl | ⟨1, _⟩ => rfl)).trans ?_
    refine (broadcastInDim_apply _ _ _ (ix2 (n0 := 8000) (n1 := 1) r (0 : Fin 1)) (ix1 r)
      (by intro a; match a with | ⟨0, _⟩ => rfl)).trans ?_
    refine Eq.trans ?_ (broadcastInDim_apply _ _ _ (ix3 (n0 := 8000) (n1 := 16) (n2 := 1) r q (0 : Fin 1))
      (ix3 (n0 := 8000) (n1 := 1) (n2 := 1) r (0 : Fin 1) (0 : Fin 1))
      (by intro a; match a with | ⟨0, _⟩ => rfl | ⟨1, _⟩ => rfl | ⟨2, _⟩ => rfl)).symm
    refine Eq.trans ?_ (broadcastInDim_apply _ _ _ (ix3 (n0 := 8000) (n1 := 1) (n2 := 1) r (0 : Fin 1) (0 : Fin 1)) (ix1 r)
      (by intro a; match a with | ⟨0, _⟩ => rfl)).symm
    rfl

end Cert.Bridge.Agg

end
-- ==== Proof.EdgeKer2.lean ====
/-
  The edge kernel of level 1 (tiles of 424 edges, 128 input channels) at an entry of its output block.

  The body computes, for the tile's edge p and hidden unit h, the basis value
      H(p, h) = act (Σₖ (x0[p,k] − x1[p,k]) · c · Wb[k,h] + bb[0,h]),   c the named reciprocal of the level's radius,
  then lays the sixteen products H(·, h) · FT side by side: output column q = 128·h + ch holds H(p, h) · FT[p, ch].
  Each of the sixteen pieces is one function of h, so the concatenation is read in one step: column q lies in piece
  q / 128 at that piece's column q mod 128.
-/
import proofs.«105096_j6674379178666_1_alg».proof.Proof.Gen.KernelIdeal.Skeleton
import proofs.«105096_j6674379178666_1_alg».proof.Proof.LibRows
import proofs.«105096_j6674379178666_1_alg».proof.Proof.EdgeSpec
import Idealize.ShloMosaic.PureOps.IdealRules
import Idealize.ShloMosaic.Lib.ValueIdx
import Idealize.ShloMosaic.Lib.Pipeline.Value
import Idealize.ShloMosaic.PureOps.Ideal.Laws

noncomputable section

open scoped BigOperators

namespace Cert.Bridge.EdgeKer2

open Cert.KernelIdeal Cert.KernelIdeal.Gen Idealize.ShloMosaic Idealize.ShloMosaic.ValueIdx Cert.Bridge.EdgeSpec

variable [Cert.KernelIdeal.Facts]

/-- The 424 x 3 by 3 x 16 product into a zero accumulator, at (p, h): the sum over the three coordinates. -/
theorem mm_apply (L : FVec Ideal S424x3 .bf16) (R : FVec Ideal S3x16 .bf16) (p : Fin 424) (hh : Fin 16) :
    matmul dot_S424x3_S3x16_S424x16_1_0_0_1_n_n none L R (constant S424x16 .f32 0x00000000#32) (ix2 p hh)
      = ∑ k : Fin 3, L (ix2 p k) * R (ix2 k hh) :=
  (Ideal.matmul_constant_zero_apply _ _ L R _).trans
    (Cert.Lib.Rows.sum_contr _ rfl rfl rfl rfl (fun _ _ => rfl) (fun _ _ => rfl) L R p hh)

/-- The bias row broadcast down the tile, at (p, h): the row's entry h. -/
theorem bias_apply (v : FVec Ideal S1x16 .f32) (hb : S1x16.Broadcasts S424x16) (p : Fin 424) (hh : Fin 16) :
    broadcastTo S424x16 v hb (ix2 p hh) = v (ix2 (0 : Fin 1) hh) :=
  broadcastTo_apply v hb _ _ (by intro a; match a with | ⟨0, _⟩ => rfl | ⟨1, _⟩ => rfl)

/-- THE BASIS LAYER AT (p, h). -/
theorem pay2_apply (x0 x1 : Vec Ideal S424x3 .f32) (x3 : Vec Ideal S3x16 .f32) (x4 : Vec Ideal S1x16 .f32) (p : Fin 424) (hh : Fin 16) :
    k2_pay2 (F := Ideal) x0 x1 x3 x4 (ix2 p hh)
      = act (pre (fun k => x0 (ix2 p k)) (fun k => x1 (ix2 p k)) (Named.named (F := Ideal) κ "inv_r1" (φ := .f32) 0x40A00000#32)
          (fun k => x3 (ix2 k hh)) (x4 (ix2 (0 : Fin 1) hh))) := by
  unfold k2_pay2
  simp only [select_apply, cmpf_apply, mulf_apply, addf_apply, subf_apply, broadcast_apply, shapeCast_self, truncf_apply,
    mm_apply, bias_apply]
  rfl

/-- Column h of the basis layer, spread over the 128 channels, times the gathered feature block. -/
def piece (H : FVec Ideal S424x16 .f32) (FT : FVec Ideal S424x128 .f32) (hh : Fin 16) : S424x128.Idx → EReal :=
  fun y => H (ix2 (n0 := 424) (n1 := 16) ⟨(y 0).val, idx2_lt0 y⟩ hh) * FT y

/-- Every one of the body's sixteen pieces is that function of its column number. -/
theorem piece_eq (H : FVec Ideal S424x16 .f32) (FT : FVec Ideal S424x128 .f32) (o : Nat) (ho : o < 16)
    (hs : S424x16.Slices ![0, o] S424x1) (hb : S424x1.Broadcasts S424x128) :
    mulf (broadcastTo S424x128 (extractStridedSlice S424x1 ![0, o] H hs) hb) FT = piece H FT ⟨o, ho⟩ := by
  funext y
  show broadcastTo S424x128 (extractStridedSlice S424x1 ![0, o] H hs) hb y * FT y = _ * FT y
  congr 1
  refine (broadcastTo_apply _ hb y (ix2 (n0 := 424) (n1 := 1) ⟨(y 0).val, idx2_lt0 y⟩ (0 : Fin 1))
    (by intro a; match a with | ⟨0, _⟩ => rfl | ⟨1, _⟩ => rfl)).trans ?_
  exact extractStridedSlice_apply ![0, o] H hs (ix2 (n0 := 424) (n1 := 1) ⟨(y 0).val, idx2_lt0 y⟩ (0 : Fin 1))
    (ix2 (n0 := 424) (n1 := 16) ⟨(y 0).val, idx2_lt0 y⟩ ⟨o, ho⟩)
    (by intro a; match a with | ⟨0, _⟩ => exact (Nat.zero_add _).symm | ⟨1, _⟩ => rfl)

/-- THE BODY'S STORED VALUE AT (p, q): the basis value of hidden unit q / 128 times the feature's channel q mod 128. -/
theorem body_apply (x0 x1 : Vec Ideal S424x3 .f32) (x2 : Vec Ideal S424x128 .f32) (x3 : Vec Ideal S3x16 .f32) (x4 : Vec Ideal S1x16 .f32)
    (p : Fin 424) (q : Fin 2048) :
    k2_pay1 (F := Ideal) (k2_pay2 x0 x1 x3 x4) (k2_pay3 x2) (k2_pay4 x0 x1 x3 x4 x2) (k2_pay5 x0 x1 x3 x4 x2) (k2_pay6 x0 x1 x3 x4 x2)
        (k2_pay7 x0 x1 x3 x4 x2) (k2_pay8 x0 x1 x3 x4 x2) (k2_pay9 x0 x1 x3 x4 x2) (k2_pay10 x0 x1 x3 x4 x2) (k2_pay11 x0 x1 x3 x4) (ix2 p q)
      = k2_pay2 (F := Ideal) x0 x1 x3 x4 (ix2 p ⟨q.val / 128, by have := q.isLt; omega⟩)
          * x2 (ix2 p ⟨q.val % 128, Nat.mod_lt _ (by norm_num)⟩) := by
  unfold k2_pay1 k2_pay4 k2_pay5 k2_pay6 k2_pay7 k2_pay8 k2_pay9 k2_pay10 k2_pay11 k2_pay3
  simp only [shapeCast_self]
  simp only [piece_eq _ _ 0 (by norm_num), piece_eq _ _ 1 (by norm_num), piece_eq _ _ 2 (by norm_num), piece_eq _ _ 3 (by norm_num),
    piece_eq _ _ 4 (by norm_num), piece_eq _ _ 5 (by norm_num), piece_eq _ _ 6 (by norm_num), piece_eq _ _ 7 (by norm_num),
    piece_eq _ _ 8 (by norm_num), piece_eq _ _ 9 (by norm_num), piece_eq _ _ 10 (by norm_num), piece_eq _ _ 11 (by norm_num),
    piece_eq _ _ 12 (by norm_num), piece_eq _ _ 13 (by norm_num), piece_eq _ _ 14 (by norm_num), piece_eq _ _ 15 (by norm_num)]
  exact concatenate_ofFn_apply (t := S424x2048) (s₁ := S424x128) 1
    (fun n : Fin 16 => piece (k2_pay2 (F := Ideal) x0 x1 x3 x4) x2 n) _ rfl 128 rfl (ix2 p q)
    ⟨q.val / 128, by have := q.isLt; omega⟩ rfl (ix2 p ⟨q.val % 128, Nat.mod_lt _ (by norm_num)⟩) rfl
    (fun b hb => by match b with | ⟨0, _⟩ => rfl | ⟨1, _⟩ => exact absurd rfl hb)

end Cert.Bridge.EdgeKer2

end
-- ==== Proof.AggKer1.lean ====
/- Level 1 of the kernel program, read at an index.

  The edge array has one row per lengthened edge; only the first 26578 rows are real edges. For a real edge e = 424 t + p
  the row lies in tile t at row p, where the kernel body left, in column q = 128 h + ch,
      act (Σₖ (Psrc[e,k] − Pdst[e,k]) · c · Wb[k,h] + bb[h]) · feat[e,ch],     c the named reciprocal of the radius,
  Psrc, Pdst, feat being the gathered rows (the appended zero rows are never read by a real edge).
-/
import proofs.«105096_j6674379178666_1_alg».proof.Proof.KerSpec
import proofs.«105096_j6674379178666_1_alg».proof.Proof.KerRegionsEdge2
import proofs.«105096_j6674379178666_1_alg».proof.Proof.EdgeKer2
import Idealize.ShloMosaic.Lib.KernelVsHost
import Idealize.ShloMosaic.Lib.ValueLayout

noncomputable section

open scoped BigOperators

namespace Cert.Bridge.AggKer1

open Cert.KernelIdeal Cert.KernelIdeal.Gen Cert.KernelIdeal.KerRegions Idealize.ShloMosaic Idealize.ShloMosaic.ValueIdx
open Cert.Bridge Cert.Bridge.EdgeSpec
open Cert.KernelIdeal.Facts₀ Cert.KernelIdeal.Facts

variable [Cert.KernelIdeal.Facts]

/-- A lengthened array read at a real edge's row is the array before lengthening. -/
theorem pad_row {n : Nat} (G : (⟨2, ![26578, n]⟩ : Shape).Idx → EReal) {u : Shape} (v : u.Idx → EReal)
    (hp : (⟨2, ![26578, n]⟩ : Shape).Pads ![0, 0] ![134, 0] ![0, 0] ⟨2, ![26712, n]⟩) (hu : 0 < u.numel)
    (m : Nat) (h1 : m < 26712) (h2 : m < 26578) (k : Fin n) :
    pad ⟨2, ![26712, n]⟩ ![0, 0] ![134, 0] ![0, 0] G v hp hu (ix2 (n0 := 26712) (n1 := n) ⟨m, h1⟩ k) = G (ix2 (n0 := 26578) (n1 := n) ⟨m, h2⟩ k) :=
  pad_apply_of_inside _ _ _ G v hp hu _ _ (by
    intro a
    match a with
    | ⟨0, _⟩ => show m = 0 + m * (0 + 1); omega
    | ⟨1, _⟩ => show k.val = 0 + k.val * (0 + 1); omega)

/-- The source positions of the level's edges, as the kernel program gathers them. -/
abbrev gsrc (a2 : Vec Ideal S8000x3 .f32) (a7 : Vec Ideal S26578 .i32) : Vec Ideal S26578x3 .f32 :=
  Host.gather gather_S8000x3_S26578x1_S26578x3_1_0_n_n_0_1_13 a2 (KerSpec.wrap1 8000#32 a7)
/-- The destination positions of the level's edges. -/
abbrev gdst (a3 : Vec Ideal S1000x3 .f32) (a8 : Vec Ideal S26578 .i32) : Vec Ideal S26578x3 .f32 :=
  Host.gather gather_S1000x3_S26578x1_S26578x3_1_0_n_n_0_1_13 a3 (KerSpec.wrap1 1000#32 a8)
/-- The source features of the level's edges. -/
abbrev gfeat (x : Vec Ideal S8000x128 .f32) (a7 : Vec Ideal S26578 .i32) : Vec Ideal S26578x128 .f32 :=
  Host.gather gather_S8000x128_S26578x1_S26578x128_1_0_n_n_0_1_1128 x (KerSpec.wrap1 8000#32 a7)

theorem ps1_row (a2 : Vec Ideal S8000x3 .f32) (a7 : Vec Ideal S26578 .i32) (m : Nat) (h1 : m < 26712) (h2 : m < 26578) (k : Fin 3) :
    KerSpec.ps1 a2 a7 (ix2 (n0 := 26712) (n1 := 3) ⟨m, h1⟩ k) = gsrc a2 a7 (ix2 (n0 := 26578) (n1 := 3) ⟨m, h2⟩ k) := by
  unfold KerSpec.ps1
  exact pad_row _ _ _ _ m h1 h2 k

theorem pd1_row (a3 : Vec Ideal S1000x3 .f32) (a8 : Vec Ideal S26578 .i32) (m : Nat) (h1 : m < 26712) (h2 : m < 26578) (k : Fin 3) :
    KerSpec.pd1 a3 a8 (ix2 (n0 := 26712) (n1 := 3) ⟨m, h1⟩ k) = gdst a3 a8 (ix2 (n0 := 26578) (n1 := 3) ⟨m, h2⟩ k) := by
  unfold KerSpec.pd1
  exact pad_row _ _ _ _ m h1 h2 k

theorem ft1_row (x : Vec Ideal S8000x128 .f32) (a7 : Vec Ideal S26578 .i32) (m : Nat) (h1 : m < 26712) (h2 : m < 26578) (k : Fin 128) :
    KerSpec.ft1 x a7 (ix2 (n0 := 26712) (n1 := 128) ⟨m, h1⟩ k) = gfeat x a7 (ix2 (n0 := 26578) (n1 := 128) ⟨m, h2⟩ k) := by
  unfold KerSpec.ft1
  exact pad_row _ _ _ _ m h1 h2 k

theorem bb1_apply (a17 : Vec Ideal S16 .f32) (u : Fin 1) (hh : Fin 16) : KerSpec.bb1 a17 (ix2 u hh) = a17 (ix1 hh) := by
  unfold KerSpec.bb1
  exact shapeCast_a_1a_apply a17 _ u hh

/-- A REAL EDGE'S ENTRY OF THE EDGE ARRAY, after the appended rows are dropped. -/
theorem edge_apply (x : Vec Ideal S8000x128 .f32) (a2 : Vec Ideal S8000x3 .f32) (a3 : Vec Ideal S1000x3 .f32) (a7 a8 : Vec Ideal S26578 .i32)
    (a16 : Vec Ideal S3x16 .f32) (a17 : Vec Ideal S16 .f32) (hs : S26712x2048.Slices ![0, 0] S26578x2048) (e : Fin 26578) (q : Fin 2048) :
    extractStridedSlice S26578x2048 ![0, 0]
        (edge2 (KerSpec.ps1 a2 a7) (KerSpec.pd1 a3 a8) (KerSpec.ft1 x a7) a16 (KerSpec.bb1 a17)) hs (ix2 e q)
      = act (pre (fun k => gsrc a2 a7 (ix2 e k)) (fun k => gdst a3 a8 (ix2 e k))
            (Named.named (F := Ideal) κ "inv_r1" (φ := .f32) 0x40A00000#32)
            (fun k => a16 (ix2 k ⟨q.val / 128, by have := q.isLt; omega⟩)) (a17 (ix1 ⟨q.val / 128, by have := q.isLt; omega⟩)))
          * gfeat x a7 (ix2 e ⟨q.val % 128, Nat.mod_lt _ (by norm_num)⟩) := by
  have he := e.isLt
  obtain ⟨t, p, h2, rfl⟩ : ∃ (t : Fin 63) (p : Fin 424) (h2 : 424 * t.val + p.val < 26578), e = ⟨424 * t.val + p.val, h2⟩ :=
    ⟨⟨e.val / 424, by omega⟩, ⟨e.val % 424, Nat.mod_lt _ (by norm_num)⟩, by show 424 * (e.val / 424) + e.val % 424 < 26578; omega,
      Fin.ext (by show e.val = 424 * (e.val / 424) + e.val % 424; omega)⟩
  have h1 : 424 * t.val + p.val < 26712 := by omega
  refine (extractStridedSlice_apply ![0, 0] _ hs _ (ix2 (n0 := 26712) (n1 := 2048) ⟨424 * t.val + p.val, h1⟩ q)
    (by intro a; match a with | ⟨0, _⟩ => exact (Nat.zero_add _).symm | ⟨1, _⟩ => exact (Nat.zero_add _).symm)).trans ?_
  refine (edge2_apply _ _ _ _ _ t p q).trans ?_
  rw [out2_5_eq]
  refine (EdgeKer2.body_apply _ _ _ _ _ p q).trans ?_
  rw [EdgeKer2.pay2_apply]
  simp only [tileRows2_apply, ps1_row _ _ _ _ h2, pd1_row _ _ _ _ h2, ft1_row _ _ _ _ h2, bb1_apply]

end Cert.Bridge.AggKer1

end
-- ==== Proof.AggRef1.lean ====
/- Level 1 of the reference, read at an index.

  The level's aggregate is a reshape of  (scatter-add over destinations of the per-edge contributions) / max(count, 1).
  A contribution is, for edge e, hidden unit h and channel ch,
      act (Σₖ ((Psrc[e,k] − Pdst[e,k]) / D₁) · Wb[k,h] + bb[h]) · feat[e,ch],
  where Psrc, Pdst, feat are the gathered rows; dividing by the radius D₁ = 13421773/2^26 is multiplying by its reciprocal.
-/
import proofs.«105096_j6674379178666_1_alg».proof.Proof.RefParts
import proofs.«105096_j6674379178666_1_alg».proof.Proof.LibRows
import proofs.«105096_j6674379178666_1_alg».proof.Proof.EdgeSpec
import proofs.«105096_j6674379178666_1_alg».proof.Proof.Consts
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.Bridge.AggRef1

open Cert.ReferenceIdeal Idealize.ShloMosaic Idealize.ShloMosaic.ValueIdx Cert.Bridge Cert.Bridge.EdgeSpec
open Cert.ReferenceIdeal.Facts₀ Cert.ReferenceIdeal.Facts

variable [Cert.ReferenceIdeal.Facts]

/-- The level's aggregate is the reshape of the quotient of the scattered contributions by the broadcast counts. -/
theorem agg1_struct (x : FVec Ideal S8000x128 .f32) (a2 : FVec Ideal S8000x3 .f32) (a3 : FVec Ideal S1000x3 .f32)
    (a7 a8 : IVec S26578 32) (a16 : FVec Ideal S3x16 .f32) (a17 : FVec Ideal S16 .f32) :
    RefSpec.agg1 (F := Ideal) x a2 a3 a7 a8 a16 a17
      = shapeCast S1000x2048
          (Host.divf (F := Ideal)
            (Host.scatterAdd (F := Ideal) scatter_S1000x16x128_S26578x1_S26578x16x128_12_0_0_1
              (broadcastInDim S1000x16x128 ![] bcast_S_S1000x16x128 (constant (F := Ideal) S_ .f32 0x00000000#32))
              (broadcastInDim S26578x1 ![0] bcast_S26578_S26578x1_0 a8)
              (RefParts.core1 (F := Ideal) (RefParts.gsrc1 a7 a2) (RefParts.gdst1 a8 a3) a16 a17 (RefParts.gfeat1 a7 x)))
            (broadcastInDim S1000x16x128 ![0, 1, 2] bcast_S1000x1x1_S1000x16x128_0_1_2
              (broadcastInDim S1000x1x1 ![0] bcast_S1000_S1000x1x1_0 (RefParts.cnt1 (F := Ideal) a8))))
          shapeCasts_S1000x16x128_S1000x2048 := rfl

/-- The host product [26578,3] x [3,16] at (e, h): the sum over the three coordinates. -/
theorem dot_apply (L : FVec Ideal S26578x3 .f32) (R : FVec Ideal S3x16 .f32) (e : Fin 26578) (hh : Fin 16) :
    Host.dotGeneral dot_S26578x3_S3x16_S26578x16_1_0_0_1_n_n none L R (ix2 e hh) = ∑ k : Fin 3, L (ix2 e k) * R (ix2 k hh) :=
  (Ideal.dotGeneral_apply _ none .single L R _).trans
    (Cert.Lib.Rows.sum_contr _ rfl rfl rfl rfl (fun _ _ => rfl) (fun _ _ => rfl) L R e hh)

theorem bias_row (v : FVec Ideal S16 .f32) (h : S16.BroadcastsInDim S1x16 ![1]) (u : Fin 1) (hh : Fin 16) :
    broadcastInDim S1x16 ![1] h v (ix2 u hh) = v (ix1 hh) :=
  broadcastInDim_apply _ h v _ _ (by intro a; match a with | ⟨0, _⟩ => rfl)

theorem bias_rows (v : FVec Ideal S1x16 .f32) (h : S1x16.BroadcastsInDim S26578x16 ![0, 1]) (e : Fin 26578) (hh : Fin 16) :
    broadcastInDim S26578x16 ![0, 1] h v (ix2 e hh) = v (ix2 (0 : Fin 1) hh) :=
  broadcastInDim_apply _ h v _ _ (by intro a; match a with | ⟨0, _⟩ => rfl | ⟨1, _⟩ => rfl)

theorem unit_last (v : FVec Ideal S26578x16 .f32) (h : S26578x16.BroadcastsInDim S26578x16x1 ![0, 1]) (e : Fin 26578) (hh : Fin 16) (u : Fin 1) :
    broadcastInDim S26578x16x1 ![0, 1] h v (ix3 e hh u) = v (ix2 e hh) :=
  broadcastInDim_apply _ h v _ _ (by intro a; match a with | ⟨0, _⟩ => rfl | ⟨1, _⟩ => rfl)

theorem spread_last (v : FVec Ideal S26578x16x1 .f32) (h : S26578x16x1.BroadcastsInDim S26578x16x128 ![0, 1, 2]) (e : Fin 26578) (hh : Fin 16) (c : Fin 128) :
    broadcastInDim S26578x16x128 ![0, 1, 2] h v (ix3 e hh c) = v (ix3 e hh (0 : Fin 1)) :=
  broadcastInDim_apply _ h v _ _ (by intro a; match a with | ⟨0, _⟩ => rfl | ⟨1, _⟩ => rfl | ⟨2, _⟩ => rfl)

theorem unit_mid (v : FVec Ideal S26578x128 .f32) (h : S26578x128.BroadcastsInDim S26578x1x128 ![0, 2]) (e : Fin 26578) (u : Fin 1) (c : Fin 128) :
    broadcastInDim S26578x1x128 ![0, 2] h v (ix3 e u c) = v (ix2 e c) :=
  broadcastInDim_apply _ h v _ _ (by intro a; match a with | ⟨0, _⟩ => rfl | ⟨1, _⟩ => rfl)

theorem spread_mid (v : FVec Ideal S26578x1x128 .f32) (h : S26578x1x128.BroadcastsInDim S26578x16x128 ![0, 1, 2]) (e : Fin 26578) (hh : Fin 16) (c : Fin 128) :
    broadcastInDim S26578x16x128 ![0, 1, 2] h v (ix3 e hh c) = v (ix3 e (0 : Fin 1) c) :=
  broadcastInDim_apply _ h v _ _ (by intro a; match a with | ⟨0, _⟩ => rfl | ⟨1, _⟩ => rfl | ⟨2, _⟩ => rfl)

/-- ONE EDGE'S CONTRIBUTION AT (e, h, ch). -/
theorem core1_apply (G3 G4 : FVec Ideal S26578x3 .f32) (a16 : FVec Ideal S3x16 .f32) (a17 : FVec Ideal S16 .f32)
    (GX : FVec Ideal S26578x128 .f32) (e : Fin 26578) (hh : Fin 16) (c : Fin 128) :
    RefParts.core1 (F := Ideal) G3 G4 a16 a17 GX (ix3 e hh c)
      = act (pre (fun k => G3 (ix2 e k)) (fun k => G4 (ix2 e k)) ((67108864 / 13421773 : ℝ) : EReal)
          (fun k => a16 (ix2 k hh)) (a17 (ix1 hh))) * GX (ix2 e c) := by
  unfold RefParts.core1 RefSpec.f_leaky_relu_3 RefSpec.f_where_4
  simp only [mulf_apply]
  refine congrArg₂ (· * ·) ((spread_last _ _ e hh c).trans ((unit_last _ _ e hh (0 : Fin 1)).trans ?_))
    ((spread_mid _ _ e hh c).trans (unit_mid _ _ e (0 : Fin 1) c))
  simp only [select_apply, cmpf_apply, mulf_apply, addf_apply, subf_apply, hostDivf_apply, dot_apply, id]
  have hD : ∀ k : Fin 3, broadcastInDim S26578x3 ![] bcast_S_S26578x3 (constant (F := Ideal) S_ .f32 0x3E4CCCCD#32) (ix2 e k)
      = Ideal.ofBits .f32 0x3E4CCCCD#32 := fun k => broadcastInDim_scalar_apply _ _ _
  have hZ : broadcastInDim S26578x16 ![] bcast_S_S26578x16 (constant (F := Ideal) S_ .f32 0x00000000#32) (ix2 e hh)
      = FloatOps.ofBits (F := Ideal) .f32 0x00000000#32 := broadcastInDim_scalar_apply _ _ _
  have hS : broadcastInDim S26578x16 ![] bcast_S_S26578x16 (constant (F := Ideal) S_ .f32 0x3E4CCCCD#32) (ix2 e hh)
      = FloatOps.ofBits (F := Ideal) .f32 0x3E4CCCCD#32 := broadcastInDim_scalar_apply _ _ _
  have hB : broadcastInDim S26578x16 ![0, 1] bcast_S1x16_S26578x16_0_1 (broadcastInDim S1x16 ![1] bcast_S16_S1x16_1 a17) (ix2 e hh)
      = a17 (ix1 hh) := (bias_rows _ _ e hh).trans (bias_row _ _ (0 : Fin 1) hh)
  simp only [hD, hZ, hS, hB, Consts.div_r1]
  rfl

end Cert.Bridge.AggRef1

end
-- ==== Proof.Agg1.lean ====
/- Level 1: the kernel program's aggregate IS the reference's.

  Both are, at destination r and column q = 128 h + ch,
      (0 + Σ over the edges e whose destination index is r of contribution(e, h, ch)) / max(number of such edges, 1).
  The kernel scatters rows of a [26578, 2048] array and the reference slabs of a [26578, 16, 128] array that it then
  flattens; the edges that meet r are the same set (it depends on the index column alone), the counts are the same
  term, and the contributions agree edge by edge: the kernel's product with the named reciprocal of the radius is the
  reference's quotient by the radius.
-/
import proofs.«105096_j6674379178666_1_alg».proof.Proof.AggKer1
import proofs.«105096_j6674379178666_1_alg».proof.Proof.AggRef1
import proofs.«105096_j6674379178666_1_alg».proof.Proof.LibScatter3
import Idealize.ShloMosaic.PureOps.IdealRules

noncomputable section

open scoped BigOperators

namespace Cert.Bridge.Agg

open Idealize.ShloMosaic Idealize.ShloMosaic.ValueIdx Cert.Bridge Cert.Bridge.EdgeSpec

variable [Cert.KernelIdeal.Facts] [Cert.ReferenceIdeal.Facts]

/-- The kernel's named scale is the reciprocal of the level's radius. -/
theorem inv_r1 : Named.named (F := Ideal) Cert.KernelIdeal.κ "inv_r1" (φ := .f32) 0x40A00000#32 = ((67108864 / 13421773 : ℝ) : EReal) :=
  IdealRules.named_const.ideal_named_scalar _ _ _ _ rfl

/-- The two programs gather the same rows: their operations are the same. -/
theorem gsrc1_eq (a2 : Vec Ideal Cert.KernelIdeal.S8000x3 .f32) (a7 : Vec Ideal Cert.KernelIdeal.S26578 .i32) :
    AggKer1.gsrc a2 a7 = RefParts.gsrc1 (F := Ideal) a7 a2 := rfl
theorem gdst1_eq (a3 : Vec Ideal Cert.KernelIdeal.S1000x3 .f32) (a8 : Vec Ideal Cert.KernelIdeal.S26578 .i32) :
    AggKer1.gdst a3 a8 = RefParts.gdst1 (F := Ideal) a8 a3 := rfl
theorem gfeat1_eq (x : Vec Ideal Cert.KernelIdeal.S8000x128 .f32) (a7 : Vec Ideal Cert.KernelIdeal.S26578 .i32) :
    AggKer1.gfeat x a7 = RefParts.gfeat1 (F := Ideal) a7 x := rfl

/-- LEVEL 1'S AGGREGATE. -/
theorem agg1_eq (x : Vec Ideal Cert.KernelIdeal.S8000x128 .f32) (a2 : Vec Ideal Cert.KernelIdeal.S8000x3 .f32)
    (a3 : Vec Ideal Cert.KernelIdeal.S1000x3 .f32) (a7 a8 : Vec Ideal Cert.KernelIdeal.S26578 .i32)
    (a16 : Vec Ideal Cert.KernelIdeal.S3x16 .f32) (a17 : Vec Ideal Cert.KernelIdeal.S16 .f32) :
    KerSpec.agg1 (Cert.KernelIdeal.KerRegions.edge2 (KerSpec.ps1 a2 a7) (KerSpec.pd1 a3 a8) (KerSpec.ft1 x a7) a16 (KerSpec.bb1 a17)) a8
      = RefSpec.agg1 (F := Ideal) x a2 a3 a7 a8 a16 a17 := by
  rw [AggRef1.agg1_struct]
  funext j
  obtain ⟨r, q, rfl⟩ : ∃ (r : Fin 1000) (q : Fin 2048), j = ix2 r q := ⟨j 0, j 1, eq_ix2 j⟩
  have hq := q.isLt
  refine Eq.trans ?_ (shapeCast_apply _ _ (ix2 r q)
    (ix3 (n0 := 1000) (n1 := 16) (n2 := 128) r ⟨q.val / 128, by omega⟩ ⟨q.val % 128, Nat.mod_lt _ (by norm_num)⟩) (by
      rw [Shape.rowMajor_val_three, Shape.rowMajor_val_two]
      show (r.val * 16 + q.val / 128) * 128 + q.val % 128 = r.val * 2048 + q.val
      omega)).symm
  unfold KerSpec.agg1
  refine (hostDivf_apply _ _ _).trans (Eq.trans ?_ (hostDivf_apply _ _ _).symm)
  refine congrArg₂ Ideal.div ?_ ?_
  · -- the scattered sums
    refine (Cert.HostIdx.scatterAdd_rows_apply (N := 1000) (E := 26578) (C := 2048) _ _ _ _ r q).trans ?_
    refine Eq.trans ?_ (Cert.HostIdx.scatterAdd_slabs_apply (N := 1000) (E := 26578) (H := 16) (C := 128) _ _ _ _ r
      ⟨q.val / 128, by omega⟩ ⟨q.val % 128, Nat.mod_lt _ (by norm_num)⟩).symm
    refine congrArg₂ (· + ·) ((broadcastInDim_scalar_apply _ _ _).trans (broadcastInDim_scalar_apply _ _ _).symm)
      (Finset.sum_congr rfl fun e _ => ?_)
    refine (AggKer1.edge_apply x a2 a3 a7 a8 a16 a17 _ e q).trans ?_
    refine Eq.trans ?_ (AggRef1.core1_apply _ _ a16 a17 _ e ⟨q.val / 128, by omega⟩ ⟨q.val % 128, Nat.mod_lt _ (by norm_num)⟩).symm
    rw [inv_r1, gsrc1_eq, gdst1_eq, gfeat1_eq]
  · -- the counts
    refine (broadcastInDim_apply _ _ _ (ix2 r q) (ix2 (n0 := 1000) (n1 := 1) r (0 : Fin 1))
      (by intro a; match a with | ⟨0, _⟩ => rfl | ⟨1, _⟩ => rfl)).trans ?_
    refine (broadcastInDim_apply _ _ _ (ix2 (n0 := 1000) (n1 := 1) r (0 : Fin 1)) (ix1 r)
      (by intro a; match a with | ⟨0, _⟩ => rfl)).trans ?_
    refine Eq.trans ?_ (broadcastInDim_apply _ _ _ (ix3 (n0 := 1000) (n1 := 16) (n2 := 128) r ⟨q.val / 128, by omega⟩ ⟨q.val % 128, Nat.mod_lt _ (by norm_num)⟩)
      (ix3 (n0 := 1000) (n1 := 1) (n2 := 1) r (0 : Fin 1) (0 : Fin 1))
      (by intro a; match a with | ⟨0, _⟩ => rfl | ⟨1, _⟩ => rfl | ⟨2, _⟩ => rfl)).symm
    refine Eq.trans ?_ (broadcastInDim_apply _ _ _ (ix3 (n0 := 1000) (n1 := 1) (n2 := 1) r (0 : Fin 1) (0 : Fin 1)) (ix1 r)
      (by intro a; match a with | ⟨0, _⟩ => rfl)).symm
    rfl

end Cert.Bridge.Agg

end
-- ==== Proof.EdgeKer4.lean ====
/-
  The edge kernel of level 2 (tiles of 224 edges, 256 input channels) at an entry of its output block.

  The body computes, for the tile's edge p and hidden unit h, the basis value
      H(p, h) = act (Σₖ (x0[p,k] − x1[p,k]) · c · Wb[k,h] + bb[0,h]),   c the named reciprocal of the level's radius,
  then lays the sixteen products H(·, h) · FT side by side: output column q = 256·h + ch holds H(p, h) · FT[p, ch].
  Each of the sixteen pieces is one function of h, so the concatenation is read in one step: column q lies in piece
  q / 256 at that piece's column q mod 256.
-/
import proofs.«105096_j6674379178666_1_alg».proof.Proof.Gen.KernelIdeal.Skeleton
import proofs.«105096_j6674379178666_1_alg».proof.Proof.LibRows
import proofs.«105096_j6674379178666_1_alg».proof.Proof.EdgeSpec
import Idealize.ShloMosaic.PureOps.IdealRules
import Idealize.ShloMosaic.Lib.ValueIdx
import Idealize.ShloMosaic.Lib.Pipeline.Value
import Idealize.ShloMosaic.PureOps.Ideal.Laws

noncomputable section

open scoped BigOperators

namespace Cert.Bridge.EdgeKer4

open Cert.KernelIdeal Cert.KernelIdeal.Gen Idealize.ShloMosaic Idealize.ShloMosaic.ValueIdx Cert.Bridge.EdgeSpec

variable [Cert.KernelIdeal.Facts]

/-- The 224 x 3 by 3 x 16 product into a zero accumulator, at (p, h): the sum over the three coordinates. -/
theorem mm_apply (L : FVec Ideal S224x3 .bf16) (R : FVec Ideal S3x16 .bf16) (p : Fin 224) (hh : Fin 16) :
    matmul dot_S224x3_S3x16_S224x16_1_0_0_1_n_n none L R (constant S224x16 .f32 0x00000000#32) (ix2 p hh)
      = ∑ k : Fin 3, L (ix2 p k) * R (ix2 k hh) :=
  (Ideal.matmul_constant_zero_apply _ _ L R _).trans
    (Cert.Lib.Rows.sum_contr _ rfl rfl rfl rfl (fun _ _ => rfl) (fun _ _ => rfl) L R p hh)

/-- The bias row broadcast down the tile, at (p, h): the row's entry h. -/
theorem bias_apply (v : FVec Ideal S1x16 .f32) (hb : S1x16.Broadcasts S224x16) (p : Fin 224) (hh : Fin 16) :
    broadcastTo S224x16 v hb (ix2 p hh) = v (ix2 (0 : Fin 1) hh) :=
  broadcastTo_apply v hb _ _ (by intro a; match a with | ⟨0, _⟩ => rfl | ⟨1, _⟩ => rfl)

/-- THE BASIS LAYER AT (p, h). -/
theorem pay2_apply (x0 x1 : Vec Ideal S224x3 .f32) (x3 : Vec Ideal S3x16 .f32) (x4 : Vec Ideal S1x16 .f32) (p : Fin 224) (hh : Fin 16) :
    k4_pay2 (F := Ideal) x0 x1 x3 x4 (ix2 p hh)
      = act (pre (fun k => x0 (ix2 p k)) (fun k => x1 (ix2 p k)) (Named.named (F := Ideal) κ "inv_r2" (φ := .f32) 0x3EC8D312#32)
          (fun k => x3 (ix2 k hh)) (x4 (ix2 (0 : Fin 1) hh))) := by
  unfold k4_pay2
  simp only [select_apply, cmpf_apply, mulf_apply, addf_apply, subf_apply, broadcast_apply, shapeCast_self, truncf_apply,
    mm_apply, bias_apply]
  rfl

/-- Column h of the basis layer, spread over the 256 channels, times the gathered feature block. -/
def piece (H : FVec Ideal S224x16 .f32) (FT : FVec Ideal S224x256 .f32) (hh : Fin 16) : S224x256.Idx → EReal :=
  fun y => H (ix2 (n0 := 224) (n1 := 16) ⟨(y 0).val, idx2_lt0 y⟩ hh) * FT y

/-- Every one of the body's sixteen pieces is that function of its column number. -/
theorem piece_eq (H : FVec Ideal S224x16 .f32) (FT : FVec Ideal S224x256 .f32) (o : Nat) (ho : o < 16)
    (hs : S224x16.Slices ![0, o] S224x1) (hb : S224x1.Broadcasts S224x256) :
    mulf (broadcastTo S224x256 (extractStridedSlice S224x1 ![0, o] H hs) hb) FT = piece H FT ⟨o, ho⟩ := by
  funext y
  show broadcastTo S224x256 (extractStridedSlice S224x1 ![0, o] H hs) hb y * FT y = _ * FT y
  congr 1
  refine (broadcastTo_apply _ hb y (ix2 (n0 := 224) (n1 := 1) ⟨(y 0).val, idx2_lt0 y⟩ (0 : Fin 1))
    (by intro a; match a with | ⟨0, _⟩ => rfl | ⟨1, _⟩ => rfl)).trans ?_
  exact extractStridedSlice_apply ![0, o] H hs (ix2 (n0 := 224) (n1 := 1) ⟨(y 0).val, idx2_lt0 y⟩ (0 : Fin 1))
    (ix2 (n0 := 224) (n1 := 16) ⟨(y 0).val, idx2_lt0 y⟩ ⟨o, ho⟩)
    (by intro a; match a with | ⟨0, _⟩ => exact (Nat.zero_add _).symm | ⟨1, _⟩ => rfl)

/-- THE BODY'S STORED VALUE AT (p, q): the basis value of hidden unit q / 256 times the feature's channel q mod 256. -/
theorem body_apply (x0 x1 : Vec Ideal S224x3 .f32) (x2 : Vec Ideal S224x256 .f32) (x3 : Vec Ideal S3x16 .f32) (x4 : Vec Ideal S1x16 .f32)
    (p : Fin 224) (q : Fin 4096) :
    k4_pay1 (F := Ideal) (k4_pay2 x0 x1 x3 x4) (k4_pay3 x2) (k4_pay4 x0 x1 x3 x4 x2) (k4_pay5 x0 x1 x3 x4 x2) (k4_pay6 x0 x1 x3 x4 x2)
        (k4_pay7 x0 x1 x3 x4 x2) (k4_pay8 x0 x1 x3 x4 x2) (k4_pay9 x0 x1 x3 x4 x2) (k4_pay10 x0 x1 x3 x4 x2) (k4_pay11 x0 x1 x3 x4) (ix2 p q)
      = k4_pay2 (F := Ideal) x0 x1 x3 x4 (ix2 p ⟨q.val / 256, by have := q.isLt; omega⟩)
          * x2 (ix2 p ⟨q.val % 256, Nat.mod_lt _ (by norm_num)⟩) := by
  unfold k4_pay1 k4_pay4 k4_pay5 k4_pay6 k4_pay7 k4_pay8 k4_pay9 k4_pay10 k4_pay11 k4_pay3
  simp only [shapeCast_self]
  simp only [piece_eq _ _ 0 (by norm_num), piece_eq _ _ 1 (by norm_num), piece_eq _ _ 2 (by norm_num), piece_eq _ _ 3 (by norm_num),
    piece_eq _ _ 4 (by norm_num), piece_eq _ _ 5 (by norm_num), piece_eq _ _ 6 (by norm_num), piece_eq _ _ 7 (by norm_num),
    piece_eq _ _ 8 (by norm_num), piece_eq _ _ 9 (by norm_num), piece_eq _ _ 10 (by norm_num), piece_eq _ _ 11 (by norm_num),
    piece_eq _ _ 12 (by norm_num), piece_eq _ _ 13 (by norm_num), piece_eq _ _ 14 (by norm_num), piece_eq _ _ 15 (by norm_num)]
  exact concatenate_ofFn_apply (t := S224x4096) (s₁ := S224x256) 1
    (fun n : Fin 16 => piece (k4_pay2 (F := Ideal) x0 x1 x3 x4) x2 n) _ rfl 256 rfl (ix2 p q)
    ⟨q.val / 256, by have := q.isLt; omega⟩ rfl (ix2 p ⟨q.val % 256, Nat.mod_lt _ (by norm_num)⟩) rfl
    (fun b hb => by match b with | ⟨0, _⟩ => rfl | ⟨1, _⟩ => exact absurd rfl hb)

end Cert.Bridge.EdgeKer4

end
-- ==== Proof.AggKer2.lean ====
/-
  Level 2 of the kernel program, read at an index.

  The edge array has one row per lengthened edge; only the first 1000 rows are real edges. For a real edge e = 224 t + p
  the row lies in tile t at row p, where the kernel body left, in column q = 256 h + ch,
      act (Σₖ (Psrc[e,k] − Pdst[e,k]) · c · Wb[k,h] + bb[h]) · feat[e,ch],     c the named reciprocal of the radius,
  Psrc, Pdst, feat being the gathered rows (the appended zero rows are never read by a real edge).
-/
import proofs.«105096_j6674379178666_1_alg».proof.Proof.KerSpec
import proofs.«105096_j6674379178666_1_alg».proof.Proof.KerRegionsEdge4
import proofs.«105096_j6674379178666_1_alg».proof.Proof.EdgeKer4
import Idealize.ShloMosaic.Lib.KernelVsHost
import Idealize.ShloMosaic.Lib.ValueLayout

noncomputable section

open scoped BigOperators

namespace Cert.Bridge.AggKer2

open Cert.KernelIdeal Cert.KernelIdeal.Gen Cert.KernelIdeal.KerRegions Idealize.ShloMosaic Idealize.ShloMosaic.ValueIdx
open Cert.Bridge Cert.Bridge.EdgeSpec
open Cert.KernelIdeal.Facts₀ Cert.KernelIdeal.Facts

variable [Cert.KernelIdeal.Facts]

/-- A lengthened array read at a real edge's row is the array before lengthening. -/
theorem pad_row {n : Nat} (G : (⟨2, ![1000, n]⟩ : Shape).Idx → EReal) {u : Shape} (v : u.Idx → EReal)
    (hp : (⟨2, ![1000, n]⟩ : Shape).Pads ![0, 0] ![120, 0] ![0, 0] ⟨2, ![1120, n]⟩) (hu : 0 < u.numel)
    (m : Nat) (h1 : m < 1120) (h2 : m < 1000) (k : Fin n) :
    pad ⟨2, ![1120, n]⟩ ![0, 0] ![120, 0] ![0, 0] G v hp hu (ix2 (n0 := 1120) (n1 := n) ⟨m, h1⟩ k) = G (ix2 (n0 := 1000) (n1 := n) ⟨m, h2⟩ k) :=
  pad_apply_of_inside _ _ _ G v hp hu _ _ (by
    intro a
    match a with
    | ⟨0, _⟩ => show m = 0 + m * (0 + 1); omega
    | ⟨1, _⟩ => show k.val = 0 + k.val * (0 + 1); omega)

/-- The source positions of the level's edges, as the kernel program gathers them. -/
abbrev gsrc (a3 : Vec Ideal S1000x3 .f32) (a9 : Vec Ideal S1000 .i32) : Vec Ideal S1000x3 .f32 :=
  Host.gather gather_S1000x3_S1000x1_S1000x3_1_0_n_n_0_1_13 a3 (KerSpec.wrap2 1000#32 a9)
/-- The destination positions of the level's edges. -/
abbrev gdst (a4 : Vec Ideal S8x3 .f32) (a10 : Vec Ideal S1000 .i32) : Vec Ideal S1000x3 .f32 :=
  Host.gather gather_S8x3_S1000x1_S1000x3_1_0_n_n_0_1_13 a4 (KerSpec.wrap2 8#32 a10)
/-- The source features of the level's edges. -/
abbrev gfeat (x : Vec Ideal S1000x256 .f32) (a9 : Vec Ideal S1000 .i32) : Vec Ideal S1000x256 .f32 :=
  Host.gather gather_S1000x256_S1000x1_S1000x256_1_0_n_n_0_1_1256 x (KerSpec.wrap2 1000#32 a9)

theorem ps2_row (a3 : Vec Ideal S1000x3 .f32) (a9 : Vec Ideal S1000 .i32) (m : Nat) (h1 : m < 1120) (h2 : m < 1000) (k : Fin 3) :
    KerSpec.ps2 a3 a9 (ix2 (n0 := 1120) (n1 := 3) ⟨m, h1⟩ k) = gsrc a3 a9 (ix2 (n0 := 1000) (n1 := 3) ⟨m, h2⟩ k) := by
  unfold KerSpec.ps2
  exact pad_row _ _ _ _ m h1 h2 k

theorem pd2_row (a4 : Vec Ideal S8x3 .f32) (a10 : Vec Ideal S1000 .i32) (m : Nat) (h1 : m < 1120) (h2 : m < 1000) (k : Fin 3) :
    KerSpec.pd2 a4 a10 (ix2 (n0 := 1120) (n1 := 3) ⟨m, h1⟩ k) = gdst a4 a10 (ix2 (n0 := 1000) (n1 := 3) ⟨m, h2⟩ k) := by
  unfold KerSpec.pd2
  exact pad_row _ _ _ _ m h1 h2 k

theorem ft2_row (x : Vec Ideal S1000x256 .f32) (a9 : Vec Ideal S1000 .i32) (m : Nat) (h1 : m < 1120) (h2 : m < 1000) (k : Fin 256) :
    KerSpec.ft2 x a9 (ix2 (n0 := 1120) (n1 := 256) ⟨m, h1⟩ k) = gfeat x a9 (ix2 (n0 := 1000) (n1 := 256) ⟨m, h2⟩ k) := by
  unfold KerSpec.ft2
  exact pad_row _ _ _ _ m h1 h2 k

theorem bb2_apply (a22 : Vec Ideal S16 .f32) (u : Fin 1) (hh : Fin 16) : KerSpec.bb2 a22 (ix2 u hh) = a22 (ix1 hh) := by
  unfold KerSpec.bb2
  exact shapeCast_a_1a_apply a22 _ u hh

/-- A REAL EDGE'S ENTRY OF THE EDGE ARRAY, after the appended rows are dropped. -/
theorem edge_apply (x : Vec Ideal S1000x256 .f32) (a3 : Vec Ideal S1000x3 .f32) (a4 : Vec Ideal S8x3 .f32) (a9 a10 : Vec Ideal S1000 .i32)
    (a21 : Vec Ideal S3x16 .f32) (a22 : Vec Ideal S16 .f32) (hs : S1120x4096.Slices ![0, 0] S1000x4096) (e : Fin 1000) (q : Fin 4096) :
    extractStridedSlice S1000x4096 ![0, 0]
        (edge4 (KerSpec.ps2 a3 a9) (KerSpec.pd2 a4 a10) (KerSpec.ft2 x a9) a21 (KerSpec.bb2 a22)) hs (ix2 e q)
      = act (pre (fun k => gsrc a3 a9 (ix2 e k)) (fun k => gdst a4 a10 (ix2 e k))
            (Named.named (F := Ideal) κ "inv_r2" (φ := .f32) 0x3EC8D312#32)
            (fun k => a21 (ix2 k ⟨q.val / 256, by have := q.isLt; omega⟩)) (a22 (ix1 ⟨q.val / 256, by have := q.isLt; omega⟩)))
          * gfeat x a9 (ix2 e ⟨q.val % 256, Nat.mod_lt _ (by norm_num)⟩) := by
  have he := e.isLt
  obtain ⟨t, p, h2, rfl⟩ : ∃ (t : Fin 5) (p : Fin 224) (h2 : 224 * t.val + p.val < 1000), e = ⟨224 * t.val + p.val, h2⟩ :=
    ⟨⟨e.val / 224, by omega⟩, ⟨e.val % 224, Nat.mod_lt _ (by norm_num)⟩, by show 224 * (e.val / 224) + e.val % 224 < 1000; omega,
      Fin.ext (by show e.val = 224 * (e.val / 224) + e.val % 224; omega)⟩
  have h1 : 224 * t.val + p.val < 1120 := by omega
  refine (extractStridedSlice_apply ![0, 0] _ hs _ (ix2 (n0 := 1120) (n1 := 4096) ⟨224 * t.val + p.val, h1⟩ q)
    (by intro a; match a with | ⟨0, _⟩ => exact (Nat.zero_add _).symm | ⟨1, _⟩ => exact (Nat.zero_add _).symm)).trans ?_
  refine (edge4_apply _ _ _ _ _ t p q).trans ?_
  rw [out4_5_eq]
  refine (EdgeKer4.body_apply _ _ _ _ _ p q).trans ?_
  rw [EdgeKer4.pay2_apply]
  simp only [tileRows4_apply, ps2_row _ _ _ _ h2, pd2_row _ _ _ _ h2, ft2_row _ _ _ _ h2, bb2_apply]

end Cert.Bridge.AggKer2

end
-- ==== Proof.AggRef2.lean ====
/-
  Level 2 of the reference, read at an index.

  The level's aggregate is a reshape of  (scatter-add over destinations of the per-edge contributions) / max(count, 1).
  A contribution is, for edge e, hidden unit h and channel ch,
      act (Σₖ ((Psrc[e,k] − Pdst[e,k]) / D₂) · Wb[k,h] + bb[h]) · feat[e,ch],
  where Psrc, Pdst, feat are the gathered rows; dividing by the radius D₂ = 10693335/2^22 is multiplying by its reciprocal.
-/
import proofs.«105096_j6674379178666_1_alg».proof.Proof.RefParts
import proofs.«105096_j6674379178666_1_alg».proof.Proof.LibRows
import proofs.«105096_j6674379178666_1_alg».proof.Proof.EdgeSpec
import proofs.«105096_j6674379178666_1_alg».proof.Proof.Consts
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.Bridge.AggRef2

open Cert.ReferenceIdeal Idealize.ShloMosaic Idealize.ShloMosaic.ValueIdx Cert.Bridge Cert.Bridge.EdgeSpec
open Cert.ReferenceIdeal.Facts₀ Cert.ReferenceIdeal.Facts

variable [Cert.ReferenceIdeal.Facts]

/-- The level's aggregate is the reshape of the quotient of the scattered contributions by the broadcast counts. -/
theorem agg2_struct (x : FVec Ideal S1000x256 .f32) (a3 : FVec Ideal S1000x3 .f32) (a4 : FVec Ideal S8x3 .f32)
    (a9 a10 : IVec S1000 32) (a21 : FVec Ideal S3x16 .f32) (a22 : FVec Ideal S16 .f32) :
    RefSpec.agg2 (F := Ideal) x a3 a4 a9 a10 a21 a22
      = shapeCast S8x4096
          (Host.divf (F := Ideal)
            (Host.scatterAdd (F := Ideal) scatter_S8x16x256_S1000x1_S1000x16x256_12_0_0_1
              (broadcastInDim S8x16x256 ![] bcast_S_S8x16x256 (constant (F := Ideal) S_ .f32 0x00000000#32))
              (broadcastInDim S1000x1 ![0] bcast_S1000_S1000x1_0 a10)
              (RefParts.core2 (F := Ideal) (RefParts.gsrc2 a9 a3) (RefParts.gdst2 a10 a4) a21 a22 (RefParts.gfeat2 a9 x)))
            (broadcastInDim S8x16x256 ![0, 1, 2] bcast_S8x1x1_S8x16x256_0_1_2
              (broadcastInDim S8x1x1 ![0] bcast_S8_S8x1x1_0 (RefParts.cnt2 (F := Ideal) a10))))
          shapeCasts_S8x16x256_S8x4096 := rfl

/-- The host product [1000,3] x [3,16] at (e, h): the sum over the three coordinates. -/
theorem dot_apply (L : FVec Ideal S1000x3 .f32) (R : FVec Ideal S3x16 .f32) (e : Fin 1000) (hh : Fin 16) :
    Host.dotGeneral dot_S1000x3_S3x16_S1000x16_1_0_0_1_n_n none L R (ix2 e hh) = ∑ k : Fin 3, L (ix2 e k) * R (ix2 k hh) :=
  (Ideal.dotGeneral_apply _ none .single L R _).trans
    (Cert.Lib.Rows.sum_contr _ rfl rfl rfl rfl (fun _ _ => rfl) (fun _ _ => rfl) L R e hh)

theorem bias_row (v : FVec Ideal S16 .f32) (h : S16.BroadcastsInDim S1x16 ![1]) (u : Fin 1) (hh : Fin 16) :
    broadcastInDim S1x16 ![1] h v (ix2 u hh) = v (ix1 hh) :=
  broadcastInDim_apply _ h v _ _ (by intro a; match a with | ⟨0, _⟩ => rfl)

theorem bias_rows (v : FVec Ideal S1x16 .f32) (h : S1x16.BroadcastsInDim S1000x16 ![0, 1]) (e : Fin 1000) (hh : Fin 16) :
    broadcastInDim S1000x16 ![0, 1] h v (ix2 e hh) = v (ix2 (0 : Fin 1) hh) :=
  broadcastInDim_apply _ h v _ _ (by intro a; match a with | ⟨0, _⟩ => rfl | ⟨1, _⟩ => rfl)

theorem unit_last (v : FVec Ideal S1000x16 .f32) (h : S1000x16.BroadcastsInDim S1000x16x1 ![0, 1]) (e : Fin 1000) (hh : Fin 16) (u : Fin 1) :
    broadcastInDim S1000x16x1 ![0, 1] h v (ix3 e hh u) = v (ix2 e hh) :=
  broadcastInDim_apply _ h v _ _ (by intro a; match a with | ⟨0, _⟩ => rfl | ⟨1, _⟩ => rfl)

theorem spread_last (v : FVec Ideal S1000x16x1 .f32) (h : S1000x16x1.BroadcastsInDim S1000x16x256 ![0, 1, 2]) (e : Fin 1000) (hh : Fin 16) (c : Fin 256) :
    broadcastInDim S1000x16x256 ![0, 1, 2] h v (ix3 e hh c) = v (ix3 e hh (0 : Fin 1)) :=
  broadcastInDim_apply _ h v _ _ (by intro a; match a with | ⟨0, _⟩ => rfl | ⟨1, _⟩ => rfl | ⟨2, _⟩ => rfl)

theorem unit_mid (v : FVec Ideal S1000x256 .f32) (h : S1000x256.BroadcastsInDim S1000x1x256 ![0, 2]) (e : Fin 1000) (u : Fin 1) (c : Fin 256) :
    broadcastInDim S1000x1x256 ![0, 2] h v (ix3 e u c) = v (ix2 e c) :=
  broadcastInDim_apply _ h v _ _ (by intro a; match a with | ⟨0, _⟩ => rfl | ⟨1, _⟩ => rfl)

theorem spread_mid (v : FVec Ideal S1000x1x256 .f32) (h : S1000x1x256.BroadcastsInDim S1000x16x256 ![0, 1, 2]) (e : Fin 1000) (hh : Fin 16) (c : Fin 256) :
    broadcastInDim S1000x16x256 ![0, 1, 2] h v (ix3 e hh c) = v (ix3 e (0 : Fin 1) c) :=
  broadcastInDim_apply _ h v _ _ (by intro a; match a with | ⟨0, _⟩ => rfl | ⟨1, _⟩ => rfl | ⟨2, _⟩ => rfl)

/-- ONE EDGE'S CONTRIBUTION AT (e, h, ch). -/
theorem core2_apply (G3 G4 : FVec Ideal S1000x3 .f32) (a21 : FVec Ideal S3x16 .f32) (a22 : FVec Ideal S16 .f32)
    (GX : FVec Ideal S1000x256 .f32) (e : Fin 1000) (hh : Fin 16) (c : Fin 256) :
    RefParts.core2 (F := Ideal) G3 G4 a21 a22 GX (ix3 e hh c)
      = act (pre (fun k => G3 (ix2 e k)) (fun k => G4 (ix2 e k)) ((4194304 / 10693335 : ℝ) : EReal)
          (fun k => a21 (ix2 k hh)) (a22 (ix1 hh))) * GX (ix2 e c) := by
  unfold RefParts.core2 RefSpec.f_leaky_relu_9 RefSpec.f_where_10
  simp only [mulf_apply]
  refine congrArg₂ (· * ·) ((spread_last _ _ e hh c).trans ((unit_last _ _ e hh (0 : Fin 1)).trans ?_))
    ((spread_mid _ _ e hh c).trans (unit_mid _ _ e (0 : Fin 1) c))
  simp only [select_apply, cmpf_apply, mulf_apply, addf_apply, subf_apply, hostDivf_apply, dot_apply, id]
  have hD : ∀ k : Fin 3, broadcastInDim S1000x3 ![] bcast_S_S1000x3 (constant (F := Ideal) S_ .f32 0x40232AD7#32) (ix2 e k)
      = Ideal.ofBits .f32 0x40232AD7#32 := fun k => broadcastInDim_scalar_apply _ _ _
  have hZ : broadcastInDim S1000x16 ![] bcast_S_S1000x16 (constant (F := Ideal) S_ .f32 0x00000000#32) (ix2 e hh)
      = FloatOps.ofBits (F := Ideal) .f32 0x00000000#32 := broadcastInDim_scalar_apply _ _ _
  have hS : broadcastInDim S1000x16 ![] bcast_S_S1000x16 (constant (F := Ideal) S_ .f32 0x3E4CCCCD#32) (ix2 e hh)
      = FloatOps.ofBits (F := Ideal) .f32 0x3E4CCCCD#32 := broadcastInDim_scalar_apply _ _ _
  have hB : broadcastInDim S1000x16 ![0, 1] bcast_S1x16_S1000x16_0_1 (broadcastInDim S1x16 ![1] bcast_S16_S1x16_1 a22) (ix2 e hh)
      = a22 (ix1 hh) := (bias_rows _ _ e hh).trans (bias_row _ _ (0 : Fin 1) hh)
  simp only [hD, hZ, hS, hB, Consts.div_r2]
  rfl

end Cert.Bridge.AggRef2

end
-- ==== Proof.Agg2.lean ====
/-
  Level 2: the kernel program's aggregate IS the reference's.

  Both are, at destination r and column q = 256 h + ch,
      (0 + Σ over the edges e whose destination index is r of contribution(e, h, ch)) / max(number of such edges, 1).
  The kernel scatters rows of a [1000, 4096] array and the reference slabs of a [1000, 16, 256] array that it then
  flattens; the edges that meet r are the same set (it depends on the index column alone), the counts are the same
  term, and the contributions agree edge by edge: the kernel's product with the named reciprocal of the radius is the
  reference's quotient by the radius.
-/
import proofs.«105096_j6674379178666_1_alg».proof.Proof.AggKer2
import proofs.«105096_j6674379178666_1_alg».proof.Proof.AggRef2
import proofs.«105096_j6674379178666_1_alg».proof.Proof.LibScatter3
import Idealize.ShloMosaic.PureOps.IdealRules

noncomputable section

open scoped BigOperators

namespace Cert.Bridge.Agg

open Idealize.ShloMosaic Idealize.ShloMosaic.ValueIdx Cert.Bridge Cert.Bridge.EdgeSpec

variable [Cert.KernelIdeal.Facts] [Cert.ReferenceIdeal.Facts]

/-- The kernel's named scale is the reciprocal of the level's radius. -/
theorem inv_r2 : Named.named (F := Ideal) Cert.KernelIdeal.κ "inv_r2" (φ := .f32) 0x3EC8D312#32 = ((4194304 / 10693335 : ℝ) : EReal) :=
  IdealRules.named_const.ideal_named_scalar _ _ _ _ rfl

/-- The two programs gather the same rows: their operations are the same. -/
theorem gsrc2_eq (a3 : Vec Ideal Cert.KernelIdeal.S1000x3 .f32) (a9 : Vec Ideal Cert.KernelIdeal.S1000 .i32) :
    AggKer2.gsrc a3 a9 = RefParts.gsrc2 (F := Ideal) a9 a3 := rfl
theorem gdst2_eq (a4 : Vec Ideal Cert.KernelIdeal.S8x3 .f32) (a10 : Vec Ideal Cert.KernelIdeal.S1000 .i32) :
    AggKer2.gdst a4 a10 = RefParts.gdst2 (F := Ideal) a10 a4 := rfl
theorem gfeat2_eq (x : Vec Ideal Cert.KernelIdeal.S1000x256 .f32) (a9 : Vec Ideal Cert.KernelIdeal.S1000 .i32) :
    AggKer2.gfeat x a9 = RefParts.gfeat2 (F := Ideal) a9 x := rfl

/-- LEVEL 2'S AGGREGATE. -/
theorem agg2_eq (x : Vec Ideal Cert.KernelIdeal.S1000x256 .f32) (a3 : Vec Ideal Cert.KernelIdeal.S1000x3 .f32)
    (a4 : Vec Ideal Cert.KernelIdeal.S8x3 .f32) (a9 a10 : Vec Ideal Cert.KernelIdeal.S1000 .i32)
    (a21 : Vec Ideal Cert.KernelIdeal.S3x16 .f32) (a22 : Vec Ideal Cert.KernelIdeal.S16 .f32) :
    KerSpec.agg2 (Cert.KernelIdeal.KerRegions.edge4 (KerSpec.ps2 a3 a9) (KerSpec.pd2 a4 a10) (KerSpec.ft2 x a9) a21 (KerSpec.bb2 a22)) a10
      = RefSpec.agg2 (F := Ideal) x a3 a4 a9 a10 a21 a22 := by
  rw [AggRef2.agg2_struct]
  funext j
  obtain ⟨r, q, rfl⟩ : ∃ (r : Fin 8) (q : Fin 4096), j = ix2 r q := ⟨j 0, j 1, eq_ix2 j⟩
  have hq := q.isLt
  refine Eq.trans ?_ (shapeCast_apply _ _ (ix2 r q)
    (ix3 (n0 := 8) (n1 := 16) (n2 := 256) r ⟨q.val / 256, by omega⟩ ⟨q.val % 256, Nat.mod_lt _ (by norm_num)⟩) (by
      rw [Shape.rowMajor_val_three, Shape.rowMajor_val_two]
      show (r.val * 16 + q.val / 256) * 256 + q.val % 256 = r.val * 4096 + q.val
      omega)).symm
  unfold KerSpec.agg2
  refine (hostDivf_apply _ _ _).trans (Eq.trans ?_ (hostDivf_apply _ _ _).symm)
  refine congrArg₂ Ideal.div ?_ ?_
  · -- the scattered sums
    refine (Cert.HostIdx.scatterAdd_rows_apply (N := 8) (E := 1000) (C := 4096) _ _ _ _ r q).trans ?_
    refine Eq.trans ?_ (Cert.HostIdx.scatterAdd_slabs_apply (N := 8) (E := 1000) (H := 16) (C := 256) _ _ _ _ r
      ⟨q.val / 256, by omega⟩ ⟨q.val % 256, Nat.mod_lt _ (by norm_num)⟩).symm
    refine congrArg₂ (· + ·) ((broadcastInDim_scalar_apply _ _ _).trans (broadcastInDim_scalar_apply _ _ _).symm)
      (Finset.sum_congr rfl fun e _ => ?_)
    refine (AggKer2.edge_apply x a3 a4 a9 a10 a21 a22 _ e q).trans ?_
    refine Eq.trans ?_ (AggRef2.core2_apply _ _ a21 a22 _ e ⟨q.val / 256, by omega⟩ ⟨q.val % 256, Nat.mod_lt _ (by norm_num)⟩).symm
    rw [inv_r2, gsrc2_eq, gdst2_eq, gfeat2_eq]
  · -- the counts
    refine (broadcastInDim_apply _ _ _ (ix2 r q) (ix2 (n0 := 8) (n1 := 1) r (0 : Fin 1))
      (by intro a; match a with | ⟨0, _⟩ => rfl | ⟨1, _⟩ => rfl)).trans ?_
    refine (broadcastInDim_apply _ _ _ (ix2 (n0 := 8) (n1 := 1) r (0 : Fin 1)) (ix1 r)
      (by intro a; match a with | ⟨0, _⟩ => rfl)).trans ?_
    refine Eq.trans ?_ (broadcastInDim_apply _ _ _ (ix3 (n0 := 8) (n1 := 16) (n2 := 256) r ⟨q.val / 256, by omega⟩ ⟨q.val % 256, Nat.mod_lt _ (by norm_num)⟩)
      (ix3 (n0 := 8) (n1 := 1) (n2 := 1) r (0 : Fin 1) (0 : Fin 1))
      (by intro a; match a with | ⟨0, _⟩ => rfl | ⟨1, _⟩ => rfl | ⟨2, _⟩ => rfl)).symm
    refine Eq.trans ?_ (broadcastInDim_apply _ _ _ (ix3 (n0 := 8) (n1 := 1) (n2 := 1) r (0 : Fin 1) (0 : Fin 1)) (ix1 r)
      (by intro a; match a with | ⟨0, _⟩ => rfl)).symm
    rfl

end Cert.Bridge.Agg

end
-- ==== Proof.lean ====
/- The certificate of a point-cloud network (three Monte-Carlo convolution levels and a dense head) computed by Pallas
   kernels against its plain jnp reference, at the ideal instance where floats are extended reals.

   Frames. The kernel program as printed and its idealization run — every weakly fair execution terminates, nothing
   faults — and leave the thirty argument arrays as they were: the whole frame proof of each is the imported one. The
   reference is a straight line of tensor operations, none of which writes an argument; its run is read back here, and
   the frame is that run with the result forgotten.

   The idealization. The ideal pass rewrote three literals of the kernel program: the edge kernels' folded reciprocals
   of the three levels' radii, which the certificate's table names and gives the rational values 1/r of the reference's
   printed divisors r. Each is the rule's statement for its name, its word and its value.

   The values. Each program is the same seven stages in a row: per level the aggregation (the edges' offsets over the
   radius through a 3 x 16 layer with leaky-relu 0.2, times the gathered feature, averaged over each destination's edges)
   and the dense stage (projection, batch normalisation over the points, leaky-relu 0.3), then the head. The kernel
   program's run, read back through its seven kernel regions and the host stretches between them, ends with its result
   array at the seven stages in the kernel's spelling composed over the arguments; the reference's run ends with its
   result array at its seven stage functions composed over its arguments. Stage by stage the kernel's spelling equals
   the reference's function on every input — the aggregations because the rows the host appends to fill the last tile
   are dropped again before the mean and the per-tile kernel computes each remaining row as the reference does, the
   named reciprocal being the quotient by the radius; the dense stages because the kernel's one-block body is the
   reference's batch normalisation with the bias, scale and shift as rows — so from memories that agree on the arguments
   the two results are equal, element by element, as extended reals. -/
import proofs.«105096_j6674379178666_1_alg».proof.Defs
import proofs.«105096_j6674379178666_1_alg».proof.Proof.Gen.Kernel
import proofs.«105096_j6674379178666_1_alg».proof.Proof.Gen.Kernel.Skeleton
import proofs.«105096_j6674379178666_1_alg».proof.Proof.Gen.Kernel.Launch
import proofs.«105096_j6674379178666_1_alg».proof.Proof.Gen.Kernel.Points
import proofs.«105096_j6674379178666_1_alg».proof.Proof.Gen.Kernel.Frame
import proofs.«105096_j6674379178666_1_alg».proof.Proof.Gen.KernelIdeal
import proofs.«105096_j6674379178666_1_alg».proof.Proof.Gen.KernelIdeal.Skeleton
import proofs.«105096_j6674379178666_1_alg».proof.Proof.Gen.KernelIdeal.Launch
import proofs.«105096_j6674379178666_1_alg».proof.Proof.Gen.KernelIdeal.Points
import proofs.«105096_j6674379178666_1_alg».proof.Proof.Gen.KernelIdeal.Frame
import proofs.«105096_j6674379178666_1_alg».proof.Proof.Gen.ReferenceIdeal
import proofs.«105096_j6674379178666_1_alg».proof.Proof.Gen.Pre_finite_inputs
import proofs.«105096_j6674379178666_1_alg».proof.Proof.Assemble
import proofs.«105096_j6674379178666_1_alg».proof.Proof.KerRun
import proofs.«105096_j6674379178666_1_alg».proof.Proof.RefRun
import proofs.«105096_j6674379178666_1_alg».proof.Proof.Dense
import proofs.«105096_j6674379178666_1_alg».proof.Proof.Agg0
import proofs.«105096_j6674379178666_1_alg».proof.Proof.Agg1
import proofs.«105096_j6674379178666_1_alg».proof.Proof.Agg2
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_k : Cert.frame_Kernel := fun m ρ _ => Cert.Kernel.Gen.frame m ρ

/-- Its idealization runs and leaves its arguments unchanged. -/
theorem frame_ki : Cert.frame_KernelIdeal := fun m ρ _ => Cert.KernelIdeal.Gen.frame m ρ

/-- The reference runs and leaves its arguments unchanged: its run read back, the result forgotten. -/
theorem frame_ri : Cert.frame_ReferenceIdeal := fun m ρ _ =>
  (θ_run Cert.ReferenceIdeal.defs _ _).mono (fun _ h c => (h c).2) (Cert.ReferenceIdeal.RefRun.run m ρ)

/-- The ledger's three entries: the table gives each named reciprocal its rational value, and the printed constant is
    that value at the ideal instance. -/
theorem preserves : Cert.preserves_Kernel_KernelIdeal :=
  ⟨IdealRules.named_const.statement Cert.KernelIdeal.κ "inv_r0" .f32 0x41200000#32 ((134217728 / 13421773 : ℝ) : EReal) rfl,
   IdealRules.named_const.statement Cert.KernelIdeal.κ "inv_r1" .f32 0x40A00000#32 ((67108864 / 13421773 : ℝ) : EReal) rfl,
   IdealRules.named_const.statement Cert.KernelIdeal.κ "inv_r2" .f32 0x3EC8D312#32 ((4194304 / 10693335 : ℝ) : EReal) rfl⟩

/-- At the ideal instance, from memories that agree on the arguments, both programs run, end with equal results and
    leave the arguments unchanged: the kernel program's run read back as the seven stages in its spelling, the
    reference's run read back as its seven stage functions, and stage by stage the two are one function (the
    aggregations and the dense stages of the three levels, and the head; the dense stages' rows in the kernel's
    spelling are the reference's vectors reshaped, by unfolding). -/
theorem algebraic : Cert.algebraic_KernelIdeal_ReferenceIdeal :=
  Cert.Bridge.Assemble.algebraic_of (fun m ρ => Cert.KernelIdeal.KerRun.run m ρ)
    Cert.Bridge.Agg.agg0_eq (fun X W g be => Cert.Bridge.Dense.dense0_eq X W g be)
    Cert.Bridge.Agg.agg1_eq (fun X W g be => Cert.Bridge.Dense.dense1_eq X W g be)
    Cert.Bridge.Agg.agg2_eq (fun X W g be => Cert.Bridge.Dense.dense2_eq X W g be)
    (fun X W b g be => Cert.Bridge.Dense.head_eq X W b g be)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
